-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37)) (m ((c.tc : Thread Cert.Kernel.nD Cert.Kernel.τ).loc Cert.Kernel.main_arg38)) (m ((c.tc : Thread Cert.Kernel.nD Cert.Kernel.τ).loc Cert.Kernel.main_arg39)) (m ((c.tc : Thread Cert.Kernel.nD Cert.Kernel.τ).loc Cert.Kernel.main_arg40)) (m ((c.tc : Thread Cert.Kernel.nD Cert.Kernel.τ).loc Cert.Kernel.main_arg41)) (m ((c.tc : Thread Cert.Kernel.nD Cert.Kernel.τ).loc Cert.Kernel.main_arg42)) (m ((c.tc : Thread Cert.Kernel.nD Cert.Kernel.τ).loc Cert.Kernel.main_arg43)) (m ((c.tc : Thread Cert.Kernel.nD Cert.Kernel.τ).loc Cert.Kernel.main_arg44)) (m ((c.tc : Thread Cert.Kernel.nD Cert.Kernel.τ).loc Cert.Kernel.main_arg45)) (m ((c.tc : Thread Cert.Kernel.nD Cert.Kernel.τ).loc Cert.Kernel.main_arg46)) (m ((c.tc : Thread Cert.Kernel.nD Cert.Kernel.τ).loc Cert.Kernel.main_arg47)) (m ((c.tc : Thread Cert.Kernel.nD Cert.Kernel.τ).loc Cert.Kernel.main_arg48))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38)) (m ((c.tc : Thread Cert.KernelIdeal.nD Cert.KernelIdeal.τ).loc Cert.KernelIdeal.main_arg39)) (m ((c.tc : Thread Cert.KernelIdeal.nD Cert.KernelIdeal.τ).loc Cert.KernelIdeal.main_arg40)) (m ((c.tc : Thread Cert.KernelIdeal.nD Cert.KernelIdeal.τ).loc Cert.KernelIdeal.main_arg41)) (m ((c.tc : Thread Cert.KernelIdeal.nD Cert.KernelIdeal.τ).loc Cert.KernelIdeal.main_arg42)) (m ((c.tc : Thread Cert.KernelIdeal.nD Cert.KernelIdeal.τ).loc Cert.KernelIdeal.main_arg43)) (m ((c.tc : Thread Cert.KernelIdeal.nD Cert.KernelIdeal.τ).loc Cert.KernelIdeal.main_arg44)) (m ((c.tc : Thread Cert.KernelIdeal.nD Cert.KernelIdeal.τ).loc Cert.KernelIdeal.main_arg45)) (m ((c.tc : Thread Cert.KernelIdeal.nD Cert.KernelIdeal.τ).loc Cert.KernelIdeal.main_arg46)) (m ((c.tc : Thread Cert.KernelIdeal.nD Cert.KernelIdeal.τ).loc Cert.KernelIdeal.main_arg47)) (m ((c.tc : Thread Cert.KernelIdeal.nD Cert.KernelIdeal.τ).loc Cert.KernelIdeal.main_arg48))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38)) (m ((c.tc : Thread Cert.ReferenceIdeal.nD Cert.ReferenceIdeal.τ).loc Cert.ReferenceIdeal.main_arg39)) (m ((c.tc : Thread Cert.ReferenceIdeal.nD Cert.ReferenceIdeal.τ).loc Cert.ReferenceIdeal.main_arg40)) (m ((c.tc : Thread Cert.ReferenceIdeal.nD Cert.ReferenceIdeal.τ).loc Cert.ReferenceIdeal.main_arg41)) (m ((c.tc : Thread Cert.ReferenceIdeal.nD Cert.ReferenceIdeal.τ).loc Cert.ReferenceIdeal.main_arg42)) (m ((c.tc : Thread Cert.ReferenceIdeal.nD Cert.ReferenceIdeal.τ).loc Cert.ReferenceIdeal.main_arg43)) (m ((c.tc : Thread Cert.ReferenceIdeal.nD Cert.ReferenceIdeal.τ).loc Cert.ReferenceIdeal.main_arg44)) (m ((c.tc : Thread Cert.ReferenceIdeal.nD Cert.ReferenceIdeal.τ).loc Cert.ReferenceIdeal.main_arg45)) (m ((c.tc : Thread Cert.ReferenceIdeal.nD Cert.ReferenceIdeal.τ).loc Cert.ReferenceIdeal.main_arg46)) (m ((c.tc : Thread Cert.ReferenceIdeal.nD Cert.ReferenceIdeal.τ).loc Cert.ReferenceIdeal.main_arg47)) (m ((c.tc : Thread Cert.ReferenceIdeal.nD Cert.ReferenceIdeal.τ).loc Cert.ReferenceIdeal.main_arg48))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38)
      ∧ r.2.mem ((c.tc : Thread Cert.Kernel.nD Cert.Kernel.τ).loc Cert.Kernel.main_arg39) = m ((c.tc : Thread Cert.Kernel.nD Cert.Kernel.τ).loc Cert.Kernel.main_arg39)
      ∧ r.2.mem ((c.tc : Thread Cert.Kernel.nD Cert.Kernel.τ).loc Cert.Kernel.main_arg40) = m ((c.tc : Thread Cert.Kernel.nD Cert.Kernel.τ).loc Cert.Kernel.main_arg40)
      ∧ r.2.mem ((c.tc : Thread Cert.Kernel.nD Cert.Kernel.τ).loc Cert.Kernel.main_arg41) = m ((c.tc : Thread Cert.Kernel.nD Cert.Kernel.τ).loc Cert.Kernel.main_arg41)
      ∧ r.2.mem ((c.tc : Thread Cert.Kernel.nD Cert.Kernel.τ).loc Cert.Kernel.main_arg42) = m ((c.tc : Thread Cert.Kernel.nD Cert.Kernel.τ).loc Cert.Kernel.main_arg42)
      ∧ r.2.mem ((c.tc : Thread Cert.Kernel.nD Cert.Kernel.τ).loc Cert.Kernel.main_arg43) = m ((c.tc : Thread Cert.Kernel.nD Cert.Kernel.τ).loc Cert.Kernel.main_arg43)
      ∧ r.2.mem ((c.tc : Thread Cert.Kernel.nD Cert.Kernel.τ).loc Cert.Kernel.main_arg44) = m ((c.tc : Thread Cert.Kernel.nD Cert.Kernel.τ).loc Cert.Kernel.main_arg44)
      ∧ r.2.mem ((c.tc : Thread Cert.Kernel.nD Cert.Kernel.τ).loc Cert.Kernel.main_arg45) = m ((c.tc : Thread Cert.Kernel.nD Cert.Kernel.τ).loc Cert.Kernel.main_arg45)
      ∧ r.2.mem ((c.tc : Thread Cert.Kernel.nD Cert.Kernel.τ).loc Cert.Kernel.main_arg46) = m ((c.tc : Thread Cert.Kernel.nD Cert.Kernel.τ).loc Cert.Kernel.main_arg46)
      ∧ r.2.mem ((c.tc : Thread Cert.Kernel.nD Cert.Kernel.τ).loc Cert.Kernel.main_arg47) = m ((c.tc : Thread Cert.Kernel.nD Cert.Kernel.τ).loc Cert.Kernel.main_arg47)
      ∧ r.2.mem ((c.tc : Thread Cert.Kernel.nD Cert.Kernel.τ).loc Cert.Kernel.main_arg48) = m ((c.tc : Thread Cert.Kernel.nD Cert.Kernel.τ).loc Cert.Kernel.main_arg48))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
      ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
      ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
      ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41)
      ∧ r.2.mem ((c.tc : Thread Cert.KernelIdeal.nD Cert.KernelIdeal.τ).loc Cert.KernelIdeal.main_arg42) = m ((c.tc : Thread Cert.KernelIdeal.nD Cert.KernelIdeal.τ).loc Cert.KernelIdeal.main_arg42)
      ∧ r.2.mem ((c.tc : Thread Cert.KernelIdeal.nD Cert.KernelIdeal.τ).loc Cert.KernelIdeal.main_arg43) = m ((c.tc : Thread Cert.KernelIdeal.nD Cert.KernelIdeal.τ).loc Cert.KernelIdeal.main_arg43)
      ∧ r.2.mem ((c.tc : Thread Cert.KernelIdeal.nD Cert.KernelIdeal.τ).loc Cert.KernelIdeal.main_arg44) = m ((c.tc : Thread Cert.KernelIdeal.nD Cert.KernelIdeal.τ).loc Cert.KernelIdeal.main_arg44)
      ∧ r.2.mem ((c.tc : Thread Cert.KernelIdeal.nD Cert.KernelIdeal.τ).loc Cert.KernelIdeal.main_arg45) = m ((c.tc : Thread Cert.KernelIdeal.nD Cert.KernelIdeal.τ).loc Cert.KernelIdeal.main_arg45)
      ∧ r.2.mem ((c.tc : Thread Cert.KernelIdeal.nD Cert.KernelIdeal.τ).loc Cert.KernelIdeal.main_arg46) = m ((c.tc : Thread Cert.KernelIdeal.nD Cert.KernelIdeal.τ).loc Cert.KernelIdeal.main_arg46)
      ∧ r.2.mem ((c.tc : Thread Cert.KernelIdeal.nD Cert.KernelIdeal.τ).loc Cert.KernelIdeal.main_arg47) = m ((c.tc : Thread Cert.KernelIdeal.nD Cert.KernelIdeal.τ).loc Cert.KernelIdeal.main_arg47)
      ∧ r.2.mem ((c.tc : Thread Cert.KernelIdeal.nD Cert.KernelIdeal.τ).loc Cert.KernelIdeal.main_arg48) = m ((c.tc : Thread Cert.KernelIdeal.nD Cert.KernelIdeal.τ).loc Cert.KernelIdeal.main_arg48))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38)
      ∧ r.2.mem ((c.tc : Thread Cert.ReferenceIdeal.nD Cert.ReferenceIdeal.τ).loc Cert.ReferenceIdeal.main_arg39) = m ((c.tc : Thread Cert.ReferenceIdeal.nD Cert.ReferenceIdeal.τ).loc Cert.ReferenceIdeal.main_arg39)
      ∧ r.2.mem ((c.tc : Thread Cert.ReferenceIdeal.nD Cert.ReferenceIdeal.τ).loc Cert.ReferenceIdeal.main_arg40) = m ((c.tc : Thread Cert.ReferenceIdeal.nD Cert.ReferenceIdeal.τ).loc Cert.ReferenceIdeal.main_arg40)
      ∧ r.2.mem ((c.tc : Thread Cert.ReferenceIdeal.nD Cert.ReferenceIdeal.τ).loc Cert.ReferenceIdeal.main_arg41) = m ((c.tc : Thread Cert.ReferenceIdeal.nD Cert.ReferenceIdeal.τ).loc Cert.ReferenceIdeal.main_arg41)
      ∧ r.2.mem ((c.tc : Thread Cert.ReferenceIdeal.nD Cert.ReferenceIdeal.τ).loc Cert.ReferenceIdeal.main_arg42) = m ((c.tc : Thread Cert.ReferenceIdeal.nD Cert.ReferenceIdeal.τ).loc Cert.ReferenceIdeal.main_arg42)
      ∧ r.2.mem ((c.tc : Thread Cert.ReferenceIdeal.nD Cert.ReferenceIdeal.τ).loc Cert.ReferenceIdeal.main_arg43) = m ((c.tc : Thread Cert.ReferenceIdeal.nD Cert.ReferenceIdeal.τ).loc Cert.ReferenceIdeal.main_arg43)
      ∧ r.2.mem ((c.tc : Thread Cert.ReferenceIdeal.nD Cert.ReferenceIdeal.τ).loc Cert.ReferenceIdeal.main_arg44) = m ((c.tc : Thread Cert.ReferenceIdeal.nD Cert.ReferenceIdeal.τ).loc Cert.ReferenceIdeal.main_arg44)
      ∧ r.2.mem ((c.tc : Thread Cert.ReferenceIdeal.nD Cert.ReferenceIdeal.τ).loc Cert.ReferenceIdeal.main_arg45) = m ((c.tc : Thread Cert.ReferenceIdeal.nD Cert.ReferenceIdeal.τ).loc Cert.ReferenceIdeal.main_arg45)
      ∧ r.2.mem ((c.tc : Thread Cert.ReferenceIdeal.nD Cert.ReferenceIdeal.τ).loc Cert.ReferenceIdeal.main_arg46) = m ((c.tc : Thread Cert.ReferenceIdeal.nD Cert.ReferenceIdeal.τ).loc Cert.ReferenceIdeal.main_arg46)
      ∧ r.2.mem ((c.tc : Thread Cert.ReferenceIdeal.nD Cert.ReferenceIdeal.τ).loc Cert.ReferenceIdeal.main_arg47) = m ((c.tc : Thread Cert.ReferenceIdeal.nD Cert.ReferenceIdeal.τ).loc Cert.ReferenceIdeal.main_arg47)
      ∧ r.2.mem ((c.tc : Thread Cert.ReferenceIdeal.nD Cert.ReferenceIdeal.τ).loc Cert.ReferenceIdeal.main_arg48) = m ((c.tc : Thread Cert.ReferenceIdeal.nD Cert.ReferenceIdeal.τ).loc Cert.ReferenceIdeal.main_arg48))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)
      ∧ m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40)
      ∧ m' ((c.tc : Thread Cert.ReferenceIdeal.nD Cert.ReferenceIdeal.τ).loc Cert.ReferenceIdeal.main_arg41) = m ((c.tc : Thread Cert.KernelIdeal.nD Cert.KernelIdeal.τ).loc Cert.KernelIdeal.main_arg41)
      ∧ m' ((c.tc : Thread Cert.ReferenceIdeal.nD Cert.ReferenceIdeal.τ).loc Cert.ReferenceIdeal.main_arg42) = m ((c.tc : Thread Cert.KernelIdeal.nD Cert.KernelIdeal.τ).loc Cert.KernelIdeal.main_arg42)
      ∧ m' ((c.tc : Thread Cert.ReferenceIdeal.nD Cert.ReferenceIdeal.τ).loc Cert.ReferenceIdeal.main_arg43) = m ((c.tc : Thread Cert.KernelIdeal.nD Cert.KernelIdeal.τ).loc Cert.KernelIdeal.main_arg43)
      ∧ m' ((c.tc : Thread Cert.ReferenceIdeal.nD Cert.ReferenceIdeal.τ).loc Cert.ReferenceIdeal.main_arg44) = m ((c.tc : Thread Cert.KernelIdeal.nD Cert.KernelIdeal.τ).loc Cert.KernelIdeal.main_arg44)
      ∧ m' ((c.tc : Thread Cert.ReferenceIdeal.nD Cert.ReferenceIdeal.τ).loc Cert.ReferenceIdeal.main_arg45) = m ((c.tc : Thread Cert.KernelIdeal.nD Cert.KernelIdeal.τ).loc Cert.KernelIdeal.main_arg45)
      ∧ m' ((c.tc : Thread Cert.ReferenceIdeal.nD Cert.ReferenceIdeal.τ).loc Cert.ReferenceIdeal.main_arg46) = m ((c.tc : Thread Cert.KernelIdeal.nD Cert.KernelIdeal.τ).loc Cert.KernelIdeal.main_arg46)
      ∧ m' ((c.tc : Thread Cert.ReferenceIdeal.nD Cert.ReferenceIdeal.τ).loc Cert.ReferenceIdeal.main_arg47) = m ((c.tc : Thread Cert.KernelIdeal.nD Cert.KernelIdeal.τ).loc Cert.KernelIdeal.main_arg47)
      ∧ m' ((c.tc : Thread Cert.ReferenceIdeal.nD Cert.ReferenceIdeal.τ).loc Cert.ReferenceIdeal.main_arg48) = m ((c.tc : Thread Cert.KernelIdeal.nD Cert.KernelIdeal.τ).loc Cert.KernelIdeal.main_arg48)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
          ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
          ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
          ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41)
          ∧ r.2.mem ((c.tc : Thread Cert.KernelIdeal.nD Cert.KernelIdeal.τ).loc Cert.KernelIdeal.main_arg42) = m ((c.tc : Thread Cert.KernelIdeal.nD Cert.KernelIdeal.τ).loc Cert.KernelIdeal.main_arg42)
          ∧ r.2.mem ((c.tc : Thread Cert.KernelIdeal.nD Cert.KernelIdeal.τ).loc Cert.KernelIdeal.main_arg43) = m ((c.tc : Thread Cert.KernelIdeal.nD Cert.KernelIdeal.τ).loc Cert.KernelIdeal.main_arg43)
          ∧ r.2.mem ((c.tc : Thread Cert.KernelIdeal.nD Cert.KernelIdeal.τ).loc Cert.KernelIdeal.main_arg44) = m ((c.tc : Thread Cert.KernelIdeal.nD Cert.KernelIdeal.τ).loc Cert.KernelIdeal.main_arg44)
          ∧ r.2.mem ((c.tc : Thread Cert.KernelIdeal.nD Cert.KernelIdeal.τ).loc Cert.KernelIdeal.main_arg45) = m ((c.tc : Thread Cert.KernelIdeal.nD Cert.KernelIdeal.τ).loc Cert.KernelIdeal.main_arg45)
          ∧ r.2.mem ((c.tc : Thread Cert.KernelIdeal.nD Cert.KernelIdeal.τ).loc Cert.KernelIdeal.main_arg46) = m ((c.tc : Thread Cert.KernelIdeal.nD Cert.KernelIdeal.τ).loc Cert.KernelIdeal.main_arg46)
          ∧ r.2.mem ((c.tc : Thread Cert.KernelIdeal.nD Cert.KernelIdeal.τ).loc Cert.KernelIdeal.main_arg47) = m ((c.tc : Thread Cert.KernelIdeal.nD Cert.KernelIdeal.τ).loc Cert.KernelIdeal.main_arg47)
          ∧ r.2.mem ((c.tc : Thread Cert.KernelIdeal.nD Cert.KernelIdeal.τ).loc Cert.KernelIdeal.main_arg48) = m ((c.tc : Thread Cert.KernelIdeal.nD Cert.KernelIdeal.τ).loc Cert.KernelIdeal.main_arg48))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38)
          ∧ r.2.mem ((c.tc : Thread Cert.ReferenceIdeal.nD Cert.ReferenceIdeal.τ).loc Cert.ReferenceIdeal.main_arg39) = m' ((c.tc : Thread Cert.ReferenceIdeal.nD Cert.ReferenceIdeal.τ).loc Cert.ReferenceIdeal.main_arg39)
          ∧ r.2.mem ((c.tc : Thread Cert.ReferenceIdeal.nD Cert.ReferenceIdeal.τ).loc Cert.ReferenceIdeal.main_arg40) = m' ((c.tc : Thread Cert.ReferenceIdeal.nD Cert.ReferenceIdeal.τ).loc Cert.ReferenceIdeal.main_arg40)
          ∧ r.2.mem ((c.tc : Thread Cert.ReferenceIdeal.nD Cert.ReferenceIdeal.τ).loc Cert.ReferenceIdeal.main_arg41) = m' ((c.tc : Thread Cert.ReferenceIdeal.nD Cert.ReferenceIdeal.τ).loc Cert.ReferenceIdeal.main_arg41)
          ∧ r.2.mem ((c.tc : Thread Cert.ReferenceIdeal.nD Cert.ReferenceIdeal.τ).loc Cert.ReferenceIdeal.main_arg42) = m' ((c.tc : Thread Cert.ReferenceIdeal.nD Cert.ReferenceIdeal.τ).loc Cert.ReferenceIdeal.main_arg42)
          ∧ r.2.mem ((c.tc : Thread Cert.ReferenceIdeal.nD Cert.ReferenceIdeal.τ).loc Cert.ReferenceIdeal.main_arg43) = m' ((c.tc : Thread Cert.ReferenceIdeal.nD Cert.ReferenceIdeal.τ).loc Cert.ReferenceIdeal.main_arg43)
          ∧ r.2.mem ((c.tc : Thread Cert.ReferenceIdeal.nD Cert.ReferenceIdeal.τ).loc Cert.ReferenceIdeal.main_arg44) = m' ((c.tc : Thread Cert.ReferenceIdeal.nD Cert.ReferenceIdeal.τ).loc Cert.ReferenceIdeal.main_arg44)
          ∧ r.2.mem ((c.tc : Thread Cert.ReferenceIdeal.nD Cert.ReferenceIdeal.τ).loc Cert.ReferenceIdeal.main_arg45) = m' ((c.tc : Thread Cert.ReferenceIdeal.nD Cert.ReferenceIdeal.τ).loc Cert.ReferenceIdeal.main_arg45)
          ∧ r.2.mem ((c.tc : Thread Cert.ReferenceIdeal.nD Cert.ReferenceIdeal.τ).loc Cert.ReferenceIdeal.main_arg46) = m' ((c.tc : Thread Cert.ReferenceIdeal.nD Cert.ReferenceIdeal.τ).loc Cert.ReferenceIdeal.main_arg46)
          ∧ r.2.mem ((c.tc : Thread Cert.ReferenceIdeal.nD Cert.ReferenceIdeal.τ).loc Cert.ReferenceIdeal.main_arg47) = m' ((c.tc : Thread Cert.ReferenceIdeal.nD Cert.ReferenceIdeal.τ).loc Cert.ReferenceIdeal.main_arg47)
          ∧ r.2.mem ((c.tc : Thread Cert.ReferenceIdeal.nD Cert.ReferenceIdeal.τ).loc Cert.ReferenceIdeal.main_arg48) = m' ((c.tc : Thread Cert.ReferenceIdeal.nD Cert.ReferenceIdeal.τ).loc Cert.ReferenceIdeal.main_arg48))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x8x8192 : Shape := ⟨3, ![128, 8, 8192]⟩
abbrev S64x256 : Shape := ⟨2, ![64, 256]⟩
abbrev S256x16 : Shape := ⟨2, ![256, 16]⟩
abbrev S1x16 : Shape := ⟨2, ![1, 16]⟩
abbrev S64x128 : Shape := ⟨2, ![64, 128]⟩
abbrev S256x128 : Shape := ⟨2, ![256, 128]⟩
abbrev S1x128 : Shape := ⟨2, ![1, 128]⟩
abbrev S256x256 : Shape := ⟨2, ![256, 256]⟩
abbrev S1x256 : Shape := ⟨2, ![1, 256]⟩
abbrev S_ : Shape := ⟨0, ![]⟩

class Facts : Prop where
  bcast_S_S128x8x8192 : S_.BroadcastsInDim S128x8x8192 (![] : Fin 0 → Fin S128x8x8192.rank)
  reducesTo_S128x8x8192_S_d0_1_2 : S128x8x8192.ReducesTo [0, 1, 2] S_
  h_S_ : 0 < S_.numel
  bcast_S_S64x256 : S_.BroadcastsInDim S64x256 (![] : Fin 0 → Fin S64x256.rank)
  reducesTo_S64x256_S_d0_1 : S64x256.ReducesTo [0, 1] S_
  bcast_S_S256x16 : S_.BroadcastsInDim S256x16 (![] : Fin 0 → Fin S256x16.rank)
  reducesTo_S256x16_S_d0_1 : S256x16.ReducesTo [0, 1] S_
  bcast_S_S1x16 : S_.BroadcastsInDim S1x16 (![] : Fin 0 → Fin S1x16.rank)
  reducesTo_S1x16_S_d0_1 : S1x16.ReducesTo [0, 1] S_
  bcast_S_S64x128 : S_.BroadcastsInDim S64x128 (![] : Fin 0 → Fin S64x128.rank)
  reducesTo_S64x128_S_d0_1 : S64x128.ReducesTo [0, 1] S_
  bcast_S_S256x128 : S_.BroadcastsInDim S256x128 (![] : Fin 0 → Fin S256x128.rank)
  reducesTo_S256x128_S_d0_1 : S256x128.ReducesTo [0, 1] S_
  bcast_S_S1x128 : S_.BroadcastsInDim S1x128 (![] : Fin 0 → Fin S1x128.rank)
  reducesTo_S1x128_S_d0_1 : S1x128.ReducesTo [0, 1] S_
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_

variable [Facts]

def fn_part14 {F : FTy → Type} [FloatOps F] (main_v238 : IVec S_ 1) (main_v239 : FVec F S1x256 .f32) : IVec S_ 1 :=
  let main_cst_94 : FVec F S_ .f32 := constant S_ .f32 0x7F800000#32
  let main_v240 : FVec F S1x256 .f32 := broadcastInDim S1x256 ![] bcast_S_S1x256 main_cst_94
  let main_v241 : IVec S1x256 1 := cmpf .olt main_v239 main_v240
  let main_c_95 : IVec S_ 1 := constantI S_ 1 1#1
  let main_v242 : IVec S_ 1 := (fun x v => Host.reduce IntOp.andi x v reducesTo_S1x256_S_d0_1 h_S_) main_v241 main_c_95
  let main_v243 : IVec S_ 1 := andi main_v238 main_v242
  main_v243

def fn_part13 {F : FTy → Type} [FloatOps F] (main_arg45 : FVec F S256x256 .f32) (main_arg46 : FVec F S1x256 .f32) (main_arg47 : FVec F S1x256 .f32) (main_arg48 : FVec F S1x256 .f32) (main_v218 : IVec S_ 1) (main_v221 : IVec S1x256 1) (main_c_87 : IVec S_ 1) : IVec S_ 1 :=
  let main_v222 : IVec S_ 1 := (fun x v => Host.reduce IntOp.andi x v reducesTo_S1x256_S_d0_1 h_S_) main_v221 main_c_87
  let main_v223 : IVec S_ 1 := andi main_v218 main_v222
  let main_v224 : FVec F S256x256 .f32 := Host.absf main_arg45
  let main_cst_88 : FVec F S_ .f32 := constant S_ .f32 0x7F800000#32
  let main_v225 : FVec F S256x256 .f32 := broadcastInDim S256x256 ![] bcast_S_S256x256 main_cst_88
  let main_v226 : IVec S256x256 1 := cmpf .olt main_v224 main_v225
  let main_c_89 : IVec S_ 1 := constantI S_ 1 1#1
  let main_v227 : IVec S_ 1 := (fun x v => Host.reduce IntOp.andi x v reducesTo_S256x256_S_d0_1 h_S_) main_v226 main_c_89
  let main_v228 : IVec S_ 1 := andi main_v223 main_v227
  let main_v229 : FVec F S1x256 .f32 := Host.absf main_arg46
  let main_cst_90 : FVec F S_ .f32 := constant S_ .f32 0x7F800000#32
  let main_v230 : FVec F S1x256 .f32 := broadcastInDim S1x256 ![] bcast_S_S1x256 main_cst_90
  let main_v231 : IVec S1x256 1 := cmpf .olt main_v229 main_v230
  let main_c_91 : IVec S_ 1 := constantI S_ 1 1#1
  let main_v232 : IVec S_ 1 := (fun x v => Host.reduce IntOp.andi x v reducesTo_S1x256_S_d0_1 h_S_) main_v231 main_c_91
  let main_v233 : IVec S_ 1 := andi main_v228 main_v232
  let main_v234 : FVec F S1x256 .f32 := Host.absf main_arg47
  let main_cst_92 : FVec F S_ .f32 := constant S_ .f32 0x7F800000#32
  let main_v235 : FVec F S1x256 .f32 := broadcastInDim S1x256 ![] bcast_S_S1x256 main_cst_92
  let main_v236 : IVec S1x256 1 := cmpf .olt main_v234 main_v235
  let main_c_93 : IVec S_ 1 := constantI S_ 1 1#1
  let main_v237 : IVec S_ 1 := (fun x v => Host.reduce IntOp.andi x v reducesTo_S1x256_S_d0_1 h_S_) main_v236 main_c_93
  let main_v238 : IVec S_ 1 := andi main_v233 main_v237
  let main_v239 : FVec F S1x256 .f32 := Host.absf main_arg48
  fn_part14 (F := F) main_v238 main_v239

def fn_part12 {F : FTy → Type} [FloatOps F] (main_arg42 : FVec F S1x256 .f32) (main_arg43 : FVec F S256x256 .f32) (main_arg44 : FVec F S1x256 .f32) (main_arg45 : FVec F S256x256 .f32) (main_arg46 : FVec F S1x256 .f32) (main_arg47 : FVec F S1x256 .f32) (main_arg48 : FVec F S1x256 .f32) (main_v203 : IVec S_ 1) (main_v204 : FVec F S1x256 .f32) (main_cst_80 : FVec F S_ .f32) : IVec S_ 1 :=
  let main_v205 : FVec F S1x256 .f32 := broadcastInDim S1x256 ![] bcast_S_S1x256 main_cst_80
  let main_v206 : IVec S1x256 1 := cmpf .olt main_v204 main_v205
  let main_c_81 : IVec S_ 1 := constantI S_ 1 1#1
  let main_v207 : IVec S_ 1 := (fun x v => Host.reduce IntOp.andi x v reducesTo_S1x256_S_d0_1 h_S_) main_v206 main_c_81
  let main_v208 : IVec S_ 1 := andi main_v203 main_v207
  let main_v209 : FVec F S1x256 .f32 := Host.absf main_arg42
  let main_cst_82 : FVec F S_ .f32 := constant S_ .f32 0x7F800000#32
  let main_v210 : FVec F S1x256 .f32 := broadcastInDim S1x256 ![] bcast_S_S1x256 main_cst_82
  let main_v211 : IVec S1x256 1 := cmpf .olt main_v209 main_v210
  let main_c_83 : IVec S_ 1 := constantI S_ 1 1#1
  let main_v212 : IVec S_ 1 := (fun x v => Host.reduce IntOp.andi x v reducesTo_S1x256_S_d0_1 h_S_) main_v211 main_c_83
  let main_v213 : IVec S_ 1 := andi main_v208 main_v212
  let main_v214 : FVec F S256x256 .f32 := Host.absf main_arg43
  let main_cst_84 : FVec F S_ .f32 := constant S_ .f32 0x7F800000#32
  let main_v215 : FVec F S256x256 .f32 := broadcastInDim S256x256 ![] bcast_S_S256x256 main_cst_84
  let main_v216 : IVec S256x256 1 := cmpf .olt main_v214 main_v215
  let main_c_85 : IVec S_ 1 := constantI S_ 1 1#1
  let main_v217 : IVec S_ 1 := (fun x v => Host.reduce IntOp.andi x v reducesTo_S256x256_S_d0_1 h_S_) main_v216 main_c_85
  let main_v218 : IVec S_ 1 := andi main_v213 main_v217
  let main_v219 : FVec F S1x256 .f32 := Host.absf main_arg44
  let main_cst_86 : FVec F S_ .f32 := constant S_ .f32 0x7F800000#32
  let main_v220 : FVec F S1x256 .f32 := broadcastInDim S1x256 ![] bcast_S_S1x256 main_cst_86
  let main_v221 : IVec S1x256 1 := cmpf .olt main_v219 main_v220
  let main_c_87 : IVec S_ 1 := constantI S_ 1 1#1
  fn_part13 (F := F) main_arg45 main_arg46 main_arg47 main_arg48 main_v218 main_v221 main_c_87

def fn_part11 {F : FTy → Type} [FloatOps F] (main_arg38 : FVec F S1x256 .f32) (main_arg39 : FVec F S256x256 .f32) (main_arg40 : FVec F S1x256 .f32) (main_arg41 : FVec F S1x256 .f32) (main_arg42 : FVec F S1x256 .f32) (main_arg43 : FVec F S256x256 .f32) (main_arg44 : FVec F S1x256 .f32) (main_arg45 : FVec F S256x256 .f32) (main_arg46 : FVec F S1x256 .f32) (main_arg47 : FVec F S1x256 .f32) (main_arg48 : FVec F S1x256 .f32) (main_v183 : IVec S_ 1) (main_v187 : IVec S_ 1) : IVec S_ 1 :=
  let main_v188 : IVec S_ 1 := andi main_v183 main_v187
  let main_v189 : FVec F S1x256 .f32 := Host.absf main_arg38
  let main_cst_74 : FVec F S_ .f32 := constant S_ .f32 0x7F800000#32
  let main_v190 : FVec F S1x256 .f32 := broadcastInDim S1x256 ![] bcast_S_S1x256 main_cst_74
  let main_v191 : IVec S1x256 1 := cmpf .olt main_v189 main_v190
  let main_c_75 : IVec S_ 1 := constantI S_ 1 1#1
  let main_v192 : IVec S_ 1 := (fun x v => Host.reduce IntOp.andi x v reducesTo_S1x256_S_d0_1 h_S_) main_v191 main_c_75
  let main_v193 : IVec S_ 1 := andi main_v188 main_v192
  let main_v194 : FVec F S256x256 .f32 := Host.absf main_arg39
  let main_cst_76 : FVec F S_ .f32 := constant S_ .f32 0x7F800000#32
  let main_v195 : FVec F S256x256 .f32 := broadcastInDim S256x256 ![] bcast_S_S256x256 main_cst_76
  let main_v196 : IVec S256x256 1 := cmpf .olt main_v194 main_v195
  let main_c_77 : IVec S_ 1 := constantI S_ 1 1#1
  let main_v197 : IVec S_ 1 := (fun x v => Host.reduce IntOp.andi x v reducesTo_S256x256_S_d0_1 h_S_) main_v196 main_c_77
  let main_v198 : IVec S_ 1 := andi main_v193 main_v197
  let main_v199 : FVec F S1x256 .f32 := Host.absf main_arg40
  let main_cst_78 : FVec F S_ .f32 := constant S_ .f32 0x7F800000#32
  let main_v200 : FVec F S1x256 .f32 := broadcastInDim S1x256 ![] bcast_S_S1x256 main_cst_78
  let main_v201 : IVec S1x256 1 := cmpf .olt main_v199 main_v200
  let main_c_79 : IVec S_ 1 := constantI S_ 1 1#1
  let main_v202 : IVec S_ 1 := (fun x v => Host.reduce IntOp.andi x v reducesTo_S1x256_S_d0_1 h_S_) main_v201 main_c_79
  let main_v203 : IVec S_ 1 := andi main_v198 main_v202
  let main_v204 : FVec F S1x256 .f32 := Host.absf main_arg41
  let main_cst_80 : FVec F S_ .f32 := constant S_ .f32 0x7F800000#32
  fn_part12 (F := F) main_arg42 main_arg43 main_arg44 main_arg45 main_arg46 main_arg47 main_arg48 main_v203 main_v204 main_cst_80

def fn_part10 {F : FTy → Type} [FloatOps F] (main_arg35 : FVec F S256x256 .f32) (main_arg36 : FVec F S1x256 .f32) (main_arg37 : FVec F S256x256 .f32) (main_arg38 : FVec F S1x256 .f32) (main_arg39 : FVec F S256x256 .f32) (main_arg40 : FVec F S1x256 .f32) (main_arg41 : FVec F S1x256 .f32) (main_arg42 : FVec F S1x256 .f32) (main_arg43 : FVec F S256x256 .f32) (main_arg44 : FVec F S1x256 .f32) (main_arg45 : FVec F S256x256 .f32) (main_arg46 : FVec F S1x256 .f32) (main_arg47 : FVec F S1x256 .f32) (main_arg48 : FVec F S1x256 .f32) (main_v168 : IVec S_ 1) (main_v169 : FVec F S1x256 .f32) (main_v170 : FVec F S1x256 .f32) : IVec S_ 1 :=
  let main_v171 : IVec S1x256 1 := cmpf .olt main_v169 main_v170
  let main_c_67 : IVec S_ 1 := constantI S_ 1 1#1
  let main_v172 : IVec S_ 1 := (fun x v => Host.reduce IntOp.andi x v reducesTo_S1x256_S_d0_1 h_S_) main_v171 main_c_67
  let main_v173 : IVec S_ 1 := andi main_v168 main_v172
  let main_v174 : FVec F S256x256 .f32 := Host.absf main_arg35
  let main_cst_68 : FVec F S_ .f32 := constant S_ .f32 0x7F800000#32
  let main_v175 : FVec F S256x256 .f32 := broadcastInDim S256x256 ![] bcast_S_S256x256 main_cst_68
  let main_v176 : IVec S256x256 1 := cmpf .olt main_v174 main_v175
  let main_c_69 : IVec S_ 1 := constantI S_ 1 1#1
  let main_v177 : IVec S_ 1 := (fun x v => Host.reduce IntOp.andi x v reducesTo_S256x256_S_d0_1 h_S_) main_v176 main_c_69
  let main_v178 : IVec S_ 1 := andi main_v173 main_v177
  let main_v179 : FVec F S1x256 .f32 := Host.absf main_arg36
  let main_cst_70 : FVec F S_ .f32 := constant S_ .f32 0x7F800000#32
  let main_v180 : FVec F S1x256 .f32 := broadcastInDim S1x256 ![] bcast_S_S1x256 main_cst_70
  let main_v181 : IVec S1x256 1 := cmpf .olt main_v179 main_v180
  let main_c_71 : IVec S_ 1 := constantI S_ 1 1#1
  let main_v182 : IVec S_ 1 := (fun x v => Host.reduce IntOp.andi x v reducesTo_S1x256_S_d0_1 h_S_) main_v181 main_c_71
  let main_v183 : IVec S_ 1 := andi main_v178 main_v182
  let main_v184 : FVec F S256x256 .f32 := Host.absf main_arg37
  let main_cst_72 : FVec F S_ .f32 := constant S_ .f32 0x7F800000#32
  let main_v185 : FVec F S256x256 .f32 := broadcastInDim S256x256 ![] bcast_S_S256x256 main_cst_72
  let main_v186 : IVec S256x256 1 := cmpf .olt main_v184 main_v185
  let main_c_73 : IVec S_ 1 := constantI S_ 1 1#1
  let main_v187 : IVec S_ 1 := (fun x v => Host.reduce IntOp.andi x v reducesTo_S256x256_S_d0_1 h_S_) main_v186 main_c_73
  fn_part11 (F := F) main_arg38 main_arg39 main_arg40 main_arg41 main_arg42 main_arg43 main_arg44 main_arg45 main_arg46 main_arg47 main_arg48 main_v183 main_v187

def fn_part9 {F : FTy → Type} [FloatOps F] (main_arg31 : FVec F S256x128 .f32) (main_arg32 : FVec F S1x128 .f32) (main_arg33 : FVec F S256x256 .f32) (main_arg34 : FVec F S1x256 .f32) (main_arg35 : FVec F S256x256 .f32) (main_arg36 : FVec F S1x256 .f32) (main_arg37 : FVec F S256x256 .f32) (main_arg38 : FVec F S1x256 .f32) (main_arg39 : FVec F S256x256 .f32) (main_arg40 : FVec F S1x256 .f32) (main_arg41 : FVec F S1x256 .f32) (main_arg42 : FVec F S1x256 .f32) (main_arg43 : FVec F S256x256 .f32) (main_arg44 : FVec F S1x256 .f32) (main_arg45 : FVec F S256x256 .f32) (main_arg46 : FVec F S1x256 .f32) (main_arg47 : FVec F S1x256 .f32) (main_arg48 : FVec F S1x256 .f32) (main_v153 : IVec S_ 1) : IVec S_ 1 :=
  let main_v154 : FVec F S256x128 .f32 := Host.absf main_arg31
  let main_cst_60 : FVec F S_ .f32 := constant S_ .f32 0x7F800000#32
  let main_v155 : FVec F S256x128 .f32 := broadcastInDim S256x128 ![] bcast_S_S256x128 main_cst_60
  let main_v156 : IVec S256x128 1 := cmpf .olt main_v154 main_v155
  let main_c_61 : IVec S_ 1 := constantI S_ 1 1#1
  let main_v157 : IVec S_ 1 := (fun x v => Host.reduce IntOp.andi x v reducesTo_S256x128_S_d0_1 h_S_) main_v156 main_c_61
  let main_v158 : IVec S_ 1 := andi main_v153 main_v157
  let main_v159 : FVec F S1x128 .f32 := Host.absf main_arg32
  let main_cst_62 : FVec F S_ .f32 := constant S_ .f32 0x7F800000#32
  let main_v160 : FVec F S1x128 .f32 := broadcastInDim S1x128 ![] bcast_S_S1x128 main_cst_62
  let main_v161 : IVec S1x128 1 := cmpf .olt main_v159 main_v160
  let main_c_63 : IVec S_ 1 := constantI S_ 1 1#1
  let main_v162 : IVec S_ 1 := (fun x v => Host.reduce IntOp.andi x v reducesTo_S1x128_S_d0_1 h_S_) main_v161 main_c_63
  let main_v163 : IVec S_ 1 := andi main_v158 main_v162
  let main_v164 : FVec F S256x256 .f32 := Host.absf main_arg33
  let main_cst_64 : FVec F S_ .f32 := constant S_ .f32 0x7F800000#32
  let main_v165 : FVec F S256x256 .f32 := broadcastInDim S256x256 ![] bcast_S_S256x256 main_cst_64
  let main_v166 : IVec S256x256 1 := cmpf .olt main_v164 main_v165
  let main_c_65 : IVec S_ 1 := constantI S_ 1 1#1
  let main_v167 : IVec S_ 1 := (fun x v => Host.reduce IntOp.andi x v reducesTo_S256x256_S_d0_1 h_S_) main_v166 main_c_65
  let main_v168 : IVec S_ 1 := andi main_v163 main_v167
  let main_v169 : FVec F S1x256 .f32 := Host.absf main_arg34
  let main_cst_66 : FVec F S_ .f32 := constant S_ .f32 0x7F800000#32
  let main_v170 : FVec F S1x256 .f32 := broadcastInDim S1x256 ![] bcast_S_S1x256 main_cst_66
  fn_part10 (F := F) main_arg35 main_arg36 main_arg37 main_arg38 main_arg39 main_arg40 main_arg41 main_arg42 main_arg43 main_arg44 main_arg45 main_arg46 main_arg47 main_arg48 main_v168 main_v169 main_v170

def fn_part8 {F : FTy → Type} [FloatOps F] (main_arg28 : FVec F S64x128 .f32) (main_arg29 : FVec F S64x128 .f32) (main_arg30 : FVec F S64x128 .f32) (main_arg31 : FVec F S256x128 .f32) (main_arg32 : FVec F S1x128 .f32) (main_arg33 : FVec F S256x256 .f32) (main_arg34 : FVec F S1x256 .f32) (main_arg35 : FVec F S256x256 .f32) (main_arg36 : FVec F S1x256 .f32) (main_arg37 : FVec F S256x256 .f32) (main_arg38 : FVec F S1x256 .f32) (main_arg39 : FVec F S256x256 .f32) (main_arg40 : FVec F S1x256 .f32) (main_arg41 : FVec F S1x256 .f32) (main_arg42 : FVec F S1x256 .f32) (main_arg43 : FVec F S256x256 .f32) (main_arg44 : FVec F S1x256 .f32) (main_arg45 : FVec F S256x256 .f32) (main_arg46 : FVec F S1x256 .f32) (main_arg47 : FVec F S1x256 .f32) (main_arg48 : FVec F S1x256 .f32) (main_v133 : IVec S_ 1) (main_v136 : IVec S1x256 1) : IVec S_ 1 :=
  let main_c_53 : IVec S_ 1 := constantI S_ 1 1#1
  let main_v137 : IVec S_ 1 := (fun x v => Host.reduce IntOp.andi x v reducesTo_S1x256_S_d0_1 h_S_) main_v136 main_c_53
  let main_v138 : IVec S_ 1 := andi main_v133 main_v137
  let main_v139 : FVec F S64x128 .f32 := Host.absf main_arg28
  let main_cst_54 : FVec F S_ .f32 := constant S_ .f32 0x7F800000#32
  let main_v140 : FVec F S64x128 .f32 := broadcastInDim S64x128 ![] bcast_S_S64x128 main_cst_54
  let main_v141 : IVec S64x128 1 := cmpf .olt main_v139 main_v140
  let main_c_55 : IVec S_ 1 := constantI S_ 1 1#1
  let main_v142 : IVec S_ 1 := (fun x v => Host.reduce IntOp.andi x v reducesTo_S64x128_S_d0_1 h_S_) main_v141 main_c_55
  let main_v143 : IVec S_ 1 := andi main_v138 main_v142
  let main_v144 : FVec F S64x128 .f32 := Host.absf main_arg29
  let main_cst_56 : FVec F S_ .f32 := constant S_ .f32 0x7F800000#32
  let main_v145 : FVec F S64x128 .f32 := broadcastInDim S64x128 ![] bcast_S_S64x128 main_cst_56
  let main_v146 : IVec S64x128 1 := cmpf .olt main_v144 main_v145
  let main_c_57 : IVec S_ 1 := constantI S_ 1 1#1
  let main_v147 : IVec S_ 1 := (fun x v => Host.reduce IntOp.andi x v reducesTo_S64x128_S_d0_1 h_S_) main_v146 main_c_57
  let main_v148 : IVec S_ 1 := andi main_v143 main_v147
  let main_v149 : FVec F S64x128 .f32 := Host.absf main_arg30
  let main_cst_58 : FVec F S_ .f32 := constant S_ .f32 0x7F800000#32
  let main_v150 : FVec F S64x128 .f32 := broadcastInDim S64x128 ![] bcast_S_S64x128 main_cst_58
  let main_v151 : IVec S64x128 1 := cmpf .olt main_v149 main_v150
  let main_c_59 : IVec S_ 1 := constantI S_ 1 1#1
  let main_v152 : IVec S_ 1 := (fun x v => Host.reduce IntOp.andi x v reducesTo_S64x128_S_d0_1 h_S_) main_v151 main_c_59
  let main_v153 : IVec S_ 1 := andi main_v148 main_v152
  fn_part9 (F := F) main_arg31 main_arg32 main_arg33 main_arg34 main_arg35 main_arg36 main_arg37 main_arg38 main_arg39 main_arg40 main_arg41 main_arg42 main_arg43 main_arg44 main_arg45 main_arg46 main_arg47 main_arg48 main_v153

def fn_part7 {F : FTy → Type} [FloatOps F] (main_arg25 : FVec F S1x256 .f32) (main_arg26 : FVec F S1x256 .f32) (main_arg27 : FVec F S1x256 .f32) (main_arg28 : FVec F S64x128 .f32) (main_arg29 : FVec F S64x128 .f32) (main_arg30 : FVec F S64x128 .f32) (main_arg31 : FVec F S256x128 .f32) (main_arg32 : FVec F S1x128 .f32) (main_arg33 : FVec F S256x256 .f32) (main_arg34 : FVec F S1x256 .f32) (main_arg35 : FVec F S256x256 .f32) (main_arg36 : FVec F S1x256 .f32) (main_arg37 : FVec F S256x256 .f32) (main_arg38 : FVec F S1x256 .f32) (main_arg39 : FVec F S256x256 .f32) (main_arg40 : FVec F S1x256 .f32) (main_arg41 : FVec F S1x256 .f32) (main_arg42 : FVec F S1x256 .f32) (main_arg43 : FVec F S256x256 .f32) (main_arg44 : FVec F S1x256 .f32) (main_arg45 : FVec F S256x256 .f32) (main_arg46 : FVec F S1x256 .f32) (main_arg47 : FVec F S1x256 .f32) (main_arg48 : FVec F S1x256 .f32) (main_v118 : IVec S_ 1) (main_v119 : FVec F S256x256 .f32) : IVec S_ 1 :=
  let main_cst_46 : FVec F S_ .f32 := constant S_ .f32 0x7F800000#32
  let main_v120 : FVec F S256x256 .f32 := broadcastInDim S256x256 ![] bcast_S_S256x256 main_cst_46
  let main_v121 : IVec S256x256 1 := cmpf .olt main_v119 main_v120
  let main_c_47 : IVec S_ 1 := constantI S_ 1 1#1
  let main_v122 : IVec S_ 1 := (fun x v => Host.reduce IntOp.andi x v reducesTo_S256x256_S_d0_1 h_S_) main_v121 main_c_47
  let main_v123 : IVec S_ 1 := andi main_v118 main_v122
  let main_v124 : FVec F S1x256 .f32 := Host.absf main_arg25
  let main_cst_48 : FVec F S_ .f32 := constant S_ .f32 0x7F800000#32
  let main_v125 : FVec F S1x256 .f32 := broadcastInDim S1x256 ![] bcast_S_S1x256 main_cst_48
  let main_v126 : IVec S1x256 1 := cmpf .olt main_v124 main_v125
  let main_c_49 : IVec S_ 1 := constantI S_ 1 1#1
  let main_v127 : IVec S_ 1 := (fun x v => Host.reduce IntOp.andi x v reducesTo_S1x256_S_d0_1 h_S_) main_v126 main_c_49
  let main_v128 : IVec S_ 1 := andi main_v123 main_v127
  let main_v129 : FVec F S1x256 .f32 := Host.absf main_arg26
  let main_cst_50 : FVec F S_ .f32 := constant S_ .f32 0x7F800000#32
  let main_v130 : FVec F S1x256 .f32 := broadcastInDim S1x256 ![] bcast_S_S1x256 main_cst_50
  let main_v131 : IVec S1x256 1 := cmpf .olt main_v129 main_v130
  let main_c_51 : IVec S_ 1 := constantI S_ 1 1#1
  let main_v132 : IVec S_ 1 := (fun x v => Host.reduce IntOp.andi x v reducesTo_S1x256_S_d0_1 h_S_) main_v131 main_c_51
  let main_v133 : IVec S_ 1 := andi main_v128 main_v132
  let main_v134 : FVec F S1x256 .f32 := Host.absf main_arg27
  let main_cst_52 : FVec F S_ .f32 := constant S_ .f32 0x7F800000#32
  let main_v135 : FVec F S1x256 .f32 := broadcastInDim S1x256 ![] bcast_S_S1x256 main_cst_52
  let main_v136 : IVec S1x256 1 := cmpf .olt main_v134 main_v135
  fn_part8 (F := F) main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_v133 main_v136

def fn_part6 {F : FTy → Type} [FloatOps F] (main_arg21 : FVec F S1x256 .f32) (main_arg22 : FVec F S256x256 .f32) (main_arg23 : FVec F S1x256 .f32) (main_arg24 : FVec F S256x256 .f32) (main_arg25 : FVec F S1x256 .f32) (main_arg26 : FVec F S1x256 .f32) (main_arg27 : FVec F S1x256 .f32) (main_arg28 : FVec F S64x128 .f32) (main_arg29 : FVec F S64x128 .f32) (main_arg30 : FVec F S64x128 .f32) (main_arg31 : FVec F S256x128 .f32) (main_arg32 : FVec F S1x128 .f32) (main_arg33 : FVec F S256x256 .f32) (main_arg34 : FVec F S1x256 .f32) (main_arg35 : FVec F S256x256 .f32) (main_arg36 : FVec F S1x256 .f32) (main_arg37 : FVec F S256x256 .f32) (main_arg38 : FVec F S1x256 .f32) (main_arg39 : FVec F S256x256 .f32) (main_arg40 : FVec F S1x256 .f32) (main_arg41 : FVec F S1x256 .f32) (main_arg42 : FVec F S1x256 .f32) (main_arg43 : FVec F S256x256 .f32) (main_arg44 : FVec F S1x256 .f32) (main_arg45 : FVec F S256x256 .f32) (main_arg46 : FVec F S1x256 .f32) (main_arg47 : FVec F S1x256 .f32) (main_arg48 : FVec F S1x256 .f32) (main_v98 : IVec S_ 1) (main_v101 : IVec S1x256 1) (main_c_39 : IVec S_ 1) : IVec S_ 1 :=
  let main_v102 : IVec S_ 1 := (fun x v => Host.reduce IntOp.andi x v reducesTo_S1x256_S_d0_1 h_S_) main_v101 main_c_39
  let main_v103 : IVec S_ 1 := andi main_v98 main_v102
  let main_v104 : FVec F S1x256 .f32 := Host.absf main_arg21
  let main_cst_40 : FVec F S_ .f32 := constant S_ .f32 0x7F800000#32
  let main_v105 : FVec F S1x256 .f32 := broadcastInDim S1x256 ![] bcast_S_S1x256 main_cst_40
  let main_v106 : IVec S1x256 1 := cmpf .olt main_v104 main_v105
  let main_c_41 : IVec S_ 1 := constantI S_ 1 1#1
  let main_v107 : IVec S_ 1 := (fun x v => Host.reduce IntOp.andi x v reducesTo_S1x256_S_d0_1 h_S_) main_v106 main_c_41
  let main_v108 : IVec S_ 1 := andi main_v103 main_v107
  let main_v109 : FVec F S256x256 .f32 := Host.absf main_arg22
  let main_cst_42 : FVec F S_ .f32 := constant S_ .f32 0x7F800000#32
  let main_v110 : FVec F S256x256 .f32 := broadcastInDim S256x256 ![] bcast_S_S256x256 main_cst_42
  let main_v111 : IVec S256x256 1 := cmpf .olt main_v109 main_v110
  let main_c_43 : IVec S_ 1 := constantI S_ 1 1#1
  let main_v112 : IVec S_ 1 := (fun x v => Host.reduce IntOp.andi x v reducesTo_S256x256_S_d0_1 h_S_) main_v111 main_c_43
  let main_v113 : IVec S_ 1 := andi main_v108 main_v112
  let main_v114 : FVec F S1x256 .f32 := Host.absf main_arg23
  let main_cst_44 : FVec F S_ .f32 := constant S_ .f32 0x7F800000#32
  let main_v115 : FVec F S1x256 .f32 := broadcastInDim S1x256 ![] bcast_S_S1x256 main_cst_44
  let main_v116 : IVec S1x256 1 := cmpf .olt main_v114 main_v115
  let main_c_45 : IVec S_ 1 := constantI S_ 1 1#1
  let main_v117 : IVec S_ 1 := (fun x v => Host.reduce IntOp.andi x v reducesTo_S1x256_S_d0_1 h_S_) main_v116 main_c_45
  let main_v118 : IVec S_ 1 := andi main_v113 main_v117
  let main_v119 : FVec F S256x256 .f32 := Host.absf main_arg24
  fn_part7 (F := F) main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_v118 main_v119

def fn_part5 {F : FTy → Type} [FloatOps F] (main_arg18 : FVec F S256x256 .f32) (main_arg19 : FVec F S1x256 .f32) (main_arg20 : FVec F S1x256 .f32) (main_arg21 : FVec F S1x256 .f32) (main_arg22 : FVec F S256x256 .f32) (main_arg23 : FVec F S1x256 .f32) (main_arg24 : FVec F S256x256 .f32) (main_arg25 : FVec F S1x256 .f32) (main_arg26 : FVec F S1x256 .f32) (main_arg27 : FVec F S1x256 .f32) (main_arg28 : FVec F S64x128 .f32) (main_arg29 : FVec F S64x128 .f32) (main_arg30 : FVec F S64x128 .f32) (main_arg31 : FVec F S256x128 .f32) (main_arg32 : FVec F S1x128 .f32) (main_arg33 : FVec F S256x256 .f32) (main_arg34 : FVec F S1x256 .f32) (main_arg35 : FVec F S256x256 .f32) (main_arg36 : FVec F S1x256 .f32) (main_arg37 : FVec F S256x256 .f32) (main_arg38 : FVec F S1x256 .f32) (main_arg39 : FVec F S256x256 .f32) (main_arg40 : FVec F S1x256 .f32) (main_arg41 : FVec F S1x256 .f32) (main_arg42 : FVec F S1x256 .f32) (main_arg43 : FVec F S256x256 .f32) (main_arg44 : FVec F S1x256 .f32) (main_arg45 : FVec F S256x256 .f32) (main_arg46 : FVec F S1x256 .f32) (main_arg47 : FVec F S1x256 .f32) (main_arg48 : FVec F S1x256 .f32) (main_v83 : IVec S_ 1) (main_v84 : FVec F S1x256 .f32) (main_cst_32 : FVec F S_ .f32) : IVec S_ 1 :=
  let main_v85 : FVec F S1x256 .f32 := broadcastInDim S1x256 ![] bcast_S_S1x256 main_cst_32
  let main_v86 : IVec S1x256 1 := cmpf .olt main_v84 main_v85
  let main_c_33 : IVec S_ 1 := constantI S_ 1 1#1
  let main_v87 : IVec S_ 1 := (fun x v => Host.reduce IntOp.andi x v reducesTo_S1x256_S_d0_1 h_S_) main_v86 main_c_33
  let main_v88 : IVec S_ 1 := andi main_v83 main_v87
  let main_v89 : FVec F S256x256 .f32 := Host.absf main_arg18
  let main_cst_34 : FVec F S_ .f32 := constant S_ .f32 0x7F800000#32
  let main_v90 : FVec F S256x256 .f32 := broadcastInDim S256x256 ![] bcast_S_S256x256 main_cst_34
  let main_v91 : IVec S256x256 1 := cmpf .olt main_v89 main_v90
  let main_c_35 : IVec S_ 1 := constantI S_ 1 1#1
  let main_v92 : IVec S_ 1 := (fun x v => Host.reduce IntOp.andi x v reducesTo_S256x256_S_d0_1 h_S_) main_v91 main_c_35
  let main_v93 : IVec S_ 1 := andi main_v88 main_v92
  let main_v94 : FVec F S1x256 .f32 := Host.absf main_arg19
  let main_cst_36 : FVec F S_ .f32 := constant S_ .f32 0x7F800000#32
  let main_v95 : FVec F S1x256 .f32 := broadcastInDim S1x256 ![] bcast_S_S1x256 main_cst_36
  let main_v96 : IVec S1x256 1 := cmpf .olt main_v94 main_v95
  let main_c_37 : IVec S_ 1 := constantI S_ 1 1#1
  let main_v97 : IVec S_ 1 := (fun x v => Host.reduce IntOp.andi x v reducesTo_S1x256_S_d0_1 h_S_) main_v96 main_c_37
  let main_v98 : IVec S_ 1 := andi main_v93 main_v97
  let main_v99 : FVec F S1x256 .f32 := Host.absf main_arg20
  let main_cst_38 : FVec F S_ .f32 := constant S_ .f32 0x7F800000#32
  let main_v100 : FVec F S1x256 .f32 := broadcastInDim S1x256 ![] bcast_S_S1x256 main_cst_38
  let main_v101 : IVec S1x256 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_v98 main_v101 main_c_39

def fn_part4 {F : FTy → Type} [FloatOps F] (main_arg14 : FVec F S256x256 .f32) (main_arg15 : FVec F S1x256 .f32) (main_arg16 : FVec F S256x256 .f32) (main_arg17 : FVec F S1x256 .f32) (main_arg18 : FVec F S256x256 .f32) (main_arg19 : FVec F S1x256 .f32) (main_arg20 : FVec F S1x256 .f32) (main_arg21 : FVec F S1x256 .f32) (main_arg22 : FVec F S256x256 .f32) (main_arg23 : FVec F S1x256 .f32) (main_arg24 : FVec F S256x256 .f32) (main_arg25 : FVec F S1x256 .f32) (main_arg26 : FVec F S1x256 .f32) (main_arg27 : FVec F S1x256 .f32) (main_arg28 : FVec F S64x128 .f32) (main_arg29 : FVec F S64x128 .f32) (main_arg30 : FVec F S64x128 .f32) (main_arg31 : FVec F S256x128 .f32) (main_arg32 : FVec F S1x128 .f32) (main_arg33 : FVec F S256x256 .f32) (main_arg34 : FVec F S1x256 .f32) (main_arg35 : FVec F S256x256 .f32) (main_arg36 : FVec F S1x256 .f32) (main_arg37 : FVec F S256x256 .f32) (main_arg38 : FVec F S1x256 .f32) (main_arg39 : FVec F S256x256 .f32) (main_arg40 : FVec F S1x256 .f32) (main_arg41 : FVec F S1x256 .f32) (main_arg42 : FVec F S1x256 .f32) (main_arg43 : FVec F S256x256 .f32) (main_arg44 : FVec F S1x256 .f32) (main_arg45 : FVec F S256x256 .f32) (main_arg46 : FVec F S1x256 .f32) (main_arg47 : FVec F S1x256 .f32) (main_arg48 : FVec F S1x256 .f32) (main_v63 : IVec S_ 1) (main_v67 : IVec S_ 1) : IVec S_ 1 :=
  let main_v68 : IVec S_ 1 := andi main_v63 main_v67
  let main_v69 : FVec F S256x256 .f32 := Host.absf main_arg14
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S1x256 .f32 := Host.absf main_arg15
  let main_cst_28 : FVec F S_ .f32 := constant S_ .f32 0x7F800000#32
  let main_v75 : FVec F S1x256 .f32 := broadcastInDim S1x256 ![] bcast_S_S1x256 main_cst_28
  let main_v76 : IVec S1x256 1 := cmpf .olt main_v74 main_v75
  let main_c_29 : IVec S_ 1 := constantI S_ 1 1#1
  let main_v77 : IVec S_ 1 := (fun x v => Host.reduce IntOp.andi x v reducesTo_S1x256_S_d0_1 h_S_) main_v76 main_c_29
  let main_v78 : IVec S_ 1 := andi main_v73 main_v77
  let main_v79 : FVec F S256x256 .f32 := Host.absf main_arg16
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S1x256 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_v83 main_v84 main_cst_32

def fn_part3 {F : FTy → Type} [FloatOps F] (main_arg11 : FVec F S1x128 .f32) (main_arg12 : FVec F S256x256 .f32) (main_arg13 : FVec F S1x256 .f32) (main_arg14 : FVec F S256x256 .f32) (main_arg15 : FVec F S1x256 .f32) (main_arg16 : FVec F S256x256 .f32) (main_arg17 : FVec F S1x256 .f32) (main_arg18 : FVec F S256x256 .f32) (main_arg19 : FVec F S1x256 .f32) (main_arg20 : FVec F S1x256 .f32) (main_arg21 : FVec F S1x256 .f32) (main_arg22 : FVec F S256x256 .f32) (main_arg23 : FVec F S1x256 .f32) (main_arg24 : FVec F S256x256 .f32) (main_arg25 : FVec F S1x256 .f32) (main_arg26 : FVec F S1x256 .f32) (main_arg27 : FVec F S1x256 .f32) (main_arg28 : FVec F S64x128 .f32) (main_arg29 : FVec F S64x128 .f32) (main_arg30 : FVec F S64x128 .f32) (main_arg31 : FVec F S256x128 .f32) (main_arg32 : FVec F S1x128 .f32) (main_arg33 : FVec F S256x256 .f32) (main_arg34 : FVec F S1x256 .f32) (main_arg35 : FVec F S256x256 .f32) (main_arg36 : FVec F S1x256 .f32) (main_arg37 : FVec F S256x256 .f32) (main_arg38 : FVec F S1x256 .f32) (main_arg39 : FVec F S256x256 .f32) (main_arg40 : FVec F S1x256 .f32) (main_arg41 : FVec F S1x256 .f32) (main_arg42 : FVec F S1x256 .f32) (main_arg43 : FVec F S256x256 .f32) (main_arg44 : FVec F S1x256 .f32) (main_arg45 : FVec F S256x256 .f32) (main_arg46 : FVec F S1x256 .f32) (main_arg47 : FVec F S1x256 .f32) (main_arg48 : FVec F S1x256 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S1x128 .f32 := Host.absf main_arg11
  let main_cst_20 : FVec F S_ .f32 := constant S_ .f32 0x7F800000#32
  let main_v55 : FVec F S1x128 .f32 := broadcastInDim S1x128 ![] bcast_S_S1x128 main_cst_20
  let main_v56 : IVec S1x128 1 := cmpf .olt main_v54 main_v55
  let main_c_21 : IVec S_ 1 := constantI S_ 1 1#1
  let main_v57 : IVec S_ 1 := (fun x v => Host.reduce IntOp.andi x v reducesTo_S1x128_S_d0_1 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S1x256 .f32 := Host.absf main_arg13
  let main_cst_24 : FVec F S_ .f32 := constant S_ .f32 0x7F800000#32
  let main_v65 : FVec F S1x256 .f32 := broadcastInDim S1x256 ![] bcast_S_S1x256 main_cst_24
  let main_v66 : IVec S1x256 1 := cmpf .olt main_v64 main_v65
  let main_c_25 : IVec S_ 1 := constantI S_ 1 1#1
  let main_v67 : IVec S_ 1 := (fun x v => Host.reduce IntOp.andi x v reducesTo_S1x256_S_d0_1 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_v63 main_v67

def fn_part2 {F : FTy → Type} [FloatOps F] (main_arg7 : FVec F S64x128 .f32) (main_arg8 : FVec F S64x128 .f32) (main_arg9 : FVec F S64x128 .f32) (main_arg10 : FVec F S256x128 .f32) (main_arg11 : FVec F S1x128 .f32) (main_arg12 : FVec F S256x256 .f32) (main_arg13 : FVec F S1x256 .f32) (main_arg14 : FVec F S256x256 .f32) (main_arg15 : FVec F S1x256 .f32) (main_arg16 : FVec F S256x256 .f32) (main_arg17 : FVec F S1x256 .f32) (main_arg18 : FVec F S256x256 .f32) (main_arg19 : FVec F S1x256 .f32) (main_arg20 : FVec F S1x256 .f32) (main_arg21 : FVec F S1x256 .f32) (main_arg22 : FVec F S256x256 .f32) (main_arg23 : FVec F S1x256 .f32) (main_arg24 : FVec F S256x256 .f32) (main_arg25 : FVec F S1x256 .f32) (main_arg26 : FVec F S1x256 .f32) (main_arg27 : FVec F S1x256 .f32) (main_arg28 : FVec F S64x128 .f32) (main_arg29 : FVec F S64x128 .f32) (main_arg30 : FVec F S64x128 .f32) (main_arg31 : FVec F S256x128 .f32) (main_arg32 : FVec F S1x128 .f32) (main_arg33 : FVec F S256x256 .f32) (main_arg34 : FVec F S1x256 .f32) (main_arg35 : FVec F S256x256 .f32) (main_arg36 : FVec F S1x256 .f32) (main_arg37 : FVec F S256x256 .f32) (main_arg38 : FVec F S1x256 .f32) (main_arg39 : FVec F S256x256 .f32) (main_arg40 : FVec F S1x256 .f32) (main_arg41 : FVec F S1x256 .f32) (main_arg42 : FVec F S1x256 .f32) (main_arg43 : FVec F S256x256 .f32) (main_arg44 : FVec F S1x256 .f32) (main_arg45 : FVec F S256x256 .f32) (main_arg46 : FVec F S1x256 .f32) (main_arg47 : FVec F S1x256 .f32) (main_arg48 : FVec F S1x256 .f32) (main_v33 : IVec S_ 1) : IVec S_ 1 :=
  let main_v34 : FVec F S64x128 .f32 := Host.absf main_arg7
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64x128 .f32 := Host.absf main_arg8
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64x128 .f32 := Host.absf main_arg9
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S256x128 .f32 := Host.absf main_arg10
  let main_cst_18 : FVec F S_ .f32 := constant S_ .f32 0x7F800000#32
  let main_v50 : FVec F S256x128 .f32 := broadcastInDim S256x128 ![] bcast_S_S256x128 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_v48 main_v49 main_v50

def fn_part1 {F : FTy → Type} [FloatOps F] (main_arg4 : FVec F S1x16 .f32) (main_arg5 : FVec F S256x16 .f32) (main_arg6 : FVec F S1x16 .f32) (main_arg7 : FVec F S64x128 .f32) (main_arg8 : FVec F S64x128 .f32) (main_arg9 : FVec F S64x128 .f32) (main_arg10 : FVec F S256x128 .f32) (main_arg11 : FVec F S1x128 .f32) (main_arg12 : FVec F S256x256 .f32) (main_arg13 : FVec F S1x256 .f32) (main_arg14 : FVec F S256x256 .f32) (main_arg15 : FVec F S1x256 .f32) (main_arg16 : FVec F S256x256 .f32) (main_arg17 : FVec F S1x256 .f32) (main_arg18 : FVec F S256x256 .f32) (main_arg19 : FVec F S1x256 .f32) (main_arg20 : FVec F S1x256 .f32) (main_arg21 : FVec F S1x256 .f32) (main_arg22 : FVec F S256x256 .f32) (main_arg23 : FVec F S1x256 .f32) (main_arg24 : FVec F S256x256 .f32) (main_arg25 : FVec F S1x256 .f32) (main_arg26 : FVec F S1x256 .f32) (main_arg27 : FVec F S1x256 .f32) (main_arg28 : FVec F S64x128 .f32) (main_arg29 : FVec F S64x128 .f32) (main_arg30 : FVec F S64x128 .f32) (main_arg31 : FVec F S256x128 .f32) (main_arg32 : FVec F S1x128 .f32) (main_arg33 : FVec F S256x256 .f32) (main_arg34 : FVec F S1x256 .f32) (main_arg35 : FVec F S256x256 .f32) (main_arg36 : FVec F S1x256 .f32) (main_arg37 : FVec F S256x256 .f32) (main_arg38 : FVec F S1x256 .f32) (main_arg39 : FVec F S256x256 .f32) (main_arg40 : FVec F S1x256 .f32) (main_arg41 : FVec F S1x256 .f32) (main_arg42 : FVec F S1x256 .f32) (main_arg43 : FVec F S256x256 .f32) (main_arg44 : FVec F S1x256 .f32) (main_arg45 : FVec F S256x256 .f32) (main_arg46 : FVec F S1x256 .f32) (main_arg47 : FVec F S1x256 .f32) (main_arg48 : FVec F S1x256 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S1x16 .f32 := Host.absf main_arg4
  let main_cst_6 : FVec F S_ .f32 := constant S_ .f32 0x7F800000#32
  let main_v20 : FVec F S1x16 .f32 := broadcastInDim S1x16 ![] bcast_S_S1x16 main_cst_6
  let main_v21 : IVec S1x16 1 := cmpf .olt main_v19 main_v20
  let main_c_7 : IVec S_ 1 := constantI S_ 1 1#1
  let main_v22 : IVec S_ 1 := (fun x v => Host.reduce IntOp.andi x v reducesTo_S1x16_S_d0_1 h_S_) main_v21 main_c_7
  let main_v23 : IVec S_ 1 := andi main_v18 main_v22
  let main_v24 : FVec F S256x16 .f32 := Host.absf main_arg5
  let main_cst_8 : FVec F S_ .f32 := constant S_ .f32 0x7F800000#32
  let main_v25 : FVec F S256x16 .f32 := broadcastInDim S256x16 ![] bcast_S_S256x16 main_cst_8
  let main_v26 : IVec S256x16 1 := cmpf .olt main_v24 main_v25
  let main_c_9 : IVec S_ 1 := constantI S_ 1 1#1
  let main_v27 : IVec S_ 1 := (fun x v => Host.reduce IntOp.andi x v reducesTo_S256x16_S_d0_1 h_S_) main_v26 main_c_9
  let main_v28 : IVec S_ 1 := andi main_v23 main_v27
  let main_v29 : FVec F S1x16 .f32 := Host.absf main_arg6
  let main_cst_10 : FVec F S_ .f32 := constant S_ .f32 0x7F800000#32
  let main_v30 : FVec F S1x16 .f32 := broadcastInDim S1x16 ![] bcast_S_S1x16 main_cst_10
  let main_v31 : IVec S1x16 1 := cmpf .olt main_v29 main_v30
  let main_c_11 : IVec S_ 1 := constantI S_ 1 1#1
  let main_v32 : IVec S_ 1 := (fun x v => Host.reduce IntOp.andi x v reducesTo_S1x16_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_v33

def fn {F : FTy → Type} [FloatOps F] (main_arg0 : FVec F S128x8x8192 .f32) (main_arg1 : FVec F S128x8x8192 .f32) (main_arg2 : FVec F S64x256 .f32) (main_arg3 : FVec F S256x16 .f32) (main_arg4 : FVec F S1x16 .f32) (main_arg5 : FVec F S256x16 .f32) (main_arg6 : FVec F S1x16 .f32) (main_arg7 : FVec F S64x128 .f32) (main_arg8 : FVec F S64x128 .f32) (main_arg9 : FVec F S64x128 .f32) (main_arg10 : FVec F S256x128 .f32) (main_arg11 : FVec F S1x128 .f32) (main_arg12 : FVec F S256x256 .f32) (main_arg13 : FVec F S1x256 .f32) (main_arg14 : FVec F S256x256 .f32) (main_arg15 : FVec F S1x256 .f32) (main_arg16 : FVec F S256x256 .f32) (main_arg17 : FVec F S1x256 .f32) (main_arg18 : FVec F S256x256 .f32) (main_arg19 : FVec F S1x256 .f32) (main_arg20 : FVec F S1x256 .f32) (main_arg21 : FVec F S1x256 .f32) (main_arg22 : FVec F S256x256 .f32) (main_arg23 : FVec F S1x256 .f32) (main_arg24 : FVec F S256x256 .f32) (main_arg25 : FVec F S1x256 .f32) (main_arg26 : FVec F S1x256 .f32) (main_arg27 : FVec F S1x256 .f32) (main_arg28 : FVec F S64x128 .f32) (main_arg29 : FVec F S64x128 .f32) (main_arg30 : FVec F S64x128 .f32) (main_arg31 : FVec F S256x128 .f32) (main_arg32 : FVec F S1x128 .f32) (main_arg33 : FVec F S256x256 .f32) (main_arg34 : FVec F S1x256 .f32) (main_arg35 : FVec F S256x256 .f32) (main_arg36 : FVec F S1x256 .f32) (main_arg37 : FVec F S256x256 .f32) (main_arg38 : FVec F S1x256 .f32) (main_arg39 : FVec F S256x256 .f32) (main_arg40 : FVec F S1x256 .f32) (main_arg41 : FVec F S1x256 .f32) (main_arg42 : FVec F S1x256 .f32) (main_arg43 : FVec F S256x256 .f32) (main_arg44 : FVec F S1x256 .f32) (main_arg45 : FVec F S256x256 .f32) (main_arg46 : FVec F S1x256 .f32) (main_arg47 : FVec F S1x256 .f32) (main_arg48 : FVec F S1x256 .f32) : IVec S_ 1 :=
  let main_v0 : FVec F S128x8x8192 .f32 := Host.absf main_arg0
  let main_cst : FVec F S_ .f32 := constant S_ .f32 0x7F800000#32
  let main_v1 : FVec F S128x8x8192 .f32 := broadcastInDim S128x8x8192 ![] bcast_S_S128x8x8192 main_cst
  let main_v2 : IVec S128x8x8192 1 := cmpf .olt main_v0 main_v1
  let main_c : IVec S_ 1 := constantI S_ 1 1#1
  let main_v3 : IVec S_ 1 := (fun x v => Host.reduce IntOp.andi x v reducesTo_S128x8x8192_S_d0_1_2 h_S_) main_v2 main_c
  let main_v4 : FVec F S128x8x8192 .f32 := Host.absf main_arg1
  let main_cst_0 : FVec F S_ .f32 := constant S_ .f32 0x7F800000#32
  let main_v5 : FVec F S128x8x8192 .f32 := broadcastInDim S128x8x8192 ![] bcast_S_S128x8x8192 main_cst_0
  let main_v6 : IVec S128x8x8192 1 := cmpf .olt main_v4 main_v5
  let main_c_1 : IVec S_ 1 := constantI S_ 1 1#1
  let main_v7 : IVec S_ 1 := (fun x v => Host.reduce IntOp.andi x v reducesTo_S128x8x8192_S_d0_1_2 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256x16 .f32 := Host.absf main_arg3
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_v13 main_v16
-- ==== Kernel.lean ====
abbrev S128x8x8192 : Shape := ⟨3, ![128, 8, 8192]⟩
abbrev S64x256 : Shape := ⟨2, ![64, 256]⟩
abbrev S256x16 : Shape := ⟨2, ![256, 16]⟩
abbrev S1x16 : Shape := ⟨2, ![1, 16]⟩
abbrev S64x128 : Shape := ⟨2, ![64, 128]⟩
abbrev S256x128 : Shape := ⟨2, ![256, 128]⟩
abbrev S1x128 : Shape := ⟨2, ![1, 128]⟩
abbrev S256x256 : Shape := ⟨2, ![256, 256]⟩
abbrev S1x256 : Shape := ⟨2, ![1, 256]⟩
abbrev S128x64x16 : Shape := ⟨3, ![128, 64, 16]⟩
abbrev S32x8x8192 : Shape := ⟨3, ![32, 8, 8192]⟩
abbrev S32x64x16 : Shape := ⟨3, ![32, 64, 16]⟩
abbrev S128x256 : Shape := ⟨2, ![128, 256]⟩
abbrev S32x1x8192 : Shape := ⟨3, ![32, 1, 8192]⟩
abbrev S32x8192 : Shape := ⟨2, ![32, 8192]⟩
abbrev S32x32x256 : Shape := ⟨3, ![32, 32, 256]⟩
abbrev S32x64x256 : Shape := ⟨3, ![32, 64, 256]⟩
abbrev S1x64x256 : Shape := ⟨3, ![1, 64, 256]⟩
abbrev S2048x256 : Shape := ⟨2, ![2048, 256]⟩
abbrev S64x64 : Shape := ⟨2, ![64, 64]⟩
abbrev S64x8 : Shape := ⟨2, ![64, 8]⟩
abbrev S8x256 : Shape := ⟨2, ![8, 256]⟩
abbrev S32x64x32 : Shape := ⟨3, ![32, 64, 32]⟩
abbrev S32x64x64 : Shape := ⟨3, ![32, 64, 64]⟩
abbrev S1x64x64 : Shape := ⟨3, ![1, 64, 64]⟩
abbrev S2048x64 : Shape := ⟨2, ![2048, 64]⟩
abbrev S2048x8 : Shape := ⟨2, ![2048, 8]⟩
abbrev S256x32 : Shape := ⟨2, ![256, 32]⟩
abbrev S1x32 : Shape := ⟨2, ![1, 32]⟩
abbrev S2048x32 : Shape := ⟨2, ![2048, 32]⟩
abbrev S2048x16 : Shape := ⟨2, ![2048, 16]⟩
abbrev S128x1x1024 : Shape := ⟨3, ![128, 1, 1024]⟩
abbrev S128x8x1024 : Shape := ⟨3, ![128, 8, 1024]⟩

abbrev nBuf : Space → Nat
  | .hbm => 55
  | .vmem => 55
  | .smem => 0
  | _ => 0

abbrev bufTy : (tb : Table) → Fin (tcTables nBuf tb) → BufTy
  | .hbm, ⟨0, _⟩ => ⟨S128x8x8192, .f32⟩
  | .hbm, ⟨1, _⟩ => ⟨S128x8x8192, .f32⟩
  | .hbm, ⟨2, _⟩ => ⟨S64x256, .f32⟩
  | .hbm, ⟨3, _⟩ => ⟨S256x16, .f32⟩
  | .hbm, ⟨4, _⟩ => ⟨S1x16, .f32⟩
  | .hbm, ⟨5, _⟩ => ⟨S256x16, .f32⟩
  | .hbm, ⟨6, _⟩ => ⟨S1x16, .f32⟩
  | .hbm, ⟨7, _⟩ => ⟨S64x128, .f32⟩
  | .hbm, ⟨8, _⟩ => ⟨S64x128, .f32⟩
  | .hbm, ⟨9, _⟩ => ⟨S64x128, .f32⟩
  | .hbm, ⟨10, _⟩ => ⟨S256x128, .f32⟩
  | .hbm, ⟨11, _⟩ => ⟨S1x128, .f32⟩
  | .hbm, ⟨12, _⟩ => ⟨S256x256, .f32⟩
  | .hbm, ⟨13, _⟩ => ⟨S1x256, .f32⟩
  | .hbm, ⟨14, _⟩ => ⟨S256x256, .f32⟩
  | .hbm, ⟨15, _⟩ => ⟨S1x256, .f32⟩
  | .hbm, ⟨16, _⟩ => ⟨S256x256, .f32⟩
  | .hbm, ⟨17, _⟩ => ⟨S1x256, .f32⟩
  | .hbm, ⟨18, _⟩ => ⟨S256x256, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S256x256, .f32⟩
  | .hbm, ⟨23, _⟩ => ⟨S1x256, .f32⟩
  | .hbm, ⟨24, _⟩ => ⟨S256x256, .f32⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S64x128, .f32⟩
  | .hbm, ⟨29, _⟩ => ⟨S64x128, .f32⟩
  | .hbm, ⟨30, _⟩ => ⟨S64x128, .f32⟩
  | .hbm, ⟨31, _⟩ => ⟨S256x128, .f32⟩
  | .hbm, ⟨32, _⟩ => ⟨S1x128, .f32⟩
  | .hbm, ⟨33, _⟩ => ⟨S256x256, .f32⟩
  | .hbm, ⟨34, _⟩ => ⟨S1x256, .f32⟩
  | .hbm, ⟨35, _⟩ => ⟨S256x256, .f32⟩
  | .hbm, ⟨36, _⟩ => ⟨S1x256, .f32⟩
  | .hbm, ⟨37, _⟩ => ⟨S256x256, .f32⟩
  | .hbm, ⟨38, _⟩ => ⟨S1x256, .f32⟩
  | .hbm, ⟨39, _⟩ => ⟨S256x256, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S256x256, .f32⟩
  | .hbm, ⟨44, _⟩ => ⟨S1x256, .f32⟩
  | .hbm, ⟨45, _⟩ => ⟨S256x256, .f32⟩
  | .hbm, ⟨46, _⟩ => ⟨S1x256, .f32⟩
  | .hbm, ⟨47, _⟩ => ⟨S1x256, .f32⟩
  | .hbm, ⟨48, _⟩ => ⟨S1x256, .f32⟩
  | .hbm, ⟨49, _⟩ => ⟨S128x64x16, .f32⟩
  | .hbm, ⟨50, _⟩ => ⟨S128x64x16, .f32⟩
  | .hbm, ⟨51, _⟩ => ⟨S128x1x1024, .f32⟩
  | .hbm, ⟨52, _⟩ => ⟨S128x8x1024, .f32⟩
  | .hbm, ⟨53, _⟩ => ⟨S128x1x1024, .f32⟩
  | .hbm, ⟨54, _⟩ => ⟨S128x8x1024, .f32⟩
  | .local _ .vmem, ⟨0, _⟩ => ⟨S32x8x8192, .f32⟩
  | .local _ .vmem, ⟨1, _⟩ => ⟨S32x8x8192, .f32⟩
  | .local _ .vmem, ⟨2, _⟩ => ⟨S32x8x8192, .f32⟩
  | .local _ .vmem, ⟨3, _⟩ => ⟨S32x8x8192, .f32⟩
  | .local _ .vmem, ⟨4, _⟩ => ⟨S64x256, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | .local _ .vmem, ⟨8, _⟩ => ⟨S256x128, .f32⟩
  | .local _ .vmem, ⟨9, _⟩ => ⟨S1x128, .f32⟩
  | .local _ .vmem, ⟨10, _⟩ => ⟨S256x256, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S256x256, .f32⟩
  | .local _ .vmem, ⟨15, _⟩ => ⟨S1x256, .f32⟩
  | .local _ .vmem, ⟨16, _⟩ => ⟨S256x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S256x256, .f32⟩
  | .local _ .vmem, ⟨21, _⟩ => ⟨S1x256, .f32⟩
  | .local _ .vmem, ⟨22, _⟩ => ⟨S256x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S64x128, .f32⟩
  | .local _ .vmem, ⟨27, _⟩ => ⟨S64x128, .f32⟩
  | .local _ .vmem, ⟨28, _⟩ => ⟨S64x128, .f32⟩
  | .local _ .vmem, ⟨29, _⟩ => ⟨S256x128, .f32⟩
  | .local _ .vmem, ⟨30, _⟩ => ⟨S1x128, .f32⟩
  | .local _ .vmem, ⟨31, _⟩ => ⟨S256x256, .f32⟩
  | .local _ .vmem, ⟨32, _⟩ => ⟨S1x256, .f32⟩
  | .local _ .vmem, ⟨33, _⟩ => ⟨S256x256, .f32⟩
  | .local _ .vmem, ⟨34, _⟩ => ⟨S1x256, .f32⟩
  | .local _ .vmem, ⟨35, _⟩ => ⟨S256x256, .f32⟩
  | .local _ .vmem, ⟨36, _⟩ => ⟨S1x256, .f32⟩
  | .local _ .vmem, ⟨37, _⟩ => ⟨S256x256, .f32⟩
  | .local _ .vmem, ⟨38, _⟩ => ⟨S1x256, .f32⟩
  | .local _ .vmem, ⟨39, _⟩ => ⟨S1x256, .f32⟩
  | .local _ .vmem, ⟨40, _⟩ => ⟨S1x256, .f32⟩
  | .local _ .vmem, ⟨41, _⟩ => ⟨S256x256, .f32⟩
  | .local _ .vmem, ⟨42, _⟩ => ⟨S1x256, .f32⟩
  | .local _ .vmem, ⟨43, _⟩ => ⟨S256x256, .f32⟩
  | .local _ .vmem, ⟨44, _⟩ => ⟨S1x256, .f32⟩
  | .local _ .vmem, ⟨45, _⟩ => ⟨S1x256, .f32⟩
  | .local _ .vmem, ⟨46, _⟩ => ⟨S1x256, .f32⟩
  | .local _ .vmem, ⟨47, _⟩ => ⟨S256x16, .f32⟩
  | .local _ .vmem, ⟨48, _⟩ => ⟨S1x16, .f32⟩
  | .local _ .vmem, ⟨49, _⟩ => ⟨S256x16, .f32⟩
  | .local _ .vmem, ⟨50, _⟩ => ⟨S1x16, .f32⟩
  | .local _ .vmem, ⟨51, _⟩ => ⟨S32x64x16, .f32⟩
  | .local _ .vmem, ⟨52, _⟩ => ⟨S32x64x16, .f32⟩
  | .local _ .vmem, ⟨53, _⟩ => ⟨S32x64x16, .f32⟩
  | .local _ .vmem, ⟨54, _⟩ => ⟨S32x64x16, .f32⟩
  | _, _ => ⟨S128x8x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_v0_0 : Ref sig .tc := ⟨.hbm, 49, rfl⟩
abbrev main_v0_1 : Ref sig .tc := ⟨.hbm, 50, rfl⟩
abbrev main_v1 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg26_0 : Ref sig .tc := ⟨.vmem, 28, rfl⟩
abbrev cc0_stg27_0 : Ref sig .tc := ⟨.vmem, 29, rfl⟩
abbrev cc0_stg28_0 : Ref sig .tc := ⟨.vmem, 30, rfl⟩
abbrev cc0_stg29_0 : Ref sig .tc := ⟨.vmem, 31, rfl⟩
abbrev cc0_stg30_0 : Ref sig .tc := ⟨.vmem, 32, rfl⟩
abbrev cc0_stg31_0 : Ref sig .tc := ⟨.vmem, 33, rfl⟩
abbrev cc0_stg32_0 : Ref sig .tc := ⟨.vmem, 34, rfl⟩
abbrev cc0_stg33_0 : Ref sig .tc := ⟨.vmem, 35, rfl⟩
abbrev cc0_stg34_0 : Ref sig .tc := ⟨.vmem, 36, rfl⟩
abbrev cc0_stg35_0 : Ref sig .tc := ⟨.vmem, 37, rfl⟩
abbrev cc0_stg36_0 : Ref sig .tc := ⟨.vmem, 38, rfl⟩
abbrev cc0_stg37_0 : Ref sig .tc := ⟨.vmem, 39, rfl⟩
abbrev cc0_stg38_0 : Ref sig .tc := ⟨.vmem, 40, rfl⟩
abbrev cc0_stg39_0 : Ref sig .tc := ⟨.vmem, 41, rfl⟩
abbrev cc0_stg40_0 : Ref sig .tc := ⟨.vmem, 42, rfl⟩
abbrev cc0_stg41_0 : Ref sig .tc := ⟨.vmem, 43, rfl⟩
abbrev cc0_stg42_0 : Ref sig .tc := ⟨.vmem, 44, rfl⟩
abbrev cc0_stg43_0 : Ref sig .tc := ⟨.vmem, 45, rfl⟩
abbrev cc0_stg44_0 : Ref sig .tc := ⟨.vmem, 46, rfl⟩
abbrev cc0_stg45_0 : Ref sig .tc := ⟨.vmem, 47, rfl⟩
abbrev cc0_stg46_0 : Ref sig .tc := ⟨.vmem, 48, rfl⟩
abbrev cc0_stg47_0 : Ref sig .tc := ⟨.vmem, 49, rfl⟩
abbrev cc0_stg48_0 : Ref sig .tc := ⟨.vmem, 50, rfl⟩
abbrev cc0_stg49_0 : Ref sig .tc := ⟨.vmem, 51, rfl⟩
abbrev cc0_stg49_1 : Ref sig .tc := ⟨.vmem, 52, rfl⟩
abbrev cc0_stg50_0 : Ref sig .tc := ⟨.vmem, 53, rfl⟩
abbrev cc0_stg50_1 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem25_0 : DmaSem sig := 27
abbrev cc0_sem26_0 : DmaSem sig := 28
abbrev cc0_sem27_0 : DmaSem sig := 29
abbrev cc0_sem28_0 : DmaSem sig := 30
abbrev cc0_sem29_0 : DmaSem sig := 31
abbrev cc0_sem30_0 : DmaSem sig := 32
abbrev cc0_sem31_0 : DmaSem sig := 33
abbrev cc0_sem32_0 : DmaSem sig := 34
abbrev cc0_sem33_0 : DmaSem sig := 35
abbrev cc0_sem34_0 : DmaSem sig := 36
abbrev cc0_sem35_0 : DmaSem sig := 37
abbrev cc0_sem36_0 : DmaSem sig := 38
abbrev cc0_sem37_0 : DmaSem sig := 39
abbrev cc0_sem38_0 : DmaSem sig := 40
abbrev cc0_sem39_0 : DmaSem sig := 41
abbrev cc0_sem40_0 : DmaSem sig := 42
abbrev cc0_sem41_0 : DmaSem sig := 43
abbrev cc0_sem42_0 : DmaSem sig := 44
abbrev cc0_sem43_0 : DmaSem sig := 45
abbrev cc0_sem44_0 : DmaSem sig := 46
abbrev cc0_sem45_0 : DmaSem sig := 47
abbrev cc0_sem46_0 : DmaSem sig := 48
abbrev cc0_sem47_0 : DmaSem sig := 49
abbrev cc0_sem48_0 : DmaSem sig := 50
abbrev cc0_sem49_0 : DmaSem sig := 51
abbrev cc0_sem49_1 : DmaSem sig := 52
abbrev cc0_sem50_0 : DmaSem sig := 53
abbrev cc0_sem50_1 : DmaSem sig := 54

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_35 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_36 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_37 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_38 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_39 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_40 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_41 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_42 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_43 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_44 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_45 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_46 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_47 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_48 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_49 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_50 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x8x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x8x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S64x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S64x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S64x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S256x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S256x256 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S1x256 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S256x256 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S1x256 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S256x256 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S1x256 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]

abbrev stage0_35 : Fin 1 → Memref sig .tc .vmem S256x256 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false]

abbrev stage0_36 : Fin 1 → Memref sig .tc .vmem S1x256 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))
abbrev reads0_36 : Fin grid0.rank → Bool := ![false]

abbrev stage0_37 : Fin 1 → Memref sig .tc .vmem S1x256 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))
abbrev reads0_37 : Fin grid0.rank → Bool := ![false]

abbrev stage0_38 : Fin 1 → Memref sig .tc .vmem S1x256 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))
abbrev reads0_38 : Fin grid0.rank → Bool := ![false]

abbrev stage0_39 : Fin 1 → Memref sig .tc .vmem S256x256 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))
abbrev reads0_39 : Fin grid0.rank → Bool := ![false]

abbrev stage0_40 : Fin 1 → Memref sig .tc .vmem S1x256 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))
abbrev reads0_40 : Fin grid0.rank → Bool := ![false]

abbrev stage0_41 : Fin 1 → Memref sig .tc .vmem S256x256 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))
abbrev reads0_41 : Fin grid0.rank → Bool := ![false]

abbrev stage0_42 : Fin 1 → Memref sig .tc .vmem S1x256 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))
abbrev reads0_42 : Fin grid0.rank → Bool := ![false]

abbrev stage0_43 : Fin 1 → Memref sig .tc .vmem S1x256 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))
abbrev reads0_43 : Fin grid0.rank → Bool := ![false]

abbrev stage0_44 : Fin 1 → Memref sig .tc .vmem S1x256 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))
abbrev reads0_44 : Fin grid0.rank → Bool := ![false]

abbrev stage0_45 : Fin 1 → Memref sig .tc .vmem S256x16 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))
abbrev reads0_45 : Fin grid0.rank → Bool := ![false]

abbrev stage0_46 : Fin 1 → Memref sig .tc .vmem S1x16 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))
abbrev reads0_46 : Fin grid0.rank → Bool := ![false]

abbrev stage0_47 : Fin 1 → Memref sig .tc .vmem S256x16 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))
abbrev reads0_47 : Fin grid0.rank → Bool := ![false]

abbrev stage0_48 : Fin 1 → Memref sig .tc .vmem S1x16 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))
abbrev reads0_48 : Fin grid0.rank → Bool := ![false]

abbrev stage0_49 : Fin 2 → Memref sig .tc .vmem S32x64x16 .f32 := fun | 0 => Memref.whole cc0_stg49_0 | 1 => Memref.whole cc0_stg49_1 | ⟨_ + 2, h⟩ => absurd h (Nat.not_lt.2 (Nat.le_add_left _ _))
abbrev sem0_49 : Fin 2 → DmaSem sig := fun | 0 => cc0_sem49_0 | 1 => cc0_sem49_1 | ⟨_ + 2, h⟩ => absurd h (Nat.not_lt.2 (Nat.le_add_left _ _))
abbrev reads0_49 : Fin grid0.rank → Bool := ![true]

abbrev stage0_50 : Fin 2 → Memref sig .tc .vmem S32x64x16 .f32 := fun | 0 => Memref.whole cc0_stg50_0 | 1 => Memref.whole cc0_stg50_1 | ⟨_ + 2, h⟩ => absurd h (Nat.not_lt.2 (Nat.le_add_left _ _))
abbrev sem0_50 : Fin 2 → DmaSem sig := fun | 0 => cc0_sem50_0 | 1 => cc0_sem50_1 | ⟨_ + 2, h⟩ => absurd h (Nat.not_lt.2 (Nat.le_add_left _ _))
abbrev reads0_50 : Fin grid0.rank → Bool := ![true]

class Facts₀ : Prop where
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  inb_S256x256_S256x256_0_0 : ∀ a, (![0, 0] : Fin 2 → Nat) a + S256x256.size a ≤ S256x256.size a
  h_S256x256 : 0 < S256x256.numel
  slices_S256x256_o0_0_S128x256 : S256x256.Slices ![0, 0] S128x256
  inb_S64x128_S64x128_0_0 : ∀ a, (![0, 0] : Fin 2 → Nat) a + S64x128.size a ≤ S64x128.size a
  h_S64x128 : 0 < S64x128.numel
  slices_S256x256_o128_0_S128x256 : S256x256.Slices ![128, 0] S128x256
  broadcasts_S1x256_S64x256 : S1x256.Broadcasts S64x256
  inb_S1x256_S1x256_0_0 : ∀ a, (![0, 0] : Fin 2 → Nat) a + S1x256.size a ≤ S1x256.size a
  h_S1x256 : 0 < S1x256.numel
  bitsLt_bf16_f32 : FTy.bits .bf16 < FTy.bits .f32
  inb_S32x8x8192_S32x1x8192_0_0_0 : ∀ a, (![0, 0, 0] : Fin 3 → Nat) a + S32x1x8192.size a ≤ S32x8x8192.size a
  h_S32x1x8192 : 0 < S32x1x8192.numel
  shapeCasts_S32x1x8192_S32x8192 : S32x1x8192.ShapeCasts S32x8192
  shapeCasts_S32x8192_S32x32x256 : S32x8192.ShapeCasts S32x32x256
  concatenates_S32x32x256_S32x32x256_S32x64x256_d1 : Shape.Concatenates [S32x32x256, S32x32x256] S32x64x256 1
  inb_S64x256_S64x256_0_0 : ∀ a, (![0, 0] : Fin 2 → Nat) a + S64x256.size a ≤ S64x256.size a
  h_S64x256 : 0 < S64x256.numel
  shapeCasts_S64x256_S1x64x256 : S64x256.ShapeCasts S1x64x256
  broadcasts_S1x64x256_S32x64x256 : S1x64x256.Broadcasts S32x64x256
  shapeCasts_S32x64x256_S2048x256 : S32x64x256.ShapeCasts S2048x256
  iota_S64x64_d0_w32 : S64x64.Iotas .tc 32 [0]
  iota_S64x64_d1_w32 : S64x64.Iotas .tc 32 [1]
  iota_S64x8_d1_w32 : S64x8.Iotas .tc 32 [1]
  iota_S8x256_d0_w32 : S8x256.Iotas .tc 32 [0]
  iota_S8x256_d1_w32 : S8x256.Iotas .tc 32 [1]
  natLt_1_32 : 1 < 32
  shapeCasts_S2048x256_S32x64x256 : S2048x256.ShapeCasts S32x64x256
  slices_S32x64x256_o0_0_0_S32x64x32 : S32x64x256.Slices ![0, 0, 0] S32x64x32
  shapeCasts_S64x64_S1x64x64 : S64x64.ShapeCasts S1x64x64
  broadcasts_S1x64x64_S32x64x64 : S1x64x64.Broadcasts S32x64x64
  shapeCasts_S32x64x64_S2048x64 : S32x64x64.ShapeCasts S2048x64
  slices_S32x64x256_o0_0_32_S32x64x32 : S32x64x256.Slices ![0, 0, 32] S32x64x32
  slices_S32x64x256_o0_0_64_S32x64x32 : S32x64x256.Slices ![0, 0, 64] S32x64x32
  slices_S32x64x256_o0_0_96_S32x64x32 : S32x64x256.Slices ![0, 0, 96] S32x64x32
  slices_S32x64x256_o0_0_128_S32x64x32 : S32x64x256.Slices ![0, 0, 128] S32x64x32
  slices_S32x64x256_o0_0_160_S32x64x32 : S32x64x256.Slices ![0, 0, 160] S32x64x32
  slices_S32x64x256_o0_0_192_S32x64x32 : S32x64x256.Slices ![0, 0, 192] S32x64x32
  slices_S32x64x256_o0_0_224_S32x64x32 : S32x64x256.Slices ![0, 0, 224] S32x64x32
  concatenates_S32x64x32_S32x64x32_S32x64x32_S32x64x32_S32x64x32_S32x64x32_S32x64x32_S32x64x32_S32x64x256_d2 : Shape.Concatenates [S32x64x32, S32x64x32, S32x64x32, S32x64x32, S32x64x32, S32x64x32, S32x64x32, S32x64x32] S32x64x256 2
  broadcasts_S1x256_S2048x256 : S1x256.Broadcasts S2048x256
  inb_S256x16_S256x16_0_0 : ∀ a, (![0, 0] : Fin 2 → Nat) a + S256x16.size a ≤ S256x16.size a
  h_S256x16 : 0 < S256x16.numel
  concatenates_S256x16_S256x16_S256x32_d1 : Shape.Concatenates [S256x16, S256x16] S256x32 1
  inb_S1x16_S1x16_0_0 : ∀ a, (![0, 0] : Fin 2 → Nat) a + S1x16.size a ≤ S1x16.size a
  h_S1x16 : 0 < S1x16.numel
  concatenates_S1x16_S1x16_S1x32_d1 : Shape.Concatenates [S1x16, S1x16] S1x32 1
  broadcasts_S1x32_S2048x32 : S1x32.Broadcasts S2048x32
  slices_S2048x32_o0_0_S2048x16 : S2048x32.Slices ![0, 0] S2048x16
  shapeCasts_S2048x16_S32x64x16 : S2048x16.ShapeCasts S32x64x16
  inb_S32x64x16_S32x64x16_0_0_0 : ∀ a, (![0, 0, 0] : Fin 3 → Nat) a + S32x64x16.size a ≤ S32x64x16.size a
  h_S32x64x16 : 0 < S32x64x16.numel
  slices_S2048x32_o0_16_S2048x16 : S2048x32.Slices ![0, 16] S2048x16
  shapeCasts_S128x64x16_S128x1x1024 : S128x64x16.ShapeCasts S128x1x1024
  bcast_S128x1x1024_S128x8x1024_0_1_2 : S128x1x1024.BroadcastsInDim S128x8x1024 (![0, 1, 2] : Fin 3 → Fin S128x8x1024.rank)
  dot_S256x128_S128x256_S256x256_1_0_0_1_n_n_wf : DotDims.WF S256x128 S128x256 S256x256 [1] [0] [0] [1] [] []
  dot_S1x128_S128x256_S1x256_1_0_0_1_n_n_wf : DotDims.WF S1x128 S128x256 S1x256 [1] [0] [0] [1] [] []
  dot_S64x128_S128x256_S64x256_1_0_0_1_n_n_wf : DotDims.WF S64x128 S128x256 S64x256 [1] [0] [0] [1] [] []
  dot_S2048x256_S256x256_S2048x256_1_0_0_1_n_n_wf : DotDims.WF S2048x256 S256x256 S2048x256 [1] [0] [0] [1] [] []
  dot_S32x64x32_S32x64x32_S32x64x64_2_2_1_1_0_0_wf : DotDims.WF S32x64x32 S32x64x32 S32x64x64 [2] [2] [1] [1] [0] [0]
  dot_S32x64x64_S32x64x32_S32x64x32_2_1_1_2_0_0_wf : DotDims.WF S32x64x64 S32x64x32 S32x64x32 [2] [1] [1] [2] [0] [0]
  dot_S2048x64_S64x8_S2048x8_1_0_0_1_n_n_wf : DotDims.WF S2048x64 S64x8 S2048x8 [1] [0] [0] [1] [] []
  dot_S2048x8_S8x256_S2048x256_1_0_0_1_n_n_wf : DotDims.WF S2048x8 S8x256 S2048x256 [1] [0] [0] [1] [] []
  dot_S2048x256_S256x32_S2048x32_1_0_0_1_n_n_wf : DotDims.WF S2048x256 S256x32 S2048x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x8x8192.size a ≤ S128x8x8192.size a
  hwx0_0 : ∀ i : grid0.Coords, EltTy.bits .f32 = 32 ∨ (Rect.block (s := S128x8x8192) S32x8x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x8x8192.size a ≤ S128x8x8192.size a
  hwx0_1 : ∀ i : grid0.Coords, EltTy.bits .f32 = 32 ∨ (Rect.block (s := S128x8x8192) S32x8x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .f32 = 32 ∨ (Rect.block (s := S256x256) S256x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x256.size a ≤ S256x256.size a
  hwx0_12 : ∀ i : grid0.Coords, EltTy.bits .f32 = 32 ∨ (Rect.block (s := S256x256) S256x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x256.size a ≤ S256x256.size a
  hwx0_14 : ∀ i : grid0.Coords, EltTy.bits .f32 = 32 ∨ (Rect.block (s := S256x256) S256x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x256.size a ≤ S1x256.size a
  hwx0_15 : ∀ i : grid0.Coords, EltTy.bits .f32 = 32 ∨ (Rect.block (s := S1x256) S1x256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x256.size a ≤ S1x256.size a
  hwx0_16 : ∀ i : grid0.Coords, EltTy.bits .f32 = 32 ∨ (Rect.block (s := S1x256) S1x256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x256.size a ≤ S1x256.size a
  hwx0_17 : ∀ i : grid0.Coords, EltTy.bits .f32 = 32 ∨ (Rect.block (s := S1x256) S1x256.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S256x256.size a ≤ S256x256.size a
  hwx0_18 : ∀ i : grid0.Coords, EltTy.bits .f32 = 32 ∨ (Rect.block (s := S256x256) S256x256.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x256.size a ≤ S1x256.size a
  hwx0_19 : ∀ i : grid0.Coords, EltTy.bits .f32 = 32 ∨ (Rect.block (s := S1x256) S1x256.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S256x256.size a ≤ S256x256.size a
  hwx0_20 : ∀ i : grid0.Coords, EltTy.bits .f32 = 32 ∨ (Rect.block (s := S256x256) S256x256.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x256.size a ≤ S1x256.size a
  hwx0_21 : ∀ i : grid0.Coords, EltTy.bits .f32 = 32 ∨ (Rect.block (s := S1x256) S1x256.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x256.size a ≤ S1x256.size a
  hwx0_22 : ∀ i : grid0.Coords, EltTy.bits .f32 = 32 ∨ (Rect.block (s := S1x256) S1x256.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1x256.size a ≤ S1x256.size a
  hwx0_23 : ∀ i : grid0.Coords, EltTy.bits .f32 = 32 ∨ (Rect.block (s := S1x256) S1x256.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S64x128.size a ≤ S64x128.size a
  hwx0_24 : ∀ i : grid0.Coords, EltTy.bits .f32 = 32 ∨ (Rect.block (s := S64x128) S64x128.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S64x128.size a ≤ S64x128.size a
  hwx0_25 : ∀ i : grid0.Coords, EltTy.bits .f32 = 32 ∨ (Rect.block (s := S64x128) S64x128.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S64x128.size a ≤ S64x128.size a
  hwx0_26 : ∀ i : grid0.Coords, EltTy.bits .f32 = 32 ∨ (Rect.block (s := S64x128) S64x128.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S256x128.size a ≤ S256x128.size a
  hwx0_27 : ∀ i : grid0.Coords, EltTy.bits .f32 = 32 ∨ (Rect.block (s := S256x128) S256x128.size (cc0_transform_27 i) (hinb0_27 i)).WholeWords (EltTy.packing .f32)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S1x128.size a ≤ S1x128.size a
  hwx0_28 : ∀ i : grid0.Coords, EltTy.bits .f32 = 32 ∨ (Rect.block (s := S1x128) S1x128.size (cc0_transform_28 i) (hinb0_28 i)).WholeWords (EltTy.packing .f32)
  hstage0_29 : ∀ j, (stage0_29 j).IsWhole
  nbuf0_29 : grid0.bufCount reads0_29 true = 1
  hreads0_29 : ∀ i i' : grid0.Coords, (∀ a, reads0_29 a = true → i a = i' a) → cc0_transform_29 i = cc0_transform_29 i'
  hinb0_29 : ∀ (i : grid0.Coords) a, (cc0_transform_29 i a + 1) * S256x256.size a ≤ S256x256.size a
  hwx0_29 : ∀ i : grid0.Coords, EltTy.bits .f32 = 32 ∨ (Rect.block (s := S256x256) S256x256.size (cc0_transform_29 i) (hinb0_29 i)).WholeWords (EltTy.packing .f32)
  hstage0_30 : ∀ j, (stage0_30 j).IsWhole
  nbuf0_30 : grid0.bufCount reads0_30 true = 1
  hreads0_30 : ∀ i i' : grid0.Coords, (∀ a, reads0_30 a = true → i a = i' a) → cc0_transform_30 i = cc0_transform_30 i'
  hinb0_30 : ∀ (i : grid0.Coords) a, (cc0_transform_30 i a + 1) * S1x256.size a ≤ S1x256.size a
  hwx0_30 : ∀ i : grid0.Coords, EltTy.bits .f32 = 32 ∨ (Rect.block (s := S1x256) S1x256.size (cc0_transform_30 i) (hinb0_30 i)).WholeWords (EltTy.packing .f32)
  hstage0_31 : ∀ j, (stage0_31 j).IsWhole
  nbuf0_31 : grid0.bufCount reads0_31 true = 1
  hreads0_31 : ∀ i i' : grid0.Coords, (∀ a, reads0_31 a = true → i a = i' a) → cc0_transform_31 i = cc0_transform_31 i'
  hinb0_31 : ∀ (i : grid0.Coords) a, (cc0_transform_31 i a + 1) * S256x256.size a ≤ S256x256.size a
  hwx0_31 : ∀ i : grid0.Coords, EltTy.bits .f32 = 32 ∨ (Rect.block (s := S256x256) S256x256.size (cc0_transform_31 i) (hinb0_31 i)).WholeWords (EltTy.packing .f32)
  hstage0_32 : ∀ j, (stage0_32 j).IsWhole
  nbuf0_32 : grid0.bufCount reads0_32 true = 1
  hreads0_32 : ∀ i i' : grid0.Coords, (∀ a, reads0_32 a = true → i a = i' a) → cc0_transform_32 i = cc0_transform_32 i'
  hinb0_32 : ∀ (i : grid0.Coords) a, (cc0_transform_32 i a + 1) * S1x256.size a ≤ S1x256.size a
  hwx0_32 : ∀ i : grid0.Coords, EltTy.bits .f32 = 32 ∨ (Rect.block (s := S1x256) S1x256.size (cc0_transform_32 i) (hinb0_32 i)).WholeWords (EltTy.packing .f32)
  hstage0_33 : ∀ j, (stage0_33 j).IsWhole
  nbuf0_33 : grid0.bufCount reads0_33 true = 1
  hreads0_33 : ∀ i i' : grid0.Coords, (∀ a, reads0_33 a = true → i a = i' a) → cc0_transform_33 i = cc0_transform_33 i'
  hinb0_33 : ∀ (i : grid0.Coords) a, (cc0_transform_33 i a + 1) * S256x256.size a ≤ S256x256.size a
  hwx0_33 : ∀ i : grid0.Coords, EltTy.bits .f32 = 32 ∨ (Rect.block (s := S256x256) S256x256.size (cc0_transform_33 i) (hinb0_33 i)).WholeWords (EltTy.packing .f32)
  hstage0_34 : ∀ j, (stage0_34 j).IsWhole
  nbuf0_34 : grid0.bufCount reads0_34 true = 1
  hreads0_34 : ∀ i i' : grid0.Coords, (∀ a, reads0_34 a = true → i a = i' a) → cc0_transform_34 i = cc0_transform_34 i'
  hinb0_34 : ∀ (i : grid0.Coords) a, (cc0_transform_34 i a + 1) * S1x256.size a ≤ S1x256.size a
  hwx0_34 : ∀ i : grid0.Coords, EltTy.bits .f32 = 32 ∨ (Rect.block (s := S1x256) S1x256.size (cc0_transform_34 i) (hinb0_34 i)).WholeWords (EltTy.packing .f32)
  hstage0_35 : ∀ j, (stage0_35 j).IsWhole
  nbuf0_35 : grid0.bufCount reads0_35 true = 1
  hreads0_35 : ∀ i i' : grid0.Coords, (∀ a, reads0_35 a = true → i a = i' a) → cc0_transform_35 i = cc0_transform_35 i'
  hinb0_35 : ∀ (i : grid0.Coords) a, (cc0_transform_35 i a + 1) * S256x256.size a ≤ S256x256.size a
  hwx0_35 : ∀ i : grid0.Coords, EltTy.bits .f32 = 32 ∨ (Rect.block (s := S256x256) S256x256.size (cc0_transform_35 i) (hinb0_35 i)).WholeWords (EltTy.packing .f32)
  hstage0_36 : ∀ j, (stage0_36 j).IsWhole
  nbuf0_36 : grid0.bufCount reads0_36 true = 1
  hreads0_36 : ∀ i i' : grid0.Coords, (∀ a, reads0_36 a = true → i a = i' a) → cc0_transform_36 i = cc0_transform_36 i'
  hinb0_36 : ∀ (i : grid0.Coords) a, (cc0_transform_36 i a + 1) * S1x256.size a ≤ S1x256.size a
  hwx0_36 : ∀ i : grid0.Coords, EltTy.bits .f32 = 32 ∨ (Rect.block (s := S1x256) S1x256.size (cc0_transform_36 i) (hinb0_36 i)).WholeWords (EltTy.packing .f32)
  hstage0_37 : ∀ j, (stage0_37 j).IsWhole
  nbuf0_37 : grid0.bufCount reads0_37 true = 1
  hreads0_37 : ∀ i i' : grid0.Coords, (∀ a, reads0_37 a = true → i a = i' a) → cc0_transform_37 i = cc0_transform_37 i'
  hinb0_37 : ∀ (i : grid0.Coords) a, (cc0_transform_37 i a + 1) * S1x256.size a ≤ S1x256.size a
  hwx0_37 : ∀ i : grid0.Coords, EltTy.bits .f32 = 32 ∨ (Rect.block (s := S1x256) S1x256.size (cc0_transform_37 i) (hinb0_37 i)).WholeWords (EltTy.packing .f32)
  hstage0_38 : ∀ j, (stage0_38 j).IsWhole
  nbuf0_38 : grid0.bufCount reads0_38 true = 1
  hreads0_38 : ∀ i i' : grid0.Coords, (∀ a, reads0_38 a = true → i a = i' a) → cc0_transform_38 i = cc0_transform_38 i'
  hinb0_38 : ∀ (i : grid0.Coords) a, (cc0_transform_38 i a + 1) * S1x256.size a ≤ S1x256.size a
  hwx0_38 : ∀ i : grid0.Coords, EltTy.bits .f32 = 32 ∨ (Rect.block (s := S1x256) S1x256.size (cc0_transform_38 i) (hinb0_38 i)).WholeWords (EltTy.packing .f32)
  hstage0_39 : ∀ j, (stage0_39 j).IsWhole
  nbuf0_39 : grid0.bufCount reads0_39 true = 1
  hreads0_39 : ∀ i i' : grid0.Coords, (∀ a, reads0_39 a = true → i a = i' a) → cc0_transform_39 i = cc0_transform_39 i'
  hinb0_39 : ∀ (i : grid0.Coords) a, (cc0_transform_39 i a + 1) * S256x256.size a ≤ S256x256.size a
  hwx0_39 : ∀ i : grid0.Coords, EltTy.bits .f32 = 32 ∨ (Rect.block (s := S256x256) S256x256.size (cc0_transform_39 i) (hinb0_39 i)).WholeWords (EltTy.packing .f32)
  hstage0_40 : ∀ j, (stage0_40 j).IsWhole
  nbuf0_40 : grid0.bufCount reads0_40 true = 1
  hreads0_40 : ∀ i i' : grid0.Coords, (∀ a, reads0_40 a = true → i a = i' a) → cc0_transform_40 i = cc0_transform_40 i'
  hinb0_40 : ∀ (i : grid0.Coords) a, (cc0_transform_40 i a + 1) * S1x256.size a ≤ S1x256.size a
  hwx0_40 : ∀ i : grid0.Coords, EltTy.bits .f32 = 32 ∨ (Rect.block (s := S1x256) S1x256.size (cc0_transform_40 i) (hinb0_40 i)).WholeWords (EltTy.packing .f32)
  hstage0_41 : ∀ j, (stage0_41 j).IsWhole
  nbuf0_41 : grid0.bufCount reads0_41 true = 1
  hreads0_41 : ∀ i i' : grid0.Coords, (∀ a, reads0_41 a = true → i a = i' a) → cc0_transform_41 i = cc0_transform_41 i'
  hinb0_41 : ∀ (i : grid0.Coords) a, (cc0_transform_41 i a + 1) * S256x256.size a ≤ S256x256.size a
  hwx0_41 : ∀ i : grid0.Coords, EltTy.bits .f32 = 32 ∨ (Rect.block (s := S256x256) S256x256.size (cc0_transform_41 i) (hinb0_41 i)).WholeWords (EltTy.packing .f32)
  hstage0_42 : ∀ j, (stage0_42 j).IsWhole
  nbuf0_42 : grid0.bufCount reads0_42 true = 1
  hreads0_42 : ∀ i i' : grid0.Coords, (∀ a, reads0_42 a = true → i a = i' a) → cc0_transform_42 i = cc0_transform_42 i'
  hinb0_42 : ∀ (i : grid0.Coords) a, (cc0_transform_42 i a + 1) * S1x256.size a ≤ S1x256.size a
  hwx0_42 : ∀ i : grid0.Coords, EltTy.bits .f32 = 32 ∨ (Rect.block (s := S1x256) S1x256.size (cc0_transform_42 i) (hinb0_42 i)).WholeWords (EltTy.packing .f32)
  hstage0_43 : ∀ j, (stage0_43 j).IsWhole
  nbuf0_43 : grid0.bufCount reads0_43 true = 1
  hreads0_43 : ∀ i i' : grid0.Coords, (∀ a, reads0_43 a = true → i a = i' a) → cc0_transform_43 i = cc0_transform_43 i'
  hinb0_43 : ∀ (i : grid0.Coords) a, (cc0_transform_43 i a + 1) * S1x256.size a ≤ S1x256.size a
  hwx0_43 : ∀ i : grid0.Coords, EltTy.bits .f32 = 32 ∨ (Rect.block (s := S1x256) S1x256.size (cc0_transform_43 i) (hinb0_43 i)).WholeWords (EltTy.packing .f32)
  hstage0_44 : ∀ j, (stage0_44 j).IsWhole
  nbuf0_44 : grid0.bufCount reads0_44 true = 1
  hreads0_44 : ∀ i i' : grid0.Coords, (∀ a, reads0_44 a = true → i a = i' a) → cc0_transform_44 i = cc0_transform_44 i'
  hinb0_44 : ∀ (i : grid0.Coords) a, (cc0_transform_44 i a + 1) * S1x256.size a ≤ S1x256.size a
  hwx0_44 : ∀ i : grid0.Coords, EltTy.bits .f32 = 32 ∨ (Rect.block (s := S1x256) S1x256.size (cc0_transform_44 i) (hinb0_44 i)).WholeWords (EltTy.packing .f32)
  hstage0_45 : ∀ j, (stage0_45 j).IsWhole
  nbuf0_45 : grid0.bufCount reads0_45 true = 1
  hreads0_45 : ∀ i i' : grid0.Coords, (∀ a, reads0_45 a = true → i a = i' a) → cc0_transform_45 i = cc0_transform_45 i'
  hinb0_45 : ∀ (i : grid0.Coords) a, (cc0_transform_45 i a + 1) * S256x16.size a ≤ S256x16.size a
  hwx0_45 : ∀ i : grid0.Coords, EltTy.bits .f32 = 32 ∨ (Rect.block (s := S256x16) S256x16.size (cc0_transform_45 i) (hinb0_45 i)).WholeWords (EltTy.packing .f32)
  hstage0_46 : ∀ j, (stage0_46 j).IsWhole
  nbuf0_46 : grid0.bufCount reads0_46 true = 1
  hreads0_46 : ∀ i i' : grid0.Coords, (∀ a, reads0_46 a = true → i a = i' a) → cc0_transform_46 i = cc0_transform_46 i'
  hinb0_46 : ∀ (i : grid0.Coords) a, (cc0_transform_46 i a + 1) * S1x16.size a ≤ S1x16.size a
  hwx0_46 : ∀ i : grid0.Coords, EltTy.bits .f32 = 32 ∨ (Rect.block (s := S1x16) S1x16.size (cc0_transform_46 i) (hinb0_46 i)).WholeWords (EltTy.packing .f32)
  hstage0_47 : ∀ j, (stage0_47 j).IsWhole
  nbuf0_47 : grid0.bufCount reads0_47 true = 1
  hreads0_47 : ∀ i i' : grid0.Coords, (∀ a, reads0_47 a = true → i a = i' a) → cc0_transform_47 i = cc0_transform_47 i'
  hinb0_47 : ∀ (i : grid0.Coords) a, (cc0_transform_47 i a + 1) * S256x16.size a ≤ S256x16.size a
  hwx0_47 : ∀ i : grid0.Coords, EltTy.bits .f32 = 32 ∨ (Rect.block (s := S256x16) S256x16.size (cc0_transform_47 i) (hinb0_47 i)).WholeWords (EltTy.packing .f32)
  hstage0_48 : ∀ j, (stage0_48 j).IsWhole
  nbuf0_48 : grid0.bufCount reads0_48 true = 1
  hreads0_48 : ∀ i i' : grid0.Coords, (∀ a, reads0_48 a = true → i a = i' a) → cc0_transform_48 i = cc0_transform_48 i'
  hinb0_48 : ∀ (i : grid0.Coords) a, (cc0_transform_48 i a + 1) * S1x16.size a ≤ S1x16.size a
  hwx0_48 : ∀ i : grid0.Coords, EltTy.bits .f32 = 32 ∨ (Rect.block (s := S1x16) S1x16.size (cc0_transform_48 i) (hinb0_48 i)).WholeWords (EltTy.packing .f32)
  hstage0_49 : ∀ j, (stage0_49 j).IsWhole
  nbuf0_49 : grid0.bufCount reads0_49 false = 2
  hreads0_49 : ∀ i i' : grid0.Coords, (∀ a, reads0_49 a = true → i a = i' a) → cc0_transform_49 i = cc0_transform_49 i'
  hinb0_49 : ∀ (i : grid0.Coords) a, (cc0_transform_49 i a + 1) * S32x64x16.size a ≤ S128x64x16.size a
  hwx0_49 : ∀ i : grid0.Coords, EltTy.bits .f32 = 32 ∨ (Rect.block (s := S128x64x16) S32x64x16.size (cc0_transform_49 i) (hinb0_49 i)).WholeWords (EltTy.packing .f32)
  hstage0_50 : ∀ j, (stage0_50 j).IsWhole
  nbuf0_50 : grid0.bufCount reads0_50 false = 2
  hreads0_50 : ∀ i i' : grid0.Coords, (∀ a, reads0_50 a = true → i a = i' a) → cc0_transform_50 i = cc0_transform_50 i'
  hinb0_50 : ∀ (i : grid0.Coords) a, (cc0_transform_50 i a + 1) * S32x64x16.size a ≤ S128x64x16.size a
  hwx0_50 : ∀ i : grid0.Coords, EltTy.bits .f32 = 32 ∨ (Rect.block (s := S128x64x16) S32x64x16.size (cc0_transform_50 i) (hinb0_50 i)).WholeWords (EltTy.packing .f32)

variable [Facts₀]

def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S1x128_S128x256_S1x256_1_0_0_1_n_n : DotDims S1x128 S128x256 S1x256 where
  lhsContracting := [1]
  rhsContracting := [0]
  lhsNonContracting := [0]
  rhsNonContracting := [1]
  lhsBatch := []
  rhsBatch := []
  wf := dot_S1x128_S128x256_S1x256_1_0_0_1_n_n_wf
def dot_S64x128_S128x256_S64x256_1_0_0_1_n_n : DotDims S64x128 S128x256 S64x256 where
  lhsContracting := [1]
  rhsContracting := [0]
  lhsNonContracting := [0]
  rhsNonContracting := [1]
  lhsBatch := []
  rhsBatch := []
  wf := dot_S64x128_S128x256_S64x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S32x64x32_S32x64x32_S32x64x64_2_2_1_1_0_0 : DotDims S32x64x32 S32x64x32 S32x64x64 where
  lhsContracting := [2]
  rhsContracting := [2]
  lhsNonContracting := [1]
  rhsNonContracting := [1]
  lhsBatch := [0]
  rhsBatch := [0]
  wf := dot_S32x64x32_S32x64x32_S32x64x64_2_2_1_1_0_0_wf
def dot_S32x64x64_S32x64x32_S32x64x32_2_1_1_2_0_0 : DotDims S32x64x64 S32x64x32 S32x64x32 where
  lhsContracting := [2]
  rhsContracting := [1]
  lhsNonContracting := [1]
  rhsNonContracting := [2]
  lhsBatch := [0]
  rhsBatch := [0]
  wf := dot_S32x64x64_S32x64x32_S32x64x32_2_1_1_2_0_0_wf
def dot_S2048x64_S64x8_S2048x8_1_0_0_1_n_n : DotDims S2048x64 S64x8 S2048x8 where
  lhsContracting := [1]
  rhsContracting := [0]
  lhsNonContracting := [0]
  rhsNonContracting := [1]
  lhsBatch := []
  rhsBatch := []
  wf := dot_S2048x64_S64x8_S2048x8_1_0_0_1_n_n_wf
def dot_S2048x8_S8x256_S2048x256_1_0_0_1_n_n : DotDims S2048x8 S8x256 S2048x256 where
  lhsContracting := [1]
  rhsContracting := [0]
  lhsNonContracting := [0]
  rhsNonContracting := [1]
  lhsBatch := []
  rhsBatch := []
  wf := dot_S2048x8_S8x256_S2048x256_1_0_0_1_n_n_wf
def dot_S2048x256_S256x32_S2048x32_1_0_0_1_n_n : DotDims S2048x256 S256x32 S2048x32 where
  lhsContracting := [1]
  rhsContracting := [0]
  lhsNonContracting := [0]
  rhsNonContracting := [1]
  lhsBatch := []
  rhsBatch := []
  wf := dot_S2048x256_S256x32_S2048x32_1_0_0_1_n_n_wf

abbrev win0_0 : Pipeline.Window sig grid0 :=
  Pipeline.Window.ofSpec (Memref.whole main_arg0) S32x8x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x8x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg12) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg13) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg14) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg15) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg16) S256x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg17) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg18) S256x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg19) S1x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg20) S1x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg21) S1x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg22) S256x256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg23) S1x256.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg24) S256x256.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg25) S1x256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg26) S1x256.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg27) S1x256.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg28) S64x128.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_arg29) S64x128.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_arg30) S64x128.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_arg31) S256x128.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_arg32) S1x128.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_arg33) S256x256.size cc0_transform_29 reads0_29 false true 1 stage0_29 sem0_29
    hrank0 hreads0_29 hinb0_29 nbuf0_29 (Memref.isWhole_whole _) hwx0_29 hstage0_29

abbrev win0_30 : Pipeline.Window sig grid0 :=
  Pipeline.Window.ofSpec (Memref.whole main_arg34) S1x256.size cc0_transform_30 reads0_30 false true 1 stage0_30 sem0_30
    hrank0 hreads0_30 hinb0_30 nbuf0_30 (Memref.isWhole_whole _) hwx0_30 hstage0_30

abbrev win0_31 : Pipeline.Window sig grid0 :=
  Pipeline.Window.ofSpec (Memref.whole main_arg35) S256x256.size cc0_transform_31 reads0_31 false true 1 stage0_31 sem0_31
    hrank0 hreads0_31 hinb0_31 nbuf0_31 (Memref.isWhole_whole _) hwx0_31 hstage0_31

abbrev win0_32 : Pipeline.Window sig grid0 :=
  Pipeline.Window.ofSpec (Memref.whole main_arg36) S1x256.size cc0_transform_32 reads0_32 false true 1 stage0_32 sem0_32
    hrank0 hreads0_32 hinb0_32 nbuf0_32 (Memref.isWhole_whole _) hwx0_32 hstage0_32

abbrev win0_33 : Pipeline.Window sig grid0 :=
  Pipeline.Window.ofSpec (Memref.whole main_arg37) S256x256.size cc0_transform_33 reads0_33 false true 1 stage0_33 sem0_33
    hrank0 hreads0_33 hinb0_33 nbuf0_33 (Memref.isWhole_whole _) hwx0_33 hstage0_33

abbrev win0_34 : Pipeline.Window sig grid0 :=
  Pipeline.Window.ofSpec (Memref.whole main_arg38) S1x256.size cc0_transform_34 reads0_34 false true 1 stage0_34 sem0_34
    hrank0 hreads0_34 hinb0_34 nbuf0_34 (Memref.isWhole_whole _) hwx0_34 hstage0_34

abbrev win0_35 : Pipeline.Window sig grid0 :=
  Pipeline.Window.ofSpec (Memref.whole main_arg39) S256x256.size cc0_transform_35 reads0_35 false true 1 stage0_35 sem0_35
    hrank0 hreads0_35 hinb0_35 nbuf0_35 (Memref.isWhole_whole _) hwx0_35 hstage0_35

abbrev win0_36 : Pipeline.Window sig grid0 :=
  Pipeline.Window.ofSpec (Memref.whole main_arg40) S1x256.size cc0_transform_36 reads0_36 false true 1 stage0_36 sem0_36
    hrank0 hreads0_36 hinb0_36 nbuf0_36 (Memref.isWhole_whole _) hwx0_36 hstage0_36

abbrev win0_37 : Pipeline.Window sig grid0 :=
  Pipeline.Window.ofSpec (Memref.whole main_arg41) S1x256.size cc0_transform_37 reads0_37 false true 1 stage0_37 sem0_37
    hrank0 hreads0_37 hinb0_37 nbuf0_37 (Memref.isWhole_whole _) hwx0_37 hstage0_37

abbrev win0_38 : Pipeline.Window sig grid0 :=
  Pipeline.Window.ofSpec (Memref.whole main_arg42) S1x256.size cc0_transform_38 reads0_38 false true 1 stage0_38 sem0_38
    hrank0 hreads0_38 hinb0_38 nbuf0_38 (Memref.isWhole_whole _) hwx0_38 hstage0_38

abbrev win0_39 : Pipeline.Window sig grid0 :=
  Pipeline.Window.ofSpec (Memref.whole main_arg43) S256x256.size cc0_transform_39 reads0_39 false true 1 stage0_39 sem0_39
    hrank0 hreads0_39 hinb0_39 nbuf0_39 (Memref.isWhole_whole _) hwx0_39 hstage0_39

abbrev win0_40 : Pipeline.Window sig grid0 :=
  Pipeline.Window.ofSpec (Memref.whole main_arg44) S1x256.size cc0_transform_40 reads0_40 false true 1 stage0_40 sem0_40
    hrank0 hreads0_40 hinb0_40 nbuf0_40 (Memref.isWhole_whole _) hwx0_40 hstage0_40

abbrev win0_41 : Pipeline.Window sig grid0 :=
  Pipeline.Window.ofSpec (Memref.whole main_arg45) S256x256.size cc0_transform_41 reads0_41 false true 1 stage0_41 sem0_41
    hrank0 hreads0_41 hinb0_41 nbuf0_41 (Memref.isWhole_whole _) hwx0_41 hstage0_41

abbrev win0_42 : Pipeline.Window sig grid0 :=
  Pipeline.Window.ofSpec (Memref.whole main_arg46) S1x256.size cc0_transform_42 reads0_42 false true 1 stage0_42 sem0_42
    hrank0 hreads0_42 hinb0_42 nbuf0_42 (Memref.isWhole_whole _) hwx0_42 hstage0_42

abbrev win0_43 : Pipeline.Window sig grid0 :=
  Pipeline.Window.ofSpec (Memref.whole main_arg47) S1x256.size cc0_transform_43 reads0_43 false true 1 stage0_43 sem0_43
    hrank0 hreads0_43 hinb0_43 nbuf0_43 (Memref.isWhole_whole _) hwx0_43 hstage0_43

abbrev win0_44 : Pipeline.Window sig grid0 :=
  Pipeline.Window.ofSpec (Memref.whole main_arg48) S1x256.size cc0_transform_44 reads0_44 false true 1 stage0_44 sem0_44
    hrank0 hreads0_44 hinb0_44 nbuf0_44 (Memref.isWhole_whole _) hwx0_44 hstage0_44

abbrev win0_45 : Pipeline.Window sig grid0 :=
  Pipeline.Window.ofSpec (Memref.whole main_arg3) S256x16.size cc0_transform_45 reads0_45 false true 1 stage0_45 sem0_45
    hrank0 hreads0_45 hinb0_45 nbuf0_45 (Memref.isWhole_whole _) hwx0_45 hstage0_45

abbrev win0_46 : Pipeline.Window sig grid0 :=
  Pipeline.Window.ofSpec (Memref.whole main_arg4) S1x16.size cc0_transform_46 reads0_46 false true 1 stage0_46 sem0_46
    hrank0 hreads0_46 hinb0_46 nbuf0_46 (Memref.isWhole_whole _) hwx0_46 hstage0_46

abbrev win0_47 : Pipeline.Window sig grid0 :=
  Pipeline.Window.ofSpec (Memref.whole main_arg5) S256x16.size cc0_transform_47 reads0_47 false true 1 stage0_47 sem0_47
    hrank0 hreads0_47 hinb0_47 nbuf0_47 (Memref.isWhole_whole _) hwx0_47 hstage0_47

abbrev win0_48 : Pipeline.Window sig grid0 :=
  Pipeline.Window.ofSpec (Memref.whole main_arg6) S1x16.size cc0_transform_48 reads0_48 false true 1 stage0_48 sem0_48
    hrank0 hreads0_48 hinb0_48 nbuf0_48 (Memref.isWhole_whole _) hwx0_48 hstage0_48

abbrev win0_49 : Pipeline.Window sig grid0 :=
  Pipeline.Window.ofSpec (Memref.whole main_v0_0) S32x64x16.size cc0_transform_49 reads0_49 true false 2 stage0_49 sem0_49
    hrank0 hreads0_49 hinb0_49 nbuf0_49 (Memref.isWhole_whole _) hwx0_49 hstage0_49

abbrev win0_50 : Pipeline.Window sig grid0 :=
  Pipeline.Window.ofSpec (Memref.whole main_v0_1) S32x64x16.size cc0_transform_50 reads0_50 true false 2 stage0_50 sem0_50
    hrank0 hreads0_50 hinb0_50 nbuf0_50 (Memref.isWhole_whole _) hwx0_50 hstage0_50

abbrev win0 : Fin 51 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | 31 => win0_31 | 32 => win0_32 | 33 => win0_33 | 34 => win0_34 | 35 => win0_35 | 36 => win0_36 | 37 => win0_37 | 38 => win0_38 | 39 => win0_39 | 40 => win0_40 | 41 => win0_41 | 42 => win0_42 | 43 => win0_43 | 44 => win0_44 | 45 => win0_45 | 46 => win0_46 | 47 => win0_47 | 48 => win0_48 | 49 => win0_49 | 50 => win0_50 | ⟨_ + 51, h⟩ => absurd h (Nat.not_lt.2 (Nat.le_add_left _ _))
abbrev spec0 : Fin 51 → Pipeline.WinSpec sig grid0.rank := fun w => (win0 w).toWinSpec

class Facts : Prop extends Facts₀ where

variable [Facts]
-- ==== ReferenceIdeal.lean ====
abbrev S128x8x8192 : Shape := ⟨3, ![128, 8, 8192]⟩
abbrev S64x256 : Shape := ⟨2, ![64, 256]⟩
abbrev S256x16 : Shape := ⟨2, ![256, 16]⟩
abbrev S1x16 : Shape := ⟨2, ![1, 16]⟩
abbrev S64x128 : Shape := ⟨2, ![64, 128]⟩
abbrev S256x128 : Shape := ⟨2, ![256, 128]⟩
abbrev S1x128 : Shape := ⟨2, ![1, 128]⟩
abbrev S256x256 : Shape := ⟨2, ![256, 256]⟩
abbrev S1x256 : Shape := ⟨2, ![1, 256]⟩
abbrev S128x8x16384 : Shape := ⟨3, ![128, 8, 16384]⟩
abbrev S128x1x16384 : Shape := ⟨3, ![128, 1, 16384]⟩
abbrev S128x16384 : Shape := ⟨2, ![128, 16384]⟩
abbrev S128x64x256 : Shape := ⟨3, ![128, 64, 256]⟩
abbrev S1x64x256 : Shape := ⟨3, ![1, 64, 256]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S128x256 : Shape := ⟨2, ![128, 256]⟩
abbrev S64x32 : Shape := ⟨2, ![64, 32]⟩
abbrev S32x256 : Shape := ⟨2, ![32, 256]⟩
abbrev S8192x256 : Shape := ⟨2, ![8192, 256]⟩
abbrev S8192x16 : Shape := ⟨2, ![8192, 16]⟩
abbrev S128x1x1024 : Shape := ⟨3, ![128, 1, 1024]⟩
abbrev S128x8x1024 : Shape := ⟨3, ![128, 8, 1024]⟩

abbrev nBuf : Space → Nat
  | .hbm => 77
  | .vmem => 59
  | .smem => 0
  | _ => 0

abbrev bufTy : (tb : Table) → Fin (tcTables nBuf tb) → BufTy
  | .hbm, ⟨0, _⟩ => ⟨S128x8x8192, .f32⟩
  | .hbm, ⟨1, _⟩ => ⟨S128x8x8192, .f32⟩
  | .hbm, ⟨2, _⟩ => ⟨S64x256, .f32⟩
  | .hbm, ⟨3, _⟩ => ⟨S256x16, .f32⟩
  | .hbm, ⟨4, _⟩ => ⟨S1x16, .f32⟩
  | .hbm, ⟨5, _⟩ => ⟨S256x16, .f32⟩
  | .hbm, ⟨6, _⟩ => ⟨S1x16, .f32⟩
  | .hbm, ⟨7, _⟩ => ⟨S64x128, .f32⟩
  | .hbm, ⟨8, _⟩ => ⟨S64x128, .f32⟩
  | .hbm, ⟨9, _⟩ => ⟨S64x128, .f32⟩
  | .hbm, ⟨10, _⟩ => ⟨S256x128, .f32⟩
  | .hbm, ⟨11, _⟩ => ⟨S1x128, .f32⟩
  | .hbm, ⟨12, _⟩ => ⟨S256x256, .f32⟩
  | .hbm, ⟨13, _⟩ => ⟨S1x256, .f32⟩
  | .hbm, ⟨14, _⟩ => ⟨S256x256, .f32⟩
  | .hbm, ⟨15, _⟩ => ⟨S1x256, .f32⟩
  | .hbm, ⟨16, _⟩ => ⟨S256x256, .f32⟩
  | .hbm, ⟨17, _⟩ => ⟨S1x256, .f32⟩
  | .hbm, ⟨18, _⟩ => ⟨S256x256, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S256x256, .f32⟩
  | .hbm, ⟨23, _⟩ => ⟨S1x256, .f32⟩
  | .hbm, ⟨24, _⟩ => ⟨S256x256, .f32⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S64x128, .f32⟩
  | .hbm, ⟨29, _⟩ => ⟨S64x128, .f32⟩
  | .hbm, ⟨30, _⟩ => ⟨S64x128, .f32⟩
  | .hbm, ⟨31, _⟩ => ⟨S256x128, .f32⟩
  | .hbm, ⟨32, _⟩ => ⟨S1x128, .f32⟩
  | .hbm, ⟨33, _⟩ => ⟨S256x256, .f32⟩
  | .hbm, ⟨34, _⟩ => ⟨S1x256, .f32⟩
  | .hbm, ⟨35, _⟩ => ⟨S256x256, .f32⟩
  | .hbm, ⟨36, _⟩ => ⟨S1x256, .f32⟩
  | .hbm, ⟨37, _⟩ => ⟨S256x256, .f32⟩
  | .hbm, ⟨38, _⟩ => ⟨S1x256, .f32⟩
  | .hbm, ⟨39, _⟩ => ⟨S256x256, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S256x256, .f32⟩
  | .hbm, ⟨44, _⟩ => ⟨S1x256, .f32⟩
  | .hbm, ⟨45, _⟩ => ⟨S256x256, .f32⟩
  | .hbm, ⟨46, _⟩ => ⟨S1x256, .f32⟩
  | .hbm, ⟨47, _⟩ => ⟨S1x256, .f32⟩
  | .hbm, ⟨48, _⟩ => ⟨S1x256, .f32⟩
  | .hbm, ⟨49, _⟩ => ⟨S128x8x16384, .f32⟩
  | .hbm, ⟨50, _⟩ => ⟨S128x1x16384, .f32⟩
  | .hbm, ⟨51, _⟩ => ⟨S128x16384, .f32⟩
  | .hbm, ⟨52, _⟩ => ⟨S128x64x256, .f32⟩
  | .hbm, ⟨53, _⟩ => ⟨S1x64x256, .f32⟩
  | .hbm, ⟨54, _⟩ => ⟨S128x64x256, .f32⟩
  | .hbm, ⟨55, _⟩ => ⟨S128x64x256, .f32⟩
  | .hbm, ⟨56, _⟩ => ⟨S64, .i32⟩
  | .hbm, ⟨57, _⟩ => ⟨S64x1, .i32⟩
  | .hbm, ⟨58, _⟩ => ⟨S1x64, .i32⟩
  | .hbm, ⟨59, _⟩ => ⟨S64x64, .i32⟩
  | .hbm, ⟨60, _⟩ => ⟨S64x64, .i32⟩
  | .hbm, ⟨61, _⟩ => ⟨S64x64, .i1⟩
  | .hbm, ⟨62, _⟩ => ⟨S_, .f32⟩
  | .hbm, ⟨63, _⟩ => ⟨S_, .f32⟩
  | .hbm, ⟨64, _⟩ => ⟨S64x64, .f32⟩
  | .hbm, ⟨65, _⟩ => ⟨S64x64, .f32⟩
  | .hbm, ⟨66, _⟩ => ⟨S64x64, .f32⟩
  | .hbm, ⟨67, _⟩ => ⟨S64x64, .f32⟩
  | .hbm, ⟨68, _⟩ => ⟨S128x64x256, .f32⟩
  | .hbm, ⟨69, _⟩ => ⟨S128x64x256, .f32⟩
  | .hbm, ⟨70, _⟩ => ⟨S8192x256, .f32⟩
  | .hbm, ⟨71, _⟩ => ⟨S8192x16, .f32⟩
  | .hbm, ⟨72, _⟩ => ⟨S8192x16, .f32⟩
  | .hbm, ⟨73, _⟩ => ⟨S128x1x1024, .f32⟩
  | .hbm, ⟨74, _⟩ => ⟨S128x8x1024, .f32⟩
  | .hbm, ⟨75, _⟩ => ⟨S128x1x1024, .f32⟩
  | .hbm, ⟨76, _⟩ => ⟨S128x8x1024, .f32⟩
  | .local _ .vmem, ⟨0, _⟩ => ⟨S1x64x256, .f32⟩
  | .local _ .vmem, ⟨1, _⟩ => ⟨S1x64x256, .f32⟩
  | .local _ .vmem, ⟨2, _⟩ => ⟨S64x64, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S256x128, .f32⟩
  | .local _ .vmem, ⟨7, _⟩ => ⟨S1x128, .f32⟩
  | .local _ .vmem, ⟨8, _⟩ => ⟨S256x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S256x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S256x256, .f32⟩
  | .local _ .vmem, ⟨19, _⟩ => ⟨S1x256, .f32⟩
  | .local _ .vmem, ⟨20, _⟩ => ⟨S256x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x64x256, .f32⟩
  | .local _ .vmem, ⟨25, _⟩ => ⟨S1x64x256, .f32⟩
  | .local _ .vmem, ⟨26, _⟩ => ⟨S1x64x256, .f32⟩
  | .local _ .vmem, ⟨27, _⟩ => ⟨S1x64x256, .f32⟩
  | .local _ .vmem, ⟨28, _⟩ => ⟨S64x64, .f32⟩
  | .local _ .vmem, ⟨29, _⟩ => ⟨S64x128, .f32⟩
  | .local _ .vmem, ⟨30, _⟩ => ⟨S64x128, .f32⟩
  | .local _ .vmem, ⟨31, _⟩ => ⟨S64x128, .f32⟩
  | .local _ .vmem, ⟨32, _⟩ => ⟨S256x128, .f32⟩
  | .local _ .vmem, ⟨33, _⟩ => ⟨S1x128, .f32⟩
  | .local _ .vmem, ⟨34, _⟩ => ⟨S256x256, .f32⟩
  | .local _ .vmem, ⟨35, _⟩ => ⟨S1x256, .f32⟩
  | .local _ .vmem, ⟨36, _⟩ => ⟨S256x256, .f32⟩
  | .local _ .vmem, ⟨37, _⟩ => ⟨S1x256, .f32⟩
  | .local _ .vmem, ⟨38, _⟩ => ⟨S256x256, .f32⟩
  | .local _ .vmem, ⟨39, _⟩ => ⟨S1x256, .f32⟩
  | .local _ .vmem, ⟨40, _⟩ => ⟨S256x256, .f32⟩
  | .local _ .vmem, ⟨41, _⟩ => ⟨S1x256, .f32⟩
  | .local _ .vmem, ⟨42, _⟩ => ⟨S1x256, .f32⟩
  | .local _ .vmem, ⟨43, _⟩ => ⟨S1x256, .f32⟩
  | .local _ .vmem, ⟨44, _⟩ => ⟨S256x256, .f32⟩
  | .local _ .vmem, ⟨45, _⟩ => ⟨S1x256, .f32⟩
  | .local _ .vmem, ⟨46, _⟩ => ⟨S256x256, .f32⟩
  | .local _ .vmem, ⟨47, _⟩ => ⟨S1x256, .f32⟩
  | .local _ .vmem, ⟨48, _⟩ => ⟨S1x256, .f32⟩
  | .local _ .vmem, ⟨49, _⟩ => ⟨S1x256, .f32⟩
  | .local _ .vmem, ⟨50, _⟩ => ⟨S1x64x256, .f32⟩
  | .local _ .vmem, ⟨51, _⟩ => ⟨S1x64x256, .f32⟩
  | .local _ .vmem, ⟨52, _⟩ => ⟨S8192x256, .f32⟩
  | .local _ .vmem, ⟨53, _⟩ => ⟨S256x16, .f32⟩
  | .local _ .vmem, ⟨54, _⟩ => ⟨S1x16, .f32⟩
  | .local _ .vmem, ⟨55, _⟩ => ⟨S256x16, .f32⟩
  | .local _ .vmem, ⟨56, _⟩ => ⟨S1x16, .f32⟩
  | .local _ .vmem, ⟨57, _⟩ => ⟨S8192x16, .f32⟩
  | .local _ .vmem, ⟨58, _⟩ => ⟨S8192x16, .f32⟩
  | _, _ => ⟨S128x8x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_v0 : Ref sig .tc := ⟨.hbm, 49, rfl⟩
abbrev main_v1 : Ref sig .tc := ⟨.hbm, 50, rfl⟩
abbrev main_v2 : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_cst : Ref sig .tc := ⟨.hbm, 62, rfl⟩
abbrev main_cst_0 : Ref sig .tc := ⟨.hbm, 63, rfl⟩
abbrev main_call0_v0 : Ref sig .tc := ⟨.hbm, 64, rfl⟩
abbrev main_call0_v1 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18_0 : Ref sig .tc := ⟨.hbm, 71, rfl⟩
abbrev main_v18_1 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg23_1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg2_0 : Ref sig .tc := ⟨.vmem, 29, rfl⟩
abbrev cc1_stg3_0 : Ref sig .tc := ⟨.vmem, 30, rfl⟩
abbrev cc1_stg4_0 : Ref sig .tc := ⟨.vmem, 31, rfl⟩
abbrev cc1_stg5_0 : Ref sig .tc := ⟨.vmem, 32, rfl⟩
abbrev cc1_stg6_0 : Ref sig .tc := ⟨.vmem, 33, rfl⟩
abbrev cc1_stg7_0 : Ref sig .tc := ⟨.vmem, 34, rfl⟩
abbrev cc1_stg8_0 : Ref sig .tc := ⟨.vmem, 35, rfl⟩
abbrev cc1_stg9_0 : Ref sig .tc := ⟨.vmem, 36, rfl⟩
abbrev cc1_stg10_0 : Ref sig .tc := ⟨.vmem, 37, rfl⟩
abbrev cc1_stg11_0 : Ref sig .tc := ⟨.vmem, 38, rfl⟩
abbrev cc1_stg12_0 : Ref sig .tc := ⟨.vmem, 39, rfl⟩
abbrev cc1_stg13_0 : Ref sig .tc := ⟨.vmem, 40, rfl⟩
abbrev cc1_stg14_0 : Ref sig .tc := ⟨.vmem, 41, rfl⟩
abbrev cc1_stg15_0 : Ref sig .tc := ⟨.vmem, 42, rfl⟩
abbrev cc1_stg16_0 : Ref sig .tc := ⟨.vmem, 43, rfl⟩
abbrev cc1_stg17_0 : Ref sig .tc := ⟨.vmem, 44, rfl⟩
abbrev cc1_stg18_0 : Ref sig .tc := ⟨.vmem, 45, rfl⟩
abbrev cc1_stg19_0 : Ref sig .tc := ⟨.vmem, 46, rfl⟩
abbrev cc1_stg20_0 : Ref sig .tc := ⟨.vmem, 47, rfl⟩
abbrev cc1_stg21_0 : Ref sig .tc := ⟨.vmem, 48, rfl⟩
abbrev cc1_stg22_0 : Ref sig .tc := ⟨.vmem, 49, rfl⟩
abbrev cc1_stg23_0 : Ref sig .tc := ⟨.vmem, 50, rfl⟩
abbrev cc1_stg23_1 : Ref sig .tc := ⟨.vmem, 51, rfl⟩
abbrev cc2_stg0_0 : Ref sig .tc := ⟨.vmem, 52, rfl⟩
abbrev cc2_stg1_0 : Ref sig .tc := ⟨.vmem, 53, rfl⟩
abbrev cc2_stg2_0 : Ref sig .tc := ⟨.vmem, 54, rfl⟩
abbrev cc2_stg3_0 : Ref sig .tc := ⟨.vmem, 55, rfl⟩
abbrev cc2_stg4_0 : Ref sig .tc := ⟨.vmem, 56, rfl⟩
abbrev cc2_stg5_0 : Ref sig .tc := ⟨.vmem, 57, rfl⟩
abbrev cc2_stg6_0 : Ref sig .tc := ⟨.vmem, 58, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem23_1 : DmaSem sig := 25
abbrev cc1_sem0_0 : DmaSem sig := 26
abbrev cc1_sem0_1 : DmaSem sig := 27
abbrev cc1_sem1_0 : DmaSem sig := 28
abbrev cc1_sem2_0 : DmaSem sig := 29
abbrev cc1_sem3_0 : DmaSem sig := 30
abbrev cc1_sem4_0 : DmaSem sig := 31
abbrev cc1_sem5_0 : DmaSem sig := 32
abbrev cc1_sem6_0 : DmaSem sig := 33
abbrev cc1_sem7_0 : DmaSem sig := 34
abbrev cc1_sem8_0 : DmaSem sig := 35
abbrev cc1_sem9_0 : DmaSem sig := 36
abbrev cc1_sem10_0 : DmaSem sig := 37
abbrev cc1_sem11_0 : DmaSem sig := 38
abbrev cc1_sem12_0 : DmaSem sig := 39
abbrev cc1_sem13_0 : DmaSem sig := 40
abbrev cc1_sem14_0 : DmaSem sig := 41
abbrev cc1_sem15_0 : DmaSem sig := 42
abbrev cc1_sem16_0 : DmaSem sig := 43
abbrev cc1_sem17_0 : DmaSem sig := 44
abbrev cc1_sem18_0 : DmaSem sig := 45
abbrev cc1_sem19_0 : DmaSem sig := 46
abbrev cc1_sem20_0 : DmaSem sig := 47
abbrev cc1_sem21_0 : DmaSem sig := 48
abbrev cc1_sem22_0 : DmaSem sig := 49
abbrev cc1_sem23_0 : DmaSem sig := 50
abbrev cc1_sem23_1 : DmaSem sig := 51
abbrev cc2_sem0_0 : DmaSem sig := 52
abbrev cc2_sem1_0 : DmaSem sig := 53
abbrev cc2_sem2_0 : DmaSem sig := 54
abbrev cc2_sem3_0 : DmaSem sig := 55
abbrev cc2_sem4_0 : DmaSem sig := 56
abbrev cc2_sem5_0 : DmaSem sig := 57
abbrev cc2_sem6_0 : DmaSem sig := 58

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S1x64x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev grid1 : Pipeline.Grid := ⟨1, ![128], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_22 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_23 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S256x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S256x256 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x256 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x256 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x256 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S256x256 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S1x256 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S256x256 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S1x256 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 1 → Memref sig .tc .vmem S1x256 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]

abbrev stage1_22 : Fin 1 → Memref sig .tc .vmem S1x256 .f32 := fun | 0 => Memref.whole cc1_stg22_0 | ⟨_ + 1, h⟩ => absurd h (Nat.not_lt.2 (Nat.le_add_left _ _))
abbrev sem1_22 : Fin 1 → DmaSem sig := fun | 0 => cc1_sem22_0 | ⟨_ + 1, h⟩ => absurd h (Nat.not_lt.2 (Nat.le_add_left _ _))
abbrev reads1_22 : Fin grid1.rank → Bool := ![false]

abbrev stage1_23 : Fin 2 → Memref sig .tc .vmem S1x64x256 .f32 := fun | 0 => Memref.whole cc1_stg23_0 | 1 => Memref.whole cc1_stg23_1 | ⟨_ + 2, h⟩ => absurd h (Nat.not_lt.2 (Nat.le_add_left _ _))
abbrev sem1_23 : Fin 2 → DmaSem sig := fun | 0 => cc1_sem23_0 | 1 => cc1_sem23_1 | ⟨_ + 2, h⟩ => absurd h (Nat.not_lt.2 (Nat.le_add_left _ _))
abbrev reads1_23 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S8192x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S256x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S8192x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S8192x16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

class Facts₀ : Prop where
  concatenates_S128x8x8192_S128x8x8192_S128x8x16384_d2 : Shape.Concatenates [S128x8x8192, S128x8x8192] S128x8x16384 2
  slices_S128x8x16384_S128x1x16384_0_0_0 : S128x8x16384.Slices ![0, 0, 0] S128x1x16384
  shapeCasts_S128x1x16384_S128x16384 : S128x1x16384.ShapeCasts S128x16384
  shapeCasts_S128x16384_S128x64x256 : S128x16384.ShapeCasts S128x64x256
  bcast_S64x256_S1x64x256_1_2 : S64x256.BroadcastsInDim S1x64x256 (![1, 2] : Fin 2 → Fin S1x64x256.rank)
  bcast_S1x64x256_S128x64x256_0_1_2 : S1x64x256.BroadcastsInDim S128x64x256 (![0, 1, 2] : Fin 3 → Fin S128x64x256.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  broadcasts_S1x128_S64x128 : S1x128.Broadcasts S64x128
  inb_S256x256_S256x256_0_0 : ∀ a, (![0, 0] : Fin 2 → Nat) a + S256x256.size a ≤ S256x256.size a
  h_S256x256 : 0 < S256x256.numel
  slices_S256x256_o0_0_S128x256 : S256x256.Slices ![0, 0] S128x256
  inb_S64x128_S64x128_0_0 : ∀ a, (![0, 0] : Fin 2 → Nat) a + S64x128.size a ≤ S64x128.size a
  h_S64x128 : 0 < S64x128.numel
  slices_S256x256_o128_0_S128x256 : S256x256.Slices ![128, 0] S128x256
  inb_S1x256_S1x256_0_0 : ∀ a, (![0, 0] : Fin 2 → Nat) a + S1x256.size a ≤ S1x256.size a
  h_S1x256 : 0 < S1x256.numel
  broadcasts_S1x256_S64x256 : S1x256.Broadcasts S64x256
  slices_S64x256_o0_0_S64x32 : S64x256.Slices ![0, 0] S64x32
  reduces_S64x64_S64 : S64x64.Reduces [1] S64
  shapeCasts_S64_S64x1 : S64.ShapeCasts S64x1
  broadcasts_S64x1_S64x64 : S64x1.Broadcasts S64x64
  slices_S256x256_o0_0_S32x256 : S256x256.Slices ![0, 0] S32x256
  slices_S64x256_o0_32_S64x32 : S64x256.Slices ![0, 32] S64x32
  slices_S256x256_o32_0_S32x256 : S256x256.Slices ![32, 0] S32x256
  slices_S64x256_o0_64_S64x32 : S64x256.Slices ![0, 64] S64x32
  slices_S256x256_o64_0_S32x256 : S256x256.Slices ![64, 0] S32x256
  slices_S64x256_o0_96_S64x32 : S64x256.Slices ![0, 96] S64x32
  slices_S256x256_o96_0_S32x256 : S256x256.Slices ![96, 0] S32x256
  slices_S64x256_o0_128_S64x32 : S64x256.Slices ![0, 128] S64x32
  slices_S256x256_o128_0_S32x256 : S256x256.Slices ![128, 0] S32x256
  slices_S64x256_o0_160_S64x32 : S64x256.Slices ![0, 160] S64x32
  slices_S256x256_o160_0_S32x256 : S256x256.Slices ![160, 0] S32x256
  slices_S64x256_o0_192_S64x32 : S64x256.Slices ![0, 192] S64x32
  slices_S256x256_o192_0_S32x256 : S256x256.Slices ![192, 0] S32x256
  slices_S64x256_o0_224_S64x32 : S64x256.Slices ![0, 224] S64x32
  slices_S256x256_o224_0_S32x256 : S256x256.Slices ![224, 0] S32x256
  reduces_S64x256_S64 : S64x256.Reduces [1] S64
  broadcasts_S64x1_S64x256 : S64x1.Broadcasts S64x256
  shapeCasts_S64x256_S1x64x256 : S64x256.ShapeCasts S1x64x256
  shapeCasts_S128x64x256_S8192x256 : S128x64x256.ShapeCasts S8192x256
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S256x16_S256x16_0_0 : ∀ a, (![0, 0] : Fin 2 → Nat) a + S256x16.size a ≤ S256x16.size a
  h_S256x16 : 0 < S256x16.numel
  inb_S1x16_S1x16_0_0 : ∀ a, (![0, 0] : Fin 2 → Nat) a + S1x16.size a ≤ S1x16.size a
  h_S1x16 : 0 < S1x16.numel
  broadcasts_S1x16_S8192x16 : S1x16.Broadcasts S8192x16
  inb_S8192x16_S8192x16_0_0 : ∀ a, (![0, 0] : Fin 2 → Nat) a + S8192x16.size a ≤ S8192x16.size a
  h_S8192x16 : 0 < S8192x16.numel
  shapeCasts_S8192x16_S128x1x1024 : S8192x16.ShapeCasts S128x1x1024
  bcast_S128x1x1024_S128x8x1024_0_1_2 : S128x1x1024.BroadcastsInDim S128x8x1024 (![0, 1, 2] : Fin 3 → Fin S128x8x1024.rank)
  dot_S64x256_S256x128_S64x128_1_0_0_1_n_n_wf : DotDims.WF S64x256 S256x128 S64x128 [1] [0] [0] [1] [] []
  dot_S64x128_S128x256_S64x256_1_0_0_1_n_n_wf : DotDims.WF S64x128 S128x256 S64x256 [1] [0] [0] [1] [] []
  dot_S64x32_S64x32_S64x64_1_1_0_0_n_n_wf : DotDims.WF S64x32 S64x32 S64x64 [1] [1] [0] [0] [] []
  dot_S64x64_S64x32_S64x32_1_0_0_1_n_n_wf : DotDims.WF S64x64 S64x32 S64x32 [1] [0] [0] [1] [] []
  dot_S64x32_S32x256_S64x256_1_0_0_1_n_n_wf : DotDims.WF S64x32 S32x256 S64x256 [1] [0] [0] [1] [] []
  dot_S64x256_S256x256_S64x256_1_0_0_1_n_n_wf : DotDims.WF S64x256 S256x256 S64x256 [1] [0] [0] [1] [] []
  dot_S8192x256_S256x16_S8192x16_1_0_0_1_n_n_wf : DotDims.WF S8192x256 S256x16 S8192x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x256.size a ≤ S128x64x256.size a
  hwx0_0 : ∀ i : grid0.Coords, EltTy.bits .f32 = 32 ∨ (Rect.block (s := S128x64x256) S1x64x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .f32 = 32 ∨ (Rect.block (s := S256x256) S256x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .f32 = 32 ∨ (Rect.block (s := S256x256) S256x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x256.size a ≤ S256x256.size a
  hwx0_13 : ∀ i : grid0.Coords, EltTy.bits .f32 = 32 ∨ (Rect.block (s := S256x256) S256x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x256.size a ≤ S1x256.size a
  hwx0_15 : ∀ i : grid0.Coords, EltTy.bits .f32 = 32 ∨ (Rect.block (s := S1x256) S1x256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x256.size a ≤ S1x256.size a
  hwx0_16 : ∀ i : grid0.Coords, EltTy.bits .f32 = 32 ∨ (Rect.block (s := S1x256) S1x256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256x256.size a ≤ S256x256.size a
  hwx0_17 : ∀ i : grid0.Coords, EltTy.bits .f32 = 32 ∨ (Rect.block (s := S256x256) S256x256.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x256.size a ≤ S1x256.size a
  hwx0_18 : ∀ i : grid0.Coords, EltTy.bits .f32 = 32 ∨ (Rect.block (s := S1x256) S1x256.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S256x256.size a ≤ S256x256.size a
  hwx0_19 : ∀ i : grid0.Coords, EltTy.bits .f32 = 32 ∨ (Rect.block (s := S256x256) S256x256.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x256.size a ≤ S1x256.size a
  hwx0_20 : ∀ i : grid0.Coords, EltTy.bits .f32 = 32 ∨ (Rect.block (s := S1x256) S1x256.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x256.size a ≤ S1x256.size a
  hwx0_21 : ∀ i : grid0.Coords, EltTy.bits .f32 = 32 ∨ (Rect.block (s := S1x256) S1x256.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x256.size a ≤ S1x256.size a
  hwx0_22 : ∀ i : grid0.Coords, EltTy.bits .f32 = 32 ∨ (Rect.block (s := S1x256) S1x256.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S1x64x256.size a ≤ S128x64x256.size a
  hwx0_23 : ∀ i : grid0.Coords, EltTy.bits .f32 = 32 ∨ (Rect.block (s := S128x64x256) S1x64x256.size (cc0_transform_23 i) (hinb0_23 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x256.size a ≤ S128x64x256.size a
  hwx1_0 : ∀ i : grid1.Coords, EltTy.bits .f32 = 32 ∨ (Rect.block (s := S128x64x256) S1x64x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x256.size a ≤ S256x256.size a
  hwx1_7 : ∀ i : grid1.Coords, EltTy.bits .f32 = 32 ∨ (Rect.block (s := S256x256) S256x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256x256.size a ≤ S256x256.size a
  hwx1_9 : ∀ i : grid1.Coords, EltTy.bits .f32 = 32 ∨ (Rect.block (s := S256x256) S256x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x256.size a ≤ S1x256.size a
  hwx1_10 : ∀ i : grid1.Coords, EltTy.bits .f32 = 32 ∨ (Rect.block (s := S1x256) S1x256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S256x256.size a ≤ S256x256.size a
  hwx1_11 : ∀ i : grid1.Coords, EltTy.bits .f32 = 32 ∨ (Rect.block (s := S256x256) S256x256.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x256.size a ≤ S1x256.size a
  hwx1_12 : ∀ i : grid1.Coords, EltTy.bits .f32 = 32 ∨ (Rect.block (s := S1x256) S1x256.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S256x256.size a ≤ S256x256.size a
  hwx1_13 : ∀ i : grid1.Coords, EltTy.bits .f32 = 32 ∨ (Rect.block (s := S256x256) S256x256.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x256.size a ≤ S1x256.size a
  hwx1_14 : ∀ i : grid1.Coords, EltTy.bits .f32 = 32 ∨ (Rect.block (s := S1x256) S1x256.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1x256.size a ≤ S1x256.size a
  hwx1_15 : ∀ i : grid1.Coords, EltTy.bits .f32 = 32 ∨ (Rect.block (s := S1x256) S1x256.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S1x256.size a ≤ S1x256.size a
  hwx1_16 : ∀ i : grid1.Coords, EltTy.bits .f32 = 32 ∨ (Rect.block (s := S1x256) S1x256.size (cc1_transform_16 i) (hinb1_16 i)).WholeWords (EltTy.packing .f32)
  hstage1_17 : ∀ j, (stage1_17 j).IsWhole
  nbuf1_17 : grid1.bufCount reads1_17 true = 1
  hreads1_17 : ∀ i i' : grid1.Coords, (∀ a, reads1_17 a = true → i a = i' a) → cc1_transform_17 i = cc1_transform_17 i'
  hinb1_17 : ∀ (i : grid1.Coords) a, (cc1_transform_17 i a + 1) * S256x256.size a ≤ S256x256.size a
  hwx1_17 : ∀ i : grid1.Coords, EltTy.bits .f32 = 32 ∨ (Rect.block (s := S256x256) S256x256.size (cc1_transform_17 i) (hinb1_17 i)).WholeWords (EltTy.packing .f32)
  hstage1_18 : ∀ j, (stage1_18 j).IsWhole
  nbuf1_18 : grid1.bufCount reads1_18 true = 1
  hreads1_18 : ∀ i i' : grid1.Coords, (∀ a, reads1_18 a = true → i a = i' a) → cc1_transform_18 i = cc1_transform_18 i'
  hinb1_18 : ∀ (i : grid1.Coords) a, (cc1_transform_18 i a + 1) * S1x256.size a ≤ S1x256.size a
  hwx1_18 : ∀ i : grid1.Coords, EltTy.bits .f32 = 32 ∨ (Rect.block (s := S1x256) S1x256.size (cc1_transform_18 i) (hinb1_18 i)).WholeWords (EltTy.packing .f32)
  hstage1_19 : ∀ j, (stage1_19 j).IsWhole
  nbuf1_19 : grid1.bufCount reads1_19 true = 1
  hreads1_19 : ∀ i i' : grid1.Coords, (∀ a, reads1_19 a = true → i a = i' a) → cc1_transform_19 i = cc1_transform_19 i'
  hinb1_19 : ∀ (i : grid1.Coords) a, (cc1_transform_19 i a + 1) * S256x256.size a ≤ S256x256.size a
  hwx1_19 : ∀ i : grid1.Coords, EltTy.bits .f32 = 32 ∨ (Rect.block (s := S256x256) S256x256.size (cc1_transform_19 i) (hinb1_19 i)).WholeWords (EltTy.packing .f32)
  hstage1_20 : ∀ j, (stage1_20 j).IsWhole
  nbuf1_20 : grid1.bufCount reads1_20 true = 1
  hreads1_20 : ∀ i i' : grid1.Coords, (∀ a, reads1_20 a = true → i a = i' a) → cc1_transform_20 i = cc1_transform_20 i'
  hinb1_20 : ∀ (i : grid1.Coords) a, (cc1_transform_20 i a + 1) * S1x256.size a ≤ S1x256.size a
  hwx1_20 : ∀ i : grid1.Coords, EltTy.bits .f32 = 32 ∨ (Rect.block (s := S1x256) S1x256.size (cc1_transform_20 i) (hinb1_20 i)).WholeWords (EltTy.packing .f32)
  hstage1_21 : ∀ j, (stage1_21 j).IsWhole
  nbuf1_21 : grid1.bufCount reads1_21 true = 1
  hreads1_21 : ∀ i i' : grid1.Coords, (∀ a, reads1_21 a = true → i a = i' a) → cc1_transform_21 i = cc1_transform_21 i'
  hinb1_21 : ∀ (i : grid1.Coords) a, (cc1_transform_21 i a + 1) * S1x256.size a ≤ S1x256.size a
  hwx1_21 : ∀ i : grid1.Coords, EltTy.bits .f32 = 32 ∨ (Rect.block (s := S1x256) S1x256.size (cc1_transform_21 i) (hinb1_21 i)).WholeWords (EltTy.packing .f32)
  hstage1_22 : ∀ j, (stage1_22 j).IsWhole
  nbuf1_22 : grid1.bufCount reads1_22 true = 1
  hreads1_22 : ∀ i i' : grid1.Coords, (∀ a, reads1_22 a = true → i a = i' a) → cc1_transform_22 i = cc1_transform_22 i'
  hinb1_22 : ∀ (i : grid1.Coords) a, (cc1_transform_22 i a + 1) * S1x256.size a ≤ S1x256.size a
  hwx1_22 : ∀ i : grid1.Coords, EltTy.bits .f32 = 32 ∨ (Rect.block (s := S1x256) S1x256.size (cc1_transform_22 i) (hinb1_22 i)).WholeWords (EltTy.packing .f32)
  hstage1_23 : ∀ j, (stage1_23 j).IsWhole
  nbuf1_23 : grid1.bufCount reads1_23 false = 2
  hreads1_23 : ∀ i i' : grid1.Coords, (∀ a, reads1_23 a = true → i a = i' a) → cc1_transform_23 i = cc1_transform_23 i'
  hinb1_23 : ∀ (i : grid1.Coords) a, (cc1_transform_23 i a + 1) * S1x64x256.size a ≤ S128x64x256.size a
  hwx1_23 : ∀ i : grid1.Coords, EltTy.bits .f32 = 32 ∨ (Rect.block (s := S128x64x256) S1x64x256.size (cc1_transform_23 i) (hinb1_23 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S8192x256.size a ≤ S8192x256.size a
  hwx2_0 : ∀ i : grid2.Coords, EltTy.bits .f32 = 32 ∨ (Rect.block (s := S8192x256) S8192x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x16.size a ≤ S256x16.size a
  hwx2_1 : ∀ i : grid2.Coords, EltTy.bits .f32 = 32 ∨ (Rect.block (s := S256x16) S256x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x16.size a ≤ S256x16.size a
  hwx2_3 : ∀ i : grid2.Coords, EltTy.bits .f32 = 32 ∨ (Rect.block (s := S256x16) S256x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S8192x16.size a ≤ S8192x16.size a
  hwx2_5 : ∀ i : grid2.Coords, EltTy.bits .f32 = 32 ∨ (Rect.block (s := S8192x16) S8192x16.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S8192x16.size a ≤ S8192x16.size a
  hwx2_6 : ∀ i : grid2.Coords, EltTy.bits .f32 = 32 ∨ (Rect.block (s := S8192x16) S8192x16.size (cc2_transform_6 i) (hinb2_6 i)).WholeWords (EltTy.packing .f32)

variable [Facts₀]

def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x256_S64x256_1_0_0_1_n_n : DotDims S64x128 S128x256 S64x256 where
  lhsContracting := [1]
  rhsContracting := [0]
  lhsNonContracting := [0]
  rhsNonContracting := [1]
  lhsBatch := []
  rhsBatch := []
  wf := dot_S64x128_S128x256_S64x256_1_0_0_1_n_n_wf
def dot_S64x32_S64x32_S64x64_1_1_0_0_n_n : DotDims S64x32 S64x32 S64x64 where
  lhsContracting := [1]
  rhsContracting := [1]
  lhsNonContracting := [0]
  rhsNonContracting := [0]
  lhsBatch := []
  rhsBatch := []
  wf := dot_S64x32_S64x32_S64x64_1_1_0_0_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x256_S64x256_1_0_0_1_n_n : DotDims S64x32 S32x256 S64x256 where
  lhsContracting := [1]
  rhsContracting := [0]
  lhsNonContracting := [0]
  rhsNonContracting := [1]
  lhsBatch := []
  rhsBatch := []
  wf := dot_S64x32_S32x256_S64x256_1_0_0_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S8192x256_S256x16_S8192x16_1_0_0_1_n_n : DotDims S8192x256 S256x16 S8192x16 where
  lhsContracting := [1]
  rhsContracting := [0]
  lhsNonContracting := [0]
  rhsNonContracting := [1]
  lhsBatch := []
  rhsBatch := []
  wf := dot_S8192x256_S256x16_S8192x16_1_0_0_1_n_n_wf

abbrev win0_0 : Pipeline.Window sig grid0 :=
  Pipeline.Window.ofSpec (Memref.whole main_v6) S1x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg10) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg11) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg12) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg13) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg14) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg15) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg16) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg17) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg18) S256x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg19) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg20) S1x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg21) S1x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg22) S256x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg23) S1x256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg24) S256x256.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg25) S1x256.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg26) S1x256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg27) S1x256.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v15) S1x64x256.size cc0_transform_23 reads0_23 true false 2 stage0_23 sem0_23
    hrank0 hreads0_23 hinb0_23 nbuf0_23 (Memref.isWhole_whole _) hwx0_23 hstage0_23

abbrev win0 : Fin 24 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | ⟨_ + 24, h⟩ => absurd h (Nat.not_lt.2 (Nat.le_add_left _ _))
abbrev spec0 : Fin 24 → Pipeline.WinSpec sig grid0.rank := fun w => (win0 w).toWinSpec

abbrev win1_0 : Pipeline.Window sig grid1 :=
  Pipeline.Window.ofSpec (Memref.whole main_v15) S1x64x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg28) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg29) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg30) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg31) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg32) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg33) S256x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg34) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg35) S256x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg36) S1x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg37) S256x256.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg38) S1x256.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg39) S256x256.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_arg40) S1x256.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_arg41) S1x256.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_arg42) S1x256.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_arg43) S256x256.size cc1_transform_17 reads1_17 false true 1 stage1_17 sem1_17
    hrank1 hreads1_17 hinb1_17 nbuf1_17 (Memref.isWhole_whole _) hwx1_17 hstage1_17

abbrev win1_18 : Pipeline.Window sig grid1 :=
  Pipeline.Window.ofSpec (Memref.whole main_arg44) S1x256.size cc1_transform_18 reads1_18 false true 1 stage1_18 sem1_18
    hrank1 hreads1_18 hinb1_18 nbuf1_18 (Memref.isWhole_whole _) hwx1_18 hstage1_18

abbrev win1_19 : Pipeline.Window sig grid1 :=
  Pipeline.Window.ofSpec (Memref.whole main_arg45) S256x256.size cc1_transform_19 reads1_19 false true 1 stage1_19 sem1_19
    hrank1 hreads1_19 hinb1_19 nbuf1_19 (Memref.isWhole_whole _) hwx1_19 hstage1_19

abbrev win1_20 : Pipeline.Window sig grid1 :=
  Pipeline.Window.ofSpec (Memref.whole main_arg46) S1x256.size cc1_transform_20 reads1_20 false true 1 stage1_20 sem1_20
    hrank1 hreads1_20 hinb1_20 nbuf1_20 (Memref.isWhole_whole _) hwx1_20 hstage1_20

abbrev win1_21 : Pipeline.Window sig grid1 :=
  Pipeline.Window.ofSpec (Memref.whole main_arg47) S1x256.size cc1_transform_21 reads1_21 false true 1 stage1_21 sem1_21
    hrank1 hreads1_21 hinb1_21 nbuf1_21 (Memref.isWhole_whole _) hwx1_21 hstage1_21

abbrev win1_22 : Pipeline.Window sig grid1 :=
  Pipeline.Window.ofSpec (Memref.whole main_arg48) S1x256.size cc1_transform_22 reads1_22 false true 1 stage1_22 sem1_22
    hrank1 hreads1_22 hinb1_22 nbuf1_22 (Memref.isWhole_whole _) hwx1_22 hstage1_22

abbrev win1_23 : Pipeline.Window sig grid1 :=
  Pipeline.Window.ofSpec (Memref.whole main_v16) S1x64x256.size cc1_transform_23 reads1_23 true false 2 stage1_23 sem1_23
    hrank1 hreads1_23 hinb1_23 nbuf1_23 (Memref.isWhole_whole _) hwx1_23 hstage1_23

abbrev win1 : Fin 24 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | 19 => win1_19 | 20 => win1_20 | 21 => win1_21 | 22 => win1_22 | 23 => win1_23 | ⟨_ + 24, h⟩ => absurd h (Nat.not_lt.2 (Nat.le_add_left _ _))
abbrev spec1 : Fin 24 → Pipeline.WinSpec sig grid1.rank := fun w => (win1 w).toWinSpec

abbrev win2_0 : Pipeline.Window sig grid2 :=
  Pipeline.Window.ofSpec (Memref.whole main_v17) S8192x256.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S256x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S256x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v18_0) S8192x16.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v18_1) S8192x16.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== Proof.KerArrays.lean ====
/-
  The kernel's two output arrays after the run, entry by entry.

  The grid has four points; point `t` stages rows `32 t … 32 t + 31` of the batch axis of both inputs and of both
  outputs, and every parameter whole. So the output array `[128, 64, 16]` ends holding, at `(b, s, z)`, what the body
  leaves at `(b mod 32, s, z)` of its output block when run on the blocks of point `b / 32`: the four blocks tile the
  array, and no block is written twice.
-/
import proofs.«141667_g2000002524955183_pallasbulk_3_44_alg».proof.Proof.KernelIdealFrameP
import Idealize.ShloMosaic.Lib.Pipeline.Value
import Idealize.ShloMosaic.Lib.ValueIdx

set_option maxRecDepth 16384

noncomputable section

namespace Cert.KernelIdeal.Arr

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.GenP

variable {F : FTy → Type} [FloatOps F]
variable (m : (ℓ : Loc nD τ sig) → Buf (Elt F) ℓ) (ρ : Dev nD → PrngReg)

/-- The grid point whose block holds batch row `b`. -/
def ptOf (i : S128x64x16.Idx) : Fin cfg0.N := ⟨(i 0).val / 32, by have h : (i 0).val < 128 := (i 0).isLt; show (i 0).val / 32 < 4; omega⟩

/-- The place of an index of the output array inside its block. -/
def locOf (i : S128x64x16.Idx) : S32x64x16.Idx :=
  ix3 (⟨(i 0).val % 32, Nat.mod_lt _ (by decide)⟩ : Fin 32) (⟨(i 1).val, (i 1).isLt⟩ : Fin 64) (⟨(i 2).val, (i 2).isLt⟩ : Fin 16)

set_option maxHeartbeats 8000000 in
/-- What the body leaves in the first output's block at point `t`. -/
def blkOut49 (c : Dev nD) (t : Fin cfg0.N) : Vec F S32x64x16 .f32 := out0_49 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) (iblk m c 38 t) (iblk m c 39 t) (iblk m c 40 t) (iblk m c 41 t) (iblk m c 42 t) (iblk m c 43 t) (iblk m c 44 t) (iblk m c 45 t) (iblk m c 46 t) (iblk m c 47 t) (iblk m c 48 t)
set_option maxHeartbeats 8000000 in
/-- What the body leaves in the second output's block at point `t`. -/
def blkOut50 (c : Dev nD) (t : Fin cfg0.N) : Vec F S32x64x16 .f32 := out0_50 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) (iblk m c 38 t) (iblk m c 39 t) (iblk m c 40 t) (iblk m c 41 t) (iblk m c 42 t) (iblk m c 43 t) (iblk m c 44 t) (iblk m c 45 t) (iblk m c 46 t) (iblk m c 47 t) (iblk m c 48 t)

/-- The first output array, entry by entry. -/
def G49 (c : Dev nD) : S128x64x16.Idx → Elt F .f32 := fun i => blkOut49 m c (ptOf i) (locOf i)
/-- The second output array, entry by entry. -/
def G50 (c : Dev nD) : S128x64x16.Idx → Elt F .f32 := fun i => blkOut50 m c (ptOf i) (locOf i)

/-- The output windows' index maps over the grid: block `t` on the batch axis, block 0 on the others. -/
theorem idx_out : ∀ t : Fin cfg0.N, win0_49.index t (0 : Fin 3) = t.val ∧ win0_49.index t (1 : Fin 3) = 0 ∧ win0_49.index t (2 : Fin 3) = 0
    ∧ win0_50.index t (0 : Fin 3) = t.val ∧ win0_50.index t (1 : Fin 3) = 0 ∧ win0_50.index t (2 : Fin 3) = 0 :=
  (by decide +kernel : ∀ t : Fin grid0.N, _)

theorem pt_emb49 (t : Fin cfg0.N) (j : S32x64x16.Idx) : ptOf (((cfg0.win 49).blk t).view.emb j) = t := by
  obtain ⟨e0, e1, e2, -, -, -⟩ := idx_out t
  apply Fin.ext
  show (win0_49.index t (0 : Fin 3) * 32 + 1 * (j 0).val) / 32 = t.val
  have hj : (j 0).val < 32 := (j 0).isLt
  omega

theorem loc_emb49 (t : Fin cfg0.N) (j : S32x64x16.Idx) : locOf (((cfg0.win 49).blk t).view.emb j) = j := by
  obtain ⟨e0, e1, e2, -, -, -⟩ := idx_out t
  funext a; apply Fin.ext
  match a with
  | ⟨0, _⟩ => show (win0_49.index t (0 : Fin 3) * 32 + 1 * (j 0).val) % 32 = (j 0).val; have hj : (j 0).val < 32 := (j 0).isLt; omega
  | ⟨1, _⟩ => show win0_49.index t (1 : Fin 3) * 64 + 1 * (j 1).val = (j 1).val; omega
  | ⟨2, _⟩ => show win0_49.index t (2 : Fin 3) * 16 + 1 * (j 2).val = (j 2).val; omega

theorem pt_emb50 (t : Fin cfg0.N) (j : S32x64x16.Idx) : ptOf (((cfg0.win 50).blk t).view.emb j) = t := by
  obtain ⟨-, -, -, e0, e1, e2⟩ := idx_out t
  apply Fin.ext
  show (win0_50.index t (0 : Fin 3) * 32 + 1 * (j 0).val) / 32 = t.val
  have hj : (j 0).val < 32 := (j 0).isLt
  omega

theorem loc_emb50 (t : Fin cfg0.N) (j : S32x64x16.Idx) : locOf (((cfg0.win 50).blk t).view.emb j) = j := by
  obtain ⟨-, -, -, e0, e1, e2⟩ := idx_out t
  funext a; apply Fin.ext
  match a with
  | ⟨0, _⟩ => show (win0_50.index t (0 : Fin 3) * 32 + 1 * (j 0).val) % 32 = (j 0).val; have hj : (j 0).val < 32 := (j 0).isLt; omega
  | ⟨1, _⟩ => show win0_50.index t (1 : Fin 3) * 64 + 1 * (j 1).val = (j 1).val; omega
  | ⟨2, _⟩ => show win0_50.index t (2 : Fin 3) * 16 + 1 * (j 2).val = (j 2).val; omega

set_option maxHeartbeats 8000000 in
/-- What point `t` writes back to the first output is block `t` of `G49`. -/
theorem flushed49_eq (c : Dev nD) (t : Fin cfg0.N) :
    (dats m 0 c).flushed 49 t = ((cfg0.win 49).blk t).view.read (Elt F) (G49 m c) := by
  show (cfg0.win 49).cut (grid0.coords t) ((dats m 0 c).after 49 t) = _
  rw [after0_49]
  funext j
  show blkOut49 m c t j = blkOut49 m c (ptOf (((cfg0.win 49).blk t).view.emb j)) (locOf (((cfg0.win 49).blk t).view.emb j))
  rw [pt_emb49, loc_emb49]

set_option maxHeartbeats 8000000 in
/-- What point `t` writes back to the second output is block `t` of `G50`. -/
theorem flushed50_eq (c : Dev nD) (t : Fin cfg0.N) :
    (dats m 0 c).flushed 50 t = ((cfg0.win 50).blk t).view.read (Elt F) (G50 m c) := by
  show (cfg0.win 50).cut (grid0.coords t) ((dats m 0 c).after 50 t) = _
  rw [after0_50]
  funext j
  show blkOut50 m c t j = blkOut50 m c (ptOf (((cfg0.win 50).blk t).view.emb j)) (locOf (((cfg0.win 50).blk t).view.emb j))
  rw [pt_emb50, loc_emb50]

theorem mem_blk49 (t : Fin cfg0.N) (i : S128x64x16.Idx) :
    i ∈ ((cfg0.win 49).blk t).view.set ↔ ∀ a : Fin 3, win0_49.index t a * S32x64x16.size a ≤ (i a).val ∧ (i a).val < win0_49.index t a * S32x64x16.size a + S32x64x16.size a := by
  show i ∈ ((View.whole main_v0_0).slice (win0_49.rect t)).set ↔ _
  rw [View.set_slice_whole, Rect.mem_set_unit]
  exact Iff.rfl

theorem mem_blk50 (t : Fin cfg0.N) (i : S128x64x16.Idx) :
    i ∈ ((cfg0.win 50).blk t).view.set ↔ ∀ a : Fin 3, win0_50.index t a * S32x64x16.size a ≤ (i a).val ∧ (i a).val < win0_50.index t a * S32x64x16.size a + S32x64x16.size a := by
  show i ∈ ((View.whole main_v0_1).slice (win0_50.rect t)).set ↔ _
  rw [View.set_slice_whole, Rect.mem_set_unit]
  exact Iff.rfl

/-- The four blocks tile the first output array. -/
theorem cover49 (i : S128x64x16.Idx) : ∃ t : Fin cfg0.N, (cfg0.win 49).flush t = true ∧ i ∈ ((cfg0.win 49).blk t).view.set := by
  refine ⟨ptOf i, flush0_49 _, ?_⟩
  obtain ⟨e0, e1, e2, -, -, -⟩ := idx_out (ptOf i)
  have hp : (ptOf i).val = (i 0).val / 32 := rfl
  rw [mem_blk49]
  intro a
  match a with
  | ⟨0, _⟩ => show win0_49.index (ptOf i) (0 : Fin 3) * 32 ≤ (i 0).val ∧ (i 0).val < win0_49.index (ptOf i) (0 : Fin 3) * 32 + 32; omega
  | ⟨1, _⟩ => show win0_49.index (ptOf i) (1 : Fin 3) * 64 ≤ (i 1).val ∧ (i 1).val < win0_49.index (ptOf i) (1 : Fin 3) * 64 + 64; have h : (i 1).val < 64 := (i 1).isLt; omega
  | ⟨2, _⟩ => show win0_49.index (ptOf i) (2 : Fin 3) * 16 ≤ (i 2).val ∧ (i 2).val < win0_49.index (ptOf i) (2 : Fin 3) * 16 + 16; have h : (i 2).val < 16 := (i 2).isLt; omega

/-- The four blocks tile the second output array. -/
theorem cover50 (i : S128x64x16.Idx) : ∃ t : Fin cfg0.N, (cfg0.win 50).flush t = true ∧ i ∈ ((cfg0.win 50).blk t).view.set := by
  refine ⟨ptOf i, flush0_50 _, ?_⟩
  obtain ⟨-, -, -, e0, e1, e2⟩ := idx_out (ptOf i)
  have hp : (ptOf i).val = (i 0).val / 32 := rfl
  rw [mem_blk50]
  intro a
  match a with
  | ⟨0, _⟩ => show win0_50.index (ptOf i) (0 : Fin 3) * 32 ≤ (i 0).val ∧ (i 0).val < win0_50.index (ptOf i) (0 : Fin 3) * 32 + 32; omega
  | ⟨1, _⟩ => show win0_50.index (ptOf i) (1 : Fin 3) * 64 ≤ (i 1).val ∧ (i 1).val < win0_50.index (ptOf i) (1 : Fin 3) * 64 + 64; have h : (i 1).val < 64 := (i 1).isLt; omega
  | ⟨2, _⟩ => show win0_50.index (ptOf i) (2 : Fin 3) * 16 ≤ (i 2).val ∧ (i 2).val < win0_50.index (ptOf i) (2 : Fin 3) * 16 + 16; have h : (i 2).val < 16 := (i 2).isLt; omega

/-- The first output array after the run. -/
theorem final49 (c : Dev nD) : (dats m 0 c).arrAt 49 cfg0.N = G49 m c :=
  (dats m 0 c).arrAt_eq_of_cover 49 (G49 m c) (fun t _ => flushed49_eq m c t) cover49

/-- The second output array after the run. -/
theorem final50 (c : Dev nD) : (dats m 0 c).arrAt 50 cfg0.N = G50 m c :=
  (dats m 0 c).arrAt_eq_of_cover 50 (G50 m c) (fun t _ => flushed50_eq m c t) cover50

end Cert.KernelIdeal.Arr

end
-- ==== Proof.KerResult.lean ====
/-
  The kernel's run with its two results named.

  After the launch the host reshapes each `[128, 64, 16]` output to `[128, 1, 1024]` and repeats it along the time axis
  to `[128, 8, 1024]`. So each result is that reshape-and-repeat of the output array the launch leaves, which is the
  blockwise function of the previous module; the argument arrays end as launched.
-/
import proofs.«141667_g2000002524955183_pallasbulk_3_44_alg».proof.Proof.KerArrays
import Idealize.ShloMosaic.Lib.StableHlo.Run

set_option maxRecDepth 16384

noncomputable section

namespace Cert.KernelIdeal.Res

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.GenP Cert.KernelIdeal.Arr

variable {F : FTy → Type} [FloatOps F]
variable (m : (ℓ : Loc nD τ sig) → Buf (Elt F) ℓ) (ρ : Dev nD → PrngReg)

/-- The host's tail on one output array: reshape `[128, 64, 16] → [128, 1, 1024]`, then repeat along the time axis. -/
def tailOf (G : S128x64x16.Idx → Elt F .f32) : S128x8x1024.Idx → Elt F .f32 :=
  broadcastInDim S128x8x1024 ![0, 1, 2] bcast_S128x1x1024_S128x8x1024_0_1_2 (shapeCast S128x1x1024 G shapeCasts_S128x64x16_S128x1x1024)

theorem arr49 (c : Dev nD) : Pipeline.withArrays (cfgs 0).spec c (V0 m c) (fun w => (dats m 0 c).arrAt w (cfgs 0).N) (Proc.devRef .tc main_v0_0) = G49 m c :=
  (Pipeline.withArrays_arr spec0 launch0.win.arr_inj c _ _ 49).trans (final49 m c)

theorem arr50 (c : Dev nD) : Pipeline.withArrays (cfgs 0).spec c (V0 m c) (fun w => (dats m 0 c).arrAt w (cfgs 0).N) (Proc.devRef .tc main_v0_1) = G50 m c :=
  (Pipeline.withArrays_arr spec0 launch0.win.arr_inj c _ _ 50).trans (final50 m c)

/-- The first result is the tail of the first output array. -/
theorem tail_v2 (c : Dev nD) : Pipeline.afterTail₀ cfgs (dats m) 0 (V0 m) [hostOps1] c main_v2 = tailOf (G49 m c) := by
  unfold Pipeline.afterTail₀
  show StableHlo.after hostOps1 _ (Proc.devRef .tc main_v2) = _
  after_results
  rw [arr49]
  rfl

/-- The second result is the tail of the second output array. -/
theorem tail_v4 (c : Dev nD) : Pipeline.afterTail₀ cfgs (dats m) 0 (V0 m) [hostOps1] c main_v4 = tailOf (G50 m c) := by
  unfold Pipeline.afterTail₀
  show StableHlo.after hostOps1 _ (Proc.devRef .tc main_v4) = _
  after_results
  rw [arr50]
  rfl

set_option maxHeartbeats 4000000 in
/-- Every weakly fair execution of the kernel terminates, nothing faulting, with the two results at the tails of the two
    output arrays and every argument array as launched. -/
theorem run_results : θ_run defs (onTc (τ := τ) (main (F := F))) ⟨m, fun _ => 0, ρ⟩ (fun r => ∀ c : Dev nD,
      r.2.mem ((c.tc : Thread nD τ).loc main_v2) = tailOf (G49 m c)
      ∧ r.2.mem ((c.tc : Thread nD τ).loc main_v4) = tailOf (G50 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)
      ∧ r.2.mem ((c.tc : Thread nD τ).loc main_arg44) = m ((c.tc : Thread nD τ).loc main_arg44)
      ∧ r.2.mem ((c.tc : Thread nD τ).loc main_arg45) = m ((c.tc : Thread nD τ).loc main_arg45)
      ∧ r.2.mem ((c.tc : Thread nD τ).loc main_arg46) = m ((c.tc : Thread nD τ).loc main_arg46)
      ∧ r.2.mem ((c.tc : Thread nD τ).loc main_arg47) = m ((c.tc : Thread nD τ).loc main_arg47)
      ∧ r.2.mem ((c.tc : Thread nD τ).loc main_arg48) = m ((c.tc : Thread nD τ).loc main_arg48)) :=
  (θ_run defs _ _).mono (fun r h c => ⟨((h c).2 main_v2 (Pipeline.mem_restRefs_of main_v2 (by decide) (by decide))).trans (tail_v2 m c),
      ((h c).2 main_v4 (Pipeline.mem_restRefs_of main_v4 (by decide) (by decide))).trans (tail_v4 m c),
      ((h c).1 0).trans ((((dats m) 0 c).arrAt_in 0 rfl _).trans ((A_eq m c 0).trans (V_main_arg0 m c))),
      ((h c).1 1).trans ((((dats m) 0 c).arrAt_in 1 rfl _).trans ((A_eq m c 1).trans (V_main_arg1 m c))),
      ((h c).1 2).trans ((((dats m) 0 c).arrAt_in 2 rfl _).trans ((A_eq m c 2).trans (V_main_arg2 m c))),
      ((h c).1 45).trans ((((dats m) 0 c).arrAt_in 45 rfl _).trans ((A_eq m c 45).trans (V_main_arg3 m c))),
      ((h c).1 46).trans ((((dats m) 0 c).arrAt_in 46 rfl _).trans ((A_eq m c 46).trans (V_main_arg4 m c))),
      ((h c).1 47).trans ((((dats m) 0 c).arrAt_in 47 rfl _).trans ((A_eq m c 47).trans (V_main_arg5 m c))),
      ((h c).1 48).trans ((((dats m) 0 c).arrAt_in 48 rfl _).trans ((A_eq m c 48).trans (V_main_arg6 m c))),
      ((h c).1 3).trans ((((dats m) 0 c).arrAt_in 3 rfl _).trans ((A_eq m c 3).trans (V_main_arg7 m c))),
      ((h c).1 4).trans ((((dats m) 0 c).arrAt_in 4 rfl _).trans ((A_eq m c 4).trans (V_main_arg8 m c))),
      ((h c).1 5).trans ((((dats m) 0 c).arrAt_in 5 rfl _).trans ((A_eq m c 5).trans (V_main_arg9 m c))),
      ((h c).1 6).trans ((((dats m) 0 c).arrAt_in 6 rfl _).trans ((A_eq m c 6).trans (V_main_arg10 m c))),
      ((h c).1 7).trans ((((dats m) 0 c).arrAt_in 7 rfl _).trans ((A_eq m c 7).trans (V_main_arg11 m c))),
      ((h c).1 8).trans ((((dats m) 0 c).arrAt_in 8 rfl _).trans ((A_eq m c 8).trans (V_main_arg12 m c))),
      ((h c).1 9).trans ((((dats m) 0 c).arrAt_in 9 rfl _).trans ((A_eq m c 9).trans (V_main_arg13 m c))),
      ((h c).1 10).trans ((((dats m) 0 c).arrAt_in 10 rfl _).trans ((A_eq m c 10).trans (V_main_arg14 m c))),
      ((h c).1 11).trans ((((dats m) 0 c).arrAt_in 11 rfl _).trans ((A_eq m c 11).trans (V_main_arg15 m c))),
      ((h c).1 12).trans ((((dats m) 0 c).arrAt_in 12 rfl _).trans ((A_eq m c 12).trans (V_main_arg16 m c))),
      ((h c).1 13).trans ((((dats m) 0 c).arrAt_in 13 rfl _).trans ((A_eq m c 13).trans (V_main_arg17 m c))),
      ((h c).1 14).trans ((((dats m) 0 c).arrAt_in 14 rfl _).trans ((A_eq m c 14).trans (V_main_arg18 m c))),
      ((h c).1 15).trans ((((dats m) 0 c).arrAt_in 15 rfl _).trans ((A_eq m c 15).trans (V_main_arg19 m c))),
      ((h c).1 16).trans ((((dats m) 0 c).arrAt_in 16 rfl _).trans ((A_eq m c 16).trans (V_main_arg20 m c))),
      ((h c).1 17).trans ((((dats m) 0 c).arrAt_in 17 rfl _).trans ((A_eq m c 17).trans (V_main_arg21 m c))),
      ((h c).1 18).trans ((((dats m) 0 c).arrAt_in 18 rfl _).trans ((A_eq m c 18).trans (V_main_arg22 m c))),
      ((h c).1 19).trans ((((dats m) 0 c).arrAt_in 19 rfl _).trans ((A_eq m c 19).trans (V_main_arg23 m c))),
      ((h c).1 20).trans ((((dats m) 0 c).arrAt_in 20 rfl _).trans ((A_eq m c 20).trans (V_main_arg24 m c))),
      ((h c).1 21).trans ((((dats m) 0 c).arrAt_in 21 rfl _).trans ((A_eq m c 21).trans (V_main_arg25 m c))),
      ((h c).1 22).trans ((((dats m) 0 c).arrAt_in 22 rfl _).trans ((A_eq m c 22).trans (V_main_arg26 m c))),
      ((h c).1 23).trans ((((dats m) 0 c).arrAt_in 23 rfl _).trans ((A_eq m c 23).trans (V_main_arg27 m c))),
      ((h c).1 24).trans ((((dats m) 0 c).arrAt_in 24 rfl _).trans ((A_eq m c 24).trans (V_main_arg28 m c))),
      ((h c).1 25).trans ((((dats m) 0 c).arrAt_in 25 rfl _).trans ((A_eq m c 25).trans (V_main_arg29 m c))),
      ((h c).1 26).trans ((((dats m) 0 c).arrAt_in 26 rfl _).trans ((A_eq m c 26).trans (V_main_arg30 m c))),
      ((h c).1 27).trans ((((dats m) 0 c).arrAt_in 27 rfl _).trans ((A_eq m c 27).trans (V_main_arg31 m c))),
      ((h c).1 28).trans ((((dats m) 0 c).arrAt_in 28 rfl _).trans ((A_eq m c 28).trans (V_main_arg32 m c))),
      ((h c).1 29).trans ((((dats m) 0 c).arrAt_in 29 rfl _).trans ((A_eq m c 29).trans (V_main_arg33 m c))),
      ((h c).1 30).trans ((((dats m) 0 c).arrAt_in 30 rfl _).trans ((A_eq m c 30).trans (V_main_arg34 m c))),
      ((h c).1 31).trans ((((dats m) 0 c).arrAt_in 31 rfl _).trans ((A_eq m c 31).trans (V_main_arg35 m c))),
      ((h c).1 32).trans ((((dats m) 0 c).arrAt_in 32 rfl _).trans ((A_eq m c 32).trans (V_main_arg36 m c))),
      ((h c).1 33).trans ((((dats m) 0 c).arrAt_in 33 rfl _).trans ((A_eq m c 33).trans (V_main_arg37 m c))),
      ((h c).1 34).trans ((((dats m) 0 c).arrAt_in 34 rfl _).trans ((A_eq m c 34).trans (V_main_arg38 m c))),
      ((h c).1 35).trans ((((dats m) 0 c).arrAt_in 35 rfl _).trans ((A_eq m c 35).trans (V_main_arg39 m c))),
      ((h c).1 36).trans ((((dats m) 0 c).arrAt_in 36 rfl _).trans ((A_eq m c 36).trans (V_main_arg40 m c))),
      ((h c).1 37).trans ((((dats m) 0 c).arrAt_in 37 rfl _).trans ((A_eq m c 37).trans (V_main_arg41 m c))),
      ((h c).1 38).trans ((((dats m) 0 c).arrAt_in 38 rfl _).trans ((A_eq m c 38).trans (V_main_arg42 m c))),
      ((h c).1 39).trans ((((dats m) 0 c).arrAt_in 39 rfl _).trans ((A_eq m c 39).trans (V_main_arg43 m c))),
      ((h c).1 40).trans ((((dats m) 0 c).arrAt_in 40 rfl _).trans ((A_eq m c 40).trans (V_main_arg44 m c))),
      ((h c).1 41).trans ((((dats m) 0 c).arrAt_in 41 rfl _).trans ((A_eq m c 41).trans (V_main_arg45 m c))),
      ((h c).1 42).trans ((((dats m) 0 c).arrAt_in 42 rfl _).trans ((A_eq m c 42).trans (V_main_arg46 m c))),
      ((h c).1 43).trans ((((dats m) 0 c).arrAt_in 43 rfl _).trans ((A_eq m c 43).trans (V_main_arg47 m c))),
      ((h c).1 44).trans ((((dats m) 0 c).arrAt_in 44 rfl _).trans ((A_eq m c 44).trans (V_main_arg48 m c)))⟩) (run_main m ρ)

end Cert.KernelIdeal.Res

end
-- ==== Proof.KerDag.lean ====
/-
  The kernel body's value as a graph of named intermediate values.

  The body's two stored values are nested applications of the body's pure payloads to the values it loads. Written out
  as one term each, a shared intermediate value (the input rows, a projection, a layer's output) is repeated at every
  use; here every distinct intermediate value is named once, as a function of the record `Loads` of the 49 loaded
  values, in the order in which the body computes them. `n61` is the value stored to the first output, `n63` the value
  stored to the second.
-/
import proofs.«141667_g2000002524955183_pallasbulk_3_44_alg».proof.Proof.Gen.KernelIdeal.Skeleton

noncomputable section

namespace Cert.KernelIdeal.Dag

open Idealize.ShloMosaic Cert.KernelIdeal Cert.KernelIdeal.Gen

/-- The values the body loads: the first time step of the two input blocks, the positional table, and every
    parameter whole (field `yK` is the load from operand `K` of the launch). -/
structure Loads (F : FTy → Type) [FloatOps F] where
  y0 : Vec F S32x1x8192 .f32
  y1 : Vec F S32x1x8192 .f32
  y2 : Vec F S64x256 .f32
  y3 : Vec F S64x128 .f32
  y4 : Vec F S64x128 .f32
  y5 : Vec F S64x128 .f32
  y6 : Vec F S256x128 .f32
  y7 : Vec F S1x128 .f32
  y8 : Vec F S256x256 .f32
  y9 : Vec F S1x256 .f32
  y10 : Vec F S256x256 .f32
  y11 : Vec F S1x256 .f32
  y12 : Vec F S256x256 .f32
  y13 : Vec F S1x256 .f32
  y14 : Vec F S256x256 .f32
  y15 : Vec F S1x256 .f32
  y16 : Vec F S1x256 .f32
  y17 : Vec F S1x256 .f32
  y18 : Vec F S256x256 .f32
  y19 : Vec F S1x256 .f32
  y20 : Vec F S256x256 .f32
  y21 : Vec F S1x256 .f32
  y22 : Vec F S1x256 .f32
  y23 : Vec F S1x256 .f32
  y24 : Vec F S64x128 .f32
  y25 : Vec F S64x128 .f32
  y26 : Vec F S64x128 .f32
  y27 : Vec F S256x128 .f32
  y28 : Vec F S1x128 .f32
  y29 : Vec F S256x256 .f32
  y30 : Vec F S1x256 .f32
  y31 : Vec F S256x256 .f32
  y32 : Vec F S1x256 .f32
  y33 : Vec F S256x256 .f32
  y34 : Vec F S1x256 .f32
  y35 : Vec F S256x256 .f32
  y36 : Vec F S1x256 .f32
  y37 : Vec F S1x256 .f32
  y38 : Vec F S1x256 .f32
  y39 : Vec F S256x256 .f32
  y40 : Vec F S1x256 .f32
  y41 : Vec F S256x256 .f32
  y42 : Vec F S1x256 .f32
  y43 : Vec F S1x256 .f32
  y44 : Vec F S1x256 .f32
  y45 : Vec F S256x16 .f32
  y46 : Vec F S1x16 .f32
  y47 : Vec F S256x16 .f32
  y48 : Vec F S1x16 .f32

variable {F : FTy → Type} [FloatOps F]

def n0 (Y : Loads F) := k0_pay18 (F := F)
def n1 (Y : Loads F) := k0_pay14 Y.y0 Y.y1
def n2 (Y : Loads F) := k0_pay15 Y.y2
def n3 (Y : Loads F) := k0_pay16 (n1 Y) (n2 Y)
def n4 (Y : Loads F) := k0_pay17 (F := F)
def n5 (Y : Loads F) := k0_pay24 (F := F) (iota .tc S64x8 32 [1] iota_S64x8_d1_w32) 5#32
def n6 (Y : Loads F) := k0_pay25 (F := F) (iota .tc S64x8 32 [1] iota_S64x8_d1_w32)
def n7 (Y : Loads F) := k0_pay26 (F := F) (iota .tc S64x8 32 [1] iota_S64x8_d1_w32)
def n8 (Y : Loads F) := k0_pay28 (F := F) k0_pay27
def n9 (Y : Loads F) := k0_pay2 Y.y7 Y.y8 Y.y3 Y.y9
def n10 (Y : Loads F) := k0_pay3 Y.y6 Y.y8
def n11 (Y : Loads F) := k0_pay30 (n9 Y) (n10 Y) (n3 Y)
def n12 (Y : Loads F) := k0_pay4 Y.y7 Y.y10 Y.y4 Y.y11
def n13 (Y : Loads F) := k0_pay5 Y.y6 Y.y10
def n14 (Y : Loads F) := k0_pay31 (n12 Y) (n13 Y) (n3 Y)
def n15 (Y : Loads F) := k0_pay6 Y.y7 Y.y12 Y.y5 Y.y13
def n16 (Y : Loads F) := k0_pay7 Y.y6 Y.y12
def n17 (Y : Loads F) := k0_pay32 (n15 Y) (n16 Y) (n3 Y)
def n18 (Y : Loads F) := k0_pay34 (n9 Y) (n10 Y) (n12 Y) (n13 Y) (n15 Y) (n16 Y) (n3 Y) (n4 Y)
def n19 (Y : Loads F) := k0_pay36 (n9 Y) (n10 Y) (n12 Y) (n13 Y) (n15 Y) (n16 Y) (n3 Y) (n4 Y)
def n20 (Y : Loads F) := k0_pay38 (n9 Y) (n10 Y) (n3 Y)
def n21 (Y : Loads F) := k0_pay39 (n12 Y) (n13 Y) (n3 Y)
def n22 (Y : Loads F) := k0_pay41 (n4 Y) (n17 Y) (n20 Y) (n21 Y)
def n23 (Y : Loads F) := k0_pay43 (n4 Y) (n11 Y) (n14 Y) (n17 Y)
def n24 (Y : Loads F) := k0_pay45 (n4 Y) (n11 Y) (n14 Y) (n17 Y)
def n25 (Y : Loads F) := k0_pay21 (F := F)
def n26 (Y : Loads F) := k0_pay22 (F := F)
def n27 (Y : Loads F) := k0_pay23 (F := F)
def n28 (Y : Loads F) := k0_pay19 (F := F)
def n29 (Y : Loads F) := k0_pay20 (F := F)
def n30 (Y : Loads F) := k0_pay37 (n9 Y) (n10 Y) (n12 Y) (n13 Y) (n3 Y) (n4 Y) (n28 Y) (n29 Y)
def n31 (Y : Loads F) := k0_pay46 (n4 Y) (n25 Y) (n26 Y) (n27 Y) (n11 Y) (n14 Y) (n30 Y) (n20 Y) (n21 Y)
def n32 (Y : Loads F) := k0_pay48 (n4 Y) (n11 Y) (n14 Y) (n17 Y)
def n33 (Y : Loads F) := k0_pay49 (n4 Y) (n11 Y) (n14 Y)
def n34 (Y : Loads F) := constant (F := F) S2048x8 .f32 0x00000000#32
def n35 (Y : Loads F) := k0_pay50 (n3 Y) (n4 Y) (n5 Y) (n6 Y) (n7 Y) (n8 Y) (n11 Y) (n14 Y) (n17 Y) (n18 Y) (n19 Y) (n22 Y) (n23 Y) (n24 Y) (n31 Y) (n32 Y) (n33 Y) (n34 Y) Y.y14 Y.y15
def n36 (Y : Loads F) := k0_pay51 (n0 Y) (n35 Y) Y.y16 Y.y17 Y.y18 Y.y19 Y.y20 Y.y21
def n37 (Y : Loads F) := k0_pay52 (n0 Y) (n36 Y) Y.y22 Y.y23
def n38 (Y : Loads F) := k0_pay8 Y.y28 Y.y29 Y.y24 Y.y30
def n39 (Y : Loads F) := k0_pay9 Y.y27 Y.y29
def n40 (Y : Loads F) := k0_pay54 (n38 Y) (n39 Y) (n0 Y) (n36 Y) Y.y22 Y.y23
def n41 (Y : Loads F) := k0_pay10 Y.y28 Y.y31 Y.y25 Y.y32
def n42 (Y : Loads F) := k0_pay11 Y.y27 Y.y31
def n43 (Y : Loads F) := k0_pay55 (n41 Y) (n42 Y) (n0 Y) (n36 Y) Y.y22 Y.y23
def n44 (Y : Loads F) := k0_pay12 Y.y28 Y.y33 Y.y26 Y.y34
def n45 (Y : Loads F) := k0_pay13 Y.y27 Y.y33
def n46 (Y : Loads F) := k0_pay56 (n44 Y) (n45 Y) (n0 Y) (n36 Y) Y.y22 Y.y23
def n47 (Y : Loads F) := k0_pay58 (n38 Y) (n39 Y) (n41 Y) (n42 Y) (n44 Y) (n45 Y) (n4 Y) (n0 Y) (n36 Y) Y.y22 Y.y23
def n48 (Y : Loads F) := k0_pay60 (n38 Y) (n39 Y) (n0 Y) (n36 Y) Y.y22 Y.y23
def n49 (Y : Loads F) := k0_pay61 (n41 Y) (n42 Y) (n0 Y) (n36 Y) Y.y22 Y.y23
def n50 (Y : Loads F) := k0_pay62 (n44 Y) (n45 Y) (n0 Y) (n36 Y) Y.y22 Y.y23
def n51 (Y : Loads F) := constant (F := F) S32x64x64 .f32 0x00000000#32
def n52 (Y : Loads F) := k0_pay64 (n4 Y) (n48 Y) (n49 Y) (n50 Y) (n51 Y)
def n53 (Y : Loads F) := k0_pay66 (n4 Y) (n40 Y) (n43 Y) (n46 Y)
def n54 (Y : Loads F) := k0_pay68 (n4 Y) (n40 Y) (n43 Y) (n46 Y)
def n55 (Y : Loads F) := k0_pay70 (n4 Y) (n40 Y) (n43 Y) (n46 Y)
def n56 (Y : Loads F) := k0_pay59 (n38 Y) (n39 Y) (n41 Y) (n42 Y) (n4 Y) (n0 Y) (n28 Y) (n36 Y) Y.y22 Y.y23
def n57 (Y : Loads F) := k0_pay71 (n4 Y) (n29 Y) (n25 Y) (n26 Y) (n27 Y) (n40 Y) (n43 Y) (n56 Y) (n48 Y) (n49 Y) (n51 Y)
def n58 (Y : Loads F) := k0_pay72 (n4 Y) (n5 Y) (n6 Y) (n7 Y) (n8 Y) (n40 Y) (n43 Y) (n46 Y) (n47 Y) (n52 Y) (n53 Y) (n54 Y) (n55 Y) (n57 Y)
def n59 (Y : Loads F) := k0_pay73 (n0 Y) (n37 Y) (n58 Y) Y.y35 Y.y36 Y.y37 Y.y38
def n60 (Y : Loads F) := k0_pay74 (n0 Y) (n37 Y) (n58 Y) Y.y35 Y.y36 Y.y37 Y.y38 Y.y39 Y.y40
def n61 (Y : Loads F) := k0_pay76 (n0 Y) (n59 Y) (n60 Y) Y.y41 Y.y42 Y.y43 Y.y44 Y.y45 Y.y47 Y.y46 Y.y48
def n62 (Y : Loads F) := k0_pay75 (n0 Y) (n59 Y) (n60 Y) Y.y41 Y.y42 Y.y43 Y.y44 Y.y45 Y.y47 Y.y46 Y.y48
def n63 (Y : Loads F) := k0_pay1 (n62 Y)

end Cert.KernelIdeal.Dag

end
-- ==== Proof.KerOut.lean ====
/-
  The body's stored values are the graph's last nodes.

  Each output block the body leaves is one store of one value through the rectangle that is the whole block; that value,
  a nested application of the body's payloads to its loads, is the last node of the graph of named intermediate values
  (`Dag.n61` for the first output, `Dag.n63` for the second) at the record of the body's loads: the first time step of
  each input block and every parameter whole.
-/
import proofs.«141667_g2000002524955183_pallasbulk_3_44_alg».proof.Proof.KernelIdealFrameP
import proofs.«141667_g2000002524955183_pallasbulk_3_44_alg».proof.Proof.KerDag

set_option maxRecDepth 16384

noncomputable section

namespace Cert.KernelIdeal.Out

open Idealize.ShloMosaic Idealize.ShloMosaic.TcCoe Idealize.SL.Sem
open Cert.KernelIdeal Cert.KernelIdeal.Gen Cert.KernelIdeal.GenP

variable {F : FTy → Type} [FloatOps F]

/-- The record of the body's loads from the 49 staged input blocks. -/
def loadsOf (x0 : Vec F S32x8x8192 .f32) (x1 : Vec F S32x8x8192 .f32) (x2 : Vec F S64x256 .f32) (x3 : Vec F S64x128 .f32) (x4 : Vec F S64x128 .f32) (x5 : Vec F S64x128 .f32) (x6 : Vec F S256x128 .f32) (x7 : Vec F S1x128 .f32) (x8 : Vec F S256x256 .f32) (x9 : Vec F S1x256 .f32) (x10 : Vec F S256x256 .f32) (x11 : Vec F S1x256 .f32) (x12 : Vec F S256x256 .f32) (x13 : Vec F S1x256 .f32) (x14 : Vec F S256x256 .f32) (x15 : Vec F S1x256 .f32) (x16 : Vec F S1x256 .f32) (x17 : Vec F S1x256 .f32) (x18 : Vec F S256x256 .f32) (x19 : Vec F S1x256 .f32) (x20 : Vec F S256x256 .f32) (x21 : Vec F S1x256 .f32) (x22 : Vec F S1x256 .f32) (x23 : Vec F S1x256 .f32) (x24 : Vec F S64x128 .f32) (x25 : Vec F S64x128 .f32) (x26 : Vec F S64x128 .f32) (x27 : Vec F S256x128 .f32) (x28 : Vec F S1x128 .f32) (x29 : Vec F S256x256 .f32) (x30 : Vec F S1x256 .f32) (x31 : Vec F S256x256 .f32) (x32 : Vec F S1x256 .f32) (x33 : Vec F S256x256 .f32) (x34 : Vec F S1x256 .f32) (x35 : Vec F S256x256 .f32) (x36 : Vec F S1x256 .f32) (x37 : Vec F S1x256 .f32) (x38 : Vec F S1x256 .f32) (x39 : Vec F S256x256 .f32) (x40 : Vec F S1x256 .f32) (x41 : Vec F S256x256 .f32) (x42 : Vec F S1x256 .f32) (x43 : Vec F S1x256 .f32) (x44 : Vec F S1x256 .f32) (x45 : Vec F S256x16 .f32) (x46 : Vec F S1x16 .f32) (x47 : Vec F S256x16 .f32) (x48 : Vec F S1x16 .f32) : Dag.Loads F :=
  ⟨View.ld x0 r0_5, View.ld x1 r0_5, View.ld x2 r0_6, View.ld x3 r0_3, View.ld x4 r0_3, View.ld x5 r0_3, View.ld x6 r0_0, View.ld x7 r0_1, View.ld x8 r0_2, View.ld x9 r0_4, View.ld x10 r0_2, View.ld x11 r0_4, View.ld x12 r0_2, View.ld x13 r0_4, View.ld x14 r0_2, View.ld x15 r0_4, View.ld x16 r0_4, View.ld x17 r0_4, View.ld x18 r0_2, View.ld x19 r0_4, View.ld x20 r0_2, View.ld x21 r0_4, View.ld x22 r0_4, View.ld x23 r0_4, View.ld x24 r0_3, View.ld x25 r0_3, View.ld x26 r0_3, View.ld x27 r0_0, View.ld x28 r0_1, View.ld x29 r0_2, View.ld x30 r0_4, View.ld x31 r0_2, View.ld x32 r0_4, View.ld x33 r0_2, View.ld x34 r0_4, View.ld x35 r0_2, View.ld x36 r0_4, View.ld x37 r0_4, View.ld x38 r0_4, View.ld x39 r0_2, View.ld x40 r0_4, View.ld x41 r0_2, View.ld x42 r0_4, View.ld x43 r0_4, View.ld x44 r0_4, View.ld x45 r0_7, View.ld x46 r0_8, View.ld x47 r0_7, View.ld x48 r0_8⟩

set_option maxHeartbeats 16000000 in
/-- The first output block is the one store of the graph's node `n61`. -/
theorem out49_eq (x0 : Vec F S32x8x8192 .f32) (x1 : Vec F S32x8x8192 .f32) (x2 : Vec F S64x256 .f32) (x3 : Vec F S64x128 .f32) (x4 : Vec F S64x128 .f32) (x5 : Vec F S64x128 .f32) (x6 : Vec F S256x128 .f32) (x7 : Vec F S1x128 .f32) (x8 : Vec F S256x256 .f32) (x9 : Vec F S1x256 .f32) (x10 : Vec F S256x256 .f32) (x11 : Vec F S1x256 .f32) (x12 : Vec F S256x256 .f32) (x13 : Vec F S1x256 .f32) (x14 : Vec F S256x256 .f32) (x15 : Vec F S1x256 .f32) (x16 : Vec F S1x256 .f32) (x17 : Vec F S1x256 .f32) (x18 : Vec F S256x256 .f32) (x19 : Vec F S1x256 .f32) (x20 : Vec F S256x256 .f32) (x21 : Vec F S1x256 .f32) (x22 : Vec F S1x256 .f32) (x23 : Vec F S1x256 .f32) (x24 : Vec F S64x128 .f32) (x25 : Vec F S64x128 .f32) (x26 : Vec F S64x128 .f32) (x27 : Vec F S256x128 .f32) (x28 : Vec F S1x128 .f32) (x29 : Vec F S256x256 .f32) (x30 : Vec F S1x256 .f32) (x31 : Vec F S256x256 .f32) (x32 : Vec F S1x256 .f32) (x33 : Vec F S256x256 .f32) (x34 : Vec F S1x256 .f32) (x35 : Vec F S256x256 .f32) (x36 : Vec F S1x256 .f32) (x37 : Vec F S1x256 .f32) (x38 : Vec F S1x256 .f32) (x39 : Vec F S256x256 .f32) (x40 : Vec F S1x256 .f32) (x41 : Vec F S256x256 .f32) (x42 : Vec F S1x256 .f32) (x43 : Vec F S1x256 .f32) (x44 : Vec F S1x256 .f32) (x45 : Vec F S256x16 .f32) (x46 : Vec F S1x16 .f32) (x47 : Vec F S256x16 .f32) (x48 : Vec F S1x16 .f32) :
    out0_49 x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 = View.canon [⟨r0_9, Dag.n61 (loadsOf x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48)⟩] := rfl

set_option maxHeartbeats 16000000 in
/-- The second output block is the one store of the graph's node `n63`. -/
theorem out50_eq (x0 : Vec F S32x8x8192 .f32) (x1 : Vec F S32x8x8192 .f32) (x2 : Vec F S64x256 .f32) (x3 : Vec F S64x128 .f32) (x4 : Vec F S64x128 .f32) (x5 : Vec F S64x128 .f32) (x6 : Vec F S256x128 .f32) (x7 : Vec F S1x128 .f32) (x8 : Vec F S256x256 .f32) (x9 : Vec F S1x256 .f32) (x10 : Vec F S256x256 .f32) (x11 : Vec F S1x256 .f32) (x12 : Vec F S256x256 .f32) (x13 : Vec F S1x256 .f32) (x14 : Vec F S256x256 .f32) (x15 : Vec F S1x256 .f32) (x16 : Vec F S1x256 .f32) (x17 : Vec F S1x256 .f32) (x18 : Vec F S256x256 .f32) (x19 : Vec F S1x256 .f32) (x20 : Vec F S256x256 .f32) (x21 : Vec F S1x256 .f32) (x22 : Vec F S1x256 .f32) (x23 : Vec F S1x256 .f32) (x24 : Vec F S64x128 .f32) (x25 : Vec F S64x128 .f32) (x26 : Vec F S64x128 .f32) (x27 : Vec F S256x128 .f32) (x28 : Vec F S1x128 .f32) (x29 : Vec F S256x256 .f32) (x30 : Vec F S1x256 .f32) (x31 : Vec F S256x256 .f32) (x32 : Vec F S1x256 .f32) (x33 : Vec F S256x256 .f32) (x34 : Vec F S1x256 .f32) (x35 : Vec F S256x256 .f32) (x36 : Vec F S1x256 .f32) (x37 : Vec F S1x256 .f32) (x38 : Vec F S1x256 .f32) (x39 : Vec F S256x256 .f32) (x40 : Vec F S1x256 .f32) (x41 : Vec F S256x256 .f32) (x42 : Vec F S1x256 .f32) (x43 : Vec F S1x256 .f32) (x44 : Vec F S1x256 .f32) (x45 : Vec F S256x16 .f32) (x46 : Vec F S1x16 .f32) (x47 : Vec F S256x16 .f32) (x48 : Vec F S1x16 .f32) :
    out0_50 x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 = View.canon [⟨r0_9, Dag.n63 (loadsOf x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48)⟩] := rfl

end Cert.KernelIdeal.Out

end
-- ==== Proof.KerLoads.lean ====
/-
  The body's loads at a grid point are the argument arrays.

  At grid point `p` the two input windows stage batch rows `32 p … 32 p + 31` and the body loads time step 0 of each;
  every other window stages its whole array and the body loads it whole. So the record of loads at `p` is read off the
  argument arrays as the launch finds them, and each output block is the graph's last node at that record.
-/
import proofs.«141667_g2000002524955183_pallasbulk_3_44_alg».proof.Proof.KerArrays
import proofs.«141667_g2000002524955183_pallasbulk_3_44_alg».proof.Proof.KerOut

set_option maxRecDepth 16384

noncomputable section

namespace Cert.KernelIdeal.Lds

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.GenP Cert.KernelIdeal.Arr

variable {F : FTy → Type} [FloatOps F]
variable (m : (ℓ : Loc nD τ sig) → Buf (Elt F) ℓ) (ρ : Dev nD → PrngReg)

set_option maxHeartbeats 8000000 in
/-- The record of the body's loads at grid point `p`. -/
def memLoads (c : Dev nD) (p : Fin cfg0.N) : Dag.Loads F := Out.loadsOf (iblk m c 0 p) (iblk m c 1 p) (iblk m c 2 p) (iblk m c 3 p) (iblk m c 4 p) (iblk m c 5 p) (iblk m c 6 p) (iblk m c 7 p) (iblk m c 8 p) (iblk m c 9 p) (iblk m c 10 p) (iblk m c 11 p) (iblk m c 12 p) (iblk m c 13 p) (iblk m c 14 p) (iblk m c 15 p) (iblk m c 16 p) (iblk m c 17 p) (iblk m c 18 p) (iblk m c 19 p) (iblk m c 20 p) (iblk m c 21 p) (iblk m c 22 p) (iblk m c 23 p) (iblk m c 24 p) (iblk m c 25 p) (iblk m c 26 p) (iblk m c 27 p) (iblk m c 28 p) (iblk m c 29 p) (iblk m c 30 p) (iblk m c 31 p) (iblk m c 32 p) (iblk m c 33 p) (iblk m c 34 p) (iblk m c 35 p) (iblk m c 36 p) (iblk m c 37 p) (iblk m c 38 p) (iblk m c 39 p) (iblk m c 40 p) (iblk m c 41 p) (iblk m c 42 p) (iblk m c 43 p) (iblk m c 44 p) (iblk m c 45 p) (iblk m c 46 p) (iblk m c 47 p) (iblk m c 48 p)

theorem hz3 : (![0, 0, 0] : Fin 3 → Nat) = fun _ => 0 := funext fun a => by fin_cases a <;> rfl

set_option maxHeartbeats 8000000 in
/-- The first output block at `p` is the graph's node `n61` at the loads of `p`. -/
theorem blkOut49_eq (c : Dev nD) (p : Fin cfg0.N) : blkOut49 m c p = Dag.n61 (memLoads m c p) := by
  unfold blkOut49 memLoads
  rw [Out.out49_eq]
  exact View.canon_unit_zero hz3 _ _

set_option maxHeartbeats 8000000 in
/-- The second output block at `p` is the graph's node `n63` at the loads of `p`. -/
theorem blkOut50_eq (c : Dev nD) (p : Fin cfg0.N) : blkOut50 m c p = Dag.n63 (memLoads m c p) := by
  unfold blkOut50 memLoads
  rw [Out.out50_eq]
  exact View.canon_unit_zero hz3 _ _

/-- The two input windows' index maps over the grid. -/
theorem idx_in : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- Load 0 is time step 0 of batch rows `32 p + ·` of the first argument. -/
theorem y0_at (c : Dev nD) (p : Fin cfg0.N) (bb : Fin 32) (u : Fin 1) (k : Fin 8192) :
    (memLoads m c p).y0 (ix3 bb u k) = V m c main_arg0 (ix3 (⟨32 * p.val + bb.val, by have h : p.val < 4 := p.isLt; omega⟩ : Fin 128) (0 : Fin 8) k) := by
  obtain ⟨e0, e1, e2, -, -, -⟩ := idx_in p
  show V m c main_arg0 (((cfg0.win 0).blk p).view.emb (r0_5.emb (ix3 bb u k))) = _
  congr 1
  funext a; apply Fin.ext
  match a with
  | ⟨0, _⟩ => show win0_0.index p (0 : Fin 3) * 32 + 1 * (0 + 1 * bb.val) = 32 * p.val + bb.val; omega
  | ⟨1, _⟩ => show win0_0.index p (1 : Fin 3) * 8 + 1 * (0 + 1 * u.val) = 0; have := u.isLt; omega
  | ⟨2, _⟩ => show win0_0.index p (2 : Fin 3) * 8192 + 1 * (0 + 1 * k.val) = k.val; omega

/-- Load 1 is time step 0 of batch rows `32 p + ·` of the second argument. -/
theorem y1_at (c : Dev nD) (p : Fin cfg0.N) (bb : Fin 32) (u : Fin 1) (k : Fin 8192) :
    (memLoads m c p).y1 (ix3 bb u k) = V m c main_arg1 (ix3 (⟨32 * p.val + bb.val, by have h : p.val < 4 := p.isLt; omega⟩ : Fin 128) (0 : Fin 8) k) := by
  obtain ⟨-, -, -, e0, e1, e2⟩ := idx_in p
  show V m c main_arg1 (((cfg0.win 1).blk p).view.emb (r0_5.emb (ix3 bb u k))) = _
  congr 1
  funext a; apply Fin.ext
  match a with
  | ⟨0, _⟩ => show win0_1.index p (0 : Fin 3) * 32 + 1 * (0 + 1 * bb.val) = 32 * p.val + bb.val; omega
  | ⟨1, _⟩ => show win0_1.index p (1 : Fin 3) * 8 + 1 * (0 + 1 * u.val) = 0; have := u.isLt; omega
  | ⟨2, _⟩ => show win0_1.index p (2 : Fin 3) * 8192 + 1 * (0 + 1 * k.val) = k.val; omega

theorem idx2 : ∀ t : Fin cfg0.N, win0_2.index t (0 : Fin 2) = 0 ∧ win0_2.index t (1 : Fin 2) = 0 := (by decide +kernel : ∀ t : Fin grid0.N, _)
/-- Load 2 is argument 2 whole. -/
theorem y2_eq (c : Dev nD) (p : Fin cfg0.N) : (memLoads m c p).y2 = V m c main_arg2 := by
  obtain ⟨e0, e1⟩ := idx2 p
  funext i
  show V m c main_arg2 (((cfg0.win 2).blk p).view.emb (r0_6.emb i)) = V m c main_arg2 i
  congr 1
  funext a; apply Fin.ext
  match a with
  | ⟨0, _⟩ => show win0_2.index p (0 : Fin 2) * 64 + 1 * (0 + 1 * (i 0).val) = (i 0).val; omega
  | ⟨1, _⟩ => show win0_2.index p (1 : Fin 2) * 256 + 1 * (0 + 1 * (i 1).val) = (i 1).val; omega

theorem idx3 : ∀ t : Fin cfg0.N, win0_3.index t (0 : Fin 2) = 0 ∧ win0_3.index t (1 : Fin 2) = 0 := (by decide +kernel : ∀ t : Fin grid0.N, _)
/-- Load 3 is argument 7 whole. -/
theorem y3_eq (c : Dev nD) (p : Fin cfg0.N) : (memLoads m c p).y3 = V m c main_arg7 := by
  obtain ⟨e0, e1⟩ := idx3 p
  funext i
  show V m c main_arg7 (((cfg0.win 3).blk p).view.emb (r0_3.emb i)) = V m c main_arg7 i
  congr 1
  funext a; apply Fin.ext
  match a with
  | ⟨0, _⟩ => show win0_3.index p (0 : Fin 2) * 64 + 1 * (0 + 1 * (i 0).val) = (i 0).val; omega
  | ⟨1, _⟩ => show win0_3.index p (1 : Fin 2) * 128 + 1 * (0 + 1 * (i 1).val) = (i 1).val; omega

theorem idx4 : ∀ t : Fin cfg0.N, win0_4.index t (0 : Fin 2) = 0 ∧ win0_4.index t (1 : Fin 2) = 0 := (by decide +kernel : ∀ t : Fin grid0.N, _)
/-- Load 4 is argument 8 whole. -/
theorem y4_eq (c : Dev nD) (p : Fin cfg0.N) : (memLoads m c p).y4 = V m c main_arg8 := by
  obtain ⟨e0, e1⟩ := idx4 p
  funext i
  show V m c main_arg8 (((cfg0.win 4).blk p).view.emb (r0_3.emb i)) = V m c main_arg8 i
  congr 1
  funext a; apply Fin.ext
  match a with
  | ⟨0, _⟩ => show win0_4.index p (0 : Fin 2) * 64 + 1 * (0 + 1 * (i 0).val) = (i 0).val; omega
  | ⟨1, _⟩ => show win0_4.index p (1 : Fin 2) * 128 + 1 * (0 + 1 * (i 1).val) = (i 1).val; omega

theorem idx5 : ∀ t : Fin cfg0.N, win0_5.index t (0 : Fin 2) = 0 ∧ win0_5.index t (1 : Fin 2) = 0 := (by decide +kernel : ∀ t : Fin grid0.N, _)
/-- Load 5 is argument 9 whole. -/
theorem y5_eq (c : Dev nD) (p : Fin cfg0.N) : (memLoads m c p).y5 = V m c main_arg9 := by
  obtain ⟨e0, e1⟩ := idx5 p
  funext i
  show V m c main_arg9 (((cfg0.win 5).blk p).view.emb (r0_3.emb i)) = V m c main_arg9 i
  congr 1
  funext a; apply Fin.ext
  match a with
  | ⟨0, _⟩ => show win0_5.index p (0 : Fin 2) * 64 + 1 * (0 + 1 * (i 0).val) = (i 0).val; omega
  | ⟨1, _⟩ => show win0_5.index p (1 : Fin 2) * 128 + 1 * (0 + 1 * (i 1).val) = (i 1).val; omega

theorem idx6 : ∀ t : Fin cfg0.N, win0_6.index t (0 : Fin 2) = 0 ∧ win0_6.index t (1 : Fin 2) = 0 := (by decide +kernel : ∀ t : Fin grid0.N, _)
/-- Load 6 is argument 10 whole. -/
theorem y6_eq (c : Dev nD) (p : Fin cfg0.N) : (memLoads m c p).y6 = V m c main_arg10 := by
  obtain ⟨e0, e1⟩ := idx6 p
  funext i
  show V m c main_arg10 (((cfg0.win 6).blk p).view.emb (r0_0.emb i)) = V m c main_arg10 i
  congr 1
  funext a; apply Fin.ext
  match a with
  | ⟨0, _⟩ => show win0_6.index p (0 : Fin 2) * 256 + 1 * (0 + 1 * (i 0).val) = (i 0).val; omega
  | ⟨1, _⟩ => show win0_6.index p (1 : Fin 2) * 128 + 1 * (0 + 1 * (i 1).val) = (i 1).val; omega

theorem idx7 : ∀ t : Fin cfg0.N, win0_7.index t (0 : Fin 2) = 0 ∧ win0_7.index t (1 : Fin 2) = 0 := (by decide +kernel : ∀ t : Fin grid0.N, _)
/-- Load 7 is argument 11 whole. -/
theorem y7_eq (c : Dev nD) (p : Fin cfg0.N) : (memLoads m c p).y7 = V m c main_arg11 := by
  obtain ⟨e0, e1⟩ := idx7 p
  funext i
  show V m c main_arg11 (((cfg0.win 7).blk p).view.emb (r0_1.emb i)) = V m c main_arg11 i
  congr 1
  funext a; apply Fin.ext
  match a with
  | ⟨0, _⟩ => show win0_7.index p (0 : Fin 2) * 1 + 1 * (0 + 1 * (i 0).val) = (i 0).val; omega
  | ⟨1, _⟩ => show win0_7.index p (1 : Fin 2) * 128 + 1 * (0 + 1 * (i 1).val) = (i 1).val; omega

theorem idx8 : ∀ t : Fin cfg0.N, win0_8.index t (0 : Fin 2) = 0 ∧ win0_8.index t (1 : Fin 2) = 0 := (by decide +kernel : ∀ t : Fin grid0.N, _)
/-- Load 8 is argument 12 whole. -/
theorem y8_eq (c : Dev nD) (p : Fin cfg0.N) : (memLoads m c p).y8 = V m c main_arg12 := by
  obtain ⟨e0, e1⟩ := idx8 p
  funext i
  show V m c main_arg12 (((cfg0.win 8).blk p).view.emb (r0_2.emb i)) = V m c main_arg12 i
  congr 1
  funext a; apply Fin.ext
  match a with
  | ⟨0, _⟩ => show win0_8.index p (0 : Fin 2) * 256 + 1 * (0 + 1 * (i 0).val) = (i 0).val; omega
  | ⟨1, _⟩ => show win0_8.index p (1 : Fin 2) * 256 + 1 * (0 + 1 * (i 1).val) = (i 1).val; omega

theorem idx9 : ∀ t : Fin cfg0.N, win0_9.index t (0 : Fin 2) = 0 ∧ win0_9.index t (1 : Fin 2) = 0 := (by decide +kernel : ∀ t : Fin grid0.N, _)
/-- Load 9 is argument 13 whole. -/
theorem y9_eq (c : Dev nD) (p : Fin cfg0.N) : (memLoads m c p).y9 = V m c main_arg13 := by
  obtain ⟨e0, e1⟩ := idx9 p
  funext i
  show V m c main_arg13 (((cfg0.win 9).blk p).view.emb (r0_4.emb i)) = V m c main_arg13 i
  congr 1
  funext a; apply Fin.ext
  match a with
  | ⟨0, _⟩ => show win0_9.index p (0 : Fin 2) * 1 + 1 * (0 + 1 * (i 0).val) = (i 0).val; omega
  | ⟨1, _⟩ => show win0_9.index p (1 : Fin 2) * 256 + 1 * (0 + 1 * (i 1).val) = (i 1).val; omega

theorem idx10 : ∀ t : Fin cfg0.N, win0_10.index t (0 : Fin 2) = 0 ∧ win0_10.index t (1 : Fin 2) = 0 := (by decide +kernel : ∀ t : Fin grid0.N, _)
/-- Load 10 is argument 14 whole. -/
theorem y10_eq (c : Dev nD) (p : Fin cfg0.N) : (memLoads m c p).y10 = V m c main_arg14 := by
  obtain ⟨e0, e1⟩ := idx10 p
  funext i
  show V m c main_arg14 (((cfg0.win 10).blk p).view.emb (r0_2.emb i)) = V m c main_arg14 i
  congr 1
  funext a; apply Fin.ext
  match a with
  | ⟨0, _⟩ => show win0_10.index p (0 : Fin 2) * 256 + 1 * (0 + 1 * (i 0).val) = (i 0).val; omega
  | ⟨1, _⟩ => show win0_10.index p (1 : Fin 2) * 256 + 1 * (0 + 1 * (i 1).val) = (i 1).val; omega

theorem idx11 : ∀ t : Fin cfg0.N, win0_11.index t (0 : Fin 2) = 0 ∧ win0_11.index t (1 : Fin 2) = 0 := (by decide +kernel : ∀ t : Fin grid0.N, _)
/-- Load 11 is argument 15 whole. -/
theorem y11_eq (c : Dev nD) (p : Fin cfg0.N) : (memLoads m c p).y11 = V m c main_arg15 := by
  obtain ⟨e0, e1⟩ := idx11 p
  funext i
  show V m c main_arg15 (((cfg0.win 11).blk p).view.emb (r0_4.emb i)) = V m c main_arg15 i
  congr 1
  funext a; apply Fin.ext
  match a with
  | ⟨0, _⟩ => show win0_11.index p (0 : Fin 2) * 1 + 1 * (0 + 1 * (i 0).val) = (i 0).val; omega
  | ⟨1, _⟩ => show win0_11.index p (1 : Fin 2) * 256 + 1 * (0 + 1 * (i 1).val) = (i 1).val; omega

theorem idx12 : ∀ t : Fin cfg0.N, win0_12.index t (0 : Fin 2) = 0 ∧ win0_12.index t (1 : Fin 2) = 0 := (by decide +kernel : ∀ t : Fin grid0.N, _)
/-- Load 12 is argument 16 whole. -/
theorem y12_eq (c : Dev nD) (p : Fin cfg0.N) : (memLoads m c p).y12 = V m c main_arg16 := by
  obtain ⟨e0, e1⟩ := idx12 p
  funext i
  show V m c main_arg16 (((cfg0.win 12).blk p).view.emb (r0_2.emb i)) = V m c main_arg16 i
  congr 1
  funext a; apply Fin.ext
  match a with
  | ⟨0, _⟩ => show win0_12.index p (0 : Fin 2) * 256 + 1 * (0 + 1 * (i 0).val) = (i 0).val; omega
  | ⟨1, _⟩ => show win0_12.index p (1 : Fin 2) * 256 + 1 * (0 + 1 * (i 1).val) = (i 1).val; omega

theorem idx13 : ∀ t : Fin cfg0.N, win0_13.index t (0 : Fin 2) = 0 ∧ win0_13.index t (1 : Fin 2) = 0 := (by decide +kernel : ∀ t : Fin grid0.N, _)
/-- Load 13 is argument 17 whole. -/
theorem y13_eq (c : Dev nD) (p : Fin cfg0.N) : (memLoads m c p).y13 = V m c main_arg17 := by
  obtain ⟨e0, e1⟩ := idx13 p
  funext i
  show V m c main_arg17 (((cfg0.win 13).blk p).view.emb (r0_4.emb i)) = V m c main_arg17 i
  congr 1
  funext a; apply Fin.ext
  match a with
  | ⟨0, _⟩ => show win0_13.index p (0 : Fin 2) * 1 + 1 * (0 + 1 * (i 0).val) = (i 0).val; omega
  | ⟨1, _⟩ => show win0_13.index p (1 : Fin 2) * 256 + 1 * (0 + 1 * (i 1).val) = (i 1).val; omega

theorem idx14 : ∀ t : Fin cfg0.N, win0_14.index t (0 : Fin 2) = 0 ∧ win0_14.index t (1 : Fin 2) = 0 := (by decide +kernel : ∀ t : Fin grid0.N, _)
/-- Load 14 is argument 18 whole. -/
theorem y14_eq (c : Dev nD) (p : Fin cfg0.N) : (memLoads m c p).y14 = V m c main_arg18 := by
  obtain ⟨e0, e1⟩ := idx14 p
  funext i
  show V m c main_arg18 (((cfg0.win 14).blk p).view.emb (r0_2.emb i)) = V m c main_arg18 i
  congr 1
  funext a; apply Fin.ext
  match a with
  | ⟨0, _⟩ => show win0_14.index p (0 : Fin 2) * 256 + 1 * (0 + 1 * (i 0).val) = (i 0).val; omega
  | ⟨1, _⟩ => show win0_14.index p (1 : Fin 2) * 256 + 1 * (0 + 1 * (i 1).val) = (i 1).val; omega

theorem idx15 : ∀ t : Fin cfg0.N, win0_15.index t (0 : Fin 2) = 0 ∧ win0_15.index t (1 : Fin 2) = 0 := (by decide +kernel : ∀ t : Fin grid0.N, _)
/-- Load 15 is argument 19 whole. -/
theorem y15_eq (c : Dev nD) (p : Fin cfg0.N) : (memLoads m c p).y15 = V m c main_arg19 := by
  obtain ⟨e0, e1⟩ := idx15 p
  funext i
  show V m c main_arg19 (((cfg0.win 15).blk p).view.emb (r0_4.emb i)) = V m c main_arg19 i
  congr 1
  funext a; apply Fin.ext
  match a with
  | ⟨0, _⟩ => show win0_15.index p (0 : Fin 2) * 1 + 1 * (0 + 1 * (i 0).val) = (i 0).val; omega
  | ⟨1, _⟩ => show win0_15.index p (1 : Fin 2) * 256 + 1 * (0 + 1 * (i 1).val) = (i 1).val; omega

theorem idx16 : ∀ t : Fin cfg0.N, win0_16.index t (0 : Fin 2) = 0 ∧ win0_16.index t (1 : Fin 2) = 0 := (by decide +kernel : ∀ t : Fin grid0.N, _)
/-- Load 16 is argument 20 whole. -/
theorem y16_eq (c : Dev nD) (p : Fin cfg0.N) : (memLoads m c p).y16 = V m c main_arg20 := by
  obtain ⟨e0, e1⟩ := idx16 p
  funext i
  show V m c main_arg20 (((cfg0.win 16).blk p).view.emb (r0_4.emb i)) = V m c main_arg20 i
  congr 1
  funext a; apply Fin.ext
  match a with
  | ⟨0, _⟩ => show win0_16.index p (0 : Fin 2) * 1 + 1 * (0 + 1 * (i 0).val) = (i 0).val; omega
  | ⟨1, _⟩ => show win0_16.index p (1 : Fin 2) * 256 + 1 * (0 + 1 * (i 1).val) = (i 1).val; omega

theorem idx17 : ∀ t : Fin cfg0.N, win0_17.index t (0 : Fin 2) = 0 ∧ win0_17.index t (1 : Fin 2) = 0 := (by decide +kernel : ∀ t : Fin grid0.N, _)
/-- Load 17 is argument 21 whole. -/
theorem y17_eq (c : Dev nD) (p : Fin cfg0.N) : (memLoads m c p).y17 = V m c main_arg21 := by
  obtain ⟨e0, e1⟩ := idx17 p
  funext i
  show V m c main_arg21 (((cfg0.win 17).blk p).view.emb (r0_4.emb i)) = V m c main_arg21 i
  congr 1
  funext a; apply Fin.ext
  match a with
  | ⟨0, _⟩ => show win0_17.index p (0 : Fin 2) * 1 + 1 * (0 + 1 * (i 0).val) = (i 0).val; omega
  | ⟨1, _⟩ => show win0_17.index p (1 : Fin 2) * 256 + 1 * (0 + 1 * (i 1).val) = (i 1).val; omega

theorem idx18 : ∀ t : Fin cfg0.N, win0_18.index t (0 : Fin 2) = 0 ∧ win0_18.index t (1 : Fin 2) = 0 := (by decide +kernel : ∀ t : Fin grid0.N, _)
/-- Load 18 is argument 22 whole. -/
theorem y18_eq (c : Dev nD) (p : Fin cfg0.N) : (memLoads m c p).y18 = V m c main_arg22 := by
  obtain ⟨e0, e1⟩ := idx18 p
  funext i
  show V m c main_arg22 (((cfg0.win 18).blk p).view.emb (r0_2.emb i)) = V m c main_arg22 i
  congr 1
  funext a; apply Fin.ext
  match a with
  | ⟨0, _⟩ => show win0_18.index p (0 : Fin 2) * 256 + 1 * (0 + 1 * (i 0).val) = (i 0).val; omega
  | ⟨1, _⟩ => show win0_18.index p (1 : Fin 2) * 256 + 1 * (0 + 1 * (i 1).val) = (i 1).val; omega

theorem idx19 : ∀ t : Fin cfg0.N, win0_19.index t (0 : Fin 2) = 0 ∧ win0_19.index t (1 : Fin 2) = 0 := (by decide +kernel : ∀ t : Fin grid0.N, _)
/-- Load 19 is argument 23 whole. -/
theorem y19_eq (c : Dev nD) (p : Fin cfg0.N) : (memLoads m c p).y19 = V m c main_arg23 := by
  obtain ⟨e0, e1⟩ := idx19 p
  funext i
  show V m c main_arg23 (((cfg0.win 19).blk p).view.emb (r0_4.emb i)) = V m c main_arg23 i
  congr 1
  funext a; apply Fin.ext
  match a with
  | ⟨0, _⟩ => show win0_19.index p (0 : Fin 2) * 1 + 1 * (0 + 1 * (i 0).val) = (i 0).val; omega
  | ⟨1, _⟩ => show win0_19.index p (1 : Fin 2) * 256 + 1 * (0 + 1 * (i 1).val) = (i 1).val; omega

theorem idx20 : ∀ t : Fin cfg0.N, win0_20.index t (0 : Fin 2) = 0 ∧ win0_20.index t (1 : Fin 2) = 0 := (by decide +kernel : ∀ t : Fin grid0.N, _)
/-- Load 20 is argument 24 whole. -/
theorem y20_eq (c : Dev nD) (p : Fin cfg0.N) : (memLoads m c p).y20 = V m c main_arg24 := by
  obtain ⟨e0, e1⟩ := idx20 p
  funext i
  show V m c main_arg24 (((cfg0.win 20).blk p).view.emb (r0_2.emb i)) = V m c main_arg24 i
  congr 1
  funext a; apply Fin.ext
  match a with
  | ⟨0, _⟩ => show win0_20.index p (0 : Fin 2) * 256 + 1 * (0 + 1 * (i 0).val) = (i 0).val; omega
  | ⟨1, _⟩ => show win0_20.index p (1 : Fin 2) * 256 + 1 * (0 + 1 * (i 1).val) = (i 1).val; omega

theorem idx21 : ∀ t : Fin cfg0.N, win0_21.index t (0 : Fin 2) = 0 ∧ win0_21.index t (1 : Fin 2) = 0 := (by decide +kernel : ∀ t : Fin grid0.N, _)
/-- Load 21 is argument 25 whole. -/
theorem y21_eq (c : Dev nD) (p : Fin cfg0.N) : (memLoads m c p).y21 = V m c main_arg25 := by
  obtain ⟨e0, e1⟩ := idx21 p
  funext i
  show V m c main_arg25 (((cfg0.win 21).blk p).view.emb (r0_4.emb i)) = V m c main_arg25 i
  congr 1
  funext a; apply Fin.ext
  match a with
  | ⟨0, _⟩ => show win0_21.index p (0 : Fin 2) * 1 + 1 * (0 + 1 * (i 0).val) = (i 0).val; omega
  | ⟨1, _⟩ => show win0_21.index p (1 : Fin 2) * 256 + 1 * (0 + 1 * (i 1).val) = (i 1).val; omega

theorem idx22 : ∀ t : Fin cfg0.N, win0_22.index t (0 : Fin 2) = 0 ∧ win0_22.index t (1 : Fin 2) = 0 := (by decide +kernel : ∀ t : Fin grid0.N, _)
/-- Load 22 is argument 26 whole. -/
theorem y22_eq (c : Dev nD) (p : Fin cfg0.N) : (memLoads m c p).y22 = V m c main_arg26 := by
  obtain ⟨e0, e1⟩ := idx22 p
  funext i
  show V m c main_arg26 (((cfg0.win 22).blk p).view.emb (r0_4.emb i)) = V m c main_arg26 i
  congr 1
  funext a; apply Fin.ext
  match a with
  | ⟨0, _⟩ => show win0_22.index p (0 : Fin 2) * 1 + 1 * (0 + 1 * (i 0).val) = (i 0).val; omega
  | ⟨1, _⟩ => show win0_22.index p (1 : Fin 2) * 256 + 1 * (0 + 1 * (i 1).val) = (i 1).val; omega

theorem idx23 : ∀ t : Fin cfg0.N, win0_23.index t (0 : Fin 2) = 0 ∧ win0_23.index t (1 : Fin 2) = 0 := (by decide +kernel : ∀ t : Fin grid0.N, _)
/-- Load 23 is argument 27 whole. -/
theorem y23_eq (c : Dev nD) (p : Fin cfg0.N) : (memLoads m c p).y23 = V m c main_arg27 := by
  obtain ⟨e0, e1⟩ := idx23 p
  funext i
  show V m c main_arg27 (((cfg0.win 23).blk p).view.emb (r0_4.emb i)) = V m c main_arg27 i
  congr 1
  funext a; apply Fin.ext
  match a with
  | ⟨0, _⟩ => show win0_23.index p (0 : Fin 2) * 1 + 1 * (0 + 1 * (i 0).val) = (i 0).val; omega
  | ⟨1, _⟩ => show win0_23.index p (1 : Fin 2) * 256 + 1 * (0 + 1 * (i 1).val) = (i 1).val; omega

theorem idx24 : ∀ t : Fin cfg0.N, win0_24.index t (0 : Fin 2) = 0 ∧ win0_24.index t (1 : Fin 2) = 0 := (by decide +kernel : ∀ t : Fin grid0.N, _)
/-- Load 24 is argument 28 whole. -/
theorem y24_eq (c : Dev nD) (p : Fin cfg0.N) : (memLoads m c p).y24 = V m c main_arg28 := by
  obtain ⟨e0, e1⟩ := idx24 p
  funext i
  show V m c main_arg28 (((cfg0.win 24).blk p).view.emb (r0_3.emb i)) = V m c main_arg28 i
  congr 1
  funext a; apply Fin.ext
  match a with
  | ⟨0, _⟩ => show win0_24.index p (0 : Fin 2) * 64 + 1 * (0 + 1 * (i 0).val) = (i 0).val; omega
  | ⟨1, _⟩ => show win0_24.index p (1 : Fin 2) * 128 + 1 * (0 + 1 * (i 1).val) = (i 1).val; omega

theorem idx25 : ∀ t : Fin cfg0.N, win0_25.index t (0 : Fin 2) = 0 ∧ win0_25.index t (1 : Fin 2) = 0 := (by decide +kernel : ∀ t : Fin grid0.N, _)
/-- Load 25 is argument 29 whole. -/
theorem y25_eq (c : Dev nD) (p : Fin cfg0.N) : (memLoads m c p).y25 = V m c main_arg29 := by
  obtain ⟨e0, e1⟩ := idx25 p
  funext i
  show V m c main_arg29 (((cfg0.win 25).blk p).view.emb (r0_3.emb i)) = V m c main_arg29 i
  congr 1
  funext a; apply Fin.ext
  match a with
  | ⟨0, _⟩ => show win0_25.index p (0 : Fin 2) * 64 + 1 * (0 + 1 * (i 0).val) = (i 0).val; omega
  | ⟨1, _⟩ => show win0_25.index p (1 : Fin 2) * 128 + 1 * (0 + 1 * (i 1).val) = (i 1).val; omega

theorem idx26 : ∀ t : Fin cfg0.N, win0_26.index t (0 : Fin 2) = 0 ∧ win0_26.index t (1 : Fin 2) = 0 := (by decide +kernel : ∀ t : Fin grid0.N, _)
/-- Load 26 is argument 30 whole. -/
theorem y26_eq (c : Dev nD) (p : Fin cfg0.N) : (memLoads m c p).y26 = V m c main_arg30 := by
  obtain ⟨e0, e1⟩ := idx26 p
  funext i
  show V m c main_arg30 (((cfg0.win 26).blk p).view.emb (r0_3.emb i)) = V m c main_arg30 i
  congr 1
  funext a; apply Fin.ext
  match a with
  | ⟨0, _⟩ => show win0_26.index p (0 : Fin 2) * 64 + 1 * (0 + 1 * (i 0).val) = (i 0).val; omega
  | ⟨1, _⟩ => show win0_26.index p (1 : Fin 2) * 128 + 1 * (0 + 1 * (i 1).val) = (i 1).val; omega

theorem idx27 : ∀ t : Fin cfg0.N, win0_27.index t (0 : Fin 2) = 0 ∧ win0_27.index t (1 : Fin 2) = 0 := (by decide +kernel : ∀ t : Fin grid0.N, _)
/-- Load 27 is argument 31 whole. -/
theorem y27_eq (c : Dev nD) (p : Fin cfg0.N) : (memLoads m c p).y27 = V m c main_arg31 := by
  obtain ⟨e0, e1⟩ := idx27 p
  funext i
  show V m c main_arg31 (((cfg0.win 27).blk p).view.emb (r0_0.emb i)) = V m c main_arg31 i
  congr 1
  funext a; apply Fin.ext
  match a with
  | ⟨0, _⟩ => show win0_27.index p (0 : Fin 2) * 256 + 1 * (0 + 1 * (i 0).val) = (i 0).val; omega
  | ⟨1, _⟩ => show win0_27.index p (1 : Fin 2) * 128 + 1 * (0 + 1 * (i 1).val) = (i 1).val; omega

theorem idx28 : ∀ t : Fin cfg0.N, win0_28.index t (0 : Fin 2) = 0 ∧ win0_28.index t (1 : Fin 2) = 0 := (by decide +kernel : ∀ t : Fin grid0.N, _)
/-- Load 28 is argument 32 whole. -/
theorem y28_eq (c : Dev nD) (p : Fin cfg0.N) : (memLoads m c p).y28 = V m c main_arg32 := by
  obtain ⟨e0, e1⟩ := idx28 p
  funext i
  show V m c main_arg32 (((cfg0.win 28).blk p).view.emb (r0_1.emb i)) = V m c main_arg32 i
  congr 1
  funext a; apply Fin.ext
  match a with
  | ⟨0, _⟩ => show win0_28.index p (0 : Fin 2) * 1 + 1 * (0 + 1 * (i 0).val) = (i 0).val; omega
  | ⟨1, _⟩ => show win0_28.index p (1 : Fin 2) * 128 + 1 * (0 + 1 * (i 1).val) = (i 1).val; omega

theorem idx29 : ∀ t : Fin cfg0.N, win0_29.index t (0 : Fin 2) = 0 ∧ win0_29.index t (1 : Fin 2) = 0 := (by decide +kernel : ∀ t : Fin grid0.N, _)
/-- Load 29 is argument 33 whole. -/
theorem y29_eq (c : Dev nD) (p : Fin cfg0.N) : (memLoads m c p).y29 = V m c main_arg33 := by
  obtain ⟨e0, e1⟩ := idx29 p
  funext i
  show V m c main_arg33 (((cfg0.win 29).blk p).view.emb (r0_2.emb i)) = V m c main_arg33 i
  congr 1
  funext a; apply Fin.ext
  match a with
  | ⟨0, _⟩ => show win0_29.index p (0 : Fin 2) * 256 + 1 * (0 + 1 * (i 0).val) = (i 0).val; omega
  | ⟨1, _⟩ => show win0_29.index p (1 : Fin 2) * 256 + 1 * (0 + 1 * (i 1).val) = (i 1).val; omega

theorem idx30 : ∀ t : Fin cfg0.N, win0_30.index t (0 : Fin 2) = 0 ∧ win0_30.index t (1 : Fin 2) = 0 := (by decide +kernel : ∀ t : Fin grid0.N, _)
/-- Load 30 is argument 34 whole. -/
theorem y30_eq (c : Dev nD) (p : Fin cfg0.N) : (memLoads m c p).y30 = V m c main_arg34 := by
  obtain ⟨e0, e1⟩ := idx30 p
  funext i
  show V m c main_arg34 (((cfg0.win 30).blk p).view.emb (r0_4.emb i)) = V m c main_arg34 i
  congr 1
  funext a; apply Fin.ext
  match a with
  | ⟨0, _⟩ => show win0_30.index p (0 : Fin 2) * 1 + 1 * (0 + 1 * (i 0).val) = (i 0).val; omega
  | ⟨1, _⟩ => show win0_30.index p (1 : Fin 2) * 256 + 1 * (0 + 1 * (i 1).val) = (i 1).val; omega

theorem idx31 : ∀ t : Fin cfg0.N, win0_31.index t (0 : Fin 2) = 0 ∧ win0_31.index t (1 : Fin 2) = 0 := (by decide +kernel : ∀ t : Fin grid0.N, _)
/-- Load 31 is argument 35 whole. -/
theorem y31_eq (c : Dev nD) (p : Fin cfg0.N) : (memLoads m c p).y31 = V m c main_arg35 := by
  obtain ⟨e0, e1⟩ := idx31 p
  funext i
  show V m c main_arg35 (((cfg0.win 31).blk p).view.emb (r0_2.emb i)) = V m c main_arg35 i
  congr 1
  funext a; apply Fin.ext
  match a with
  | ⟨0, _⟩ => show win0_31.index p (0 : Fin 2) * 256 + 1 * (0 + 1 * (i 0).val) = (i 0).val; omega
  | ⟨1, _⟩ => show win0_31.index p (1 : Fin 2) * 256 + 1 * (0 + 1 * (i 1).val) = (i 1).val; omega

theorem idx32 : ∀ t : Fin cfg0.N, win0_32.index t (0 : Fin 2) = 0 ∧ win0_32.index t (1 : Fin 2) = 0 := (by decide +kernel : ∀ t : Fin grid0.N, _)
/-- Load 32 is argument 36 whole. -/
theorem y32_eq (c : Dev nD) (p : Fin cfg0.N) : (memLoads m c p).y32 = V m c main_arg36 := by
  obtain ⟨e0, e1⟩ := idx32 p
  funext i
  show V m c main_arg36 (((cfg0.win 32).blk p).view.emb (r0_4.emb i)) = V m c main_arg36 i
  congr 1
  funext a; apply Fin.ext
  match a with
  | ⟨0, _⟩ => show win0_32.index p (0 : Fin 2) * 1 + 1 * (0 + 1 * (i 0).val) = (i 0).val; omega
  | ⟨1, _⟩ => show win0_32.index p (1 : Fin 2) * 256 + 1 * (0 + 1 * (i 1).val) = (i 1).val; omega

theorem idx33 : ∀ t : Fin cfg0.N, win0_33.index t (0 : Fin 2) = 0 ∧ win0_33.index t (1 : Fin 2) = 0 := (by decide +kernel : ∀ t : Fin grid0.N, _)
/-- Load 33 is argument 37 whole. -/
theorem y33_eq (c : Dev nD) (p : Fin cfg0.N) : (memLoads m c p).y33 = V m c main_arg37 := by
  obtain ⟨e0, e1⟩ := idx33 p
  funext i
  show V m c main_arg37 (((cfg0.win 33).blk p).view.emb (r0_2.emb i)) = V m c main_arg37 i
  congr 1
  funext a; apply Fin.ext
  match a with
  | ⟨0, _⟩ => show win0_33.index p (0 : Fin 2) * 256 + 1 * (0 + 1 * (i 0).val) = (i 0).val; omega
  | ⟨1, _⟩ => show win0_33.index p (1 : Fin 2) * 256 + 1 * (0 + 1 * (i 1).val) = (i 1).val; omega

theorem idx34 : ∀ t : Fin cfg0.N, win0_34.index t (0 : Fin 2) = 0 ∧ win0_34.index t (1 : Fin 2) = 0 := (by decide +kernel : ∀ t : Fin grid0.N, _)
/-- Load 34 is argument 38 whole. -/
theorem y34_eq (c : Dev nD) (p : Fin cfg0.N) : (memLoads m c p).y34 = V m c main_arg38 := by
  obtain ⟨e0, e1⟩ := idx34 p
  funext i
  show V m c main_arg38 (((cfg0.win 34).blk p).view.emb (r0_4.emb i)) = V m c main_arg38 i
  congr 1
  funext a; apply Fin.ext
  match a with
  | ⟨0, _⟩ => show win0_34.index p (0 : Fin 2) * 1 + 1 * (0 + 1 * (i 0).val) = (i 0).val; omega
  | ⟨1, _⟩ => show win0_34.index p (1 : Fin 2) * 256 + 1 * (0 + 1 * (i 1).val) = (i 1).val; omega

theorem idx35 : ∀ t : Fin cfg0.N, win0_35.index t (0 : Fin 2) = 0 ∧ win0_35.index t (1 : Fin 2) = 0 := (by decide +kernel : ∀ t : Fin grid0.N, _)
/-- Load 35 is argument 39 whole. -/
theorem y35_eq (c : Dev nD) (p : Fin cfg0.N) : (memLoads m c p).y35 = V m c main_arg39 := by
  obtain ⟨e0, e1⟩ := idx35 p
  funext i
  show V m c main_arg39 (((cfg0.win 35).blk p).view.emb (r0_2.emb i)) = V m c main_arg39 i
  congr 1
  funext a; apply Fin.ext
  match a with
  | ⟨0, _⟩ => show win0_35.index p (0 : Fin 2) * 256 + 1 * (0 + 1 * (i 0).val) = (i 0).val; omega
  | ⟨1, _⟩ => show win0_35.index p (1 : Fin 2) * 256 + 1 * (0 + 1 * (i 1).val) = (i 1).val; omega

theorem idx36 : ∀ t : Fin cfg0.N, win0_36.index t (0 : Fin 2) = 0 ∧ win0_36.index t (1 : Fin 2) = 0 := (by decide +kernel : ∀ t : Fin grid0.N, _)
/-- Load 36 is argument 40 whole. -/
theorem y36_eq (c : Dev nD) (p : Fin cfg0.N) : (memLoads m c p).y36 = V m c main_arg40 := by
  obtain ⟨e0, e1⟩ := idx36 p
  funext i
  show V m c main_arg40 (((cfg0.win 36).blk p).view.emb (r0_4.emb i)) = V m c main_arg40 i
  congr 1
  funext a; apply Fin.ext
  match a with
  | ⟨0, _⟩ => show win0_36.index p (0 : Fin 2) * 1 + 1 * (0 + 1 * (i 0).val) = (i 0).val; omega
  | ⟨1, _⟩ => show win0_36.index p (1 : Fin 2) * 256 + 1 * (0 + 1 * (i 1).val) = (i 1).val; omega

theorem idx37 : ∀ t : Fin cfg0.N, win0_37.index t (0 : Fin 2) = 0 ∧ win0_37.index t (1 : Fin 2) = 0 := (by decide +kernel : ∀ t : Fin grid0.N, _)
/-- Load 37 is argument 41 whole. -/
theorem y37_eq (c : Dev nD) (p : Fin cfg0.N) : (memLoads m c p).y37 = V m c main_arg41 := by
  obtain ⟨e0, e1⟩ := idx37 p
  funext i
  show V m c main_arg41 (((cfg0.win 37).blk p).view.emb (r0_4.emb i)) = V m c main_arg41 i
  congr 1
  funext a; apply Fin.ext
  match a with
  | ⟨0, _⟩ => show win0_37.index p (0 : Fin 2) * 1 + 1 * (0 + 1 * (i 0).val) = (i 0).val; omega
  | ⟨1, _⟩ => show win0_37.index p (1 : Fin 2) * 256 + 1 * (0 + 1 * (i 1).val) = (i 1).val; omega

theorem idx38 : ∀ t : Fin cfg0.N, win0_38.index t (0 : Fin 2) = 0 ∧ win0_38.index t (1 : Fin 2) = 0 := (by decide +kernel : ∀ t : Fin grid0.N, _)
/-- Load 38 is argument 42 whole. -/
theorem y38_eq (c : Dev nD) (p : Fin cfg0.N) : (memLoads m c p).y38 = V m c main_arg42 := by
  obtain ⟨e0, e1⟩ := idx38 p
  funext i
  show V m c main_arg42 (((cfg0.win 38).blk p).view.emb (r0_4.emb i)) = V m c main_arg42 i
  congr 1
  funext a; apply Fin.ext
  match a with
  | ⟨0, _⟩ => show win0_38.index p (0 : Fin 2) * 1 + 1 * (0 + 1 * (i 0).val) = (i 0).val; omega
  | ⟨1, _⟩ => show win0_38.index p (1 : Fin 2) * 256 + 1 * (0 + 1 * (i 1).val) = (i 1).val; omega

theorem idx39 : ∀ t : Fin cfg0.N, win0_39.index t (0 : Fin 2) = 0 ∧ win0_39.index t (1 : Fin 2) = 0 := (by decide +kernel : ∀ t : Fin grid0.N, _)
/-- Load 39 is argument 43 whole. -/
theorem y39_eq (c : Dev nD) (p : Fin cfg0.N) : (memLoads m c p).y39 = V m c main_arg43 := by
  obtain ⟨e0, e1⟩ := idx39 p
  funext i
  show V m c main_arg43 (((cfg0.win 39).blk p).view.emb (r0_2.emb i)) = V m c main_arg43 i
  congr 1
  funext a; apply Fin.ext
  match a with
  | ⟨0, _⟩ => show win0_39.index p (0 : Fin 2) * 256 + 1 * (0 + 1 * (i 0).val) = (i 0).val; omega
  | ⟨1, _⟩ => show win0_39.index p (1 : Fin 2) * 256 + 1 * (0 + 1 * (i 1).val) = (i 1).val; omega

theorem idx40 : ∀ t : Fin cfg0.N, win0_40.index t (0 : Fin 2) = 0 ∧ win0_40.index t (1 : Fin 2) = 0 := (by decide +kernel : ∀ t : Fin grid0.N, _)
/-- Load 40 is argument 44 whole. -/
theorem y40_eq (c : Dev nD) (p : Fin cfg0.N) : (memLoads m c p).y40 = V m c main_arg44 := by
  obtain ⟨e0, e1⟩ := idx40 p
  funext i
  show V m c main_arg44 (((cfg0.win 40).blk p).view.emb (r0_4.emb i)) = V m c main_arg44 i
  congr 1
  funext a; apply Fin.ext
  match a with
  | ⟨0, _⟩ => show win0_40.index p (0 : Fin 2) * 1 + 1 * (0 + 1 * (i 0).val) = (i 0).val; omega
  | ⟨1, _⟩ => show win0_40.index p (1 : Fin 2) * 256 + 1 * (0 + 1 * (i 1).val) = (i 1).val; omega

theorem idx41 : ∀ t : Fin cfg0.N, win0_41.index t (0 : Fin 2) = 0 ∧ win0_41.index t (1 : Fin 2) = 0 := (by decide +kernel : ∀ t : Fin grid0.N, _)
/-- Load 41 is argument 45 whole. -/
theorem y41_eq (c : Dev nD) (p : Fin cfg0.N) : (memLoads m c p).y41 = V m c main_arg45 := by
  obtain ⟨e0, e1⟩ := idx41 p
  funext i
  show V m c main_arg45 (((cfg0.win 41).blk p).view.emb (r0_2.emb i)) = V m c main_arg45 i
  congr 1
  funext a; apply Fin.ext
  match a with
  | ⟨0, _⟩ => show win0_41.index p (0 : Fin 2) * 256 + 1 * (0 + 1 * (i 0).val) = (i 0).val; omega
  | ⟨1, _⟩ => show win0_41.index p (1 : Fin 2) * 256 + 1 * (0 + 1 * (i 1).val) = (i 1).val; omega

theorem idx42 : ∀ t : Fin cfg0.N, win0_42.index t (0 : Fin 2) = 0 ∧ win0_42.index t (1 : Fin 2) = 0 := (by decide +kernel : ∀ t : Fin grid0.N, _)
/-- Load 42 is argument 46 whole. -/
theorem y42_eq (c : Dev nD) (p : Fin cfg0.N) : (memLoads m c p).y42 = V m c main_arg46 := by
  obtain ⟨e0, e1⟩ := idx42 p
  funext i
  show V m c main_arg46 (((cfg0.win 42).blk p).view.emb (r0_4.emb i)) = V m c main_arg46 i
  congr 1
  funext a; apply Fin.ext
  match a with
  | ⟨0, _⟩ => show win0_42.index p (0 : Fin 2) * 1 + 1 * (0 + 1 * (i 0).val) = (i 0).val; omega
  | ⟨1, _⟩ => show win0_42.index p (1 : Fin 2) * 256 + 1 * (0 + 1 * (i 1).val) = (i 1).val; omega

theorem idx43 : ∀ t : Fin cfg0.N, win0_43.index t (0 : Fin 2) = 0 ∧ win0_43.index t (1 : Fin 2) = 0 := (by decide +kernel : ∀ t : Fin grid0.N, _)
/-- Load 43 is argument 47 whole. -/
theorem y43_eq (c : Dev nD) (p : Fin cfg0.N) : (memLoads m c p).y43 = V m c main_arg47 := by
  obtain ⟨e0, e1⟩ := idx43 p
  funext i
  show V m c main_arg47 (((cfg0.win 43).blk p).view.emb (r0_4.emb i)) = V m c main_arg47 i
  congr 1
  funext a; apply Fin.ext
  match a with
  | ⟨0, _⟩ => show win0_43.index p (0 : Fin 2) * 1 + 1 * (0 + 1 * (i 0).val) = (i 0).val; omega
  | ⟨1, _⟩ => show win0_43.index p (1 : Fin 2) * 256 + 1 * (0 + 1 * (i 1).val) = (i 1).val; omega

theorem idx44 : ∀ t : Fin cfg0.N, win0_44.index t (0 : Fin 2) = 0 ∧ win0_44.index t (1 : Fin 2) = 0 := (by decide +kernel : ∀ t : Fin grid0.N, _)
/-- Load 44 is argument 48 whole. -/
theorem y44_eq (c : Dev nD) (p : Fin cfg0.N) : (memLoads m c p).y44 = V m c main_arg48 := by
  obtain ⟨e0, e1⟩ := idx44 p
  funext i
  show V m c main_arg48 (((cfg0.win 44).blk p).view.emb (r0_4.emb i)) = V m c main_arg48 i
  congr 1
  funext a; apply Fin.ext
  match a with
  | ⟨0, _⟩ => show win0_44.index p (0 : Fin 2) * 1 + 1 * (0 + 1 * (i 0).val) = (i 0).val; omega
  | ⟨1, _⟩ => show win0_44.index p (1 : Fin 2) * 256 + 1 * (0 + 1 * (i 1).val) = (i 1).val; omega

theorem idx45 : ∀ t : Fin cfg0.N, win0_45.index t (0 : Fin 2) = 0 ∧ win0_45.index t (1 : Fin 2) = 0 := (by decide +kernel : ∀ t : Fin grid0.N, _)
/-- Load 45 is argument 3 whole. -/
theorem y45_eq (c : Dev nD) (p : Fin cfg0.N) : (memLoads m c p).y45 = V m c main_arg3 := by
  obtain ⟨e0, e1⟩ := idx45 p
  funext i
  show V m c main_arg3 (((cfg0.win 45).blk p).view.emb (r0_7.emb i)) = V m c main_arg3 i
  congr 1
  funext a; apply Fin.ext
  match a with
  | ⟨0, _⟩ => show win0_45.index p (0 : Fin 2) * 256 + 1 * (0 + 1 * (i 0).val) = (i 0).val; omega
  | ⟨1, _⟩ => show win0_45.index p (1 : Fin 2) * 16 + 1 * (0 + 1 * (i 1).val) = (i 1).val; omega

theorem idx46 : ∀ t : Fin cfg0.N, win0_46.index t (0 : Fin 2) = 0 ∧ win0_46.index t (1 : Fin 2) = 0 := (by decide +kernel : ∀ t : Fin grid0.N, _)
/-- Load 46 is argument 4 whole. -/
theorem y46_eq (c : Dev nD) (p : Fin cfg0.N) : (memLoads m c p).y46 = V m c main_arg4 := by
  obtain ⟨e0, e1⟩ := idx46 p
  funext i
  show V m c main_arg4 (((cfg0.win 46).blk p).view.emb (r0_8.emb i)) = V m c main_arg4 i
  congr 1
  funext a; apply Fin.ext
  match a with
  | ⟨0, _⟩ => show win0_46.index p (0 : Fin 2) * 1 + 1 * (0 + 1 * (i 0).val) = (i 0).val; omega
  | ⟨1, _⟩ => show win0_46.index p (1 : Fin 2) * 16 + 1 * (0 + 1 * (i 1).val) = (i 1).val; omega

theorem idx47 : ∀ t : Fin cfg0.N, win0_47.index t (0 : Fin 2) = 0 ∧ win0_47.index t (1 : Fin 2) = 0 := (by decide +kernel : ∀ t : Fin grid0.N, _)
/-- Load 47 is argument 5 whole. -/
theorem y47_eq (c : Dev nD) (p : Fin cfg0.N) : (memLoads m c p).y47 = V m c main_arg5 := by
  obtain ⟨e0, e1⟩ := idx47 p
  funext i
  show V m c main_arg5 (((cfg0.win 47).blk p).view.emb (r0_7.emb i)) = V m c main_arg5 i
  congr 1
  funext a; apply Fin.ext
  match a with
  | ⟨0, _⟩ => show win0_47.index p (0 : Fin 2) * 256 + 1 * (0 + 1 * (i 0).val) = (i 0).val; omega
  | ⟨1, _⟩ => show win0_47.index p (1 : Fin 2) * 16 + 1 * (0 + 1 * (i 1).val) = (i 1).val; omega

theorem idx48 : ∀ t : Fin cfg0.N, win0_48.index t (0 : Fin 2) = 0 ∧ win0_48.index t (1 : Fin 2) = 0 := (by decide +kernel : ∀ t : Fin grid0.N, _)
/-- Load 48 is argument 6 whole. -/
theorem y48_eq (c : Dev nD) (p : Fin cfg0.N) : (memLoads m c p).y48 = V m c main_arg6 := by
  obtain ⟨e0, e1⟩ := idx48 p
  funext i
  show V m c main_arg6 (((cfg0.win 48).blk p).view.emb (r0_8.emb i)) = V m c main_arg6 i
  congr 1
  funext a; apply Fin.ext
  match a with
  | ⟨0, _⟩ => show win0_48.index p (0 : Fin 2) * 1 + 1 * (0 + 1 * (i 0).val) = (i 0).val; omega
  | ⟨1, _⟩ => show win0_48.index p (1 : Fin 2) * 16 + 1 * (0 + 1 * (i 1).val) = (i 1).val; omega

end Cert.KernelIdeal.Lds

end
-- ==== Proof.KerTail.lean ====
/-
  The host's reshape-and-repeat of an output array, read at one entry.

  An output array [128, 64, 16] is viewed as [128, 1, 1024] (position j of the long axis is row j div 16, column
  j mod 16) and repeated along the time axis to [128, 8, 1024]: every time step t reads the same entry.
-/
import proofs.«141667_g2000002524955183_pallasbulk_3_44_alg».proof.Proof.KerResult
import Idealize.ShloMosaic.Lib.ValueIdx
import Idealize.ShloMosaic.Lib.Pipeline.Value

noncomputable section

namespace Cert.KernelIdeal.Res

open Idealize.ShloMosaic Idealize.ShloMosaic.ValueIdx Cert.KernelIdeal

variable {F : FTy → Type} [FloatOps F]

/-- Entry (b, t, j) of the reshaped and repeated array is entry (b, j div 16, j mod 16) of the array, for every t. -/
theorem tailOf_at (G : S128x64x16.Idx → Elt F .f32) (b : Fin 128) (t : Fin 8) (j : Fin 1024) :
    tailOf G (ix3 b t j) = G (ix3 b (⟨j.val / 16, by omega⟩ : Fin 64) (⟨j.val % 16, by omega⟩ : Fin 16)) := by
  unfold tailOf
  refine (broadcastInDim_apply _ _ _ (ix3 b t j) (ix3 b (0 : Fin 1) j) ?_).trans ?_
  · intro a
    match a with
    | ⟨0, _⟩ => rfl
    | ⟨1, _⟩ => rfl
    | ⟨2, _⟩ => rfl
  · refine shapeCast_apply G _ (ix3 b (0 : Fin 1) j)
      (ix3 b (⟨j.val / 16, by omega⟩ : Fin 64) (⟨j.val % 16, by omega⟩ : Fin 16)) ?_
    rw [Shape.rowMajor_val_three, Shape.rowMajor_val_three]
    show (b.val * 64 + j.val / 16) * 16 + j.val % 16 = (b.val * 1 + 0) * 1024 + j.val
    omega

end Cert.KernelIdeal.Res

end
-- ==== Proof.LibRealClosure.lean ====
/-
  Real entries inside the extended reals.

  Every input of the two programs is finite, and the two programs differ by rearrangements that are
  valid on real numbers (not on the infinities). This module says what it means for an extended real
  to be REAL (the image of a real number: neither infinity) and shows that every operation the two
  programs apply to real entries gives a real entry again: sums, differences, products, finite sums,
  the exponential (a POSITIVE real), the hyperbolic tangent, the logarithm and the reciprocal square
  root of a positive real, the quotient by a nonzero real, the maximum of two reals and the maximum
  of a nonempty finite family of reals taken from the bottom element upward.
-/
import Idealize.ShloMosaic.PureOps.Ideal
import Idealize.ShloMosaic.PureOps.Ideal.Laws

noncomputable section

namespace Cert.Lib.LibRealClosure

open Idealize.ShloMosaic
open scoped BigOperators

/-- An extended real is REAL when it is the image of a real number. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal 0 := ⟨0, EReal.coe_zero.symm⟩

/-- One is real. -/
theorem isReal_one : IsReal 1 := ⟨1, EReal.coe_one.symm⟩

/-- A real entry is not the top element. -/
theorem IsReal.ne_top {x : EReal} (hx : IsReal x) : x ≠ ⊤ := by
  obtain ⟨a, rfl⟩ := hx; exact EReal.coe_ne_top a

/-- A real entry is not the bottom element. -/
theorem IsReal.ne_bot {x : EReal} (hx : IsReal x) : x ≠ ⊥ := by
  obtain ⟨a, rfl⟩ := hx; exact EReal.coe_ne_bot a

/-- Real means: neither infinity. -/
theorem isReal_iff {x : EReal} : IsReal x ↔ x ≠ ⊥ ∧ x ≠ ⊤ :=
  ⟨fun h => ⟨h.ne_bot, h.ne_top⟩, fun h => ⟨x.toReal, (EReal.coe_toReal h.2 h.1).symm⟩⟩

/-- A real entry is the image of its own real part. -/
theorem IsReal.coe_toReal {x : EReal} (hx : IsReal x) : ((x.toReal : ℝ) : EReal) = x :=
  EReal.coe_toReal hx.ne_top hx.ne_bot

/-- The sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negative of a real is real. -/
theorem IsReal.neg {x : EReal} (hx : IsReal x) : IsReal (-x) := by
  obtain ⟨a, rfl⟩ := hx; exact ⟨-a, (EReal.coe_neg a).symm⟩

/-- The image of a finite sum of real numbers is the sum of the images. -/
@[norm_cast]
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A finite sum of reals is real. -/
theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A sum of reals over a whole finite type is real. -/
theorem isReal_sum_univ {ι : Type*} [Fintype ι] (f : ι → EReal) (h : ∀ i, IsReal (f i)) :
    IsReal (∑ i, f i) :=
  isReal_sum _ f fun i _ => h i

/-- A family of reals is the image of a family of real numbers, and its sum the image of their sum. -/
theorem exists_real_family {ι : Type*} (f : ι → EReal) (h : ∀ i, IsReal (f i)) :
    ∃ g : ι → ℝ, f = fun i => ((g i : ℝ) : EReal) :=
  ⟨fun i => (f i).toReal, funext fun i => ((h i).coe_toReal).symm⟩

/-- A two-index family of reals is the image of a two-index family of real numbers. -/
theorem exists_real_family₂ {ι κ : Type*} (f : ι → κ → EReal) (h : ∀ i k, IsReal (f i k)) :
    ∃ g : ι → κ → ℝ, f = fun i k => ((g i k : ℝ) : EReal) :=
  ⟨fun i k => (f i k).toReal, funext fun i => funext fun k => ((h i k).coe_toReal).symm⟩

/-- On reals a product distributes over a sum (on the extended reals it does not in general). -/
theorem IsReal.mul_add {x y z : EReal} (hx : IsReal x) (hy : IsReal y) (hz : IsReal z) :
    x * (y + z) = x * y + x * z := by
  obtain ⟨a, rfl⟩ := hx; obtain ⟨b, rfl⟩ := hy; obtain ⟨c, rfl⟩ := hz
  exact_mod_cast congrArg (fun r : ℝ => (r : EReal)) (_root_.mul_add a b c)

/-- On reals a sum times a factor is the sum of the products. -/
theorem IsReal.add_mul {x y z : EReal} (hx : IsReal x) (hy : IsReal y) (hz : IsReal z) :
    (x + y) * z = x * z + y * z := by
  obtain ⟨a, rfl⟩ := hx; obtain ⟨b, rfl⟩ := hy; obtain ⟨c, rfl⟩ := hz
  exact_mod_cast congrArg (fun r : ℝ => (r : EReal)) (_root_.add_mul a b c)

/-- On reals a product distributes over a difference. -/
theorem IsReal.mul_sub {x y z : EReal} (hx : IsReal x) (hy : IsReal y) (hz : IsReal z) :
    x * (y - z) = x * y - x * z := by
  obtain ⟨a, rfl⟩ := hx; obtain ⟨b, rfl⟩ := hy; obtain ⟨c, rfl⟩ := hz
  exact_mod_cast congrArg (fun r : ℝ => (r : EReal)) (_root_.mul_sub a b c)

/-- On reals a difference times a factor is the difference of the products. -/
theorem IsReal.sub_mul {x y z : EReal} (hx : IsReal x) (hy : IsReal y) (hz : IsReal z) :
    (x - y) * z = x * z - y * z := by
  obtain ⟨a, rfl⟩ := hx; obtain ⟨b, rfl⟩ := hy; obtain ⟨c, rfl⟩ := hz
  exact_mod_cast congrArg (fun r : ℝ => (r : EReal)) (_root_.sub_mul a b c)

/-- A real factor moves into a finite sum of reals. -/
theorem mul_sum_of_isReal {ι : Type*} (s : Finset ι) (f : ι → EReal) (c : EReal)
    (hf : ∀ i, IsReal (f i)) (hc : IsReal c) : c * ∑ i ∈ s, f i = ∑ i ∈ s, c * f i := by
  obtain ⟨g, rfl⟩ := exists_real_family f hf
  obtain ⟨a, rfl⟩ := hc
  simp only [← EReal.coe_mul, ← coe_sum, Finset.mul_sum]

/-- A real factor moves into a finite sum of reals, from the right. -/
theorem sum_mul_of_isReal {ι : Type*} (s : Finset ι) (f : ι → EReal) (c : EReal)
    (hf : ∀ i, IsReal (f i)) (hc : IsReal c) : (∑ i ∈ s, f i) * c = ∑ i ∈ s, f i * c := by
  obtain ⟨g, rfl⟩ := exists_real_family f hf
  obtain ⟨a, rfl⟩ := hc
  simp only [← EReal.coe_mul, ← coe_sum, Finset.sum_mul]

/-- The exponential of a real is a positive real. -/
theorem IsReal.exp_pos {x : EReal} (hx : IsReal x) : ∃ r : ℝ, 0 < r ∧ Ideal.exp x = (r : EReal) := by
  obtain ⟨a, rfl⟩ := hx; exact ⟨Real.exp a, Real.exp_pos a, rfl⟩

/-- The exponential of a real is real. -/
theorem IsReal.exp {x : EReal} (hx : IsReal x) : IsReal (Ideal.exp x) := by
  obtain ⟨r, _, h⟩ := hx.exp_pos; exact ⟨r, h⟩

/-- The hyperbolic tangent of a real is real. -/
theorem IsReal.tanh {x : EReal} (hx : IsReal x) : IsReal (Ideal.tanh x) := by
  obtain ⟨a, rfl⟩ := hx; exact ⟨Real.tanh a, rfl⟩

/-- The logarithm of a positive real is the real logarithm. -/
theorem log_coe_of_pos {r : ℝ} (h : 0 < r) : Ideal.log (r : EReal) = ((Real.log r : ℝ) : EReal) := by
  rw [Ideal.log_coe, if_neg (not_le.mpr h)]

/-- The logarithm of a positive real is real. -/
theorem isReal_log_of_pos {r : ℝ} (h : 0 < r) : IsReal (Ideal.log (r : EReal)) :=
  ⟨Real.log r, log_coe_of_pos h⟩

/-- The reciprocal square root of a positive real is the real one. -/
theorem rsqrt_coe_of_pos {r : ℝ} (h : 0 < r) :
    Ideal.rsqrt (r : EReal) = (((Real.sqrt r)⁻¹ : ℝ) : EReal) := by
  rw [Ideal.rsqrt_coe, if_neg (not_lt.mpr h.le), if_neg h.ne']

/-- The reciprocal square root of a positive real is a positive real. -/
theorem rsqrt_pos_of_pos {r : ℝ} (h : 0 < r) :
    ∃ q : ℝ, 0 < q ∧ Ideal.rsqrt (r : EReal) = (q : EReal) :=
  ⟨(Real.sqrt r)⁻¹, inv_pos.mpr (Real.sqrt_pos.mpr h), rsqrt_coe_of_pos h⟩

/-- The reciprocal square root of a positive real is real. -/
theorem isReal_rsqrt_of_pos {r : ℝ} (h : 0 < r) : IsReal (Ideal.rsqrt (r : EReal)) :=
  ⟨_, rsqrt_coe_of_pos h⟩

/-- The quotient of a real by a nonzero real is the real quotient. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The quotient of a real by a nonzero real is real. -/
theorem IsReal.div {x y : EReal} (hx : IsReal x) (hy : IsReal y) (hne : y ≠ 0) :
    IsReal (Ideal.div x y) := by
  obtain ⟨a, rfl⟩ := hx; obtain ⟨b, rfl⟩ := hy
  have hb : b ≠ 0 := fun h => hne (by rw [h, EReal.coe_zero])
  exact ⟨a / b, div_coe_coe a hb⟩

/-- The maximum of two reals is real. -/
theorem IsReal.max {x y : EReal} (hx : IsReal x) (hy : IsReal y) : IsReal (max x y) := by
  rcases max_choice x y with h | h <;> rw [h] <;> assumption

/-- The minimum of two reals is real. -/
theorem IsReal.min {x y : EReal} (hx : IsReal x) (hy : IsReal y) : IsReal (min x y) := by
  rcases min_choice x y with h | h <;> rw [h] <;> assumption

/-- The supremum of a nonempty finite family of reals is one of its members, hence real. -/
theorem isReal_sup {ι : Type*} (s : Finset ι) (hs : s.Nonempty) (f : ι → EReal)
    (h : ∀ i ∈ s, IsReal (f i)) : IsReal (s.sup f) := by
  obtain ⟨i, hi, e⟩ := Finset.exists_mem_eq_sup s hs f
  rw [e]; exact h i hi

/-- Folding the maximum from the bottom element over a finite family is its supremum. -/
theorem fold_max_bot_eq_sup {ι : Type*} (s : Finset ι) (f : ι → EReal) :
    s.fold max ⊥ f = s.sup f := rfl

/-- The maximum, folded from the bottom element, of a nonempty finite family of reals is real. -/
theorem isReal_fold_max {ι : Type*} (s : Finset ι) (hs : s.Nonempty) (f : ι → EReal)
    (h : ∀ i ∈ s, IsReal (f i)) : IsReal (s.fold max ⊥ f) := by
  rw [fold_max_bot_eq_sup]; exact isReal_sup s hs f h

/-- Over a whole nonempty finite type: the supremum of a family of reals is real. -/
theorem isReal_sup_univ {ι : Type*} [Fintype ι] [Nonempty ι] (f : ι → EReal)
    (h : ∀ i, IsReal (f i)) : IsReal (Finset.univ.sup f) :=
  isReal_sup _ Finset.univ_nonempty f fun i _ => h i

/-- Over a whole nonempty finite type: the folded maximum of a family of reals is real. -/
theorem isReal_fold_max_univ {ι : Type*} [Fintype ι] [Nonempty ι] (f : ι → EReal)
    (h : ∀ i, IsReal (f i)) : IsReal (Finset.univ.fold max ⊥ f) :=
  isReal_fold_max _ Finset.univ_nonempty f fun i _ => h i

end Cert.Lib.LibRealClosure

end
-- ==== Proof.LibHeadSplit.lean ====
/-
  Splitting a sum over a product range into heads.

  A sum over the `H * L` positions of a concatenation of `H` blocks of length `L` is the double
  sum over the block `h` and the position `l` inside the block, at the flat position
  `h * L + l`. The bijection between pairs `(h, l)` and flat positions is division with remainder
  by `L`. Stated for values in any commutative additive monoid (the extended reals among them: no
  finiteness is needed).
-/
import Idealize.ShloMosaic.PureOps.Ideal
import Mathlib.Algebra.BigOperators.Fin
import Mathlib.Logic.Equiv.Fin.Basic

namespace Cert.Lib.LibHeadSplit

open scoped BigOperators

/-- The flat position `h * L + l` of position `l` in block `h` lies below `H * L`. -/
theorem flat_lt {H L : ℕ} (h : Fin H) (l : Fin L) : h.val * L + l.val < H * L :=
  calc h.val * L + l.val < h.val * L + L := Nat.add_lt_add_left l.isLt _
    _ = (h.val + 1) * L := (Nat.succ_mul _ _).symm
    _ ≤ H * L := Nat.mul_le_mul_right _ h.isLt

/-- The flat position of `(h, l)`, as an index below `H * L`. -/
def flat {H L : ℕ} (h : Fin H) (l : Fin L) : Fin (H * L) := ⟨h.val * L + l.val, flat_lt h l⟩

@[simp] theorem flat_val {H L : ℕ} (h : Fin H) (l : Fin L) : (flat h l).val = h.val * L + l.val := rfl

/-- The flat position is the one Mathlib's bijection `Fin H × Fin L ≃ Fin (H * L)` assigns. -/
theorem finProdFinEquiv_eq_flat {H L : ℕ} (h : Fin H) (l : Fin L) : finProdFinEquiv (h, l) = flat h l := by
  apply Fin.ext
  simp only [finProdFinEquiv_apply_val, flat_val]
  rw [Nat.mul_comm, Nat.add_comm]

/-- The block and the position inside it are recovered by division with remainder. -/
theorem flat_div {H L : ℕ} (h : Fin H) (l : Fin L) : (flat h l).val / L = h.val := by
  have hL : 0 < L := Nat.pos_of_ne_zero fun e => by subst e; exact l.elim0
  rw [flat_val, Nat.add_comm, Nat.add_mul_div_right _ _ hL, Nat.div_eq_of_lt l.isLt, Nat.zero_add]

theorem flat_mod {H L : ℕ} (h : Fin H) (l : Fin L) : (flat h l).val % L = l.val := by
  rw [flat_val, Nat.add_comm, Nat.add_mul_mod_self_right, Nat.mod_eq_of_lt l.isLt]

/-- A sum over `Fin (H * L)` is the double sum over blocks and positions, at `⟨h * L + l, _⟩`. -/
theorem sum_fin_mul {M : Type*} [AddCommMonoid M] {H L : ℕ} (f : Fin (H * L) → M) :
    ∑ i, f i = ∑ h : Fin H, ∑ l : Fin L, f ⟨h.val * L + l.val, flat_lt h l⟩ := by
  rw [← (finProdFinEquiv (m := H) (n := L)).sum_comp f, Fintype.sum_prod_type]
  exact Finset.sum_congr rfl fun h _ => Finset.sum_congr rfl fun l _ => by
    rw [finProdFinEquiv_eq_flat]; rfl

/-- The same with the flat position given by any function `idx` whose value is `h * L + l`. -/
theorem sum_fin_mul_of_idx {M : Type*} [AddCommMonoid M] {H L : ℕ} (f : Fin (H * L) → M)
    (idx : Fin H → Fin L → Fin (H * L)) (hidx : ∀ h l, (idx h l).val = h.val * L + l.val) :
    ∑ i, f i = ∑ h : Fin H, ∑ l : Fin L, f (idx h l) := by
  rw [sum_fin_mul f]
  exact Finset.sum_congr rfl fun h _ => Finset.sum_congr rfl fun l _ =>
    congrArg f (Fin.ext (hidx h l).symm)

/-- The same over an index type `N` in bijection with the flat positions: if `idx h l` runs through
    `Fin n` with `n = H * L` and value `h * L + l`, a sum over `Fin n` splits likewise. -/
theorem sum_fin_of_eq_mul {M : Type*} [AddCommMonoid M] {H L n : ℕ} (hn : n = H * L) (f : Fin n → M)
    (idx : Fin H → Fin L → Fin n) (hidx : ∀ h l, (idx h l).val = h.val * L + l.val) :
    ∑ i, f i = ∑ h : Fin H, ∑ l : Fin L, f (idx h l) := by
  subst hn; exact sum_fin_mul_of_idx f idx hidx

/-- The other direction: a double sum over blocks and positions is the sum over flat positions of
    the term at the quotient and remainder by `L`. -/
theorem sum_sum_eq_sum_divNat_modNat {M : Type*} [AddCommMonoid M] {H L : ℕ} (g : Fin H → Fin L → M) :
    ∑ h : Fin H, ∑ l : Fin L, g h l = ∑ i : Fin (H * L), g i.divNat i.modNat := by
  rw [← Fintype.sum_prod_type (f := fun p : Fin H × Fin L => g p.1 p.2)]
  exact ((finProdFinEquiv (m := H) (n := L)).symm.sum_comp fun p => g p.1 p.2).symm

end Cert.Lib.LibHeadSplit
-- ==== Proof.AttnSpecParams.lean ====
/-
  Parameters of one encoder layer, as tables of extended reals, and what it means for them to be real.

  One layer of the encoder acts on a table `x : S → Fin (H * L) → EReal` (sequence position, channel),
  where a channel is a pair (head `h : Fin H`, lane `l : Fin L`) at the flat position `h * L + l`. Its
  parameters are the three embedding tables, the first affine map (into the half width `J`), the
  three projection weights — each given by its top rows (the ones that meet the output of the first
  affine map) and its bottom rows (the ones that meet the embedding) —, the output projection, the
  two normalisations and the two feed-forward maps. The numeric constants the two programs spell
  (the attention scale, the normalisation's epsilon, the reciprocal of the width and the width, the
  four constants of the activation) are parameters too, so that no float word is evaluated here.
-/
import proofs.«141667_g2000002524955183_pallasbulk_3_44_alg».proof.Proof.LibRealClosure
import proofs.«141667_g2000002524955183_pallasbulk_3_44_alg».proof.Proof.LibHeadSplit

noncomputable section

namespace Cert.Spec

open Idealize.ShloMosaic
open Cert.Lib.LibRealClosure
open Cert.Lib.LibHeadSplit
open scoped BigOperators

/-- The numeric constants of a layer. -/
structure Consts where
  /-- the attention scale, `1 / √(head width)` -/
  scale : EReal
  /-- the epsilon added to the variance -/
  epsLn : EReal
  /-- the reciprocal of the channel count -/
  cInv : EReal
  /-- the channel count -/
  cN : EReal
  /-- the activation's `0.5` -/
  half : EReal
  /-- the activation's cubic coefficient `0.044715` -/
  gk : EReal
  /-- the activation's `√(2/π)` -/
  gc : EReal
  /-- the activation's `1.0` -/
  one : EReal

/-- The constants are real, the epsilon is a positive real, and `cInv`, `cN` are `1/n`, `n` for one
    positive real `n`. -/
structure Consts.Real (C : Consts) (n : ℝ) : Prop where
  scale : IsReal C.scale
  epsLn_pos : ∃ e : ℝ, 0 < e ∧ C.epsLn = (e : EReal)
  n_pos : 0 < n
  cInv : C.cInv = ((1 / n : ℝ) : EReal)
  cN : C.cN = ((n : ℝ) : EReal)
  half : IsReal C.half
  gk : IsReal C.gk
  gc : IsReal C.gc
  one : IsReal C.one

/-- The parameters of one layer. `S`: sequence positions; `J`: the half width; channels are
    `Fin (H * L)`. -/
structure LayerParams (S J : Type) (H L : ℕ) where
  /-- the three embedding tables, (position, half-width index) -/
  qe : S → J → EReal
  ke : S → J → EReal
  ve : S → J → EReal
  /-- the first affine map: weight (channel, half-width index) and bias -/
  w0 : Fin (H * L) → J → EReal
  b0 : J → EReal
  /-- the query projection: top rows, bottom rows, bias -/
  wqT : J → Fin (H * L) → EReal
  wqB : J → Fin (H * L) → EReal
  bq : Fin (H * L) → EReal
  /-- the key projection -/
  wkT : J → Fin (H * L) → EReal
  wkB : J → Fin (H * L) → EReal
  bk : Fin (H * L) → EReal
  /-- the value projection -/
  wvT : J → Fin (H * L) → EReal
  wvB : J → Fin (H * L) → EReal
  bv : Fin (H * L) → EReal
  /-- the output projection: weight (channel in, channel out) and bias -/
  wo : Fin (H * L) → Fin (H * L) → EReal
  bo : Fin (H * L) → EReal
  /-- the first normalisation's gain and shift -/
  g1 : Fin (H * L) → EReal
  be1 : Fin (H * L) → EReal
  /-- the feed-forward maps -/
  w1 : Fin (H * L) → Fin (H * L) → EReal
  b1 : Fin (H * L) → EReal
  w2 : Fin (H * L) → Fin (H * L) → EReal
  b2 : Fin (H * L) → EReal
  /-- the second normalisation's gain and shift -/
  g2 : Fin (H * L) → EReal
  be2 : Fin (H * L) → EReal

/-- Every parameter of the layer is real. -/
structure LayerParams.Real {S J : Type} {H L : ℕ} (P : LayerParams S J H L) : Prop where
  qe : ∀ s j, IsReal (P.qe s j)
  ke : ∀ s j, IsReal (P.ke s j)
  ve : ∀ s j, IsReal (P.ve s j)
  w0 : ∀ e j, IsReal (P.w0 e j)
  b0 : ∀ j, IsReal (P.b0 j)
  wqT : ∀ j c, IsReal (P.wqT j c)
  wqB : ∀ j c, IsReal (P.wqB j c)
  bq : ∀ c, IsReal (P.bq c)
  wkT : ∀ j c, IsReal (P.wkT j c)
  wkB : ∀ j c, IsReal (P.wkB j c)
  bk : ∀ c, IsReal (P.bk c)
  wvT : ∀ j c, IsReal (P.wvT j c)
  wvB : ∀ j c, IsReal (P.wvB j c)
  bv : ∀ c, IsReal (P.bv c)
  wo : ∀ j c, IsReal (P.wo j c)
  bo : ∀ c, IsReal (P.bo c)
  g1 : ∀ c, IsReal (P.g1 c)
  be1 : ∀ c, IsReal (P.be1 c)
  w1 : ∀ k c, IsReal (P.w1 k c)
  b1 : ∀ c, IsReal (P.b1 c)
  w2 : ∀ k c, IsReal (P.w2 k c)
  b2 : ∀ c, IsReal (P.b2 c)
  g2 : ∀ c, IsReal (P.g2 c)
  be2 : ∀ c, IsReal (P.be2 c)

/-- The causal additive mask on `n` positions: `0` where the column is at most the row, the fill
    value elsewhere. -/
def causalMask {n : ℕ} (negBig : EReal) (s t : Fin n) : EReal := if t.val ≤ s.val then 0 else negBig

/-- The causal mask is real when its fill value is. -/
theorem isReal_causalMask {n : ℕ} {negBig : EReal} (h : IsReal negBig) (s t : Fin n) :
    IsReal (causalMask negBig s t) := by
  unfold causalMask; split
  · exact isReal_zero
  · exact h

/-- The activation (the tanh form of GELU), with the order of factors the programs use:
    `(half · u) · (one + tanh (gc · (u + ((gk · u) · u) · u)))`. -/
def gelu (C : Consts) (u : EReal) : EReal :=
  (C.half * u) * (C.one + Ideal.tanh (C.gc * (u + ((C.gk * u) * u) * u)))

/-- The activation of a real is real. -/
theorem isReal_gelu {C : Consts} {n : ℝ} (hC : C.Real n) {u : EReal} (hu : IsReal u) : IsReal (gelu C u) :=
  (hC.half.mul hu).mul (hC.one.add (hC.gc.mul (hu.add (((hC.gk.mul hu).mul hu).mul hu))).tanh)

end Cert.Spec

end
-- ==== Proof.AttnSpecRef.lean ====
/-
  One encoder layer in the textbook order (the reference's).

  Each definition is one step of the computation at one entry: the first affine map, the three
  projections (on the concatenation of its output with an embedding, written as two contractions),
  per head the scaled query, the masked scores, the row maximum, the shifted exponentials, their
  sum, the softmax weights, the weighted values and their share of the output projection; then the
  residual, the normalisation (mean and variance by division by the width), the feed-forward map
  with its activation, the second residual and normalisation. Channel `(h, l)` is `flat h l`, the
  flat position `h * L + l`.
-/
import proofs.«141667_g2000002524955183_pallasbulk_3_44_alg».proof.Proof.AttnSpecParams

noncomputable section

namespace Cert.Spec.Ref

open Idealize.ShloMosaic
open Cert.Lib.LibRealClosure
open Cert.Lib.LibHeadSplit
open Cert.Spec
open scoped BigOperators

variable {S J : Type} [Fintype S] [Fintype J] {H L : ℕ}

/-- The first affine map: `(∑ e, x s e * w0 e j) + b0 j`. -/
def src1 (P : LayerParams S J H L) (x : S → Fin (H * L) → EReal) (s : S) (j : J) : EReal :=
  (∑ e, x s e * P.w0 e j) + P.b0 j

/-- A projection of the concatenation `[src1, emb]`: the contraction of `src1` with the top rows plus
    the contraction of the embedding with the bottom rows, plus the bias. -/
def proj (P : LayerParams S J H L) (x : S → Fin (H * L) → EReal) (emb : S → J → EReal)
    (wT wB : J → Fin (H * L) → EReal) (b : Fin (H * L) → EReal) (s : S) (c : Fin (H * L)) : EReal :=
  ((∑ j, src1 P x s j * wT j c) + (∑ j, emb s j * wB j c)) + b c

/-- The query, key and value tables. -/
def q (P : LayerParams S J H L) (x : S → Fin (H * L) → EReal) : S → Fin (H * L) → EReal :=
  proj P x P.qe P.wqT P.wqB P.bq
def k (P : LayerParams S J H L) (x : S → Fin (H * L) → EReal) : S → Fin (H * L) → EReal :=
  proj P x P.ke P.wkT P.wkB P.bk
def v (P : LayerParams S J H L) (x : S → Fin (H * L) → EReal) : S → Fin (H * L) → EReal :=
  proj P x P.ve P.wvT P.wvB P.bv

/-- The scaled query of head `h`: `q s (h, l) * scale`. -/
def qs (C : Consts) (P : LayerParams S J H L) (x : S → Fin (H * L) → EReal) (h : Fin H) (s : S) (l : Fin L) :
    EReal :=
  q P x s (flat h l) * C.scale

/-- The masked scores of head `h`: `(∑ l, qs s l * k t (h, l)) + mask s t`. -/
def scores (C : Consts) (P : LayerParams S J H L) (mask : S → S → EReal) (x : S → Fin (H * L) → EReal)
    (h : Fin H) (s t : S) : EReal :=
  (∑ l, qs C P x h s l * k P x t (flat h l)) + mask s t

/-- The row maximum of the scores, folded from the bottom element. -/
def rowMax (C : Consts) (P : LayerParams S J H L) (mask : S → S → EReal) (x : S → Fin (H * L) → EReal)
    (h : Fin H) (s : S) : EReal :=
  Finset.univ.fold max ⊥ fun t => scores C P mask x h s t

/-- The shifted exponential: `exp (scores s t - rowMax s)`. -/
def expo (C : Consts) (P : LayerParams S J H L) (mask : S → S → EReal) (x : S → Fin (H * L) → EReal)
    (h : Fin H) (s t : S) : EReal :=
  Ideal.exp (scores C P mask x h s t - rowMax C P mask x h s)

/-- The normalising sum of a row. -/
def denom (C : Consts) (P : LayerParams S J H L) (mask : S → S → EReal) (x : S → Fin (H * L) → EReal)
    (h : Fin H) (s : S) : EReal :=
  ∑ t, expo C P mask x h s t

/-- The softmax weight: the shifted exponential divided by the row's sum. -/
def prob (C : Consts) (P : LayerParams S J H L) (mask : S → S → EReal) (x : S → Fin (H * L) → EReal)
    (h : Fin H) (s t : S) : EReal :=
  Ideal.div (expo C P mask x h s t) (denom C P mask x h s)

/-- The weighted values of head `h`: `∑ t, prob s t * v t (h, l)`. -/
def headOut (C : Consts) (P : LayerParams S J H L) (mask : S → S → EReal) (x : S → Fin (H * L) → EReal)
    (h : Fin H) (s : S) (l : Fin L) : EReal :=
  ∑ t, prob C P mask x h s t * v P x t (flat h l)

/-- Head `h`'s share of the output projection: `∑ l, headOut s l * wo (h, l) c`. -/
def headProj (C : Consts) (P : LayerParams S J H L) (mask : S → S → EReal) (x : S → Fin (H * L) → EReal)
    (h : Fin H) (s : S) (c : Fin (H * L)) : EReal :=
  ∑ l, headOut C P mask x h s l * P.wo (flat h l) c

/-- The attention output: the heads' shares summed, plus the bias. -/
def attn (C : Consts) (P : LayerParams S J H L) (mask : S → S → EReal) (x : S → Fin (H * L) → EReal)
    (s : S) (c : Fin (H * L)) : EReal :=
  (∑ h, headProj C P mask x h s c) + P.bo c

/-- The first residual: `x + attn`. -/
def y1 (C : Consts) (P : LayerParams S J H L) (mask : S → S → EReal) (x : S → Fin (H * L) → EReal)
    (s : S) (c : Fin (H * L)) : EReal :=
  x s c + attn C P mask x s c

/-- The row mean: the sum divided by the width. -/
def lnMean (C : Consts) (y : S → Fin (H * L) → EReal) (s : S) : EReal :=
  Ideal.div (∑ c, y s c) C.cN

/-- The row variance: the sum of squared deviations divided by the width. -/
def lnVar (C : Consts) (y : S → Fin (H * L) → EReal) (s : S) : EReal :=
  Ideal.div (∑ c, (y s c - lnMean C y s) * (y s c - lnMean C y s)) C.cN

/-- The normalisation: `((y - mean) * rsqrt (var + eps)) * g + b`. -/
def layerNorm (C : Consts) (y : S → Fin (H * L) → EReal) (g b : Fin (H * L) → EReal) (s : S)
    (c : Fin (H * L)) : EReal :=
  ((y s c - lnMean C y s) * Ideal.rsqrt (lnVar C y s + C.epsLn)) * g c + b c

/-- The first normalised table. -/
def x1 (C : Consts) (P : LayerParams S J H L) (mask : S → S → EReal) (x : S → Fin (H * L) → EReal) :
    S → Fin (H * L) → EReal :=
  layerNorm C (y1 C P mask x) P.g1 P.be1

/-- The feed-forward map on a table `z`: `(∑ k, gelu ((∑ k', z s k' * w1 k' k) + b1 k) * w2 k c) + b2 c`,
    in three steps. -/
def ffnPre (P : LayerParams S J H L) (z : S → Fin (H * L) → EReal) (s : S) (c : Fin (H * L)) : EReal :=
  (∑ k, z s k * P.w1 k c) + P.b1 c
def ffnAct (C : Consts) (P : LayerParams S J H L) (z : S → Fin (H * L) → EReal) (s : S) (c : Fin (H * L)) :
    EReal :=
  gelu C (ffnPre P z s c)
def ffnOut (C : Consts) (P : LayerParams S J H L) (z : S → Fin (H * L) → EReal) (s : S) (c : Fin (H * L)) :
    EReal :=
  (∑ k, ffnAct C P z s k * P.w2 k c) + P.b2 c

/-- The second residual on a table `z`: `z + ffnOut z`. -/
def y2 (C : Consts) (P : LayerParams S J H L) (z : S → Fin (H * L) → EReal) (s : S) (c : Fin (H * L)) :
    EReal :=
  z s c + ffnOut C P z s c

/-- The layer's tail from the first normalised table `z`: feed-forward, residual, normalisation. -/
def tail (C : Consts) (P : LayerParams S J H L) (z : S → Fin (H * L) → EReal) : S → Fin (H * L) → EReal :=
  layerNorm C (y2 C P z) P.g2 P.be2

/-- The whole layer. -/
def layer (C : Consts) (P : LayerParams S J H L) (mask : S → S → EReal) (x : S → Fin (H * L) → EReal) :
    S → Fin (H * L) → EReal :=
  tail C P (x1 C P mask x)

end Cert.Spec.Ref

end
-- ==== Proof.AttnSpecHeads.lean ====
/-
  The two output heads, in the textbook order (two separate affine maps) and in the fused order (one
  affine map onto the concatenated columns, then the two halves are read back).

  The location head is the affine map plus a small constant; the scale head is the softplus
  `log (1 + exp ·)` of its affine map plus the same constant. Reading the left half of a
  concatenation gives the first table and the right half the second, so the two orders agree entry by
  entry with no condition on the entries.
-/
import Idealize.ShloMosaic.PureOps.Ideal
import Mathlib.Data.Fin.Tuple.Basic

noncomputable section

namespace Cert.Spec.Heads

open Idealize.ShloMosaic
open scoped BigOperators

variable {R D : Type} [Fintype D] {Z : ℕ}

/-- The location head in the textbook order: `((∑ k, x r k * wl k z) + bl z) + epsZ`. -/
def refLoc (epsZ : EReal) (wl : D → Fin Z → EReal) (bl : Fin Z → EReal) (x : R → D → EReal) (r : R)
    (z : Fin Z) : EReal :=
  ((∑ k, x r k * wl k z) + bl z) + epsZ

/-- The scale head in the textbook order: `log (one + exp ((∑ k, x r k * ws k z) + bs z)) + epsZ`. -/
def refScl (one epsZ : EReal) (ws : D → Fin Z → EReal) (bs : Fin Z → EReal) (x : R → D → EReal) (r : R)
    (z : Fin Z) : EReal :=
  Ideal.log (one + Ideal.exp ((∑ k, x r k * ws k z) + bs z)) + epsZ

/-- Two weight tables side by side: columns `0 … Z-1` the first, columns `Z … 2Z-1` the second. -/
def catW (wl ws : D → Fin Z → EReal) (k : D) (i : Fin (Z + Z)) : EReal := Fin.append (wl k) (ws k) i

/-- Two bias rows side by side. -/
def catB (bl bs : Fin Z → EReal) (i : Fin (Z + Z)) : EReal := Fin.append bl bs i

/-- The fused affine map onto the `2Z` concatenated columns: `(∑ k, x r k * wz k i) + bz i`. -/
def zz (wz : D → Fin (Z + Z) → EReal) (bz : Fin (Z + Z) → EReal) (x : R → D → EReal) (r : R)
    (i : Fin (Z + Z)) : EReal :=
  (∑ k, x r k * wz k i) + bz i

/-- The location head in the fused order: the left half plus the constant. -/
def kerLoc (epsZ : EReal) (wz : D → Fin (Z + Z) → EReal) (bz : Fin (Z + Z) → EReal) (x : R → D → EReal)
    (r : R) (z : Fin Z) : EReal :=
  zz wz bz x r (Fin.castAdd Z z) + epsZ

/-- The scale head in the fused order: the softplus of the right half plus the constant. -/
def kerScl (one epsZ : EReal) (wz : D → Fin (Z + Z) → EReal) (bz : Fin (Z + Z) → EReal)
    (x : R → D → EReal) (r : R) (z : Fin Z) : EReal :=
  Ideal.log (one + Ideal.exp (zz wz bz x r (Fin.natAdd Z z))) + epsZ

/-- Reading the halves of the concatenations. -/
theorem catW_left (wl ws : D → Fin Z → EReal) (k : D) (z : Fin Z) : catW wl ws k (Fin.castAdd Z z) = wl k z :=
  Fin.append_left _ _ z
theorem catW_right (wl ws : D → Fin Z → EReal) (k : D) (z : Fin Z) : catW wl ws k (Fin.natAdd Z z) = ws k z :=
  Fin.append_right _ _ z
theorem catB_left (bl bs : Fin Z → EReal) (z : Fin Z) : catB bl bs (Fin.castAdd Z z) = bl z :=
  Fin.append_left _ _ z
theorem catB_right (bl bs : Fin Z → EReal) (z : Fin Z) : catB bl bs (Fin.natAdd Z z) = bs z :=
  Fin.append_right _ _ z

/-- The location heads agree, for any fused tables whose left halves are the textbook tables. -/
theorem kerLoc_eq_of (epsZ : EReal) {wl : D → Fin Z → EReal} {bl : Fin Z → EReal}
    {wz : D → Fin (Z + Z) → EReal} {bz : Fin (Z + Z) → EReal}
    (hw : ∀ k z, wz k (Fin.castAdd Z z) = wl k z) (hb : ∀ z, bz (Fin.castAdd Z z) = bl z)
    (x : R → D → EReal) : kerLoc epsZ wz bz x = refLoc epsZ wl bl x := by
  funext r z; unfold kerLoc refLoc zz; simp only [hw, hb]

/-- The scale heads agree, for any fused tables whose right halves are the textbook tables. -/
theorem kerScl_eq_of (one epsZ : EReal) {ws : D → Fin Z → EReal} {bs : Fin Z → EReal}
    {wz : D → Fin (Z + Z) → EReal} {bz : Fin (Z + Z) → EReal}
    (hw : ∀ k z, wz k (Fin.natAdd Z z) = ws k z) (hb : ∀ z, bz (Fin.natAdd Z z) = bs z)
    (x : R → D → EReal) : kerScl one epsZ wz bz x = refScl one epsZ ws bs x := by
  funext r z; unfold kerScl refScl zz; simp only [hw, hb]

/-- The location heads agree on the concatenated tables. -/
theorem kerLoc_eq (epsZ : EReal) (wl ws : D → Fin Z → EReal) (bl bs : Fin Z → EReal) (x : R → D → EReal) :
    kerLoc epsZ (catW wl ws) (catB bl bs) x = refLoc epsZ wl bl x :=
  kerLoc_eq_of epsZ (catW_left wl ws) (catB_left bl bs) x

/-- The scale heads agree on the concatenated tables. -/
theorem kerScl_eq (one epsZ : EReal) (wl ws : D → Fin Z → EReal) (bl bs : Fin Z → EReal)
    (x : R → D → EReal) : kerScl one epsZ (catW wl ws) (catB bl bs) x = refScl one epsZ ws bs x :=
  kerScl_eq_of one epsZ (catW_right wl ws) (catB_right bl bs) x

end Cert.Spec.Heads

end
-- ==== Proof.LibFloatWords.lean ====
/-
  The 32-bit float words of the two programs, as extended reals.

  A word with sign `s`, biased exponent `E` (neither `0` nor `255`) and fraction `T` denotes the real
  `(-1)^s · (2^23 + T) · 2^(E - 150)`; the word `0xFF800000` (sign 1, exponent 255, fraction 0) is the
  bottom element and the zero word is `0`. Each word the programs use is evaluated once here, so that
  the constants of a layer can be supplied as real numbers.
-/
import proofs.«141667_g2000002524955183_pallasbulk_3_44_alg».proof.Proof.AttnSpecParams

noncomputable section

namespace Cert.Lib.LibFloatWords

open Idealize.ShloMosaic
open Cert.Lib.LibRealClosure
open Cert.Spec

/-- `0.0`. -/
theorem ofBits_zero : Ideal.ofBits .f32 0x00000000#32 = 0 := by
  simp [Ideal.ofBits, Ideal.ieee]

/-- `1.0`. -/
theorem ofBits_one : Ideal.ofBits .f32 0x3F800000#32 = 1 := by
  simp [Ideal.ofBits, Ideal.ieee, -EReal.coe_mul]; norm_num

/-- `0.5`. -/
theorem ofBits_half : Ideal.ofBits .f32 0x3F000000#32 = ((1 / 2 : ℝ) : EReal) := by
  simp [Ideal.ofBits, Ideal.ieee, -EReal.coe_mul]; norm_num

/-- The attention scale, the float nearest `1/√32`: `11863283 · 2^(-26)`. -/
theorem ofBits_scale : Ideal.ofBits .f32 0x3E3504F3#32 = ((11863283 / 67108864 : ℝ) : EReal) := by
  simp [Ideal.ofBits, Ideal.ieee, -EReal.coe_mul]; norm_num

/-- The normalisation's epsilon, the float nearest `10^(-5)`: `10995116 · 2^(-40)`. -/
theorem ofBits_epsLn : Ideal.ofBits .f32 0x3727C5AC#32 = ((10995116 / 1099511627776 : ℝ) : EReal) := by
  simp [Ideal.ofBits, Ideal.ieee, -EReal.coe_mul]; norm_num

/-- The activation's cubic coefficient, the float nearest `0.044715`: `12003091 · 2^(-28)`. -/
theorem ofBits_gk : Ideal.ofBits .f32 0x3D372713#32 = ((12003091 / 268435456 : ℝ) : EReal) := by
  simp [Ideal.ofBits, Ideal.ieee, -EReal.coe_mul]; norm_num

/-- The activation's `√(2/π)`, as a float: `13386282 · 2^(-24)`. -/
theorem ofBits_gc : Ideal.ofBits .f32 0x3F4C422A#32 = ((13386282 / 16777216 : ℝ) : EReal) := by
  simp [Ideal.ofBits, Ideal.ieee, -EReal.coe_mul]; norm_num

/-- The heads' additive constant, the float nearest `10^(-8)`: `11258999 · 2^(-50)`. -/
theorem ofBits_epsZ : Ideal.ofBits .f32 0x322BCC77#32 = ((11258999 / 1125899906842624 : ℝ) : EReal) := by
  simp [Ideal.ofBits, Ideal.ieee, -EReal.coe_mul]; norm_num

/-- The mask's fill value, `-10^9` exactly. -/
theorem ofBits_negBig : Ideal.ofBits .f32 0xCE6E6B28#32 = ((-1000000000 : ℝ) : EReal) := by
  simp [Ideal.ofBits, Ideal.ieee, -EReal.coe_mul]; norm_num

/-- The float `-∞`, the bottom element: the start of a maximum. -/
theorem ofBits_negInf : Ideal.ofBits .f32 0xFF800000#32 = ⊥ := by
  simp [Ideal.ofBits, Ideal.ieee]

/-- `1/256` and `256`. -/
theorem ofBits_inv256 : Ideal.ofBits .f32 0x3B800000#32 = ((1 / 256 : ℝ) : EReal) := by
  simp [Ideal.ofBits, Ideal.ieee, -EReal.coe_mul]; norm_num
theorem ofBits_256 : Ideal.ofBits .f32 0x43800000#32 = ((256 : ℝ) : EReal) := by
  simp [Ideal.ofBits, Ideal.ieee, -EReal.coe_mul]; norm_num

/-- The constants of a layer, as the two programs spell them. -/
def theConsts : Consts where
  scale := Ideal.ofBits .f32 0x3E3504F3#32
  epsLn := Ideal.ofBits .f32 0x3727C5AC#32
  cInv := Ideal.ofBits .f32 0x3B800000#32
  cN := Ideal.ofBits .f32 0x43800000#32
  half := Ideal.ofBits .f32 0x3F000000#32
  gk := Ideal.ofBits .f32 0x3D372713#32
  gc := Ideal.ofBits .f32 0x3F4C422A#32
  one := Ideal.ofBits .f32 0x3F800000#32

/-- They are real, the epsilon positive, and the width is `256`. -/
theorem theConsts_real : theConsts.Real 256 where
  scale := ⟨_, ofBits_scale⟩
  epsLn_pos := ⟨_, by norm_num, ofBits_epsLn⟩
  n_pos := by norm_num
  cInv := ofBits_inv256
  cN := ofBits_256
  half := ⟨_, ofBits_half⟩
  gk := ⟨_, ofBits_gk⟩
  gc := ⟨_, ofBits_gc⟩
  one := ⟨1, ofBits_one.trans EReal.coe_one.symm⟩

/-- The mask's fill value and the heads' constant are real. -/
theorem isReal_negBig : IsReal (Ideal.ofBits .f32 0xCE6E6B28#32) := ⟨_, ofBits_negBig⟩
theorem isReal_epsZ : IsReal (Ideal.ofBits .f32 0x322BCC77#32) := ⟨_, ofBits_epsZ⟩

end Cert.Lib.LibFloatWords

end
-- ==== Proof.NetDefs.lean ====
/-
  The two programs' argument arrays as tables of extended reals, the layers' parameters and the input
  table read off them, and the two values both programs are to compute at every entry.

  The arguments, in order: the two input blocks `[128, 8, 8192]` (of which only the first time step
  is read), the positional table, the four tables of the output heads, and the 21 tables of each of
  the two layers. Shapes are written as literals so that either program's arrays fit.
-/
import proofs.«141667_g2000002524955183_pallasbulk_3_44_alg».proof.Proof.AttnSpecRef
import proofs.«141667_g2000002524955183_pallasbulk_3_44_alg».proof.Proof.AttnSpecHeads
import proofs.«141667_g2000002524955183_pallasbulk_3_44_alg».proof.Proof.LibFloatWords
import Idealize.ShloMosaic.Lib.ValueIdx

noncomputable section

namespace Cert.Net

open Idealize.ShloMosaic Idealize.ShloMosaic.ValueIdx
open Cert.Spec Cert.Lib.LibFloatWords Cert.Lib.LibHeadSplit Cert.Lib.LibRealClosure
open scoped BigOperators

/-- The 49 argument arrays. -/
structure ArgTabs where
  /-- t1 -/
  a0 : (⟨3, ![128, 8, 8192]⟩ : Shape).Idx → EReal
  /-- t2 -/
  a1 : (⟨3, ![128, 8, 8192]⟩ : Shape).Idx → EReal
  /-- pe -/
  a2 : (⟨2, ![64, 256]⟩ : Shape).Idx → EReal
  /-- wlt -/
  a3 : (⟨2, ![256, 16]⟩ : Shape).Idx → EReal
  /-- bl -/
  a4 : (⟨2, ![1, 16]⟩ : Shape).Idx → EReal
  /-- wst -/
  a5 : (⟨2, ![256, 16]⟩ : Shape).Idx → EReal
  /-- bs -/
  a6 : (⟨2, ![1, 16]⟩ : Shape).Idx → EReal
  /-- l0_qe -/
  a7 : (⟨2, ![64, 128]⟩ : Shape).Idx → EReal
  /-- l0_ke -/
  a8 : (⟨2, ![64, 128]⟩ : Shape).Idx → EReal
  /-- l0_ve -/
  a9 : (⟨2, ![64, 128]⟩ : Shape).Idx → EReal
  /-- l0_w0 -/
  a10 : (⟨2, ![256, 128]⟩ : Shape).Idx → EReal
  /-- l0_b0 -/
  a11 : (⟨2, ![1, 128]⟩ : Shape).Idx → EReal
  /-- l0_wq -/
  a12 : (⟨2, ![256, 256]⟩ : Shape).Idx → EReal
  /-- l0_bq -/
  a13 : (⟨2, ![1, 256]⟩ : Shape).Idx → EReal
  /-- l0_wk -/
  a14 : (⟨2, ![256, 256]⟩ : Shape).Idx → EReal
  /-- l0_bk -/
  a15 : (⟨2, ![1, 256]⟩ : Shape).Idx → EReal
  /-- l0_wv -/
  a16 : (⟨2, ![256, 256]⟩ : Shape).Idx → EReal
  /-- l0_bv -/
  a17 : (⟨2, ![1, 256]⟩ : Shape).Idx → EReal
  /-- l0_wo -/
  a18 : (⟨2, ![256, 256]⟩ : Shape).Idx → EReal
  /-- l0_bo -/
  a19 : (⟨2, ![1, 256]⟩ : Shape).Idx → EReal
  /-- l0_g1 -/
  a20 : (⟨2, ![1, 256]⟩ : Shape).Idx → EReal
  /-- l0_be1 -/
  a21 : (⟨2, ![1, 256]⟩ : Shape).Idx → EReal
  /-- l0_w1 -/
  a22 : (⟨2, ![256, 256]⟩ : Shape).Idx → EReal
  /-- l0_b1 -/
  a23 : (⟨2, ![1, 256]⟩ : Shape).Idx → EReal
  /-- l0_w2 -/
  a24 : (⟨2, ![256, 256]⟩ : Shape).Idx → EReal
  /-- l0_b2 -/
  a25 : (⟨2, ![1, 256]⟩ : Shape).Idx → EReal
  /-- l0_g2 -/
  a26 : (⟨2, ![1, 256]⟩ : Shape).Idx → EReal
  /-- l0_be2 -/
  a27 : (⟨2, ![1, 256]⟩ : Shape).Idx → EReal
  /-- l1_qe -/
  a28 : (⟨2, ![64, 128]⟩ : Shape).Idx → EReal
  /-- l1_ke -/
  a29 : (⟨2, ![64, 128]⟩ : Shape).Idx → EReal
  /-- l1_ve -/
  a30 : (⟨2, ![64, 128]⟩ : Shape).Idx → EReal
  /-- l1_w0 -/
  a31 : (⟨2, ![256, 128]⟩ : Shape).Idx → EReal
  /-- l1_b0 -/
  a32 : (⟨2, ![1, 128]⟩ : Shape).Idx → EReal
  /-- l1_wq -/
  a33 : (⟨2, ![256, 256]⟩ : Shape).Idx → EReal
  /-- l1_bq -/
  a34 : (⟨2, ![1, 256]⟩ : Shape).Idx → EReal
  /-- l1_wk -/
  a35 : (⟨2, ![256, 256]⟩ : Shape).Idx → EReal
  /-- l1_bk -/
  a36 : (⟨2, ![1, 256]⟩ : Shape).Idx → EReal
  /-- l1_wv -/
  a37 : (⟨2, ![256, 256]⟩ : Shape).Idx → EReal
  /-- l1_bv -/
  a38 : (⟨2, ![1, 256]⟩ : Shape).Idx → EReal
  /-- l1_wo -/
  a39 : (⟨2, ![256, 256]⟩ : Shape).Idx → EReal
  /-- l1_bo -/
  a40 : (⟨2, ![1, 256]⟩ : Shape).Idx → EReal
  /-- l1_g1 -/
  a41 : (⟨2, ![1, 256]⟩ : Shape).Idx → EReal
  /-- l1_be1 -/
  a42 : (⟨2, ![1, 256]⟩ : Shape).Idx → EReal
  /-- l1_w1 -/
  a43 : (⟨2, ![256, 256]⟩ : Shape).Idx → EReal
  /-- l1_b1 -/
  a44 : (⟨2, ![1, 256]⟩ : Shape).Idx → EReal
  /-- l1_w2 -/
  a45 : (⟨2, ![256, 256]⟩ : Shape).Idx → EReal
  /-- l1_b2 -/
  a46 : (⟨2, ![1, 256]⟩ : Shape).Idx → EReal
  /-- l1_g2 -/
  a47 : (⟨2, ![1, 256]⟩ : Shape).Idx → EReal
  /-- l1_be2 -/
  a48 : (⟨2, ![1, 256]⟩ : Shape).Idx → EReal

/-- Every entry of every argument is real. -/
structure ArgTabs.Real (A : ArgTabs) : Prop where
  r0 : ∀ i, IsReal (A.a0 i)
  r1 : ∀ i, IsReal (A.a1 i)
  r2 : ∀ i, IsReal (A.a2 i)
  r3 : ∀ i, IsReal (A.a3 i)
  r4 : ∀ i, IsReal (A.a4 i)
  r5 : ∀ i, IsReal (A.a5 i)
  r6 : ∀ i, IsReal (A.a6 i)
  r7 : ∀ i, IsReal (A.a7 i)
  r8 : ∀ i, IsReal (A.a8 i)
  r9 : ∀ i, IsReal (A.a9 i)
  r10 : ∀ i, IsReal (A.a10 i)
  r11 : ∀ i, IsReal (A.a11 i)
  r12 : ∀ i, IsReal (A.a12 i)
  r13 : ∀ i, IsReal (A.a13 i)
  r14 : ∀ i, IsReal (A.a14 i)
  r15 : ∀ i, IsReal (A.a15 i)
  r16 : ∀ i, IsReal (A.a16 i)
  r17 : ∀ i, IsReal (A.a17 i)
  r18 : ∀ i, IsReal (A.a18 i)
  r19 : ∀ i, IsReal (A.a19 i)
  r20 : ∀ i, IsReal (A.a20 i)
  r21 : ∀ i, IsReal (A.a21 i)
  r22 : ∀ i, IsReal (A.a22 i)
  r23 : ∀ i, IsReal (A.a23 i)
  r24 : ∀ i, IsReal (A.a24 i)
  r25 : ∀ i, IsReal (A.a25 i)
  r26 : ∀ i, IsReal (A.a26 i)
  r27 : ∀ i, IsReal (A.a27 i)
  r28 : ∀ i, IsReal (A.a28 i)
  r29 : ∀ i, IsReal (A.a29 i)
  r30 : ∀ i, IsReal (A.a30 i)
  r31 : ∀ i, IsReal (A.a31 i)
  r32 : ∀ i, IsReal (A.a32 i)
  r33 : ∀ i, IsReal (A.a33 i)
  r34 : ∀ i, IsReal (A.a34 i)
  r35 : ∀ i, IsReal (A.a35 i)
  r36 : ∀ i, IsReal (A.a36 i)
  r37 : ∀ i, IsReal (A.a37 i)
  r38 : ∀ i, IsReal (A.a38 i)
  r39 : ∀ i, IsReal (A.a39 i)
  r40 : ∀ i, IsReal (A.a40 i)
  r41 : ∀ i, IsReal (A.a41 i)
  r42 : ∀ i, IsReal (A.a42 i)
  r43 : ∀ i, IsReal (A.a43 i)
  r44 : ∀ i, IsReal (A.a44 i)
  r45 : ∀ i, IsReal (A.a45 i)
  r46 : ∀ i, IsReal (A.a46 i)
  r47 : ∀ i, IsReal (A.a47 i)
  r48 : ∀ i, IsReal (A.a48 i)

/-- The 21 tables of one layer. -/
structure LayerFns where
  qe : (⟨2, ![64, 128]⟩ : Shape).Idx → EReal
  ke : (⟨2, ![64, 128]⟩ : Shape).Idx → EReal
  ve : (⟨2, ![64, 128]⟩ : Shape).Idx → EReal
  w0 : (⟨2, ![256, 128]⟩ : Shape).Idx → EReal
  b0 : (⟨2, ![1, 128]⟩ : Shape).Idx → EReal
  wq : (⟨2, ![256, 256]⟩ : Shape).Idx → EReal
  bq : (⟨2, ![1, 256]⟩ : Shape).Idx → EReal
  wk : (⟨2, ![256, 256]⟩ : Shape).Idx → EReal
  bk : (⟨2, ![1, 256]⟩ : Shape).Idx → EReal
  wv : (⟨2, ![256, 256]⟩ : Shape).Idx → EReal
  bv : (⟨2, ![1, 256]⟩ : Shape).Idx → EReal
  wo : (⟨2, ![256, 256]⟩ : Shape).Idx → EReal
  bo : (⟨2, ![1, 256]⟩ : Shape).Idx → EReal
  g1 : (⟨2, ![1, 256]⟩ : Shape).Idx → EReal
  be1 : (⟨2, ![1, 256]⟩ : Shape).Idx → EReal
  w1 : (⟨2, ![256, 256]⟩ : Shape).Idx → EReal
  b1 : (⟨2, ![1, 256]⟩ : Shape).Idx → EReal
  w2 : (⟨2, ![256, 256]⟩ : Shape).Idx → EReal
  b2 : (⟨2, ![1, 256]⟩ : Shape).Idx → EReal
  g2 : (⟨2, ![1, 256]⟩ : Shape).Idx → EReal
  be2 : (⟨2, ![1, 256]⟩ : Shape).Idx → EReal

/-- The first and the second layer's tables among the arguments. -/
def L0 (A : ArgTabs) : LayerFns := ⟨A.a7, A.a8, A.a9, A.a10, A.a11, A.a12, A.a13, A.a14, A.a15, A.a16, A.a17, A.a18, A.a19, A.a20, A.a21, A.a22, A.a23, A.a24, A.a25, A.a26, A.a27⟩
def L1 (A : ArgTabs) : LayerFns := ⟨A.a28, A.a29, A.a30, A.a31, A.a32, A.a33, A.a34, A.a35, A.a36, A.a37, A.a38, A.a39, A.a40, A.a41, A.a42, A.a43, A.a44, A.a45, A.a46, A.a47, A.a48⟩

/-- The tables of a layer as the layer's parameters: a table is read at its two coordinates, a bias
    row at its one row, a projection weight's top rows at `j` and bottom rows at `128 + j`. -/
def paramsOf (T : LayerFns) : LayerParams (Fin 64) (Fin 128) 8 32 where
  qe s j := T.qe (ix2 s j)
  ke s j := T.ke (ix2 s j)
  ve s j := T.ve (ix2 s j)
  w0 e j := T.w0 (ix2 (e : Fin 256) j)
  b0 j := T.b0 (ix2 (0 : Fin 1) j)
  wqT j c := T.wq (ix2 (⟨j.val, by omega⟩ : Fin 256) (c : Fin 256))
  wqB j c := T.wq (ix2 (⟨128 + j.val, by omega⟩ : Fin 256) (c : Fin 256))
  bq c := T.bq (ix2 (0 : Fin 1) (c : Fin 256))
  wkT j c := T.wk (ix2 (⟨j.val, by omega⟩ : Fin 256) (c : Fin 256))
  wkB j c := T.wk (ix2 (⟨128 + j.val, by omega⟩ : Fin 256) (c : Fin 256))
  bk c := T.bk (ix2 (0 : Fin 1) (c : Fin 256))
  wvT j c := T.wv (ix2 (⟨j.val, by omega⟩ : Fin 256) (c : Fin 256))
  wvB j c := T.wv (ix2 (⟨128 + j.val, by omega⟩ : Fin 256) (c : Fin 256))
  bv c := T.bv (ix2 (0 : Fin 1) (c : Fin 256))
  wo j c := T.wo (ix2 (j : Fin 256) (c : Fin 256))
  bo c := T.bo (ix2 (0 : Fin 1) (c : Fin 256))
  g1 c := T.g1 (ix2 (0 : Fin 1) (c : Fin 256))
  be1 c := T.be1 (ix2 (0 : Fin 1) (c : Fin 256))
  w1 k c := T.w1 (ix2 (k : Fin 256) (c : Fin 256))
  b1 c := T.b1 (ix2 (0 : Fin 1) (c : Fin 256))
  w2 k c := T.w2 (ix2 (k : Fin 256) (c : Fin 256))
  b2 c := T.b2 (ix2 (0 : Fin 1) (c : Fin 256))
  g2 c := T.g2 (ix2 (0 : Fin 1) (c : Fin 256))
  be2 c := T.be2 (ix2 (0 : Fin 1) (c : Fin 256))

/-- The two layers' parameters. -/
def PA0 (A : ArgTabs) : LayerParams (Fin 64) (Fin 128) 8 32 := paramsOf (L0 A)
def PA1 (A : ArgTabs) : LayerParams (Fin 64) (Fin 128) 8 32 := paramsOf (L1 A)

/-- The constants, the mask and the heads' two words. -/
abbrev C : Consts := theConsts
def mask : Fin 64 → Fin 64 → EReal := causalMask (Ideal.ofBits .f32 0xCE6E6B28#32)
abbrev epsZ : EReal := Ideal.ofBits .f32 0x322BCC77#32
abbrev oneW : EReal := Ideal.ofBits .f32 0x3F800000#32

/-- The input table of batch row `b`: position `s` below 32 reads the first block's first time step,
    the others the second's, at lane `256 * s + e`; the positional table is added. -/
def XA (A : ArgTabs) (b : Fin 128) (s : Fin 64) (e : Fin (8 * 32)) : EReal :=
  (if h : s.val < 32 then A.a0 (ix3 b (0 : Fin 8) (⟨256 * s.val + e.val, by omega⟩ : Fin 8192))
    else A.a1 (ix3 b (0 : Fin 8) (⟨256 * (s.val - 32) + e.val, by omega⟩ : Fin 8192))) + A.a2 (ix2 s (e : Fin 256))

/-- The output heads' tables. -/
def wlA (A : ArgTabs) (k : Fin (8 * 32)) (z : Fin 16) : EReal := A.a3 (ix2 (k : Fin 256) z)
def blA (A : ArgTabs) (z : Fin 16) : EReal := A.a4 (ix2 (0 : Fin 1) z)
def wsA (A : ArgTabs) (k : Fin (8 * 32)) (z : Fin 16) : EReal := A.a5 (ix2 (k : Fin 256) z)
def bsA (A : ArgTabs) (z : Fin 16) : EReal := A.a6 (ix2 (0 : Fin 1) z)

/-- The encoder's result on batch row `b`: two layers in the textbook order. -/
def encOf (A : ArgTabs) (b : Fin 128) : Fin 64 → Fin (8 * 32) → EReal :=
  Ref.layer C (PA1 A) mask (Ref.layer C (PA0 A) mask (XA A b))

/-- The two values at entry `(b, s, z)`. -/
def locOf (A : ArgTabs) (b : Fin 128) (s : Fin 64) (z : Fin 16) : EReal :=
  Heads.refLoc epsZ (wlA A) (blA A) (encOf A b) s z
def sclOf (A : ArgTabs) (b : Fin 128) (s : Fin 64) (z : Fin 16) : EReal :=
  Heads.refScl oneW epsZ (wsA A) (bsA A) (encOf A b) s z

/-- Real arguments give real parameters, a real input table and a real mask. -/
theorem PA0_real (A : ArgTabs) (hA : A.Real) : (PA0 A).Real where
  qe := fun _ _ => hA.r7 _
  ke := fun _ _ => hA.r8 _
  ve := fun _ _ => hA.r9 _
  w0 := fun _ _ => hA.r10 _
  b0 := fun _ => hA.r11 _
  wqT := fun _ _ => hA.r12 _
  wqB := fun _ _ => hA.r12 _
  bq := fun _ => hA.r13 _
  wkT := fun _ _ => hA.r14 _
  wkB := fun _ _ => hA.r14 _
  bk := fun _ => hA.r15 _
  wvT := fun _ _ => hA.r16 _
  wvB := fun _ _ => hA.r16 _
  bv := fun _ => hA.r17 _
  wo := fun _ _ => hA.r18 _
  bo := fun _ => hA.r19 _
  g1 := fun _ => hA.r20 _
  be1 := fun _ => hA.r21 _
  w1 := fun _ _ => hA.r22 _
  b1 := fun _ => hA.r23 _
  w2 := fun _ _ => hA.r24 _
  b2 := fun _ => hA.r25 _
  g2 := fun _ => hA.r26 _
  be2 := fun _ => hA.r27 _

theorem PA1_real (A : ArgTabs) (hA : A.Real) : (PA1 A).Real where
  qe := fun _ _ => hA.r28 _
  ke := fun _ _ => hA.r29 _
  ve := fun _ _ => hA.r30 _
  w0 := fun _ _ => hA.r31 _
  b0 := fun _ => hA.r32 _
  wqT := fun _ _ => hA.r33 _
  wqB := fun _ _ => hA.r33 _
  bq := fun _ => hA.r34 _
  wkT := fun _ _ => hA.r35 _
  wkB := fun _ _ => hA.r35 _
  bk := fun _ => hA.r36 _
  wvT := fun _ _ => hA.r37 _
  wvB := fun _ _ => hA.r37 _
  bv := fun _ => hA.r38 _
  wo := fun _ _ => hA.r39 _
  bo := fun _ => hA.r40 _
  g1 := fun _ => hA.r41 _
  be1 := fun _ => hA.r42 _
  w1 := fun _ _ => hA.r43 _
  b1 := fun _ => hA.r44 _
  w2 := fun _ _ => hA.r45 _
  b2 := fun _ => hA.r46 _
  g2 := fun _ => hA.r47 _
  be2 := fun _ => hA.r48 _

theorem XA_real (A : ArgTabs) (hA : A.Real) (b : Fin 128) (s : Fin 64) (e : Fin (8 * 32)) :
    IsReal (XA A b s e) := by
  unfold XA
  split
  · exact (hA.r0 _).add (hA.r2 _)
  · exact (hA.r1 _).add (hA.r2 _)

theorem mask_real (s t : Fin 64) : IsReal (mask s t) := isReal_causalMask isReal_negBig s t

end Cert.Net

end
-- ==== Proof.KerPay14_16.lean ====
/-
  The input relayout of the fused kernel, read at an index.

  Two blocks of shape [32, 1, 8192] are each viewed as [32, 32, 256] (row-major: lane 256 * s + e of batch b is
  entry (b, s, e)), stacked along axis 1 into [32, 64, 256], a positional table [64, 256] is added to every batch,
  and the sum is viewed as [2048, 256] (row 64 * b + s is entry (b, s)).
-/
import proofs.«141667_g2000002524955183_pallasbulk_3_44_alg».proof.Proof.Gen.KernelIdeal.Skeleton
import Idealize.ShloMosaic.Lib.ValueIdx
import Idealize.ShloMosaic.Lib.ValueLayout
import Idealize.ShloMosaic.Lib.Pipeline.Value

noncomputable section

namespace Cert.KernelIdeal.Read

open Idealize.ShloMosaic Idealize.ShloMosaic.ValueIdx Cert.KernelIdeal

/-- A [32, 1, 8192] block viewed as [32, 32, 256] reads, at (b, s, e), lane 256 * s + e of batch b. -/
theorem relayout_apply (x : Vec Ideal S32x1x8192 .f32) (b : Fin 32) (s : Fin 32) (e : Fin 256) :
    shapeCast S32x32x256 (shapeCast S32x8192 x Gen.shapeCasts_S32x1x8192_S32x8192) Gen.shapeCasts_S32x8192_S32x32x256 (ix3 b s e)
      = x (ix3 b (0 : Fin 1) (⟨256 * s.val + e.val, by omega⟩ : Fin 8192)) := by
  refine (shapeCast_apply _ _ (ix3 b s e) (ix2 b (⟨256 * s.val + e.val, by omega⟩ : Fin 8192)) ?_).trans ?_
  · rw [Shape.rowMajor_val_three, Shape.rowMajor_val_two]
    show b.val * 8192 + (256 * s.val + e.val) = (b.val * 32 + s.val) * 256 + e.val
    omega
  · refine shapeCast_apply _ _ _ _ ?_
    rw [Shape.rowMajor_val_three, Shape.rowMajor_val_two]
    show (b.val * 1 + 0) * 8192 + (256 * s.val + e.val) = b.val * 8192 + (256 * s.val + e.val)
    omega

/-- The two relaid blocks stacked along axis 1: rows below 32 come from the first, the others from the second. -/
theorem pay14_apply (a b : Vec Ideal S32x1x8192 .f32) (bi : Fin 32) (s : Fin 64) (e : Fin 256) :
    Gen.k0_pay14 a b (ix3 bi s e)
      = if h : s.val < 32 then a (ix3 bi (0 : Fin 1) (⟨256 * s.val + e.val, by omega⟩ : Fin 8192))
        else b (ix3 bi (0 : Fin 1) (⟨256 * (s.val - 32) + e.val, by omega⟩ : Fin 8192)) := by
  unfold Gen.k0_pay14
  by_cases hs : s.val < 32
  · rw [dif_pos hs]
    refine (concatenate_pair_apply_left (t := S32x64x256) (s₁ := S32x32x256) (s₂ := S32x32x256) 1 _ _ _
      (ix3 bi s e) rfl (ix3 bi (⟨s.val, hs⟩ : Fin 32) e) ?_).trans ?_
    · intro c
      match c with
      | ⟨0, _⟩ => rfl
      | ⟨1, _⟩ => rfl
      | ⟨2, _⟩ => rfl
    · exact relayout_apply a bi ⟨s.val, hs⟩ e
  · rw [dif_neg hs]
    refine (concatenate_pair_apply_right (t := S32x64x256) (s₁ := S32x32x256) (s₂ := S32x32x256) 1 _ _ _
      (ix3 bi s e) rfl rfl (ix3 bi (⟨s.val - 32, by omega⟩ : Fin 32) e) ?_ ?_).trans ?_
    · intro c hc
      match c with
      | ⟨0, _⟩ => rfl
      | ⟨1, _⟩ => exact absurd rfl hc
      | ⟨2, _⟩ => rfl
    · show (s.val - 32) + 32 = s.val
      omega
    · exact relayout_apply b bi ⟨s.val - 32, by omega⟩ e

/-- The positional table with a leading unit axis. -/
theorem pay15_apply (pe : Vec Ideal S64x256 .f32) (u : Fin 1) (s : Fin 64) (e : Fin 256) :
    Gen.k0_pay15 pe (ix3 u s e) = pe (ix2 s e) := by
  unfold Gen.k0_pay15
  exact shapeCast_ab_1ab_apply pe _ u s e

/-- The table is added to every batch and the sum is flattened: row 64 * b + s, column e. -/
theorem pay16_apply (v102 : FVec Ideal S32x64x256 .f32) (v104 : FVec Ideal S1x64x256 .f32)
    (bi : Fin 32) (s : Fin 64) (e : Fin 256) :
    Gen.k0_pay16 v102 v104 (ix2 (⟨64 * bi.val + s.val, by omega⟩ : Fin 2048) e)
      = v102 (ix3 bi s e) + v104 (ix3 (0 : Fin 1) s e) := by
  unfold Gen.k0_pay16
  refine (shapeCast_apply _ _ _ (ix3 bi s e) ?_).trans ?_
  · rw [Shape.rowMajor_val_three, Shape.rowMajor_val_two]
    show (bi.val * 64 + s.val) * 256 + e.val = (64 * bi.val + s.val) * 256 + e.val
    omega
  · refine (addf_apply _ _ _).trans ?_
    congr 1
    refine broadcastTo_apply _ _ _ (ix3 (0 : Fin 1) s e) ?_
    intro c
    match c with
    | ⟨0, _⟩ => rfl
    | ⟨1, _⟩ => rfl
    | ⟨2, _⟩ => rfl

/-- THE INPUT RELAYOUT: row 64 * b + s of the kernel's input matrix is the row s of the stacked blocks of batch b
    plus row s of the positional table. -/
theorem input_apply (a b : Vec Ideal S32x1x8192 .f32) (pe : Vec Ideal S64x256 .f32)
    (bi : Fin 32) (s : Fin 64) (e : Fin 256) :
    Gen.k0_pay16 (Gen.k0_pay14 a b) (Gen.k0_pay15 pe) (ix2 (⟨64 * bi.val + s.val, by omega⟩ : Fin 2048) e)
      = (if h : s.val < 32 then a (ix3 bi (0 : Fin 1) (⟨256 * s.val + e.val, by omega⟩ : Fin 8192))
         else b (ix3 bi (0 : Fin 1) (⟨256 * (s.val - 32) + e.val, by omega⟩ : Fin 8192))) + pe (ix2 s e) := by
  rw [pay16_apply, pay14_apply, pay15_apply]

end Cert.KernelIdeal.Read

end
-- ==== Proof.LibMatmulAt.lean ====
/-
  A matrix product into a zero accumulator read at ONE output index, for operands and a result of any rank (batched
  products included).

  For a dot with one contracted axis of extent `K`, the product accumulated into the zero splat is, at the extended
  reals, the textbook sum: at the output index `j` it is the sum over `k` of the left operand at `L k` times the right
  operand at `R k`, where `L k` and `R k` are the two operand indices the dimension numbers assign to `j` and the
  contraction coordinate `k`. The dimension numbers enter only through those two facts and through the one contracted
  axis having extent `K`; so the lemma serves plain, transposed and batched products alike, and is general in the
  shapes, the element types and the contraction precision.
-/
import Idealize.ShloMosaic.PureOps.Ideal.Laws
import Idealize.ShloMosaic.Lib.ValueIdx

noncomputable section

namespace Cert.LibMatmulAt

open Idealize.ShloMosaic Idealize.ShloMosaic.ValueIdx
open scoped BigOperators

/-- At the output index `j` a product accumulated into zero is `Σ k, lhs (L k) · rhs (R k)`: the dot's sum over its
    one-axis contraction index, re-indexed along the bijection of that index with `Fin K`, each operand index then
    named by the two given facts. -/
theorem matmul_zero_at {sl sr so : Shape} {K : ℕ} {φ₁ φ₂ : FTy}
    (D : DotDims sl sr so) (prec : Option ContractPrecision)
    (hr : D.contr.rank = 1) (hs : D.contr.size ⟨0, by omega⟩ = K)
    (j : so.Idx) (L : Fin K → sl.Idx) (R : Fin K → sr.Idx)
    (hl : ∀ (q : D.contr.Idx) (k : Fin K), (q ⟨0, by omega⟩).val = k.val → D.lhsIdx j q = L k)
    (hrr : ∀ (q : D.contr.Idx) (k : Fin K), (q ⟨0, by omega⟩).val = k.val → D.rhsIdx j q = R k)
    (lhs : FVec Ideal sl φ₁) (rhs : FVec Ideal sr φ₂) :
    matmul D prec lhs rhs (constant so .f32 0x00000000#32) j = ∑ k : Fin K, lhs (L k) * rhs (R k) := by
  simp only [matmul]
  rw [Ideal.matmul_constant_zero_apply, ← Equiv.sum_comp (contrEquiv1 D K hr hs).symm]
  refine Finset.sum_congr rfl fun k _ => ?_
  have hk := contrEquiv1_symm_val D K hr hs k
  rw [hl _ k hk, hrr _ k hk]

end Cert.LibMatmulAt

end
-- ==== Proof.KerProjLib.lean ====
/-
  The collapsed projection weights and biases of the fused kernel, read at an entry.

  Each projection of the reference applies a 256 x 256 weight W to the concatenation [x, t] of the 128 input features
  and a 128-feature time embedding that does not depend on the batch. The kernel folds the input embedding into the top
  half of W once: the effective weight is w * W[0:128, :] (w the 256 x 128 embedding weight), and the effective bias of
  row s is m * W[0:128, :] + t_s * W[128:256, :] + bias (m the embedding's bias row, t_s row s of the time table).
  Two of the six pairs carry the attention scale word 0x3E3504F3 as a last factor.
-/
import proofs.«141667_g2000002524955183_pallasbulk_3_44_alg».proof.Proof.Gen.KernelIdeal.Skeleton
import proofs.«141667_g2000002524955183_pallasbulk_3_44_alg».proof.Proof.LibMatmulAt
import Idealize.ShloMosaic.Lib.ValueIdx
import Idealize.ShloMosaic.Lib.ValueLayout
import Idealize.ShloMosaic.Lib.Pipeline.Value

noncomputable section

namespace Cert.KernelIdeal.Read

open Idealize.ShloMosaic Idealize.ShloMosaic.ValueIdx Cert.KernelIdeal Cert.KernelIdeal.Gen
open scoped BigOperators

/-- One coordinate of an operand index of a dot, against the coordinate named for it. -/
local macro "dot_coord" D:ident h:ident : tactic =>
  `(tactic| (apply Fin.ext; simp [DotDims.lhsIdx, DotDims.rhsIdx, $D:ident] <;> first | rfl | exact $h))

/-! ## The three products into a zero accumulator, at an entry -/

/-- [256, 128] times [128, 256]. -/
theorem dotW_at (lhs : FVec Ideal S256x128 .f32) (rhs : FVec Ideal S128x256 .f32) (p c : Fin 256) :
    matmul dot_S256x128_S128x256_S256x256_1_0_0_1_n_n none lhs rhs (constant S256x256 .f32 0x00000000#32) (ix2 p c)
      = ∑ k : Fin 128, lhs (ix2 p k) * rhs (ix2 k c) := by
  refine Cert.LibMatmulAt.matmul_zero_at (K := 128) dot_S256x128_S128x256_S256x256_1_0_0_1_n_n none rfl rfl (ix2 p c)
    (fun k => ix2 p k) (fun k => ix2 k c) ?_ ?_ lhs rhs
  · intro q k hq
    funext a
    match a with
    | ⟨0, _⟩ => dot_coord dot_S256x128_S128x256_S256x256_1_0_0_1_n_n hq
    | ⟨1, _⟩ => dot_coord dot_S256x128_S128x256_S256x256_1_0_0_1_n_n hq
  · intro q k hq
    funext a
    match a with
    | ⟨0, _⟩ => dot_coord dot_S256x128_S128x256_S256x256_1_0_0_1_n_n hq
    | ⟨1, _⟩ => dot_coord dot_S256x128_S128x256_S256x256_1_0_0_1_n_n hq

/-- [1, 128] times [128, 256]. -/
theorem dotM_at (lhs : FVec Ideal S1x128 .f32) (rhs : FVec Ideal S128x256 .f32) (u : Fin 1) (c : Fin 256) :
    matmul dot_S1x128_S128x256_S1x256_1_0_0_1_n_n none lhs rhs (constant S1x256 .f32 0x00000000#32) (ix2 u c)
      = ∑ k : Fin 128, lhs (ix2 u k) * rhs (ix2 k c) := by
  refine Cert.LibMatmulAt.matmul_zero_at (K := 128) dot_S1x128_S128x256_S1x256_1_0_0_1_n_n none rfl rfl (ix2 u c)
    (fun k => ix2 u k) (fun k => ix2 k c) ?_ ?_ lhs rhs
  · intro q k hq
    funext a
    match a with
    | ⟨0, _⟩ => dot_coord dot_S1x128_S128x256_S1x256_1_0_0_1_n_n hq
    | ⟨1, _⟩ => dot_coord dot_S1x128_S128x256_S1x256_1_0_0_1_n_n hq
  · intro q k hq
    funext a
    match a with
    | ⟨0, _⟩ => dot_coord dot_S1x128_S128x256_S1x256_1_0_0_1_n_n hq
    | ⟨1, _⟩ => dot_coord dot_S1x128_S128x256_S1x256_1_0_0_1_n_n hq

/-- [64, 128] times [128, 256]. -/
theorem dotT_at (lhs : FVec Ideal S64x128 .f32) (rhs : FVec Ideal S128x256 .f32) (s : Fin 64) (c : Fin 256) :
    matmul dot_S64x128_S128x256_S64x256_1_0_0_1_n_n none lhs rhs (constant S64x256 .f32 0x00000000#32) (ix2 s c)
      = ∑ k : Fin 128, lhs (ix2 s k) * rhs (ix2 k c) := by
  refine Cert.LibMatmulAt.matmul_zero_at (K := 128) dot_S64x128_S128x256_S64x256_1_0_0_1_n_n none rfl rfl (ix2 s c)
    (fun k => ix2 s k) (fun k => ix2 k c) ?_ ?_ lhs rhs
  · intro q k hq
    funext a
    match a with
    | ⟨0, _⟩ => dot_coord dot_S64x128_S128x256_S64x256_1_0_0_1_n_n hq
    | ⟨1, _⟩ => dot_coord dot_S64x128_S128x256_S64x256_1_0_0_1_n_n hq
  · intro q k hq
    funext a
    match a with
    | ⟨0, _⟩ => dot_coord dot_S64x128_S128x256_S64x256_1_0_0_1_n_n hq
    | ⟨1, _⟩ => dot_coord dot_S64x128_S128x256_S64x256_1_0_0_1_n_n hq

/-! ## The two halves of the weight -/

/-- The top half of the weight: row k of the slice is row k of the weight. -/
theorem top_apply (W : FVec Ideal S256x256 .f32) (k : Fin 128) (c : Fin 256) :
    extractStridedSlice S128x256 ![0, 0] W slices_S256x256_o0_0_S128x256 (ix2 k c)
      = W (ix2 (⟨k.val, by omega⟩ : Fin 256) c) :=
  slice2_axis0_apply 0 W _ k c _ (Nat.zero_add _).symm

/-- The bottom half of the weight: row k of the slice is row 128 + k of the weight. -/
theorem bot_apply (W : FVec Ideal S256x256 .f32) (k : Fin 128) (c : Fin 256) :
    extractStridedSlice S128x256 ![128, 0] W slices_S256x256_o128_0_S128x256 (ix2 k c)
      = W (ix2 (⟨128 + k.val, by omega⟩ : Fin 256) c) :=
  slice2_axis0_apply 128 W _ k c _ rfl

/-! ## The effective weight and the effective bias, before the scale -/

/-- The effective weight: the embedding weight times the top half of the projection weight. -/
theorem weff_apply (w : FVec Ideal S256x128 .f32) (W : FVec Ideal S256x256 .f32) (p c : Fin 256) :
    matmul dot_S256x128_S128x256_S256x256_1_0_0_1_n_n none w
        (extractStridedSlice S128x256 ![0, 0] W slices_S256x256_o0_0_S128x256) (constant S256x256 .f32 0x00000000#32) (ix2 p c)
      = ∑ k : Fin 128, w (ix2 p k) * W (ix2 (⟨k.val, by omega⟩ : Fin 256) c) := by
  refine (dotW_at w _ p c).trans (Finset.sum_congr rfl fun k _ => ?_)
  exact congrArg (fun x => w (ix2 p k) * x) (top_apply W k c)

/-- The effective bias of row s: the embedding's bias row through the top half, plus row s of the time table through
    the bottom half, plus the projection's bias. -/
theorem beff_apply (m : FVec Ideal S1x128 .f32) (W : FVec Ideal S256x256 .f32) (t : FVec Ideal S64x128 .f32)
    (bias : FVec Ideal S1x256 .f32) (s : Fin 64) (c : Fin 256) :
    addf (addf
        (broadcastTo S64x256 (matmul dot_S1x128_S128x256_S1x256_1_0_0_1_n_n none m
          (extractStridedSlice S128x256 ![0, 0] W slices_S256x256_o0_0_S128x256) (constant S1x256 .f32 0x00000000#32))
          broadcasts_S1x256_S64x256)
        (matmul dot_S64x128_S128x256_S64x256_1_0_0_1_n_n none t
          (extractStridedSlice S128x256 ![128, 0] W slices_S256x256_o128_0_S128x256) (constant S64x256 .f32 0x00000000#32)))
        (broadcastTo S64x256 bias broadcasts_S1x256_S64x256) (ix2 s c)
      = (∑ k : Fin 128, m (ix2 (0 : Fin 1) k) * W (ix2 (⟨k.val, by omega⟩ : Fin 256) c))
        + (∑ k : Fin 128, t (ix2 s k) * W (ix2 (⟨128 + k.val, by omega⟩ : Fin 256) c))
        + bias (ix2 (0 : Fin 1) c) := by
  refine (addf_apply _ _ _).trans ?_
  congr 1
  · refine (addf_apply _ _ _).trans ?_
    congr 1
    · refine (broadcastTo_1b_ab_apply _ _ s c).trans ?_
      refine (dotM_at m _ 0 c).trans (Finset.sum_congr rfl fun k _ => ?_)
      exact congrArg (fun x => m (ix2 (0 : Fin 1) k) * x) (top_apply W k c)
    · refine (dotT_at t _ s c).trans (Finset.sum_congr rfl fun k _ => ?_)
      exact congrArg (fun x => t (ix2 s k) * x) (bot_apply W k c)
  · exact broadcastTo_1b_ab_apply _ _ s c

end Cert.KernelIdeal.Read

end
-- ==== Proof.KerPay2_13.lean ====
/-
  The six collapsed projections of the fused kernel (query, key, value of each of the two layers), read at an entry:
  for each, the effective weight (a [256, 256] table in the narrow format, the same extended real) and the effective bias
  (a [64, 256] table, one row per sequence position). The two query projections carry the attention scale word
  0x3E3504F3 as a last factor.
-/
import proofs.«141667_g2000002524955183_pallasbulk_3_44_alg».proof.Proof.KerProjLib

noncomputable section

namespace Cert.KernelIdeal.Read

open Idealize.ShloMosaic Idealize.ShloMosaic.ValueIdx Cert.KernelIdeal Cert.KernelIdeal.Gen
open scoped BigOperators

/-! ## Layer 1 -/

/-- An effective bias carrying the attention scale: the embedding's bias row through the top half of the weight, row s of the time table through the
    bottom half, and the projection's bias, times the scale. -/
theorem pay2_apply (v1 : Vec Ideal S1x128 .f32) (v2 : Vec Ideal S256x256 .f32) (v7 : Vec Ideal S64x128 .f32)
    (v12 : Vec Ideal S1x256 .f32) (s : Fin 64) (c : Fin 256) :
    Gen.k0_pay2 v1 v2 v7 v12 (ix2 s c)
      = ((∑ k : Fin 128, v1 (ix2 (0 : Fin 1) k) * v2 (ix2 (⟨k.val, by omega⟩ : Fin 256) c))
        + (∑ k : Fin 128, v7 (ix2 s k) * v2 (ix2 (⟨128 + k.val, by omega⟩ : Fin 256) c))
        + v12 (ix2 (0 : Fin 1) c)) * Ideal.ofBits .f32 0x3E3504F3#32 := by
  unfold Gen.k0_pay2
  exact congrArg (fun x => x * Ideal.ofBits .f32 0x3E3504F3#32) (beff_apply v1 v2 v7 v12 s c)

/-- An effective weight carrying the attention scale: the embedding weight times the top half of the projection weight, times the scale. -/
theorem pay3_apply (v0 : Vec Ideal S256x128 .f32) (v2 : Vec Ideal S256x256 .f32) (p c : Fin 256) :
    Gen.k0_pay3 v0 v2 (ix2 p c)
      = (∑ k : Fin 128, v0 (ix2 p k) * v2 (ix2 (⟨k.val, by omega⟩ : Fin 256) c)) * Ideal.ofBits .f32 0x3E3504F3#32 := by
  unfold Gen.k0_pay3
  exact congrArg (fun x => x * Ideal.ofBits .f32 0x3E3504F3#32) (weff_apply v0 v2 p c)

/-- An effective bias: the embedding's bias row through the top half of the weight, row s of the time table through the
    bottom half, and the projection's bias. -/
theorem pay4_apply (v1 : Vec Ideal S1x128 .f32) (v20 : Vec Ideal S256x256 .f32) (v25 : Vec Ideal S64x128 .f32)
    (v30 : Vec Ideal S1x256 .f32) (s : Fin 64) (c : Fin 256) :
    Gen.k0_pay4 v1 v20 v25 v30 (ix2 s c)
      = (∑ k : Fin 128, v1 (ix2 (0 : Fin 1) k) * v20 (ix2 (⟨k.val, by omega⟩ : Fin 256) c))
        + (∑ k : Fin 128, v25 (ix2 s k) * v20 (ix2 (⟨128 + k.val, by omega⟩ : Fin 256) c))
        + v30 (ix2 (0 : Fin 1) c) := by
  unfold Gen.k0_pay4
  exact beff_apply v1 v20 v25 v30 s c

/-- An effective weight: the embedding weight times the top half of the projection weight. -/
theorem pay5_apply (v0 : Vec Ideal S256x128 .f32) (v20 : Vec Ideal S256x256 .f32) (p c : Fin 256) :
    Gen.k0_pay5 v0 v20 (ix2 p c)
      = ∑ k : Fin 128, v0 (ix2 p k) * v20 (ix2 (⟨k.val, by omega⟩ : Fin 256) c) := by
  unfold Gen.k0_pay5
  exact weff_apply v0 v20 p c

/-- An effective bias: the embedding's bias row through the top half of the weight, row s of the time table through the
    bottom half, and the projection's bias. -/
theorem pay6_apply (v1 : Vec Ideal S1x128 .f32) (v34 : Vec Ideal S256x256 .f32) (v39 : Vec Ideal S64x128 .f32)
    (v44 : Vec Ideal S1x256 .f32) (s : Fin 64) (c : Fin 256) :
    Gen.k0_pay6 v1 v34 v39 v44 (ix2 s c)
      = (∑ k : Fin 128, v1 (ix2 (0 : Fin 1) k) * v34 (ix2 (⟨k.val, by omega⟩ : Fin 256) c))
        + (∑ k : Fin 128, v39 (ix2 s k) * v34 (ix2 (⟨128 + k.val, by omega⟩ : Fin 256) c))
        + v44 (ix2 (0 : Fin 1) c) := by
  unfold Gen.k0_pay6
  exact beff_apply v1 v34 v39 v44 s c

/-- An effective weight: the embedding weight times the top half of the projection weight. -/
theorem pay7_apply (v0 : Vec Ideal S256x128 .f32) (v34 : Vec Ideal S256x256 .f32) (p c : Fin 256) :
    Gen.k0_pay7 v0 v34 (ix2 p c)
      = ∑ k : Fin 128, v0 (ix2 p k) * v34 (ix2 (⟨k.val, by omega⟩ : Fin 256) c) := by
  unfold Gen.k0_pay7
  exact weff_apply v0 v34 p c

/-! ## Layer 2 -/

/-- An effective bias carrying the attention scale: the embedding's bias row through the top half of the weight, row s of the time table through the
    bottom half, and the projection's bias, times the scale. -/
theorem pay8_apply (v49 : Vec Ideal S1x128 .f32) (v50 : Vec Ideal S256x256 .f32) (v55 : Vec Ideal S64x128 .f32)
    (v60 : Vec Ideal S1x256 .f32) (s : Fin 64) (c : Fin 256) :
    Gen.k0_pay8 v49 v50 v55 v60 (ix2 s c)
      = ((∑ k : Fin 128, v49 (ix2 (0 : Fin 1) k) * v50 (ix2 (⟨k.val, by omega⟩ : Fin 256) c))
        + (∑ k : Fin 128, v55 (ix2 s k) * v50 (ix2 (⟨128 + k.val, by omega⟩ : Fin 256) c))
        + v60 (ix2 (0 : Fin 1) c)) * Ideal.ofBits .f32 0x3E3504F3#32 := by
  unfold Gen.k0_pay8
  exact congrArg (fun x => x * Ideal.ofBits .f32 0x3E3504F3#32) (beff_apply v49 v50 v55 v60 s c)

/-- An effective weight carrying the attention scale: the embedding weight times the top half of the projection weight, times the scale. -/
theorem pay9_apply (v48 : Vec Ideal S256x128 .f32) (v50 : Vec Ideal S256x256 .f32) (p c : Fin 256) :
    Gen.k0_pay9 v48 v50 (ix2 p c)
      = (∑ k : Fin 128, v48 (ix2 p k) * v50 (ix2 (⟨k.val, by omega⟩ : Fin 256) c)) * Ideal.ofBits .f32 0x3E3504F3#32 := by
  unfold Gen.k0_pay9
  exact congrArg (fun x => x * Ideal.ofBits .f32 0x3E3504F3#32) (weff_apply v48 v50 p c)

/-- An effective bias: the embedding's bias row through the top half of the weight, row s of the time table through the
    bottom half, and the projection's bias. -/
theorem pay10_apply (v49 : Vec Ideal S1x128 .f32) (v68 : Vec Ideal S256x256 .f32) (v73 : Vec Ideal S64x128 .f32)
    (v78 : Vec Ideal S1x256 .f32) (s : Fin 64) (c : Fin 256) :
    Gen.k0_pay10 v49 v68 v73 v78 (ix2 s c)
      = (∑ k : Fin 128, v49 (ix2 (0 : Fin 1) k) * v68 (ix2 (⟨k.val, by omega⟩ : Fin 256) c))
        + (∑ k : Fin 128, v73 (ix2 s k) * v68 (ix2 (⟨128 + k.val, by omega⟩ : Fin 256) c))
        + v78 (ix2 (0 : Fin 1) c) := by
  unfold Gen.k0_pay10
  exact beff_apply v49 v68 v73 v78 s c

/-- An effective weight: the embedding weight times the top half of the projection weight. -/
theorem pay11_apply (v48 : Vec Ideal S256x128 .f32) (v68 : Vec Ideal S256x256 .f32) (p c : Fin 256) :
    Gen.k0_pay11 v48 v68 (ix2 p c)
      = ∑ k : Fin 128, v48 (ix2 p k) * v68 (ix2 (⟨k.val, by omega⟩ : Fin 256) c) := by
  unfold Gen.k0_pay11
  exact weff_apply v48 v68 p c

/-- An effective bias: the embedding's bias row through the top half of the weight, row s of the time table through the
    bottom half, and the projection's bias. -/
theorem pay12_apply (v49 : Vec Ideal S1x128 .f32) (v82 : Vec Ideal S256x256 .f32) (v87 : Vec Ideal S64x128 .f32)
    (v92 : Vec Ideal S1x256 .f32) (s : Fin 64) (c : Fin 256) :
    Gen.k0_pay12 v49 v82 v87 v92 (ix2 s c)
      = (∑ k : Fin 128, v49 (ix2 (0 : Fin 1) k) * v82 (ix2 (⟨k.val, by omega⟩ : Fin 256) c))
        + (∑ k : Fin 128, v87 (ix2 s k) * v82 (ix2 (⟨128 + k.val, by omega⟩ : Fin 256) c))
        + v92 (ix2 (0 : Fin 1) c) := by
  unfold Gen.k0_pay12
  exact beff_apply v49 v82 v87 v92 s c

/-- An effective weight: the embedding weight times the top half of the projection weight. -/
theorem pay13_apply (v48 : Vec Ideal S256x128 .f32) (v82 : Vec Ideal S256x256 .f32) (p c : Fin 256) :
    Gen.k0_pay13 v48 v82 (ix2 p c)
      = ∑ k : Fin 128, v48 (ix2 p k) * v82 (ix2 (⟨k.val, by omega⟩ : Fin 256) c) := by
  unfold Gen.k0_pay13
  exact weff_apply v48 v82 p c

end Cert.KernelIdeal.Read

end
-- ==== Proof.KerDots.lean ====
/-
  The matrix products of the fused encoder body, each read at one entry of its result.

  Every product accumulates into the zero splat, so at the extended reals an entry is the textbook sum over the one
  contracted axis, the factors in the program's order (left entry times right entry). One lemma per set of dimension
  numbers: three plain products (a [2048, 256] by a [256, 256] matrix; a [2048, 64] by a [64, 8]; a [2048, 8] by an
  [8, 256]) and the two batched products of attention over the 32 batch rows — scores, contracting the 32 lanes of a
  head of both operands (query row s against key row t), and the weighted sum of values, contracting the 64 key rows.
-/
import proofs.«141667_g2000002524955183_pallasbulk_3_44_alg».proof.Proof.Gen.KernelIdeal.Skeleton
import proofs.«141667_g2000002524955183_pallasbulk_3_44_alg».proof.Proof.LibMatmulAt
import Idealize.ShloMosaic.Lib.ValueIdx

noncomputable section

namespace Cert.KernelIdeal.Read

open Idealize.ShloMosaic Idealize.ShloMosaic.ValueIdx Cert.KernelIdeal
open scoped BigOperators

/-- A [2048, 256] by [256, 256] product into zero, at entry (r, c): the sum over the 256 shared coordinates. -/
theorem dot_2048x256_256x256_at {φ₁ φ₂ : FTy} (x : FVec Ideal S2048x256 φ₁) (w : FVec Ideal S256x256 φ₂)
    (r : Fin 2048) (c : Fin 256) :
    matmul dot_S2048x256_S256x256_S2048x256_1_0_0_1_n_n none x w (constant S2048x256 .f32 0x00000000#32) (ix2 r c)
      = ∑ e : Fin 256, x (ix2 r e) * w (ix2 e c) := by
  refine Cert.LibMatmulAt.matmul_zero_at dot_S2048x256_S256x256_S2048x256_1_0_0_1_n_n none rfl rfl (ix2 r c)
    (fun e => ix2 r e) (fun e => ix2 e c) ?_ ?_ x w
  · intro q k hk
    funext a
    match a with
    | ⟨0, _⟩ => apply Fin.ext; simp [DotDims.lhsIdx, dot_S2048x256_S256x256_S2048x256_1_0_0_1_n_n]; first | rfl | exact hk
    | ⟨1, _⟩ => apply Fin.ext; simp [DotDims.lhsIdx, dot_S2048x256_S256x256_S2048x256_1_0_0_1_n_n]; first | rfl | exact hk
  · intro q k hk
    funext a
    match a with
    | ⟨0, _⟩ => apply Fin.ext; simp [DotDims.rhsIdx, dot_S2048x256_S256x256_S2048x256_1_0_0_1_n_n]; first | rfl | exact hk
    | ⟨1, _⟩ => apply Fin.ext; simp [DotDims.rhsIdx, dot_S2048x256_S256x256_S2048x256_1_0_0_1_n_n]; first | rfl | exact hk

/-- A [2048, 64] by [64, 8] product into zero, at entry (r, g): the sum over the 64 shared coordinates. -/
theorem dot_2048x64_64x8_at {φ₁ φ₂ : FTy} (x : FVec Ideal S2048x64 φ₁) (w : FVec Ideal S64x8 φ₂)
    (r : Fin 2048) (g : Fin 8) :
    matmul dot_S2048x64_S64x8_S2048x8_1_0_0_1_n_n none x w (constant S2048x8 .f32 0x00000000#32) (ix2 r g)
      = ∑ t : Fin 64, x (ix2 r t) * w (ix2 t g) := by
  refine Cert.LibMatmulAt.matmul_zero_at dot_S2048x64_S64x8_S2048x8_1_0_0_1_n_n none rfl rfl (ix2 r g)
    (fun t => ix2 r t) (fun t => ix2 t g) ?_ ?_ x w
  · intro q k hk
    funext a
    match a with
    | ⟨0, _⟩ => apply Fin.ext; simp [DotDims.lhsIdx, dot_S2048x64_S64x8_S2048x8_1_0_0_1_n_n]; first | rfl | exact hk
    | ⟨1, _⟩ => apply Fin.ext; simp [DotDims.lhsIdx, dot_S2048x64_S64x8_S2048x8_1_0_0_1_n_n]; first | rfl | exact hk
  · intro q k hk
    funext a
    match a with
    | ⟨0, _⟩ => apply Fin.ext; simp [DotDims.rhsIdx, dot_S2048x64_S64x8_S2048x8_1_0_0_1_n_n]; first | rfl | exact hk
    | ⟨1, _⟩ => apply Fin.ext; simp [DotDims.rhsIdx, dot_S2048x64_S64x8_S2048x8_1_0_0_1_n_n]; first | rfl | exact hk

/-- A [2048, 8] by [8, 256] product into zero, at entry (r, c): the sum over the 8 shared coordinates. -/
theorem dot_2048x8_8x256_at {φ₁ φ₂ : FTy} (x : FVec Ideal S2048x8 φ₁) (w : FVec Ideal S8x256 φ₂)
    (r : Fin 2048) (c : Fin 256) :
    matmul dot_S2048x8_S8x256_S2048x256_1_0_0_1_n_n none x w (constant S2048x256 .f32 0x00000000#32) (ix2 r c)
      = ∑ g : Fin 8, x (ix2 r g) * w (ix2 g c) := by
  refine Cert.LibMatmulAt.matmul_zero_at dot_S2048x8_S8x256_S2048x256_1_0_0_1_n_n none rfl rfl (ix2 r c)
    (fun g => ix2 r g) (fun g => ix2 g c) ?_ ?_ x w
  · intro q k hk
    funext a
    match a with
    | ⟨0, _⟩ => apply Fin.ext; simp [DotDims.lhsIdx, dot_S2048x8_S8x256_S2048x256_1_0_0_1_n_n]; first | rfl | exact hk
    | ⟨1, _⟩ => apply Fin.ext; simp [DotDims.lhsIdx, dot_S2048x8_S8x256_S2048x256_1_0_0_1_n_n]; first | rfl | exact hk
  · intro q k hk
    funext a
    match a with
    | ⟨0, _⟩ => apply Fin.ext; simp [DotDims.rhsIdx, dot_S2048x8_S8x256_S2048x256_1_0_0_1_n_n]; first | rfl | exact hk
    | ⟨1, _⟩ => apply Fin.ext; simp [DotDims.rhsIdx, dot_S2048x8_S8x256_S2048x256_1_0_0_1_n_n]; first | rfl | exact hk

/-- The batched scores product: per batch row b, query row s against key row t, the sum over the 32 lanes of a head. -/
theorem dot_scores_at {φ₁ φ₂ : FTy} (x : FVec Ideal S32x64x32 φ₁) (w : FVec Ideal S32x64x32 φ₂)
    (b : Fin 32) (s : Fin 64) (t : Fin 64) :
    matmul dot_S32x64x32_S32x64x32_S32x64x64_2_2_1_1_0_0 none x w (constant S32x64x64 .f32 0x00000000#32) (ix3 b s t)
      = ∑ d : Fin 32, x (ix3 b s d) * w (ix3 b t d) := by
  refine Cert.LibMatmulAt.matmul_zero_at dot_S32x64x32_S32x64x32_S32x64x64_2_2_1_1_0_0 none rfl rfl (ix3 b s t)
    (fun d => ix3 b s d) (fun d => ix3 b t d) ?_ ?_ x w
  · intro q k hk
    funext a
    match a with
    | ⟨0, _⟩ => apply Fin.ext; simp [DotDims.lhsIdx, dot_S32x64x32_S32x64x32_S32x64x64_2_2_1_1_0_0]; first | rfl | exact hk
    | ⟨1, _⟩ => apply Fin.ext; simp [DotDims.lhsIdx, dot_S32x64x32_S32x64x32_S32x64x64_2_2_1_1_0_0]; first | rfl | exact hk
    | ⟨2, _⟩ => apply Fin.ext; simp [DotDims.lhsIdx, dot_S32x64x32_S32x64x32_S32x64x64_2_2_1_1_0_0]; first | rfl | exact hk
  · intro q k hk
    funext a
    match a with
    | ⟨0, _⟩ => apply Fin.ext; simp [DotDims.rhsIdx, dot_S32x64x32_S32x64x32_S32x64x64_2_2_1_1_0_0]; first | rfl | exact hk
    | ⟨1, _⟩ => apply Fin.ext; simp [DotDims.rhsIdx, dot_S32x64x32_S32x64x32_S32x64x64_2_2_1_1_0_0]; first | rfl | exact hk
    | ⟨2, _⟩ => apply Fin.ext; simp [DotDims.rhsIdx, dot_S32x64x32_S32x64x32_S32x64x64_2_2_1_1_0_0]; first | rfl | exact hk

/-- The batched weighted sum of values: per batch row b, weights row s against value lane d, the sum over the 64 key rows. -/
theorem dot_weighted_at {φ₁ φ₂ : FTy} (x : FVec Ideal S32x64x64 φ₁) (w : FVec Ideal S32x64x32 φ₂)
    (b : Fin 32) (s : Fin 64) (d : Fin 32) :
    matmul dot_S32x64x64_S32x64x32_S32x64x32_2_1_1_2_0_0 none x w (constant S32x64x32 .f32 0x00000000#32) (ix3 b s d)
      = ∑ t : Fin 64, x (ix3 b s t) * w (ix3 b t d) := by
  refine Cert.LibMatmulAt.matmul_zero_at dot_S32x64x64_S32x64x32_S32x64x32_2_1_1_2_0_0 none rfl rfl (ix3 b s d)
    (fun t => ix3 b s t) (fun t => ix3 b t d) ?_ ?_ x w
  · intro q k hk
    funext a
    match a with
    | ⟨0, _⟩ => apply Fin.ext; simp [DotDims.lhsIdx, dot_S32x64x64_S32x64x32_S32x64x32_2_1_1_2_0_0]; first | rfl | exact hk
    | ⟨1, _⟩ => apply Fin.ext; simp [DotDims.lhsIdx, dot_S32x64x64_S32x64x32_S32x64x32_2_1_1_2_0_0]; first | rfl | exact hk
    | ⟨2, _⟩ => apply Fin.ext; simp [DotDims.lhsIdx, dot_S32x64x64_S32x64x32_S32x64x32_2_1_1_2_0_0]; first | rfl | exact hk
  · intro q k hk
    funext a
    match a with
    | ⟨0, _⟩ => apply Fin.ext; simp [DotDims.rhsIdx, dot_S32x64x64_S32x64x32_S32x64x32_2_1_1_2_0_0]; first | rfl | exact hk
    | ⟨1, _⟩ => apply Fin.ext; simp [DotDims.rhsIdx, dot_S32x64x64_S32x64x32_S32x64x32_2_1_1_2_0_0]; first | rfl | exact hk
    | ⟨2, _⟩ => apply Fin.ext; simp [DotDims.rhsIdx, dot_S32x64x64_S32x64x32_S32x64x32_2_1_1_2_0_0]; first | rfl | exact hk

end Cert.KernelIdeal.Read

end
-- ==== Proof.KerPay29_32.lean ====
/-
  The three projections of the first encoder layer, read at one entry.

  The activations x, a [2048, 256] table whose row 64·b + s is position s of batch row b, are narrowed to bf16 (the
  identity at the extended reals), multiplied by a [256, 256] weight, viewed as [32, 64, 256] and shifted by a
  per-position bias table [64, 256]. So entry (b, s, c) of each projection is
  Σ_e x[64·b + s, e] · w[e, c] + bias[s, c].
-/
import proofs.«141667_g2000002524955183_pallasbulk_3_44_alg».proof.Proof.Gen.KernelIdeal.Skeleton
import proofs.«141667_g2000002524955183_pallasbulk_3_44_alg».proof.Proof.KerDots
import Idealize.ShloMosaic.Lib.ValueIdx
import Idealize.ShloMosaic.Lib.ValueLayout
import Idealize.ShloMosaic.Lib.Pipeline.Value

noncomputable section

namespace Cert.KernelIdeal.Read

open Idealize.ShloMosaic Idealize.ShloMosaic.ValueIdx Cert.KernelIdeal
open scoped BigOperators

/-- Narrowing to bf16 is the identity on extended reals. -/
theorem pay29_apply (v107 : FVec Ideal S2048x256 .f32) (r : Fin 2048) (c : Fin 256) :
    Gen.k0_pay29 v107 (ix2 r c) = v107 (ix2 r c) := rfl

/-- The query projection at (b, s, c). -/
theorem pay30_apply (v18 : FVec Ideal S64x256 .f32) (v19 : FVec Ideal S256x256 .bf16) (v107 : FVec Ideal S2048x256 .f32)
    (b : Fin 32) (s : Fin 64) (c : Fin 256) :
    Gen.k0_pay30 v18 v19 v107 (ix3 b s c)
      = (∑ e : Fin 256, v107 (ix2 ⟨64 * b.val + s.val, by omega⟩ e) * v19 (ix2 e c)) + v18 (ix2 s c) := by
  unfold Gen.k0_pay30 Gen.k0_pay29
  refine congrArg₂ (fun x y : EReal => x + y) ?_ ?_
  · refine (shapeCast_apply _ _ (ix3 b s c) (ix2 ⟨64 * b.val + s.val, by omega⟩ c) ?_).trans
      (dot_2048x256_256x256_at _ _ _ _)
    rw [Shape.rowMajor_val_two, Shape.rowMajor_val_three]
    show (64 * b.val + s.val) * 256 + c.val = (b.val * 64 + s.val) * 256 + c.val
    omega
  · refine (broadcastTo_apply _ _ (ix3 b s c) (ix3 (0 : Fin 1) s c) ?_).trans (shapeCast_ab_1ab_apply _ _ _ _ _)
    intro a
    match a with
    | ⟨0, _⟩ => rfl
    | ⟨1, _⟩ => rfl
    | ⟨2, _⟩ => rfl

/-- The key projection at (b, s, c). -/
theorem pay31_apply (v32 : FVec Ideal S64x256 .f32) (v33 : FVec Ideal S256x256 .bf16) (v107 : FVec Ideal S2048x256 .f32)
    (b : Fin 32) (s : Fin 64) (c : Fin 256) :
    Gen.k0_pay31 v32 v33 v107 (ix3 b s c)
      = (∑ e : Fin 256, v107 (ix2 ⟨64 * b.val + s.val, by omega⟩ e) * v33 (ix2 e c)) + v32 (ix2 s c) := by
  unfold Gen.k0_pay31 Gen.k0_pay29
  refine congrArg₂ (fun x y : EReal => x + y) ?_ ?_
  · refine (shapeCast_apply _ _ (ix3 b s c) (ix2 ⟨64 * b.val + s.val, by omega⟩ c) ?_).trans
      (dot_2048x256_256x256_at _ _ _ _)
    rw [Shape.rowMajor_val_two, Shape.rowMajor_val_three]
    show (64 * b.val + s.val) * 256 + c.val = (b.val * 64 + s.val) * 256 + c.val
    omega
  · refine (broadcastTo_apply _ _ (ix3 b s c) (ix3 (0 : Fin 1) s c) ?_).trans (shapeCast_ab_1ab_apply _ _ _ _ _)
    intro a
    match a with
    | ⟨0, _⟩ => rfl
    | ⟨1, _⟩ => rfl
    | ⟨2, _⟩ => rfl

/-- The value projection at (b, s, c). -/
theorem pay32_apply (v46 : FVec Ideal S64x256 .f32) (v47 : FVec Ideal S256x256 .bf16) (v107 : FVec Ideal S2048x256 .f32)
    (b : Fin 32) (s : Fin 64) (c : Fin 256) :
    Gen.k0_pay32 v46 v47 v107 (ix3 b s c)
      = (∑ e : Fin 256, v107 (ix2 ⟨64 * b.val + s.val, by omega⟩ e) * v47 (ix2 e c)) + v46 (ix2 s c) := by
  unfold Gen.k0_pay32 Gen.k0_pay29
  refine congrArg₂ (fun x y : EReal => x + y) ?_ ?_
  · refine (shapeCast_apply _ _ (ix3 b s c) (ix2 ⟨64 * b.val + s.val, by omega⟩ c) ?_).trans
      (dot_2048x256_256x256_at _ _ _ _)
    rw [Shape.rowMajor_val_two, Shape.rowMajor_val_three]
    show (64 * b.val + s.val) * 256 + c.val = (b.val * 64 + s.val) * 256 + c.val
    omega
  · refine (broadcastTo_apply _ _ (ix3 b s c) (ix3 (0 : Fin 1) s c) ?_).trans (shapeCast_ab_1ab_apply _ _ _ _ _)
    intro a
    match a with
    | ⟨0, _⟩ => rfl
    | ⟨1, _⟩ => rfl
    | ⟨2, _⟩ => rfl

end Cert.KernelIdeal.Read

end
-- ==== Proof.AttnSpecKer.lean ====
/-
  One encoder layer in the fused order (the kernel's).

  Differences from the textbook order, each of which is one definition here: the first affine map is
  multiplied into the three projection weights once (collapsed weight `weff` and collapsed bias
  `beff`, the query's also carrying the attention scale); the softmax is not shifted by the row
  maximum; the rows' normalising sums are gathered, head by head, into one table by contraction with
  one-hot columns, inverted once, and spread back over each head's lanes by contraction with a
  ones-block matrix; the heads' outputs are concatenated and meet the output projection in one
  contraction; the normalisation's mean and variance are contractions with the constant `1/width`.
-/
import proofs.«141667_g2000002524955183_pallasbulk_3_44_alg».proof.Proof.AttnSpecParams

noncomputable section

namespace Cert.Spec.Ker

open Idealize.ShloMosaic
open Cert.Lib.LibRealClosure
open Cert.Lib.LibHeadSplit
open Cert.Spec
open scoped BigOperators

variable {S J : Type} [Fintype S] [Fintype J] {H L : ℕ}

/-- A collapsed weight: the first affine map's weight times a projection's top rows. -/
def weff (P : LayerParams S J H L) (wT : J → Fin (H * L) → EReal) (e c : Fin (H * L)) : EReal :=
  ∑ j, P.w0 e j * wT j c

/-- A collapsed bias: the first affine map's bias through the top rows, plus the embedding through
    the bottom rows, plus the projection's bias. -/
def beff (P : LayerParams S J H L) (emb : S → J → EReal) (wT wB : J → Fin (H * L) → EReal)
    (b : Fin (H * L) → EReal) (s : S) (c : Fin (H * L)) : EReal :=
  ((∑ j, P.b0 j * wT j c) + (∑ j, emb s j * wB j c)) + b c

/-- The query's collapsed weight and bias carry the attention scale. -/
def weffQ (C : Consts) (P : LayerParams S J H L) (e c : Fin (H * L)) : EReal :=
  weff P P.wqT e c * C.scale
def beffQ (C : Consts) (P : LayerParams S J H L) (s : S) (c : Fin (H * L)) : EReal :=
  beff P P.qe P.wqT P.wqB P.bq s c * C.scale

/-- The projected tables: `(∑ e, x s e * weff e c) + beff s c`. -/
def q3 (C : Consts) (P : LayerParams S J H L) (x : S → Fin (H * L) → EReal) (s : S) (c : Fin (H * L)) : EReal :=
  (∑ e, x s e * weffQ C P e c) + beffQ C P s c
def k3 (P : LayerParams S J H L) (x : S → Fin (H * L) → EReal) (s : S) (c : Fin (H * L)) : EReal :=
  (∑ e, x s e * weff P P.wkT e c) + beff P P.ke P.wkT P.wkB P.bk s c
def v3 (P : LayerParams S J H L) (x : S → Fin (H * L) → EReal) (s : S) (c : Fin (H * L)) : EReal :=
  (∑ e, x s e * weff P P.wvT e c) + beff P P.ve P.wvT P.wvB P.bv s c

/-- The masked scores of head `h`: `(∑ l, q3 s (h, l) * k3 t (h, l)) + mask s t`. -/
def scores (C : Consts) (P : LayerParams S J H L) (mask : S → S → EReal) (x : S → Fin (H * L) → EReal)
    (h : Fin H) (s t : S) : EReal :=
  (∑ l, q3 C P x s (flat h l) * k3 P x t (flat h l)) + mask s t

/-- The unshifted exponential of the scores. -/
def p (C : Consts) (P : LayerParams S J H L) (mask : S → S → EReal) (x : S → Fin (H * L) → EReal)
    (h : Fin H) (s t : S) : EReal :=
  Ideal.exp (scores C P mask x h s t)

/-- The unnormalised weighted values of head `h`: `∑ t, p s t * v3 t (h, l)`. -/
def part (C : Consts) (P : LayerParams S J H L) (mask : S → S → EReal) (x : S → Fin (H * L) → EReal)
    (h : Fin H) (s : S) (l : Fin L) : EReal :=
  ∑ t, p C P mask x h s t * v3 P x t (flat h l)

/-- The one-hot column of head `h`: `1` in column `h`, `0` elsewhere (the same in every row). -/
def sel (h c' : Fin H) : EReal := if c' = h then 1 else 0

/-- The normalising sums, gathered: `∑ h, ∑ t, p h s t * sel h c'`. -/
def den (C : Consts) (P : LayerParams S J H L) (mask : S → S → EReal) (x : S → Fin (H * L) → EReal)
    (s : S) (c' : Fin H) : EReal :=
  ∑ h, ∑ t, p C P mask x h s t * sel h c'

/-- Their reciprocals: `1 / den`. -/
def rinv (C : Consts) (P : LayerParams S J H L) (mask : S → S → EReal) (x : S → Fin (H * L) → EReal)
    (s : S) (c' : Fin H) : EReal :=
  Ideal.div 1 (den C P mask x s c')

/-- The ones-block matrix: `1` where channel `j` lies in head `c'` (`j / L = c'`), else `0`. -/
def rep (c' : Fin H) (j : Fin (H * L)) : EReal := if j.val / L = c'.val then 1 else 0

/-- The reciprocals spread over the channels: `∑ c', rinv s c' * rep c' j`. -/
def rden (C : Consts) (P : LayerParams S J H L) (mask : S → S → EReal) (x : S → Fin (H * L) → EReal)
    (s : S) (j : Fin (H * L)) : EReal :=
  ∑ c', rinv C P mask x s c' * rep c' j

/-- The heads' outputs concatenated: channel `j` reads head `j / L` at lane `j % L`. -/
def o3 (C : Consts) (P : LayerParams S J H L) (mask : S → S → EReal) (x : S → Fin (H * L) → EReal)
    (s : S) (j : Fin (H * L)) : EReal :=
  part C P mask x j.divNat s j.modNat

/-- The attention output: `(∑ j, (o3 s j * rden s j) * wo j c) + bo c`. -/
def attn (C : Consts) (P : LayerParams S J H L) (mask : S → S → EReal) (x : S → Fin (H * L) → EReal)
    (s : S) (c : Fin (H * L)) : EReal :=
  (∑ j, (o3 C P mask x s j * rden C P mask x s j) * P.wo j c) + P.bo c

/-- The first residual: `x + attn`. -/
def y1 (C : Consts) (P : LayerParams S J H L) (mask : S → S → EReal) (x : S → Fin (H * L) → EReal)
    (s : S) (c : Fin (H * L)) : EReal :=
  x s c + attn C P mask x s c

/-- The row mean as a contraction with the constant `1/width` (the same in every column `c`). -/
def lnMu (C : Consts) (y : S → Fin (H * L) → EReal) (s : S) (_c : Fin (H * L)) : EReal :=
  ∑ k, y s k * C.cInv

/-- The centred table. -/
def lnC (C : Consts) (y : S → Fin (H * L) → EReal) (s : S) (c : Fin (H * L)) : EReal :=
  y s c - lnMu C y s c

/-- The row variance as a contraction of the squares with the constant `1/width`. -/
def lnVar (C : Consts) (y : S → Fin (H * L) → EReal) (s : S) (_c : Fin (H * L)) : EReal :=
  ∑ k, (lnC C y s k * lnC C y s k) * C.cInv

/-- The normalisation: `((yc * rsqrt (var + eps)) * g) + b`. -/
def layerNorm (C : Consts) (y : S → Fin (H * L) → EReal) (g b : Fin (H * L) → EReal) (s : S)
    (c : Fin (H * L)) : EReal :=
  ((lnC C y s c * Ideal.rsqrt (lnVar C y s c + C.epsLn)) * g c) + b c

/-- The first normalised table. -/
def x1 (C : Consts) (P : LayerParams S J H L) (mask : S → S → EReal) (x : S → Fin (H * L) → EReal) :
    S → Fin (H * L) → EReal :=
  layerNorm C (y1 C P mask x) P.g1 P.be1

/-- The feed-forward map on a table `z`, in three steps (the same steps as in the textbook order). -/
def ffnPre (P : LayerParams S J H L) (z : S → Fin (H * L) → EReal) (s : S) (c : Fin (H * L)) : EReal :=
  (∑ k, z s k * P.w1 k c) + P.b1 c
def ffnAct (C : Consts) (P : LayerParams S J H L) (z : S → Fin (H * L) → EReal) (s : S) (c : Fin (H * L)) :
    EReal :=
  gelu C (ffnPre P z s c)
def ffnOut (C : Consts) (P : LayerParams S J H L) (z : S → Fin (H * L) → EReal) (s : S) (c : Fin (H * L)) :
    EReal :=
  (∑ k, ffnAct C P z s k * P.w2 k c) + P.b2 c

/-- The second residual on a table `z`: `z + ffnOut z`. -/
def y2 (C : Consts) (P : LayerParams S J H L) (z : S → Fin (H * L) → EReal) (s : S) (c : Fin (H * L)) :
    EReal :=
  z s c + ffnOut C P z s c

/-- The layer's tail from the first normalised table `z`. -/
def tail (C : Consts) (P : LayerParams S J H L) (z : S → Fin (H * L) → EReal) : S → Fin (H * L) → EReal :=
  layerNorm C (y2 C P z) P.g2 P.be2

/-- The whole layer. -/
def layer (C : Consts) (P : LayerParams S J H L) (mask : S → S → EReal) (x : S → Fin (H * L) → EReal) :
    S → Fin (H * L) → EReal :=
  tail C P (x1 C P mask x)

end Cert.Spec.Ker

end
-- ==== Proof.KerSpineA.lean ====
/-
  The fused kernel's body, value by value, against the fused order of the layer (first part: the
  parameters as tables, the input rows, the collapsed projection weights and the three projections of
  the first layer).

  The body works on 32 batch rows at once, flattened with the 64 positions into 2048 rows: row
  `64 * b + s` is position `s` of batch row `b`. Everything here is stated for one batch row `b`.
-/
import proofs.«141667_g2000002524955183_pallasbulk_3_44_alg».proof.Proof.KerDag
import proofs.«141667_g2000002524955183_pallasbulk_3_44_alg».proof.Proof.KerPay14_16
import proofs.«141667_g2000002524955183_pallasbulk_3_44_alg».proof.Proof.KerPay2_13
import proofs.«141667_g2000002524955183_pallasbulk_3_44_alg».proof.Proof.KerPay29_32
import proofs.«141667_g2000002524955183_pallasbulk_3_44_alg».proof.Proof.AttnSpecKer
import proofs.«141667_g2000002524955183_pallasbulk_3_44_alg».proof.Proof.LibFloatWords

noncomputable section

namespace Cert.KernelIdeal.Spine

open Idealize.ShloMosaic Idealize.ShloMosaic.ValueIdx Cert.KernelIdeal Cert.KernelIdeal.Gen
open Cert.KernelIdeal.Dag Cert.KernelIdeal.Read
open Cert.Spec Cert.Lib.LibFloatWords Cert.Lib.LibHeadSplit Cert.Lib.LibRealClosure
open scoped BigOperators

/-- The flattened row of position `s` of batch row `b`. -/
abbrev row (b : Fin 32) (s : Fin 64) : Fin 2048 := ⟨64 * b.val + s.val, by omega⟩

/-- The 21 loaded tables of one layer. -/
structure LayerTabs where
  qe : Vec Ideal S64x128 .f32
  ke : Vec Ideal S64x128 .f32
  ve : Vec Ideal S64x128 .f32
  w0 : Vec Ideal S256x128 .f32
  b0 : Vec Ideal S1x128 .f32
  wq : Vec Ideal S256x256 .f32
  bq : Vec Ideal S1x256 .f32
  wk : Vec Ideal S256x256 .f32
  bk : Vec Ideal S1x256 .f32
  wv : Vec Ideal S256x256 .f32
  bv : Vec Ideal S1x256 .f32
  wo : Vec Ideal S256x256 .f32
  bo : Vec Ideal S1x256 .f32
  g1 : Vec Ideal S1x256 .f32
  be1 : Vec Ideal S1x256 .f32
  w1 : Vec Ideal S256x256 .f32
  b1 : Vec Ideal S1x256 .f32
  w2 : Vec Ideal S256x256 .f32
  b2 : Vec Ideal S1x256 .f32
  g2 : Vec Ideal S1x256 .f32
  be2 : Vec Ideal S1x256 .f32

/-- The first layer's tables among the loads. -/
def T0 (Y : Loads Ideal) : LayerTabs :=
  ⟨Y.y3, Y.y4, Y.y5, Y.y6, Y.y7, Y.y8, Y.y9, Y.y10, Y.y11, Y.y12, Y.y13, Y.y14, Y.y15, Y.y16, Y.y17, Y.y18, Y.y19,
    Y.y20, Y.y21, Y.y22, Y.y23⟩

/-- The second layer's tables among the loads. -/
def T1 (Y : Loads Ideal) : LayerTabs :=
  ⟨Y.y24, Y.y25, Y.y26, Y.y27, Y.y28, Y.y29, Y.y30, Y.y31, Y.y32, Y.y33, Y.y34, Y.y35, Y.y36, Y.y37, Y.y38, Y.y39,
    Y.y40, Y.y41, Y.y42, Y.y43, Y.y44⟩

/-- The tables of a layer as the layer's parameters: a table is read at its two coordinates, a bias
    row at its one row, a projection weight's top rows at `j` and bottom rows at `128 + j`. -/
def params (T : LayerTabs) : LayerParams (Fin 64) (Fin 128) 8 32 where
  qe s j := T.qe (ix2 s j)
  ke s j := T.ke (ix2 s j)
  ve s j := T.ve (ix2 s j)
  w0 e j := T.w0 (ix2 (e : Fin 256) j)
  b0 j := T.b0 (ix2 (0 : Fin 1) j)
  wqT j c := T.wq (ix2 (⟨j.val, by omega⟩ : Fin 256) (c : Fin 256))
  wqB j c := T.wq (ix2 (⟨128 + j.val, by omega⟩ : Fin 256) (c : Fin 256))
  bq c := T.bq (ix2 (0 : Fin 1) (c : Fin 256))
  wkT j c := T.wk (ix2 (⟨j.val, by omega⟩ : Fin 256) (c : Fin 256))
  wkB j c := T.wk (ix2 (⟨128 + j.val, by omega⟩ : Fin 256) (c : Fin 256))
  bk c := T.bk (ix2 (0 : Fin 1) (c : Fin 256))
  wvT j c := T.wv (ix2 (⟨j.val, by omega⟩ : Fin 256) (c : Fin 256))
  wvB j c := T.wv (ix2 (⟨128 + j.val, by omega⟩ : Fin 256) (c : Fin 256))
  bv c := T.bv (ix2 (0 : Fin 1) (c : Fin 256))
  wo j c := T.wo (ix2 (j : Fin 256) (c : Fin 256))
  bo c := T.bo (ix2 (0 : Fin 1) (c : Fin 256))
  g1 c := T.g1 (ix2 (0 : Fin 1) (c : Fin 256))
  be1 c := T.be1 (ix2 (0 : Fin 1) (c : Fin 256))
  w1 k c := T.w1 (ix2 (k : Fin 256) (c : Fin 256))
  b1 c := T.b1 (ix2 (0 : Fin 1) (c : Fin 256))
  w2 k c := T.w2 (ix2 (k : Fin 256) (c : Fin 256))
  b2 c := T.b2 (ix2 (0 : Fin 1) (c : Fin 256))
  g2 c := T.g2 (ix2 (0 : Fin 1) (c : Fin 256))
  be2 c := T.be2 (ix2 (0 : Fin 1) (c : Fin 256))

/-- The constants and the mask of both layers. -/
abbrev C : Consts := theConsts
def mask : Fin 64 → Fin 64 → EReal := causalMask (Ideal.ofBits .f32 0xCE6E6B28#32)

/-- The input table of batch row `b`: position `s` below 32 reads the first block, the others the
    second, at lane `256 * s + e`; the positional table is added. -/
def X0 (Y : Loads Ideal) (b : Fin 32) (s : Fin 64) (e : Fin (8 * 32)) : EReal :=
  (if h : s.val < 32 then Y.y0 (ix3 b (0 : Fin 1) (⟨256 * s.val + e.val, by omega⟩ : Fin 8192))
    else Y.y1 (ix3 b (0 : Fin 1) (⟨256 * (s.val - 32) + e.val, by omega⟩ : Fin 8192))) + Y.y2 (ix2 s (e : Fin 256))

/-- The input rows. -/
theorem n3_at (Y : Loads Ideal) (b : Fin 32) (s : Fin 64) (e : Fin 256) :
    n3 Y (ix2 (row b s) e) = X0 Y b s e :=
  input_apply Y.y0 Y.y1 Y.y2 b s e

/-! ### The collapsed weights and biases of the first layer -/

theorem n9_at (Y : Loads Ideal) (s : Fin 64) (c : Fin 256) :
    n9 Y (ix2 s c) = Ker.beffQ C (params (T0 Y)) s c :=
  pay2_apply Y.y7 Y.y8 Y.y3 Y.y9 s c

theorem n10_at (Y : Loads Ideal) (e c : Fin 256) :
    n10 Y (ix2 e c) = Ker.weffQ C (params (T0 Y)) e c :=
  pay3_apply Y.y6 Y.y8 e c

theorem n12_at (Y : Loads Ideal) (s : Fin 64) (c : Fin 256) :
    n12 Y (ix2 s c) = Ker.beff (params (T0 Y)) (params (T0 Y)).ke (params (T0 Y)).wkT (params (T0 Y)).wkB
      (params (T0 Y)).bk s c :=
  pay4_apply Y.y7 Y.y10 Y.y4 Y.y11 s c

theorem n13_at (Y : Loads Ideal) (e c : Fin 256) :
    n13 Y (ix2 e c) = Ker.weff (params (T0 Y)) (params (T0 Y)).wkT e c :=
  pay5_apply Y.y6 Y.y10 e c

theorem n15_at (Y : Loads Ideal) (s : Fin 64) (c : Fin 256) :
    n15 Y (ix2 s c) = Ker.beff (params (T0 Y)) (params (T0 Y)).ve (params (T0 Y)).wvT (params (T0 Y)).wvB
      (params (T0 Y)).bv s c :=
  pay6_apply Y.y7 Y.y12 Y.y5 Y.y13 s c

theorem n16_at (Y : Loads Ideal) (e c : Fin 256) :
    n16 Y (ix2 e c) = Ker.weff (params (T0 Y)) (params (T0 Y)).wvT e c :=
  pay7_apply Y.y6 Y.y12 e c

/-! ### The three projections of the first layer -/

theorem n11_at (Y : Loads Ideal) (b : Fin 32) (s : Fin 64) (c : Fin 256) :
    n11 Y (ix3 b s c) = Ker.q3 C (params (T0 Y)) (X0 Y b) s c := by
  refine (pay30_apply (n9 Y) (n10 Y) (n3 Y) b s c).trans ?_
  simp only [n3_at, n9_at, n10_at]
  rfl

theorem n14_at (Y : Loads Ideal) (b : Fin 32) (s : Fin 64) (c : Fin 256) :
    n14 Y (ix3 b s c) = Ker.k3 (params (T0 Y)) (X0 Y b) s c := by
  refine (pay31_apply (n12 Y) (n13 Y) (n3 Y) b s c).trans ?_
  simp only [n3_at, n12_at, n13_at]
  rfl

theorem n17_at (Y : Loads Ideal) (b : Fin 32) (s : Fin 64) (c : Fin 256) :
    n17 Y (ix3 b s c) = Ker.v3 (params (T0 Y)) (X0 Y b) s c := by
  refine (pay32_apply (n15 Y) (n16 Y) (n3 Y) b s c).trans ?_
  simp only [n3_at, n15_at, n16_at]
  rfl

end Cert.KernelIdeal.Spine

end
-- ==== Proof.KerHead.lean ====
/-
  The per-head pieces of attention, each read at one entry, for a head whose 32 lanes start at lane `off` of the
  [32, 64, 256] projections.

  * the unnormalised weights: exp of the scores (query row s against key row t over the head's 32 lanes) shifted by
    the additive mask table [64, 64]; narrowing to bf16 is the identity at the extended reals;
  * the weighted sum of the head's value lanes over the 64 key rows;
  * the weights viewed as a [2048, 64] table (row 64·b + s is query row s of batch row b), and that table multiplied
    by a [64, 8] column selector: the sum over key rows t of weight times selector entry.
-/
import proofs.«141667_g2000002524955183_pallasbulk_3_44_alg».proof.Proof.Gen.KernelIdeal.Skeleton
import proofs.«141667_g2000002524955183_pallasbulk_3_44_alg».proof.Proof.KerDots
import Idealize.ShloMosaic.Lib.ValueIdx
import Idealize.ShloMosaic.Lib.ValueLayout
import Idealize.ShloMosaic.Lib.Pipeline.Value

noncomputable section

namespace Cert.KernelIdeal.Read

open Idealize.ShloMosaic Idealize.ShloMosaic.ValueIdx Cert.KernelIdeal
open scoped BigOperators

/-- A 32-lane slice at lane `off` of a [32, 64, 256] table, at (b, s, d): the table at lane off + d. -/
theorem lanes_at {φ : FTy} (off : ℕ) (hoff : off + 32 ≤ 256) (h : S32x64x256.Slices ![0, 0, off] S32x64x32)
    (x : FVec Ideal S32x64x256 φ) (b : Fin 32) (s : Fin 64) (d : Fin 32) :
    extractStridedSlice S32x64x32 ![0, 0, off] x h (ix3 b s d) = x (ix3 b s ⟨off + d.val, by omega⟩) :=
  extractStridedSlice_apply _ x h (ix3 b s d) (ix3 b s ⟨off + d.val, by omega⟩) fun a =>
    match a with
    | ⟨0, _⟩ => by show b.val = 0 + b.val; omega
    | ⟨1, _⟩ => by show s.val = 0 + s.val; omega
    | ⟨2, _⟩ => rfl

/-- The [64, 64] mask table, given a leading unit axis and repeated over the 32 batch rows, at (b, s, t). -/
theorem mask_at (hc : S64x64.ShapeCasts S1x64x64) (hb : S1x64x64.Broadcasts S32x64x64)
    (mask : FVec Ideal S64x64 .f32) (b : Fin 32) (s t : Fin 64) :
    broadcastTo S32x64x64 (shapeCast S1x64x64 mask hc) hb (ix3 b s t) = mask (ix2 s t) := by
  refine (broadcastTo_apply _ hb (ix3 b s t) (ix3 (0 : Fin 1) s t) ?_).trans (shapeCast_ab_1ab_apply _ _ _ _ _)
  intro a
  match a with
  | ⟨0, _⟩ => rfl
  | ⟨1, _⟩ => rfl
  | ⟨2, _⟩ => rfl

/-- The unnormalised weights of a head from its two 32-lane slices, at (b, s, t). -/
theorem weights_of_slices_at (hc : S64x64.ShapeCasts S1x64x64) (hb : S1x64x64.Broadcasts S32x64x64)
    (hlt : FTy.bits .bf16 < FTy.bits .f32)
    (mask : FVec Ideal S64x64 .f32) (qh kh : FVec Ideal S32x64x32 .bf16) (b : Fin 32) (s t : Fin 64) :
    truncf .bf16 (exp (addf (matmul dot_S32x64x32_S32x64x32_S32x64x64_2_2_1_1_0_0 none qh kh
        (constant S32x64x64 .f32 0x00000000#32))
      (broadcastTo S32x64x64 (shapeCast S1x64x64 mask hc) hb))) hlt (ix3 b s t)
      = Ideal.exp ((∑ d : Fin 32, qh (ix3 b s d) * kh (ix3 b t d)) + mask (ix2 s t)) :=
  congrArg Ideal.exp (congrArg₂ (fun x y : EReal => x + y) (dot_scores_at qh kh b s t) (mask_at hc hb mask b s t))

/-- The unnormalised weights of the head at lane `off`, from the full projections, at (b, s, t). -/
theorem weights_at (off : ℕ) (hoff : off + 32 ≤ 256) (h : S32x64x256.Slices ![0, 0, off] S32x64x32)
    (hc : S64x64.ShapeCasts S1x64x64) (hb : S1x64x64.Broadcasts S32x64x64) (hlt : FTy.bits .bf16 < FTy.bits .f32)
    (mask : FVec Ideal S64x64 .f32) (q k : FVec Ideal S32x64x256 .bf16) (b : Fin 32) (s t : Fin 64) :
    truncf .bf16 (exp (addf (matmul dot_S32x64x32_S32x64x32_S32x64x64_2_2_1_1_0_0 none
        (extractStridedSlice S32x64x32 ![0, 0, off] q h) (extractStridedSlice S32x64x32 ![0, 0, off] k h)
        (constant S32x64x64 .f32 0x00000000#32))
      (broadcastTo S32x64x64 (shapeCast S1x64x64 mask hc) hb))) hlt (ix3 b s t)
      = Ideal.exp ((∑ d : Fin 32, q (ix3 b s ⟨off + d.val, by omega⟩) * k (ix3 b t ⟨off + d.val, by omega⟩))
          + mask (ix2 s t)) := by
  refine (weights_of_slices_at hc hb hlt mask _ _ b s t).trans ?_
  refine congrArg Ideal.exp (congrArg₂ (fun x y : EReal => x + y) (Finset.sum_congr rfl fun d _ => ?_) rfl)
  exact congrArg₂ (fun x y : EReal => x * y) (lanes_at off hoff h q b s d) (lanes_at off hoff h k b t d)

/-- The weighted sum of the value lanes of the head at lane `off`, at (b, s, d). -/
theorem weighted_at (off : ℕ) (hoff : off + 32 ≤ 256) (h : S32x64x256.Slices ![0, 0, off] S32x64x32)
    (p : FVec Ideal S32x64x64 .bf16) (v : FVec Ideal S32x64x256 .bf16) (b : Fin 32) (s : Fin 64) (d : Fin 32) :
    matmul dot_S32x64x64_S32x64x32_S32x64x32_2_1_1_2_0_0 none p (extractStridedSlice S32x64x32 ![0, 0, off] v h)
        (constant S32x64x32 .f32 0x00000000#32) (ix3 b s d)
      = ∑ t : Fin 64, p (ix3 b s t) * v (ix3 b t ⟨off + d.val, by omega⟩) := by
  refine (dot_weighted_at p _ b s d).trans (Finset.sum_congr rfl fun t _ => ?_)
  exact congrArg (fun y : EReal => p (ix3 b s t) * y) (lanes_at off hoff h v b t d)

/-- A [32, 64, 64] table viewed as [2048, 64]: row 64·b + s is row s of batch row b. -/
theorem rows_at {φ : FTy} (hc : S32x64x64.ShapeCasts S2048x64) (p : FVec Ideal S32x64x64 φ)
    (b : Fin 32) (s t : Fin 64) :
    shapeCast S2048x64 p hc (ix2 ⟨64 * b.val + s.val, by omega⟩ t) = p (ix3 b s t) :=
  shapeCast_apply p hc _ (ix3 b s t) (by
    rw [Shape.rowMajor_val_two, Shape.rowMajor_val_three]
    show (b.val * 64 + s.val) * 64 + t.val = (64 * b.val + s.val) * 64 + t.val
    omega)

/-- The [2048, 64] view of a weights table times a [64, 8] column selector, at row 64·b + s and column g. -/
theorem selected_at (hc : S32x64x64.ShapeCasts S2048x64) (p : FVec Ideal S32x64x64 .bf16)
    (sel : FVec Ideal S64x8 .bf16) (b : Fin 32) (s : Fin 64) (g : Fin 8) :
    matmul dot_S2048x64_S64x8_S2048x8_1_0_0_1_n_n none (shapeCast S2048x64 p hc) sel
        (constant S2048x8 .f32 0x00000000#32) (ix2 ⟨64 * b.val + s.val, by omega⟩ g)
      = ∑ t : Fin 64, p (ix3 b s t) * sel (ix2 t g) := by
  refine (dot_2048x64_64x8_at _ sel _ g).trans (Finset.sum_congr rfl fun t _ => ?_)
  exact congrArg (fun y : EReal => y * sel (ix2 t g)) (rows_at hc p b s t)

end Cert.KernelIdeal.Read

end
-- ==== Proof.KerPay33_39.lean ====
/-
  The first two heads of the first encoder layer (lanes 0–31 and 32–63), read at one entry, down to the activations x
  and the parameters; and the slices of the query and key projections for the head at lane 64.

  With q, k, v the three projections (entry (b, s, c) is Σ_e x[64·b + s, e] · w[e, c] + bias[s, c]), a head at lane
  `off` has unnormalised weights  exp(Σ_l q[b, s, off + l] · k[b, t, off + l] + mask[s, t]),  its output before
  normalisation is  Σ_t weight[b, s, t] · v[b, t, off + d],  and the running table of denominators adds, per head,
  Σ_t weight[b, s, t] · selector[t, g]  at row 64·b + s.
-/
import proofs.«141667_g2000002524955183_pallasbulk_3_44_alg».proof.Proof.Gen.KernelIdeal.Skeleton
import proofs.«141667_g2000002524955183_pallasbulk_3_44_alg».proof.Proof.KerPay29_32
import proofs.«141667_g2000002524955183_pallasbulk_3_44_alg».proof.Proof.KerHead
import Idealize.ShloMosaic.Lib.ValueIdx

noncomputable section

namespace Cert.KernelIdeal.Read

open Idealize.ShloMosaic Idealize.ShloMosaic.ValueIdx Cert.KernelIdeal
open scoped BigOperators

/-- The unnormalised weights of the head at lane 0, from the activations and the query / key parameters. -/
theorem pay33_apply (v18 : FVec Ideal S64x256 .f32) (v19 : FVec Ideal S256x256 .bf16) (v32 : FVec Ideal S64x256 .f32) (v33 : FVec Ideal S256x256 .bf16)
    (v107 : FVec Ideal S2048x256 .f32) (v113 : FVec Ideal S64x64 .f32) (b : Fin 32) (s t : Fin 64) :
    Gen.k0_pay33 v18 v19 v32 v33 v107 v113 (ix3 b s t)
      = Ideal.exp ((∑ l : Fin 32, ((∑ e : Fin 256, v107 (ix2 ⟨64 * b.val + s.val, by omega⟩ e) * v19 (ix2 e ⟨0 + l.val, by omega⟩)) + v18 (ix2 s ⟨0 + l.val, by omega⟩)) * ((∑ e : Fin 256, v107 (ix2 ⟨64 * b.val + t.val, by omega⟩ e) * v33 (ix2 e ⟨0 + l.val, by omega⟩)) + v32 (ix2 t ⟨0 + l.val, by omega⟩))) + v113 (ix2 s t)) := by
  unfold Gen.k0_pay33
  refine (weights_at 0 (by omega) _ _ _ _ v113 _ _ b s t).trans ?_
  refine congrArg Ideal.exp (congrArg₂ (fun x y : EReal => x + y) (Finset.sum_congr rfl fun l _ => ?_) rfl)
  exact congrArg₂ (fun x y : EReal => x * y) (pay30_apply v18 v19 v107 b s _) (pay31_apply v32 v33 v107 b t _)

/-- The weighted sum of the value lanes of the head at lane 0: over key rows t, weight times value entry. -/
theorem pay34_apply (v18 : FVec Ideal S64x256 .f32) (v19 : FVec Ideal S256x256 .bf16) (v32 : FVec Ideal S64x256 .f32) (v33 : FVec Ideal S256x256 .bf16)
    (v46 : FVec Ideal S64x256 .f32) (v47 : FVec Ideal S256x256 .bf16) (v107 : FVec Ideal S2048x256 .f32) (v113 : FVec Ideal S64x64 .f32)
    (b : Fin 32) (s : Fin 64) (d : Fin 32) :
    Gen.k0_pay34 v18 v19 v32 v33 v46 v47 v107 v113 (ix3 b s d)
      = ∑ t : Fin 64, Ideal.exp ((∑ l : Fin 32, ((∑ e : Fin 256, v107 (ix2 ⟨64 * b.val + s.val, by omega⟩ e) * v19 (ix2 e ⟨0 + l.val, by omega⟩)) + v18 (ix2 s ⟨0 + l.val, by omega⟩)) * ((∑ e : Fin 256, v107 (ix2 ⟨64 * b.val + t.val, by omega⟩ e) * v33 (ix2 e ⟨0 + l.val, by omega⟩)) + v32 (ix2 t ⟨0 + l.val, by omega⟩))) + v113 (ix2 s t))
          * ((∑ e : Fin 256, v107 (ix2 ⟨64 * b.val + t.val, by omega⟩ e) * v47 (ix2 e ⟨0 + d.val, by omega⟩)) + v46 (ix2 t ⟨0 + d.val, by omega⟩)) := by
  unfold Gen.k0_pay34
  refine (weighted_at 0 (by omega) _ _ _ b s d).trans (Finset.sum_congr rfl fun t _ => ?_)
  exact congrArg₂ (fun x y : EReal => x * y) (pay33_apply v18 v19 v32 v33 v107 v113 b s t) (pay32_apply v46 v47 v107 b t _)

/-- The unnormalised weights of the head at lane 32, from the activations and the query / key parameters. -/
theorem pay35_apply (v18 : FVec Ideal S64x256 .f32) (v19 : FVec Ideal S256x256 .bf16) (v32 : FVec Ideal S64x256 .f32) (v33 : FVec Ideal S256x256 .bf16)
    (v107 : FVec Ideal S2048x256 .f32) (v113 : FVec Ideal S64x64 .f32) (b : Fin 32) (s t : Fin 64) :
    Gen.k0_pay35 v18 v19 v32 v33 v107 v113 (ix3 b s t)
      = Ideal.exp ((∑ l : Fin 32, ((∑ e : Fin 256, v107 (ix2 ⟨64 * b.val + s.val, by omega⟩ e) * v19 (ix2 e ⟨32 + l.val, by omega⟩)) + v18 (ix2 s ⟨32 + l.val, by omega⟩)) * ((∑ e : Fin 256, v107 (ix2 ⟨64 * b.val + t.val, by omega⟩ e) * v33 (ix2 e ⟨32 + l.val, by omega⟩)) + v32 (ix2 t ⟨32 + l.val, by omega⟩))) + v113 (ix2 s t)) := by
  unfold Gen.k0_pay35
  refine (weights_at 32 (by omega) _ _ _ _ v113 _ _ b s t).trans ?_
  refine congrArg Ideal.exp (congrArg₂ (fun x y : EReal => x + y) (Finset.sum_congr rfl fun l _ => ?_) rfl)
  exact congrArg₂ (fun x y : EReal => x * y) (pay30_apply v18 v19 v107 b s _) (pay31_apply v32 v33 v107 b t _)

/-- The weighted sum of the value lanes of the head at lane 32: over key rows t, weight times value entry. -/
theorem pay36_apply (v18 : FVec Ideal S64x256 .f32) (v19 : FVec Ideal S256x256 .bf16) (v32 : FVec Ideal S64x256 .f32) (v33 : FVec Ideal S256x256 .bf16)
    (v46 : FVec Ideal S64x256 .f32) (v47 : FVec Ideal S256x256 .bf16) (v107 : FVec Ideal S2048x256 .f32) (v113 : FVec Ideal S64x64 .f32)
    (b : Fin 32) (s : Fin 64) (d : Fin 32) :
    Gen.k0_pay36 v18 v19 v32 v33 v46 v47 v107 v113 (ix3 b s d)
      = ∑ t : Fin 64, Ideal.exp ((∑ l : Fin 32, ((∑ e : Fin 256, v107 (ix2 ⟨64 * b.val + s.val, by omega⟩ e) * v19 (ix2 e ⟨32 + l.val, by omega⟩)) + v18 (ix2 s ⟨32 + l.val, by omega⟩)) * ((∑ e : Fin 256, v107 (ix2 ⟨64 * b.val + t.val, by omega⟩ e) * v33 (ix2 e ⟨32 + l.val, by omega⟩)) + v32 (ix2 t ⟨32 + l.val, by omega⟩))) + v113 (ix2 s t))
          * ((∑ e : Fin 256, v107 (ix2 ⟨64 * b.val + t.val, by omega⟩ e) * v47 (ix2 e ⟨32 + d.val, by omega⟩)) + v46 (ix2 t ⟨32 + d.val, by omega⟩)) := by
  unfold Gen.k0_pay36
  refine (weighted_at 32 (by omega) _ _ _ b s d).trans (Finset.sum_congr rfl fun t _ => ?_)
  exact congrArg₂ (fun x y : EReal => x * y) (pay35_apply v18 v19 v32 v33 v107 v113 b s t) (pay32_apply v46 v47 v107 b t _)

/-- The denominators' table after the first two heads, at row 64·b + s and column g. -/
theorem pay37_apply (v18 : FVec Ideal S64x256 .f32) (v19 : FVec Ideal S256x256 .bf16) (v32 : FVec Ideal S64x256 .f32) (v33 : FVec Ideal S256x256 .bf16)
    (v107 : FVec Ideal S2048x256 .f32) (v113 : FVec Ideal S64x64 .f32) (v121 : FVec Ideal S64x8 .bf16) (v127 : FVec Ideal S64x8 .bf16)
    (b : Fin 32) (s : Fin 64) (g : Fin 8) :
    Gen.k0_pay37 v18 v19 v32 v33 v107 v113 v121 v127 (ix2 ⟨64 * b.val + s.val, by omega⟩ g)
      = (∑ t : Fin 64, Ideal.exp ((∑ l : Fin 32, ((∑ e : Fin 256, v107 (ix2 ⟨64 * b.val + s.val, by omega⟩ e) * v19 (ix2 e ⟨0 + l.val, by omega⟩)) + v18 (ix2 s ⟨0 + l.val, by omega⟩)) * ((∑ e : Fin 256, v107 (ix2 ⟨64 * b.val + t.val, by omega⟩ e) * v33 (ix2 e ⟨0 + l.val, by omega⟩)) + v32 (ix2 t ⟨0 + l.val, by omega⟩))) + v113 (ix2 s t)) * v121 (ix2 t g))
        + (∑ t : Fin 64, Ideal.exp ((∑ l : Fin 32, ((∑ e : Fin 256, v107 (ix2 ⟨64 * b.val + s.val, by omega⟩ e) * v19 (ix2 e ⟨32 + l.val, by omega⟩)) + v18 (ix2 s ⟨32 + l.val, by omega⟩)) * ((∑ e : Fin 256, v107 (ix2 ⟨64 * b.val + t.val, by omega⟩ e) * v33 (ix2 e ⟨32 + l.val, by omega⟩)) + v32 (ix2 t ⟨32 + l.val, by omega⟩))) + v113 (ix2 s t)) * v127 (ix2 t g)) := by
  unfold Gen.k0_pay37
  refine congrArg₂ (fun x y : EReal => x + y) ?_ ?_
  · refine (selected_at _ _ v121 b s g).trans (Finset.sum_congr rfl fun t _ => ?_)
    exact congrArg (fun y : EReal => y * v121 (ix2 t g)) (pay33_apply v18 v19 v32 v33 v107 v113 b s t)
  · refine (selected_at _ _ v127 b s g).trans (Finset.sum_congr rfl fun t _ => ?_)
    exact congrArg (fun y : EReal => y * v127 (ix2 t g)) (pay35_apply v18 v19 v32 v33 v107 v113 b s t)

/-- The query projection's lanes 64–95. -/
theorem pay38_apply (v18 : FVec Ideal S64x256 .f32) (v19 : FVec Ideal S256x256 .bf16) (v107 : FVec Ideal S2048x256 .f32)
    (b : Fin 32) (s : Fin 64) (d : Fin 32) :
    Gen.k0_pay38 v18 v19 v107 (ix3 b s d) = ((∑ e : Fin 256, v107 (ix2 ⟨64 * b.val + s.val, by omega⟩ e) * v19 (ix2 e ⟨64 + d.val, by omega⟩)) + v18 (ix2 s ⟨64 + d.val, by omega⟩)) := by
  unfold Gen.k0_pay38
  exact (lanes_at 64 (by omega) _ _ b s d).trans (pay30_apply v18 v19 v107 b s _)

/-- The key projection's lanes 64–95. -/
theorem pay39_apply (v32 : FVec Ideal S64x256 .f32) (v33 : FVec Ideal S256x256 .bf16) (v107 : FVec Ideal S2048x256 .f32)
    (b : Fin 32) (s : Fin 64) (d : Fin 32) :
    Gen.k0_pay39 v32 v33 v107 (ix3 b s d) = ((∑ e : Fin 256, v107 (ix2 ⟨64 * b.val + s.val, by omega⟩ e) * v33 (ix2 e ⟨64 + d.val, by omega⟩)) + v32 (ix2 s ⟨64 + d.val, by omega⟩)) := by
  unfold Gen.k0_pay39
  exact (lanes_at 64 (by omega) _ _ b s d).trans (pay31_apply v32 v33 v107 b s _)

end Cert.KernelIdeal.Read

end
-- ==== Proof.KerPay40_49.lean ====
/-
  The heads at lanes 64, 96, 128 and 160 of the first encoder layer, read at one entry over the projection tables
  q, k, v (each [32, 64, 256]) and the mask table, and the denominators' table after the heads at lanes 64, 96, 128.

  A head at lane `off` has unnormalised weights  exp(Σ_l q[b, s, off + l] · k[b, t, off + l] + mask[s, t]);  its
  output before normalisation is  Σ_t weight[b, s, t] · v[b, t, off + d];  the denominators' table adds, per head,
  Σ_t weight[b, s, t] · selector[t, g]  at row 64·b + s. The head at lane 64 receives its query and key lanes
  already sliced.
-/
import proofs.«141667_g2000002524955183_pallasbulk_3_44_alg».proof.Proof.Gen.KernelIdeal.Skeleton
import proofs.«141667_g2000002524955183_pallasbulk_3_44_alg».proof.Proof.KerHead
import Idealize.ShloMosaic.Lib.ValueIdx

noncomputable section

namespace Cert.KernelIdeal.Read

open Idealize.ShloMosaic Idealize.ShloMosaic.ValueIdx Cert.KernelIdeal
open scoped BigOperators

/-- The unnormalised weights of the head at lane 64, from its query and key lanes. -/
theorem pay40_apply (v113 : FVec Ideal S64x64 .f32) (v238 : FVec Ideal S32x64x32 .bf16) (v239 : FVec Ideal S32x64x32 .bf16)
    (b : Fin 32) (s t : Fin 64) :
    Gen.k0_pay40 v113 v238 v239 (ix3 b s t) = Ideal.exp ((∑ l : Fin 32, v238 (ix3 b s l) * v239 (ix3 b t l)) + v113 (ix2 s t)) := by
  unfold Gen.k0_pay40
  exact weights_of_slices_at _ _ _ v113 v238 v239 b s t

/-- The weighted sum of the value lanes of the head at lane 64. -/
theorem pay41_apply (v113 : FVec Ideal S64x64 .f32) (v212 : FVec Ideal S32x64x256 .bf16)
    (v238 : FVec Ideal S32x64x32 .bf16) (v239 : FVec Ideal S32x64x32 .bf16) (b : Fin 32) (s : Fin 64) (d : Fin 32) :
    Gen.k0_pay41 v113 v212 v238 v239 (ix3 b s d)
      = ∑ t : Fin 64, Ideal.exp ((∑ l : Fin 32, v238 (ix3 b s l) * v239 (ix3 b t l)) + v113 (ix2 s t))
          * v212 (ix3 b t ⟨64 + d.val, by omega⟩) := by
  unfold Gen.k0_pay41
  refine (weighted_at 64 (by omega) _ _ v212 b s d).trans (Finset.sum_congr rfl fun t _ => ?_)
  exact congrArg (fun y : EReal => y * v212 (ix3 b t ⟨64 + d.val, by omega⟩)) (pay40_apply v113 v238 v239 b s t)

/-- The unnormalised weights of the head at lane 96, from the query and key projection tables. -/
theorem pay42_apply (v113 : FVec Ideal S64x64 .f32) (v200 : FVec Ideal S32x64x256 .bf16) (v206 : FVec Ideal S32x64x256 .bf16)
    (b : Fin 32) (s t : Fin 64) :
    Gen.k0_pay42 v113 v200 v206 (ix3 b s t)
      = Ideal.exp ((∑ l : Fin 32, v200 (ix3 b s ⟨96 + l.val, by omega⟩) * v206 (ix3 b t ⟨96 + l.val, by omega⟩)) + v113 (ix2 s t)) := by
  unfold Gen.k0_pay42
  exact weights_at 96 (by omega) _ _ _ _ v113 v200 v206 b s t

/-- The weighted sum of the value lanes of the head at lane 96, from the three projection tables. -/
theorem pay43_apply (v113 : FVec Ideal S64x64 .f32) (v200 : FVec Ideal S32x64x256 .bf16) (v206 : FVec Ideal S32x64x256 .bf16)
    (v212 : FVec Ideal S32x64x256 .bf16) (b : Fin 32) (s : Fin 64) (d : Fin 32) :
    Gen.k0_pay43 v113 v200 v206 v212 (ix3 b s d)
      = ∑ t : Fin 64, Ideal.exp ((∑ l : Fin 32, v200 (ix3 b s ⟨96 + l.val, by omega⟩) * v206 (ix3 b t ⟨96 + l.val, by omega⟩)) + v113 (ix2 s t))
          * v212 (ix3 b t ⟨96 + d.val, by omega⟩) := by
  unfold Gen.k0_pay43
  refine (weighted_at 96 (by omega) _ _ v212 b s d).trans (Finset.sum_congr rfl fun t _ => ?_)
  exact congrArg (fun y : EReal => y * v212 (ix3 b t ⟨96 + d.val, by omega⟩)) (pay42_apply v113 v200 v206 b s t)

/-- The unnormalised weights of the head at lane 128, from the query and key projection tables. -/
theorem pay44_apply (v113 : FVec Ideal S64x64 .f32) (v200 : FVec Ideal S32x64x256 .bf16) (v206 : FVec Ideal S32x64x256 .bf16)
    (b : Fin 32) (s t : Fin 64) :
    Gen.k0_pay44 v113 v200 v206 (ix3 b s t)
      = Ideal.exp ((∑ l : Fin 32, v200 (ix3 b s ⟨128 + l.val, by omega⟩) * v206 (ix3 b t ⟨128 + l.val, by omega⟩)) + v113 (ix2 s t)) := by
  unfold Gen.k0_pay44
  exact weights_at 128 (by omega) _ _ _ _ v113 v200 v206 b s t

/-- The weighted sum of the value lanes of the head at lane 128, from the three projection tables. -/
theorem pay45_apply (v113 : FVec Ideal S64x64 .f32) (v200 : FVec Ideal S32x64x256 .bf16) (v206 : FVec Ideal S32x64x256 .bf16)
    (v212 : FVec Ideal S32x64x256 .bf16) (b : Fin 32) (s : Fin 64) (d : Fin 32) :
    Gen.k0_pay45 v113 v200 v206 v212 (ix3 b s d)
      = ∑ t : Fin 64, Ideal.exp ((∑ l : Fin 32, v200 (ix3 b s ⟨128 + l.val, by omega⟩) * v206 (ix3 b t ⟨128 + l.val, by omega⟩)) + v113 (ix2 s t))
          * v212 (ix3 b t ⟨128 + d.val, by omega⟩) := by
  unfold Gen.k0_pay45
  refine (weighted_at 128 (by omega) _ _ v212 b s d).trans (Finset.sum_congr rfl fun t _ => ?_)
  exact congrArg (fun y : EReal => y * v212 (ix3 b t ⟨128 + d.val, by omega⟩)) (pay44_apply v113 v200 v206 b s t)

/-- The denominators' table after the heads at lanes 64, 96 and 128, at row 64·b + s and column g: the table so far
    plus, head by head, the sum over key rows of weight times selector entry. -/
theorem pay46_apply (v113 : FVec Ideal S64x64 .f32) (v133 : FVec Ideal S64x8 .bf16) (v139 : FVec Ideal S64x8 .bf16)
    (v145 : FVec Ideal S64x8 .bf16) (v200 : FVec Ideal S32x64x256 .bf16) (v206 : FVec Ideal S32x64x256 .bf16)
    (v237 : FVec Ideal S2048x8 .f32) (v238 : FVec Ideal S32x64x32 .bf16) (v239 : FVec Ideal S32x64x32 .bf16)
    (b : Fin 32) (s : Fin 64) (g : Fin 8) :
    Gen.k0_pay46 v113 v133 v139 v145 v200 v206 v237 v238 v239 (ix2 ⟨64 * b.val + s.val, by omega⟩ g)
      = ((v237 (ix2 ⟨64 * b.val + s.val, by omega⟩ g)
            + ∑ t : Fin 64, Ideal.exp ((∑ l : Fin 32, v238 (ix3 b s l) * v239 (ix3 b t l)) + v113 (ix2 s t)) * v133 (ix2 t g))
          + ∑ t : Fin 64, Ideal.exp ((∑ l : Fin 32, v200 (ix3 b s ⟨96 + l.val, by omega⟩) * v206 (ix3 b t ⟨96 + l.val, by omega⟩)) + v113 (ix2 s t)) * v139 (ix2 t g))
        + ∑ t : Fin 64, Ideal.exp ((∑ l : Fin 32, v200 (ix3 b s ⟨128 + l.val, by omega⟩) * v206 (ix3 b t ⟨128 + l.val, by omega⟩)) + v113 (ix2 s t)) * v145 (ix2 t g) := by
  unfold Gen.k0_pay46
  refine congrArg₂ (fun x y : EReal => x + y) (congrArg₂ (fun x y : EReal => x + y)
    (congrArg (fun y : EReal => v237 (ix2 ⟨64 * b.val + s.val, by omega⟩ g) + y) ?_) ?_) ?_
  · refine (selected_at _ _ v133 b s g).trans (Finset.sum_congr rfl fun t _ => ?_)
    exact congrArg (fun y : EReal => y * v133 (ix2 t g)) (pay40_apply v113 v238 v239 b s t)
  · refine (selected_at _ _ v139 b s g).trans (Finset.sum_congr rfl fun t _ => ?_)
    exact congrArg (fun y : EReal => y * v139 (ix2 t g)) (pay42_apply v113 v200 v206 b s t)
  · refine (selected_at _ _ v145 b s g).trans (Finset.sum_congr rfl fun t _ => ?_)
    exact congrArg (fun y : EReal => y * v145 (ix2 t g)) (pay44_apply v113 v200 v206 b s t)

/-- The unnormalised weights of the head at lane 160, from the query and key projection tables. -/
theorem pay47_apply (v113 : FVec Ideal S64x64 .f32) (v200 : FVec Ideal S32x64x256 .bf16) (v206 : FVec Ideal S32x64x256 .bf16)
    (b : Fin 32) (s t : Fin 64) :
    Gen.k0_pay47 v113 v200 v206 (ix3 b s t)
      = Ideal.exp ((∑ l : Fin 32, v200 (ix3 b s ⟨160 + l.val, by omega⟩) * v206 (ix3 b t ⟨160 + l.val, by omega⟩)) + v113 (ix2 s t)) := by
  unfold Gen.k0_pay47
  exact weights_at 160 (by omega) _ _ _ _ v113 v200 v206 b s t

/-- The weighted sum of the value lanes of the head at lane 160, from the three projection tables. -/
theorem pay48_apply (v113 : FVec Ideal S64x64 .f32) (v200 : FVec Ideal S32x64x256 .bf16) (v206 : FVec Ideal S32x64x256 .bf16)
    (v212 : FVec Ideal S32x64x256 .bf16) (b : Fin 32) (s : Fin 64) (d : Fin 32) :
    Gen.k0_pay48 v113 v200 v206 v212 (ix3 b s d)
      = ∑ t : Fin 64, Ideal.exp ((∑ l : Fin 32, v200 (ix3 b s ⟨160 + l.val, by omega⟩) * v206 (ix3 b t ⟨160 + l.val, by omega⟩)) + v113 (ix2 s t))
          * v212 (ix3 b t ⟨160 + d.val, by omega⟩) := by
  unfold Gen.k0_pay48
  refine (weighted_at 160 (by omega) _ _ v212 b s d).trans (Finset.sum_congr rfl fun t _ => ?_)
  exact congrArg (fun y : EReal => y * v212 (ix3 b t ⟨160 + d.val, by omega⟩)) (pay47_apply v113 v200 v206 b s t)

/-- The weights of the head at lane 160 viewed as a [2048, 64] table, at row 64·b + s. -/
theorem pay49_apply (v113 : FVec Ideal S64x64 .f32) (v200 : FVec Ideal S32x64x256 .bf16) (v206 : FVec Ideal S32x64x256 .bf16)
    (b : Fin 32) (s t : Fin 64) :
    Gen.k0_pay49 v113 v200 v206 (ix2 ⟨64 * b.val + s.val, by omega⟩ t)
      = Ideal.exp ((∑ l : Fin 32, v200 (ix3 b s ⟨160 + l.val, by omega⟩) * v206 (ix3 b t ⟨160 + l.val, by omega⟩)) + v113 (ix2 s t)) := by
  unfold Gen.k0_pay49
  exact (rows_at _ _ b s t).trans (pay47_apply v113 v200 v206 b s t)

end Cert.KernelIdeal.Read

end
-- ==== Proof.KerSpineB.lean ====
/-
  The fused kernel's body against the fused order of the layer (second part: the attention heads of
  the first layer up to the gathered normalising sums of heads 0 to 4 and head 5's weights).

  Head `h` occupies the 32 channels from `32 * h`, which is the flat position `flat h l` of lane `l`.
  A few constant tables of the body (the mask, the averaging matrix, the one-hot columns, the
  ones-block matrix) enter through the record `Consts0` of their readings.
-/
import proofs.«141667_g2000002524955183_pallasbulk_3_44_alg».proof.Proof.KerSpineA
import proofs.«141667_g2000002524955183_pallasbulk_3_44_alg».proof.Proof.KerPay33_39
import proofs.«141667_g2000002524955183_pallasbulk_3_44_alg».proof.Proof.KerPay40_49

noncomputable section

namespace Cert.KernelIdeal.Spine

open Idealize.ShloMosaic Idealize.ShloMosaic.ValueIdx Cert.KernelIdeal Cert.KernelIdeal.Gen
open Cert.KernelIdeal.Dag Cert.KernelIdeal.Read
open Cert.Spec Cert.Lib.LibFloatWords Cert.Lib.LibHeadSplit Cert.Lib.LibRealClosure
open scoped BigOperators

/-- The readings of the body's constant tables: the causal mask, the averaging matrix (every entry
    `1/256`), the eight one-hot columns and the ones-block matrix. -/
structure ConstTabs (Y : Loads Ideal) : Prop where
  mask : ∀ s t : Fin 64, n4 Y (ix2 s t) = mask s t
  avg : ∀ e c : Fin 256, n0 Y (ix2 e c) = C.cInv
  sel0 : ∀ (t : Fin 64) (g : Fin 8), n28 Y (ix2 t g) = Ker.sel (0 : Fin 8) g
  sel1 : ∀ (t : Fin 64) (g : Fin 8), n29 Y (ix2 t g) = Ker.sel (1 : Fin 8) g
  sel2 : ∀ (t : Fin 64) (g : Fin 8), n25 Y (ix2 t g) = Ker.sel (2 : Fin 8) g
  sel3 : ∀ (t : Fin 64) (g : Fin 8), n26 Y (ix2 t g) = Ker.sel (3 : Fin 8) g
  sel4 : ∀ (t : Fin 64) (g : Fin 8), n27 Y (ix2 t g) = Ker.sel (4 : Fin 8) g
  sel5 : ∀ (t : Fin 64) (g : Fin 8), n5 Y (ix2 t g) = Ker.sel (5 : Fin 8) g
  sel6 : ∀ (t : Fin 64) (g : Fin 8), n6 Y (ix2 t g) = Ker.sel (6 : Fin 8) g
  sel7 : ∀ (t : Fin 64) (g : Fin 8), n7 Y (ix2 t g) = Ker.sel (7 : Fin 8) g
  rep : ∀ (g : Fin 8) (j : Fin 256), n8 Y (ix2 g j) = Ker.rep (H := 8) (L := 32) g j

variable {Y : Loads Ideal}

/-! ### Heads 0 and 1 -/

theorem p0_at (hc : ConstTabs Y) (b : Fin 32) (s t : Fin 64) :
    k0_pay33 (n9 Y) (n10 Y) (n12 Y) (n13 Y) (n3 Y) (n4 Y) (ix3 b s t)
      = Ker.p C (params (T0 Y)) mask (X0 Y b) (0 : Fin 8) s t := by
  refine (pay33_apply (n9 Y) (n10 Y) (n12 Y) (n13 Y) (n3 Y) (n4 Y) b s t).trans ?_
  simp only [n3_at, n9_at, n10_at, n12_at, n13_at, hc.mask]
  rfl

theorem n18_at (hc : ConstTabs Y) (b : Fin 32) (s : Fin 64) (l : Fin 32) :
    n18 Y (ix3 b s l) = Ker.part C (params (T0 Y)) mask (X0 Y b) (0 : Fin 8) s l := by
  refine (pay34_apply (n9 Y) (n10 Y) (n12 Y) (n13 Y) (n15 Y) (n16 Y) (n3 Y) (n4 Y) b s l).trans ?_
  simp only [n3_at, n9_at, n10_at, n12_at, n13_at, n15_at, n16_at, hc.mask]
  rfl

theorem p1_at (hc : ConstTabs Y) (b : Fin 32) (s t : Fin 64) :
    k0_pay35 (n9 Y) (n10 Y) (n12 Y) (n13 Y) (n3 Y) (n4 Y) (ix3 b s t)
      = Ker.p C (params (T0 Y)) mask (X0 Y b) (1 : Fin 8) s t := by
  refine (pay35_apply (n9 Y) (n10 Y) (n12 Y) (n13 Y) (n3 Y) (n4 Y) b s t).trans ?_
  simp only [n3_at, n9_at, n10_at, n12_at, n13_at, hc.mask]
  rfl

theorem n19_at (hc : ConstTabs Y) (b : Fin 32) (s : Fin 64) (l : Fin 32) :
    n19 Y (ix3 b s l) = Ker.part C (params (T0 Y)) mask (X0 Y b) (1 : Fin 8) s l := by
  refine (pay36_apply (n9 Y) (n10 Y) (n12 Y) (n13 Y) (n15 Y) (n16 Y) (n3 Y) (n4 Y) b s l).trans ?_
  simp only [n3_at, n9_at, n10_at, n12_at, n13_at, n15_at, n16_at, hc.mask]
  rfl

/-- The gathered sums after heads 0 and 1. -/
theorem n30_at (hc : ConstTabs Y) (b : Fin 32) (s : Fin 64) (g : Fin 8) :
    n30 Y (ix2 (row b s) g)
      = (∑ t, Ker.p C (params (T0 Y)) mask (X0 Y b) (0 : Fin 8) s t * Ker.sel (0 : Fin 8) g)
        + (∑ t, Ker.p C (params (T0 Y)) mask (X0 Y b) (1 : Fin 8) s t * Ker.sel (1 : Fin 8) g) := by
  refine (pay37_apply (n9 Y) (n10 Y) (n12 Y) (n13 Y) (n3 Y) (n4 Y) (n28 Y) (n29 Y) b s g).trans ?_
  simp only [n3_at, n9_at, n10_at, n12_at, n13_at, hc.mask, hc.sel0, hc.sel1]
  rfl

/-! ### Head 2 -/

theorem n20_at (b : Fin 32) (s : Fin 64) (d : Fin 32) :
    n20 Y (ix3 b s d) = Ker.q3 C (params (T0 Y)) (X0 Y b) s (flat (2 : Fin 8) d) := by
  refine (pay38_apply (n9 Y) (n10 Y) (n3 Y) b s d).trans ?_
  simp only [n3_at, n9_at, n10_at]
  rfl

theorem n21_at (b : Fin 32) (s : Fin 64) (d : Fin 32) :
    n21 Y (ix3 b s d) = Ker.k3 (params (T0 Y)) (X0 Y b) s (flat (2 : Fin 8) d) := by
  refine (pay39_apply (n12 Y) (n13 Y) (n3 Y) b s d).trans ?_
  simp only [n3_at, n12_at, n13_at]
  rfl

theorem p2_at (hc : ConstTabs Y) (b : Fin 32) (s t : Fin 64) :
    k0_pay40 (n4 Y) (n20 Y) (n21 Y) (ix3 b s t) = Ker.p C (params (T0 Y)) mask (X0 Y b) (2 : Fin 8) s t := by
  refine (pay40_apply (n4 Y) (n20 Y) (n21 Y) b s t).trans ?_
  simp only [n20_at, n21_at, hc.mask]
  rfl

theorem n22_at (hc : ConstTabs Y) (b : Fin 32) (s : Fin 64) (l : Fin 32) :
    n22 Y (ix3 b s l) = Ker.part C (params (T0 Y)) mask (X0 Y b) (2 : Fin 8) s l := by
  refine (pay41_apply (n4 Y) (n17 Y) (n20 Y) (n21 Y) b s l).trans ?_
  simp only [n17_at, n20_at, n21_at, hc.mask]
  rfl

/-! ### Heads 3, 4 and 5 -/

theorem p3_at (hc : ConstTabs Y) (b : Fin 32) (s t : Fin 64) :
    k0_pay42 (n4 Y) (n11 Y) (n14 Y) (ix3 b s t) = Ker.p C (params (T0 Y)) mask (X0 Y b) (3 : Fin 8) s t := by
  refine (pay42_apply (n4 Y) (n11 Y) (n14 Y) b s t).trans ?_
  simp only [n11_at, n14_at, hc.mask]
  rfl

theorem n23_at (hc : ConstTabs Y) (b : Fin 32) (s : Fin 64) (l : Fin 32) :
    n23 Y (ix3 b s l) = Ker.part C (params (T0 Y)) mask (X0 Y b) (3 : Fin 8) s l := by
  refine (pay43_apply (n4 Y) (n11 Y) (n14 Y) (n17 Y) b s l).trans ?_
  simp only [n11_at, n14_at, n17_at, hc.mask]
  rfl

theorem p4_at (hc : ConstTabs Y) (b : Fin 32) (s t : Fin 64) :
    k0_pay44 (n4 Y) (n11 Y) (n14 Y) (ix3 b s t) = Ker.p C (params (T0 Y)) mask (X0 Y b) (4 : Fin 8) s t := by
  refine (pay44_apply (n4 Y) (n11 Y) (n14 Y) b s t).trans ?_
  simp only [n11_at, n14_at, hc.mask]
  rfl

theorem n24_at (hc : ConstTabs Y) (b : Fin 32) (s : Fin 64) (l : Fin 32) :
    n24 Y (ix3 b s l) = Ker.part C (params (T0 Y)) mask (X0 Y b) (4 : Fin 8) s l := by
  refine (pay45_apply (n4 Y) (n11 Y) (n14 Y) (n17 Y) b s l).trans ?_
  simp only [n11_at, n14_at, n17_at, hc.mask]
  rfl

/-- The gathered sums after heads 0 to 4. -/
theorem n31_at (hc : ConstTabs Y) (b : Fin 32) (s : Fin 64) (g : Fin 8) :
    n31 Y (ix2 (row b s) g)
      = (((((∑ t, Ker.p C (params (T0 Y)) mask (X0 Y b) (0 : Fin 8) s t * Ker.sel (0 : Fin 8) g)
        + (∑ t, Ker.p C (params (T0 Y)) mask (X0 Y b) (1 : Fin 8) s t * Ker.sel (1 : Fin 8) g))
        + (∑ t, Ker.p C (params (T0 Y)) mask (X0 Y b) (2 : Fin 8) s t * Ker.sel (2 : Fin 8) g))
        + (∑ t, Ker.p C (params (T0 Y)) mask (X0 Y b) (3 : Fin 8) s t * Ker.sel (3 : Fin 8) g))
        + (∑ t, Ker.p C (params (T0 Y)) mask (X0 Y b) (4 : Fin 8) s t * Ker.sel (4 : Fin 8) g)) := by
  refine (pay46_apply (n4 Y) (n25 Y) (n26 Y) (n27 Y) (n11 Y) (n14 Y) (n30 Y) (n20 Y) (n21 Y) b s g).trans ?_
  simp only [n30_at hc, n11_at, n14_at, n20_at, n21_at, hc.mask, hc.sel2, hc.sel3, hc.sel4]
  rfl

theorem p5_at (hc : ConstTabs Y) (b : Fin 32) (s t : Fin 64) :
    k0_pay47 (n4 Y) (n11 Y) (n14 Y) (ix3 b s t) = Ker.p C (params (T0 Y)) mask (X0 Y b) (5 : Fin 8) s t := by
  refine (pay47_apply (n4 Y) (n11 Y) (n14 Y) b s t).trans ?_
  simp only [n11_at, n14_at, hc.mask]
  rfl

theorem n32_at (hc : ConstTabs Y) (b : Fin 32) (s : Fin 64) (l : Fin 32) :
    n32 Y (ix3 b s l) = Ker.part C (params (T0 Y)) mask (X0 Y b) (5 : Fin 8) s l := by
  refine (pay48_apply (n4 Y) (n11 Y) (n14 Y) (n17 Y) b s l).trans ?_
  simp only [n11_at, n14_at, n17_at, hc.mask]
  rfl

theorem n33_at (hc : ConstTabs Y) (b : Fin 32) (s t : Fin 64) :
    n33 Y (ix2 (row b s) t) = Ker.p C (params (T0 Y)) mask (X0 Y b) (5 : Fin 8) s t := by
  refine (pay49_apply (n4 Y) (n11 Y) (n14 Y) b s t).trans ?_
  simp only [n11_at, n14_at, hc.mask]
  rfl

end Cert.KernelIdeal.Spine

end
-- ==== Proof.KerNorm.lean ====
/-
  Layer normalisation through an averaging matrix, a linear layer, and the tanh form of GELU, each read at one entry of a
  [2048, 256] table (one row per token).

  * Normalisation: with m a [256, 256] matrix (every entry 1/256 in the programs, but nothing here depends on it), the
    centred entry is  x[r, c] − Σ_e x[r, e] · m[e, c],  the variance estimate at (r, c) is
    Σ_e (centred[r, e])² · m[e, c],  and the result is  centred · rsqrt(variance + ε) · γ[c] + β[c].
  * Linear layer: both operands narrowed to bf16 (the identity at the extended reals), so entry (r, c) is
    Σ_e x[r, e] · w[e, c] + bias[c].
  * GELU (tanh form):  (½ · h) · (1 + tanh(κ · (h + ((a · h) · h) · h))),  the constants kept as the words the program
    holds.

  For each, a vector-level definition spells the program's sequence of operations once; the entry-level definition is
  the mathematics; the lemma reads the first at (r, c) as the second.
-/
import proofs.«141667_g2000002524955183_pallasbulk_3_44_alg».proof.Proof.Gen.KernelIdeal.Skeleton
import proofs.«141667_g2000002524955183_pallasbulk_3_44_alg».proof.Proof.KerDots
import Idealize.ShloMosaic.Lib.ValueIdx
import Idealize.ShloMosaic.Lib.ValueLayout
import Idealize.ShloMosaic.Lib.Pipeline.Value

noncomputable section

namespace Cert.KernelIdeal.Read

open Idealize.ShloMosaic Idealize.ShloMosaic.ValueIdx Cert.KernelIdeal
open scoped BigOperators

/-! ## Layer normalisation -/

/-- The centred entry: x[r, c] minus the m-average of row r. -/
def cenAt (m : FVec Ideal S256x256 .f32) (x : FVec Ideal S2048x256 .f32) (r : Fin 2048) (c : Fin 256) : EReal :=
  x (ix2 r c) - ∑ e : Fin 256, x (ix2 r e) * m (ix2 e c)

/-- The normalised, scaled and shifted entry. -/
def lnAt (m : FVec Ideal S256x256 .f32) (x : FVec Ideal S2048x256 .f32) (gam bet : Vec Ideal S1x256 .f32)
    (r : Fin 2048) (c : Fin 256) : EReal :=
  (cenAt m x r c * Ideal.rsqrt ((∑ e : Fin 256, (cenAt m x r e * cenAt m x r e) * m (ix2 e c))
      + Ideal.ofBits .f32 0x3727C5AC#32)) * gam (ix2 (0 : Fin 1) c) + bet (ix2 (0 : Fin 1) c)

/-- The program's normalisation of a whole table. -/
def lnVec (hb : S1x256.Broadcasts S2048x256) (m : FVec Ideal S256x256 .f32) (x : FVec Ideal S2048x256 .f32)
    (gam bet : Vec Ideal S1x256 .f32) : FVec Ideal S2048x256 .f32 :=
  addf (mulf (mulf (subf x (matmul dot_S2048x256_S256x256_S2048x256_1_0_0_1_n_n none x m (constant S2048x256 .f32 0x00000000#32)))
      (rsqrt (addf (matmul dot_S2048x256_S256x256_S2048x256_1_0_0_1_n_n none
          (mulf (subf x (matmul dot_S2048x256_S256x256_S2048x256_1_0_0_1_n_n none x m (constant S2048x256 .f32 0x00000000#32))) (subf x (matmul dot_S2048x256_S256x256_S2048x256_1_0_0_1_n_n none x m (constant S2048x256 .f32 0x00000000#32)))) m (constant S2048x256 .f32 0x00000000#32))
        (broadcast S2048x256 (Scalar.ofBits .f32 0x3727C5AC#32 : Ideal .f32)))))
    (broadcastTo S2048x256 gam hb)) (broadcastTo S2048x256 bet hb)

theorem lnVec_at (hb : S1x256.Broadcasts S2048x256) (m : FVec Ideal S256x256 .f32) (x : FVec Ideal S2048x256 .f32)
    (gam bet : Vec Ideal S1x256 .f32) (r : Fin 2048) (c : Fin 256) :
    lnVec hb m x gam bet (ix2 r c) = lnAt m x gam bet r c := by
  have hcen : ∀ c' : Fin 256, subf x (matmul dot_S2048x256_S256x256_S2048x256_1_0_0_1_n_n none x m (constant S2048x256 .f32 0x00000000#32)) (ix2 r c') = cenAt m x r c' := fun c' =>
    congrArg (fun y : EReal => x (ix2 r c') - y) (dot_2048x256_256x256_at x m r c')
  unfold lnVec lnAt
  refine congrArg₂ (fun a b : EReal => a + b) (congrArg₂ (fun a b : EReal => a * b)
    (congrArg₂ (fun a b : EReal => a * b) (hcen c)
      (congrArg Ideal.rsqrt (congrArg (fun y : EReal => y + Ideal.ofBits .f32 0x3727C5AC#32) ?_)))
    (broadcastTo_1b_ab_apply gam hb r c)) (broadcastTo_1b_ab_apply bet hb r c)
  refine (dot_2048x256_256x256_at _ m r c).trans (Finset.sum_congr rfl fun e _ => ?_)
  exact congrArg (fun y : EReal => y * m (ix2 e c)) (congrArg₂ (fun a b : EReal => a * b) (hcen e) (hcen e))

/-! ## A linear layer -/

/-- The program's linear layer on a whole table: both operands narrowed, the product into zero, the bias row added. -/
def linVec (hb : S1x256.Broadcasts S2048x256) (hlt : FTy.bits .bf16 < FTy.bits .f32) (x : FVec Ideal S2048x256 .f32)
    (w : Vec Ideal S256x256 .f32) (bias : Vec Ideal S1x256 .f32) : FVec Ideal S2048x256 .f32 :=
  addf (matmul dot_S2048x256_S256x256_S2048x256_1_0_0_1_n_n none (truncf .bf16 x hlt) (truncf .bf16 w hlt) (constant S2048x256 .f32 0x00000000#32)) (broadcastTo S2048x256 bias hb)

theorem linVec_at (hb : S1x256.Broadcasts S2048x256) (hlt : FTy.bits .bf16 < FTy.bits .f32)
    (x : FVec Ideal S2048x256 .f32) (w : Vec Ideal S256x256 .f32) (bias : Vec Ideal S1x256 .f32)
    (r : Fin 2048) (c : Fin 256) :
    linVec hb hlt x w bias (ix2 r c) = (∑ e : Fin 256, x (ix2 r e) * w (ix2 e c)) + bias (ix2 (0 : Fin 1) c) :=
  congrArg₂ (fun a b : EReal => a + b) (dot_2048x256_256x256_at _ _ r c) (broadcastTo_1b_ab_apply bias hb r c)

/-! ## GELU, tanh form -/

/-- The tanh form of GELU at one value, the four constants as the words the program holds. -/
def geluAt (h : EReal) : EReal :=
  (Ideal.ofBits .f32 0x3F000000#32 * h) * (Ideal.ofBits .f32 0x3F800000#32
    + Ideal.tanh (Ideal.ofBits .f32 0x3F4C422A#32 * (h + ((Ideal.ofBits .f32 0x3D372713#32 * h) * h) * h)))

/-- The program's GELU of a whole table. -/
def geluVec (h : FVec Ideal S2048x256 .f32) : FVec Ideal S2048x256 .f32 :=
  mulf (mulf (broadcast S2048x256 (Scalar.ofBits .f32 0x3F000000#32 : Ideal .f32)) h)
    (addf (broadcast S2048x256 (Scalar.ofBits .f32 0x3F800000#32 : Ideal .f32))
      (tanh (mulf (broadcast S2048x256 (Scalar.ofBits .f32 0x3F4C422A#32 : Ideal .f32))
        (addf h (mulf (mulf (mulf (broadcast S2048x256 (Scalar.ofBits .f32 0x3D372713#32 : Ideal .f32)) h) h) h)))))

theorem geluVec_at (h : FVec Ideal S2048x256 .f32) (i : S2048x256.Idx) : geluVec h i = geluAt (h i) := rfl

end Cert.KernelIdeal.Read

end
-- ==== Proof.LibSoftmaxFold.lean ====
/-
  Softmax with the normalisation folded out, and one-hot bookkeeping.

  (a) A softmax weighting is unchanged when one real number is subtracted from every score before
  the exponential (the textbook order subtracts the row maximum), and dividing each weight by the
  normalising sum is the same as multiplying the unnormalised weighted sum by the reciprocal of
  that sum once. Both hold on REAL scores: the exponential of a difference is the product
  `exp s · exp (-m)`, the common positive factor `exp (-m)` cancels between numerator and
  denominator, and the denominator is a positive real because the index type is nonempty.

  (b) Multiplying by the indicator of one index and summing picks that index out. This needs no
  finiteness: on the extended reals `x * 1 = x` and `x * 0 = 0` for every `x`, the infinities too.

  Style of this and the following modules: families are valued in the extended reals and carry
  hypotheses `∀ i, IsReal (f i)`; each main theorem also has a twin, suffixed `_coe`, whose
  families are real-valued and cast.
-/
import proofs.«141667_g2000002524955183_pallasbulk_3_44_alg».proof.Proof.LibRealClosure

noncomputable section

namespace Cert.Lib.LibSoftmaxFold

open Idealize.ShloMosaic
open Cert.Lib.LibRealClosure
open scoped BigOperators

/-! ### (a) shift invariance, normalisation folded out -/

/-- The sum of exponentials of real scores is the image of the real sum of exponentials. -/
theorem sum_exp_coe {T : Type*} [Fintype T] (s : T → ℝ) :
    ∑ u, Ideal.exp ((s u : ℝ) : EReal) = ((∑ u, Real.exp (s u) : ℝ) : EReal) := by
  rw [coe_sum]; rfl

/-- The sum of exponentials of shifted real scores, likewise. -/
theorem sum_exp_sub_coe {T : Type*} [Fintype T] (s : T → ℝ) (m : ℝ) :
    ∑ u, Ideal.exp (((s u : ℝ) : EReal) - ((m : ℝ) : EReal)) = ((∑ u, Real.exp (s u - m) : ℝ) : EReal) := by
  rw [coe_sum]; exact Finset.sum_congr rfl fun u _ => by rw [← EReal.coe_sub, Ideal.exp_coe]

/-- Over a nonempty index type a sum of exponentials of real numbers is positive. -/
theorem sum_exp_pos {T : Type*} [Fintype T] [Nonempty T] (s : T → ℝ) : 0 < ∑ u, Real.exp (s u) :=
  Finset.sum_pos (fun u _ => Real.exp_pos _) Finset.univ_nonempty

/-- The normalising sum of real scores is a positive real. -/
theorem sum_exp_isReal_pos {T : Type*} [Fintype T] [Nonempty T] (s : T → EReal) (hs : ∀ t, IsReal (s t)) :
    ∃ z : ℝ, 0 < z ∧ ∑ u, Ideal.exp (s u) = (z : EReal) := by
  obtain ⟨s, rfl⟩ := exists_real_family s hs
  exact ⟨_, sum_exp_pos s, sum_exp_coe s⟩

/-- One softmax weight: subtracting `m` from every score changes nothing, and the quotient by the
    normalising sum is the product with its reciprocal. Real-valued scores, cast. -/
theorem softmax_weight_coe {T : Type*} [Fintype T] [Nonempty T] (s : T → ℝ) (m : ℝ) (t : T) :
    Ideal.div (Ideal.exp (((s t : ℝ) : EReal) - ((m : ℝ) : EReal)))
        (∑ u, Ideal.exp (((s u : ℝ) : EReal) - ((m : ℝ) : EReal)))
      = Ideal.exp ((s t : ℝ) : EReal) * Ideal.div 1 (∑ u, Ideal.exp ((s u : ℝ) : EReal)) := by
  have hZm : 0 < ∑ u, Real.exp (s u - m) := sum_exp_pos fun u => s u - m
  have hZ : 0 < ∑ u, Real.exp (s u) := sum_exp_pos s
  rw [sum_exp_sub_coe, sum_exp_coe, ← EReal.coe_sub, Ideal.exp_coe, Ideal.exp_coe, div_coe_coe _ hZm.ne',
    ← EReal.coe_one, div_coe_coe _ hZ.ne', ← EReal.coe_mul]
  congr 1
  have hsplit : ∀ u, Real.exp (s u - m) = Real.exp (s u) * Real.exp (-m) := fun u => by
    rw [sub_eq_add_neg, Real.exp_add]
  simp only [hsplit, ← Finset.sum_mul]
  have hm : Real.exp (-m) ≠ 0 := (Real.exp_pos _).ne'
  field_simp

/-- One softmax weight, for scores that are real entries of the extended reals. -/
theorem softmax_weight {T : Type*} [Fintype T] [Nonempty T] (s : T → EReal) (m : EReal)
    (hs : ∀ t, IsReal (s t)) (hm : IsReal m) (t : T) :
    Ideal.div (Ideal.exp (s t - m)) (∑ u, Ideal.exp (s u - m))
      = Ideal.exp (s t) * Ideal.div 1 (∑ u, Ideal.exp (s u)) := by
  obtain ⟨s, rfl⟩ := exists_real_family s hs
  obtain ⟨m, rfl⟩ := hm
  exact softmax_weight_coe s m t

/-- The softmax-weighted sum of real values: shift invariance with the normalisation folded out.
    Real-valued scores and values, cast. -/
theorem softmax_fold_coe {T : Type*} [Fintype T] [Nonempty T] (s v : T → ℝ) (m : ℝ) :
    ∑ t, Ideal.div (Ideal.exp (((s t : ℝ) : EReal) - ((m : ℝ) : EReal)))
          (∑ u, Ideal.exp (((s u : ℝ) : EReal) - ((m : ℝ) : EReal))) * ((v t : ℝ) : EReal)
      = (∑ t, Ideal.exp ((s t : ℝ) : EReal) * ((v t : ℝ) : EReal))
          * Ideal.div 1 (∑ u, Ideal.exp ((s u : ℝ) : EReal)) := by
  have hZ : 0 < ∑ u, Real.exp (s u) := sum_exp_pos s
  simp only [softmax_weight_coe s m]
  rw [sum_exp_coe, ← EReal.coe_one, div_coe_coe _ hZ.ne']
  simp only [Ideal.exp_coe, ← EReal.coe_mul, ← coe_sum]
  congr 1
  rw [Finset.sum_mul]
  exact Finset.sum_congr rfl fun t _ => by ring

/-- The softmax-weighted sum, for scores and values that are real entries of the extended reals:
    `∑ t, (exp (s t - m) / ∑ u, exp (s u - m)) * v t = (∑ t, exp (s t) * v t) * (1 / ∑ u, exp (s u))`. -/
theorem softmax_fold {T : Type*} [Fintype T] [Nonempty T] (s v : T → EReal) (m : EReal)
    (hs : ∀ t, IsReal (s t)) (hv : ∀ t, IsReal (v t)) (hm : IsReal m) :
    ∑ t, Ideal.div (Ideal.exp (s t - m)) (∑ u, Ideal.exp (s u - m)) * v t
      = (∑ t, Ideal.exp (s t) * v t) * Ideal.div 1 (∑ u, Ideal.exp (s u)) := by
  obtain ⟨s, rfl⟩ := exists_real_family s hs
  obtain ⟨v, rfl⟩ := exists_real_family v hv
  obtain ⟨m, rfl⟩ := hm
  exact softmax_fold_coe s v m

/-- Every softmax weight of real scores is real (so is every weighted value, by `IsReal.mul`). -/
theorem isReal_softmax_weight {T : Type*} [Fintype T] [Nonempty T] (s : T → EReal) (m : EReal)
    (hs : ∀ t, IsReal (s t)) (hm : IsReal m) (t : T) :
    IsReal (Ideal.div (Ideal.exp (s t - m)) (∑ u, Ideal.exp (s u - m))) := by
  obtain ⟨z, hz, e⟩ := sum_exp_isReal_pos (fun u => s u - m) fun u => (hs u).sub hm
  refine ((hs t).sub hm).exp.div ⟨z, e⟩ ?_
  rw [e]; exact_mod_cast hz.ne'

/-- The reciprocal of the normalising sum of real scores is real. -/
theorem isReal_recip_sum_exp {T : Type*} [Fintype T] [Nonempty T] (s : T → EReal)
    (hs : ∀ t, IsReal (s t)) : IsReal (Ideal.div 1 (∑ u, Ideal.exp (s u))) := by
  obtain ⟨z, hz, e⟩ := sum_exp_isReal_pos s hs
  refine isReal_one.div ⟨z, e⟩ ?_
  rw [e]; exact_mod_cast hz.ne'

/-! ### (b) one-hot bookkeeping (no finiteness needed) -/

/-- Summing a family against the indicator of `g` picks out its entry at `g`. -/
theorem sum_mul_onehot {H : Type*} [Fintype H] [DecidableEq H] (d : H → EReal) (g : H) :
    ∑ c, d c * (if g = c then (1 : EReal) else 0) = d g := by
  simp only [mul_ite, mul_one, mul_zero, Finset.sum_ite_eq, Finset.mem_univ, if_true]

/-- The same with the indicator's equation written the other way round. -/
theorem sum_mul_onehot' {H : Type*} [Fintype H] [DecidableEq H] (d : H → EReal) (g : H) :
    ∑ c, d c * (if c = g then (1 : EReal) else 0) = d g := by
  simp only [mul_ite, mul_one, mul_zero, Finset.sum_ite_eq', Finset.mem_univ, if_true]

/-- The same with the indicator on the left of the product. -/
theorem sum_onehot_mul {H : Type*} [Fintype H] [DecidableEq H] (d : H → EReal) (g : H) :
    ∑ c, (if g = c then (1 : EReal) else 0) * d c = d g := by
  simp only [ite_mul, one_mul, zero_mul, Finset.sum_ite_eq, Finset.mem_univ, if_true]

/-- The same, indicator on the left and its equation the other way round. -/
theorem sum_onehot_mul' {H : Type*} [Fintype H] [DecidableEq H] (d : H → EReal) (g : H) :
    ∑ c, (if c = g then (1 : EReal) else 0) * d c = d g := by
  simp only [ite_mul, one_mul, zero_mul, Finset.sum_ite_eq', Finset.mem_univ, if_true]

/-- A double sum against the indicator of `c` in the outer index keeps the inner sum at `c`. -/
theorem sum_sum_mul_onehot {H T : Type*} [Fintype H] [DecidableEq H] [Fintype T] (p : H → T → EReal) (c : H) :
    ∑ h, ∑ t, p h t * (if c = h then (1 : EReal) else 0) = ∑ t, p c t := by
  rw [Finset.sum_comm]
  exact Finset.sum_congr rfl fun t _ => sum_mul_onehot (fun h => p h t) c

/-- The same with the indicator's equation written the other way round. -/
theorem sum_sum_mul_onehot' {H T : Type*} [Fintype H] [DecidableEq H] [Fintype T] (p : H → T → EReal) (c : H) :
    ∑ h, ∑ t, p h t * (if h = c then (1 : EReal) else 0) = ∑ t, p c t := by
  rw [Finset.sum_comm]
  exact Finset.sum_congr rfl fun t _ => sum_mul_onehot' (fun h => p h t) c

/-- The inner index first: `∑ t, ∑ h, p h t * [c = h] = ∑ t, p c t`. -/
theorem sum_sum_mul_onehot_inner {H T : Type*} [Fintype H] [DecidableEq H] [Fintype T] (p : H → T → EReal) (c : H) :
    ∑ t, ∑ h, p h t * (if c = h then (1 : EReal) else 0) = ∑ t, p c t :=
  Finset.sum_congr rfl fun t _ => sum_mul_onehot (fun h => p h t) c

end Cert.Lib.LibSoftmaxFold

end
-- ==== Proof.LibMeanOnes.lean ====
/-
  The mean as a sum of products with a constant reciprocal.

  One program takes a mean by dividing a sum by `n`; the other multiplies every term by the
  constant `1/n` and sums. On real entries these agree: division by a nonzero real is the product
  with its reciprocal, and a product distributes over a finite sum of REALS (on the extended
  reals it does not in general, which is why the entries are assumed real). The module also reads
  the two 32-bit float words involved: `0x3B800000` is `2^(-8) = 1/256` (sign 0, biased exponent
  `0x77 = 119 = 127 - 8`, zero fraction) and `0x43800000` is `2^8 = 256` (biased exponent
  `0x87 = 135 = 127 + 8`, zero fraction).
-/
import proofs.«141667_g2000002524955183_pallasbulk_3_44_alg».proof.Proof.LibRealClosure

noncomputable section

namespace Cert.Lib.LibMeanOnes

open Idealize.ShloMosaic
open Cert.Lib.LibRealClosure
open scoped BigOperators

/-- A sum of real terms each multiplied by a real constant is the sum multiplied by it.
    Real-valued, cast. -/
theorem sum_mul_const_coe {D : Type*} [Fintype D] (y : D → ℝ) (c : ℝ) :
    ∑ k, ((y k : ℝ) : EReal) * ((c : ℝ) : EReal) = (∑ k, ((y k : ℝ) : EReal)) * ((c : ℝ) : EReal) := by
  simp only [← EReal.coe_mul, ← coe_sum, Finset.sum_mul]

/-- A sum of real entries each multiplied by a real constant is the sum multiplied by it. -/
theorem sum_mul_const {D : Type*} [Fintype D] (y : D → EReal) (c : EReal)
    (hy : ∀ k, IsReal (y k)) (hc : IsReal c) : ∑ k, y k * c = (∑ k, y k) * c := by
  obtain ⟨y, rfl⟩ := exists_real_family y hy
  obtain ⟨c, rfl⟩ := hc
  exact sum_mul_const_coe y c

/-- The same with the constant on the left. -/
theorem sum_const_mul {D : Type*} [Fintype D] (y : D → EReal) (c : EReal)
    (hy : ∀ k, IsReal (y k)) (hc : IsReal c) : ∑ k, c * y k = c * ∑ k, y k := by
  simp only [mul_comm c]; exact sum_mul_const y c hy hc

/-- The mean: summing the terms times `1/n` is dividing the sum by `n`. Real-valued, cast. -/
theorem sum_mul_inv_eq_div_coe {D : Type*} [Fintype D] (y : D → ℝ) {n : ℝ} (hn : n ≠ 0) :
    ∑ k, ((y k : ℝ) : EReal) * ((1 / n : ℝ) : EReal) = Ideal.div (∑ k, ((y k : ℝ) : EReal)) ((n : ℝ) : EReal) := by
  rw [Ideal.div_coe hn, sum_mul_const_coe]

/-- The mean, for real entries of the extended reals: `∑ k, y k * (1/n) = (∑ k, y k) / n`. -/
theorem sum_mul_inv_eq_div {D : Type*} [Fintype D] (y : D → EReal) (hy : ∀ k, IsReal (y k))
    {n : ℝ} (hn : n ≠ 0) :
    ∑ k, y k * ((1 / n : ℝ) : EReal) = Ideal.div (∑ k, y k) ((n : ℝ) : EReal) := by
  rw [Ideal.div_coe hn]; exact sum_mul_const y _ hy (isReal_coe _)

/-- The same with the reciprocal given as an extended real `c` known to be the image of `1/n` and
    the divisor as an extended real `d` known to be the image of `n` (two float constants). -/
theorem sum_mul_eq_div_of_eq {D : Type*} [Fintype D] (y : D → EReal) (hy : ∀ k, IsReal (y k))
    {n : ℝ} (hn : n ≠ 0) {c d : EReal} (hc : c = ((1 / n : ℝ) : EReal)) (hd : d = ((n : ℝ) : EReal)) :
    ∑ k, y k * c = Ideal.div (∑ k, y k) d := by
  rw [hc, hd]; exact sum_mul_inv_eq_div y hy hn

/-- The float word `0x3B800000` is `1/256`. -/
theorem ofBits_inv256 : Ideal.ofBits .f32 0x3B800000#32 = ((1 / 256 : ℝ) : EReal) := by
  simp [Ideal.ofBits, Ideal.ieee, -EReal.coe_mul]; norm_num

/-- The float word `0x43800000` is `256`. -/
theorem ofBits_256 : Ideal.ofBits .f32 0x43800000#32 = ((256 : ℝ) : EReal) := by
  simp [Ideal.ofBits, Ideal.ieee, -EReal.coe_mul]; norm_num

/-- Both float words are real entries. -/
theorem isReal_ofBits_inv256 : IsReal (Ideal.ofBits .f32 0x3B800000#32) := ⟨_, ofBits_inv256⟩
theorem isReal_ofBits_256 : IsReal (Ideal.ofBits .f32 0x43800000#32) := ⟨_, ofBits_256⟩

/-- The mean over 256 terms with the two float words: multiplying each term by the word for
    `1/256` and summing is dividing the sum by the word for `256`. -/
theorem sum_mul_inv256_eq_div256 {D : Type*} [Fintype D] (y : D → EReal) (hy : ∀ k, IsReal (y k)) :
    ∑ k, y k * Ideal.ofBits .f32 0x3B800000#32 = Ideal.div (∑ k, y k) (Ideal.ofBits .f32 0x43800000#32) :=
  sum_mul_eq_div_of_eq y hy (by norm_num : (256 : ℝ) ≠ 0) ofBits_inv256 ofBits_256

end Cert.Lib.LibMeanOnes

end
-- ==== Proof.LibProjCollapse.lean ====
/-
  The collapsed projection.

  One program applies an affine map `x ↦ x · W₀ + b₀` and then contracts the result against a
  second weight vector `w`, adds two more real terms and (optionally) scales; the other contracts
  `x` against the pre-multiplied weights `(W₀ · w) · sc` and adds the pre-multiplied bias. On REAL
  entries the two agree by distributivity and by exchanging the two finite sums:
  `∑ j, (∑ e, x e · W₀ e j + b₀ j) · w j = ∑ e, x e · (∑ j, W₀ e j · w j) + ∑ j, b₀ j · w j`.
  (On the extended reals products do not distribute over sums in general: the entries are assumed
  real.) Each statement has a twin suffixed `_coe` over real-valued families, cast.
-/
import proofs.«141667_g2000002524955183_pallasbulk_3_44_alg».proof.Proof.LibRealClosure

noncomputable section

namespace Cert.Lib.LibProjCollapse

open Idealize.ShloMosaic
open Cert.Lib.LibRealClosure
open scoped BigOperators

variable {E J : Type*} [Fintype E] [Fintype J]

/-- The exchange of sums on real numbers. -/
theorem core_real (x : E → ℝ) (w0 : E → J → ℝ) (b0 wq : J → ℝ) :
    ∑ j, (∑ e, x e * w0 e j + b0 j) * wq j
      = ∑ e, x e * (∑ j, w0 e j * wq j) + ∑ j, b0 j * wq j := by
  simp only [add_mul, Finset.sum_add_distrib, Finset.sum_mul, Finset.mul_sum]
  rw [Finset.sum_comm]
  congr 1
  exact Finset.sum_congr rfl fun e _ => Finset.sum_congr rfl fun j _ => by ring

/-- The affine map followed by a contraction is the contraction against the pre-multiplied
    weights plus the contracted bias. Real-valued, cast. -/
theorem proj_core_coe (x : E → ℝ) (w0 : E → J → ℝ) (b0 wq : J → ℝ) :
    ∑ j, (∑ e, ((x e : ℝ) : EReal) * ((w0 e j : ℝ) : EReal) + ((b0 j : ℝ) : EReal)) * ((wq j : ℝ) : EReal)
      = ∑ e, ((x e : ℝ) : EReal) * (∑ j, ((w0 e j : ℝ) : EReal) * ((wq j : ℝ) : EReal))
          + ∑ j, ((b0 j : ℝ) : EReal) * ((wq j : ℝ) : EReal) := by
  exact_mod_cast congrArg (fun r : ℝ => (r : EReal)) (core_real x w0 b0 wq)

/-- The collapsed projection without the scale. Real-valued, cast. -/
theorem proj_collapse_coe (x : E → ℝ) (w0 : E → J → ℝ) (b0 wq : J → ℝ) (em bq : ℝ) :
    (∑ j, (∑ e, ((x e : ℝ) : EReal) * ((w0 e j : ℝ) : EReal) + ((b0 j : ℝ) : EReal)) * ((wq j : ℝ) : EReal))
        + ((em : ℝ) : EReal) + ((bq : ℝ) : EReal)
      = ∑ e, ((x e : ℝ) : EReal) * (∑ j, ((w0 e j : ℝ) : EReal) * ((wq j : ℝ) : EReal))
          + ((∑ j, ((b0 j : ℝ) : EReal) * ((wq j : ℝ) : EReal)) + ((em : ℝ) : EReal) + ((bq : ℝ) : EReal)) := by
  rw [proj_core_coe, add_assoc, add_assoc, add_assoc]

/-- The collapsed projection with the scale. Real-valued, cast. -/
theorem proj_collapse_scaled_coe (x : E → ℝ) (w0 : E → J → ℝ) (b0 wq : J → ℝ) (em bq sc : ℝ) :
    ((∑ j, (∑ e, ((x e : ℝ) : EReal) * ((w0 e j : ℝ) : EReal) + ((b0 j : ℝ) : EReal)) * ((wq j : ℝ) : EReal))
        + ((em : ℝ) : EReal) + ((bq : ℝ) : EReal)) * ((sc : ℝ) : EReal)
      = ∑ e, ((x e : ℝ) : EReal) * ((∑ j, ((w0 e j : ℝ) : EReal) * ((wq j : ℝ) : EReal)) * ((sc : ℝ) : EReal))
          + ((∑ j, ((b0 j : ℝ) : EReal) * ((wq j : ℝ) : EReal)) + ((em : ℝ) : EReal) + ((bq : ℝ) : EReal))
              * ((sc : ℝ) : EReal) := by
  have key : ((∑ j, (∑ e, x e * w0 e j + b0 j) * wq j) + em + bq) * sc
      = ∑ e, x e * ((∑ j, w0 e j * wq j) * sc) + ((∑ j, b0 j * wq j) + em + bq) * sc := by
    have h2 : ∑ e, x e * ((∑ j, w0 e j * wq j) * sc) = (∑ e, x e * (∑ j, w0 e j * wq j)) * sc := by
      rw [Finset.sum_mul]; exact Finset.sum_congr rfl fun e _ => by ring
    rw [core_real, h2]; ring
  exact_mod_cast congrArg (fun r : ℝ => (r : EReal)) key

/-- The affine map followed by a contraction, for real entries of the extended reals. -/
theorem proj_core (x : E → EReal) (w0 : E → J → EReal) (b0 wq : J → EReal)
    (hx : ∀ e, IsReal (x e)) (hw0 : ∀ e j, IsReal (w0 e j)) (hb0 : ∀ j, IsReal (b0 j))
    (hwq : ∀ j, IsReal (wq j)) :
    ∑ j, (∑ e, x e * w0 e j + b0 j) * wq j
      = ∑ e, x e * (∑ j, w0 e j * wq j) + ∑ j, b0 j * wq j := by
  obtain ⟨x, rfl⟩ := exists_real_family x hx
  obtain ⟨w0, rfl⟩ := exists_real_family₂ w0 hw0
  obtain ⟨b0, rfl⟩ := exists_real_family b0 hb0
  obtain ⟨wq, rfl⟩ := exists_real_family wq hwq
  exact proj_core_coe x w0 b0 wq

/-- The collapsed projection without the scale, for real entries of the extended reals:
    `(∑ j, (∑ e, x e * w0 e j + b0 j) * wq j) + em + bq
      = ∑ e, x e * (∑ j, w0 e j * wq j) + ((∑ j, b0 j * wq j) + em + bq)`. -/
theorem proj_collapse (x : E → EReal) (w0 : E → J → EReal) (b0 wq : J → EReal) (em bq : EReal)
    (hx : ∀ e, IsReal (x e)) (hw0 : ∀ e j, IsReal (w0 e j)) (hb0 : ∀ j, IsReal (b0 j))
    (hwq : ∀ j, IsReal (wq j)) :
    (∑ j, (∑ e, x e * w0 e j + b0 j) * wq j) + em + bq
      = ∑ e, x e * (∑ j, w0 e j * wq j) + ((∑ j, b0 j * wq j) + em + bq) := by
  rw [proj_core x w0 b0 wq hx hw0 hb0 hwq, add_assoc, add_assoc, add_assoc]

/-- The collapsed projection with the scale, for real entries of the extended reals:
    `((∑ j, (∑ e, x e * w0 e j + b0 j) * wq j) + em + bq) * sc
      = ∑ e, x e * ((∑ j, w0 e j * wq j) * sc) + ((∑ j, b0 j * wq j) + em + bq) * sc`. -/
theorem proj_collapse_scaled (x : E → EReal) (w0 : E → J → EReal) (b0 wq : J → EReal) (em bq sc : EReal)
    (hx : ∀ e, IsReal (x e)) (hw0 : ∀ e j, IsReal (w0 e j)) (hb0 : ∀ j, IsReal (b0 j))
    (hwq : ∀ j, IsReal (wq j)) (hem : IsReal em) (hbq : IsReal bq) (hsc : IsReal sc) :
    ((∑ j, (∑ e, x e * w0 e j + b0 j) * wq j) + em + bq) * sc
      = ∑ e, x e * ((∑ j, w0 e j * wq j) * sc) + ((∑ j, b0 j * wq j) + em + bq) * sc := by
  obtain ⟨x, rfl⟩ := exists_real_family x hx
  obtain ⟨w0, rfl⟩ := exists_real_family₂ w0 hw0
  obtain ⟨b0, rfl⟩ := exists_real_family b0 hb0
  obtain ⟨wq, rfl⟩ := exists_real_family wq hwq
  obtain ⟨em, rfl⟩ := hem
  obtain ⟨bq, rfl⟩ := hbq
  obtain ⟨sc, rfl⟩ := hsc
  exact proj_collapse_scaled_coe x w0 b0 wq em bq sc

/-- The collapsed weight and the collapsed bias are real entries. -/
theorem isReal_collapsed_weight (w0 : E → J → EReal) (wq : J → EReal) (sc : EReal)
    (hw0 : ∀ e j, IsReal (w0 e j)) (hwq : ∀ j, IsReal (wq j)) (hsc : IsReal sc) (e : E) :
    IsReal ((∑ j, w0 e j * wq j) * sc) :=
  (isReal_sum_univ _ fun j => (hw0 e j).mul (hwq j)).mul hsc

theorem isReal_collapsed_bias (b0 wq : J → EReal) (em bq sc : EReal)
    (hb0 : ∀ j, IsReal (b0 j)) (hwq : ∀ j, IsReal (wq j)) (hem : IsReal em) (hbq : IsReal bq)
    (hsc : IsReal sc) : IsReal (((∑ j, b0 j * wq j) + em + bq) * sc) :=
  (((isReal_sum_univ _ fun j => (hb0 j).mul (hwq j)).add hem).add hbq).mul hsc

end Cert.Lib.LibProjCollapse

end
-- ==== Proof.AttnSpecEq.lean ====
/-
  The fused order and the textbook order of one encoder layer agree on real entries, and the result
  is real again (so that a second layer can be chained on the first).

  The steps: (1) a projection of the first affine map's output is the contraction against the
  collapsed weight plus the collapsed bias (distributivity and an exchange of two finite sums); so the
  fused scores are the textbook scores; (2) the softmax weights do not change when the row maximum
  is subtracted from the scores, and dividing each weight by the row's sum is multiplying the
  unnormalised weighted values by the reciprocal of that sum; (3) contracting against one-hot columns
  gathers each head's sum into that head's column, and contracting the reciprocals against the
  ones-block matrix hands every channel its own head's reciprocal; (4) a sum over the channels is the
  double sum over heads and lanes, which turns the single output contraction into the heads' shares;
  (5) a contraction against the constant `1/n` is the sum divided by `n`, for the mean and for the
  variance. All of these need real entries: products do not distribute over sums on the extended
  reals in general.
-/
import proofs.«141667_g2000002524955183_pallasbulk_3_44_alg».proof.Proof.AttnSpecRef
import proofs.«141667_g2000002524955183_pallasbulk_3_44_alg».proof.Proof.AttnSpecKer
import proofs.«141667_g2000002524955183_pallasbulk_3_44_alg».proof.Proof.LibSoftmaxFold
import proofs.«141667_g2000002524955183_pallasbulk_3_44_alg».proof.Proof.LibMeanOnes
import proofs.«141667_g2000002524955183_pallasbulk_3_44_alg».proof.Proof.LibProjCollapse

noncomputable section

namespace Cert.Spec

open Idealize.ShloMosaic
open Cert.Lib.LibRealClosure
open Cert.Lib.LibHeadSplit
open Cert.Lib.LibSoftmaxFold
open Cert.Lib.LibMeanOnes
open Cert.Lib.LibProjCollapse
open scoped BigOperators

variable {S J : Type} [Fintype S] [Nonempty S] [Fintype J] {H L : ℕ}
variable {C : Consts} {n : ℝ} {P : LayerParams S J H L} {mask : S → S → EReal}
variable {x : S → Fin (H * L) → EReal}

/-! ### Real entries of the textbook order -/

theorem isReal_src1 (hP : P.Real) (hx : ∀ s c, IsReal (x s c)) (s : S) (j : J) :
    IsReal (Ref.src1 P x s j) :=
  (isReal_sum_univ _ fun e => (hx s e).mul (hP.w0 e j)).add (hP.b0 j)

theorem isReal_proj (hP : P.Real) (hx : ∀ s c, IsReal (x s c)) {emb : S → J → EReal}
    {wT wB : J → Fin (H * L) → EReal} {b : Fin (H * L) → EReal} (hemb : ∀ s j, IsReal (emb s j))
    (hwT : ∀ j c, IsReal (wT j c)) (hwB : ∀ j c, IsReal (wB j c)) (hb : ∀ c, IsReal (b c)) (s : S)
    (c : Fin (H * L)) : IsReal (Ref.proj P x emb wT wB b s c) :=
  ((isReal_sum_univ _ fun j => (isReal_src1 hP hx s j).mul (hwT j c)).add
    (isReal_sum_univ _ fun j => (hemb s j).mul (hwB j c))).add (hb c)

theorem isReal_q (hP : P.Real) (hx : ∀ s c, IsReal (x s c)) (s : S) (c : Fin (H * L)) :
    IsReal (Ref.q P x s c) := isReal_proj hP hx hP.qe hP.wqT hP.wqB hP.bq s c
theorem isReal_k (hP : P.Real) (hx : ∀ s c, IsReal (x s c)) (s : S) (c : Fin (H * L)) :
    IsReal (Ref.k P x s c) := isReal_proj hP hx hP.ke hP.wkT hP.wkB hP.bk s c
theorem isReal_v (hP : P.Real) (hx : ∀ s c, IsReal (x s c)) (s : S) (c : Fin (H * L)) :
    IsReal (Ref.v P x s c) := isReal_proj hP hx hP.ve hP.wvT hP.wvB hP.bv s c

theorem isReal_scores (hC : C.Real n) (hP : P.Real) (hmask : ∀ s t, IsReal (mask s t))
    (hx : ∀ s c, IsReal (x s c)) (h : Fin H) (s t : S) : IsReal (Ref.scores C P mask x h s t) :=
  (isReal_sum_univ _ fun l => ((isReal_q hP hx s _).mul hC.scale).mul (isReal_k hP hx t _)).add (hmask s t)

theorem isReal_rowMax (hC : C.Real n) (hP : P.Real) (hmask : ∀ s t, IsReal (mask s t))
    (hx : ∀ s c, IsReal (x s c)) (h : Fin H) (s : S) : IsReal (Ref.rowMax C P mask x h s) :=
  isReal_fold_max_univ _ fun t => isReal_scores hC hP hmask hx h s t

theorem isReal_prob (hC : C.Real n) (hP : P.Real) (hmask : ∀ s t, IsReal (mask s t))
    (hx : ∀ s c, IsReal (x s c)) (h : Fin H) (s t : S) : IsReal (Ref.prob C P mask x h s t) :=
  isReal_softmax_weight (fun t => Ref.scores C P mask x h s t) (Ref.rowMax C P mask x h s)
    (fun t => isReal_scores hC hP hmask hx h s t) (isReal_rowMax hC hP hmask hx h s) t

theorem isReal_headOut (hC : C.Real n) (hP : P.Real) (hmask : ∀ s t, IsReal (mask s t))
    (hx : ∀ s c, IsReal (x s c)) (h : Fin H) (s : S) (l : Fin L) : IsReal (Ref.headOut C P mask x h s l) :=
  isReal_sum_univ _ fun t => (isReal_prob hC hP hmask hx h s t).mul (isReal_v hP hx t _)

theorem isReal_attn (hC : C.Real n) (hP : P.Real) (hmask : ∀ s t, IsReal (mask s t))
    (hx : ∀ s c, IsReal (x s c)) (s : S) (c : Fin (H * L)) : IsReal (Ref.attn C P mask x s c) :=
  (isReal_sum_univ _ fun h => isReal_sum_univ _ fun l =>
    (isReal_headOut hC hP hmask hx h s l).mul (hP.wo _ c)).add (hP.bo c)

theorem isReal_y1 (hC : C.Real n) (hP : P.Real) (hmask : ∀ s t, IsReal (mask s t))
    (hx : ∀ s c, IsReal (x s c)) (s : S) (c : Fin (H * L)) : IsReal (Ref.y1 C P mask x s c) :=
  (hx s c).add (isReal_attn hC hP hmask hx s c)

/-! ### The normalisation on a real table -/

theorem cN_ne_zero (hC : C.Real n) : C.cN ≠ 0 := by
  rw [hC.cN]; exact_mod_cast hC.n_pos.ne'

theorem isReal_lnMean (hC : C.Real n) {y : S → Fin (H * L) → EReal} (hy : ∀ s c, IsReal (y s c)) (s : S) :
    IsReal (Ref.lnMean C y s) :=
  (isReal_sum_univ _ fun c => hy s c).div ⟨n, hC.cN⟩ (cN_ne_zero hC)

/-- The variance of a real row is a nonnegative real. -/
theorem lnVar_nonneg (hC : C.Real n) {y : S → Fin (H * L) → EReal} (hy : ∀ s c, IsReal (y s c)) (s : S) :
    ∃ r : ℝ, 0 ≤ r ∧ Ref.lnVar C y s = (r : EReal) := by
  obtain ⟨m, hm⟩ := isReal_lnMean hC hy s
  obtain ⟨g, hg⟩ := exists_real_family (y s) (hy s)
  have hrow : ∀ c, y s c = ((g c : ℝ) : EReal) := fun c => congrFun hg c
  refine ⟨(∑ c, (g c - m) * (g c - m)) / n, div_nonneg (Finset.sum_nonneg fun c _ => mul_self_nonneg _) hC.n_pos.le, ?_⟩
  unfold Ref.lnVar
  rw [hm, hC.cN]
  simp only [hrow, ← EReal.coe_sub, ← EReal.coe_mul, ← coe_sum]
  exact div_coe_coe _ hC.n_pos.ne'

theorem isReal_lnVar (hC : C.Real n) {y : S → Fin (H * L) → EReal} (hy : ∀ s c, IsReal (y s c)) (s : S) :
    IsReal (Ref.lnVar C y s) := by
  obtain ⟨r, _, h⟩ := lnVar_nonneg hC hy s; exact ⟨r, h⟩

theorem isReal_layerNorm (hC : C.Real n) {y : S → Fin (H * L) → EReal} {g b : Fin (H * L) → EReal}
    (hy : ∀ s c, IsReal (y s c)) (hg : ∀ c, IsReal (g c)) (hb : ∀ c, IsReal (b c)) (s : S)
    (c : Fin (H * L)) : IsReal (Ref.layerNorm C y g b s c) := by
  obtain ⟨r, hr, hv⟩ := lnVar_nonneg hC hy s
  obtain ⟨e, he, hee⟩ := hC.epsLn_pos
  have hrs : IsReal (Ideal.rsqrt (Ref.lnVar C y s + C.epsLn)) := by
    rw [hv, hee, ← EReal.coe_add]; exact isReal_rsqrt_of_pos (by linarith)
  exact ((((hy s c).sub (isReal_lnMean hC hy s)).mul hrs).mul (hg c)).add (hb c)

/-! ### The feed-forward tail on a real table -/

theorem isReal_ffnOut (hC : C.Real n) (hP : P.Real) {z : S → Fin (H * L) → EReal}
    (hz : ∀ s c, IsReal (z s c)) (s : S) (c : Fin (H * L)) : IsReal (Ref.ffnOut C P z s c) :=
  (isReal_sum_univ _ fun k =>
    (isReal_gelu hC ((isReal_sum_univ _ fun k' => (hz s k').mul (hP.w1 k' k)).add (hP.b1 k))).mul
      (hP.w2 k c)).add (hP.b2 c)

theorem isReal_y2 (hC : C.Real n) (hP : P.Real) {z : S → Fin (H * L) → EReal}
    (hz : ∀ s c, IsReal (z s c)) (s : S) (c : Fin (H * L)) : IsReal (Ref.y2 C P z s c) :=
  (hz s c).add (isReal_ffnOut hC hP hz s c)

theorem isReal_tail (hC : C.Real n) (hP : P.Real) {z : S → Fin (H * L) → EReal}
    (hz : ∀ s c, IsReal (z s c)) (s : S) (c : Fin (H * L)) : IsReal (Ref.tail C P z s c) :=
  isReal_layerNorm hC (isReal_y2 hC hP hz) hP.g2 hP.be2 s c

theorem isReal_x1 (hC : C.Real n) (hP : P.Real) (hmask : ∀ s t, IsReal (mask s t))
    (hx : ∀ s c, IsReal (x s c)) (s : S) (c : Fin (H * L)) : IsReal (Ref.x1 C P mask x s c) :=
  isReal_layerNorm hC (isReal_y1 hC hP hmask hx) hP.g1 hP.be1 s c

/-- Every entry of the layer's result is real. -/
theorem isReal_layer (hC : C.Real n) (hP : P.Real) (hmask : ∀ s t, IsReal (mask s t))
    (hx : ∀ s c, IsReal (x s c)) (s : S) (c : Fin (H * L)) : IsReal (Ref.layer C P mask x s c) :=
  isReal_tail hC hP (isReal_x1 hC hP hmask hx) s c

/-! ### (1) The collapsed projections -/

theorem q3_eq (hC : C.Real n) (hP : P.Real) (hx : ∀ s c, IsReal (x s c)) (s : S) (c : Fin (H * L)) :
    Ker.q3 C P x s c = Ref.q P x s c * C.scale :=
  (proj_collapse_scaled (x s) P.w0 P.b0 (fun j => P.wqT j c) (∑ j, P.qe s j * P.wqB j c) (P.bq c) C.scale
    (hx s) hP.w0 hP.b0 (fun j => hP.wqT j c) (isReal_sum_univ _ fun j => (hP.qe s j).mul (hP.wqB j c))
    (hP.bq c) hC.scale).symm

theorem k3_eq (hP : P.Real) (hx : ∀ s c, IsReal (x s c)) (s : S) (c : Fin (H * L)) :
    Ker.k3 P x s c = Ref.k P x s c :=
  (proj_collapse (x s) P.w0 P.b0 (fun j => P.wkT j c) (∑ j, P.ke s j * P.wkB j c) (P.bk c)
    (hx s) hP.w0 hP.b0 (fun j => hP.wkT j c)).symm

theorem v3_eq (hP : P.Real) (hx : ∀ s c, IsReal (x s c)) (s : S) (c : Fin (H * L)) :
    Ker.v3 P x s c = Ref.v P x s c :=
  (proj_collapse (x s) P.w0 P.b0 (fun j => P.wvT j c) (∑ j, P.ve s j * P.wvB j c) (P.bv c)
    (hx s) hP.w0 hP.b0 (fun j => hP.wvT j c)).symm

/-- The fused scores are the textbook scores. -/
theorem scores_eq (hC : C.Real n) (hP : P.Real) (hx : ∀ s c, IsReal (x s c)) (h : Fin H) (s t : S) :
    Ker.scores C P mask x h s t = Ref.scores C P mask x h s t := by
  unfold Ker.scores Ref.scores Ref.qs
  simp only [q3_eq hC hP hx, k3_eq hP hx]

/-! ### (2) The softmax, unshifted and normalised once -/

/-- The textbook weighted values are the unnormalised ones times the reciprocal of the row's sum. -/
theorem headOut_eq (hC : C.Real n) (hP : P.Real) (hmask : ∀ s t, IsReal (mask s t))
    (hx : ∀ s c, IsReal (x s c)) (h : Fin H) (s : S) (l : Fin L) :
    Ref.headOut C P mask x h s l
      = Ker.part C P mask x h s l * Ideal.div 1 (∑ t, Ker.p C P mask x h s t) := by
  unfold Ref.headOut Ref.prob Ref.denom Ref.expo Ker.part Ker.p
  simp only [scores_eq hC hP hx, v3_eq hP hx]
  exact softmax_fold (fun t => Ref.scores C P mask x h s t) (fun t => Ref.v P x t (flat h l))
    (Ref.rowMax C P mask x h s) (fun t => isReal_scores hC hP hmask hx h s t)
    (fun t => isReal_v hP hx t _) (isReal_rowMax hC hP hmask hx h s)

/-! ### (3) The gathered sums and the spread reciprocals -/

theorem den_eq (s : S) (c' : Fin H) :
    Ker.den C P mask x s c' = ∑ t, Ker.p C P mask x c' s t := by
  unfold Ker.den Ker.sel
  exact sum_sum_mul_onehot (fun h t => Ker.p C P mask x h s t) c'

theorem rden_eq (s : S) (j : Fin (H * L)) :
    Ker.rden C P mask x s j = Ker.rinv C P mask x s j.divNat := by
  unfold Ker.rden Ker.rep
  rw [← sum_mul_onehot (fun c' => Ker.rinv C P mask x s c') j.divNat]
  refine Finset.sum_congr rfl fun c' _ => ?_
  congr 1
  by_cases h : j.divNat = c'
  · have h' : j.val / L = c'.val := by rw [← h]; rfl
    rw [if_pos h, if_pos h']
  · have h' : ¬ j.val / L = c'.val := fun e => h (Fin.ext e)
    rw [if_neg h, if_neg h']

/-! ### (4) The heads' shares -/

theorem divNat_flat (h : Fin H) (l : Fin L) : (flat h l).divNat = h := Fin.ext (flat_div h l)
theorem modNat_flat (h : Fin H) (l : Fin L) : (flat h l).modNat = l := Fin.ext (flat_mod h l)

/-- The fused attention output is the textbook one. -/
theorem attn_eq (hC : C.Real n) (hP : P.Real) (hmask : ∀ s t, IsReal (mask s t))
    (hx : ∀ s c, IsReal (x s c)) (s : S) (c : Fin (H * L)) :
    Ker.attn C P mask x s c = Ref.attn C P mask x s c := by
  unfold Ker.attn Ref.attn Ref.headProj
  congr 1
  rw [sum_fin_mul]
  refine Finset.sum_congr rfl fun h _ => Finset.sum_congr rfl fun l _ => ?_
  show (Ker.o3 C P mask x s (flat h l) * Ker.rden C P mask x s (flat h l)) * P.wo (flat h l) c = _
  rw [rden_eq, headOut_eq hC hP hmask hx]
  unfold Ker.o3 Ker.rinv
  rw [divNat_flat, modNat_flat, den_eq]

theorem y1_eq (hC : C.Real n) (hP : P.Real) (hmask : ∀ s t, IsReal (mask s t))
    (hx : ∀ s c, IsReal (x s c)) : Ker.y1 C P mask x = Ref.y1 C P mask x := by
  funext s c; unfold Ker.y1 Ref.y1; rw [attn_eq hC hP hmask hx]

/-! ### (5) The normalisation -/

theorem lnMu_eq (hC : C.Real n) {y : S → Fin (H * L) → EReal} (hy : ∀ s c, IsReal (y s c)) (s : S)
    (c : Fin (H * L)) : Ker.lnMu C y s c = Ref.lnMean C y s :=
  sum_mul_eq_div_of_eq (y s) (hy s) hC.n_pos.ne' hC.cInv hC.cN

theorem lnVar_eq (hC : C.Real n) {y : S → Fin (H * L) → EReal} (hy : ∀ s c, IsReal (y s c)) (s : S)
    (c : Fin (H * L)) : Ker.lnVar C y s c = Ref.lnVar C y s := by
  unfold Ker.lnVar Ker.lnC Ref.lnVar
  simp only [lnMu_eq hC hy]
  exact sum_mul_eq_div_of_eq (fun k => (y s k - Ref.lnMean C y s) * (y s k - Ref.lnMean C y s))
    (fun k => ((hy s k).sub (isReal_lnMean hC hy s)).mul ((hy s k).sub (isReal_lnMean hC hy s)))
    hC.n_pos.ne' hC.cInv hC.cN

/-- On a real table the two normalisations agree. -/
theorem layerNorm_eq (hC : C.Real n) {y : S → Fin (H * L) → EReal} (hy : ∀ s c, IsReal (y s c))
    (g b : Fin (H * L) → EReal) : Ker.layerNorm C y g b = Ref.layerNorm C y g b := by
  funext s c
  unfold Ker.layerNorm Ref.layerNorm Ker.lnC
  rw [lnMu_eq hC hy, lnVar_eq hC hy]

/-! ### The layer -/

theorem x1_eq (hC : C.Real n) (hP : P.Real) (hmask : ∀ s t, IsReal (mask s t))
    (hx : ∀ s c, IsReal (x s c)) : Ker.x1 C P mask x = Ref.x1 C P mask x := by
  unfold Ker.x1 Ref.x1
  rw [y1_eq hC hP hmask hx]
  exact layerNorm_eq hC (isReal_y1 hC hP hmask hx) _ _

theorem tail_eq (hC : C.Real n) (hP : P.Real) {z : S → Fin (H * L) → EReal} (hz : ∀ s c, IsReal (z s c)) :
    Ker.tail C P z = Ref.tail C P z := by
  unfold Ker.tail Ref.tail
  have hy : Ker.y2 C P z = Ref.y2 C P z := rfl
  rw [hy]
  exact layerNorm_eq hC (isReal_y2 hC hP hz) _ _

/-- The fused layer is the textbook layer, on real parameters and a real input table. -/
theorem layer_eq (hC : C.Real n) (hP : P.Real) (hmask : ∀ s t, IsReal (mask s t))
    (hx : ∀ s c, IsReal (x s c)) : Ker.layer C P mask x = Ref.layer C P mask x := by
  unfold Ker.layer Ref.layer
  rw [x1_eq hC hP hmask hx]
  exact tail_eq hC hP (isReal_x1 hC hP hmask hx)

/-- Two layers chained: the fused order equals the textbook order, and the result is real. -/
theorem layer_layer_eq {P' : LayerParams S J H L} (hC : C.Real n) (hP : P.Real) (hP' : P'.Real)
    (hmask : ∀ s t, IsReal (mask s t)) (hx : ∀ s c, IsReal (x s c)) :
    Ker.layer C P' mask (Ker.layer C P mask x) = Ref.layer C P' mask (Ref.layer C P mask x) := by
  rw [layer_eq hC hP hmask hx]
  exact layer_eq hC hP' hmask (isReal_layer hC hP hmask hx)

theorem isReal_layer_layer {P' : LayerParams S J H L} (hC : C.Real n) (hP : P.Real) (hP' : P'.Real)
    (hmask : ∀ s t, IsReal (mask s t)) (hx : ∀ s c, IsReal (x s c)) (s : S) (c : Fin (H * L)) :
    IsReal (Ref.layer C P' mask (Ref.layer C P mask x) s c) :=
  isReal_layer hC hP' hmask (isReal_layer hC hP hmask hx) s c

end Cert.Spec

end
-- ==== Proof.KerSpineC.lean ====
/-
  The fused kernel's body against the fused order of the layer (third part: the collapsed weights of
  the second layer, and the bridges from the index-level forms of the normalisation, the activation, the
  gathered sums and the concatenated heads to the layer's definitions).
-/
import proofs.«141667_g2000002524955183_pallasbulk_3_44_alg».proof.Proof.KerSpineB
import proofs.«141667_g2000002524955183_pallasbulk_3_44_alg».proof.Proof.KerNorm
import proofs.«141667_g2000002524955183_pallasbulk_3_44_alg».proof.Proof.AttnSpecEq

noncomputable section

namespace Cert.KernelIdeal.Spine

open Idealize.ShloMosaic Idealize.ShloMosaic.ValueIdx Cert.KernelIdeal Cert.KernelIdeal.Gen
open Cert.KernelIdeal.Dag Cert.KernelIdeal.Read
open Cert.Spec Cert.Lib.LibFloatWords Cert.Lib.LibHeadSplit Cert.Lib.LibRealClosure
open scoped BigOperators

variable {Y : Loads Ideal}

/-! ### The collapsed weights and biases of the second layer -/

theorem n38_at (Y : Loads Ideal) (s : Fin 64) (c : Fin 256) :
    n38 Y (ix2 s c) = Ker.beffQ C (params (T1 Y)) s c :=
  pay8_apply Y.y28 Y.y29 Y.y24 Y.y30 s c

theorem n39_at (Y : Loads Ideal) (e c : Fin 256) :
    n39 Y (ix2 e c) = Ker.weffQ C (params (T1 Y)) e c :=
  pay9_apply Y.y27 Y.y29 e c

theorem n41_at (Y : Loads Ideal) (s : Fin 64) (c : Fin 256) :
    n41 Y (ix2 s c) = Ker.beff (params (T1 Y)) (params (T1 Y)).ke (params (T1 Y)).wkT (params (T1 Y)).wkB
      (params (T1 Y)).bk s c :=
  pay10_apply Y.y28 Y.y31 Y.y25 Y.y32 s c

theorem n42_at (Y : Loads Ideal) (e c : Fin 256) :
    n42 Y (ix2 e c) = Ker.weff (params (T1 Y)) (params (T1 Y)).wkT e c :=
  pay11_apply Y.y27 Y.y31 e c

theorem n44_at (Y : Loads Ideal) (s : Fin 64) (c : Fin 256) :
    n44 Y (ix2 s c) = Ker.beff (params (T1 Y)) (params (T1 Y)).ve (params (T1 Y)).wvT (params (T1 Y)).wvB
      (params (T1 Y)).bv s c :=
  pay12_apply Y.y28 Y.y33 Y.y26 Y.y34 s c

theorem n45_at (Y : Loads Ideal) (e c : Fin 256) :
    n45 Y (ix2 e c) = Ker.weff (params (T1 Y)) (params (T1 Y)).wvT e c :=
  pay13_apply Y.y27 Y.y33 e c

/-! ### Bridges -/

/-- A channel is the flat position of its own head and lane. -/
theorem flat_divNat_modNat {H L : ℕ} (j : Fin (H * L)) : flat j.divNat j.modNat = j :=
  Fin.ext (Nat.div_add_mod' j.val L)

/-- A row that reads, at every flat position `(h, l)`, head `h`'s unnormalised output at lane `l`, is the
    concatenation of the heads. -/
theorem o3_of_parts {P : LayerParams (Fin 64) (Fin 128) 8 32} {X : Fin 64 → Fin (8 * 32) → EReal}
    (s : Fin 64) (f : Fin (8 * 32) → EReal)
    (hf : ∀ (h : Fin 8) (l : Fin 32), f (flat h l) = Ker.part C P mask X h s l) (j : Fin (8 * 32)) :
    f j = Ker.o3 C P mask X s j := by
  rw [← flat_divNat_modNat j, hf]
  unfold Ker.o3
  rw [divNat_flat, modNat_flat]

/-- The gathered sums as the eight-term chain the body adds up. -/
theorem den_chain {P : LayerParams (Fin 64) (Fin 128) 8 32} {X : Fin 64 → Fin (8 * 32) → EReal}
    (s : Fin 64) (g : Fin 8) :
    (∑ t, Ker.p C P mask X (0 : Fin 8) s t * Ker.sel (0 : Fin 8) g)
        + (∑ t, Ker.p C P mask X (1 : Fin 8) s t * Ker.sel (1 : Fin 8) g)
        + (∑ t, Ker.p C P mask X (2 : Fin 8) s t * Ker.sel (2 : Fin 8) g)
        + (∑ t, Ker.p C P mask X (3 : Fin 8) s t * Ker.sel (3 : Fin 8) g)
        + (∑ t, Ker.p C P mask X (4 : Fin 8) s t * Ker.sel (4 : Fin 8) g)
        + (∑ t, Ker.p C P mask X (5 : Fin 8) s t * Ker.sel (5 : Fin 8) g)
        + (∑ t, Ker.p C P mask X (6 : Fin 8) s t * Ker.sel (6 : Fin 8) g)
        + (∑ t, Ker.p C P mask X (7 : Fin 8) s t * Ker.sel (7 : Fin 8) g)
      = Ker.den C P mask X s g := by
  unfold Ker.den
  rw [Fin.sum_univ_eight]

/-- The index-level normalisation of a row is the layer's, when the averaging matrix is constantly
    `1/256` and the row reads the table `y` at position `s`. -/
theorem lnAt_spec (m : FVec Ideal S256x256 .f32) (x : FVec Ideal S2048x256 .f32) (gam bet : Vec Ideal S1x256 .f32)
    (hm : ∀ e c : Fin 256, m (ix2 e c) = C.cInv) (y : Fin 64 → Fin (8 * 32) → EReal) (r : Fin 2048) (s : Fin 64)
    (hx : ∀ e : Fin 256, x (ix2 r e) = y s e) (c : Fin 256) :
    lnAt m x gam bet r c
      = Ker.layerNorm C y (fun c => gam (ix2 (0 : Fin 1) (c : Fin 256))) (fun c => bet (ix2 (0 : Fin 1) (c : Fin 256))) s c := by
  unfold lnAt cenAt Ker.layerNorm Ker.lnC Ker.lnMu Ker.lnVar
  simp only [hm, hx]
  rfl

/-- The index-level activation is the layer's. -/
theorem geluAt_spec (h : EReal) : geluAt h = gelu C h := rfl

end Cert.KernelIdeal.Spine

end
-- ==== Proof.KerPay17_28.lean ====
/-
  The constant tables of the fused kernel, read at an entry: the causal additive mask on 64 positions, the constant
  1/256 table the layer normalisations contract with, and the eight one-hot columns of the eight heads (1 in column h of
  every row, 0 elsewhere), which are built by comparing a lane counter with the head's number, and the ones-block table
  (1 where a column of the 256 lies in the block of 32 a row of the 8 names).
-/
import proofs.«141667_g2000002524955183_pallasbulk_3_44_alg».proof.Proof.Gen.KernelIdeal.Skeleton
import Idealize.ShloMosaic.Lib.ValueIdx
import Idealize.ShloMosaic.Lib.ValueLayout
import Idealize.ShloMosaic.Lib.Pipeline.Value
import Idealize.ShloMosaic.Lib.Affine
import Idealize.ShloMosaic.Lib.WordArith
import Idealize.ShloMosaic.PureOps.Ideal.Laws
import Idealize.ShloMosaic.Lib.IdealHost

noncomputable section

namespace Cert.KernelIdeal.Read

open Idealize.ShloMosaic Idealize.ShloMosaic.ValueIdx Cert.KernelIdeal Cert.KernelIdeal.Gen

/-! ## Words -/

/-- A select on an equality test of two words is the `if` on their equality. -/
theorem select_cmpi_eq {α : Type} {w : ℕ} (x y : BitVec w) (a b : α) :
    Scalar.select (IntOp.cmpi .eq x y) a b = if x = y then a else b := by
  by_cases h : x = y
  · rw [IntOp.cmpi_eq.mpr h, select_one, if_pos h]
  · rw [eq_zero_of_ne_one (fun h1 => h (IntOp.cmpi_eq.mp h1)), select_zero, if_neg h]

/-- A select on a signed "at least" test of two small counters is the `if` on their order. -/
theorem select_cmpi_sge {α : Type} (i j : ℕ) (hi : i < 2 ^ 31) (hj : j < 2 ^ 31) (a b : α) :
    Scalar.select (IntOp.cmpi .sge (BitVec.ofNat 32 i) (BitVec.ofNat 32 j)) a b = if j ≤ i then a else b := by
  have hiff : IntOp.cmpi .sge (BitVec.ofNat 32 i) (BitVec.ofNat 32 j) = 1#1 ↔ j ≤ i := by
    rw [IntOp.cmpi_sge, WordArith.toInt_ofNat_small i hi, WordArith.toInt_ofNat_small j hj]
    exact Int.ofNat_le
  by_cases h : j ≤ i
  · rw [hiff.mpr h, select_one, if_pos h]
  · rw [eq_zero_of_ne_one (fun h1 => h (hiff.mp h1)), select_zero, if_neg h]

/-- Two counters below 8 are the same word exactly when they are the same number. -/
theorem word8_eq_iff (g : Fin 8) (k : ℕ) (hk : k < 8) : BitVec.ofNat 32 g.val = BitVec.ofNat 32 k ↔ g.val = k := by
  refine ⟨fun h => ?_, fun h => by rw [h]⟩
  have h2 := congrArg BitVec.toNat h
  rw [BitVec.toNat_ofNat, BitVec.toNat_ofNat] at h2
  have := g.isLt
  omega

/-- … so a choice on the words is the choice on the columns. -/
theorem ite_word8 {α : Type} (g k : Fin 8) (a b : α) :
    (if BitVec.ofNat 32 g.val = BitVec.ofNat 32 k.val then a else b) = if g = k then a else b := by
  by_cases h : g = k
  · rw [if_pos h, if_pos (by rw [h])]
  · rw [if_neg h, if_neg (fun h' => h (Fin.ext ((word8_eq_iff g k.val k.isLt).mp h')))]

/-! ## The causal mask -/

/-- The mask at (i, j): nothing where the column is at most the row, the fill word 0xCE6E6B28 elsewhere. -/
theorem pay17_apply (i j : Fin 64) :
    Gen.k0_pay17 (F := Ideal) (ix2 i j) = if j.val ≤ i.val then (0 : EReal) else Ideal.ofBits .f32 0xCE6E6B28#32 := by
  unfold Gen.k0_pay17
  refine (select_apply _ _ _ _).trans ?_
  show Scalar.select (IntOp.cmpi .sge (iota .tc S64x64 32 [0] iota_S64x64_d0_w32 (ix2 i j))
      (iota .tc S64x64 32 [1] iota_S64x64_d1_w32 (ix2 i j)))
      (Ideal.ofBits .f32 0x00000000#32) (Ideal.ofBits .f32 0xCE6E6B28#32) = _
  rw [iota_single_apply, iota_single_apply, Ideal.ofBits_zero_f32]
  exact select_cmpi_sge i.val j.val (by have := i.isLt; omega) (by have := j.isLt; omega) _ _

/-! ## The constant the normalisations contract with -/

/-- Every entry of the averaging table is the word 0x3B800000 (1/256). -/
theorem pay18_apply (d e : Fin 256) : Gen.k0_pay18 (F := Ideal) (ix2 d e) = Ideal.ofBits .f32 0x3B800000#32 := rfl

/-! ## The one-hot columns -/

/-- The lane counter of a [64, 8] table reads the column. -/
theorem lane8_apply (t : Fin 64) (g : Fin 8) :
    iota .tc S64x8 32 [1] iota_S64x8_d1_w32 (ix2 t g) = BitVec.ofNat 32 g.val :=
  iota_single_apply _ _ _ _ _ _

/-- A one-hot table built from a counter table and a word: 1 where the counter is the word, 0 elsewhere (the narrow
    format is the same extended real). -/
theorem onehot_apply (v115 : IVec S64x8 32) (k : BitVec 32) (t : Fin 64) (g : Fin 8) :
    (truncf .bf16 (select (cmpi .eq v115 (broadcast S64x8 k))
        (broadcast S64x8 (Scalar.ofBits (F := Ideal) .f32 0x3F800000#32))
        (broadcast S64x8 (Scalar.ofBits (F := Ideal) .f32 0x00000000#32))) bitsLt_bf16_f32 : FVec Ideal S64x8 .bf16) (ix2 t g)
      = if v115 (ix2 t g) = k then (1 : EReal) else 0 := by
  show Scalar.select (IntOp.cmpi .eq (v115 (ix2 t g)) k) (Ideal.ofBits .f32 0x3F800000#32) (Ideal.ofBits .f32 0x00000000#32) = _
  rw [select_cmpi_eq, Ideal.ofBits_zero_f32, Ideal.ofBits_one_f32]

/-- The one-hot column of head 0. -/
theorem pay19_apply (t : Fin 64) (g : Fin 8) :
    Gen.k0_pay19 (F := Ideal) (ix2 t g) = if g = (0 : Fin 8) then (1 : EReal) else 0 := by
  unfold Gen.k0_pay19
  exact (onehot_apply _ 0#32 t g).trans (by rw [lane8_apply]; exact ite_word8 g (0 : Fin 8) _ _)

/-- The one-hot column of head 1. -/
theorem pay20_apply (t : Fin 64) (g : Fin 8) :
    Gen.k0_pay20 (F := Ideal) (ix2 t g) = if g = (1 : Fin 8) then (1 : EReal) else 0 := by
  unfold Gen.k0_pay20
  exact (onehot_apply _ 1#32 t g).trans (by rw [lane8_apply]; exact ite_word8 g (1 : Fin 8) _ _)

/-- The one-hot column of head 2. -/
theorem pay21_apply (t : Fin 64) (g : Fin 8) :
    Gen.k0_pay21 (F := Ideal) (ix2 t g) = if g = (2 : Fin 8) then (1 : EReal) else 0 := by
  unfold Gen.k0_pay21
  exact (onehot_apply _ 2#32 t g).trans (by rw [lane8_apply]; exact ite_word8 g (2 : Fin 8) _ _)

/-- The one-hot column of head 3. -/
theorem pay22_apply (t : Fin 64) (g : Fin 8) :
    Gen.k0_pay22 (F := Ideal) (ix2 t g) = if g = (3 : Fin 8) then (1 : EReal) else 0 := by
  unfold Gen.k0_pay22
  exact (onehot_apply _ 3#32 t g).trans (by rw [lane8_apply]; exact ite_word8 g (3 : Fin 8) _ _)

/-- The one-hot column of head 4. -/
theorem pay23_apply (t : Fin 64) (g : Fin 8) :
    Gen.k0_pay23 (F := Ideal) (ix2 t g) = if g = (4 : Fin 8) then (1 : EReal) else 0 := by
  unfold Gen.k0_pay23
  exact (onehot_apply _ 4#32 t g).trans (by rw [lane8_apply]; exact ite_word8 g (4 : Fin 8) _ _)

/-- The one-hot column of the head whose number is the word c, over any counter table. -/
theorem pay24_word_apply (v115 : IVec S64x8 32) (c5_i32 : BitVec 32) (t : Fin 64) (g : Fin 8) :
    Gen.k0_pay24 (F := Ideal) v115 c5_i32 (ix2 t g) = if v115 (ix2 t g) = c5_i32 then (1 : EReal) else 0 := by
  unfold Gen.k0_pay24
  exact onehot_apply v115 c5_i32 t g

/-- … at the lane counter and the word 5: the one-hot column of head 5. -/
theorem pay24_apply (t : Fin 64) (g : Fin 8) :
    Gen.k0_pay24 (F := Ideal) (iota .tc S64x8 32 [1] iota_S64x8_d1_w32) 5#32 (ix2 t g)
      = if g = (5 : Fin 8) then (1 : EReal) else 0 := by
  rw [pay24_word_apply, lane8_apply]; exact ite_word8 g (5 : Fin 8) _ _

/-- The one-hot column of head 6, over any counter table. -/
theorem pay25_word_apply (v115 : IVec S64x8 32) (t : Fin 64) (g : Fin 8) :
    Gen.k0_pay25 (F := Ideal) v115 (ix2 t g) = if v115 (ix2 t g) = 6#32 then (1 : EReal) else 0 := by
  unfold Gen.k0_pay25
  exact onehot_apply v115 6#32 t g

theorem pay25_apply (t : Fin 64) (g : Fin 8) :
    Gen.k0_pay25 (F := Ideal) (iota .tc S64x8 32 [1] iota_S64x8_d1_w32) (ix2 t g)
      = if g = (6 : Fin 8) then (1 : EReal) else 0 := by
  rw [pay25_word_apply, lane8_apply]; exact ite_word8 g (6 : Fin 8) _ _

/-- The one-hot column of head 7, over any counter table. -/
theorem pay26_word_apply (v115 : IVec S64x8 32) (t : Fin 64) (g : Fin 8) :
    Gen.k0_pay26 (F := Ideal) v115 (ix2 t g) = if v115 (ix2 t g) = 7#32 then (1 : EReal) else 0 := by
  unfold Gen.k0_pay26
  exact onehot_apply v115 7#32 t g

theorem pay26_apply (t : Fin 64) (g : Fin 8) :
    Gen.k0_pay26 (F := Ideal) (iota .tc S64x8 32 [1] iota_S64x8_d1_w32) (ix2 t g)
      = if g = (7 : Fin 8) then (1 : EReal) else 0 := by
  rw [pay26_word_apply, lane8_apply]; exact ite_word8 g (7 : Fin 8) _ _

/-! ## The ones-block table: 1 where column j lies in block r of width 32

The program takes the block number of a column by the signed floor-division idiom on words: the truncating quotient by
32, less one where the signs of the column and of 32 differ and the remainder is not zero. On the 256 columns, which are
not negative, the correction never applies and the idiom is the quotient of the numbers. -/

/-- The floor-division idiom on one word, as the program spells it. -/
def floorDiv32 (x : BitVec 32) : BitVec 32 :=
  Scalar.select
    (IntOp.andi
      (IntOp.cmpi .ne
        (IntOp.subi ((IntOp.cmpi .sgt x 0#32).setWidth 32) ((IntOp.cmpi .slt x 0#32).setWidth 32))
        (Scalar.subi (Scalar.extui (Scalar.cmpi .sgt 32#32 0#32)) (Scalar.extui (Scalar.cmpi .slt 32#32 0#32))))
      (IntOp.cmpi .ne (IntOp.remsi .vector x 32#32) 0#32))
    (IntOp.subi (IntOp.divsi .vector x 32#32) 1#32)
    (IntOp.divsi .vector x 32#32)

/-- On the 256 columns the idiom is the quotient by 32 (a finite check, column by column). -/
theorem floorDiv32_small : ∀ j : Fin 256, floorDiv32 (BitVec.ofNat 32 j.val) = BitVec.ofNat 32 (j.val / 32) := by
  decide

/-- Two numbers below 2 ^ 32 are the same word exactly when they are the same number. -/
theorem ofNat32_eq_iff (a b : ℕ) (ha : a < 2 ^ 32) (hb : b < 2 ^ 32) : BitVec.ofNat 32 a = BitVec.ofNat 32 b ↔ a = b := by
  refine ⟨fun h => ?_, fun h => by rw [h]⟩
  have h2 := congrArg BitVec.toNat h
  rw [BitVec.toNat_ofNat, BitVec.toNat_ofNat] at h2
  omega

/-- The block test at (r, j), as a word: the block number of column j against the row number. -/
theorem pay27_word (r : Fin 8) (j : Fin 256) :
    Gen.k0_pay27 (ix2 r j) = IntOp.cmpi .eq (BitVec.ofNat 32 (j.val / 32)) (BitVec.ofNat 32 r.val) := by
  have hx : iota .tc S8x256 32 [1] iota_S8x256_d1_w32 (ix2 r j) = BitVec.ofNat 32 j.val := iota_single_apply _ _ _ _ _ _
  have hy : iota .tc S8x256 32 [0] iota_S8x256_d0_w32 (ix2 r j) = BitVec.ofNat 32 r.val := iota_single_apply _ _ _ _ _ _
  unfold Gen.k0_pay27
  show IntOp.cmpi .eq (floorDiv32 (iota .tc S8x256 32 [1] iota_S8x256_d1_w32 (ix2 r j)))
    (iota .tc S8x256 32 [0] iota_S8x256_d0_w32 (ix2 r j)) = _
  rw [hx, hy, floorDiv32_small j]

/-- The block test holds at (r, j) exactly when column j lies in block r. -/
theorem pay27_apply (r : Fin 8) (j : Fin 256) : Gen.k0_pay27 (ix2 r j) = 1#1 ↔ j.val / 32 = r.val := by
  rw [pay27_word, IntOp.cmpi_eq]
  exact ofNat32_eq_iff _ _ (by have := j.isLt; omega) (by have := r.isLt; omega)

/-- A table of ones and zeros chosen by a one-bit table. -/
theorem pay28_word_apply (v190 : IVec S8x256 1) (r : Fin 8) (j : Fin 256) :
    Gen.k0_pay28 (F := Ideal) v190 (ix2 r j) = if v190 (ix2 r j) = 1#1 then (1 : EReal) else 0 := by
  unfold Gen.k0_pay28
  show Scalar.select (v190 (ix2 r j)) (Ideal.ofBits .f32 0x3F800000#32) (Ideal.ofBits .f32 0x00000000#32) = _
  rw [Ideal.ofBits_zero_f32, Ideal.ofBits_one_f32]
  rfl

/-- THE ONES-BLOCK TABLE at (r, j): 1 where column j lies in block r of width 32, else 0. -/
theorem pay28_apply (r : Fin 8) (j : Fin 256) :
    Gen.k0_pay28 (F := Ideal) Gen.k0_pay27 (ix2 r j) = if j.val / 32 = r.val then (1 : EReal) else 0 := by
  rw [pay28_word_apply]
  by_cases h : j.val / 32 = r.val
  · rw [if_pos h, if_pos ((pay27_apply r j).mpr h)]
  · rw [if_neg h, if_neg (fun h' => h ((pay27_apply r j).mp h'))]

end Cert.KernelIdeal.Read

end
-- ==== Proof.KerSpineD.lean ====
/-
  The body's constant tables read as the layer's: the causal mask, the averaging matrix, the eight
  one-hot columns and the ones-block matrix.
-/
import proofs.«141667_g2000002524955183_pallasbulk_3_44_alg».proof.Proof.KerSpineB
import proofs.«141667_g2000002524955183_pallasbulk_3_44_alg».proof.Proof.KerPay17_28

noncomputable section

namespace Cert.KernelIdeal.Spine

open Idealize.ShloMosaic Idealize.ShloMosaic.ValueIdx Cert.KernelIdeal Cert.KernelIdeal.Gen
open Cert.KernelIdeal.Dag Cert.KernelIdeal.Read
open Cert.Spec Cert.Lib.LibFloatWords Cert.Lib.LibHeadSplit Cert.Lib.LibRealClosure
open scoped BigOperators

/-- The constant tables of the body are the layer's mask, averaging constant, one-hot columns and
    ones-block matrix. -/
theorem constTabs (Y : Loads Ideal) : ConstTabs Y where
  mask := fun s t => pay17_apply s t
  avg := fun e c => pay18_apply e c
  sel0 := fun t g => pay19_apply t g
  sel1 := fun t g => pay20_apply t g
  sel2 := fun t g => pay21_apply t g
  sel3 := fun t g => pay22_apply t g
  sel4 := fun t g => pay23_apply t g
  sel5 := fun t g => pay24_apply t g
  sel6 := fun t g => pay25_apply t g
  sel7 := fun t g => pay26_apply t g
  rep := fun g j => pay28_apply g j

end Cert.KernelIdeal.Spine

end
-- ==== Proof.KerJoin.lean ====
/-
  Joining the heads: the concatenation of eight [32, 64, 32] tables along the lanes, the [32, 64, 256] → [2048, 256] row
  view, a product into a non-zero accumulator, and the closing step of attention read at one entry.

  * Lane 32·h + d of the concatenation is lane d of piece h; hence lane c is lane c mod 32 of piece c div 32.
  * A product accumulated into any table is that table plus the product accumulated into zero.
  * The closing step: the concatenated head outputs, viewed one row per token, are scaled lane by lane by
    Σ_g (1 / den[r, g]) · rep[g, e] (the reciprocal denominators spread back over the lanes by a [8, 256] matrix),
    sent through the output projection with its bias, and added to the layer's input.
-/
import proofs.«141667_g2000002524955183_pallasbulk_3_44_alg».proof.Proof.Gen.KernelIdeal.Skeleton
import proofs.«141667_g2000002524955183_pallasbulk_3_44_alg».proof.Proof.KerDots
import Idealize.ShloMosaic.Lib.ValueIdx
import Idealize.ShloMosaic.Lib.ValueLayout
import Idealize.ShloMosaic.Lib.Pipeline.Value

noncomputable section

namespace Cert.KernelIdeal.Read

open Idealize.ShloMosaic Idealize.ShloMosaic.ValueIdx Cert.KernelIdeal
open scoped BigOperators

/-- A product accumulated into any table is the table's entry plus the product accumulated into zero. -/
theorem matmul_acc_eq {sl sr so : Shape} {φ₁ φ₂ : FTy} (D : DotDims sl sr so) (prec : Option ContractPrecision)
    (x : FVec Ideal sl φ₁) (w : FVec Ideal sr φ₂) (acc : FVec Ideal so .f32) (j : so.Idx) :
    matmul D prec x w acc j = acc j + matmul D prec x w (constant so .f32 0x00000000#32) j := by
  simp only [matmul]
  rw [Ideal.matmul_apply, Ideal.matmul_constant_zero_apply]

/-- A [32, 64, 256] table viewed as [2048, 256]: row 64·b + s is row s of batch row b. -/
theorem rows256_at {α : Type} (hc : S32x64x256.ShapeCasts S2048x256) (x : S32x64x256.Idx → α)
    (b : Fin 32) (s : Fin 64) (c : Fin 256) :
    shapeCast S2048x256 x hc (ix2 ⟨64 * b.val + s.val, by omega⟩ c) = x (ix3 b s c) :=
  shapeCast_apply x hc _ (ix3 b s c) (by
    rw [Shape.rowMajor_val_two, Shape.rowMajor_val_three]
    show (b.val * 64 + s.val) * 256 + c.val = (64 * b.val + s.val) * 256 + c.val
    omega)

/-- Lane 32·h + d of eight [32, 64, 32] tables side by side is lane d of table h. -/
theorem cat8_at {α : Type}
    (hcat : Shape.Concatenates [S32x64x32, S32x64x32, S32x64x32, S32x64x32, S32x64x32, S32x64x32, S32x64x32, S32x64x32] S32x64x256 2)
    (p0 p1 p2 p3 p4 p5 p6 p7 : S32x64x32.Idx → α) (b : Fin 32) (s : Fin 64) (h : Fin 8) (d : Fin 32) :
    concatenate S32x64x256 2 [⟨S32x64x32, p0⟩, ⟨S32x64x32, p1⟩, ⟨S32x64x32, p2⟩, ⟨S32x64x32, p3⟩, ⟨S32x64x32, p4⟩, ⟨S32x64x32, p5⟩, ⟨S32x64x32, p6⟩, ⟨S32x64x32, p7⟩] hcat (ix3 b s ⟨32 * h.val + d.val, by omega⟩)
      = (![p0, p1, p2, p3, p4, p5, p6, p7] h) (ix3 b s d) := by
  match h with
  | ⟨0, _⟩ =>
    exact concatenate_apply_piece (t := S32x64x256) 2 [⟨S32x64x32, p0⟩, ⟨S32x64x32, p1⟩, ⟨S32x64x32, p2⟩, ⟨S32x64x32, p3⟩, ⟨S32x64x32, p4⟩, ⟨S32x64x32, p5⟩, ⟨S32x64x32, p6⟩, ⟨S32x64x32, p7⟩] hcat
      (ix3 b s ⟨32 * 0 + d.val, by omega⟩) 0 (by show 0 < 8; omega) S32x64x32 p0 rfl rfl 0 (by rfl) (ix3 b s d)
      (fun a ha => match a, ha with
        | ⟨0, _⟩, _ => rfl
        | ⟨1, _⟩, _ => rfl
        | ⟨2, _⟩, hne => absurd rfl hne)
      (by show 0 + d.val = 32 * 0 + d.val; omega)
  | ⟨1, _⟩ =>
    exact concatenate_apply_piece (t := S32x64x256) 2 [⟨S32x64x32, p0⟩, ⟨S32x64x32, p1⟩, ⟨S32x64x32, p2⟩, ⟨S32x64x32, p3⟩, ⟨S32x64x32, p4⟩, ⟨S32x64x32, p5⟩, ⟨S32x64x32, p6⟩, ⟨S32x64x32, p7⟩] hcat
      (ix3 b s ⟨32 * 1 + d.val, by omega⟩) 1 (by show 1 < 8; omega) S32x64x32 p1 rfl rfl 32 (by rfl) (ix3 b s d)
      (fun a ha => match a, ha with
        | ⟨0, _⟩, _ => rfl
        | ⟨1, _⟩, _ => rfl
        | ⟨2, _⟩, hne => absurd rfl hne)
      (by show 32 + d.val = 32 * 1 + d.val; omega)
  | ⟨2, _⟩ =>
    exact concatenate_apply_piece (t := S32x64x256) 2 [⟨S32x64x32, p0⟩, ⟨S32x64x32, p1⟩, ⟨S32x64x32, p2⟩, ⟨S32x64x32, p3⟩, ⟨S32x64x32, p4⟩, ⟨S32x64x32, p5⟩, ⟨S32x64x32, p6⟩, ⟨S32x64x32, p7⟩] hcat
      (ix3 b s ⟨32 * 2 + d.val, by omega⟩) 2 (by show 2 < 8; omega) S32x64x32 p2 rfl rfl 64 (by rfl) (ix3 b s d)
      (fun a ha => match a, ha with
        | ⟨0, _⟩, _ => rfl
        | ⟨1, _⟩, _ => rfl
        | ⟨2, _⟩, hne => absurd rfl hne)
      (by show 64 + d.val = 32 * 2 + d.val; omega)
  | ⟨3, _⟩ =>
    exact concatenate_apply_piece (t := S32x64x256) 2 [⟨S32x64x32, p0⟩, ⟨S32x64x32, p1⟩, ⟨S32x64x32, p2⟩, ⟨S32x64x32, p3⟩, ⟨S32x64x32, p4⟩, ⟨S32x64x32, p5⟩, ⟨S32x64x32, p6⟩, ⟨S32x64x32, p7⟩] hcat
      (ix3 b s ⟨32 * 3 + d.val, by omega⟩) 3 (by show 3 < 8; omega) S32x64x32 p3 rfl rfl 96 (by rfl) (ix3 b s d)
      (fun a ha => match a, ha with
        | ⟨0, _⟩, _ => rfl
        | ⟨1, _⟩, _ => rfl
        | ⟨2, _⟩, hne => absurd rfl hne)
      (by show 96 + d.val = 32 * 3 + d.val; omega)
  | ⟨4, _⟩ =>
    exact concatenate_apply_piece (t := S32x64x256) 2 [⟨S32x64x32, p0⟩, ⟨S32x64x32, p1⟩, ⟨S32x64x32, p2⟩, ⟨S32x64x32, p3⟩, ⟨S32x64x32, p4⟩, ⟨S32x64x32, p5⟩, ⟨S32x64x32, p6⟩, ⟨S32x64x32, p7⟩] hcat
      (ix3 b s ⟨32 * 4 + d.val, by omega⟩) 4 (by show 4 < 8; omega) S32x64x32 p4 rfl rfl 128 (by rfl) (ix3 b s d)
      (fun a ha => match a, ha with
        | ⟨0, _⟩, _ => rfl
        | ⟨1, _⟩, _ => rfl
        | ⟨2, _⟩, hne => absurd rfl hne)
      (by show 128 + d.val = 32 * 4 + d.val; omega)
  | ⟨5, _⟩ =>
    exact concatenate_apply_piece (t := S32x64x256) 2 [⟨S32x64x32, p0⟩, ⟨S32x64x32, p1⟩, ⟨S32x64x32, p2⟩, ⟨S32x64x32, p3⟩, ⟨S32x64x32, p4⟩, ⟨S32x64x32, p5⟩, ⟨S32x64x32, p6⟩, ⟨S32x64x32, p7⟩] hcat
      (ix3 b s ⟨32 * 5 + d.val, by omega⟩) 5 (by show 5 < 8; omega) S32x64x32 p5 rfl rfl 160 (by rfl) (ix3 b s d)
      (fun a ha => match a, ha with
        | ⟨0, _⟩, _ => rfl
        | ⟨1, _⟩, _ => rfl
        | ⟨2, _⟩, hne => absurd rfl hne)
      (by show 160 + d.val = 32 * 5 + d.val; omega)
  | ⟨6, _⟩ =>
    exact concatenate_apply_piece (t := S32x64x256) 2 [⟨S32x64x32, p0⟩, ⟨S32x64x32, p1⟩, ⟨S32x64x32, p2⟩, ⟨S32x64x32, p3⟩, ⟨S32x64x32, p4⟩, ⟨S32x64x32, p5⟩, ⟨S32x64x32, p6⟩, ⟨S32x64x32, p7⟩] hcat
      (ix3 b s ⟨32 * 6 + d.val, by omega⟩) 6 (by show 6 < 8; omega) S32x64x32 p6 rfl rfl 192 (by rfl) (ix3 b s d)
      (fun a ha => match a, ha with
        | ⟨0, _⟩, _ => rfl
        | ⟨1, _⟩, _ => rfl
        | ⟨2, _⟩, hne => absurd rfl hne)
      (by show 192 + d.val = 32 * 6 + d.val; omega)
  | ⟨7, _⟩ =>
    exact concatenate_apply_piece (t := S32x64x256) 2 [⟨S32x64x32, p0⟩, ⟨S32x64x32, p1⟩, ⟨S32x64x32, p2⟩, ⟨S32x64x32, p3⟩, ⟨S32x64x32, p4⟩, ⟨S32x64x32, p5⟩, ⟨S32x64x32, p6⟩, ⟨S32x64x32, p7⟩] hcat
      (ix3 b s ⟨32 * 7 + d.val, by omega⟩) 7 (by show 7 < 8; omega) S32x64x32 p7 rfl rfl 224 (by rfl) (ix3 b s d)
      (fun a ha => match a, ha with
        | ⟨0, _⟩, _ => rfl
        | ⟨1, _⟩, _ => rfl
        | ⟨2, _⟩, hne => absurd rfl hne)
      (by show 224 + d.val = 32 * 7 + d.val; omega)

/-- Lane c of eight rows of 32 lanes side by side: lane c mod 32 of row c div 32. -/
def cat8At (p : Fin 8 → Fin 32 → EReal) (c : Fin 256) : EReal :=
  p ⟨c.val / 32, by omega⟩ ⟨c.val % 32, by omega⟩

/-- The concatenation read at a general lane. -/
theorem cat8_lane
    (hcat : Shape.Concatenates [S32x64x32, S32x64x32, S32x64x32, S32x64x32, S32x64x32, S32x64x32, S32x64x32, S32x64x32] S32x64x256 2)
    (p0 p1 p2 p3 p4 p5 p6 p7 : FVec Ideal S32x64x32 .f32) (b : Fin 32) (s : Fin 64) (c : Fin 256) :
    concatenate S32x64x256 2 [⟨S32x64x32, p0⟩, ⟨S32x64x32, p1⟩, ⟨S32x64x32, p2⟩, ⟨S32x64x32, p3⟩, ⟨S32x64x32, p4⟩, ⟨S32x64x32, p5⟩, ⟨S32x64x32, p6⟩, ⟨S32x64x32, p7⟩] hcat (ix3 b s c)
      = cat8At ![fun d => p0 (ix3 b s d), fun d => p1 (ix3 b s d), fun d => p2 (ix3 b s d), fun d => p3 (ix3 b s d), fun d => p4 (ix3 b s d), fun d => p5 (ix3 b s d), fun d => p6 (ix3 b s d), fun d => p7 (ix3 b s d)] c := by
  have hc : c = ⟨32 * (⟨c.val / 32, by omega⟩ : Fin 8).val + (⟨c.val % 32, by omega⟩ : Fin 32).val, by omega⟩ :=
    Fin.ext (by show c.val = 32 * (c.val / 32) + c.val % 32; omega)
  refine (congrArg (fun c' => concatenate S32x64x256 2 [⟨S32x64x32, p0⟩, ⟨S32x64x32, p1⟩, ⟨S32x64x32, p2⟩, ⟨S32x64x32, p3⟩, ⟨S32x64x32, p4⟩, ⟨S32x64x32, p5⟩, ⟨S32x64x32, p6⟩, ⟨S32x64x32, p7⟩] hcat (ix3 b s c')) hc).trans ?_
  refine (cat8_at hcat p0 p1 p2 p3 p4 p5 p6 p7 b s ⟨c.val / 32, by omega⟩ ⟨c.val % 32, by omega⟩).trans ?_
  unfold cat8At
  generalize (⟨c.val / 32, by omega⟩ : Fin 8) = h
  generalize (⟨c.val % 32, by omega⟩ : Fin 32) = d
  match h with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- The closing step of attention at row 64·b + s and column c. -/
theorem attn_out_at (hc : S32x64x256.ShapeCasts S2048x256) (hb : S1x256.Broadcasts S2048x256)
    (hlt : FTy.bits .bf16 < FTy.bits .f32)
    (cat : FVec Ideal S32x64x256 .f32) (den : FVec Ideal S2048x8 .f32) (x : FVec Ideal S2048x256 .f32)
    (rep : FVec Ideal S8x256 .f32) (w : Vec Ideal S256x256 .f32) (bias : Vec Ideal S1x256 .f32)
    (b : Fin 32) (s : Fin 64) (c : Fin 256) :
    addf x (addf (matmul dot_S2048x256_S256x256_S2048x256_1_0_0_1_n_n none
        (truncf .bf16 (mulf (shapeCast S2048x256 cat hc)
          (matmul dot_S2048x8_S8x256_S2048x256_1_0_0_1_n_n none (divf (broadcast S2048x8 (Scalar.ofBits .f32 0x3F800000#32 : Ideal .f32)) den) rep
            (constant S2048x256 .f32 0x00000000#32))) hlt)
        (truncf .bf16 w hlt) (constant S2048x256 .f32 0x00000000#32))
      (broadcastTo S2048x256 bias hb)) (ix2 ⟨64 * b.val + s.val, by omega⟩ c)
      = x (ix2 ⟨64 * b.val + s.val, by omega⟩ c)
        + ((∑ e : Fin 256, (cat (ix3 b s e)
              * ∑ g : Fin 8, Ideal.div (Ideal.ofBits .f32 0x3F800000#32) (den (ix2 ⟨64 * b.val + s.val, by omega⟩ g))
                  * rep (ix2 g e)) * w (ix2 e c))
          + bias (ix2 (0 : Fin 1) c)) := by
  refine congrArg (fun y : EReal => x (ix2 ⟨64 * b.val + s.val, by omega⟩ c) + y)
    (congrArg₂ (fun a b : EReal => a + b) ?_ (broadcastTo_1b_ab_apply bias hb _ c))
  refine (dot_2048x256_256x256_at _ _ _ c).trans (Finset.sum_congr rfl fun e _ => ?_)
  refine congrArg (fun y : EReal => y * w (ix2 e c)) (congrArg₂ (fun a b : EReal => a * b) (rows256_at hc cat b s e) ?_)
  exact dot_2048x8_8x256_at _ rep _ e

end Cert.KernelIdeal.Read

end
-- ==== Proof.KerPay50.lean ====
/-
  The end of attention in the first encoder layer, read at row 64·b + s and column c.

  The heads at lanes 192 and 224 are computed here: weights  exp(Σ_l q[b, s, off + l] · k[b, t, off + l] + mask[s, t]),
  outputs  Σ_t weight · v[b, t, off + d],  and their contributions  Σ_t weight · selector[t, g]  to the denominators'
  table, which also receives the head at lane 160 through its [2048, 64] view of weights (a product accumulated into a
  given table). The eight head outputs are set side by side; lane e is scaled by  Σ_g (1 / den[r, g]) · rep[g, e];
  the result goes through the output projection and its bias and is added to the layer's input x.
-/
import proofs.«141667_g2000002524955183_pallasbulk_3_44_alg».proof.Proof.Gen.KernelIdeal.Skeleton
import proofs.«141667_g2000002524955183_pallasbulk_3_44_alg».proof.Proof.KerHead
import proofs.«141667_g2000002524955183_pallasbulk_3_44_alg».proof.Proof.KerJoin
import Idealize.ShloMosaic.Lib.ValueIdx

noncomputable section

namespace Cert.KernelIdeal.Read

open Idealize.ShloMosaic Idealize.ShloMosaic.ValueIdx Cert.KernelIdeal
open scoped BigOperators

theorem pay50_apply (v107 : FVec Ideal S2048x256 .f32) (v113 : FVec Ideal S64x64 .f32) (v151 : FVec Ideal S64x8 .bf16)
    (v157 : FVec Ideal S64x8 .bf16) (v163 : FVec Ideal S64x8 .bf16) (v193 : FVec Ideal S8x256 .f32)
    (v200 : FVec Ideal S32x64x256 .bf16) (v206 : FVec Ideal S32x64x256 .bf16) (v212 : FVec Ideal S32x64x256 .bf16)
    (v222 : FVec Ideal S32x64x32 .f32) (v234 : FVec Ideal S32x64x32 .f32) (v247 : FVec Ideal S32x64x32 .f32)
    (v260 : FVec Ideal S32x64x32 .f32) (v273 : FVec Ideal S32x64x32 .f32) (v276 : FVec Ideal S2048x8 .f32)
    (v286 : FVec Ideal S32x64x32 .f32) (v287 : FVec Ideal S2048x64 .bf16) (cst_119 : FVec Ideal S2048x8 .f32)
    (v323 : Vec Ideal S256x256 .f32) (v326 : Vec Ideal S1x256 .f32) (b : Fin 32) (s : Fin 64) (c : Fin 256) :
    Gen.k0_pay50 v107 v113 v151 v157 v163 v193 v200 v206 v212 v222 v234 v247 v260 v273 v276 v286 v287 cst_119 v323 v326
        (ix2 ⟨64 * b.val + s.val, by omega⟩ c)
      = v107 (ix2 ⟨64 * b.val + s.val, by omega⟩ c)
        + ((∑ e : Fin 256,
              (cat8At ![fun d => v222 (ix3 b s d), fun d => v234 (ix3 b s d), fun d => v247 (ix3 b s d), fun d => v260 (ix3 b s d), fun d => v273 (ix3 b s d), fun d => v286 (ix3 b s d),
                  fun d => ∑ t : Fin 64, Ideal.exp ((∑ l : Fin 32, v200 (ix3 b s ⟨192 + l.val, by omega⟩) * v206 (ix3 b t ⟨192 + l.val, by omega⟩)) + v113 (ix2 s t)) * v212 (ix3 b t ⟨192 + d.val, by omega⟩),
                  fun d => ∑ t : Fin 64, Ideal.exp ((∑ l : Fin 32, v200 (ix3 b s ⟨224 + l.val, by omega⟩) * v206 (ix3 b t ⟨224 + l.val, by omega⟩)) + v113 (ix2 s t)) * v212 (ix3 b t ⟨224 + d.val, by omega⟩)] e
                * ∑ g : Fin 8, Ideal.div (Ideal.ofBits .f32 0x3F800000#32)
                    (((v276 (ix2 ⟨64 * b.val + s.val, by omega⟩ g) + (cst_119 (ix2 ⟨64 * b.val + s.val, by omega⟩ g) + ∑ t : Fin 64, v287 (ix2 ⟨64 * b.val + s.val, by omega⟩ t) * v151 (ix2 t g)))
                    + ∑ t : Fin 64, Ideal.exp ((∑ l : Fin 32, v200 (ix3 b s ⟨192 + l.val, by omega⟩) * v206 (ix3 b t ⟨192 + l.val, by omega⟩)) + v113 (ix2 s t)) * v157 (ix2 t g))
                  + ∑ t : Fin 64, Ideal.exp ((∑ l : Fin 32, v200 (ix3 b s ⟨224 + l.val, by omega⟩) * v206 (ix3 b t ⟨224 + l.val, by omega⟩)) + v113 (ix2 s t)) * v163 (ix2 t g))
                    * v193 (ix2 g e))
              * v323 (ix2 e c))
          + v326 (ix2 (0 : Fin 1) c)) := by
  unfold Gen.k0_pay50
  refine (attn_out_at _ _ _ _ _ v107 v193 v323 v326 b s c).trans ?_
  refine congrArg (fun y : EReal => v107 (ix2 ⟨64 * b.val + s.val, by omega⟩ c) + y)
    (congrArg (fun y : EReal => y + v326 (ix2 (0 : Fin 1) c)) (Finset.sum_congr rfl fun e _ =>
      congrArg (fun y : EReal => y * v323 (ix2 e c)) (congrArg₂ (fun a b : EReal => a * b) ?_
        (Finset.sum_congr rfl fun g _ =>
          congrArg (fun y : EReal => Ideal.div (Ideal.ofBits .f32 0x3F800000#32) y * v193 (ix2 g e)) ?_))))
  · -- the eight head outputs side by side
    refine (cat8_lane _ _ _ _ _ _ _ _ _ b s e).trans (congrArg (fun p => cat8At p e) ?_)
    refine congrArg₂ (fun x y : Fin 32 → EReal => ![fun d => v222 (ix3 b s d), fun d => v234 (ix3 b s d), fun d => v247 (ix3 b s d), fun d => v260 (ix3 b s d), fun d => v273 (ix3 b s d), fun d => v286 (ix3 b s d), x, y])
      (funext fun d => ?_) (funext fun d => ?_)
    · refine (weighted_at 192 (by omega) _ _ v212 b s d).trans (Finset.sum_congr rfl fun t _ => ?_)
      exact congrArg (fun y : EReal => y * v212 (ix3 b t ⟨192 + d.val, by omega⟩)) (weights_at 192 (by omega) _ _ _ _ v113 v200 v206 b s t)
    · refine (weighted_at 224 (by omega) _ _ v212 b s d).trans (Finset.sum_congr rfl fun t _ => ?_)
      exact congrArg (fun y : EReal => y * v212 (ix3 b t ⟨224 + d.val, by omega⟩)) (weights_at 224 (by omega) _ _ _ _ v113 v200 v206 b s t)
  · -- the denominators
    refine congrArg₂ (fun x y : EReal => x + y) (congrArg₂ (fun x y : EReal => x + y)
      (congrArg (fun y : EReal => v276 (ix2 ⟨64 * b.val + s.val, by omega⟩ g) + y) ?_) ?_) ?_
    · exact (matmul_acc_eq _ none v287 v151 cst_119 _).trans
        (congrArg (fun y : EReal => cst_119 (ix2 ⟨64 * b.val + s.val, by omega⟩ g) + y) (dot_2048x64_64x8_at v287 v151 _ g))
    · refine (selected_at _ _ v157 b s g).trans (Finset.sum_congr rfl fun t _ => ?_)
      exact congrArg (fun y : EReal => y * v157 (ix2 t g)) (weights_at 192 (by omega) _ _ _ _ v113 v200 v206 b s t)
    · refine (selected_at _ _ v163 b s g).trans (Finset.sum_congr rfl fun t _ => ?_)
      exact congrArg (fun y : EReal => y * v163 (ix2 t g)) (weights_at 224 (by omega) _ _ _ _ v113 v200 v206 b s t)

end Cert.KernelIdeal.Read

end
-- ==== Proof.KerSpineE.lean ====
/-
  The fused kernel's body against the fused order of the layer (fourth part: the end of the first
  layer's attention — heads 6 and 7, the eight gathered sums, their reciprocals spread over the
  channels, the concatenated heads, the output projection and the residual).
-/
import proofs.«141667_g2000002524955183_pallasbulk_3_44_alg».proof.Proof.KerSpineC
import proofs.«141667_g2000002524955183_pallasbulk_3_44_alg».proof.Proof.KerSpineD
import proofs.«141667_g2000002524955183_pallasbulk_3_44_alg».proof.Proof.KerPay50

noncomputable section

namespace Cert.KernelIdeal.Spine

open Idealize.ShloMosaic Idealize.ShloMosaic.ValueIdx Cert.KernelIdeal Cert.KernelIdeal.Gen
open Cert.KernelIdeal.Dag Cert.KernelIdeal.Read
open Cert.Spec Cert.Lib.LibFloatWords Cert.Lib.LibHeadSplit Cert.Lib.LibRealClosure
open scoped BigOperators

variable {Y : Loads Ideal}

/-- Lane `(h, l)` of eight rows of 32 lanes side by side is lane `l` of row `h`. -/
theorem cat8At_flat (p : Fin 8 → Fin 32 → EReal) (h : Fin 8) (l : Fin 32) :
    cat8At p (flat h l) = p h l := by
  unfold cat8At
  have h1 : (⟨(flat h l).val / 32, by have := (flat h l).isLt; omega⟩ : Fin 8) = h := Fin.ext (flat_div h l)
  have h2 : (⟨(flat h l).val % 32, by omega⟩ : Fin 32) = l := Fin.ext (flat_mod h l)
  rw [h1, h2]

/-- The zero table the gathered sums of head 5 are accumulated into. -/
theorem n34_at (Y : Loads Ideal) (r : Fin 2048) (g : Fin 8) : n34 Y (ix2 r g) = 0 := by
  show Ideal.ofBits .f32 0x00000000#32 = 0
  exact ofBits_zero

/-- Heads 6 and 7, whose weights the last payload of attention computes in place. -/
theorem p6_form (hc : ConstTabs Y) (b : Fin 32) (s t : Fin 64) :
    Ideal.exp ((∑ l : Fin 32, n11 Y (ix3 b s ⟨192 + l.val, by omega⟩) * n14 Y (ix3 b t ⟨192 + l.val, by omega⟩))
        + n4 Y (ix2 s t))
      = Ker.p C (params (T0 Y)) mask (X0 Y b) (6 : Fin 8) s t := by
  simp only [n11_at, n14_at, hc.mask]
  rfl

theorem p7_form (hc : ConstTabs Y) (b : Fin 32) (s t : Fin 64) :
    Ideal.exp ((∑ l : Fin 32, n11 Y (ix3 b s ⟨224 + l.val, by omega⟩) * n14 Y (ix3 b t ⟨224 + l.val, by omega⟩))
        + n4 Y (ix2 s t))
      = Ker.p C (params (T0 Y)) mask (X0 Y b) (7 : Fin 8) s t := by
  simp only [n11_at, n14_at, hc.mask]
  rfl

theorem part6_form (hc : ConstTabs Y) (b : Fin 32) (s : Fin 64) (d : Fin 32) :
    (∑ t : Fin 64, Ideal.exp ((∑ l : Fin 32, n11 Y (ix3 b s ⟨192 + l.val, by omega⟩) * n14 Y (ix3 b t ⟨192 + l.val, by omega⟩))
        + n4 Y (ix2 s t)) * n17 Y (ix3 b t ⟨192 + d.val, by omega⟩))
      = Ker.part C (params (T0 Y)) mask (X0 Y b) (6 : Fin 8) s d := by
  simp only [p6_form hc, n17_at]
  rfl

theorem part7_form (hc : ConstTabs Y) (b : Fin 32) (s : Fin 64) (d : Fin 32) :
    (∑ t : Fin 64, Ideal.exp ((∑ l : Fin 32, n11 Y (ix3 b s ⟨224 + l.val, by omega⟩) * n14 Y (ix3 b t ⟨224 + l.val, by omega⟩))
        + n4 Y (ix2 s t)) * n17 Y (ix3 b t ⟨224 + d.val, by omega⟩))
      = Ker.part C (params (T0 Y)) mask (X0 Y b) (7 : Fin 8) s d := by
  simp only [p7_form hc, n17_at]
  rfl

/-- The first layer's attention output added to its input: the first residual. -/
theorem n35_at (hc : ConstTabs Y) (b : Fin 32) (s : Fin 64) (c : Fin 256) :
    n35 Y (ix2 (row b s) c) = Ker.y1 C (params (T0 Y)) mask (X0 Y b) s c := by
  refine (pay50_apply (n3 Y) (n4 Y) (n5 Y) (n6 Y) (n7 Y) (n8 Y) (n11 Y) (n14 Y) (n17 Y) (n18 Y) (n19 Y) (n22 Y)
    (n23 Y) (n24 Y) (n31 Y) (n32 Y) (n33 Y) (n34 Y) Y.y14 Y.y15 b s c).trans ?_
  unfold Ker.y1 Ker.attn
  refine congrArg₂ (fun a b : EReal => a + b) (n3_at Y b s c)
    (congrArg₂ (fun a b : EReal => a + b) (Finset.sum_congr rfl fun e _ => ?_) rfl)
  refine congrArg₂ (fun a b : EReal => a * b) (congrArg₂ (fun a b : EReal => a * b) ?_ ?_) rfl
  · -- the concatenated heads
    refine o3_of_parts s (fun e => cat8At _ e) (fun h l => ?_) e
    rw [cat8At_flat]
    match h with
    | ⟨0, _⟩ => exact n18_at hc b s l
    | ⟨1, _⟩ => exact n19_at hc b s l
    | ⟨2, _⟩ => exact n22_at hc b s l
    | ⟨3, _⟩ => exact n23_at hc b s l
    | ⟨4, _⟩ => exact n24_at hc b s l
    | ⟨5, _⟩ => exact n32_at hc b s l
    | ⟨6, _⟩ => exact part6_form hc b s l
    | ⟨7, _⟩ => exact part7_form hc b s l
  · -- the reciprocals of the gathered sums, spread over the channels
    unfold Ker.rden Ker.rinv
    refine Finset.sum_congr rfl fun g _ => ?_
    rw [hc.rep, ofBits_one]
    refine congrArg (fun y : EReal => Ideal.div 1 y * Ker.rep (H := 8) (L := 32) g e) ?_
    rw [n31_at hc, n34_at, zero_add]
    simp only [n33_at hc, p6_form hc, p7_form hc, hc.sel5, hc.sel6, hc.sel7]
    exact den_chain s g

end Cert.KernelIdeal.Spine

end
-- ==== Proof.KerPay51_53.lean ====
/-
  The tail of the first encoder layer, read at one entry of the [2048, 256] table of tokens.

  After attention, the block output x₁ is normalised (y = LN(x₁)), passed through the feed-forward network
  y + (GELU(y · W₁ + b₁) · W₂ + b₂), and normalised again. Normalisation, the linear layer and GELU are the entry-level
  functions `lnAt`, the sum-plus-bias form, and `geluAt`.
-/
import proofs.«141667_g2000002524955183_pallasbulk_3_44_alg».proof.Proof.Gen.KernelIdeal.Skeleton
import proofs.«141667_g2000002524955183_pallasbulk_3_44_alg».proof.Proof.KerNorm
import Idealize.ShloMosaic.Lib.ValueIdx

noncomputable section

namespace Cert.KernelIdeal.Read

open Idealize.ShloMosaic Idealize.ShloMosaic.ValueIdx Cert.KernelIdeal
open scoped BigOperators

/-- The feed-forward block with its residual, at (r, c):
    LN(x₁)[r, c] + (Σ_e GELU(Σ_e' LN(x₁)[r, e'] · W₁[e', e] + b₁[e]) · W₂[e, c] + b₂[c]). -/
theorem pay51_apply (v114 : FVec Ideal S256x256 .f32) (v329 : FVec Ideal S2048x256 .f32) (v330 : Vec Ideal S1x256 .f32)
    (v331 : Vec Ideal S1x256 .f32) (v345 : Vec Ideal S256x256 .f32) (v348 : Vec Ideal S1x256 .f32)
    (v365 : Vec Ideal S256x256 .f32) (v368 : Vec Ideal S1x256 .f32) (r : Fin 2048) (c : Fin 256) :
    Gen.k0_pay51 v114 v329 v330 v331 v345 v348 v365 v368 (ix2 r c)
      = lnAt v114 v329 v330 v331 r c
        + ((∑ e : Fin 256, geluAt ((∑ e' : Fin 256, lnAt v114 v329 v330 v331 r e' * v345 (ix2 e' e)) + v348 (ix2 (0 : Fin 1) e))
              * v365 (ix2 e c)) + v368 (ix2 (0 : Fin 1) c)) := by
  have hvec : Gen.k0_pay51 v114 v329 v330 v331 v345 v348 v365 v368
      = addf (lnVec Gen.broadcasts_S1x256_S2048x256 v114 v329 v330 v331)
          (linVec Gen.broadcasts_S1x256_S2048x256 Gen.bitsLt_bf16_f32
            (geluVec (linVec Gen.broadcasts_S1x256_S2048x256 Gen.bitsLt_bf16_f32
              (lnVec Gen.broadcasts_S1x256_S2048x256 v114 v329 v330 v331) v345 v348)) v365 v368) := rfl
  rw [hvec]
  refine congrArg₂ (fun a b : EReal => a + b) (lnVec_at _ v114 v329 v330 v331 r c) ?_
  refine (linVec_at _ _ _ v365 v368 r c).trans ?_
  refine congrArg (fun y : EReal => y + v368 (ix2 (0 : Fin 1) c)) (Finset.sum_congr rfl fun e _ => ?_)
  refine congrArg (fun y : EReal => y * v365 (ix2 e c)) ?_
  refine (geluVec_at _ (ix2 r e)).trans (congrArg geluAt ?_)
  refine (linVec_at _ _ _ v345 v348 r e).trans ?_
  refine congrArg (fun y : EReal => y + v348 (ix2 (0 : Fin 1) e)) (Finset.sum_congr rfl fun e' _ => ?_)
  exact congrArg (fun y : EReal => y * v345 (ix2 e' e)) (lnVec_at _ v114 v329 v330 v331 r e')

/-- The second normalisation, at (r, c). -/
theorem pay52_apply (v114 : FVec Ideal S256x256 .f32) (v371 : FVec Ideal S2048x256 .f32) (v372 : Vec Ideal S1x256 .f32)
    (v373 : Vec Ideal S1x256 .f32) (r : Fin 2048) (c : Fin 256) :
    Gen.k0_pay52 v114 v371 v372 v373 (ix2 r c) = lnAt v114 v371 v372 v373 r c :=
  lnVec_at Gen.broadcasts_S1x256_S2048x256 v114 v371 v372 v373 r c

/-- The second normalisation narrowed to bf16: the identity at the extended reals. -/
theorem pay53_apply (v114 : FVec Ideal S256x256 .f32) (v371 : FVec Ideal S2048x256 .f32) (v372 : Vec Ideal S1x256 .f32)
    (v373 : Vec Ideal S1x256 .f32) (r : Fin 2048) (c : Fin 256) :
    Gen.k0_pay53 v114 v371 v372 v373 (ix2 r c) = lnAt v114 v371 v372 v373 r c :=
  pay52_apply v114 v371 v372 v373 r c

end Cert.KernelIdeal.Read

end
-- ==== Proof.KerSpineF.lean ====
/-
  The fused kernel's body against the fused order of the layer (fifth part: the tail of the first
  layer — normalisation, feed-forward map with its residual, second normalisation).
-/
import proofs.«141667_g2000002524955183_pallasbulk_3_44_alg».proof.Proof.KerSpineE
import proofs.«141667_g2000002524955183_pallasbulk_3_44_alg».proof.Proof.KerPay51_53

noncomputable section

namespace Cert.KernelIdeal.Spine

open Idealize.ShloMosaic Idealize.ShloMosaic.ValueIdx Cert.KernelIdeal Cert.KernelIdeal.Gen
open Cert.KernelIdeal.Dag Cert.KernelIdeal.Read
open Cert.Spec Cert.Lib.LibFloatWords Cert.Lib.LibHeadSplit Cert.Lib.LibRealClosure
open scoped BigOperators

variable {Y : Loads Ideal}

/-- The first normalised table of the first layer. -/
theorem x1_form (hc : ConstTabs Y) (b : Fin 32) (s : Fin 64) (c : Fin 256) :
    lnAt (n0 Y) (n35 Y) Y.y16 Y.y17 (row b s) c = Ker.x1 C (params (T0 Y)) mask (X0 Y b) s c :=
  lnAt_spec (n0 Y) (n35 Y) Y.y16 Y.y17 hc.avg (Ker.y1 C (params (T0 Y)) mask (X0 Y b)) (row b s) s
    (fun e => n35_at hc b s e) c

/-- The second residual of the first layer. -/
theorem n36_at (hc : ConstTabs Y) (b : Fin 32) (s : Fin 64) (c : Fin 256) :
    n36 Y (ix2 (row b s) c)
      = Ker.y2 C (params (T0 Y)) (Ker.x1 C (params (T0 Y)) mask (X0 Y b)) s c := by
  refine (pay51_apply (n0 Y) (n35 Y) Y.y16 Y.y17 Y.y18 Y.y19 Y.y20 Y.y21 (row b s) c).trans ?_
  simp only [x1_form hc, geluAt_spec]
  rfl

/-- The input table of the second layer: the first layer's result. -/
def X1 (Y : Loads Ideal) (b : Fin 32) : Fin 64 → Fin (8 * 32) → EReal :=
  Ker.layer C (params (T0 Y)) mask (X0 Y b)

/-- The first layer's result, as the body holds it in both widths. -/
theorem ln2_form (hc : ConstTabs Y) (b : Fin 32) (s : Fin 64) (c : Fin 256) :
    lnAt (n0 Y) (n36 Y) Y.y22 Y.y23 (row b s) c = X1 Y b s c :=
  lnAt_spec (n0 Y) (n36 Y) Y.y22 Y.y23 hc.avg
    (Ker.y2 C (params (T0 Y)) (Ker.x1 C (params (T0 Y)) mask (X0 Y b))) (row b s) s
    (fun e => n36_at hc b s e) c

theorem n37_at (hc : ConstTabs Y) (b : Fin 32) (s : Fin 64) (c : Fin 256) :
    n37 Y (ix2 (row b s) c) = X1 Y b s c :=
  (pay52_apply (n0 Y) (n36 Y) Y.y22 Y.y23 (row b s) c).trans (ln2_form hc b s c)

theorem pay53_at (hc : ConstTabs Y) (b : Fin 32) (s : Fin 64) (c : Fin 256) :
    k0_pay53 (n0 Y) (n36 Y) Y.y22 Y.y23 (ix2 (row b s) c) = X1 Y b s c :=
  (pay53_apply (n0 Y) (n36 Y) Y.y22 Y.y23 (row b s) c).trans (ln2_form hc b s c)

end Cert.KernelIdeal.Spine

end
-- ==== Proof.KerPay54_62.lean ====
/-
  The second encoder layer's projections, its first head, and the lane-32 slices, read at one entry.

  The layer's input is the first layer's output y = LN(·) (the entry-level `lnAt`), narrowed to bf16 (the identity at the
  extended reals). Entry (b, s, c) of each projection is  Σ_e y[64·b + s, e] · w[e, c] + bias[s, c].  The head at lane 0
  has weights  exp(Σ_l q[b, s, l] · k[b, t, l] + mask[s, t]),  output  Σ_t weight · v[b, t, d],  and contributes
  Σ_t weight · selector[t, g]  to the denominators' table at row 64·b + s.
-/
import proofs.«141667_g2000002524955183_pallasbulk_3_44_alg».proof.Proof.Gen.KernelIdeal.Skeleton
import proofs.«141667_g2000002524955183_pallasbulk_3_44_alg».proof.Proof.KerPay51_53
import proofs.«141667_g2000002524955183_pallasbulk_3_44_alg».proof.Proof.KerHead
import Idealize.ShloMosaic.Lib.ValueIdx
import Idealize.ShloMosaic.Lib.ValueLayout
import Idealize.ShloMosaic.Lib.Pipeline.Value

noncomputable section

namespace Cert.KernelIdeal.Read

open Idealize.ShloMosaic Idealize.ShloMosaic.ValueIdx Cert.KernelIdeal
open scoped BigOperators

/-- A projection of a [2048, 256] bf16 table: the product with a [256, 256] weight viewed as [32, 64, 256], plus a
    per-position bias table, narrowed; at (b, s, c). -/
theorem proj_at (hc : S2048x256.ShapeCasts S32x64x256) (hc' : S64x256.ShapeCasts S1x64x256)
    (hb : S1x64x256.Broadcasts S32x64x256) (hlt : FTy.bits .bf16 < FTy.bits .f32)
    (xb : FVec Ideal S2048x256 .bf16) (w : FVec Ideal S256x256 .bf16) (bias : FVec Ideal S64x256 .f32)
    (b : Fin 32) (s : Fin 64) (c : Fin 256) :
    truncf .bf16 (addf (shapeCast S32x64x256 (matmul dot_S2048x256_S256x256_S2048x256_1_0_0_1_n_n none xb w (constant S2048x256 .f32 0x00000000#32)) hc)
      (broadcastTo S32x64x256 (shapeCast S1x64x256 bias hc') hb)) hlt (ix3 b s c)
      = (∑ e : Fin 256, xb (ix2 ⟨64 * b.val + s.val, by omega⟩ e) * w (ix2 e c)) + bias (ix2 s c) := by
  refine congrArg₂ (fun x y : EReal => x + y) ?_ ?_
  · refine (shapeCast_apply _ hc (ix3 b s c) (ix2 ⟨64 * b.val + s.val, by omega⟩ c) ?_).trans
      (dot_2048x256_256x256_at _ _ _ _)
    rw [Shape.rowMajor_val_two, Shape.rowMajor_val_three]
    show (64 * b.val + s.val) * 256 + c.val = (b.val * 64 + s.val) * 256 + c.val
    omega
  · refine (broadcastTo_apply _ hb (ix3 b s c) (ix3 (0 : Fin 1) s c) ?_).trans (shapeCast_ab_1ab_apply _ _ _ _ _)
    intro a
    match a with
    | ⟨0, _⟩ => rfl
    | ⟨1, _⟩ => rfl
    | ⟨2, _⟩ => rfl

/-- The query projection of the second layer at (b, s, c). -/
theorem pay54_apply (v66 : FVec Ideal S64x256 .f32) (v67 : FVec Ideal S256x256 .bf16)
    (v114 : FVec Ideal S256x256 .f32) (v371 : FVec Ideal S2048x256 .f32) (v372 : Vec Ideal S1x256 .f32) (v373 : Vec Ideal S1x256 .f32)
    (b : Fin 32) (s : Fin 64) (c : Fin 256) :
    Gen.k0_pay54 v66 v67 v114 v371 v372 v373 (ix3 b s c)
      = ((∑ e : Fin 256, lnAt v114 v371 v372 v373 ⟨64 * b.val + s.val, by omega⟩ e * v67 (ix2 e c)) + v66 (ix2 s c)) := by
  unfold Gen.k0_pay54
  refine (proj_at _ _ _ _ _ v67 v66 b s c).trans ?_
  refine congrArg (fun y : EReal => y + v66 (ix2 s c)) (Finset.sum_congr rfl fun e _ => ?_)
  exact congrArg (fun y : EReal => y * v67 (ix2 e c)) (pay53_apply v114 v371 v372 v373 _ e)

/-- The key projection of the second layer at (b, s, c). -/
theorem pay55_apply (v80 : FVec Ideal S64x256 .f32) (v81 : FVec Ideal S256x256 .bf16)
    (v114 : FVec Ideal S256x256 .f32) (v371 : FVec Ideal S2048x256 .f32) (v372 : Vec Ideal S1x256 .f32) (v373 : Vec Ideal S1x256 .f32)
    (b : Fin 32) (s : Fin 64) (c : Fin 256) :
    Gen.k0_pay55 v80 v81 v114 v371 v372 v373 (ix3 b s c)
      = ((∑ e : Fin 256, lnAt v114 v371 v372 v373 ⟨64 * b.val + s.val, by omega⟩ e * v81 (ix2 e c)) + v80 (ix2 s c)) := by
  unfold Gen.k0_pay55
  refine (proj_at _ _ _ _ _ v81 v80 b s c).trans ?_
  refine congrArg (fun y : EReal => y + v80 (ix2 s c)) (Finset.sum_congr rfl fun e _ => ?_)
  exact congrArg (fun y : EReal => y * v81 (ix2 e c)) (pay53_apply v114 v371 v372 v373 _ e)

/-- The value projection of the second layer at (b, s, c). -/
theorem pay56_apply (v94 : FVec Ideal S64x256 .f32) (v95 : FVec Ideal S256x256 .bf16)
    (v114 : FVec Ideal S256x256 .f32) (v371 : FVec Ideal S2048x256 .f32) (v372 : Vec Ideal S1x256 .f32) (v373 : Vec Ideal S1x256 .f32)
    (b : Fin 32) (s : Fin 64) (c : Fin 256) :
    Gen.k0_pay56 v94 v95 v114 v371 v372 v373 (ix3 b s c)
      = ((∑ e : Fin 256, lnAt v114 v371 v372 v373 ⟨64 * b.val + s.val, by omega⟩ e * v95 (ix2 e c)) + v94 (ix2 s c)) := by
  unfold Gen.k0_pay56
  refine (proj_at _ _ _ _ _ v95 v94 b s c).trans ?_
  refine congrArg (fun y : EReal => y + v94 (ix2 s c)) (Finset.sum_congr rfl fun e _ => ?_)
  exact congrArg (fun y : EReal => y * v95 (ix2 e c)) (pay53_apply v114 v371 v372 v373 _ e)

/-- The unnormalised weights of the head at lane 0. -/
theorem pay57_apply (v66 : FVec Ideal S64x256 .f32) (v67 : FVec Ideal S256x256 .bf16) (v80 : FVec Ideal S64x256 .f32) (v81 : FVec Ideal S256x256 .bf16)
    (v113 : FVec Ideal S64x64 .f32) (v114 : FVec Ideal S256x256 .f32) (v371 : FVec Ideal S2048x256 .f32) (v372 : Vec Ideal S1x256 .f32) (v373 : Vec Ideal S1x256 .f32)
    (b : Fin 32) (s t : Fin 64) :
    Gen.k0_pay57 v66 v67 v80 v81 v113 v114 v371 v372 v373 (ix3 b s t)
      = Ideal.exp ((∑ l : Fin 32, ((∑ e : Fin 256, lnAt v114 v371 v372 v373 ⟨64 * b.val + s.val, by omega⟩ e * v67 (ix2 e ⟨0 + l.val, by omega⟩)) + v66 (ix2 s ⟨0 + l.val, by omega⟩)) * ((∑ e : Fin 256, lnAt v114 v371 v372 v373 ⟨64 * b.val + t.val, by omega⟩ e * v81 (ix2 e ⟨0 + l.val, by omega⟩)) + v80 (ix2 t ⟨0 + l.val, by omega⟩))) + v113 (ix2 s t)) := by
  unfold Gen.k0_pay57
  refine (weights_at 0 (by omega) _ _ _ _ v113 _ _ b s t).trans ?_
  refine congrArg Ideal.exp (congrArg₂ (fun x y : EReal => x + y) (Finset.sum_congr rfl fun l _ => ?_) rfl)
  exact congrArg₂ (fun x y : EReal => x * y) (pay54_apply v66 v67 v114 v371 v372 v373 b s _) (pay55_apply v80 v81 v114 v371 v372 v373 b t _)

/-- The weighted sum of the value lanes of the head at lane 0. -/
theorem pay58_apply (v66 : FVec Ideal S64x256 .f32) (v67 : FVec Ideal S256x256 .bf16) (v80 : FVec Ideal S64x256 .f32) (v81 : FVec Ideal S256x256 .bf16)
    (v94 : FVec Ideal S64x256 .f32) (v95 : FVec Ideal S256x256 .bf16) (v113 : FVec Ideal S64x64 .f32)
    (v114 : FVec Ideal S256x256 .f32) (v371 : FVec Ideal S2048x256 .f32) (v372 : Vec Ideal S1x256 .f32) (v373 : Vec Ideal S1x256 .f32)
    (b : Fin 32) (s : Fin 64) (d : Fin 32) :
    Gen.k0_pay58 v66 v67 v80 v81 v94 v95 v113 v114 v371 v372 v373 (ix3 b s d)
      = ∑ t : Fin 64, Ideal.exp ((∑ l : Fin 32, ((∑ e : Fin 256, lnAt v114 v371 v372 v373 ⟨64 * b.val + s.val, by omega⟩ e * v67 (ix2 e ⟨0 + l.val, by omega⟩)) + v66 (ix2 s ⟨0 + l.val, by omega⟩)) * ((∑ e : Fin 256, lnAt v114 v371 v372 v373 ⟨64 * b.val + t.val, by omega⟩ e * v81 (ix2 e ⟨0 + l.val, by omega⟩)) + v80 (ix2 t ⟨0 + l.val, by omega⟩))) + v113 (ix2 s t))
          * ((∑ e : Fin 256, lnAt v114 v371 v372 v373 ⟨64 * b.val + t.val, by omega⟩ e * v95 (ix2 e ⟨0 + d.val, by omega⟩)) + v94 (ix2 t ⟨0 + d.val, by omega⟩)) := by
  unfold Gen.k0_pay58
  refine (weighted_at 0 (by omega) _ _ _ b s d).trans (Finset.sum_congr rfl fun t _ => ?_)
  exact congrArg₂ (fun x y : EReal => x * y) (pay57_apply v66 v67 v80 v81 v113 v114 v371 v372 v373 b s t)
    (pay56_apply v94 v95 v114 v371 v372 v373 b t _)

/-- The denominators' table after the head at lane 0, at row 64·b + s and column g. -/
theorem pay59_apply (v66 : FVec Ideal S64x256 .f32) (v67 : FVec Ideal S256x256 .bf16) (v80 : FVec Ideal S64x256 .f32) (v81 : FVec Ideal S256x256 .bf16)
    (v113 : FVec Ideal S64x64 .f32) (v114 : FVec Ideal S256x256 .f32) (v121 : FVec Ideal S64x8 .bf16)
    (v371 : FVec Ideal S2048x256 .f32) (v372 : Vec Ideal S1x256 .f32) (v373 : Vec Ideal S1x256 .f32)
    (b : Fin 32) (s : Fin 64) (g : Fin 8) :
    Gen.k0_pay59 v66 v67 v80 v81 v113 v114 v121 v371 v372 v373 (ix2 ⟨64 * b.val + s.val, by omega⟩ g)
      = ∑ t : Fin 64, Ideal.exp ((∑ l : Fin 32, ((∑ e : Fin 256, lnAt v114 v371 v372 v373 ⟨64 * b.val + s.val, by omega⟩ e * v67 (ix2 e ⟨0 + l.val, by omega⟩)) + v66 (ix2 s ⟨0 + l.val, by omega⟩)) * ((∑ e : Fin 256, lnAt v114 v371 v372 v373 ⟨64 * b.val + t.val, by omega⟩ e * v81 (ix2 e ⟨0 + l.val, by omega⟩)) + v80 (ix2 t ⟨0 + l.val, by omega⟩))) + v113 (ix2 s t)) * v121 (ix2 t g) := by
  unfold Gen.k0_pay59
  refine (selected_at _ _ v121 b s g).trans (Finset.sum_congr rfl fun t _ => ?_)
  exact congrArg (fun y : EReal => y * v121 (ix2 t g)) (pay57_apply v66 v67 v80 v81 v113 v114 v371 v372 v373 b s t)

/-- The query projection's lanes 32–63. -/
theorem pay60_apply (v66 : FVec Ideal S64x256 .f32) (v67 : FVec Ideal S256x256 .bf16)
    (v114 : FVec Ideal S256x256 .f32) (v371 : FVec Ideal S2048x256 .f32) (v372 : Vec Ideal S1x256 .f32) (v373 : Vec Ideal S1x256 .f32)
    (b : Fin 32) (s : Fin 64) (d : Fin 32) :
    Gen.k0_pay60 v66 v67 v114 v371 v372 v373 (ix3 b s d)
      = ((∑ e : Fin 256, lnAt v114 v371 v372 v373 ⟨64 * b.val + s.val, by omega⟩ e * v67 (ix2 e ⟨32 + d.val, by omega⟩)) + v66 (ix2 s ⟨32 + d.val, by omega⟩)) := by
  unfold Gen.k0_pay60
  exact (lanes_at 32 (by omega) _ _ b s d).trans (pay54_apply v66 v67 v114 v371 v372 v373 b s _)

/-- The key projection's lanes 32–63. -/
theorem pay61_apply (v80 : FVec Ideal S64x256 .f32) (v81 : FVec Ideal S256x256 .bf16)
    (v114 : FVec Ideal S256x256 .f32) (v371 : FVec Ideal S2048x256 .f32) (v372 : Vec Ideal S1x256 .f32) (v373 : Vec Ideal S1x256 .f32)
    (b : Fin 32) (s : Fin 64) (d : Fin 32) :
    Gen.k0_pay61 v80 v81 v114 v371 v372 v373 (ix3 b s d)
      = ((∑ e : Fin 256, lnAt v114 v371 v372 v373 ⟨64 * b.val + s.val, by omega⟩ e * v81 (ix2 e ⟨32 + d.val, by omega⟩)) + v80 (ix2 s ⟨32 + d.val, by omega⟩)) := by
  unfold Gen.k0_pay61
  exact (lanes_at 32 (by omega) _ _ b s d).trans (pay55_apply v80 v81 v114 v371 v372 v373 b s _)

/-- The value projection's lanes 32–63. -/
theorem pay62_apply (v94 : FVec Ideal S64x256 .f32) (v95 : FVec Ideal S256x256 .bf16)
    (v114 : FVec Ideal S256x256 .f32) (v371 : FVec Ideal S2048x256 .f32) (v372 : Vec Ideal S1x256 .f32) (v373 : Vec Ideal S1x256 .f32)
    (b : Fin 32) (s : Fin 64) (d : Fin 32) :
    Gen.k0_pay62 v94 v95 v114 v371 v372 v373 (ix3 b s d)
      = ((∑ e : Fin 256, lnAt v114 v371 v372 v373 ⟨64 * b.val + s.val, by omega⟩ e * v95 (ix2 e ⟨32 + d.val, by omega⟩)) + v94 (ix2 s ⟨32 + d.val, by omega⟩)) := by
  unfold Gen.k0_pay62
  exact (lanes_at 32 (by omega) _ _ b s d).trans (pay56_apply v94 v95 v114 v371 v372 v373 b s _)

end Cert.KernelIdeal.Read

end
-- ==== Proof.KerPay63_71.lean ====
/-
  The heads at lanes 32, 64, 96 and 128 of the second encoder layer, read at one entry, and the denominators' table
  after them.

  The head at lane 32 receives its query, key and value lanes already sliced, and its scores are accumulated into a
  given table: weights  exp((acc[b, s, t] + Σ_l q'[b, s, l] · k'[b, t, l]) + mask[s, t]).  The other heads read the
  projection tables q, k, v at lane `off`: weights  exp(Σ_l q[b, s, off + l] · k[b, t, off + l] + mask[s, t]),
  output  Σ_t weight · v[b, t, off + d].  The denominators' table adds, per head,  Σ_t weight · selector[t, g]  at row
  64·b + s.
-/
import proofs.«141667_g2000002524955183_pallasbulk_3_44_alg».proof.Proof.Gen.KernelIdeal.Skeleton
import proofs.«141667_g2000002524955183_pallasbulk_3_44_alg».proof.Proof.KerHead
import proofs.«141667_g2000002524955183_pallasbulk_3_44_alg».proof.Proof.KerJoin
import Idealize.ShloMosaic.Lib.ValueIdx

noncomputable section

namespace Cert.KernelIdeal.Read

open Idealize.ShloMosaic Idealize.ShloMosaic.ValueIdx Cert.KernelIdeal
open scoped BigOperators

/-- The unnormalised weights of the head at lane 32, from its query and key lanes and the scores' accumulator. -/
theorem pay63_apply (v113 : FVec Ideal S64x64 .f32) (v417 : FVec Ideal S32x64x32 .bf16) (v418 : FVec Ideal S32x64x32 .bf16)
    (cst_167 : FVec Ideal S32x64x64 .f32) (b : Fin 32) (s t : Fin 64) :
    Gen.k0_pay63 v113 v417 v418 cst_167 (ix3 b s t) = Ideal.exp ((cst_167 (ix3 b s t) + ∑ l : Fin 32, v417 (ix3 b s l) * v418 (ix3 b t l)) + v113 (ix2 s t)) := by
  unfold Gen.k0_pay63
  exact congrArg Ideal.exp (congrArg₂ (fun x y : EReal => x + y)
    ((matmul_acc_eq _ none v417 v418 cst_167 _).trans
      (congrArg (fun y : EReal => cst_167 (ix3 b s t) + y) (dot_scores_at v417 v418 b s t)))
    (mask_at _ _ v113 b s t))

/-- The weighted sum of the value lanes of the head at lane 32. -/
theorem pay64_apply (v113 : FVec Ideal S64x64 .f32) (v417 : FVec Ideal S32x64x32 .bf16) (v418 : FVec Ideal S32x64x32 .bf16)
    (v419 : FVec Ideal S32x64x32 .bf16) (cst_167 : FVec Ideal S32x64x64 .f32) (b : Fin 32) (s : Fin 64) (d : Fin 32) :
    Gen.k0_pay64 v113 v417 v418 v419 cst_167 (ix3 b s d)
      = ∑ t : Fin 64, Ideal.exp ((cst_167 (ix3 b s t) + ∑ l : Fin 32, v417 (ix3 b s l) * v418 (ix3 b t l)) + v113 (ix2 s t)) * v419 (ix3 b t d) := by
  unfold Gen.k0_pay64
  refine (dot_weighted_at _ v419 b s d).trans (Finset.sum_congr rfl fun t _ => ?_)
  exact congrArg (fun y : EReal => y * v419 (ix3 b t d)) (pay63_apply v113 v417 v418 cst_167 b s t)

/-- The unnormalised weights of the head at lane 64, from the query and key projection tables. -/
theorem pay65_apply (v113 : FVec Ideal S64x64 .f32) (v392 : FVec Ideal S32x64x256 .bf16) (v398 : FVec Ideal S32x64x256 .bf16)
    (b : Fin 32) (s t : Fin 64) :
    Gen.k0_pay65 v113 v392 v398 (ix3 b s t)
      = Ideal.exp ((∑ l : Fin 32, v392 (ix3 b s ⟨64 + l.val, by omega⟩) * v398 (ix3 b t ⟨64 + l.val, by omega⟩)) + v113 (ix2 s t)) := by
  unfold Gen.k0_pay65
  exact weights_at 64 (by omega) _ _ _ _ v113 v392 v398 b s t

/-- The weighted sum of the value lanes of the head at lane 64, from the three projection tables. -/
theorem pay66_apply (v113 : FVec Ideal S64x64 .f32) (v392 : FVec Ideal S32x64x256 .bf16) (v398 : FVec Ideal S32x64x256 .bf16)
    (v404 : FVec Ideal S32x64x256 .bf16) (b : Fin 32) (s : Fin 64) (d : Fin 32) :
    Gen.k0_pay66 v113 v392 v398 v404 (ix3 b s d)
      = ∑ t : Fin 64, Ideal.exp ((∑ l : Fin 32, v392 (ix3 b s ⟨64 + l.val, by omega⟩) * v398 (ix3 b t ⟨64 + l.val, by omega⟩)) + v113 (ix2 s t))
          * v404 (ix3 b t ⟨64 + d.val, by omega⟩) := by
  unfold Gen.k0_pay66
  refine (weighted_at 64 (by omega) _ _ v404 b s d).trans (Finset.sum_congr rfl fun t _ => ?_)
  exact congrArg (fun y : EReal => y * v404 (ix3 b t ⟨64 + d.val, by omega⟩)) (pay65_apply v113 v392 v398 b s t)

/-- The unnormalised weights of the head at lane 96, from the query and key projection tables. -/
theorem pay67_apply (v113 : FVec Ideal S64x64 .f32) (v392 : FVec Ideal S32x64x256 .bf16) (v398 : FVec Ideal S32x64x256 .bf16)
    (b : Fin 32) (s t : Fin 64) :
    Gen.k0_pay67 v113 v392 v398 (ix3 b s t)
      = Ideal.exp ((∑ l : Fin 32, v392 (ix3 b s ⟨96 + l.val, by omega⟩) * v398 (ix3 b t ⟨96 + l.val, by omega⟩)) + v113 (ix2 s t)) := by
  unfold Gen.k0_pay67
  exact weights_at 96 (by omega) _ _ _ _ v113 v392 v398 b s t

/-- The weighted sum of the value lanes of the head at lane 96, from the three projection tables. -/
theorem pay68_apply (v113 : FVec Ideal S64x64 .f32) (v392 : FVec Ideal S32x64x256 .bf16) (v398 : FVec Ideal S32x64x256 .bf16)
    (v404 : FVec Ideal S32x64x256 .bf16) (b : Fin 32) (s : Fin 64) (d : Fin 32) :
    Gen.k0_pay68 v113 v392 v398 v404 (ix3 b s d)
      = ∑ t : Fin 64, Ideal.exp ((∑ l : Fin 32, v392 (ix3 b s ⟨96 + l.val, by omega⟩) * v398 (ix3 b t ⟨96 + l.val, by omega⟩)) + v113 (ix2 s t))
          * v404 (ix3 b t ⟨96 + d.val, by omega⟩) := by
  unfold Gen.k0_pay68
  refine (weighted_at 96 (by omega) _ _ v404 b s d).trans (Finset.sum_congr rfl fun t _ => ?_)
  exact congrArg (fun y : EReal => y * v404 (ix3 b t ⟨96 + d.val, by omega⟩)) (pay67_apply v113 v392 v398 b s t)

/-- The unnormalised weights of the head at lane 128, from the query and key projection tables. -/
theorem pay69_apply (v113 : FVec Ideal S64x64 .f32) (v392 : FVec Ideal S32x64x256 .bf16) (v398 : FVec Ideal S32x64x256 .bf16)
    (b : Fin 32) (s t : Fin 64) :
    Gen.k0_pay69 v113 v392 v398 (ix3 b s t)
      = Ideal.exp ((∑ l : Fin 32, v392 (ix3 b s ⟨128 + l.val, by omega⟩) * v398 (ix3 b t ⟨128 + l.val, by omega⟩)) + v113 (ix2 s t)) := by
  unfold Gen.k0_pay69
  exact weights_at 128 (by omega) _ _ _ _ v113 v392 v398 b s t

/-- The weighted sum of the value lanes of the head at lane 128, from the three projection tables. -/
theorem pay70_apply (v113 : FVec Ideal S64x64 .f32) (v392 : FVec Ideal S32x64x256 .bf16) (v398 : FVec Ideal S32x64x256 .bf16)
    (v404 : FVec Ideal S32x64x256 .bf16) (b : Fin 32) (s : Fin 64) (d : Fin 32) :
    Gen.k0_pay70 v113 v392 v398 v404 (ix3 b s d)
      = ∑ t : Fin 64, Ideal.exp ((∑ l : Fin 32, v392 (ix3 b s ⟨128 + l.val, by omega⟩) * v398 (ix3 b t ⟨128 + l.val, by omega⟩)) + v113 (ix2 s t))
          * v404 (ix3 b t ⟨128 + d.val, by omega⟩) := by
  unfold Gen.k0_pay70
  refine (weighted_at 128 (by omega) _ _ v404 b s d).trans (Finset.sum_congr rfl fun t _ => ?_)
  exact congrArg (fun y : EReal => y * v404 (ix3 b t ⟨128 + d.val, by omega⟩)) (pay69_apply v113 v392 v398 b s t)

/-- The denominators' table after the heads at lanes 32, 64, 96 and 128, at row 64·b + s and column g: the table so
    far plus, head by head, the sum over key rows of weight times selector entry. -/
theorem pay71_apply (v113 : FVec Ideal S64x64 .f32) (v127 : FVec Ideal S64x8 .bf16) (v133 : FVec Ideal S64x8 .bf16)
    (v139 : FVec Ideal S64x8 .bf16) (v145 : FVec Ideal S64x8 .bf16) (v392 : FVec Ideal S32x64x256 .bf16) (v398 : FVec Ideal S32x64x256 .bf16)
    (v416 : FVec Ideal S2048x8 .f32) (v417 : FVec Ideal S32x64x32 .bf16) (v418 : FVec Ideal S32x64x32 .bf16)
    (cst_167 : FVec Ideal S32x64x64 .f32) (b : Fin 32) (s : Fin 64) (g : Fin 8) :
    Gen.k0_pay71 v113 v127 v133 v139 v145 v392 v398 v416 v417 v418 cst_167 (ix2 ⟨64 * b.val + s.val, by omega⟩ g)
      = (((v416 (ix2 ⟨64 * b.val + s.val, by omega⟩ g)
              + ∑ t : Fin 64, Ideal.exp ((cst_167 (ix3 b s t) + ∑ l : Fin 32, v417 (ix3 b s l) * v418 (ix3 b t l)) + v113 (ix2 s t)) * v127 (ix2 t g))
            + ∑ t : Fin 64, Ideal.exp ((∑ l : Fin 32, v392 (ix3 b s ⟨64 + l.val, by omega⟩) * v398 (ix3 b t ⟨64 + l.val, by omega⟩)) + v113 (ix2 s t)) * v133 (ix2 t g))
          + ∑ t : Fin 64, Ideal.exp ((∑ l : Fin 32, v392 (ix3 b s ⟨96 + l.val, by omega⟩) * v398 (ix3 b t ⟨96 + l.val, by omega⟩)) + v113 (ix2 s t)) * v139 (ix2 t g))
        + ∑ t : Fin 64, Ideal.exp ((∑ l : Fin 32, v392 (ix3 b s ⟨128 + l.val, by omega⟩) * v398 (ix3 b t ⟨128 + l.val, by omega⟩)) + v113 (ix2 s t)) * v145 (ix2 t g) := by
  unfold Gen.k0_pay71
  refine congrArg₂ (fun x y : EReal => x + y) (congrArg₂ (fun x y : EReal => x + y)
    (congrArg₂ (fun x y : EReal => x + y)
      (congrArg (fun y : EReal => v416 (ix2 ⟨64 * b.val + s.val, by omega⟩ g) + y) ?_) ?_) ?_) ?_
  · refine (selected_at _ _ v127 b s g).trans (Finset.sum_congr rfl fun t _ => ?_)
    exact congrArg (fun y : EReal => y * v127 (ix2 t g)) (pay63_apply v113 v417 v418 cst_167 b s t)
  · refine (selected_at _ _ v133 b s g).trans (Finset.sum_congr rfl fun t _ => ?_)
    exact congrArg (fun y : EReal => y * v133 (ix2 t g)) (pay65_apply v113 v392 v398 b s t)
  · refine (selected_at _ _ v139 b s g).trans (Finset.sum_congr rfl fun t _ => ?_)
    exact congrArg (fun y : EReal => y * v139 (ix2 t g)) (pay67_apply v113 v392 v398 b s t)
  · refine (selected_at _ _ v145 b s g).trans (Finset.sum_congr rfl fun t _ => ?_)
    exact congrArg (fun y : EReal => y * v145 (ix2 t g)) (pay69_apply v113 v392 v398 b s t)

end Cert.KernelIdeal.Read

end
-- ==== Proof.KerSpineG.lean ====
/-
  The fused kernel's body against the fused order of the layer (sixth part: the second layer's
  projections, its heads 0 to 4 and the gathered normalising sums of those heads). The second layer
  reads the first layer's result `X1`.
-/
import proofs.«141667_g2000002524955183_pallasbulk_3_44_alg».proof.Proof.KerSpineF
import proofs.«141667_g2000002524955183_pallasbulk_3_44_alg».proof.Proof.KerPay54_62
import proofs.«141667_g2000002524955183_pallasbulk_3_44_alg».proof.Proof.KerPay63_71

noncomputable section

namespace Cert.KernelIdeal.Spine

open Idealize.ShloMosaic Idealize.ShloMosaic.ValueIdx Cert.KernelIdeal Cert.KernelIdeal.Gen
open Cert.KernelIdeal.Dag Cert.KernelIdeal.Read
open Cert.Spec Cert.Lib.LibFloatWords Cert.Lib.LibHeadSplit Cert.Lib.LibRealClosure
open scoped BigOperators

variable {Y : Loads Ideal}

/-! ### The three projections -/

theorem n40_at (hc : ConstTabs Y) (b : Fin 32) (s : Fin 64) (c : Fin 256) :
    n40 Y (ix3 b s c) = Ker.q3 C (params (T1 Y)) (X1 Y b) s c := by
  refine (pay54_apply (n38 Y) (n39 Y) (n0 Y) (n36 Y) Y.y22 Y.y23 b s c).trans ?_
  simp only [ln2_form hc, n38_at, n39_at]
  rfl

theorem n43_at (hc : ConstTabs Y) (b : Fin 32) (s : Fin 64) (c : Fin 256) :
    n43 Y (ix3 b s c) = Ker.k3 (params (T1 Y)) (X1 Y b) s c := by
  refine (pay55_apply (n41 Y) (n42 Y) (n0 Y) (n36 Y) Y.y22 Y.y23 b s c).trans ?_
  simp only [ln2_form hc, n41_at, n42_at]
  rfl

theorem n46_at (hc : ConstTabs Y) (b : Fin 32) (s : Fin 64) (c : Fin 256) :
    n46 Y (ix3 b s c) = Ker.v3 (params (T1 Y)) (X1 Y b) s c := by
  refine (pay56_apply (n44 Y) (n45 Y) (n0 Y) (n36 Y) Y.y22 Y.y23 b s c).trans ?_
  simp only [ln2_form hc, n44_at, n45_at]
  rfl

/-! ### Head 0 -/

theorem q0_at (hc : ConstTabs Y) (b : Fin 32) (s t : Fin 64) :
    k0_pay57 (n38 Y) (n39 Y) (n41 Y) (n42 Y) (n4 Y) (n0 Y) (n36 Y) Y.y22 Y.y23 (ix3 b s t)
      = Ker.p C (params (T1 Y)) mask (X1 Y b) (0 : Fin 8) s t := by
  refine (pay57_apply (n38 Y) (n39 Y) (n41 Y) (n42 Y) (n4 Y) (n0 Y) (n36 Y) Y.y22 Y.y23 b s t).trans ?_
  simp only [ln2_form hc, n38_at, n39_at, n41_at, n42_at, hc.mask]
  rfl

theorem n47_at (hc : ConstTabs Y) (b : Fin 32) (s : Fin 64) (l : Fin 32) :
    n47 Y (ix3 b s l) = Ker.part C (params (T1 Y)) mask (X1 Y b) (0 : Fin 8) s l := by
  refine (pay58_apply (n38 Y) (n39 Y) (n41 Y) (n42 Y) (n44 Y) (n45 Y) (n4 Y) (n0 Y) (n36 Y) Y.y22 Y.y23 b s l).trans ?_
  simp only [ln2_form hc, n38_at, n39_at, n41_at, n42_at, n44_at, n45_at, hc.mask]
  rfl

theorem n56_at (hc : ConstTabs Y) (b : Fin 32) (s : Fin 64) (g : Fin 8) :
    n56 Y (ix2 (row b s) g)
      = ∑ t, Ker.p C (params (T1 Y)) mask (X1 Y b) (0 : Fin 8) s t * Ker.sel (0 : Fin 8) g := by
  refine (pay59_apply (n38 Y) (n39 Y) (n41 Y) (n42 Y) (n4 Y) (n0 Y) (n28 Y) (n36 Y) Y.y22 Y.y23 b s g).trans ?_
  simp only [ln2_form hc, n38_at, n39_at, n41_at, n42_at, hc.mask, hc.sel0]
  rfl

/-! ### Head 1 -/

theorem n48_at (hc : ConstTabs Y) (b : Fin 32) (s : Fin 64) (d : Fin 32) :
    n48 Y (ix3 b s d) = Ker.q3 C (params (T1 Y)) (X1 Y b) s (flat (1 : Fin 8) d) := by
  refine (pay60_apply (n38 Y) (n39 Y) (n0 Y) (n36 Y) Y.y22 Y.y23 b s d).trans ?_
  simp only [ln2_form hc, n38_at, n39_at]
  rfl

theorem n49_at (hc : ConstTabs Y) (b : Fin 32) (s : Fin 64) (d : Fin 32) :
    n49 Y (ix3 b s d) = Ker.k3 (params (T1 Y)) (X1 Y b) s (flat (1 : Fin 8) d) := by
  refine (pay61_apply (n41 Y) (n42 Y) (n0 Y) (n36 Y) Y.y22 Y.y23 b s d).trans ?_
  simp only [ln2_form hc, n41_at, n42_at]
  rfl

theorem n50_at (hc : ConstTabs Y) (b : Fin 32) (s : Fin 64) (d : Fin 32) :
    n50 Y (ix3 b s d) = Ker.v3 (params (T1 Y)) (X1 Y b) s (flat (1 : Fin 8) d) := by
  refine (pay62_apply (n44 Y) (n45 Y) (n0 Y) (n36 Y) Y.y22 Y.y23 b s d).trans ?_
  simp only [ln2_form hc, n44_at, n45_at]
  rfl

/-- The zero table head 1's scores are accumulated into. -/
theorem n51_at (Y : Loads Ideal) (b : Fin 32) (s t : Fin 64) : n51 Y (ix3 b s t) = 0 := by
  show Ideal.ofBits .f32 0x00000000#32 = 0
  exact ofBits_zero

theorem q1_at (hc : ConstTabs Y) (b : Fin 32) (s t : Fin 64) :
    k0_pay63 (n4 Y) (n48 Y) (n49 Y) (n51 Y) (ix3 b s t) = Ker.p C (params (T1 Y)) mask (X1 Y b) (1 : Fin 8) s t := by
  refine (pay63_apply (n4 Y) (n48 Y) (n49 Y) (n51 Y) b s t).trans ?_
  simp only [n51_at, zero_add, n48_at hc, n49_at hc, hc.mask]
  rfl

theorem n52_at (hc : ConstTabs Y) (b : Fin 32) (s : Fin 64) (l : Fin 32) :
    n52 Y (ix3 b s l) = Ker.part C (params (T1 Y)) mask (X1 Y b) (1 : Fin 8) s l := by
  refine (pay64_apply (n4 Y) (n48 Y) (n49 Y) (n50 Y) (n51 Y) b s l).trans ?_
  simp only [n51_at, zero_add, n48_at hc, n49_at hc, n50_at hc, hc.mask]
  rfl

/-! ### Heads 2, 3 and 4 -/

theorem q2_at (hc : ConstTabs Y) (b : Fin 32) (s t : Fin 64) :
    k0_pay65 (n4 Y) (n40 Y) (n43 Y) (ix3 b s t) = Ker.p C (params (T1 Y)) mask (X1 Y b) (2 : Fin 8) s t := by
  refine (pay65_apply (n4 Y) (n40 Y) (n43 Y) b s t).trans ?_
  simp only [n40_at hc, n43_at hc, hc.mask]
  rfl

theorem n53_at (hc : ConstTabs Y) (b : Fin 32) (s : Fin 64) (l : Fin 32) :
    n53 Y (ix3 b s l) = Ker.part C (params (T1 Y)) mask (X1 Y b) (2 : Fin 8) s l := by
  refine (pay66_apply (n4 Y) (n40 Y) (n43 Y) (n46 Y) b s l).trans ?_
  simp only [n40_at hc, n43_at hc, n46_at hc, hc.mask]
  rfl

theorem q3_at (hc : ConstTabs Y) (b : Fin 32) (s t : Fin 64) :
    k0_pay67 (n4 Y) (n40 Y) (n43 Y) (ix3 b s t) = Ker.p C (params (T1 Y)) mask (X1 Y b) (3 : Fin 8) s t := by
  refine (pay67_apply (n4 Y) (n40 Y) (n43 Y) b s t).trans ?_
  simp only [n40_at hc, n43_at hc, hc.mask]
  rfl

theorem n54_at (hc : ConstTabs Y) (b : Fin 32) (s : Fin 64) (l : Fin 32) :
    n54 Y (ix3 b s l) = Ker.part C (params (T1 Y)) mask (X1 Y b) (3 : Fin 8) s l := by
  refine (pay68_apply (n4 Y) (n40 Y) (n43 Y) (n46 Y) b s l).trans ?_
  simp only [n40_at hc, n43_at hc, n46_at hc, hc.mask]
  rfl

theorem q4_at (hc : ConstTabs Y) (b : Fin 32) (s t : Fin 64) :
    k0_pay69 (n4 Y) (n40 Y) (n43 Y) (ix3 b s t) = Ker.p C (params (T1 Y)) mask (X1 Y b) (4 : Fin 8) s t := by
  refine (pay69_apply (n4 Y) (n40 Y) (n43 Y) b s t).trans ?_
  simp only [n40_at hc, n43_at hc, hc.mask]
  rfl

theorem n55_at (hc : ConstTabs Y) (b : Fin 32) (s : Fin 64) (l : Fin 32) :
    n55 Y (ix3 b s l) = Ker.part C (params (T1 Y)) mask (X1 Y b) (4 : Fin 8) s l := by
  refine (pay70_apply (n4 Y) (n40 Y) (n43 Y) (n46 Y) b s l).trans ?_
  simp only [n40_at hc, n43_at hc, n46_at hc, hc.mask]
  rfl

/-- The gathered sums after heads 0 to 4. -/
theorem n57_at (hc : ConstTabs Y) (b : Fin 32) (s : Fin 64) (g : Fin 8) :
    n57 Y (ix2 (row b s) g)
      = (∑ t, Ker.p C (params (T1 Y)) mask (X1 Y b) (0 : Fin 8) s t * Ker.sel (0 : Fin 8) g)
        + (∑ t, Ker.p C (params (T1 Y)) mask (X1 Y b) (1 : Fin 8) s t * Ker.sel (1 : Fin 8) g)
        + (∑ t, Ker.p C (params (T1 Y)) mask (X1 Y b) (2 : Fin 8) s t * Ker.sel (2 : Fin 8) g)
        + (∑ t, Ker.p C (params (T1 Y)) mask (X1 Y b) (3 : Fin 8) s t * Ker.sel (3 : Fin 8) g)
        + (∑ t, Ker.p C (params (T1 Y)) mask (X1 Y b) (4 : Fin 8) s t * Ker.sel (4 : Fin 8) g) := by
  refine (pay71_apply (n4 Y) (n29 Y) (n25 Y) (n26 Y) (n27 Y) (n40 Y) (n43 Y) (n56 Y) (n48 Y) (n49 Y) (n51 Y) b s g).trans ?_
  simp only [n56_at hc, n51_at, zero_add, n40_at hc, n43_at hc, n48_at hc, n49_at hc, hc.mask, hc.sel1, hc.sel2, hc.sel3,
    hc.sel4]
  rfl

end Cert.KernelIdeal.Spine

end
-- ==== Proof.KerPay72.lean ====
/-
  The end of attention in the second encoder layer before its output projection, read at row 64·b + s and lane e.

  The heads at lanes 160, 192 and 224 are computed here (weights, outputs, and their contributions to the
  denominators' table); the eight head outputs are set side by side and lane e is scaled by
  Σ_g (1 / den[r, g]) · rep[g, e].  Narrowing to bf16 is the identity at the extended reals.
-/
import proofs.«141667_g2000002524955183_pallasbulk_3_44_alg».proof.Proof.Gen.KernelIdeal.Skeleton
import proofs.«141667_g2000002524955183_pallasbulk_3_44_alg».proof.Proof.KerHead
import proofs.«141667_g2000002524955183_pallasbulk_3_44_alg».proof.Proof.KerJoin
import Idealize.ShloMosaic.Lib.ValueIdx

noncomputable section

namespace Cert.KernelIdeal.Read

open Idealize.ShloMosaic Idealize.ShloMosaic.ValueIdx Cert.KernelIdeal
open scoped BigOperators

/-- Eight-entry rows that agree on the first five entries and have equal last three are equal. -/
theorem vec8_congr {α : Type} (a0 a1 a2 a3 a4 : α) {x5 y5 x6 y6 x7 y7 : α} (h5 : x5 = y5) (h6 : x6 = y6) (h7 : x7 = y7) :
    (![a0, a1, a2, a3, a4, x5, x6, x7] : Fin 8 → α) = ![a0, a1, a2, a3, a4, y5, y6, y7] := by
  subst h5 h6 h7; rfl

theorem pay72_apply (v113 : FVec Ideal S64x64 .f32) (v151 : FVec Ideal S64x8 .bf16) (v157 : FVec Ideal S64x8 .bf16)
    (v163 : FVec Ideal S64x8 .bf16) (v193 : FVec Ideal S8x256 .f32) (v392 : FVec Ideal S32x64x256 .bf16) (v398 : FVec Ideal S32x64x256 .bf16)
    (v404 : FVec Ideal S32x64x256 .bf16) (v414 : FVec Ideal S32x64x32 .f32) (v426 : FVec Ideal S32x64x32 .f32)
    (v439 : FVec Ideal S32x64x32 .f32) (v452 : FVec Ideal S32x64x32 .f32) (v465 : FVec Ideal S32x64x32 .f32)
    (v468 : FVec Ideal S2048x8 .f32) (b : Fin 32) (s : Fin 64) (e : Fin 256) :
    Gen.k0_pay72 v113 v151 v157 v163 v193 v392 v398 v404 v414 v426 v439 v452 v465 v468 (ix2 ⟨64 * b.val + s.val, by omega⟩ e)
      = cat8At ![fun d => v414 (ix3 b s d), fun d => v426 (ix3 b s d), fun d => v439 (ix3 b s d), fun d => v452 (ix3 b s d), fun d => v465 (ix3 b s d),
            fun d => ∑ t : Fin 64, Ideal.exp ((∑ l : Fin 32, v392 (ix3 b s ⟨160 + l.val, by omega⟩) * v398 (ix3 b t ⟨160 + l.val, by omega⟩)) + v113 (ix2 s t)) * v404 (ix3 b t ⟨160 + d.val, by omega⟩),
            fun d => ∑ t : Fin 64, Ideal.exp ((∑ l : Fin 32, v392 (ix3 b s ⟨192 + l.val, by omega⟩) * v398 (ix3 b t ⟨192 + l.val, by omega⟩)) + v113 (ix2 s t)) * v404 (ix3 b t ⟨192 + d.val, by omega⟩),
            fun d => ∑ t : Fin 64, Ideal.exp ((∑ l : Fin 32, v392 (ix3 b s ⟨224 + l.val, by omega⟩) * v398 (ix3 b t ⟨224 + l.val, by omega⟩)) + v113 (ix2 s t)) * v404 (ix3 b t ⟨224 + d.val, by omega⟩)] e
          * ∑ g : Fin 8, Ideal.div (Ideal.ofBits .f32 0x3F800000#32)
              (((v468 (ix2 ⟨64 * b.val + s.val, by omega⟩ g)
                    + ∑ t : Fin 64, Ideal.exp ((∑ l : Fin 32, v392 (ix3 b s ⟨160 + l.val, by omega⟩) * v398 (ix3 b t ⟨160 + l.val, by omega⟩)) + v113 (ix2 s t)) * v151 (ix2 t g))
                  + ∑ t : Fin 64, Ideal.exp ((∑ l : Fin 32, v392 (ix3 b s ⟨192 + l.val, by omega⟩) * v398 (ix3 b t ⟨192 + l.val, by omega⟩)) + v113 (ix2 s t)) * v157 (ix2 t g))
                + ∑ t : Fin 64, Ideal.exp ((∑ l : Fin 32, v392 (ix3 b s ⟨224 + l.val, by omega⟩) * v398 (ix3 b t ⟨224 + l.val, by omega⟩)) + v113 (ix2 s t)) * v163 (ix2 t g))
              * v193 (ix2 g e) := by
  unfold Gen.k0_pay72
  refine congrArg₂ (fun x y : EReal => x * y) ?_ ?_
  · -- the eight head outputs side by side, one row per token
    refine (rows256_at _ _ b s e).trans ((cat8_lane _ _ _ _ _ _ _ _ _ b s e).trans
      (congrArg (fun p => cat8At p e) ?_))
    refine vec8_congr _ _ _ _ _ (funext fun d => ?_) (funext fun d => ?_) (funext fun d => ?_)
    · refine (weighted_at 160 (by omega) _ _ v404 b s d).trans (Finset.sum_congr rfl fun t _ => ?_)
      exact congrArg (fun y : EReal => y * v404 (ix3 b t ⟨160 + d.val, by omega⟩)) (weights_at 160 (by omega) _ _ _ _ v113 v392 v398 b s t)
    · refine (weighted_at 192 (by omega) _ _ v404 b s d).trans (Finset.sum_congr rfl fun t _ => ?_)
      exact congrArg (fun y : EReal => y * v404 (ix3 b t ⟨192 + d.val, by omega⟩)) (weights_at 192 (by omega) _ _ _ _ v113 v392 v398 b s t)
    · refine (weighted_at 224 (by omega) _ _ v404 b s d).trans (Finset.sum_congr rfl fun t _ => ?_)
      exact congrArg (fun y : EReal => y * v404 (ix3 b t ⟨224 + d.val, by omega⟩)) (weights_at 224 (by omega) _ _ _ _ v113 v392 v398 b s t)
  · -- the reciprocal denominators spread back over the lanes
    refine (dot_2048x8_8x256_at _ v193 _ e).trans (Finset.sum_congr rfl fun g _ => ?_)
    refine congrArg (fun y : EReal => Ideal.div (Ideal.ofBits .f32 0x3F800000#32) y * v193 (ix2 g e)) ?_
    refine congrArg₂ (fun x y : EReal => x + y) (congrArg₂ (fun x y : EReal => x + y)
      (congrArg (fun y : EReal => v468 (ix2 ⟨64 * b.val + s.val, by omega⟩ g) + y) ?_) ?_) ?_
    · refine (selected_at _ _ v151 b s g).trans (Finset.sum_congr rfl fun t _ => ?_)
      exact congrArg (fun y : EReal => y * v151 (ix2 t g)) (weights_at 160 (by omega) _ _ _ _ v113 v392 v398 b s t)
    · refine (selected_at _ _ v157 b s g).trans (Finset.sum_congr rfl fun t _ => ?_)
      exact congrArg (fun y : EReal => y * v157 (ix2 t g)) (weights_at 192 (by omega) _ _ _ _ v113 v392 v398 b s t)
    · refine (selected_at _ _ v163 b s g).trans (Finset.sum_congr rfl fun t _ => ?_)
      exact congrArg (fun y : EReal => y * v163 (ix2 t g)) (weights_at 224 (by omega) _ _ _ _ v113 v392 v398 b s t)

end Cert.KernelIdeal.Read

end
-- ==== Proof.KerPay73.lean ====
/-
  The second encoder layer's output projection, residual and first normalisation, read at one entry; with the
  normalisation written over one ROW of values, so that it applies to a row that is itself a sum.

  For a row xr of 256 values and an averaging matrix m: centred[c] = xr[c] − Σ_e xr[e] · m[e, c],  variance[c] =
  Σ_e centred[e]² · m[e, c],  result[c] = centred[c] · rsqrt(variance[c] + ε) · γ[c] + β[c].  The table form `lnAt` is
  this at the row  e ↦ x[r, e].  Here the row is  x[r, e] + (Σ_e' a[r, e'] · W[e', e] + bias[e])  — the layer's input
  plus the attention output a through the output projection.
-/
import proofs.«141667_g2000002524955183_pallasbulk_3_44_alg».proof.Proof.Gen.KernelIdeal.Skeleton
import proofs.«141667_g2000002524955183_pallasbulk_3_44_alg».proof.Proof.KerNorm
import Idealize.ShloMosaic.Lib.ValueIdx
import Idealize.ShloMosaic.Lib.ValueLayout

noncomputable section

namespace Cert.KernelIdeal.Read

open Idealize.ShloMosaic Idealize.ShloMosaic.ValueIdx Cert.KernelIdeal
open scoped BigOperators

/-- The centred entry of a row. -/
def cenRow (m : FVec Ideal S256x256 .f32) (xr : Fin 256 → EReal) (c : Fin 256) : EReal :=
  xr c - ∑ e : Fin 256, xr e * m (ix2 e c)

/-- The normalised, scaled and shifted entry of a row. -/
def lnRow (m : FVec Ideal S256x256 .f32) (xr : Fin 256 → EReal) (gam bet : Vec Ideal S1x256 .f32) (c : Fin 256) : EReal :=
  (cenRow m xr c * Ideal.rsqrt ((∑ e : Fin 256, (cenRow m xr e * cenRow m xr e) * m (ix2 e c))
      + Ideal.ofBits .f32 0x3727C5AC#32)) * gam (ix2 (0 : Fin 1) c) + bet (ix2 (0 : Fin 1) c)

/-- The table form is the row form at row r of the table. -/
theorem lnAt_eq_lnRow (m : FVec Ideal S256x256 .f32) (x : FVec Ideal S2048x256 .f32) (gam bet : Vec Ideal S1x256 .f32)
    (r : Fin 2048) (c : Fin 256) : lnAt m x gam bet r c = lnRow m (fun e => x (ix2 r e)) gam bet c := rfl

/-- Output projection, residual and normalisation at (r, c). -/
theorem pay73_apply (v114 : FVec Ideal S256x256 .f32) (v385 : FVec Ideal S2048x256 .f32) (v514 : FVec Ideal S2048x256 .bf16)
    (v515 : Vec Ideal S256x256 .f32) (v518 : Vec Ideal S1x256 .f32) (v522 : Vec Ideal S1x256 .f32)
    (v523 : Vec Ideal S1x256 .f32) (r : Fin 2048) (c : Fin 256) :
    Gen.k0_pay73 v114 v385 v514 v515 v518 v522 v523 (ix2 r c)
      = lnRow v114 (fun e => v385 (ix2 r e)
          + ((∑ e' : Fin 256, v514 (ix2 r e') * v515 (ix2 e' e)) + v518 (ix2 (0 : Fin 1) e))) v522 v523 c := by
  have hvec : Gen.k0_pay73 v114 v385 v514 v515 v518 v522 v523
      = lnVec Gen.broadcasts_S1x256_S2048x256 v114
          (addf v385 (addf (matmul dot_S2048x256_S256x256_S2048x256_1_0_0_1_n_n none v514 (truncf .bf16 v515 Gen.bitsLt_bf16_f32) (constant S2048x256 .f32 0x00000000#32))
            (broadcastTo S2048x256 v518 Gen.broadcasts_S1x256_S2048x256))) v522 v523 := rfl
  rw [hvec]
  refine (lnVec_at _ v114 _ v522 v523 r c).trans ((lnAt_eq_lnRow v114 _ v522 v523 r c).trans ?_)
  refine congrArg (fun xr => lnRow v114 xr v522 v523 c) (funext fun e => ?_)
  exact congrArg (fun y : EReal => v385 (ix2 r e) + y) (congrArg₂ (fun a b : EReal => a + b)
    (dot_2048x256_256x256_at v514 _ r e) (broadcastTo_1b_ab_apply v518 _ r e))

end Cert.KernelIdeal.Read

end
-- ==== Proof.KerPay74_76.lean ====
/-
  The tail of the fused kernel read at an entry: the feed-forward hidden layer of the second encoder layer, the second
  residual stream and its layer normalisation, and the two output heads (a mean head, and a scale head through
  log (1 + exp)), which the kernel computes as ONE product against the two [256, 16] head weights set side by side.

  The layer normalisation is written by the kernel with matrix products: the mean of a row is the row times a
  [256, 256] table J (the constant 1/256 in the program), and so is the mean of the squared centred row.
-/
import proofs.«141667_g2000002524955183_pallasbulk_3_44_alg».proof.Proof.Gen.KernelIdeal.Skeleton
import proofs.«141667_g2000002524955183_pallasbulk_3_44_alg».proof.Proof.LibMatmulAt
import proofs.«141667_g2000002524955183_pallasbulk_3_44_alg».proof.Proof.KerDots
import Idealize.ShloMosaic.Lib.ValueIdx
import Idealize.ShloMosaic.Lib.ValueLayout
import Idealize.ShloMosaic.Lib.Pipeline.Value

noncomputable section

namespace Cert.KernelIdeal.Read

open Idealize.ShloMosaic Idealize.ShloMosaic.ValueIdx Cert.KernelIdeal Cert.KernelIdeal.Gen
open scoped BigOperators

/-! ## The mathematics, on rows of extended reals -/

/-- The tanh form of the Gaussian error linear unit, with the program's four constants as their words:
    (1/2 · h) · (1 + tanh (c₂ · (h + c₁ · h · h · h))). -/
def geluWords (h : EReal) : EReal :=
  (Ideal.ofBits .f32 0x3F000000#32 * h)
    * (Ideal.ofBits .f32 0x3F800000#32
        + Ideal.tanh (Ideal.ofBits .f32 0x3F4C422A#32 * (h + Ideal.ofBits .f32 0x3D372713#32 * h * h * h)))

/-- Row r of a residual stream: the carried row plus the row of a hidden table through a weight, plus a bias row. -/
def resid (x : FVec Ideal S2048x256 .f32) (h : FVec Ideal S2048x256 .bf16) (W : FVec Ideal S256x256 .f32)
    (b : FVec Ideal S1x256 .f32) (r : Fin 2048) (e : Fin 256) : EReal :=
  x (ix2 r e) + ((∑ d : Fin 256, h (ix2 r d) * W (ix2 d e)) + b (ix2 (0 : Fin 1) e))

/-- A row less its mean, the mean taken as the row times the table J. -/
def centred (x : Fin 256 → EReal) (J : FVec Ideal S256x256 .f32) (e : Fin 256) : EReal :=
  x e - ∑ d : Fin 256, x d * J (ix2 d e)

/-- The layer normalisation of a row: centred, times the reciprocal root of (the mean of the squared centred row plus
    the word 0x3727C5AC), times the gain, plus the shift. -/
def normed (x : Fin 256 → EReal) (J : FVec Ideal S256x256 .f32) (g b : FVec Ideal S1x256 .f32) (e : Fin 256) : EReal :=
  centred x J e
      * Ideal.rsqrt ((∑ d : Fin 256, centred x J d * centred x J d * J (ix2 d e)) + Ideal.ofBits .f32 0x3727C5AC#32)
      * g (ix2 (0 : Fin 1) e)
    + b (ix2 (0 : Fin 1) e)

/-! ## The printed chains, as terms of their inputs -/

/-- The printed layer normalisation of a [2048, 256] table. -/
def lnTerm (x : FVec Ideal S2048x256 .f32) (J : FVec Ideal S256x256 .f32) (g b : FVec Ideal S1x256 .f32) :
    FVec Ideal S2048x256 .f32 :=
  addf (mulf (mulf (subf x (matmul dot_S2048x256_S256x256_S2048x256_1_0_0_1_n_n none x J (constant S2048x256 .f32 0x00000000#32)))
      (rsqrt (addf (matmul dot_S2048x256_S256x256_S2048x256_1_0_0_1_n_n none
          (mulf (subf x (matmul dot_S2048x256_S256x256_S2048x256_1_0_0_1_n_n none x J (constant S2048x256 .f32 0x00000000#32)))
            (subf x (matmul dot_S2048x256_S256x256_S2048x256_1_0_0_1_n_n none x J (constant S2048x256 .f32 0x00000000#32))))
          J (constant S2048x256 .f32 0x00000000#32))
        (broadcast S2048x256 (Scalar.ofBits (F := Ideal) .f32 0x3727C5AC#32)))))
      (broadcastTo S2048x256 g broadcasts_S1x256_S2048x256))
    (broadcastTo S2048x256 b broadcasts_S1x256_S2048x256)

/-- The printed residual stream: the carried table plus (the hidden table through the narrowed weight, plus the bias). -/
def residTerm (x : FVec Ideal S2048x256 .f32) (h : FVec Ideal S2048x256 .bf16) (W : FVec Ideal S256x256 .f32)
    (b : FVec Ideal S1x256 .f32) : FVec Ideal S2048x256 .f32 :=
  addf x (addf (matmul dot_S2048x256_S256x256_S2048x256_1_0_0_1_n_n none h (truncf .bf16 W bitsLt_bf16_f32) (constant S2048x256 .f32 0x00000000#32))
    (broadcastTo S2048x256 b broadcasts_S1x256_S2048x256))

theorem residTerm_apply (x : FVec Ideal S2048x256 .f32) (h : FVec Ideal S2048x256 .bf16) (W : FVec Ideal S256x256 .f32)
    (b : FVec Ideal S1x256 .f32) (r : Fin 2048) (e : Fin 256) :
    residTerm x h W b (ix2 r e) = resid x h W b r e := by
  unfold residTerm resid
  refine (addf_apply _ _ _).trans (congrArg (fun t => x (ix2 r e) + t) ?_)
  refine (addf_apply _ _ _).trans ?_
  congr 1
  · exact dot_2048x256_256x256_at h (truncf .bf16 W bitsLt_bf16_f32) r e
  · exact broadcastTo_1b_ab_apply _ _ r e

theorem lnTerm_apply (x : FVec Ideal S2048x256 .f32) (J : FVec Ideal S256x256 .f32) (g b : FVec Ideal S1x256 .f32)
    (r : Fin 2048) (e : Fin 256) :
    lnTerm x J g b (ix2 r e) = normed (fun d => x (ix2 r d)) J g b e := by
  have hcen : ∀ e : Fin 256,
      subf x (matmul dot_S2048x256_S256x256_S2048x256_1_0_0_1_n_n none x J (constant S2048x256 .f32 0x00000000#32)) (ix2 r e)
        = centred (fun d => x (ix2 r d)) J e := fun e =>
    congrArg (fun t => x (ix2 r e) - t) (dot_2048x256_256x256_at x J r e)
  have hvar : matmul dot_S2048x256_S256x256_S2048x256_1_0_0_1_n_n none
        (mulf (subf x (matmul dot_S2048x256_S256x256_S2048x256_1_0_0_1_n_n none x J (constant S2048x256 .f32 0x00000000#32)))
          (subf x (matmul dot_S2048x256_S256x256_S2048x256_1_0_0_1_n_n none x J (constant S2048x256 .f32 0x00000000#32))))
        J (constant S2048x256 .f32 0x00000000#32) (ix2 r e)
      = ∑ d : Fin 256, centred (fun d => x (ix2 r d)) J d * centred (fun d => x (ix2 r d)) J d * J (ix2 d e) :=
    (dot_2048x256_256x256_at _ J r e).trans (Finset.sum_congr rfl fun d _ =>
      congrArg (fun t => t * t * J (ix2 d e)) (hcen d))
  have hg : broadcastTo S2048x256 g broadcasts_S1x256_S2048x256 (ix2 r e) = g (ix2 (0 : Fin 1) e) :=
    broadcastTo_1b_ab_apply _ _ r e
  have hb : broadcastTo S2048x256 b broadcasts_S1x256_S2048x256 (ix2 r e) = b (ix2 (0 : Fin 1) e) :=
    broadcastTo_1b_ab_apply _ _ r e
  unfold lnTerm normed
  refine (addf_apply _ _ _).trans ?_
  rw [hb]
  refine congrArg (fun t => t + b (ix2 (0 : Fin 1) e)) ?_
  refine (mulf_apply _ _ _).trans ?_
  rw [hg]
  refine congrArg (fun t => t * g (ix2 (0 : Fin 1) e)) ?_
  refine (mulf_apply _ _ _).trans ?_
  rw [hcen e]
  refine congrArg (fun t => centred (fun d => x (ix2 r d)) J e * t) ?_
  show Ideal.rsqrt (_ + _) = _
  exact congrArg (fun t => Ideal.rsqrt (t + Ideal.ofBits .f32 0x3727C5AC#32)) hvar

/-! ## The feed-forward hidden layer -/

/-- The hidden layer of the second feed-forward block at (r, c): the unit applied to row r of the normalised stream
    through the (narrowed) weight, plus the bias. The normalised stream is the preceding payload, left as it is. -/
theorem pay74_apply (v114 : FVec Ideal S256x256 .f32) (v385 : FVec Ideal S2048x256 .f32) (v514 : FVec Ideal S2048x256 .bf16)
    (v515 : Vec Ideal S256x256 .f32) (v518 : Vec Ideal S1x256 .f32) (v522 : Vec Ideal S1x256 .f32) (v523 : Vec Ideal S1x256 .f32)
    (v537 : Vec Ideal S256x256 .f32) (v540 : Vec Ideal S1x256 .f32) (r : Fin 2048) (c : Fin 256) :
    Gen.k0_pay74 v114 v385 v514 v515 v518 v522 v523 v537 v540 (ix2 r c)
      = geluWords ((∑ e : Fin 256, Gen.k0_pay73 v114 v385 v514 v515 v518 v522 v523 (ix2 r e) * v537 (ix2 e c))
          + v540 (ix2 (0 : Fin 1) c)) := by
  have hh : addf (matmul dot_S2048x256_S256x256_S2048x256_1_0_0_1_n_n none
        (truncf .bf16 (Gen.k0_pay73 v114 v385 v514 v515 v518 v522 v523) bitsLt_bf16_f32)
        (truncf .bf16 v537 bitsLt_bf16_f32) (constant S2048x256 .f32 0x00000000#32))
        (broadcastTo S2048x256 v540 broadcasts_S1x256_S2048x256) (ix2 r c)
      = (∑ e : Fin 256, Gen.k0_pay73 v114 v385 v514 v515 v518 v522 v523 (ix2 r e) * v537 (ix2 e c))
          + v540 (ix2 (0 : Fin 1) c) := by
    refine (addf_apply _ _ _).trans ?_
    congr 1
    · exact dot_2048x256_256x256_at (truncf .bf16 (Gen.k0_pay73 v114 v385 v514 v515 v518 v522 v523) bitsLt_bf16_f32)
        (truncf .bf16 v537 bitsLt_bf16_f32) r c
    · exact broadcastTo_1b_ab_apply _ _ r c
  unfold Gen.k0_pay74
  exact congrArg geluWords hh

/-! ## The two heads as one product -/

/-- A [2048, 256] by [256, 32] product into zero, at entry (r, j). -/
theorem dot_2048x256_256x32_at {φ₁ φ₂ : FTy} (x : FVec Ideal S2048x256 φ₁) (w : FVec Ideal S256x32 φ₂)
    (r : Fin 2048) (j : Fin 32) :
    matmul dot_S2048x256_S256x32_S2048x32_1_0_0_1_n_n none x w (constant S2048x32 .f32 0x00000000#32) (ix2 r j)
      = ∑ e : Fin 256, x (ix2 r e) * w (ix2 e j) := by
  refine Cert.LibMatmulAt.matmul_zero_at dot_S2048x256_S256x32_S2048x32_1_0_0_1_n_n none rfl rfl (ix2 r j)
    (fun e => ix2 r e) (fun e => ix2 e j) ?_ ?_ x w
  · intro q k hk
    funext a
    match a with
    | ⟨0, _⟩ => apply Fin.ext; simp [DotDims.lhsIdx, dot_S2048x256_S256x32_S2048x32_1_0_0_1_n_n] <;> first | rfl | exact hk
    | ⟨1, _⟩ => apply Fin.ext; simp [DotDims.lhsIdx, dot_S2048x256_S256x32_S2048x32_1_0_0_1_n_n] <;> first | rfl | exact hk
  · intro q k hk
    funext a
    match a with
    | ⟨0, _⟩ => apply Fin.ext; simp [DotDims.rhsIdx, dot_S2048x256_S256x32_S2048x32_1_0_0_1_n_n] <;> first | rfl | exact hk
    | ⟨1, _⟩ => apply Fin.ext; simp [DotDims.rhsIdx, dot_S2048x256_S256x32_S2048x32_1_0_0_1_n_n] <;> first | rfl | exact hk

/-- Two tables of 16 columns set side by side: the first 16 columns are the first table. -/
theorem side_lo {n : ℕ} (A B : (⟨2, ![n, 16]⟩ : Shape).Idx → EReal)
    (h : Shape.Concatenates [(⟨2, ![n, 16]⟩ : Shape), ⟨2, ![n, 16]⟩] ⟨2, ![n, 32]⟩ 1) (e : Fin n) (j : Fin 16) :
    concatenate (⟨2, ![n, 32]⟩ : Shape) 1 [⟨⟨2, ![n, 16]⟩, A⟩, ⟨⟨2, ![n, 16]⟩, B⟩] h
        (ix2 e (⟨j.val, by omega⟩ : Fin 32)) = A (ix2 e j) := by
  refine concatenate_pair_apply_left (t := ⟨2, ![n, 32]⟩) (s₁ := ⟨2, ![n, 16]⟩) (s₂ := ⟨2, ![n, 16]⟩) 1 A B h
    (ix2 e (⟨j.val, by omega⟩ : Fin 32)) rfl (ix2 e j) ?_
  intro c
  match c with
  | ⟨0, _⟩ => rfl
  | ⟨1, _⟩ => rfl

/-- … and the last 16 columns are the second table. -/
theorem side_hi {n : ℕ} (A B : (⟨2, ![n, 16]⟩ : Shape).Idx → EReal)
    (h : Shape.Concatenates [(⟨2, ![n, 16]⟩ : Shape), ⟨2, ![n, 16]⟩] ⟨2, ![n, 32]⟩ 1) (e : Fin n) (j : Fin 16) :
    concatenate (⟨2, ![n, 32]⟩ : Shape) 1 [⟨⟨2, ![n, 16]⟩, A⟩, ⟨⟨2, ![n, 16]⟩, B⟩] h
        (ix2 e (⟨16 + j.val, by omega⟩ : Fin 32)) = B (ix2 e j) := by
  refine concatenate_pair_apply_right (t := ⟨2, ![n, 32]⟩) (s₁ := ⟨2, ![n, 16]⟩) (s₂ := ⟨2, ![n, 16]⟩) 1 A B h
    (ix2 e (⟨16 + j.val, by omega⟩ : Fin 32)) rfl rfl (ix2 e j) ?_ ?_
  · intro c hc
    match c with
    | ⟨0, _⟩ => rfl
    | ⟨1, _⟩ => exact absurd rfl hc
  · show j.val + 16 = 16 + j.val
    omega

/-- The fused heads at a column of the FIRST head: row r of the normalised second residual stream against column j of
    the first head's weight, plus its bias. -/
theorem pay75_lo_apply (v114 : FVec Ideal S256x256 .f32) (v535 : FVec Ideal S2048x256 .f32) (v556 : FVec Ideal S2048x256 .bf16)
    (v557 : Vec Ideal S256x256 .f32) (v560 : Vec Ideal S1x256 .f32) (v564 : Vec Ideal S1x256 .f32) (v565 : Vec Ideal S1x256 .f32)
    (v578 : Vec Ideal S256x16 .f32) (v579 : Vec Ideal S256x16 .f32) (v581 : Vec Ideal S1x16 .f32) (v582 : Vec Ideal S1x16 .f32)
    (r : Fin 2048) (j : Fin 16) :
    Gen.k0_pay75 v114 v535 v556 v557 v560 v564 v565 v578 v579 v581 v582 (ix2 r (⟨j.val, by omega⟩ : Fin 32))
      = (∑ e : Fin 256, normed (resid v535 v556 v557 v560 r) v114 v564 v565 e * v578 (ix2 e j))
        + v581 (ix2 (0 : Fin 1) j) := by
  unfold Gen.k0_pay75
  refine (addf_apply _ _ _).trans ?_
  congr 1
  · refine (dot_2048x256_256x32_at _ _ r _).trans (Finset.sum_congr rfl fun e _ => ?_)
    congr 1
    · refine (lnTerm_apply (residTerm v535 v556 v557 v560) v114 v564 v565 r e).trans ?_
      exact congrArg (fun x => normed x v114 v564 v565 e) (funext fun d => residTerm_apply v535 v556 v557 v560 r d)
    · exact side_lo v578 v579 _ e j
  · refine (broadcastTo_1b_ab_apply _ _ r _).trans ?_
    exact side_lo v581 v582 _ 0 j

/-- The fused heads at a column of the SECOND head. -/
theorem pay75_hi_apply (v114 : FVec Ideal S256x256 .f32) (v535 : FVec Ideal S2048x256 .f32) (v556 : FVec Ideal S2048x256 .bf16)
    (v557 : Vec Ideal S256x256 .f32) (v560 : Vec Ideal S1x256 .f32) (v564 : Vec Ideal S1x256 .f32) (v565 : Vec Ideal S1x256 .f32)
    (v578 : Vec Ideal S256x16 .f32) (v579 : Vec Ideal S256x16 .f32) (v581 : Vec Ideal S1x16 .f32) (v582 : Vec Ideal S1x16 .f32)
    (r : Fin 2048) (j : Fin 16) :
    Gen.k0_pay75 v114 v535 v556 v557 v560 v564 v565 v578 v579 v581 v582 (ix2 r (⟨16 + j.val, by omega⟩ : Fin 32))
      = (∑ e : Fin 256, normed (resid v535 v556 v557 v560 r) v114 v564 v565 e * v579 (ix2 e j))
        + v582 (ix2 (0 : Fin 1) j) := by
  unfold Gen.k0_pay75
  refine (addf_apply _ _ _).trans ?_
  congr 1
  · refine (dot_2048x256_256x32_at _ _ r _).trans (Finset.sum_congr rfl fun e _ => ?_)
    congr 1
    · refine (lnTerm_apply (residTerm v535 v556 v557 v560) v114 v564 v565 r e).trans ?_
      exact congrArg (fun x => normed x v114 v564 v565 e) (funext fun d => residTerm_apply v535 v556 v557 v560 r d)
    · exact side_hi v578 v579 _ e j
  · refine (broadcastTo_1b_ab_apply _ _ r _).trans ?_
    exact side_hi v581 v582 _ 0 j

/-! ## The two outputs -/

/-- Row 64 * b + s of a [2048, 16] table viewed as [32, 64, 16]. -/
theorem rows16_apply (z : FVec Ideal S2048x16 .f32) (b : Fin 32) (s : Fin 64) (j : Fin 16) :
    shapeCast S32x64x16 z shapeCasts_S2048x16_S32x64x16 (ix3 b s j)
      = z (ix2 (⟨64 * b.val + s.val, by omega⟩ : Fin 2048) j) := by
  refine shapeCast_apply _ _ _ _ ?_
  rw [Shape.rowMajor_val_three, Shape.rowMajor_val_two]
  show (64 * b.val + s.val) * 16 + j.val = (b.val * 64 + s.val) * 16 + j.val
  omega

/-- The scale output from the fused heads' table: log (1 + exp) of the second head's column, plus the word 0x322BCC77. -/
theorem pay1_apply (v586 : FVec Ideal S2048x32 .f32) (b : Fin 32) (s : Fin 64) (j : Fin 16) :
    Gen.k0_pay1 v586 (ix3 b s j)
      = Ideal.log (Ideal.ofBits .f32 0x3F800000#32
            + Ideal.exp (v586 (ix2 (⟨64 * b.val + s.val, by omega⟩ : Fin 2048) (⟨16 + j.val, by omega⟩ : Fin 32))))
          + Ideal.ofBits .f32 0x322BCC77#32 := by
  unfold Gen.k0_pay1
  refine (rows16_apply _ b s j).trans ?_
  exact congrArg (fun t => Ideal.log (Ideal.ofBits .f32 0x3F800000#32 + Ideal.exp t) + Ideal.ofBits .f32 0x322BCC77#32)
    (slice2_axis1_apply 16 v586 _ (⟨64 * b.val + s.val, by omega⟩ : Fin 2048) j _ rfl)

/-- THE MEAN OUTPUT at (b, s, j): row 64 * b + s of the normalised second residual stream against column j of the
    first head's weight, plus its bias, plus the word 0x322BCC77. -/
theorem pay76_apply (v114 : FVec Ideal S256x256 .f32) (v535 : FVec Ideal S2048x256 .f32) (v556 : FVec Ideal S2048x256 .bf16)
    (v557 : Vec Ideal S256x256 .f32) (v560 : Vec Ideal S1x256 .f32) (v564 : Vec Ideal S1x256 .f32) (v565 : Vec Ideal S1x256 .f32)
    (v578 : Vec Ideal S256x16 .f32) (v579 : Vec Ideal S256x16 .f32) (v581 : Vec Ideal S1x16 .f32) (v582 : Vec Ideal S1x16 .f32)
    (b : Fin 32) (s : Fin 64) (j : Fin 16) :
    Gen.k0_pay76 v114 v535 v556 v557 v560 v564 v565 v578 v579 v581 v582 (ix3 b s j)
      = ((∑ e : Fin 256, normed (resid v535 v556 v557 v560 (⟨64 * b.val + s.val, by omega⟩ : Fin 2048)) v114 v564 v565 e
            * v578 (ix2 e j))
          + v581 (ix2 (0 : Fin 1) j))
        + Ideal.ofBits .f32 0x322BCC77#32 := by
  unfold Gen.k0_pay76
  refine (rows16_apply _ b s j).trans ?_
  refine (addf_apply _ _ _).trans ?_
  refine congrArg (fun t => t + Ideal.ofBits .f32 0x322BCC77#32) ?_
  refine (slice2_axis1_apply 0 _ _ (⟨64 * b.val + s.val, by omega⟩ : Fin 2048) j (⟨j.val, by omega⟩ : Fin 32)
    (Nat.zero_add _).symm).trans ?_
  exact pay75_lo_apply v114 v535 v556 v557 v560 v564 v565 v578 v579 v581 v582 _ j

/-- THE SCALE OUTPUT at (b, s, j): log (1 + exp) of row 64 * b + s of the normalised second residual stream against
    column j of the second head's weight plus its bias, plus the word 0x322BCC77. -/
theorem pay1_pay75_apply (v114 : FVec Ideal S256x256 .f32) (v535 : FVec Ideal S2048x256 .f32) (v556 : FVec Ideal S2048x256 .bf16)
    (v557 : Vec Ideal S256x256 .f32) (v560 : Vec Ideal S1x256 .f32) (v564 : Vec Ideal S1x256 .f32) (v565 : Vec Ideal S1x256 .f32)
    (v578 : Vec Ideal S256x16 .f32) (v579 : Vec Ideal S256x16 .f32) (v581 : Vec Ideal S1x16 .f32) (v582 : Vec Ideal S1x16 .f32)
    (b : Fin 32) (s : Fin 64) (j : Fin 16) :
    Gen.k0_pay1 (Gen.k0_pay75 v114 v535 v556 v557 v560 v564 v565 v578 v579 v581 v582) (ix3 b s j)
      = Ideal.log (Ideal.ofBits .f32 0x3F800000#32
            + Ideal.exp ((∑ e : Fin 256,
                normed (resid v535 v556 v557 v560 (⟨64 * b.val + s.val, by omega⟩ : Fin 2048)) v114 v564 v565 e
                  * v579 (ix2 e j))
              + v582 (ix2 (0 : Fin 1) j)))
          + Ideal.ofBits .f32 0x322BCC77#32 := by
  refine (pay1_apply _ b s j).trans ?_
  exact congrArg (fun t => Ideal.log (Ideal.ofBits .f32 0x3F800000#32 + Ideal.exp t) + Ideal.ofBits .f32 0x322BCC77#32)
    (pay75_hi_apply v114 v535 v556 v557 v560 v564 v565 v578 v579 v581 v582 _ j)

end Cert.KernelIdeal.Read

end
-- ==== Proof.KerSpineH.lean ====
/-
  The fused kernel's body against the fused order of the layer (last part: the end of the second
  layer's attention, its tail, and the two output heads). The two stored values are, entry by entry,
  the two heads of the second layer's result `X2`.
-/
import proofs.«141667_g2000002524955183_pallasbulk_3_44_alg».proof.Proof.KerSpineG
import proofs.«141667_g2000002524955183_pallasbulk_3_44_alg».proof.Proof.KerPay72
import proofs.«141667_g2000002524955183_pallasbulk_3_44_alg».proof.Proof.KerPay73
import proofs.«141667_g2000002524955183_pallasbulk_3_44_alg».proof.Proof.KerPay74_76
import proofs.«141667_g2000002524955183_pallasbulk_3_44_alg».proof.Proof.AttnSpecHeads

noncomputable section

namespace Cert.KernelIdeal.Spine

open Idealize.ShloMosaic Idealize.ShloMosaic.ValueIdx Cert.KernelIdeal Cert.KernelIdeal.Gen
open Cert.KernelIdeal.Dag Cert.KernelIdeal.Read
open Cert.Spec Cert.Lib.LibFloatWords Cert.Lib.LibHeadSplit Cert.Lib.LibRealClosure
open scoped BigOperators

variable {Y : Loads Ideal}

/-! ### Bridges for rows -/

/-- The index-level normalisation of a row is the layer's, when the averaging matrix is constantly
    `1/256` and the row is row `s` of the table `y`. -/
theorem lnRow_spec (m : FVec Ideal S256x256 .f32) (xr : Fin 256 → EReal) (gam bet : Vec Ideal S1x256 .f32)
    (hm : ∀ e c : Fin 256, m (ix2 e c) = C.cInv) (y : Fin 64 → Fin (8 * 32) → EReal) (s : Fin 64)
    (hx : ∀ e : Fin 256, xr e = y s e) (c : Fin 256) :
    lnRow m xr gam bet c
      = Ker.layerNorm C y (fun c => gam (ix2 (0 : Fin 1) (c : Fin 256))) (fun c => bet (ix2 (0 : Fin 1) (c : Fin 256))) s c := by
  unfold lnRow cenRow Ker.layerNorm Ker.lnC Ker.lnMu Ker.lnVar
  simp only [hm, hx]
  rfl

/-- The same for the other index-level row normalisation. -/
theorem normed_spec (xr : Fin 256 → EReal) (J : FVec Ideal S256x256 .f32) (g b : FVec Ideal S1x256 .f32)
    (hJ : ∀ e c : Fin 256, J (ix2 e c) = C.cInv) (y : Fin 64 → Fin (8 * 32) → EReal) (s : Fin 64)
    (hx : ∀ e : Fin 256, xr e = y s e) (e : Fin 256) :
    normed xr J g b e
      = Ker.layerNorm C y (fun c => g (ix2 (0 : Fin 1) (c : Fin 256))) (fun c => b (ix2 (0 : Fin 1) (c : Fin 256))) s e := by
  unfold normed centred Ker.layerNorm Ker.lnC Ker.lnMu Ker.lnVar
  simp only [hJ, hx]
  rfl

/-- The other index-level activation is the layer's. -/
theorem geluWords_spec (h : EReal) : geluWords h = gelu C h := rfl

/-! ### Heads 5, 6 and 7 of the second layer -/

theorem q5_form (hc : ConstTabs Y) (b : Fin 32) (s t : Fin 64) :
    Ideal.exp ((∑ l : Fin 32, n40 Y (ix3 b s ⟨160 + l.val, by omega⟩) * n43 Y (ix3 b t ⟨160 + l.val, by omega⟩))
        + n4 Y (ix2 s t))
      = Ker.p C (params (T1 Y)) mask (X1 Y b) (5 : Fin 8) s t := by
  simp only [n40_at hc, n43_at hc, hc.mask]
  rfl

theorem q6_form (hc : ConstTabs Y) (b : Fin 32) (s t : Fin 64) :
    Ideal.exp ((∑ l : Fin 32, n40 Y (ix3 b s ⟨192 + l.val, by omega⟩) * n43 Y (ix3 b t ⟨192 + l.val, by omega⟩))
        + n4 Y (ix2 s t))
      = Ker.p C (params (T1 Y)) mask (X1 Y b) (6 : Fin 8) s t := by
  simp only [n40_at hc, n43_at hc, hc.mask]
  rfl

theorem q7_form (hc : ConstTabs Y) (b : Fin 32) (s t : Fin 64) :
    Ideal.exp ((∑ l : Fin 32, n40 Y (ix3 b s ⟨224 + l.val, by omega⟩) * n43 Y (ix3 b t ⟨224 + l.val, by omega⟩))
        + n4 Y (ix2 s t))
      = Ker.p C (params (T1 Y)) mask (X1 Y b) (7 : Fin 8) s t := by
  simp only [n40_at hc, n43_at hc, hc.mask]
  rfl

theorem qart5_form (hc : ConstTabs Y) (b : Fin 32) (s : Fin 64) (d : Fin 32) :
    (∑ t : Fin 64, Ideal.exp ((∑ l : Fin 32, n40 Y (ix3 b s ⟨160 + l.val, by omega⟩) * n43 Y (ix3 b t ⟨160 + l.val, by omega⟩))
        + n4 Y (ix2 s t)) * n46 Y (ix3 b t ⟨160 + d.val, by omega⟩))
      = Ker.part C (params (T1 Y)) mask (X1 Y b) (5 : Fin 8) s d := by
  simp only [q5_form hc, n46_at hc]
  rfl

theorem qart6_form (hc : ConstTabs Y) (b : Fin 32) (s : Fin 64) (d : Fin 32) :
    (∑ t : Fin 64, Ideal.exp ((∑ l : Fin 32, n40 Y (ix3 b s ⟨192 + l.val, by omega⟩) * n43 Y (ix3 b t ⟨192 + l.val, by omega⟩))
        + n4 Y (ix2 s t)) * n46 Y (ix3 b t ⟨192 + d.val, by omega⟩))
      = Ker.part C (params (T1 Y)) mask (X1 Y b) (6 : Fin 8) s d := by
  simp only [q6_form hc, n46_at hc]
  rfl

theorem qart7_form (hc : ConstTabs Y) (b : Fin 32) (s : Fin 64) (d : Fin 32) :
    (∑ t : Fin 64, Ideal.exp ((∑ l : Fin 32, n40 Y (ix3 b s ⟨224 + l.val, by omega⟩) * n43 Y (ix3 b t ⟨224 + l.val, by omega⟩))
        + n4 Y (ix2 s t)) * n46 Y (ix3 b t ⟨224 + d.val, by omega⟩))
      = Ker.part C (params (T1 Y)) mask (X1 Y b) (7 : Fin 8) s d := by
  simp only [q7_form hc, n46_at hc]
  rfl

/-- The concatenated heads of the second layer, each channel scaled by its head's reciprocal sum. -/
theorem n58_at (hc : ConstTabs Y) (b : Fin 32) (s : Fin 64) (e : Fin 256) :
    n58 Y (ix2 (row b s) e)
      = Ker.o3 C (params (T1 Y)) mask (X1 Y b) s e * Ker.rden C (params (T1 Y)) mask (X1 Y b) s e := by
  refine (pay72_apply (n4 Y) (n5 Y) (n6 Y) (n7 Y) (n8 Y) (n40 Y) (n43 Y) (n46 Y) (n47 Y) (n52 Y) (n53 Y) (n54 Y)
    (n55 Y) (n57 Y) b s e).trans ?_
  refine congrArg₂ (fun a b : EReal => a * b) ?_ ?_
  · refine o3_of_parts s (fun e => cat8At _ e) (fun h l => ?_) e
    rw [cat8At_flat]
    match h with
    | ⟨0, _⟩ => exact n47_at hc b s l
    | ⟨1, _⟩ => exact n52_at hc b s l
    | ⟨2, _⟩ => exact n53_at hc b s l
    | ⟨3, _⟩ => exact n54_at hc b s l
    | ⟨4, _⟩ => exact n55_at hc b s l
    | ⟨5, _⟩ => exact qart5_form hc b s l
    | ⟨6, _⟩ => exact qart6_form hc b s l
    | ⟨7, _⟩ => exact qart7_form hc b s l
  · unfold Ker.rden Ker.rinv
    refine Finset.sum_congr rfl fun g _ => ?_
    rw [hc.rep, ofBits_one]
    refine congrArg (fun y : EReal => Ideal.div 1 y * Ker.rep (H := 8) (L := 32) g e) ?_
    rw [n57_at hc]
    simp only [q5_form hc, q6_form hc, q7_form hc, hc.sel5, hc.sel6, hc.sel7]
    exact den_chain s g

/-! ### The tail of the second layer -/

/-- The first normalised table of the second layer. -/
theorem pay73_at (hc : ConstTabs Y) (b : Fin 32) (s : Fin 64) (c : Fin 256) :
    k0_pay73 (n0 Y) (n37 Y) (n58 Y) Y.y35 Y.y36 Y.y37 Y.y38 (ix2 (row b s) c)
      = Ker.x1 C (params (T1 Y)) mask (X1 Y b) s c := by
  refine (pay73_apply (n0 Y) (n37 Y) (n58 Y) Y.y35 Y.y36 Y.y37 Y.y38 (row b s) c).trans ?_
  refine lnRow_spec (n0 Y) _ Y.y37 Y.y38 hc.avg (Ker.y1 C (params (T1 Y)) mask (X1 Y b)) s (fun e => ?_) c
  simp only [n37_at hc, n58_at hc]
  rfl

theorem n59_at (hc : ConstTabs Y) (b : Fin 32) (s : Fin 64) (c : Fin 256) :
    n59 Y (ix2 (row b s) c) = Ker.x1 C (params (T1 Y)) mask (X1 Y b) s c :=
  pay73_at hc b s c

/-- The activated hidden table of the second layer's feed-forward map. -/
theorem n60_at (hc : ConstTabs Y) (b : Fin 32) (s : Fin 64) (c : Fin 256) :
    n60 Y (ix2 (row b s) c)
      = Ker.ffnAct C (params (T1 Y)) (Ker.x1 C (params (T1 Y)) mask (X1 Y b)) s c := by
  refine (pay74_apply (n0 Y) (n37 Y) (n58 Y) Y.y35 Y.y36 Y.y37 Y.y38 Y.y39 Y.y40 (row b s) c).trans ?_
  simp only [pay73_at hc, geluWords_spec]
  rfl

/-- The second layer's result. -/
def X2 (Y : Loads Ideal) (b : Fin 32) : Fin 64 → Fin (8 * 32) → EReal :=
  Ker.layer C (params (T1 Y)) mask (X1 Y b)

theorem resid_form (hc : ConstTabs Y) (b : Fin 32) (s : Fin 64) (e : Fin 256) :
    resid (n59 Y) (n60 Y) Y.y41 Y.y42 (row b s) e
      = Ker.y2 C (params (T1 Y)) (Ker.x1 C (params (T1 Y)) mask (X1 Y b)) s e := by
  unfold resid
  simp only [n59_at hc, n60_at hc]
  rfl

theorem layer1_form (hc : ConstTabs Y) (b : Fin 32) (s : Fin 64) (e : Fin 256) :
    normed (resid (n59 Y) (n60 Y) Y.y41 Y.y42 (row b s)) (n0 Y) Y.y43 Y.y44 e = X2 Y b s e :=
  normed_spec _ (n0 Y) Y.y43 Y.y44 hc.avg
    (Ker.y2 C (params (T1 Y)) (Ker.x1 C (params (T1 Y)) mask (X1 Y b))) s (fun e => resid_form hc b s e) e

/-! ### The two output heads -/

/-- The heads' tables and constants among the loads. -/
def wl (Y : Loads Ideal) (k : Fin (8 * 32)) (z : Fin 16) : EReal := Y.y45 (ix2 (k : Fin 256) z)
def bl (Y : Loads Ideal) (z : Fin 16) : EReal := Y.y46 (ix2 (0 : Fin 1) z)
def ws (Y : Loads Ideal) (k : Fin (8 * 32)) (z : Fin 16) : EReal := Y.y47 (ix2 (k : Fin 256) z)
def bs (Y : Loads Ideal) (z : Fin 16) : EReal := Y.y48 (ix2 (0 : Fin 1) z)
abbrev epsZ : EReal := Ideal.ofBits .f32 0x322BCC77#32
abbrev oneW : EReal := Ideal.ofBits .f32 0x3F800000#32

/-- THE FIRST STORED VALUE, entry by entry: the location head of the second layer's result. -/
theorem loc_entry (Y : Loads Ideal) (b : Fin 32) (s : Fin 64) (z : Fin 16) :
    n61 Y (ix3 b s z) = Heads.refLoc epsZ (wl Y) (bl Y) (X2 Y b) s z := by
  refine (pay76_apply (n0 Y) (n59 Y) (n60 Y) Y.y41 Y.y42 Y.y43 Y.y44 Y.y45 Y.y47 Y.y46 Y.y48 b s z).trans ?_
  simp only [layer1_form (constTabs Y)]
  rfl

/-- THE SECOND STORED VALUE, entry by entry: the scale head of the second layer's result. -/
theorem scl_entry (Y : Loads Ideal) (b : Fin 32) (s : Fin 64) (z : Fin 16) :
    n63 Y (ix3 b s z) = Heads.refScl oneW epsZ (ws Y) (bs Y) (X2 Y b) s z := by
  refine (pay1_pay75_apply (n0 Y) (n59 Y) (n60 Y) Y.y41 Y.y42 Y.y43 Y.y44 Y.y45 Y.y47 Y.y46 Y.y48 b s z).trans ?_
  simp only [layer1_form (constTabs Y)]
  rfl

/-- The same in the fused form of the heads (one affine map onto the concatenated columns). -/
theorem loc_entry_ker (Y : Loads Ideal) (b : Fin 32) (s : Fin 64) (z : Fin 16) :
    n61 Y (ix3 b s z)
      = Heads.kerLoc epsZ (Heads.catW (wl Y) (ws Y)) (Heads.catB (bl Y) (bs Y)) (X2 Y b) s z := by
  rw [loc_entry, Heads.kerLoc_eq]

theorem scl_entry_ker (Y : Loads Ideal) (b : Fin 32) (s : Fin 64) (z : Fin 16) :
    n63 Y (ix3 b s z)
      = Heads.kerScl oneW epsZ (Heads.catW (wl Y) (ws Y)) (Heads.catB (bl Y) (bs Y)) (X2 Y b) s z := by
  rw [scl_entry, Heads.kerScl_eq]

/-- The second layer's result is the two fused layers applied to the input table. -/
theorem X2_eq (Y : Loads Ideal) (b : Fin 32) :
    X2 Y b = Ker.layer C (params (T1 Y)) mask (Ker.layer C (params (T0 Y)) mask (X0 Y b)) := rfl

end Cert.KernelIdeal.Spine

end
-- ==== Proof.NetKer.lean ====
/-
  The kernel's two stored values, at every entry of every grid point's block, are the two values of
  the encoder in the textbook order on the corresponding batch row — for real arguments.

  Grid point `p` loads batch rows `32 p … 32 p + 31` of the first time step of the two input blocks,
  and every other argument whole.
-/
import proofs.«141667_g2000002524955183_pallasbulk_3_44_alg».proof.Proof.NetDefs
import proofs.«141667_g2000002524955183_pallasbulk_3_44_alg».proof.Proof.KerSpineH
import proofs.«141667_g2000002524955183_pallasbulk_3_44_alg».proof.Proof.AttnSpecEq

noncomputable section

namespace Cert.Net

open Idealize.ShloMosaic Idealize.ShloMosaic.ValueIdx Cert.KernelIdeal Cert.KernelIdeal.Gen
open Cert.Spec Cert.Lib.LibFloatWords Cert.Lib.LibHeadSplit Cert.Lib.LibRealClosure
open scoped BigOperators

/-- What the body loads at grid point `p`, from the argument arrays. -/
def kerLoads (A : ArgTabs) (p : Fin 4) : Cert.KernelIdeal.Dag.Loads Ideal where
  y0 := fun i => A.a0 (ix3 (⟨32 * p.val + (i 0).val, by have h : (i 0).val < 32 := (i 0).isLt; omega⟩ : Fin 128)
    (0 : Fin 8) (⟨(i 2).val, (i 2).isLt⟩ : Fin 8192))
  y1 := fun i => A.a1 (ix3 (⟨32 * p.val + (i 0).val, by have h : (i 0).val < 32 := (i 0).isLt; omega⟩ : Fin 128)
    (0 : Fin 8) (⟨(i 2).val, (i 2).isLt⟩ : Fin 8192))
  y2 := A.a2
  y3 := A.a7
  y4 := A.a8
  y5 := A.a9
  y6 := A.a10
  y7 := A.a11
  y8 := A.a12
  y9 := A.a13
  y10 := A.a14
  y11 := A.a15
  y12 := A.a16
  y13 := A.a17
  y14 := A.a18
  y15 := A.a19
  y16 := A.a20
  y17 := A.a21
  y18 := A.a22
  y19 := A.a23
  y20 := A.a24
  y21 := A.a25
  y22 := A.a26
  y23 := A.a27
  y24 := A.a28
  y25 := A.a29
  y26 := A.a30
  y27 := A.a31
  y28 := A.a32
  y29 := A.a33
  y30 := A.a34
  y31 := A.a35
  y32 := A.a36
  y33 := A.a37
  y34 := A.a38
  y35 := A.a39
  y36 := A.a40
  y37 := A.a41
  y38 := A.a42
  y39 := A.a43
  y40 := A.a44
  y41 := A.a45
  y42 := A.a46
  y43 := A.a47
  y44 := A.a48
  y45 := A.a3
  y46 := A.a4
  y47 := A.a5
  y48 := A.a6

/-- The batch row of the array that row `bb` of grid point `p`'s block is. -/
abbrev brow (p : Fin 4) (bb : Fin 32) : Fin 128 := ⟨32 * p.val + bb.val, by omega⟩

theorem params0_kerLoads (A : ArgTabs) (p : Fin 4) : Spine.params (Spine.T0 (kerLoads A p)) = PA0 A := rfl
theorem params1_kerLoads (A : ArgTabs) (p : Fin 4) : Spine.params (Spine.T1 (kerLoads A p)) = PA1 A := rfl
theorem X0_kerLoads (A : ArgTabs) (p : Fin 4) (bb : Fin 32) : Spine.X0 (kerLoads A p) bb = XA A (brow p bb) := rfl

/-- The body's second layer result at grid point `p`, row `bb`, is the encoder's on that batch row. -/
theorem X2_kerLoads (A : ArgTabs) (hA : A.Real) (p : Fin 4) (bb : Fin 32) :
    Spine.X2 (kerLoads A p) bb = encOf A (brow p bb) := by
  show Ker.layer C (PA1 A) mask (Ker.layer C (PA0 A) mask (XA A (brow p bb))) = _
  exact layer_layer_eq theConsts_real (PA0_real A hA) (PA1_real A hA) mask_real (XA_real A hA _)

/-- The first stored value. -/
theorem ker_loc (A : ArgTabs) (hA : A.Real) (p : Fin 4) (bb : Fin 32) (s : Fin 64) (z : Fin 16) :
    Cert.KernelIdeal.Dag.n61 (kerLoads A p) (ix3 bb s z) = locOf A (brow p bb) s z := by
  rw [Spine.loc_entry, X2_kerLoads A hA p bb]
  rfl

/-- The second stored value. -/
theorem ker_scl (A : ArgTabs) (hA : A.Real) (p : Fin 4) (bb : Fin 32) (s : Fin 64) (z : Fin 16) :
    Cert.KernelIdeal.Dag.n63 (kerLoads A p) (ix3 bb s z) = sclOf A (brow p bb) s z := by
  rw [Spine.scl_entry, X2_kerLoads A hA p bb]
  rfl

end Cert.Net

end
-- ==== Proof.PreReal.lean ====
/-
  The precondition of the two programs, decoded: every entry of every input is a real number.

  The precondition is a function of the 49 float arrays that returns a one-bit word: for each
  array `a` it compares `|a i|` with plus infinity at every index, takes the conjunction of these
  comparisons over all indices, and then the conjunction of the 49 results. The hypothesis says this
  word is 1. A conjunction of one-bit words is 1 only when each of them is, so each of the 49
  per-array conjunctions is 1, so each comparison `|a i| < +inf` holds; and an extended real whose
  absolute value is strictly below the top element is neither infinity, that is, it is the image of
  a real number.
-/
import proofs.«141667_g2000002524955183_pallasbulk_3_44_alg».proof.Pre_finite_inputs
import proofs.«141667_g2000002524955183_pallasbulk_3_44_alg».proof.Proof.LibRealClosure
import Idealize.ShloMosaic.Lib.ReduceAll
import Idealize.ShloMosaic.Lib.ValueIdx
import Idealize.ShloMosaic.Lib.IdealHost

noncomputable section

namespace Cert.Pre_finite_inputs.Real

open Idealize.ShloMosaic Idealize.ShloMosaic.ValueIdx
open Cert.Pre_finite_inputs Cert.Lib.LibRealClosure

/-- A rank-0 array has one index. -/
instance subsingleton_idx : Subsingleton S_.Idx := ⟨fun a b => funext fun d => d.elim0⟩

/-- The word 0x7F800000 is the binary32 pattern of plus infinity: the top element. -/
theorem ofBits_inf : Ideal.ofBits .f32 0x7F800000#32 = (⊤ : EReal) := by
  simp [Ideal.ofBits, Ideal.ieee]

/-- An extended real whose absolute value lies strictly below plus infinity is a real number:
    the absolute value of either infinity is the top element, which is not below itself. -/
theorem isReal_of_abs_lt (x : Ideal .f32)
    (h : FloatOps.cmpf .olt (FloatOps.hostAbsf x) (Ideal.ofBits .f32 0x7F800000#32) = 1#1) : IsReal x := by
  rw [ofBits_inf] at h
  induction x using EReal.rec with
  | bot => exact absurd h (by decide)
  | coe r => exact ⟨r, rfl⟩
  | top => exact absurd h (by decide)

/-- The conjunction of one-bit words is 1 exactly when both are (read at an index of the arrays). -/
theorem andi_one {s : Shape} {x y : IVec s 1} {j : s.Idx} (h : andi x y j = 1#1) : x j = 1#1 ∧ y j = 1#1 :=
  IntOp.andi_eq_one.1 h

/-- THE GENERAL FACT. For an array `a` of any shape: when the conjunction, over every index, of the
    comparisons `|a i| < +inf` (the all-reduce by `and`, from the word 1, of the elementwise comparison
    of `|a|` with the broadcast pattern of plus infinity) is the word 1, every entry of `a` is a real
    number. -/
theorem real_of_all {S : Shape} {axes : List (Fin S.rank)} (hb : S_.BroadcastsInDim S (![] : Fin 0 → Fin S.rank))
    (hr : S.ReducesTo axes S_) (hu : 0 < S_.numel) (a : FVec Ideal S .f32) (j : S_.Idx)
    (e : Host.reduce IntOp.andi (cmpf .olt (Host.absf a) (broadcastInDim S ![] hb (constant (F := Ideal) S_ .f32 0x7F800000#32)))
          (constantI S_ 1 1#1) hr hu j = 1#1) (i : S.Idx) : IsReal (a i) := by
  have h := Host.reduce_andi_all _ _ hr hu j e i
  rw [cmpf_apply, broadcastInDim_scalar_apply, constant_apply] at h
  exact isReal_of_abs_lt (a i) h

variable [Facts]

/-- THE PRECONDITION DECODED: when the precondition's word is 1, every entry of each of the 49 input
    arrays is a real number. The function is opened one stretch of its operations at a time, which
    leaves the 49-fold conjunction of the per-array all-reductions; the conjunction is split from the
    last array back to the first, and each all-reduction is read by `real_of_all`. -/
theorem real_of_pre (a0 : FVec Ideal S128x8x8192 .f32) (a1 : FVec Ideal S128x8x8192 .f32) (a2 : FVec Ideal S64x256 .f32) (a3 : FVec Ideal S256x16 .f32) (a4 : FVec Ideal S1x16 .f32) (a5 : FVec Ideal S256x16 .f32) (a6 : FVec Ideal S1x16 .f32) (a7 : FVec Ideal S64x128 .f32) (a8 : FVec Ideal S64x128 .f32) (a9 : FVec Ideal S64x128 .f32) (a10 : FVec Ideal S256x128 .f32) (a11 : FVec Ideal S1x128 .f32) (a12 : FVec Ideal S256x256 .f32) (a13 : FVec Ideal S1x256 .f32) (a14 : FVec Ideal S256x256 .f32) (a15 : FVec Ideal S1x256 .f32) (a16 : FVec Ideal S256x256 .f32) (a17 : FVec Ideal S1x256 .f32) (a18 : FVec Ideal S256x256 .f32) (a19 : FVec Ideal S1x256 .f32) (a20 : FVec Ideal S1x256 .f32) (a21 : FVec Ideal S1x256 .f32) (a22 : FVec Ideal S256x256 .f32) (a23 : FVec Ideal S1x256 .f32) (a24 : FVec Ideal S256x256 .f32) (a25 : FVec Ideal S1x256 .f32) (a26 : FVec Ideal S1x256 .f32) (a27 : FVec Ideal S1x256 .f32) (a28 : FVec Ideal S64x128 .f32) (a29 : FVec Ideal S64x128 .f32) (a30 : FVec Ideal S64x128 .f32) (a31 : FVec Ideal S256x128 .f32) (a32 : FVec Ideal S1x128 .f32) (a33 : FVec Ideal S256x256 .f32) (a34 : FVec Ideal S1x256 .f32) (a35 : FVec Ideal S256x256 .f32) (a36 : FVec Ideal S1x256 .f32) (a37 : FVec Ideal S256x256 .f32) (a38 : FVec Ideal S1x256 .f32) (a39 : FVec Ideal S256x256 .f32) (a40 : FVec Ideal S1x256 .f32) (a41 : FVec Ideal S1x256 .f32) (a42 : FVec Ideal S1x256 .f32) (a43 : FVec Ideal S256x256 .f32) (a44 : FVec Ideal S1x256 .f32) (a45 : FVec Ideal S256x256 .f32) (a46 : FVec Ideal S1x256 .f32) (a47 : FVec Ideal S1x256 .f32) (a48 : FVec Ideal S1x256 .f32)
    (h : fn (F := Ideal) a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 = fun _ => 1#1) :
      (∀ i, IsReal (a0 i)) ∧
      (∀ i, IsReal (a1 i)) ∧
      (∀ i, IsReal (a2 i)) ∧
      (∀ i, IsReal (a3 i)) ∧
      (∀ i, IsReal (a4 i)) ∧
      (∀ i, IsReal (a5 i)) ∧
      (∀ i, IsReal (a6 i)) ∧
      (∀ i, IsReal (a7 i)) ∧
      (∀ i, IsReal (a8 i)) ∧
      (∀ i, IsReal (a9 i)) ∧
      (∀ i, IsReal (a10 i)) ∧
      (∀ i, IsReal (a11 i)) ∧
      (∀ i, IsReal (a12 i)) ∧
      (∀ i, IsReal (a13 i)) ∧
      (∀ i, IsReal (a14 i)) ∧
      (∀ i, IsReal (a15 i)) ∧
      (∀ i, IsReal (a16 i)) ∧
      (∀ i, IsReal (a17 i)) ∧
      (∀ i, IsReal (a18 i)) ∧
      (∀ i, IsReal (a19 i)) ∧
      (∀ i, IsReal (a20 i)) ∧
      (∀ i, IsReal (a21 i)) ∧
      (∀ i, IsReal (a22 i)) ∧
      (∀ i, IsReal (a23 i)) ∧
      (∀ i, IsReal (a24 i)) ∧
      (∀ i, IsReal (a25 i)) ∧
      (∀ i, IsReal (a26 i)) ∧
      (∀ i, IsReal (a27 i)) ∧
      (∀ i, IsReal (a28 i)) ∧
      (∀ i, IsReal (a29 i)) ∧
      (∀ i, IsReal (a30 i)) ∧
      (∀ i, IsReal (a31 i)) ∧
      (∀ i, IsReal (a32 i)) ∧
      (∀ i, IsReal (a33 i)) ∧
      (∀ i, IsReal (a34 i)) ∧
      (∀ i, IsReal (a35 i)) ∧
      (∀ i, IsReal (a36 i)) ∧
      (∀ i, IsReal (a37 i)) ∧
      (∀ i, IsReal (a38 i)) ∧
      (∀ i, IsReal (a39 i)) ∧
      (∀ i, IsReal (a40 i)) ∧
      (∀ i, IsReal (a41 i)) ∧
      (∀ i, IsReal (a42 i)) ∧
      (∀ i, IsReal (a43 i)) ∧
      (∀ i, IsReal (a44 i)) ∧
      (∀ i, IsReal (a45 i)) ∧
      (∀ i, IsReal (a46 i)) ∧
      (∀ i, IsReal (a47 i)) ∧
      (∀ i, IsReal (a48 i)) := by
  have e := congrFun h ix0
  unfold fn at e; dsimp only at e
  unfold fn_part1 at e; dsimp only at e
  unfold fn_part2 at e; dsimp only at e
  unfold fn_part3 at e; dsimp only at e
  unfold fn_part4 at e; dsimp only at e
  unfold fn_part5 at e; dsimp only at e
  unfold fn_part6 at e; dsimp only at e
  unfold fn_part7 at e; dsimp only at e
  unfold fn_part8 at e; dsimp only at e
  unfold fn_part9 at e; dsimp only at e
  unfold fn_part10 at e; dsimp only at e
  unfold fn_part11 at e; dsimp only at e
  unfold fn_part12 at e; dsimp only at e
  unfold fn_part13 at e; dsimp only at e
  unfold fn_part14 at e; dsimp only at e
  obtain ⟨e, h48⟩ := andi_one e
  obtain ⟨e, h47⟩ := andi_one e
  obtain ⟨e, h46⟩ := andi_one e
  obtain ⟨e, h45⟩ := andi_one e
  obtain ⟨e, h44⟩ := andi_one e
  obtain ⟨e, h43⟩ := andi_one e
  obtain ⟨e, h42⟩ := andi_one e
  obtain ⟨e, h41⟩ := andi_one e
  obtain ⟨e, h40⟩ := andi_one e
  obtain ⟨e, h39⟩ := andi_one e
  obtain ⟨e, h38⟩ := andi_one e
  obtain ⟨e, h37⟩ := andi_one e
  obtain ⟨e, h36⟩ := andi_one e
  obtain ⟨e, h35⟩ := andi_one e
  obtain ⟨e, h34⟩ := andi_one e
  obtain ⟨e, h33⟩ := andi_one e
  obtain ⟨e, h32⟩ := andi_one e
  obtain ⟨e, h31⟩ := andi_one e
  obtain ⟨e, h30⟩ := andi_one e
  obtain ⟨e, h29⟩ := andi_one e
  obtain ⟨e, h28⟩ := andi_one e
  obtain ⟨e, h27⟩ := andi_one e
  obtain ⟨e, h26⟩ := andi_one e
  obtain ⟨e, h25⟩ := andi_one e
  obtain ⟨e, h24⟩ := andi_one e
  obtain ⟨e, h23⟩ := andi_one e
  obtain ⟨e, h22⟩ := andi_one e
  obtain ⟨e, h21⟩ := andi_one e
  obtain ⟨e, h20⟩ := andi_one e
  obtain ⟨e, h19⟩ := andi_one e
  obtain ⟨e, h18⟩ := andi_one e
  obtain ⟨e, h17⟩ := andi_one e
  obtain ⟨e, h16⟩ := andi_one e
  obtain ⟨e, h15⟩ := andi_one e
  obtain ⟨e, h14⟩ := andi_one e
  obtain ⟨e, h13⟩ := andi_one e
  obtain ⟨e, h12⟩ := andi_one e
  obtain ⟨e, h11⟩ := andi_one e
  obtain ⟨e, h10⟩ := andi_one e
  obtain ⟨e, h9⟩ := andi_one e
  obtain ⟨e, h8⟩ := andi_one e
  obtain ⟨e, h7⟩ := andi_one e
  obtain ⟨e, h6⟩ := andi_one e
  obtain ⟨e, h5⟩ := andi_one e
  obtain ⟨e, h4⟩ := andi_one e
  obtain ⟨e, h3⟩ := andi_one e
  obtain ⟨e, h2⟩ := andi_one e
  obtain ⟨h0, h1⟩ := andi_one e
  exact ⟨real_of_all _ _ _ a0 ix0 h0,
    real_of_all _ _ _ a1 ix0 h1,
    real_of_all _ _ _ a2 ix0 h2,
    real_of_all _ _ _ a3 ix0 h3,
    real_of_all _ _ _ a4 ix0 h4,
    real_of_all _ _ _ a5 ix0 h5,
    real_of_all _ _ _ a6 ix0 h6,
    real_of_all _ _ _ a7 ix0 h7,
    real_of_all _ _ _ a8 ix0 h8,
    real_of_all _ _ _ a9 ix0 h9,
    real_of_all _ _ _ a10 ix0 h10,
    real_of_all _ _ _ a11 ix0 h11,
    real_of_all _ _ _ a12 ix0 h12,
    real_of_all _ _ _ a13 ix0 h13,
    real_of_all _ _ _ a14 ix0 h14,
    real_of_all _ _ _ a15 ix0 h15,
    real_of_all _ _ _ a16 ix0 h16,
    real_of_all _ _ _ a17 ix0 h17,
    real_of_all _ _ _ a18 ix0 h18,
    real_of_all _ _ _ a19 ix0 h19,
    real_of_all _ _ _ a20 ix0 h20,
    real_of_all _ _ _ a21 ix0 h21,
    real_of_all _ _ _ a22 ix0 h22,
    real_of_all _ _ _ a23 ix0 h23,
    real_of_all _ _ _ a24 ix0 h24,
    real_of_all _ _ _ a25 ix0 h25,
    real_of_all _ _ _ a26 ix0 h26,
    real_of_all _ _ _ a27 ix0 h27,
    real_of_all _ _ _ a28 ix0 h28,
    real_of_all _ _ _ a29 ix0 h29,
    real_of_all _ _ _ a30 ix0 h30,
    real_of_all _ _ _ a31 ix0 h31,
    real_of_all _ _ _ a32 ix0 h32,
    real_of_all _ _ _ a33 ix0 h33,
    real_of_all _ _ _ a34 ix0 h34,
    real_of_all _ _ _ a35 ix0 h35,
    real_of_all _ _ _ a36 ix0 h36,
    real_of_all _ _ _ a37 ix0 h37,
    real_of_all _ _ _ a38 ix0 h38,
    real_of_all _ _ _ a39 ix0 h39,
    real_of_all _ _ _ a40 ix0 h40,
    real_of_all _ _ _ a41 ix0 h41,
    real_of_all _ _ _ a42 ix0 h42,
    real_of_all _ _ _ a43 ix0 h43,
    real_of_all _ _ _ a44 ix0 h44,
    real_of_all _ _ _ a45 ix0 h45,
    real_of_all _ _ _ a46 ix0 h46,
    real_of_all _ _ _ a47 ix0 h47,
    real_of_all _ _ _ a48 ix0 h48⟩

end Cert.Pre_finite_inputs.Real

end
-- ==== Proof.NetArgs.lean ====
/-
  The two programs' argument arrays, read out of their memories as the 49 tables of extended reals.

  On each device the kernel's memory holds its 49 arguments and the reference's memory holds its own
  49; the two records below collect them in argument order. Two facts: the precondition (the word
  that says every entry of every argument has absolute value below plus infinity) makes every entry
  of the kernel's record a real number; and when the reference's memory agrees with the kernel's on
  every argument, the two records are the same record.
-/
import proofs.«141667_g2000002524955183_pallasbulk_3_44_alg».proof.Defs
import proofs.«141667_g2000002524955183_pallasbulk_3_44_alg».proof.Proof.PreReal
import proofs.«141667_g2000002524955183_pallasbulk_3_44_alg».proof.Proof.NetDefs

noncomputable section

namespace Cert.Net

open Idealize.ShloMosaic Idealize.SL.Sem
open Cert.Lib.LibRealClosure

/-- The kernel's 49 argument arrays on device `c`, out of its memory `m`. -/
def argsK (m : (ℓ : Loc Cert.KernelIdeal.nD Cert.KernelIdeal.τ Cert.KernelIdeal.sig) → Buf (Elt Ideal) ℓ)
    (c : Dev Cert.KernelIdeal.nD) : ArgTabs where
    a0 := m ((c.tc : Thread Cert.KernelIdeal.nD Cert.KernelIdeal.τ).loc Cert.KernelIdeal.main_arg0)
    a1 := m ((c.tc : Thread Cert.KernelIdeal.nD Cert.KernelIdeal.τ).loc Cert.KernelIdeal.main_arg1)
    a2 := m ((c.tc : Thread Cert.KernelIdeal.nD Cert.KernelIdeal.τ).loc Cert.KernelIdeal.main_arg2)
    a3 := m ((c.tc : Thread Cert.KernelIdeal.nD Cert.KernelIdeal.τ).loc Cert.KernelIdeal.main_arg3)
    a4 := m ((c.tc : Thread Cert.KernelIdeal.nD Cert.KernelIdeal.τ).loc Cert.KernelIdeal.main_arg4)
    a5 := m ((c.tc : Thread Cert.KernelIdeal.nD Cert.KernelIdeal.τ).loc Cert.KernelIdeal.main_arg5)
    a6 := m ((c.tc : Thread Cert.KernelIdeal.nD Cert.KernelIdeal.τ).loc Cert.KernelIdeal.main_arg6)
    a7 := m ((c.tc : Thread Cert.KernelIdeal.nD Cert.KernelIdeal.τ).loc Cert.KernelIdeal.main_arg7)
    a8 := m ((c.tc : Thread Cert.KernelIdeal.nD Cert.KernelIdeal.τ).loc Cert.KernelIdeal.main_arg8)
    a9 := m ((c.tc : Thread Cert.KernelIdeal.nD Cert.KernelIdeal.τ).loc Cert.KernelIdeal.main_arg9)
    a10 := m ((c.tc : Thread Cert.KernelIdeal.nD Cert.KernelIdeal.τ).loc Cert.KernelIdeal.main_arg10)
    a11 := m ((c.tc : Thread Cert.KernelIdeal.nD Cert.KernelIdeal.τ).loc Cert.KernelIdeal.main_arg11)
    a12 := m ((c.tc : Thread Cert.KernelIdeal.nD Cert.KernelIdeal.τ).loc Cert.KernelIdeal.main_arg12)
    a13 := m ((c.tc : Thread Cert.KernelIdeal.nD Cert.KernelIdeal.τ).loc Cert.KernelIdeal.main_arg13)
    a14 := m ((c.tc : Thread Cert.KernelIdeal.nD Cert.KernelIdeal.τ).loc Cert.KernelIdeal.main_arg14)
    a15 := m ((c.tc : Thread Cert.KernelIdeal.nD Cert.KernelIdeal.τ).loc Cert.KernelIdeal.main_arg15)
    a16 := m ((c.tc : Thread Cert.KernelIdeal.nD Cert.KernelIdeal.τ).loc Cert.KernelIdeal.main_arg16)
    a17 := m ((c.tc : Thread Cert.KernelIdeal.nD Cert.KernelIdeal.τ).loc Cert.KernelIdeal.main_arg17)
    a18 := m ((c.tc : Thread Cert.KernelIdeal.nD Cert.KernelIdeal.τ).loc Cert.KernelIdeal.main_arg18)
    a19 := m ((c.tc : Thread Cert.KernelIdeal.nD Cert.KernelIdeal.τ).loc Cert.KernelIdeal.main_arg19)
    a20 := m ((c.tc : Thread Cert.KernelIdeal.nD Cert.KernelIdeal.τ).loc Cert.KernelIdeal.main_arg20)
    a21 := m ((c.tc : Thread Cert.KernelIdeal.nD Cert.KernelIdeal.τ).loc Cert.KernelIdeal.main_arg21)
    a22 := m ((c.tc : Thread Cert.KernelIdeal.nD Cert.KernelIdeal.τ).loc Cert.KernelIdeal.main_arg22)
    a23 := m ((c.tc : Thread Cert.KernelIdeal.nD Cert.KernelIdeal.τ).loc Cert.KernelIdeal.main_arg23)
    a24 := m ((c.tc : Thread Cert.KernelIdeal.nD Cert.KernelIdeal.τ).loc Cert.KernelIdeal.main_arg24)
    a25 := m ((c.tc : Thread Cert.KernelIdeal.nD Cert.KernelIdeal.τ).loc Cert.KernelIdeal.main_arg25)
    a26 := m ((c.tc : Thread Cert.KernelIdeal.nD Cert.KernelIdeal.τ).loc Cert.KernelIdeal.main_arg26)
    a27 := m ((c.tc : Thread Cert.KernelIdeal.nD Cert.KernelIdeal.τ).loc Cert.KernelIdeal.main_arg27)
    a28 := m ((c.tc : Thread Cert.KernelIdeal.nD Cert.KernelIdeal.τ).loc Cert.KernelIdeal.main_arg28)
    a29 := m ((c.tc : Thread Cert.KernelIdeal.nD Cert.KernelIdeal.τ).loc Cert.KernelIdeal.main_arg29)
    a30 := m ((c.tc : Thread Cert.KernelIdeal.nD Cert.KernelIdeal.τ).loc Cert.KernelIdeal.main_arg30)
    a31 := m ((c.tc : Thread Cert.KernelIdeal.nD Cert.KernelIdeal.τ).loc Cert.KernelIdeal.main_arg31)
    a32 := m ((c.tc : Thread Cert.KernelIdeal.nD Cert.KernelIdeal.τ).loc Cert.KernelIdeal.main_arg32)
    a33 := m ((c.tc : Thread Cert.KernelIdeal.nD Cert.KernelIdeal.τ).loc Cert.KernelIdeal.main_arg33)
    a34 := m ((c.tc : Thread Cert.KernelIdeal.nD Cert.KernelIdeal.τ).loc Cert.KernelIdeal.main_arg34)
    a35 := m ((c.tc : Thread Cert.KernelIdeal.nD Cert.KernelIdeal.τ).loc Cert.KernelIdeal.main_arg35)
    a36 := m ((c.tc : Thread Cert.KernelIdeal.nD Cert.KernelIdeal.τ).loc Cert.KernelIdeal.main_arg36)
    a37 := m ((c.tc : Thread Cert.KernelIdeal.nD Cert.KernelIdeal.τ).loc Cert.KernelIdeal.main_arg37)
    a38 := m ((c.tc : Thread Cert.KernelIdeal.nD Cert.KernelIdeal.τ).loc Cert.KernelIdeal.main_arg38)
    a39 := m ((c.tc : Thread Cert.KernelIdeal.nD Cert.KernelIdeal.τ).loc Cert.KernelIdeal.main_arg39)
    a40 := m ((c.tc : Thread Cert.KernelIdeal.nD Cert.KernelIdeal.τ).loc Cert.KernelIdeal.main_arg40)
    a41 := m ((c.tc : Thread Cert.KernelIdeal.nD Cert.KernelIdeal.τ).loc Cert.KernelIdeal.main_arg41)
    a42 := m ((c.tc : Thread Cert.KernelIdeal.nD Cert.KernelIdeal.τ).loc Cert.KernelIdeal.main_arg42)
    a43 := m ((c.tc : Thread Cert.KernelIdeal.nD Cert.KernelIdeal.τ).loc Cert.KernelIdeal.main_arg43)
    a44 := m ((c.tc : Thread Cert.KernelIdeal.nD Cert.KernelIdeal.τ).loc Cert.KernelIdeal.main_arg44)
    a45 := m ((c.tc : Thread Cert.KernelIdeal.nD Cert.KernelIdeal.τ).loc Cert.KernelIdeal.main_arg45)
    a46 := m ((c.tc : Thread Cert.KernelIdeal.nD Cert.KernelIdeal.τ).loc Cert.KernelIdeal.main_arg46)
    a47 := m ((c.tc : Thread Cert.KernelIdeal.nD Cert.KernelIdeal.τ).loc Cert.KernelIdeal.main_arg47)
    a48 := m ((c.tc : Thread Cert.KernelIdeal.nD Cert.KernelIdeal.τ).loc Cert.KernelIdeal.main_arg48)

/-- The reference's 49 argument arrays on device `c`, out of its memory `m'`. -/
def argsR (m' : (ℓ : Loc Cert.ReferenceIdeal.nD Cert.ReferenceIdeal.τ Cert.ReferenceIdeal.sig) → Buf (Elt Ideal) ℓ)
    (c : Dev Cert.ReferenceIdeal.nD) : ArgTabs where
    a0 := m' ((c.tc : Thread Cert.ReferenceIdeal.nD Cert.ReferenceIdeal.τ).loc Cert.ReferenceIdeal.main_arg0)
    a1 := m' ((c.tc : Thread Cert.ReferenceIdeal.nD Cert.ReferenceIdeal.τ).loc Cert.ReferenceIdeal.main_arg1)
    a2 := m' ((c.tc : Thread Cert.ReferenceIdeal.nD Cert.ReferenceIdeal.τ).loc Cert.ReferenceIdeal.main_arg2)
    a3 := m' ((c.tc : Thread Cert.ReferenceIdeal.nD Cert.ReferenceIdeal.τ).loc Cert.ReferenceIdeal.main_arg3)
    a4 := m' ((c.tc : Thread Cert.ReferenceIdeal.nD Cert.ReferenceIdeal.τ).loc Cert.ReferenceIdeal.main_arg4)
    a5 := m' ((c.tc : Thread Cert.ReferenceIdeal.nD Cert.ReferenceIdeal.τ).loc Cert.ReferenceIdeal.main_arg5)
    a6 := m' ((c.tc : Thread Cert.ReferenceIdeal.nD Cert.ReferenceIdeal.τ).loc Cert.ReferenceIdeal.main_arg6)
    a7 := m' ((c.tc : Thread Cert.ReferenceIdeal.nD Cert.ReferenceIdeal.τ).loc Cert.ReferenceIdeal.main_arg7)
    a8 := m' ((c.tc : Thread Cert.ReferenceIdeal.nD Cert.ReferenceIdeal.τ).loc Cert.ReferenceIdeal.main_arg8)
    a9 := m' ((c.tc : Thread Cert.ReferenceIdeal.nD Cert.ReferenceIdeal.τ).loc Cert.ReferenceIdeal.main_arg9)
    a10 := m' ((c.tc : Thread Cert.ReferenceIdeal.nD Cert.ReferenceIdeal.τ).loc Cert.ReferenceIdeal.main_arg10)
    a11 := m' ((c.tc : Thread Cert.ReferenceIdeal.nD Cert.ReferenceIdeal.τ).loc Cert.ReferenceIdeal.main_arg11)
    a12 := m' ((c.tc : Thread Cert.ReferenceIdeal.nD Cert.ReferenceIdeal.τ).loc Cert.ReferenceIdeal.main_arg12)
    a13 := m' ((c.tc : Thread Cert.ReferenceIdeal.nD Cert.ReferenceIdeal.τ).loc Cert.ReferenceIdeal.main_arg13)
    a14 := m' ((c.tc : Thread Cert.ReferenceIdeal.nD Cert.ReferenceIdeal.τ).loc Cert.ReferenceIdeal.main_arg14)
    a15 := m' ((c.tc : Thread Cert.ReferenceIdeal.nD Cert.ReferenceIdeal.τ).loc Cert.ReferenceIdeal.main_arg15)
    a16 := m' ((c.tc : Thread Cert.ReferenceIdeal.nD Cert.ReferenceIdeal.τ).loc Cert.ReferenceIdeal.main_arg16)
    a17 := m' ((c.tc : Thread Cert.ReferenceIdeal.nD Cert.ReferenceIdeal.τ).loc Cert.ReferenceIdeal.main_arg17)
    a18 := m' ((c.tc : Thread Cert.ReferenceIdeal.nD Cert.ReferenceIdeal.τ).loc Cert.ReferenceIdeal.main_arg18)
    a19 := m' ((c.tc : Thread Cert.ReferenceIdeal.nD Cert.ReferenceIdeal.τ).loc Cert.ReferenceIdeal.main_arg19)
    a20 := m' ((c.tc : Thread Cert.ReferenceIdeal.nD Cert.ReferenceIdeal.τ).loc Cert.ReferenceIdeal.main_arg20)
    a21 := m' ((c.tc : Thread Cert.ReferenceIdeal.nD Cert.ReferenceIdeal.τ).loc Cert.ReferenceIdeal.main_arg21)
    a22 := m' ((c.tc : Thread Cert.ReferenceIdeal.nD Cert.ReferenceIdeal.τ).loc Cert.ReferenceIdeal.main_arg22)
    a23 := m' ((c.tc : Thread Cert.ReferenceIdeal.nD Cert.ReferenceIdeal.τ).loc Cert.ReferenceIdeal.main_arg23)
    a24 := m' ((c.tc : Thread Cert.ReferenceIdeal.nD Cert.ReferenceIdeal.τ).loc Cert.ReferenceIdeal.main_arg24)
    a25 := m' ((c.tc : Thread Cert.ReferenceIdeal.nD Cert.ReferenceIdeal.τ).loc Cert.ReferenceIdeal.main_arg25)
    a26 := m' ((c.tc : Thread Cert.ReferenceIdeal.nD Cert.ReferenceIdeal.τ).loc Cert.ReferenceIdeal.main_arg26)
    a27 := m' ((c.tc : Thread Cert.ReferenceIdeal.nD Cert.ReferenceIdeal.τ).loc Cert.ReferenceIdeal.main_arg27)
    a28 := m' ((c.tc : Thread Cert.ReferenceIdeal.nD Cert.ReferenceIdeal.τ).loc Cert.ReferenceIdeal.main_arg28)
    a29 := m' ((c.tc : Thread Cert.ReferenceIdeal.nD Cert.ReferenceIdeal.τ).loc Cert.ReferenceIdeal.main_arg29)
    a30 := m' ((c.tc : Thread Cert.ReferenceIdeal.nD Cert.ReferenceIdeal.τ).loc Cert.ReferenceIdeal.main_arg30)
    a31 := m' ((c.tc : Thread Cert.ReferenceIdeal.nD Cert.ReferenceIdeal.τ).loc Cert.ReferenceIdeal.main_arg31)
    a32 := m' ((c.tc : Thread Cert.ReferenceIdeal.nD Cert.ReferenceIdeal.τ).loc Cert.ReferenceIdeal.main_arg32)
    a33 := m' ((c.tc : Thread Cert.ReferenceIdeal.nD Cert.ReferenceIdeal.τ).loc Cert.ReferenceIdeal.main_arg33)
    a34 := m' ((c.tc : Thread Cert.ReferenceIdeal.nD Cert.ReferenceIdeal.τ).loc Cert.ReferenceIdeal.main_arg34)
    a35 := m' ((c.tc : Thread Cert.ReferenceIdeal.nD Cert.ReferenceIdeal.τ).loc Cert.ReferenceIdeal.main_arg35)
    a36 := m' ((c.tc : Thread Cert.ReferenceIdeal.nD Cert.ReferenceIdeal.τ).loc Cert.ReferenceIdeal.main_arg36)
    a37 := m' ((c.tc : Thread Cert.ReferenceIdeal.nD Cert.ReferenceIdeal.τ).loc Cert.ReferenceIdeal.main_arg37)
    a38 := m' ((c.tc : Thread Cert.ReferenceIdeal.nD Cert.ReferenceIdeal.τ).loc Cert.ReferenceIdeal.main_arg38)
    a39 := m' ((c.tc : Thread Cert.ReferenceIdeal.nD Cert.ReferenceIdeal.τ).loc Cert.ReferenceIdeal.main_arg39)
    a40 := m' ((c.tc : Thread Cert.ReferenceIdeal.nD Cert.ReferenceIdeal.τ).loc Cert.ReferenceIdeal.main_arg40)
    a41 := m' ((c.tc : Thread Cert.ReferenceIdeal.nD Cert.ReferenceIdeal.τ).loc Cert.ReferenceIdeal.main_arg41)
    a42 := m' ((c.tc : Thread Cert.ReferenceIdeal.nD Cert.ReferenceIdeal.τ).loc Cert.ReferenceIdeal.main_arg42)
    a43 := m' ((c.tc : Thread Cert.ReferenceIdeal.nD Cert.ReferenceIdeal.τ).loc Cert.ReferenceIdeal.main_arg43)
    a44 := m' ((c.tc : Thread Cert.ReferenceIdeal.nD Cert.ReferenceIdeal.τ).loc Cert.ReferenceIdeal.main_arg44)
    a45 := m' ((c.tc : Thread Cert.ReferenceIdeal.nD Cert.ReferenceIdeal.τ).loc Cert.ReferenceIdeal.main_arg45)
    a46 := m' ((c.tc : Thread Cert.ReferenceIdeal.nD Cert.ReferenceIdeal.τ).loc Cert.ReferenceIdeal.main_arg46)
    a47 := m' ((c.tc : Thread Cert.ReferenceIdeal.nD Cert.ReferenceIdeal.τ).loc Cert.ReferenceIdeal.main_arg47)
    a48 := m' ((c.tc : Thread Cert.ReferenceIdeal.nD Cert.ReferenceIdeal.τ).loc Cert.ReferenceIdeal.main_arg48)

/-- Under the precondition every entry of every argument of the kernel is a real number. -/
theorem argsK_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) : (argsK m c).Real := by
  obtain ⟨r0, r1, r2, r3, r4, r5, r6, r7, r8, r9, r10, r11, r12, r13, r14, r15, r16, r17, r18, r19, r20, r21, r22, r23, r24, r25, r26, r27, r28, r29, r30, r31, r32, r33, r34, r35, r36, r37, r38, r39, r40, r41, r42, r43, r44, r45, r46, r47, r48⟩ :=
    Cert.Pre_finite_inputs.Real.real_of_pre _ _ _ _ _ _ _ _ _ _ _ _ _ _ _ _ _ _ _ _ _ _ _ _ _ _ _ _ _ _ _ _ _ _ _ _ _ _ _ _ _ _ _ _ _ _ _ _ _ (h c)
  exact ⟨r0, r1, r2, r3, r4, r5, r6, r7, r8, r9, r10, r11, r12, r13, r14, r15, r16, r17, r18, r19, r20, r21, r22, r23, r24, r25, r26, r27, r28, r29, r30, r31, r32, r33, r34, r35, r36, r37, r38, r39, r40, r41, r42, r43, r44, r45, r46, r47, r48⟩

/-- Memories that agree on every argument give the same record of arguments. -/
theorem args_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)
      ∧ m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40)
      ∧ m' ((c.tc : Thread Cert.ReferenceIdeal.nD Cert.ReferenceIdeal.τ).loc Cert.ReferenceIdeal.main_arg41) = m ((c.tc : Thread Cert.KernelIdeal.nD Cert.KernelIdeal.τ).loc Cert.KernelIdeal.main_arg41)
      ∧ m' ((c.tc : Thread Cert.ReferenceIdeal.nD Cert.ReferenceIdeal.τ).loc Cert.ReferenceIdeal.main_arg42) = m ((c.tc : Thread Cert.KernelIdeal.nD Cert.KernelIdeal.τ).loc Cert.KernelIdeal.main_arg42)
      ∧ m' ((c.tc : Thread Cert.ReferenceIdeal.nD Cert.ReferenceIdeal.τ).loc Cert.ReferenceIdeal.main_arg43) = m ((c.tc : Thread Cert.KernelIdeal.nD Cert.KernelIdeal.τ).loc Cert.KernelIdeal.main_arg43)
      ∧ m' ((c.tc : Thread Cert.ReferenceIdeal.nD Cert.ReferenceIdeal.τ).loc Cert.ReferenceIdeal.main_arg44) = m ((c.tc : Thread Cert.KernelIdeal.nD Cert.KernelIdeal.τ).loc Cert.KernelIdeal.main_arg44)
      ∧ m' ((c.tc : Thread Cert.ReferenceIdeal.nD Cert.ReferenceIdeal.τ).loc Cert.ReferenceIdeal.main_arg45) = m ((c.tc : Thread Cert.KernelIdeal.nD Cert.KernelIdeal.τ).loc Cert.KernelIdeal.main_arg45)
      ∧ m' ((c.tc : Thread Cert.ReferenceIdeal.nD Cert.ReferenceIdeal.τ).loc Cert.ReferenceIdeal.main_arg46) = m ((c.tc : Thread Cert.KernelIdeal.nD Cert.KernelIdeal.τ).loc Cert.KernelIdeal.main_arg46)
      ∧ m' ((c.tc : Thread Cert.ReferenceIdeal.nD Cert.ReferenceIdeal.τ).loc Cert.ReferenceIdeal.main_arg47) = m ((c.tc : Thread Cert.KernelIdeal.nD Cert.KernelIdeal.τ).loc Cert.KernelIdeal.main_arg47)
      ∧ m' ((c.tc : Thread Cert.ReferenceIdeal.nD Cert.ReferenceIdeal.τ).loc Cert.ReferenceIdeal.main_arg48) = m ((c.tc : Thread Cert.KernelIdeal.nD Cert.KernelIdeal.τ).loc Cert.KernelIdeal.main_arg48)))
    (c : Dev Cert.KernelIdeal.nD) : argsR m' c = argsK m c := by
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48⟩ := h c
  unfold argsR argsK
  congr 1

end Cert.Net

end
-- ==== Proof.NetRes.lean ====
/-
  The two result arrays both programs are to produce: the heads' values `[128, 64, 16]` viewed as
  `[128, 1, 1024]` and repeated over the 8 time steps. Entry `(b, t, j)` is the value at batch row
  `b`, position `j / 16`, column `j % 16`, whatever `t`.
-/
import proofs.«141667_g2000002524955183_pallasbulk_3_44_alg».proof.Proof.NetDefs

noncomputable section

namespace Cert.Net

open Idealize.ShloMosaic Idealize.ShloMosaic.ValueIdx

/-- The location result. -/
def resLoc (A : ArgTabs) : (⟨3, ![128, 8, 1024]⟩ : Shape).Idx → EReal := fun idx =>
  locOf A (⟨(idx 0).val, (idx 0).isLt⟩ : Fin 128)
    (⟨(idx 2).val / 16, by have h : (idx 2).val < 1024 := (idx 2).isLt; omega⟩ : Fin 64)
    (⟨(idx 2).val % 16, by omega⟩ : Fin 16)

/-- The scale result. -/
def resScl (A : ArgTabs) : (⟨3, ![128, 8, 1024]⟩ : Shape).Idx → EReal := fun idx =>
  sclOf A (⟨(idx 0).val, (idx 0).isLt⟩ : Fin 128)
    (⟨(idx 2).val / 16, by have h : (idx 2).val < 1024 := (idx 2).isLt; omega⟩ : Fin 64)
    (⟨(idx 2).val % 16, by omega⟩ : Fin 16)

/-- The two results at coordinates. -/
theorem resLoc_ix3 (A : ArgTabs) (b : Fin 128) (t : Fin 8) (j : Fin 1024) :
    resLoc A (ix3 b t j) = locOf A b (⟨j.val / 16, by omega⟩ : Fin 64) (⟨j.val % 16, by omega⟩ : Fin 16) := rfl
theorem resScl_ix3 (A : ArgTabs) (b : Fin 128) (t : Fin 8) (j : Fin 1024) :
    resScl A (ix3 b t j) = sclOf A b (⟨j.val / 16, by omega⟩ : Fin 64) (⟨j.val % 16, by omega⟩ : Fin 16) := rfl

end Cert.Net

end
-- ==== Proof.KerFinal.lean ====
/-
  The kernel's two results, as arrays, are the two result arrays of the encoder in the textbook order
  on the kernel's own arguments — for real arguments.

  The body's loads at a grid point are the argument arrays' blocks; each output block is the graph's
  last node at those loads; the four blocks tile the output arrays; and the host's reshape-and-repeat
  reads entry `(b, j / 16, j % 16)` at `(b, t, j)`.
-/
import proofs.«141667_g2000002524955183_pallasbulk_3_44_alg».proof.Proof.KerLoads
import proofs.«141667_g2000002524955183_pallasbulk_3_44_alg».proof.Proof.KerTail
import proofs.«141667_g2000002524955183_pallasbulk_3_44_alg».proof.Proof.NetKer
import proofs.«141667_g2000002524955183_pallasbulk_3_44_alg».proof.Proof.NetArgs
import proofs.«141667_g2000002524955183_pallasbulk_3_44_alg».proof.Proof.NetRes

set_option maxRecDepth 16384

noncomputable section

namespace Cert.KernelIdeal.Final

open Idealize.ShloMosaic Idealize.ShloMosaic.TcCoe Idealize.SL.Sem Idealize.ShloMosaic.ValueIdx
open Cert.KernelIdeal Cert.KernelIdeal.Gen Cert.KernelIdeal.GenP Cert.KernelIdeal.Arr

variable (m : (ℓ : Loc nD τ sig) → Buf (Elt Ideal) ℓ)

/-- Two records of loads with equal fields are equal. -/
theorem loads_ext {Y Z : Dag.Loads Ideal}
    (h0 : Y.y0 = Z.y0)
    (h1 : Y.y1 = Z.y1)
    (h2 : Y.y2 = Z.y2)
    (h3 : Y.y3 = Z.y3)
    (h4 : Y.y4 = Z.y4)
    (h5 : Y.y5 = Z.y5)
    (h6 : Y.y6 = Z.y6)
    (h7 : Y.y7 = Z.y7)
    (h8 : Y.y8 = Z.y8)
    (h9 : Y.y9 = Z.y9)
    (h10 : Y.y10 = Z.y10)
    (h11 : Y.y11 = Z.y11)
    (h12 : Y.y12 = Z.y12)
    (h13 : Y.y13 = Z.y13)
    (h14 : Y.y14 = Z.y14)
    (h15 : Y.y15 = Z.y15)
    (h16 : Y.y16 = Z.y16)
    (h17 : Y.y17 = Z.y17)
    (h18 : Y.y18 = Z.y18)
    (h19 : Y.y19 = Z.y19)
    (h20 : Y.y20 = Z.y20)
    (h21 : Y.y21 = Z.y21)
    (h22 : Y.y22 = Z.y22)
    (h23 : Y.y23 = Z.y23)
    (h24 : Y.y24 = Z.y24)
    (h25 : Y.y25 = Z.y25)
    (h26 : Y.y26 = Z.y26)
    (h27 : Y.y27 = Z.y27)
    (h28 : Y.y28 = Z.y28)
    (h29 : Y.y29 = Z.y29)
    (h30 : Y.y30 = Z.y30)
    (h31 : Y.y31 = Z.y31)
    (h32 : Y.y32 = Z.y32)
    (h33 : Y.y33 = Z.y33)
    (h34 : Y.y34 = Z.y34)
    (h35 : Y.y35 = Z.y35)
    (h36 : Y.y36 = Z.y36)
    (h37 : Y.y37 = Z.y37)
    (h38 : Y.y38 = Z.y38)
    (h39 : Y.y39 = Z.y39)
    (h40 : Y.y40 = Z.y40)
    (h41 : Y.y41 = Z.y41)
    (h42 : Y.y42 = Z.y42)
    (h43 : Y.y43 = Z.y43)
    (h44 : Y.y44 = Z.y44)
    (h45 : Y.y45 = Z.y45)
    (h46 : Y.y46 = Z.y46)
    (h47 : Y.y47 = Z.y47)
    (h48 : Y.y48 = Z.y48) : Y = Z := by
  cases Y; cases Z
  simp only [Dag.Loads.mk.injEq]
  exact ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48⟩

/-- The body's loads at grid point `p` are the argument arrays' blocks. -/
theorem memLoads_eq (c : Dev nD) (p : Fin cfg0.N) :
    Lds.memLoads m c p = Cert.Net.kerLoads (Cert.Net.argsK m c) p := by
  refine loads_ext ?_ ?_ (Lds.y2_eq m c p) (Lds.y3_eq m c p) (Lds.y4_eq m c p) (Lds.y5_eq m c p) (Lds.y6_eq m c p) (Lds.y7_eq m c p) (Lds.y8_eq m c p) (Lds.y9_eq m c p) (Lds.y10_eq m c p) (Lds.y11_eq m c p) (Lds.y12_eq m c p) (Lds.y13_eq m c p) (Lds.y14_eq m c p) (Lds.y15_eq m c p) (Lds.y16_eq m c p) (Lds.y17_eq m c p) (Lds.y18_eq m c p) (Lds.y19_eq m c p) (Lds.y20_eq m c p) (Lds.y21_eq m c p) (Lds.y22_eq m c p) (Lds.y23_eq m c p) (Lds.y24_eq m c p) (Lds.y25_eq m c p) (Lds.y26_eq m c p) (Lds.y27_eq m c p) (Lds.y28_eq m c p) (Lds.y29_eq m c p) (Lds.y30_eq m c p) (Lds.y31_eq m c p) (Lds.y32_eq m c p) (Lds.y33_eq m c p) (Lds.y34_eq m c p) (Lds.y35_eq m c p) (Lds.y36_eq m c p) (Lds.y37_eq m c p) (Lds.y38_eq m c p) (Lds.y39_eq m c p) (Lds.y40_eq m c p) (Lds.y41_eq m c p) (Lds.y42_eq m c p) (Lds.y43_eq m c p) (Lds.y44_eq m c p) (Lds.y45_eq m c p) (Lds.y46_eq m c p) (Lds.y47_eq m c p) (Lds.y48_eq m c p)
  · funext i
    obtain ⟨bb, u, k, rfl⟩ : ∃ bb u k, i = ix3 bb u k := ⟨i 0, i 1, i 2, eq_ix3 i⟩
    exact Lds.y0_at m c p bb u k
  · funext i
    obtain ⟨bb, u, k, rfl⟩ : ∃ bb u k, i = ix3 bb u k := ⟨i 0, i 1, i 2, eq_ix3 i⟩
    exact Lds.y1_at m c p bb u k

/-- A batch row is row `b % 32` of block `b / 32`. -/
theorem brow_div_mod (b : Fin 128) :
    Cert.Net.brow (⟨b.val / 32, by omega⟩ : Fin 4) (⟨b.val % 32, by omega⟩ : Fin 32) = b :=
  Fin.ext (by show 32 * (b.val / 32) + b.val % 32 = b.val; omega)

/-- The kernel's first result is the location result array. -/
theorem res_loc (c : Dev nD) (hA : (Cert.Net.argsK m c).Real) :
    Res.tailOf (Arr.G49 m c) = Cert.Net.resLoc (Cert.Net.argsK m c) := by
  funext idx
  obtain ⟨b, t, j, rfl⟩ : ∃ b t j, idx = ix3 b t j := ⟨idx 0, idx 1, idx 2, eq_ix3 idx⟩
  rw [Res.tailOf_at, Cert.Net.resLoc_ix3]
  show blkOut49 m c (⟨b.val / 32, by show b.val / 32 < 4; omega⟩ : Fin cfg0.N)
      (ix3 (⟨b.val % 32, by omega⟩ : Fin 32) (⟨j.val / 16, by omega⟩ : Fin 64) (⟨j.val % 16, by omega⟩ : Fin 16)) = _
  rw [Lds.blkOut49_eq, memLoads_eq]
  exact (Cert.Net.ker_loc (Cert.Net.argsK m c) hA (⟨b.val / 32, by omega⟩ : Fin 4) (⟨b.val % 32, by omega⟩ : Fin 32)
    (⟨j.val / 16, by omega⟩ : Fin 64) (⟨j.val % 16, by omega⟩ : Fin 16)).trans
    (congrArg (fun x => Cert.Net.locOf (Cert.Net.argsK m c) x _ _) (brow_div_mod b))

/-- The kernel's second result is the scale result array. -/
theorem res_scl (c : Dev nD) (hA : (Cert.Net.argsK m c).Real) :
    Res.tailOf (Arr.G50 m c) = Cert.Net.resScl (Cert.Net.argsK m c) := by
  funext idx
  obtain ⟨b, t, j, rfl⟩ : ∃ b t j, idx = ix3 b t j := ⟨idx 0, idx 1, idx 2, eq_ix3 idx⟩
  rw [Res.tailOf_at, Cert.Net.resScl_ix3]
  show blkOut50 m c (⟨b.val / 32, by show b.val / 32 < 4; omega⟩ : Fin cfg0.N)
      (ix3 (⟨b.val % 32, by omega⟩ : Fin 32) (⟨j.val / 16, by omega⟩ : Fin 64) (⟨j.val % 16, by omega⟩ : Fin 16)) = _
  rw [Lds.blkOut50_eq, memLoads_eq]
  exact (Cert.Net.ker_scl (Cert.Net.argsK m c) hA (⟨b.val / 32, by omega⟩ : Fin 4) (⟨b.val % 32, by omega⟩ : Fin 32)
    (⟨j.val / 16, by omega⟩ : Fin 64) (⟨j.val % 16, by omega⟩ : Fin 16)).trans
    (congrArg (fun x => Cert.Net.sclOf (Cert.Net.argsK m c) x _ _) (brow_div_mod b))

end Cert.KernelIdeal.Final

end
-- ==== Proof.RefRunAll.lean ====
/-
  The reference's run with EVERY unscoped buffer named at the end.

  The three launches of the reference are run one after the other by the library's theorem for a program of several
  regions; the run ends with each unscoped buffer of a core at the last boundary's contents `Gen.W8`: the launch memory
  taken through the host operations before the first layer, the first layer's blocks written back, the second layer's,
  the reshape, the head launch's two outputs, and the host operations after it. The frame claim reads this post at
  the argument arrays only; here it is kept whole, so that a value claim can read it at the two results.
-/
import proofs.«141667_g2000002524955183_pallasbulk_3_44_alg».proof.Proof.Gen.ReferenceIdeal.Frame

set_option maxRecDepth 16384

noncomputable section

namespace Cert.ReferenceIdeal.RunAll

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the reference terminates, nothing faulting, with every unscoped buffer of every core
    at the contents the last segment boundary names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

end Cert.ReferenceIdeal.RunAll

end
-- ==== Proof.RefHost.lean ====
/-
  The host side of the reference: what its buffers hold at the boundaries between the host operations and the three
  launches.

  The host prologue builds the first layer's input — the two halves of the observations joined along their last axis,
  time step 0 taken, viewed as 64 rows of 256 features per batch element, plus the positional table — and the causal
  mask (0 where the key's position is at most the query's, a large negative constant elsewhere). No host operation and
  no launch writes a parameter array, so at every boundary a parameter holds what it held at the start. Between the
  second layer and the head launch the activations are flattened to 8192 rows; after the head launch each head's
  [8192, 16] result is viewed [128, 1, 1024] and repeated along the middle axis.
-/
import proofs.«141667_g2000002524955183_pallasbulk_3_44_alg».proof.Proof.Gen.ReferenceIdeal.Frame
import Idealize.ShloMosaic.Lib.ValueLayout
import Idealize.ShloMosaic.Lib.StableHlo.Run
import Idealize.ShloMosaic.Lib.WordArith
import Idealize.ShloMosaic.PureOps.Ideal.Laws

set_option maxRecDepth 16384

noncomputable section

namespace Cert.ReferenceIdeal.Host

open Idealize.ShloMosaic Idealize.ShloMosaic.TcCoe Idealize.SL.Sem Idealize.ShloMosaic.ValueIdx
open Cert.ReferenceIdeal Cert.ReferenceIdeal.Gen
open scoped BigOperators

/-! ## Buffers nothing writes: at every boundary what they held at the start -/

section Untouched
variable {F : FTy → Type} [FloatOps F]
variable (m : (ℓ : Loc nD τ sig) → Buf (Elt F) ℓ) (ρ : Dev nD → PrngReg)

/-- The buffers the host prologue writes. -/
def prologueWrites : List (Ref sig .tc) :=
  [main_v0, main_v1, main_v2, main_v3, main_v4, main_v5, main_v6, main_v7, main_v8, main_v9, main_v10, main_v11,
    main_v12, main_cst, main_cst_0, main_call0_v0, main_call0_v1, main_v13, main_v14]

/-- A buffer the prologue does not write holds, at the first launch's entry, what it held at the start. -/
theorem W3_untouched (c : Dev nD) (b : Ref sig .tc) (hb : ∀ r ∈ prologueWrites, b ≠ r) :
    W3 m ρ c (Proc.devRef .tc b) = m ((c : Thread nD τ).loc b) :=
  calc W3 m ρ c (Proc.devRef .tc b)
    _ = W2 m ρ c (Proc.devRef .tc b) := StableHlo.after_of_forall_not_mem (b := Proc.devRef .tc b) _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (hb _ (by decide))))
    _ = W1 m ρ c (Proc.devRef .tc b) := StableHlo.after_of_forall_not_mem (b := Proc.devRef .tc b) _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (hb _ (by decide))))
    _ = W0 m ρ c (Proc.devRef .tc b) := StableHlo.after_of_forall_not_mem (b := Proc.devRef .tc b) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (hb _ (by decide))))
    _ = m ((c : Thread nD τ).loc b) := rfl

/-- The same at the second launch's entry, for a buffer that is no array of the first launch. -/
theorem W4_untouched (c : Dev nD) (b : Ref sig .tc) (hb : ∀ r ∈ prologueWrites, b ≠ r)
    (h0 : ∀ w, Pipeline.arrRef spec0 w ≠ b) :
    W4 m ρ c (Proc.devRef .tc b) = m ((c : Thread nD τ).loc b) :=
  (W4_of_ne m ρ c b h0).trans (W3_untouched m ρ c b hb)

/-- An INPUT array of the first launch leaves it as it entered. -/
theorem W4_input (c : Dev nD) (w : Fin cfg0.W) (hin : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hin _).trans (A_eq0 (V3 m ρ) c w))

/-- The mask enters the second launch as it entered the first. -/
theorem V4_mask (c : Dev nD) : V4 m ρ c main_v14 = V3 m ρ c main_v14 := W4_input m ρ c 1 rfl

/-- The same at the head launch's entry, for a buffer that is no array of either layer's launch and not the flattened
    activations. -/
theorem W6_untouched (c : Dev nD) (b : Ref sig .tc) (hb : ∀ r ∈ prologueWrites, b ≠ r)
    (h0 : ∀ w, Pipeline.arrRef spec0 w ≠ b) (h1 : ∀ w, Pipeline.arrRef spec1 w ≠ b) (h2 : b ≠ main_v17) :
    W6 m ρ c (Proc.devRef .tc b) = m ((c : Thread nD τ).loc b) :=
  calc W6 m ρ c (Proc.devRef .tc b)
    _ = W5 m ρ c (Proc.devRef .tc b) := StableHlo.after_of_forall_not_mem (b := Proc.devRef .tc b) _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      exact StableHlo.devRef_ne_of_ne h2))
    _ = W4 m ρ c (Proc.devRef .tc b) := W5_of_ne m ρ c b h1
    _ = m ((c : Thread nD τ).loc b) := W4_untouched m ρ c b hb h0

/-- The first layer's parameters at its launch's entry. -/
theorem V3_arg (c : Dev nD) (b : Ref sig .tc) (hb : ∀ r ∈ prologueWrites, b ≠ r) :
    V3 m ρ c b = m ((c : Thread nD τ).loc b) := W3_untouched m ρ c b hb

/-- The second layer's parameters at its launch's entry. -/
theorem V4_arg (c : Dev nD) (b : Ref sig .tc) (hb : ∀ r ∈ prologueWrites, b ≠ r) (h0 : ∀ w, Pipeline.arrRef spec0 w ≠ b) :
    V4 m ρ c b = m ((c : Thread nD τ).loc b) := W4_untouched m ρ c b hb h0

/-- The heads' parameters at the head launch's entry. -/
theorem V6_arg (c : Dev nD) (b : Ref sig .tc) (hb : ∀ r ∈ prologueWrites, b ≠ r)
    (h0 : ∀ w, Pipeline.arrRef spec0 w ≠ b) (h1 : ∀ w, Pipeline.arrRef spec1 w ≠ b) (h2 : b ≠ main_v17) :
    V6 m ρ c b = m ((c : Thread nD τ).loc b) := W6_untouched m ρ c b hb h0 h1 h2

/-! ## The reshapes between and after the launches -/

/-- The head launch reads the second layer's output flattened: row `64 b + s` is batch element `b`, position `s`. -/
theorem V6_flat (c : Dev nD) (b : Fin 128) (s : Fin 64) (e : Fin 256) :
    (V6 m ρ c main_v17 : Vec F S8192x256 .f32) (ix2 (⟨64 * b.val + s.val, by omega⟩ : Fin 8192) e)
      = (V5 m ρ c main_v16 : Vec F S128x64x256 .f32) (ix3 b s e) := by
  have hterm : (V6 m ρ c main_v17 : Vec F S8192x256 .f32)
      = shapeCast S8192x256 (V5 m ρ c main_v16 : Vec F S128x64x256 .f32) shapeCasts_S128x64x256_S8192x256 := by
    show StableHlo.after hostOps2 (W5 m ρ c) (Proc.devRef .tc main_v17) = _
    simp only [hostOps2]
    after_results
    rfl
  rw [hterm]
  refine shapeCast_apply _ _ _ (ix3 b s e) ?_
  rw [Shape.rowMajor_val_three, Shape.rowMajor_val_two]
  show (b.val * 64 + s.val) * 256 + e.val = (64 * b.val + s.val) * 256 + e.val
  omega

/-- A head's result: entry `(b, t, j)` of the returned `[128, 8, 1024]` array is row `64 b + j / 16`, column `j % 16` of
    the head launch's `[8192, 16]` output, whatever the step `t`. -/
theorem headResult_apply (x : Vec F S8192x16 .f32) (b : Fin 128) (t : Fin 8) (j : Fin 1024) :
    broadcastInDim S128x8x1024 ![0, 1, 2] bcast_S128x1x1024_S128x8x1024_0_1_2
        (shapeCast S128x1x1024 x shapeCasts_S8192x16_S128x1x1024) (ix3 b t j)
      = x (ix2 (⟨64 * b.val + j.val / 16, by omega⟩ : Fin 8192) (⟨j.val % 16, by omega⟩ : Fin 16)) := by
  refine (broadcastInDim_apply _ _ _ (ix3 b t j) (ix3 b (0 : Fin 1) j) ?_).trans ?_
  · intro a
    match a with
    | ⟨0, _⟩ => rfl
    | ⟨1, _⟩ => rfl
    | ⟨2, _⟩ => rfl
  refine shapeCast_apply _ _ _ _ ?_
  rw [Shape.rowMajor_val_three, Shape.rowMajor_val_two]
  show (64 * b.val + j.val / 16) * 16 + j.val % 16 = (b.val * 1 + 0) * 1024 + j.val
  omega

theorem W8_v20 (c : Dev nD) (b : Fin 128) (t : Fin 8) (j : Fin 1024) :
    (W8 m ρ c (Proc.devRef .tc main_v20) : Vec F S128x8x1024 .f32) (ix3 b t j)
      = (W7 m ρ c (Proc.devRef .tc main_v18_0) : Vec F S8192x16 .f32)
          (ix2 (⟨64 * b.val + j.val / 16, by omega⟩ : Fin 8192) (⟨j.val % 16, by omega⟩ : Fin 16)) := by
  have hterm : (W8 m ρ c (Proc.devRef .tc main_v20) : Vec F S128x8x1024 .f32)
      = broadcastInDim S128x8x1024 ![0, 1, 2] bcast_S128x1x1024_S128x8x1024_0_1_2
          (shapeCast S128x1x1024 (W7 m ρ c (Proc.devRef .tc main_v18_0) : Vec F S8192x16 .f32) shapeCasts_S8192x16_S128x1x1024) := by
    show StableHlo.after hostOps3 (W7 m ρ c) (Proc.devRef .tc main_v20) = _
    simp only [hostOps3]
    after_results
    rfl
  rw [hterm]
  exact headResult_apply _ b t j

theorem W8_v22 (c : Dev nD) (b : Fin 128) (t : Fin 8) (j : Fin 1024) :
    (W8 m ρ c (Proc.devRef .tc main_v22) : Vec F S128x8x1024 .f32) (ix3 b t j)
      = (W7 m ρ c (Proc.devRef .tc main_v18_1) : Vec F S8192x16 .f32)
          (ix2 (⟨64 * b.val + j.val / 16, by omega⟩ : Fin 8192) (⟨j.val % 16, by omega⟩ : Fin 16)) := by
  have hterm : (W8 m ρ c (Proc.devRef .tc main_v22) : Vec F S128x8x1024 .f32)
      = broadcastInDim S128x8x1024 ![0, 1, 2] bcast_S128x1x1024_S128x8x1024_0_1_2
          (shapeCast S128x1x1024 (W7 m ρ c (Proc.devRef .tc main_v18_1) : Vec F S8192x16 .f32) shapeCasts_S8192x16_S128x1x1024) := by
    show StableHlo.after hostOps3 (W7 m ρ c) (Proc.devRef .tc main_v22) = _
    simp only [hostOps3]
    after_results
    rfl
  rw [hterm]
  exact headResult_apply _ b t j

end Untouched

/-! ## The first launch's input and the mask, at the extended reals -/

section Prologue
variable (m : (ℓ : Loc nD τ sig) → Buf (Elt Ideal) ℓ) (ρ : Dev nD → PrngReg)

/-- The first launch's input as the host prologue computes it. -/
def inputV (a0 a1 : FVec Ideal S128x8x8192 .f32) (pe : FVec Ideal S64x256 .f32) : FVec Ideal S128x64x256 .f32 :=
  addf (shapeCast S128x64x256 (shapeCast S128x16384 (extractStridedSlice S128x1x16384 ![0, 0, 0]
      (concatenate S128x8x16384 2 [⟨S128x8x8192, a0⟩, ⟨S128x8x8192, a1⟩] concatenates_S128x8x8192_S128x8x8192_S128x8x16384_d2)
      slices_S128x8x16384_S128x1x16384_0_0_0) shapeCasts_S128x1x16384_S128x16384) shapeCasts_S128x16384_S128x64x256)
    (broadcastInDim S128x64x256 ![0, 1, 2] bcast_S1x64x256_S128x64x256_0_1_2
      (broadcastInDim S1x64x256 ![1, 2] bcast_S64x256_S1x64x256_1_2 pe))

theorem v6_term (c : Dev nD) :
    (V3 m ρ c main_v6 : FVec Ideal S128x64x256 .f32)
      = inputV (m ((c : Thread nD τ).loc main_arg0)) (m ((c : Thread nD τ).loc main_arg1)) (m ((c : Thread nD τ).loc main_arg2)) := by
  show StableHlo.after hostOps0_2 (StableHlo.after hostOps0_1 (StableHlo.after hostOps0 (W0 m ρ c))) (Proc.devRef .tc main_v6) = _
  simp only [hostOps0, hostOps0_1, hostOps0_2]
  after_results
  rfl

/-- The first launch's input entry by entry, from the two observation arrays and the positional table: rows 0 … 31 of
    a batch element come from the first array, rows 32 … 63 from the second, each at time step 0. -/
def inputAt (a0 a1 : FVec Ideal S128x8x8192 .f32) (pe : FVec Ideal S64x256 .f32)
    (b : Fin 128) (s : Fin 64) (e : Fin 256) : EReal :=
  (if h : s.val < 32 then a0 (ix3 b (0 : Fin 8) ⟨256 * s.val + e.val, by omega⟩)
    else a1 (ix3 b (0 : Fin 8) ⟨256 * (s.val - 32) + e.val, by omega⟩)) + pe (ix2 s e)

theorem inputV_apply (a0 a1 : FVec Ideal S128x8x8192 .f32) (pe : FVec Ideal S64x256 .f32)
    (b : Fin 128) (s : Fin 64) (e : Fin 256) :
    inputV a0 a1 pe (ix3 b s e) = inputAt a0 a1 pe b s e := by
  unfold inputV inputAt
  rw [addf_apply]
  congr 1
  · refine (shapeCast_apply _ _ (ix3 b s e) (ix2 b (⟨256 * s.val + e.val, by omega⟩ : Fin 16384)) ?_).trans ?_
    · rw [Shape.rowMajor_val_three, Shape.rowMajor_val_two]
      show b.val * 16384 + (256 * s.val + e.val) = (b.val * 64 + s.val) * 256 + e.val
      omega
    refine (shapeCast_apply _ _ _ (ix3 b (0 : Fin 1) (⟨256 * s.val + e.val, by omega⟩ : Fin 16384)) ?_).trans ?_
    · rw [Shape.rowMajor_val_three, Shape.rowMajor_val_two]
      show (b.val * 1 + 0) * 16384 + (256 * s.val + e.val) = b.val * 16384 + (256 * s.val + e.val)
      omega
    refine (extractStridedSlice_apply _ _ _ _ (ix3 b (0 : Fin 8) (⟨256 * s.val + e.val, by omega⟩ : Fin 16384)) ?_).trans ?_
    · intro a
      match a with
      | ⟨0, _⟩ => exact (Nat.zero_add _).symm
      | ⟨1, _⟩ => rfl
      | ⟨2, _⟩ => exact (Nat.zero_add _).symm
    by_cases h : s.val < 32
    · rw [dif_pos h]
      refine concatenate_pair_apply_left (t := S128x8x16384) (2 : Fin 3) a0 a1 concatenates_S128x8x8192_S128x8x8192_S128x8x16384_d2 _ rfl (ix3 b (0 : Fin 8) ⟨256 * s.val + e.val, by omega⟩) ?_
      intro a
      match a with
      | ⟨0, _⟩ => rfl
      | ⟨1, _⟩ => rfl
      | ⟨2, _⟩ => rfl
    · rw [dif_neg h]
      refine concatenate_pair_apply_right (t := S128x8x16384) (2 : Fin 3) a0 a1 concatenates_S128x8x8192_S128x8x8192_S128x8x16384_d2 _ rfl rfl (ix3 b (0 : Fin 8) ⟨256 * (s.val - 32) + e.val, by omega⟩) ?_ ?_
      · intro a ha
        match a with
        | ⟨0, _⟩ => rfl
        | ⟨1, _⟩ => rfl
        | ⟨2, _⟩ => exact absurd rfl ha
      · show 256 * (s.val - 32) + e.val + 8192 = 256 * s.val + e.val
        omega
  · refine (broadcastInDim_apply _ _ _ (ix3 b s e) (ix3 (0 : Fin 1) s e) ?_).trans ?_
    · intro a
      match a with
      | ⟨0, _⟩ => rfl
      | ⟨1, _⟩ => rfl
      | ⟨2, _⟩ => rfl
    refine broadcastInDim_apply _ _ _ (ix3 (0 : Fin 1) s e) (ix2 s e) ?_
    intro a
    match a with
    | ⟨0, _⟩ => rfl
    | ⟨1, _⟩ => rfl

/-- The causal mask as the host prologue computes it. -/
def maskV : FVec Ideal S64x64 .f32 :=
  select (cmpi .sge
      (broadcastInDim S64x64 ![0, 1] bcast_S64x1_S64x64_0_1 (broadcastInDim S64x1 ![0] bcast_S64_S64x1_0 (iotaInDim S64 32 0)))
      (broadcastInDim S64x64 ![0, 1] bcast_S1x64_S64x64_0_1 (broadcastInDim S1x64 ![1] bcast_S64_S1x64_1 (iotaInDim S64 32 0))))
    (broadcastInDim S64x64 ![] bcast_S_S64x64 (constant (F := Ideal) S_ .f32 0x00000000#32))
    (broadcastInDim S64x64 ![] bcast_S_S64x64 (constant (F := Ideal) S_ .f32 0xCE6E6B28#32))

theorem v14_term (c : Dev nD) : (V3 m ρ c main_v14 : FVec Ideal S64x64 .f32) = maskV := by
  show StableHlo.after hostOps0_2 (StableHlo.after hostOps0_1 (StableHlo.after hostOps0 (W0 m ρ c))) (Proc.devRef .tc main_v14) = _
  simp only [hostOps0, hostOps0_1, hostOps0_2]
  after_results
  rfl

theorem toInt_ofNat_small (k : Nat) (hk : k < 64) : (BitVec.ofNat 32 k).toInt = (k : Int) := by
  have e := BitVec.toInt_eq_toNat_cond (BitVec.ofNat 32 k)
  rw [BitVec.toNat_ofNat, Nat.mod_eq_of_lt (by omega), if_pos (by omega)] at e
  exact e

theorem cmpi_sge_small (i j : Nat) (hi : i < 64) (hj : j < 64) :
    IntOp.cmpi .sge (BitVec.ofNat 32 i) (BitVec.ofNat 32 j) = 1#1 ↔ j ≤ i := by
  show BitVec.ofBool ((BitVec.ofNat 32 j).sle (BitVec.ofNat 32 i)) = 1#1 ↔ _
  rw [WordArith.ofBool_eq_one_iff, BitVec.sle_iff_toInt_le, toInt_ofNat_small i hi, toInt_ofNat_small j hj]
  omega

theorem maskV_apply (i j : Fin 64) :
    maskV (ix2 i j) = if j.val ≤ i.val then (0 : EReal) else Ideal.ofBits .f32 0xCE6E6B28#32 := by
  unfold maskV
  rw [select_apply]
  have hA : broadcastInDim S64x64 ![0, 1] bcast_S64x1_S64x64_0_1
      (broadcastInDim S64x1 ![0] bcast_S64_S64x1_0 (iotaInDim S64 32 0)) (ix2 i j) = BitVec.ofNat 32 i.val := by
    refine (broadcastInDim_apply _ _ _ (ix2 i j) (ix2 i (0 : Fin 1)) ?_).trans ?_
    · intro a
      match a with
      | ⟨0, _⟩ => rfl
      | ⟨1, _⟩ => rfl
    refine (broadcastInDim_apply _ _ _ (ix2 i (0 : Fin 1)) (ix1 i) ?_).trans rfl
    intro a
    match a with
    | ⟨0, _⟩ => rfl
  have hB : broadcastInDim S64x64 ![0, 1] bcast_S1x64_S64x64_0_1
      (broadcastInDim S1x64 ![1] bcast_S64_S1x64_1 (iotaInDim S64 32 0)) (ix2 i j) = BitVec.ofNat 32 j.val := by
    refine (broadcastInDim_apply _ _ _ (ix2 i j) (ix2 (0 : Fin 1) j) ?_).trans ?_
    · intro a
      match a with
      | ⟨0, _⟩ => rfl
      | ⟨1, _⟩ => rfl
    refine (broadcastInDim_apply _ _ _ (ix2 (0 : Fin 1) j) (ix1 j) ?_).trans rfl
    intro a
    match a with
    | ⟨0, _⟩ => rfl
  have hc : cmpi .sge
      (broadcastInDim S64x64 ![0, 1] bcast_S64x1_S64x64_0_1 (broadcastInDim S64x1 ![0] bcast_S64_S64x1_0 (iotaInDim S64 32 0)))
      (broadcastInDim S64x64 ![0, 1] bcast_S1x64_S64x64_0_1 (broadcastInDim S1x64 ![1] bcast_S64_S1x64_1 (iotaInDim S64 32 0)))
      (ix2 i j) = IntOp.cmpi .sge (BitVec.ofNat 32 i.val) (BitVec.ofNat 32 j.val) := by
    show IntOp.cmpi .sge _ _ = _
    rw [hA, hB]
  rw [hc]
  by_cases h : j.val ≤ i.val
  · rw [(cmpi_sge_small i.val j.val i.isLt j.isLt).mpr h, select_one, if_pos h]
    exact Ideal.ofBits_zero_f32
  · rw [eq_zero_of_ne_one (fun e => h ((cmpi_sge_small i.val j.val i.isLt j.isLt).mp e)), select_zero, if_neg h]
    rfl

/-- The first launch's input at its entry, entry by entry. -/
theorem V3_input (c : Dev nD) (b : Fin 128) (s : Fin 64) (e : Fin 256) :
    (V3 m ρ c main_v6 : FVec Ideal S128x64x256 .f32) (ix3 b s e)
      = inputAt (m ((c : Thread nD τ).loc main_arg0)) (m ((c : Thread nD τ).loc main_arg1))
          (m ((c : Thread nD τ).loc main_arg2)) b s e := by
  rw [v6_term]
  exact inputV_apply _ _ _ b s e

/-- The mask entry by entry. -/
theorem V3_mask (c : Dev nD) (i j : Fin 64) :
    (V3 m ρ c main_v14 : FVec Ideal S64x64 .f32) (ix2 i j)
      = if j.val ≤ i.val then (0 : EReal) else Ideal.ofBits .f32 0xCE6E6B28#32 := by
  rw [v14_term]
  exact maskV_apply i j

end Prologue

end Cert.ReferenceIdeal.Host

end
-- ==== Proof.RefHostArgs.lean ====
/-
  The reference's parameter arrays at the entries of its three launches: each holds what it held at the start.

  No host operation and no launch writes a parameter array. So the 21 tables of the first layer, read at the first
  launch's entry, the 21 tables of the second layer, read at the second launch's entry, and the four tables of the output
  heads, read at the head launch's entry, are the argument arrays themselves; and the mask enters the second launch as it
  entered the first. One instance per array of the general facts about buffers nothing writes.
-/
import proofs.«141667_g2000002524955183_pallasbulk_3_44_alg».proof.Proof.RefHost

set_option maxRecDepth 16384

noncomputable section

namespace Cert.ReferenceIdeal.Host

open Idealize.ShloMosaic Idealize.ShloMosaic.TcCoe Idealize.SL.Sem
open Cert.ReferenceIdeal Cert.ReferenceIdeal.Gen

section Args
variable {F : FTy → Type} [FloatOps F]
variable (m : (ℓ : Loc nD τ sig) → Buf (Elt F) ℓ) (ρ : Dev nD → PrngReg)

/-! ## The first layer's 21 tables at the first launch's entry -/

theorem V3_main_arg7 (c : Dev nD) : V3 m ρ c main_arg7 = m ((c : Thread nD τ).loc main_arg7) :=
  V3_arg m ρ c main_arg7 (by decide)
theorem V3_main_arg8 (c : Dev nD) : V3 m ρ c main_arg8 = m ((c : Thread nD τ).loc main_arg8) :=
  V3_arg m ρ c main_arg8 (by decide)
theorem V3_main_arg9 (c : Dev nD) : V3 m ρ c main_arg9 = m ((c : Thread nD τ).loc main_arg9) :=
  V3_arg m ρ c main_arg9 (by decide)
theorem V3_main_arg10 (c : Dev nD) : V3 m ρ c main_arg10 = m ((c : Thread nD τ).loc main_arg10) :=
  V3_arg m ρ c main_arg10 (by decide)
theorem V3_main_arg11 (c : Dev nD) : V3 m ρ c main_arg11 = m ((c : Thread nD τ).loc main_arg11) :=
  V3_arg m ρ c main_arg11 (by decide)
theorem V3_main_arg12 (c : Dev nD) : V3 m ρ c main_arg12 = m ((c : Thread nD τ).loc main_arg12) :=
  V3_arg m ρ c main_arg12 (by decide)
theorem V3_main_arg13 (c : Dev nD) : V3 m ρ c main_arg13 = m ((c : Thread nD τ).loc main_arg13) :=
  V3_arg m ρ c main_arg13 (by decide)
theorem V3_main_arg14 (c : Dev nD) : V3 m ρ c main_arg14 = m ((c : Thread nD τ).loc main_arg14) :=
  V3_arg m ρ c main_arg14 (by decide)
theorem V3_main_arg15 (c : Dev nD) : V3 m ρ c main_arg15 = m ((c : Thread nD τ).loc main_arg15) :=
  V3_arg m ρ c main_arg15 (by decide)
theorem V3_main_arg16 (c : Dev nD) : V3 m ρ c main_arg16 = m ((c : Thread nD τ).loc main_arg16) :=
  V3_arg m ρ c main_arg16 (by decide)
theorem V3_main_arg17 (c : Dev nD) : V3 m ρ c main_arg17 = m ((c : Thread nD τ).loc main_arg17) :=
  V3_arg m ρ c main_arg17 (by decide)
theorem V3_main_arg18 (c : Dev nD) : V3 m ρ c main_arg18 = m ((c : Thread nD τ).loc main_arg18) :=
  V3_arg m ρ c main_arg18 (by decide)
theorem V3_main_arg19 (c : Dev nD) : V3 m ρ c main_arg19 = m ((c : Thread nD τ).loc main_arg19) :=
  V3_arg m ρ c main_arg19 (by decide)
theorem V3_main_arg20 (c : Dev nD) : V3 m ρ c main_arg20 = m ((c : Thread nD τ).loc main_arg20) :=
  V3_arg m ρ c main_arg20 (by decide)
theorem V3_main_arg21 (c : Dev nD) : V3 m ρ c main_arg21 = m ((c : Thread nD τ).loc main_arg21) :=
  V3_arg m ρ c main_arg21 (by decide)
theorem V3_main_arg22 (c : Dev nD) : V3 m ρ c main_arg22 = m ((c : Thread nD τ).loc main_arg22) :=
  V3_arg m ρ c main_arg22 (by decide)
theorem V3_main_arg23 (c : Dev nD) : V3 m ρ c main_arg23 = m ((c : Thread nD τ).loc main_arg23) :=
  V3_arg m ρ c main_arg23 (by decide)
theorem V3_main_arg24 (c : Dev nD) : V3 m ρ c main_arg24 = m ((c : Thread nD τ).loc main_arg24) :=
  V3_arg m ρ c main_arg24 (by decide)
theorem V3_main_arg25 (c : Dev nD) : V3 m ρ c main_arg25 = m ((c : Thread nD τ).loc main_arg25) :=
  V3_arg m ρ c main_arg25 (by decide)
theorem V3_main_arg26 (c : Dev nD) : V3 m ρ c main_arg26 = m ((c : Thread nD τ).loc main_arg26) :=
  V3_arg m ρ c main_arg26 (by decide)
theorem V3_main_arg27 (c : Dev nD) : V3 m ρ c main_arg27 = m ((c : Thread nD τ).loc main_arg27) :=
  V3_arg m ρ c main_arg27 (by decide)

/-! ## The second layer's 21 tables at the second launch's entry -/

theorem V4_main_arg28 (c : Dev nD) : V4 m ρ c main_arg28 = m ((c : Thread nD τ).loc main_arg28) :=
  V4_arg m ρ c main_arg28 (by decide) (by decide)
theorem V4_main_arg29 (c : Dev nD) : V4 m ρ c main_arg29 = m ((c : Thread nD τ).loc main_arg29) :=
  V4_arg m ρ c main_arg29 (by decide) (by decide)
theorem V4_main_arg30 (c : Dev nD) : V4 m ρ c main_arg30 = m ((c : Thread nD τ).loc main_arg30) :=
  V4_arg m ρ c main_arg30 (by decide) (by decide)
theorem V4_main_arg31 (c : Dev nD) : V4 m ρ c main_arg31 = m ((c : Thread nD τ).loc main_arg31) :=
  V4_arg m ρ c main_arg31 (by decide) (by decide)
theorem V4_main_arg32 (c : Dev nD) : V4 m ρ c main_arg32 = m ((c : Thread nD τ).loc main_arg32) :=
  V4_arg m ρ c main_arg32 (by decide) (by decide)
theorem V4_main_arg33 (c : Dev nD) : V4 m ρ c main_arg33 = m ((c : Thread nD τ).loc main_arg33) :=
  V4_arg m ρ c main_arg33 (by decide) (by decide)
theorem V4_main_arg34 (c : Dev nD) : V4 m ρ c main_arg34 = m ((c : Thread nD τ).loc main_arg34) :=
  V4_arg m ρ c main_arg34 (by decide) (by decide)
theorem V4_main_arg35 (c : Dev nD) : V4 m ρ c main_arg35 = m ((c : Thread nD τ).loc main_arg35) :=
  V4_arg m ρ c main_arg35 (by decide) (by decide)
theorem V4_main_arg36 (c : Dev nD) : V4 m ρ c main_arg36 = m ((c : Thread nD τ).loc main_arg36) :=
  V4_arg m ρ c main_arg36 (by decide) (by decide)
theorem V4_main_arg37 (c : Dev nD) : V4 m ρ c main_arg37 = m ((c : Thread nD τ).loc main_arg37) :=
  V4_arg m ρ c main_arg37 (by decide) (by decide)
theorem V4_main_arg38 (c : Dev nD) : V4 m ρ c main_arg38 = m ((c : Thread nD τ).loc main_arg38) :=
  V4_arg m ρ c main_arg38 (by decide) (by decide)
theorem V4_main_arg39 (c : Dev nD) : V4 m ρ c main_arg39 = m ((c : Thread nD τ).loc main_arg39) :=
  V4_arg m ρ c main_arg39 (by decide) (by decide)
theorem V4_main_arg40 (c : Dev nD) : V4 m ρ c main_arg40 = m ((c : Thread nD τ).loc main_arg40) :=
  V4_arg m ρ c main_arg40 (by decide) (by decide)
theorem V4_main_arg41 (c : Dev nD) : V4 m ρ c main_arg41 = m ((c : Thread nD τ).loc main_arg41) :=
  V4_arg m ρ c main_arg41 (by decide) (by decide)
theorem V4_main_arg42 (c : Dev nD) : V4 m ρ c main_arg42 = m ((c : Thread nD τ).loc main_arg42) :=
  V4_arg m ρ c main_arg42 (by decide) (by decide)
theorem V4_main_arg43 (c : Dev nD) : V4 m ρ c main_arg43 = m ((c : Thread nD τ).loc main_arg43) :=
  V4_arg m ρ c main_arg43 (by decide) (by decide)
theorem V4_main_arg44 (c : Dev nD) : V4 m ρ c main_arg44 = m ((c : Thread nD τ).loc main_arg44) :=
  V4_arg m ρ c main_arg44 (by decide) (by decide)
theorem V4_main_arg45 (c : Dev nD) : V4 m ρ c main_arg45 = m ((c : Thread nD τ).loc main_arg45) :=
  V4_arg m ρ c main_arg45 (by decide) (by decide)
theorem V4_main_arg46 (c : Dev nD) : V4 m ρ c main_arg46 = m ((c : Thread nD τ).loc main_arg46) :=
  V4_arg m ρ c main_arg46 (by decide) (by decide)
theorem V4_main_arg47 (c : Dev nD) : V4 m ρ c main_arg47 = m ((c : Thread nD τ).loc main_arg47) :=
  V4_arg m ρ c main_arg47 (by decide) (by decide)
theorem V4_main_arg48 (c : Dev nD) : V4 m ρ c main_arg48 = m ((c : Thread nD τ).loc main_arg48) :=
  V4_arg m ρ c main_arg48 (by decide) (by decide)

/-! ## The heads' four tables at the head launch's entry -/

theorem V6_main_arg3 (c : Dev nD) : V6 m ρ c main_arg3 = m ((c : Thread nD τ).loc main_arg3) :=
  V6_arg m ρ c main_arg3 (by decide) (by decide) (by decide) (by decide)
theorem V6_main_arg4 (c : Dev nD) : V6 m ρ c main_arg4 = m ((c : Thread nD τ).loc main_arg4) :=
  V6_arg m ρ c main_arg4 (by decide) (by decide) (by decide) (by decide)
theorem V6_main_arg5 (c : Dev nD) : V6 m ρ c main_arg5 = m ((c : Thread nD τ).loc main_arg5) :=
  V6_arg m ρ c main_arg5 (by decide) (by decide) (by decide) (by decide)
theorem V6_main_arg6 (c : Dev nD) : V6 m ρ c main_arg6 = m ((c : Thread nD τ).loc main_arg6) :=
  V6_arg m ρ c main_arg6 (by decide) (by decide) (by decide) (by decide)

/-! ## The mask at the second launch's entry -/

theorem V4_main_v14 (c : Dev nD) : V4 m ρ c main_v14 = V3 m ρ c main_v14 := V4_mask m ρ c

end Args

end Cert.ReferenceIdeal.Host

end
-- ==== Proof.RefArrays.lean ====
/-
  The reference's launches, each output array entry by entry.

  Each encoder layer is launched over 128 grid points, point `b` staging batch element `b` of the activations
  `[128, 64, 256]` as a `[1, 64, 256]` block and every parameter whole; so the layer's output array holds at `(b, s, c)`
  what the body leaves at `(0, s, c)` of its output block when run on the blocks of point `b`. The head launch has one
  grid point and whole-array blocks. In each launch the blocks tile the output array and none is written twice.
  Everything is stated for ANY contents `V` of the buffers at the launch's entry.
-/
import proofs.«141667_g2000002524955183_pallasbulk_3_44_alg».proof.Proof.Gen.ReferenceIdeal.Frame
import Idealize.ShloMosaic.Lib.Pipeline.Value
import Idealize.ShloMosaic.Lib.ValueIdx

set_option maxRecDepth 16384

noncomputable section

namespace Cert.ReferenceIdeal.Arr

open Idealize.ShloMosaic Idealize.ShloMosaic.TcCoe Idealize.SL.Sem Idealize.ShloMosaic.ValueIdx
open Idealize.ShloMosaic.Pipeline (Dat Cfg Window)
open Cert.ReferenceIdeal Cert.ReferenceIdeal.Gen

variable {F : FTy → Type} [FloatOps F]
variable (V : (c : Dev nD) → (b : Ref sig .tc) → Buf (Elt F) ((c : Thread nD τ).loc b))

/-- The place of an index of a layer's output array inside its one-element block. -/
def locRow (i : S128x64x256.Idx) : S1x64x256.Idx :=
  ix3 (0 : Fin 1) (⟨(i 1).val, (i 1).isLt⟩ : Fin 64) (⟨(i 2).val, (i 2).isLt⟩ : Fin 256)

/-- An index of a whole-array block. -/
def locWhole (i : S8192x16.Idx) : S8192x16.Idx := ix2 (⟨(i 0).val, (i 0).isLt⟩ : Fin 8192) (⟨(i 1).val, (i 1).isLt⟩ : Fin 16)

/-- The head launch's one grid point. -/
def pt2 : Fin cfg2.N := ⟨0, by show 0 < 1; omega⟩

theorem pt2_eq (t : Fin cfg2.N) : t = pt2 := by
  apply Fin.ext; have h : t.val < 1 := t.isLt; show t.val = 0; omega

/-! ## Launch 0: one batch element per grid point -/

/-- The grid point whose block holds batch element `b`. -/
def pt0 (i : S128x64x256.Idx) : Fin cfg0.N := ⟨(i 0).val, by have h : (i 0).val < 128 := (i 0).isLt; show (i 0).val < 128; exact h⟩

set_option maxHeartbeats 2000000 in
/-- What the layer's body leaves in its output block at point `t`. -/
def blkOut0 (c : Dev nD) (t : Fin cfg0.N) : Vec F S1x64x256 .f32 := out0_23 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t)

/-- The layer's output array, entry by entry. -/
def G0 (c : Dev nD) : S128x64x256.Idx → Elt F .f32 := fun i => blkOut0 V c (pt0 i) (locRow i)

theorem idx0 : ∀ t : Fin cfg0.N, win0_23.index t (0 : Fin 3) = t.val ∧ win0_23.index t (1 : Fin 3) = 0 ∧ win0_23.index t (2 : Fin 3) = 0 :=
  (by decide +kernel : ∀ t : Fin grid0.N, _)

theorem pt_emb0 (t : Fin cfg0.N) (j : S1x64x256.Idx) : pt0 (((cfg0.win 23).blk t).view.emb j) = t := by
  obtain ⟨e0, e1, e2⟩ := idx0 t
  apply Fin.ext
  show win0_23.index t (0 : Fin 3) * 1 + 1 * (j 0).val = t.val
  have hj : (j 0).val < 1 := (j 0).isLt
  omega

theorem loc_emb0 (t : Fin cfg0.N) (j : S1x64x256.Idx) : locRow (((cfg0.win 23).blk t).view.emb j) = j := by
  obtain ⟨e0, e1, e2⟩ := idx0 t
  funext a; apply Fin.ext
  match a with
  | ⟨0, _⟩ => show (0 : ℕ) = (j 0).val; have hj : (j 0).val < 1 := (j 0).isLt; omega
  | ⟨1, _⟩ => show win0_23.index t (1 : Fin 3) * 64 + 1 * (j 1).val = (j 1).val; omega
  | ⟨2, _⟩ => show win0_23.index t (2 : Fin 3) * 256 + 1 * (j 2).val = (j 2).val; omega

theorem cutL0 (t : Fin cfg0.N) (X : Vec F S1x64x256 .f32) : (cfg0.win 23).cut (grid0.coords t) X = X := funext fun j => rfl
theorem readL0 (t : Fin cfg0.N) (G : S128x64x256.Idx → Elt F .f32) (j : S1x64x256.Idx) :
    ((cfg0.win 23).blk t).view.read (Elt F) G j = G (((cfg0.win 23).blk t).view.emb j) := rfl
theorem G0_apply (c : Dev nD) (i : S128x64x256.Idx) : G0 V c i = blkOut0 V c (pt0 i) (locRow i) := by unfold G0; rfl

set_option maxHeartbeats 2000000 in
/-- What point `t` writes back is block `t` of `G0`. -/
theorem flushed0_eq (c : Dev nD) (t : Fin cfg0.N) :
    (dat0 V c).flushed 23 t = ((cfg0.win 23).blk t).view.read (Elt F) (G0 V c) := by
  have h0 : (dat0 V c).flushed 23 t = (cfg0.win 23).cut (grid0.coords t) ((dat0 V c).after 23 t) := rfl
  have h2 : (dat0 V c).after 23 t = blkOut0 V c t := by rw [after0_23]; unfold blkOut0; rfl
  rw [h0, cutL0, h2]
  funext j
  rw [readL0, G0_apply, pt_emb0, loc_emb0]

theorem mem_blk0 (t : Fin cfg0.N) (i : S128x64x256.Idx) :
    i ∈ ((cfg0.win 23).blk t).view.set ↔ ∀ a : Fin 3, win0_23.index t a * S1x64x256.size a ≤ (i a).val ∧ (i a).val < win0_23.index t a * S1x64x256.size a + S1x64x256.size a := by
  show i ∈ ((View.whole main_v15).slice (win0_23.rect t)).set ↔ _
  rw [View.set_slice_whole, Rect.mem_set_unit]
  exact Iff.rfl

/-- The 128 blocks tile the output array. -/
theorem cover0 (i : S128x64x256.Idx) : ∃ t : Fin cfg0.N, (cfg0.win 23).flush t = true ∧ i ∈ ((cfg0.win 23).blk t).view.set := by
  refine ⟨pt0 i, flush0_23 _, ?_⟩
  obtain ⟨e0, e1, e2⟩ := idx0 (pt0 i)
  have hp : (pt0 i).val = (i 0).val := rfl
  rw [mem_blk0]
  intro a
  match a with
  | ⟨0, _⟩ => show win0_23.index (pt0 i) (0 : Fin 3) * 1 ≤ (i 0).val ∧ (i 0).val < win0_23.index (pt0 i) (0 : Fin 3) * 1 + 1; omega
  | ⟨1, _⟩ => show win0_23.index (pt0 i) (1 : Fin 3) * 64 ≤ (i 1).val ∧ (i 1).val < win0_23.index (pt0 i) (1 : Fin 3) * 64 + 64; have h : (i 1).val < 64 := (i 1).isLt; omega
  | ⟨2, _⟩ => show win0_23.index (pt0 i) (2 : Fin 3) * 256 ≤ (i 2).val ∧ (i 2).val < win0_23.index (pt0 i) (2 : Fin 3) * 256 + 256; have h : (i 2).val < 256 := (i 2).isLt; omega

/-- The layer's output array after the launch. -/
theorem final0 (c : Dev nD) : (dat0 V c).arrAt 23 cfg0.N = G0 V c :=
  (dat0 V c).arrAt_eq_of_cover 23 (G0 V c) (fun t _ => flushed0_eq V c t) cover0

/-! ## Launch 1: one batch element per grid point -/

/-- The grid point whose block holds batch element `b`. -/
def pt1 (i : S128x64x256.Idx) : Fin cfg1.N := ⟨(i 0).val, by have h : (i 0).val < 128 := (i 0).isLt; show (i 0).val < 128; exact h⟩

set_option maxHeartbeats 2000000 in
/-- What the layer's body leaves in its output block at point `t`. -/
def blkOut1 (c : Dev nD) (t : Fin cfg1.N) : Vec F S1x64x256 .f32 := out1_23 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t)

/-- The layer's output array, entry by entry. -/
def G1 (c : Dev nD) : S128x64x256.Idx → Elt F .f32 := fun i => blkOut1 V c (pt1 i) (locRow i)

theorem idx1 : ∀ t : Fin cfg1.N, win1_23.index t (0 : Fin 3) = t.val ∧ win1_23.index t (1 : Fin 3) = 0 ∧ win1_23.index t (2 : Fin 3) = 0 :=
  (by decide +kernel : ∀ t : Fin grid1.N, _)

theorem pt_emb1 (t : Fin cfg1.N) (j : S1x64x256.Idx) : pt1 (((cfg1.win 23).blk t).view.emb j) = t := by
  obtain ⟨e0, e1, e2⟩ := idx1 t
  apply Fin.ext
  show win1_23.index t (0 : Fin 3) * 1 + 1 * (j 0).val = t.val
  have hj : (j 0).val < 1 := (j 0).isLt
  omega

theorem loc_emb1 (t : Fin cfg1.N) (j : S1x64x256.Idx) : locRow (((cfg1.win 23).blk t).view.emb j) = j := by
  obtain ⟨e0, e1, e2⟩ := idx1 t
  funext a; apply Fin.ext
  match a with
  | ⟨0, _⟩ => show (0 : ℕ) = (j 0).val; have hj : (j 0).val < 1 := (j 0).isLt; omega
  | ⟨1, _⟩ => show win1_23.index t (1 : Fin 3) * 64 + 1 * (j 1).val = (j 1).val; omega
  | ⟨2, _⟩ => show win1_23.index t (2 : Fin 3) * 256 + 1 * (j 2).val = (j 2).val; omega

theorem cutL1 (t : Fin cfg1.N) (X : Vec F S1x64x256 .f32) : (cfg1.win 23).cut (grid1.coords t) X = X := funext fun j => rfl
theorem readL1 (t : Fin cfg1.N) (G : S128x64x256.Idx → Elt F .f32) (j : S1x64x256.Idx) :
    ((cfg1.win 23).blk t).view.read (Elt F) G j = G (((cfg1.win 23).blk t).view.emb j) := rfl
theorem G1_apply (c : Dev nD) (i : S128x64x256.Idx) : G1 V c i = blkOut1 V c (pt1 i) (locRow i) := by unfold G1; rfl

set_option maxHeartbeats 2000000 in
/-- What point `t` writes back is block `t` of `G1`. -/
theorem flushed1_eq (c : Dev nD) (t : Fin cfg1.N) :
    (dat1 V c).flushed 23 t = ((cfg1.win 23).blk t).view.read (Elt F) (G1 V c) := by
  have h0 : (dat1 V c).flushed 23 t = (cfg1.win 23).cut (grid1.coords t) ((dat1 V c).after 23 t) := rfl
  have h2 : (dat1 V c).after 23 t = blkOut1 V c t := by rw [after1_23]; unfold blkOut1; rfl
  rw [h0, cutL1, h2]
  funext j
  rw [readL1, G1_apply, pt_emb1, loc_emb1]

theorem mem_blk1 (t : Fin cfg1.N) (i : S128x64x256.Idx) :
    i ∈ ((cfg1.win 23).blk t).view.set ↔ ∀ a : Fin 3, win1_23.index t a * S1x64x256.size a ≤ (i a).val ∧ (i a).val < win1_23.index t a * S1x64x256.size a + S1x64x256.size a := by
  show i ∈ ((View.whole main_v16).slice (win1_23.rect t)).set ↔ _
  rw [View.set_slice_whole, Rect.mem_set_unit]
  exact Iff.rfl

/-- The 128 blocks tile the output array. -/
theorem cover1 (i : S128x64x256.Idx) : ∃ t : Fin cfg1.N, (cfg1.win 23).flush t = true ∧ i ∈ ((cfg1.win 23).blk t).view.set := by
  refine ⟨pt1 i, flush1_23 _, ?_⟩
  obtain ⟨e0, e1, e2⟩ := idx1 (pt1 i)
  have hp : (pt1 i).val = (i 0).val := rfl
  rw [mem_blk1]
  intro a
  match a with
  | ⟨0, _⟩ => show win1_23.index (pt1 i) (0 : Fin 3) * 1 ≤ (i 0).val ∧ (i 0).val < win1_23.index (pt1 i) (0 : Fin 3) * 1 + 1; omega
  | ⟨1, _⟩ => show win1_23.index (pt1 i) (1 : Fin 3) * 64 ≤ (i 1).val ∧ (i 1).val < win1_23.index (pt1 i) (1 : Fin 3) * 64 + 64; have h : (i 1).val < 64 := (i 1).isLt; omega
  | ⟨2, _⟩ => show win1_23.index (pt1 i) (2 : Fin 3) * 256 ≤ (i 2).val ∧ (i 2).val < win1_23.index (pt1 i) (2 : Fin 3) * 256 + 256; have h : (i 2).val < 256 := (i 2).isLt; omega

/-- The layer's output array after the launch. -/
theorem final1 (c : Dev nD) : (dat1 V c).arrAt 23 cfg1.N = G1 V c :=
  (dat1 V c).arrAt_eq_of_cover 23 (G1 V c) (fun t _ => flushed1_eq V c t) cover1

/-! ## The head launch -/

set_option maxHeartbeats 2000000 in
/-- What the head launch's body leaves in output 0's block (its one grid point). -/
def blkOut2_5 (c : Dev nD) (t : Fin cfg2.N) : Vec F S8192x16 .f32 := out2_5 (iblk2 V c 0 t) (iblk2 V c 1 t) (iblk2 V c 2 t) (iblk2 V c 3 t) (iblk2 V c 4 t)

/-- The head launch's output 0, entry by entry: the one block is the whole array. -/
def G2_5 (c : Dev nD) : S8192x16.Idx → Elt F .f32 := fun i => blkOut2_5 V c pt2 (locWhole i)

theorem idx2_5 : ∀ t : Fin cfg2.N, win2_5.index t (0 : Fin 2) = 0 ∧ win2_5.index t (1 : Fin 2) = 0 :=
  (by decide +kernel : ∀ t : Fin grid2.N, _)

theorem loc_emb2_5 (t : Fin cfg2.N) (j : S8192x16.Idx) : locWhole (((cfg2.win 5).blk t).view.emb j) = j := by
  obtain ⟨e0, e1⟩ := idx2_5 t
  funext a; apply Fin.ext
  match a with
  | ⟨0, _⟩ => show win2_5.index t (0 : Fin 2) * 8192 + 1 * (j 0).val = (j 0).val; omega
  | ⟨1, _⟩ => show win2_5.index t (1 : Fin 2) * 16 + 1 * (j 1).val = (j 1).val; omega

theorem cut2_5 (t : Fin cfg2.N) (X : Vec F S8192x16 .f32) : (cfg2.win 5).cut (grid2.coords t) X = X := funext fun j => rfl
theorem read2_5 (t : Fin cfg2.N) (G : S8192x16.Idx → Elt F .f32) (j : S8192x16.Idx) :
    ((cfg2.win 5).blk t).view.read (Elt F) G j = G (((cfg2.win 5).blk t).view.emb j) := rfl
theorem G2_5_apply (c : Dev nD) (i : S8192x16.Idx) : G2_5 V c i = blkOut2_5 V c pt2 (locWhole i) := by unfold G2_5; rfl

set_option maxHeartbeats 2000000 in
theorem flushed2_5_eq (c : Dev nD) (t : Fin cfg2.N) :
    (dat2 V c).flushed 5 t = ((cfg2.win 5).blk t).view.read (Elt F) (G2_5 V c) := by
  have h0 : (dat2 V c).flushed 5 t = (cfg2.win 5).cut (grid2.coords t) ((dat2 V c).after 5 t) := rfl
  have h2 : (dat2 V c).after 5 t = blkOut2_5 V c t := by rw [after2_5]; unfold blkOut2_5; rfl
  rw [h0, cut2_5, h2]
  funext j
  rw [read2_5, G2_5_apply, loc_emb2_5, ← pt2_eq t]

theorem mem_blk2_5 (t : Fin cfg2.N) (i : S8192x16.Idx) :
    i ∈ ((cfg2.win 5).blk t).view.set ↔ ∀ a : Fin 2, win2_5.index t a * S8192x16.size a ≤ (i a).val ∧ (i a).val < win2_5.index t a * S8192x16.size a + S8192x16.size a := by
  show i ∈ ((View.whole main_v18_0).slice (win2_5.rect t)).set ↔ _
  rw [View.set_slice_whole, Rect.mem_set_unit]
  exact Iff.rfl

theorem cover2_5 (i : S8192x16.Idx) : ∃ t : Fin cfg2.N, (cfg2.win 5).flush t = true ∧ i ∈ ((cfg2.win 5).blk t).view.set := by
  refine ⟨pt2, flush2_5 _, ?_⟩
  obtain ⟨e0, e1⟩ := idx2_5 pt2
  rw [mem_blk2_5]
  intro a
  match a with
  | ⟨0, _⟩ => show win2_5.index pt2 (0 : Fin 2) * 8192 ≤ (i 0).val ∧ (i 0).val < win2_5.index pt2 (0 : Fin 2) * 8192 + 8192; have h : (i 0).val < 8192 := (i 0).isLt; omega
  | ⟨1, _⟩ => show win2_5.index pt2 (1 : Fin 2) * 16 ≤ (i 1).val ∧ (i 1).val < win2_5.index pt2 (1 : Fin 2) * 16 + 16; have h : (i 1).val < 16 := (i 1).isLt; omega

/-- Output 0 of the head launch after it. -/
theorem final2_5 (c : Dev nD) : (dat2 V c).arrAt 5 cfg2.N = G2_5 V c :=
  (dat2 V c).arrAt_eq_of_cover 5 (G2_5 V c) (fun t _ => flushed2_5_eq V c t) cover2_5

set_option maxHeartbeats 2000000 in
/-- What the head launch's body leaves in output 1's block (its one grid point). -/
def blkOut2_6 (c : Dev nD) (t : Fin cfg2.N) : Vec F S8192x16 .f32 := out2_6 (iblk2 V c 0 t) (iblk2 V c 1 t) (iblk2 V c 2 t) (iblk2 V c 3 t) (iblk2 V c 4 t)

/-- The head launch's output 1, entry by entry: the one block is the whole array. -/
def G2_6 (c : Dev nD) : S8192x16.Idx → Elt F .f32 := fun i => blkOut2_6 V c pt2 (locWhole i)

theorem idx2_6 : ∀ t : Fin cfg2.N, win2_6.index t (0 : Fin 2) = 0 ∧ win2_6.index t (1 : Fin 2) = 0 :=
  (by decide +kernel : ∀ t : Fin grid2.N, _)

theorem loc_emb2_6 (t : Fin cfg2.N) (j : S8192x16.Idx) : locWhole (((cfg2.win 6).blk t).view.emb j) = j := by
  obtain ⟨e0, e1⟩ := idx2_6 t
  funext a; apply Fin.ext
  match a with
  | ⟨0, _⟩ => show win2_6.index t (0 : Fin 2) * 8192 + 1 * (j 0).val = (j 0).val; omega
  | ⟨1, _⟩ => show win2_6.index t (1 : Fin 2) * 16 + 1 * (j 1).val = (j 1).val; omega

theorem cut2_6 (t : Fin cfg2.N) (X : Vec F S8192x16 .f32) : (cfg2.win 6).cut (grid2.coords t) X = X := funext fun j => rfl
theorem read2_6 (t : Fin cfg2.N) (G : S8192x16.Idx → Elt F .f32) (j : S8192x16.Idx) :
    ((cfg2.win 6).blk t).view.read (Elt F) G j = G (((cfg2.win 6).blk t).view.emb j) := rfl
theorem G2_6_apply (c : Dev nD) (i : S8192x16.Idx) : G2_6 V c i = blkOut2_6 V c pt2 (locWhole i) := by unfold G2_6; rfl

set_option maxHeartbeats 2000000 in
theorem flushed2_6_eq (c : Dev nD) (t : Fin cfg2.N) :
    (dat2 V c).flushed 6 t = ((cfg2.win 6).blk t).view.read (Elt F) (G2_6 V c) := by
  have h0 : (dat2 V c).flushed 6 t = (cfg2.win 6).cut (grid2.coords t) ((dat2 V c).after 6 t) := rfl
  have h2 : (dat2 V c).after 6 t = blkOut2_6 V c t := by rw [after2_6]; unfold blkOut2_6; rfl
  rw [h0, cut2_6, h2]
  funext j
  rw [read2_6, G2_6_apply, loc_emb2_6, ← pt2_eq t]

theorem mem_blk2_6 (t : Fin cfg2.N) (i : S8192x16.Idx) :
    i ∈ ((cfg2.win 6).blk t).view.set ↔ ∀ a : Fin 2, win2_6.index t a * S8192x16.size a ≤ (i a).val ∧ (i a).val < win2_6.index t a * S8192x16.size a + S8192x16.size a := by
  show i ∈ ((View.whole main_v18_1).slice (win2_6.rect t)).set ↔ _
  rw [View.set_slice_whole, Rect.mem_set_unit]
  exact Iff.rfl

theorem cover2_6 (i : S8192x16.Idx) : ∃ t : Fin cfg2.N, (cfg2.win 6).flush t = true ∧ i ∈ ((cfg2.win 6).blk t).view.set := by
  refine ⟨pt2, flush2_6 _, ?_⟩
  obtain ⟨e0, e1⟩ := idx2_6 pt2
  rw [mem_blk2_6]
  intro a
  match a with
  | ⟨0, _⟩ => show win2_6.index pt2 (0 : Fin 2) * 8192 ≤ (i 0).val ∧ (i 0).val < win2_6.index pt2 (0 : Fin 2) * 8192 + 8192; have h : (i 0).val < 8192 := (i 0).isLt; omega
  | ⟨1, _⟩ => show win2_6.index pt2 (1 : Fin 2) * 16 ≤ (i 1).val ∧ (i 1).val < win2_6.index pt2 (1 : Fin 2) * 16 + 16; have h : (i 1).val < 16 := (i 1).isLt; omega

/-- Output 1 of the head launch after it. -/
theorem final2_6 (c : Dev nD) : (dat2 V c).arrAt 6 cfg2.N = G2_6 V c :=
  (dat2 V c).arrAt_eq_of_cover 6 (G2_6 V c) (fun t _ => flushed2_6_eq V c t) cover2_6

end Cert.ReferenceIdeal.Arr

end
-- ==== Proof.RefDag.lean ====
/-
  The reference's launch bodies as graphs of named intermediate values.

  Each launch body stores one value per output, a nested application of the body's pure payloads to the values it loads.
  Here every distinct intermediate value of a body is named once, as a function of the record of its loaded values, in the
  order in which the body computes them: `a0 … a19` for the first encoder layer (`a19` is the stored block), `b0 … b19` for
  the second, `h0` and `g0` for the two outputs of the head launch.
-/
import proofs.«141667_g2000002524955183_pallasbulk_3_44_alg».proof.Proof.Gen.ReferenceIdeal.Skeleton

noncomputable section

namespace Cert.ReferenceIdeal.Dag

open Idealize.ShloMosaic Cert.ReferenceIdeal Cert.ReferenceIdeal.Gen

/-- The values an encoder-layer body loads: `y0` the batch element's activations `[1, 64, 256]`, `y1` the additive mask,
    `y2 y3 y4` the three slot embeddings, `y5 y6` the first projection, `y7 … y12` the attention projections and biases,
    `y13 y14` the output projection, `y15 y16` the first norm, `y17 … y20` the feed-forward layer, `y21 y22` the second norm. -/
structure LoadsL (F : FTy → Type) [FloatOps F] where
  y0 : Vec F S1x64x256 .f32
  y1 : Vec F S64x64 .f32
  y2 : Vec F S64x128 .f32
  y3 : Vec F S64x128 .f32
  y4 : Vec F S64x128 .f32
  y5 : Vec F S256x128 .f32
  y6 : Vec F S1x128 .f32
  y7 : Vec F S256x256 .f32
  y8 : Vec F S1x256 .f32
  y9 : Vec F S256x256 .f32
  y10 : Vec F S1x256 .f32
  y11 : Vec F S256x256 .f32
  y12 : Vec F S1x256 .f32
  y13 : Vec F S256x256 .f32
  y14 : Vec F S1x256 .f32
  y15 : Vec F S1x256 .f32
  y16 : Vec F S1x256 .f32
  y17 : Vec F S256x256 .f32
  y18 : Vec F S1x256 .f32
  y19 : Vec F S256x256 .f32
  y20 : Vec F S1x256 .f32
  y21 : Vec F S1x256 .f32
  y22 : Vec F S1x256 .f32

/-- The values the head body loads: the flattened activations and the two heads' weights and biases. -/
structure LoadsH (F : FTy → Type) [FloatOps F] where
  y0 : Vec F S8192x256 .f32
  y1 : Vec F S256x16 .f32
  y2 : Vec F S1x16 .f32
  y3 : Vec F S256x16 .f32
  y4 : Vec F S1x16 .f32

variable {F : FTy → Type} [FloatOps F]

/-! ## First layer -/
def a0 (Y : LoadsL F) := k0_pay2 Y.y0
def a1 (Y : LoadsL F) := k0_pay3 Y.y1
def a2 (Y : LoadsL F) := k0_pay5 Y.y0 Y.y5 Y.y6 Y.y7 Y.y2 Y.y8
def a3 (Y : LoadsL F) := k0_pay6 Y.y0 Y.y5 Y.y6 Y.y9 Y.y3 Y.y10
def a4 (Y : LoadsL F) := k0_pay4 Y.y0 Y.y5 Y.y6
def a5 (Y : LoadsL F) := k0_pay7 Y.y11
def a6 (Y : LoadsL F) := k0_pay8 (a4 Y) Y.y11 (a5 Y) Y.y4 Y.y12
def a7 (Y : LoadsL F) := k0_pay9 (a1 Y) (a4 Y) (a2 Y) (a3 Y) Y.y11 (a5 Y) Y.y4 Y.y12 Y.y13
def a8 (Y : LoadsL F) := k0_pay10 (a4 Y) Y.y11 (a5 Y) Y.y4 Y.y12
def a9 (Y : LoadsL F) := k0_pay11 (a1 Y) (a2 Y) (a3 Y)
def a10 (Y : LoadsL F) := k0_pay12 (a1 Y) (a2 Y) (a3 Y) (a6 Y) Y.y13 (a7 Y) (a8 Y) (a9 Y)
def a11 (Y : LoadsL F) := k0_pay13 (a1 Y) (a2 Y) (a3 Y) (a6 Y)
def a12 (Y : LoadsL F) := k0_pay14 Y.y13
def a13 (Y : LoadsL F) := k0_pay15 (a1 Y) (a2 Y) (a3 Y) (a6 Y) Y.y13 (a10 Y) (a11 Y) (a12 Y)
def a14 (Y : LoadsL F) := k0_pay16 (a2 Y)
def a15 (Y : LoadsL F) := k0_pay17 (a3 Y)
def a16 (Y : LoadsL F) := k0_pay18 (a0 Y) (a1 Y) (a2 Y) (a3 Y) (a6 Y) Y.y13 (a13 Y) (a14 Y) (a15 Y) Y.y14
def a17 (Y : LoadsL F) := k0_pay19 (a16 Y) Y.y15 Y.y16
def a18 (Y : LoadsL F) := k0_pay20 (a16 Y) Y.y15 Y.y16 Y.y17 Y.y18 Y.y19
def a19 (Y : LoadsL F) := k0_pay1 (a17 Y) (a18 Y) Y.y20 Y.y21 Y.y22

/-! ## Second layer -/
def b0 (Y : LoadsL F) := k1_pay2 Y.y0
def b1 (Y : LoadsL F) := k1_pay3 Y.y1
def b2 (Y : LoadsL F) := k1_pay5 Y.y0 Y.y5 Y.y6 Y.y7 Y.y2 Y.y8
def b3 (Y : LoadsL F) := k1_pay6 Y.y0 Y.y5 Y.y6 Y.y9 Y.y3 Y.y10
def b4 (Y : LoadsL F) := k1_pay4 Y.y0 Y.y5 Y.y6
def b5 (Y : LoadsL F) := k1_pay7 Y.y11
def b6 (Y : LoadsL F) := k1_pay8 (b4 Y) Y.y11 (b5 Y) Y.y4 Y.y12
def b7 (Y : LoadsL F) := k1_pay9 (b1 Y) (b4 Y) (b2 Y) (b3 Y) Y.y11 (b5 Y) Y.y4 Y.y12 Y.y13
def b8 (Y : LoadsL F) := k1_pay10 (b4 Y) Y.y11 (b5 Y) Y.y4 Y.y12
def b9 (Y : LoadsL F) := k1_pay11 (b1 Y) (b2 Y) (b3 Y)
def b10 (Y : LoadsL F) := k1_pay12 (b1 Y) (b2 Y) (b3 Y) (b6 Y) Y.y13 (b7 Y) (b8 Y) (b9 Y)
def b11 (Y : LoadsL F) := k1_pay13 (b1 Y) (b2 Y) (b3 Y) (b6 Y)
def b12 (Y : LoadsL F) := k1_pay14 Y.y13
def b13 (Y : LoadsL F) := k1_pay15 (b1 Y) (b2 Y) (b3 Y) (b6 Y) Y.y13 (b10 Y) (b11 Y) (b12 Y)
def b14 (Y : LoadsL F) := k1_pay16 (b2 Y)
def b15 (Y : LoadsL F) := k1_pay17 (b3 Y)
def b16 (Y : LoadsL F) := k1_pay18 (b0 Y) (b1 Y) (b2 Y) (b3 Y) (b6 Y) Y.y13 (b13 Y) (b14 Y) (b15 Y) Y.y14
def b17 (Y : LoadsL F) := k1_pay19 (b16 Y) Y.y15 Y.y16
def b18 (Y : LoadsL F) := k1_pay20 (b16 Y) Y.y15 Y.y16 Y.y17 Y.y18 Y.y19
def b19 (Y : LoadsL F) := k1_pay1 (b17 Y) (b18 Y) Y.y20 Y.y21 Y.y22

/-! ## Heads -/
def h0 (Y : LoadsH F) := k2_pay2 Y.y0 Y.y1 Y.y2
def g0 (Y : LoadsH F) := k2_pay3 Y.y0 Y.y3 Y.y4

end Cert.ReferenceIdeal.Dag

end
-- ==== Proof.RefLoads.lean ====
/-
  The reference's launch bodies: their loads are the arrays at the launch's entry, their stored values the graphs' last
  nodes.

  A layer launch stages batch element `t` of the activations at grid point `t` and every other operand whole, and its body
  loads each staged block whole; the head launch stages and loads everything whole. So the record of a body's loads at a
  point is read off the arrays as the launch finds them (for ANY entry contents `V`), and the output block is the last
  node of the body's graph of named values at that record.
-/
import proofs.«141667_g2000002524955183_pallasbulk_3_44_alg».proof.Proof.RefArrays
import proofs.«141667_g2000002524955183_pallasbulk_3_44_alg».proof.Proof.RefDag

set_option maxRecDepth 16384

noncomputable section

namespace Cert.ReferenceIdeal.Lds

open Idealize.ShloMosaic Idealize.ShloMosaic.TcCoe Idealize.SL.Sem Idealize.ShloMosaic.ValueIdx
open Idealize.ShloMosaic.Pipeline (Dat Cfg Window)
open Cert.ReferenceIdeal Cert.ReferenceIdeal.Gen Cert.ReferenceIdeal.Arr

variable {F : FTy → Type} [FloatOps F]
variable (V : (c : Dev nD) → (b : Ref sig .tc) → Buf (Elt F) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-! ## Launch 0 -/

/-- The record of the layer body's loads from its 23 staged input blocks. -/
def loadsOf0 (x0 : Vec F S1x64x256 .f32) (x1 : Vec F S64x64 .f32) (x2 : Vec F S64x128 .f32) (x3 : Vec F S64x128 .f32) (x4 : Vec F S64x128 .f32) (x5 : Vec F S256x128 .f32) (x6 : Vec F S1x128 .f32) (x7 : Vec F S256x256 .f32) (x8 : Vec F S1x256 .f32) (x9 : Vec F S256x256 .f32) (x10 : Vec F S1x256 .f32) (x11 : Vec F S256x256 .f32) (x12 : Vec F S1x256 .f32) (x13 : Vec F S256x256 .f32) (x14 : Vec F S1x256 .f32) (x15 : Vec F S1x256 .f32) (x16 : Vec F S1x256 .f32) (x17 : Vec F S256x256 .f32) (x18 : Vec F S1x256 .f32) (x19 : Vec F S256x256 .f32) (x20 : Vec F S1x256 .f32) (x21 : Vec F S1x256 .f32) (x22 : Vec F S1x256 .f32) : Dag.LoadsL F :=
  ⟨View.ld x0 r0_0, View.ld x1 r0_1, View.ld x2 r0_5, View.ld x3 r0_5, View.ld x4 r0_5, View.ld x5 r0_2, View.ld x6 r0_3, View.ld x7 r0_4, View.ld x8 r0_6, View.ld x9 r0_4, View.ld x10 r0_6, View.ld x11 r0_4, View.ld x12 r0_6, View.ld x13 r0_4, View.ld x14 r0_6, View.ld x15 r0_6, View.ld x16 r0_6, View.ld x17 r0_4, View.ld x18 r0_6, View.ld x19 r0_4, View.ld x20 r0_6, View.ld x21 r0_6, View.ld x22 r0_6⟩

set_option maxHeartbeats 8000000 in
/-- The output block is the one store of the graph's last node. -/
theorem out0_eq (x0 : Vec F S1x64x256 .f32) (x1 : Vec F S64x64 .f32) (x2 : Vec F S64x128 .f32) (x3 : Vec F S64x128 .f32) (x4 : Vec F S64x128 .f32) (x5 : Vec F S256x128 .f32) (x6 : Vec F S1x128 .f32) (x7 : Vec F S256x256 .f32) (x8 : Vec F S1x256 .f32) (x9 : Vec F S256x256 .f32) (x10 : Vec F S1x256 .f32) (x11 : Vec F S256x256 .f32) (x12 : Vec F S1x256 .f32) (x13 : Vec F S256x256 .f32) (x14 : Vec F S1x256 .f32) (x15 : Vec F S1x256 .f32) (x16 : Vec F S1x256 .f32) (x17 : Vec F S256x256 .f32) (x18 : Vec F S1x256 .f32) (x19 : Vec F S256x256 .f32) (x20 : Vec F S1x256 .f32) (x21 : Vec F S1x256 .f32) (x22 : Vec F S1x256 .f32) :
    out0_23 x0 x1 x2 x3 x4 x5 x6 x7 x8 x9 x10 x11 x12 x13 x14 x15 x16 x17 x18 x19 x20 x21 x22 = View.canon [⟨r0_0, Dag.a19 (loadsOf0 x0 x1 x2 x3 x4 x5 x6 x7 x8 x9 x10 x11 x12 x13 x14 x15 x16 x17 x18 x19 x20 x21 x22)⟩] := rfl

set_option maxHeartbeats 8000000 in
/-- The record of the body's loads at grid point `t`. -/
def memLoads0 (c : Dev nD) (t : Fin cfg0.N) : Dag.LoadsL F := loadsOf0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t)

set_option maxHeartbeats 8000000 in
/-- The output block at `t` is the graph's last node at the loads of `t`. -/
theorem blkOut0_eq (c : Dev nD) (t : Fin cfg0.N) : blkOut0 V c t = Dag.a19 (memLoads0 V c t) := by
  unfold blkOut0 memLoads0
  rw [out0_eq]
  exact View.canon_unit_zero hz3 _ _

theorem idxIn0 : ∀ t : Fin cfg0.N, win0_0.index t (0 : Fin 3) = t.val ∧ win0_0.index t (1 : Fin 3) = 0 ∧ win0_0.index t (2 : Fin 3) = 0 :=
  (by decide +kernel : ∀ t : Fin grid0.N, _)

/-- Load 0 is batch element `t` of the activations. -/
theorem y0_at0 (c : Dev nD) (t : Fin cfg0.N) (u : Fin 1) (s : Fin 64) (e : Fin 256) :
    (memLoads0 V c t).y0 (ix3 u s e) = V c main_v6 (ix3 (⟨t.val, by have h : t.val < 128 := t.isLt; exact h⟩ : Fin 128) s e) := by
  obtain ⟨e0, e1, e2⟩ := idxIn0 t
  show V c main_v6 (((cfg0.win 0).blk t).view.emb (r0_0.emb (ix3 u s e))) = _
  congr 1
  funext a; apply Fin.ext
  match a with
  | ⟨0, _⟩ => show win0_0.index t (0 : Fin 3) * 1 + 1 * (0 + 1 * u.val) = t.val; have := u.isLt; omega
  | ⟨1, _⟩ => show win0_0.index t (1 : Fin 3) * 64 + 1 * (0 + 1 * s.val) = s.val; omega
  | ⟨2, _⟩ => show win0_0.index t (2 : Fin 3) * 256 + 1 * (0 + 1 * e.val) = e.val; omega

theorem idx0_1 : ∀ t : Fin cfg0.N, win0_1.index t (0 : Fin 2) = 0 ∧ win0_1.index t (1 : Fin 2) = 0 := (by decide +kernel : ∀ t : Fin grid0.N, _)
/-- Load 1 is its array whole. -/
theorem y1_eq0 (c : Dev nD) (t : Fin cfg0.N) : (memLoads0 V c t).y1 = V c main_v14 := by
  obtain ⟨e0, e1⟩ := idx0_1 t
  funext i
  show V c main_v14 (((cfg0.win 1).blk t).view.emb (r0_1.emb i)) = V c main_v14 i
  congr 1
  funext a; apply Fin.ext
  match a with
  | ⟨0, _⟩ => show win0_1.index t (0 : Fin 2) * 64 + 1 * (0 + 1 * (i 0).val) = (i 0).val; omega
  | ⟨1, _⟩ => show win0_1.index t (1 : Fin 2) * 64 + 1 * (0 + 1 * (i 1).val) = (i 1).val; omega

theorem idx0_2 : ∀ t : Fin cfg0.N, win0_2.index t (0 : Fin 2) = 0 ∧ win0_2.index t (1 : Fin 2) = 0 := (by decide +kernel : ∀ t : Fin grid0.N, _)
/-- Load 2 is its array whole. -/
theorem y2_eq0 (c : Dev nD) (t : Fin cfg0.N) : (memLoads0 V c t).y2 = V c main_arg7 := by
  obtain ⟨e0, e1⟩ := idx0_2 t
  funext i
  show V c main_arg7 (((cfg0.win 2).blk t).view.emb (r0_5.emb i)) = V c main_arg7 i
  congr 1
  funext a; apply Fin.ext
  match a with
  | ⟨0, _⟩ => show win0_2.index t (0 : Fin 2) * 64 + 1 * (0 + 1 * (i 0).val) = (i 0).val; omega
  | ⟨1, _⟩ => show win0_2.index t (1 : Fin 2) * 128 + 1 * (0 + 1 * (i 1).val) = (i 1).val; omega

theorem idx0_3 : ∀ t : Fin cfg0.N, win0_3.index t (0 : Fin 2) = 0 ∧ win0_3.index t (1 : Fin 2) = 0 := (by decide +kernel : ∀ t : Fin grid0.N, _)
/-- Load 3 is its array whole. -/
theorem y3_eq0 (c : Dev nD) (t : Fin cfg0.N) : (memLoads0 V c t).y3 = V c main_arg8 := by
  obtain ⟨e0, e1⟩ := idx0_3 t
  funext i
  show V c main_arg8 (((cfg0.win 3).blk t).view.emb (r0_5.emb i)) = V c main_arg8 i
  congr 1
  funext a; apply Fin.ext
  match a with
  | ⟨0, _⟩ => show win0_3.index t (0 : Fin 2) * 64 + 1 * (0 + 1 * (i 0).val) = (i 0).val; omega
  | ⟨1, _⟩ => show win0_3.index t (1 : Fin 2) * 128 + 1 * (0 + 1 * (i 1).val) = (i 1).val; omega

theorem idx0_4 : ∀ t : Fin cfg0.N, win0_4.index t (0 : Fin 2) = 0 ∧ win0_4.index t (1 : Fin 2) = 0 := (by decide +kernel : ∀ t : Fin grid0.N, _)
/-- Load 4 is its array whole. -/
theorem y4_eq0 (c : Dev nD) (t : Fin cfg0.N) : (memLoads0 V c t).y4 = V c main_arg9 := by
  obtain ⟨e0, e1⟩ := idx0_4 t
  funext i
  show V c main_arg9 (((cfg0.win 4).blk t).view.emb (r0_5.emb i)) = V c main_arg9 i
  congr 1
  funext a; apply Fin.ext
  match a with
  | ⟨0, _⟩ => show win0_4.index t (0 : Fin 2) * 64 + 1 * (0 + 1 * (i 0).val) = (i 0).val; omega
  | ⟨1, _⟩ => show win0_4.index t (1 : Fin 2) * 128 + 1 * (0 + 1 * (i 1).val) = (i 1).val; omega

theorem idx0_5 : ∀ t : Fin cfg0.N, win0_5.index t (0 : Fin 2) = 0 ∧ win0_5.index t (1 : Fin 2) = 0 := (by decide +kernel : ∀ t : Fin grid0.N, _)
/-- Load 5 is its array whole. -/
theorem y5_eq0 (c : Dev nD) (t : Fin cfg0.N) : (memLoads0 V c t).y5 = V c main_arg10 := by
  obtain ⟨e0, e1⟩ := idx0_5 t
  funext i
  show V c main_arg10 (((cfg0.win 5).blk t).view.emb (r0_2.emb i)) = V c main_arg10 i
  congr 1
  funext a; apply Fin.ext
  match a with
  | ⟨0, _⟩ => show win0_5.index t (0 : Fin 2) * 256 + 1 * (0 + 1 * (i 0).val) = (i 0).val; omega
  | ⟨1, _⟩ => show win0_5.index t (1 : Fin 2) * 128 + 1 * (0 + 1 * (i 1).val) = (i 1).val; omega

theorem idx0_6 : ∀ t : Fin cfg0.N, win0_6.index t (0 : Fin 2) = 0 ∧ win0_6.index t (1 : Fin 2) = 0 := (by decide +kernel : ∀ t : Fin grid0.N, _)
/-- Load 6 is its array whole. -/
theorem y6_eq0 (c : Dev nD) (t : Fin cfg0.N) : (memLoads0 V c t).y6 = V c main_arg11 := by
  obtain ⟨e0, e1⟩ := idx0_6 t
  funext i
  show V c main_arg11 (((cfg0.win 6).blk t).view.emb (r0_3.emb i)) = V c main_arg11 i
  congr 1
  funext a; apply Fin.ext
  match a with
  | ⟨0, _⟩ => show win0_6.index t (0 : Fin 2) * 1 + 1 * (0 + 1 * (i 0).val) = (i 0).val; omega
  | ⟨1, _⟩ => show win0_6.index t (1 : Fin 2) * 128 + 1 * (0 + 1 * (i 1).val) = (i 1).val; omega

theorem idx0_7 : ∀ t : Fin cfg0.N, win0_7.index t (0 : Fin 2) = 0 ∧ win0_7.index t (1 : Fin 2) = 0 := (by decide +kernel : ∀ t : Fin grid0.N, _)
/-- Load 7 is its array whole. -/
theorem y7_eq0 (c : Dev nD) (t : Fin cfg0.N) : (memLoads0 V c t).y7 = V c main_arg12 := by
  obtain ⟨e0, e1⟩ := idx0_7 t
  funext i
  show V c main_arg12 (((cfg0.win 7).blk t).view.emb (r0_4.emb i)) = V c main_arg12 i
  congr 1
  funext a; apply Fin.ext
  match a with
  | ⟨0, _⟩ => show win0_7.index t (0 : Fin 2) * 256 + 1 * (0 + 1 * (i 0).val) = (i 0).val; omega
  | ⟨1, _⟩ => show win0_7.index t (1 : Fin 2) * 256 + 1 * (0 + 1 * (i 1).val) = (i 1).val; omega

theorem idx0_8 : ∀ t : Fin cfg0.N, win0_8.index t (0 : Fin 2) = 0 ∧ win0_8.index t (1 : Fin 2) = 0 := (by decide +kernel : ∀ t : Fin grid0.N, _)
/-- Load 8 is its array whole. -/
theorem y8_eq0 (c : Dev nD) (t : Fin cfg0.N) : (memLoads0 V c t).y8 = V c main_arg13 := by
  obtain ⟨e0, e1⟩ := idx0_8 t
  funext i
  show V c main_arg13 (((cfg0.win 8).blk t).view.emb (r0_6.emb i)) = V c main_arg13 i
  congr 1
  funext a; apply Fin.ext
  match a with
  | ⟨0, _⟩ => show win0_8.index t (0 : Fin 2) * 1 + 1 * (0 + 1 * (i 0).val) = (i 0).val; omega
  | ⟨1, _⟩ => show win0_8.index t (1 : Fin 2) * 256 + 1 * (0 + 1 * (i 1).val) = (i 1).val; omega

theorem idx0_9 : ∀ t : Fin cfg0.N, win0_9.index t (0 : Fin 2) = 0 ∧ win0_9.index t (1 : Fin 2) = 0 := (by decide +kernel : ∀ t : Fin grid0.N, _)
/-- Load 9 is its array whole. -/
theorem y9_eq0 (c : Dev nD) (t : Fin cfg0.N) : (memLoads0 V c t).y9 = V c main_arg14 := by
  obtain ⟨e0, e1⟩ := idx0_9 t
  funext i
  show V c main_arg14 (((cfg0.win 9).blk t).view.emb (r0_4.emb i)) = V c main_arg14 i
  congr 1
  funext a; apply Fin.ext
  match a with
  | ⟨0, _⟩ => show win0_9.index t (0 : Fin 2) * 256 + 1 * (0 + 1 * (i 0).val) = (i 0).val; omega
  | ⟨1, _⟩ => show win0_9.index t (1 : Fin 2) * 256 + 1 * (0 + 1 * (i 1).val) = (i 1).val; omega

theorem idx0_10 : ∀ t : Fin cfg0.N, win0_10.index t (0 : Fin 2) = 0 ∧ win0_10.index t (1 : Fin 2) = 0 := (by decide +kernel : ∀ t : Fin grid0.N, _)
/-- Load 10 is its array whole. -/
theorem y10_eq0 (c : Dev nD) (t : Fin cfg0.N) : (memLoads0 V c t).y10 = V c main_arg15 := by
  obtain ⟨e0, e1⟩ := idx0_10 t
  funext i
  show V c main_arg15 (((cfg0.win 10).blk t).view.emb (r0_6.emb i)) = V c main_arg15 i
  congr 1
  funext a; apply Fin.ext
  match a with
  | ⟨0, _⟩ => show win0_10.index t (0 : Fin 2) * 1 + 1 * (0 + 1 * (i 0).val) = (i 0).val; omega
  | ⟨1, _⟩ => show win0_10.index t (1 : Fin 2) * 256 + 1 * (0 + 1 * (i 1).val) = (i 1).val; omega

theorem idx0_11 : ∀ t : Fin cfg0.N, win0_11.index t (0 : Fin 2) = 0 ∧ win0_11.index t (1 : Fin 2) = 0 := (by decide +kernel : ∀ t : Fin grid0.N, _)
/-- Load 11 is its array whole. -/
theorem y11_eq0 (c : Dev nD) (t : Fin cfg0.N) : (memLoads0 V c t).y11 = V c main_arg16 := by
  obtain ⟨e0, e1⟩ := idx0_11 t
  funext i
  show V c main_arg16 (((cfg0.win 11).blk t).view.emb (r0_4.emb i)) = V c main_arg16 i
  congr 1
  funext a; apply Fin.ext
  match a with
  | ⟨0, _⟩ => show win0_11.index t (0 : Fin 2) * 256 + 1 * (0 + 1 * (i 0).val) = (i 0).val; omega
  | ⟨1, _⟩ => show win0_11.index t (1 : Fin 2) * 256 + 1 * (0 + 1 * (i 1).val) = (i 1).val; omega

theorem idx0_12 : ∀ t : Fin cfg0.N, win0_12.index t (0 : Fin 2) = 0 ∧ win0_12.index t (1 : Fin 2) = 0 := (by decide +kernel : ∀ t : Fin grid0.N, _)
/-- Load 12 is its array whole. -/
theorem y12_eq0 (c : Dev nD) (t : Fin cfg0.N) : (memLoads0 V c t).y12 = V c main_arg17 := by
  obtain ⟨e0, e1⟩ := idx0_12 t
  funext i
  show V c main_arg17 (((cfg0.win 12).blk t).view.emb (r0_6.emb i)) = V c main_arg17 i
  congr 1
  funext a; apply Fin.ext
  match a with
  | ⟨0, _⟩ => show win0_12.index t (0 : Fin 2) * 1 + 1 * (0 + 1 * (i 0).val) = (i 0).val; omega
  | ⟨1, _⟩ => show win0_12.index t (1 : Fin 2) * 256 + 1 * (0 + 1 * (i 1).val) = (i 1).val; omega

theorem idx0_13 : ∀ t : Fin cfg0.N, win0_13.index t (0 : Fin 2) = 0 ∧ win0_13.index t (1 : Fin 2) = 0 := (by decide +kernel : ∀ t : Fin grid0.N, _)
/-- Load 13 is its array whole. -/
theorem y13_eq0 (c : Dev nD) (t : Fin cfg0.N) : (memLoads0 V c t).y13 = V c main_arg18 := by
  obtain ⟨e0, e1⟩ := idx0_13 t
  funext i
  show V c main_arg18 (((cfg0.win 13).blk t).view.emb (r0_4.emb i)) = V c main_arg18 i
  congr 1
  funext a; apply Fin.ext
  match a with
  | ⟨0, _⟩ => show win0_13.index t (0 : Fin 2) * 256 + 1 * (0 + 1 * (i 0).val) = (i 0).val; omega
  | ⟨1, _⟩ => show win0_13.index t (1 : Fin 2) * 256 + 1 * (0 + 1 * (i 1).val) = (i 1).val; omega

theorem idx0_14 : ∀ t : Fin cfg0.N, win0_14.index t (0 : Fin 2) = 0 ∧ win0_14.index t (1 : Fin 2) = 0 := (by decide +kernel : ∀ t : Fin grid0.N, _)
/-- Load 14 is its array whole. -/
theorem y14_eq0 (c : Dev nD) (t : Fin cfg0.N) : (memLoads0 V c t).y14 = V c main_arg19 := by
  obtain ⟨e0, e1⟩ := idx0_14 t
  funext i
  show V c main_arg19 (((cfg0.win 14).blk t).view.emb (r0_6.emb i)) = V c main_arg19 i
  congr 1
  funext a; apply Fin.ext
  match a with
  | ⟨0, _⟩ => show win0_14.index t (0 : Fin 2) * 1 + 1 * (0 + 1 * (i 0).val) = (i 0).val; omega
  | ⟨1, _⟩ => show win0_14.index t (1 : Fin 2) * 256 + 1 * (0 + 1 * (i 1).val) = (i 1).val; omega

theorem idx0_15 : ∀ t : Fin cfg0.N, win0_15.index t (0 : Fin 2) = 0 ∧ win0_15.index t (1 : Fin 2) = 0 := (by decide +kernel : ∀ t : Fin grid0.N, _)
/-- Load 15 is its array whole. -/
theorem y15_eq0 (c : Dev nD) (t : Fin cfg0.N) : (memLoads0 V c t).y15 = V c main_arg20 := by
  obtain ⟨e0, e1⟩ := idx0_15 t
  funext i
  show V c main_arg20 (((cfg0.win 15).blk t).view.emb (r0_6.emb i)) = V c main_arg20 i
  congr 1
  funext a; apply Fin.ext
  match a with
  | ⟨0, _⟩ => show win0_15.index t (0 : Fin 2) * 1 + 1 * (0 + 1 * (i 0).val) = (i 0).val; omega
  | ⟨1, _⟩ => show win0_15.index t (1 : Fin 2) * 256 + 1 * (0 + 1 * (i 1).val) = (i 1).val; omega

theorem idx0_16 : ∀ t : Fin cfg0.N, win0_16.index t (0 : Fin 2) = 0 ∧ win0_16.index t (1 : Fin 2) = 0 := (by decide +kernel : ∀ t : Fin grid0.N, _)
/-- Load 16 is its array whole. -/
theorem y16_eq0 (c : Dev nD) (t : Fin cfg0.N) : (memLoads0 V c t).y16 = V c main_arg21 := by
  obtain ⟨e0, e1⟩ := idx0_16 t
  funext i
  show V c main_arg21 (((cfg0.win 16).blk t).view.emb (r0_6.emb i)) = V c main_arg21 i
  congr 1
  funext a; apply Fin.ext
  match a with
  | ⟨0, _⟩ => show win0_16.index t (0 : Fin 2) * 1 + 1 * (0 + 1 * (i 0).val) = (i 0).val; omega
  | ⟨1, _⟩ => show win0_16.index t (1 : Fin 2) * 256 + 1 * (0 + 1 * (i 1).val) = (i 1).val; omega

theorem idx0_17 : ∀ t : Fin cfg0.N, win0_17.index t (0 : Fin 2) = 0 ∧ win0_17.index t (1 : Fin 2) = 0 := (by decide +kernel : ∀ t : Fin grid0.N, _)
/-- Load 17 is its array whole. -/
theorem y17_eq0 (c : Dev nD) (t : Fin cfg0.N) : (memLoads0 V c t).y17 = V c main_arg22 := by
  obtain ⟨e0, e1⟩ := idx0_17 t
  funext i
  show V c main_arg22 (((cfg0.win 17).blk t).view.emb (r0_4.emb i)) = V c main_arg22 i
  congr 1
  funext a; apply Fin.ext
  match a with
  | ⟨0, _⟩ => show win0_17.index t (0 : Fin 2) * 256 + 1 * (0 + 1 * (i 0).val) = (i 0).val; omega
  | ⟨1, _⟩ => show win0_17.index t (1 : Fin 2) * 256 + 1 * (0 + 1 * (i 1).val) = (i 1).val; omega

theorem idx0_18 : ∀ t : Fin cfg0.N, win0_18.index t (0 : Fin 2) = 0 ∧ win0_18.index t (1 : Fin 2) = 0 := (by decide +kernel : ∀ t : Fin grid0.N, _)
/-- Load 18 is its array whole. -/
theorem y18_eq0 (c : Dev nD) (t : Fin cfg0.N) : (memLoads0 V c t).y18 = V c main_arg23 := by
  obtain ⟨e0, e1⟩ := idx0_18 t
  funext i
  show V c main_arg23 (((cfg0.win 18).blk t).view.emb (r0_6.emb i)) = V c main_arg23 i
  congr 1
  funext a; apply Fin.ext
  match a with
  | ⟨0, _⟩ => show win0_18.index t (0 : Fin 2) * 1 + 1 * (0 + 1 * (i 0).val) = (i 0).val; omega
  | ⟨1, _⟩ => show win0_18.index t (1 : Fin 2) * 256 + 1 * (0 + 1 * (i 1).val) = (i 1).val; omega

theorem idx0_19 : ∀ t : Fin cfg0.N, win0_19.index t (0 : Fin 2) = 0 ∧ win0_19.index t (1 : Fin 2) = 0 := (by decide +kernel : ∀ t : Fin grid0.N, _)
/-- Load 19 is its array whole. -/
theorem y19_eq0 (c : Dev nD) (t : Fin cfg0.N) : (memLoads0 V c t).y19 = V c main_arg24 := by
  obtain ⟨e0, e1⟩ := idx0_19 t
  funext i
  show V c main_arg24 (((cfg0.win 19).blk t).view.emb (r0_4.emb i)) = V c main_arg24 i
  congr 1
  funext a; apply Fin.ext
  match a with
  | ⟨0, _⟩ => show win0_19.index t (0 : Fin 2) * 256 + 1 * (0 + 1 * (i 0).val) = (i 0).val; omega
  | ⟨1, _⟩ => show win0_19.index t (1 : Fin 2) * 256 + 1 * (0 + 1 * (i 1).val) = (i 1).val; omega

theorem idx0_20 : ∀ t : Fin cfg0.N, win0_20.index t (0 : Fin 2) = 0 ∧ win0_20.index t (1 : Fin 2) = 0 := (by decide +kernel : ∀ t : Fin grid0.N, _)
/-- Load 20 is its array whole. -/
theorem y20_eq0 (c : Dev nD) (t : Fin cfg0.N) : (memLoads0 V c t).y20 = V c main_arg25 := by
  obtain ⟨e0, e1⟩ := idx0_20 t
  funext i
  show V c main_arg25 (((cfg0.win 20).blk t).view.emb (r0_6.emb i)) = V c main_arg25 i
  congr 1
  funext a; apply Fin.ext
  match a with
  | ⟨0, _⟩ => show win0_20.index t (0 : Fin 2) * 1 + 1 * (0 + 1 * (i 0).val) = (i 0).val; omega
  | ⟨1, _⟩ => show win0_20.index t (1 : Fin 2) * 256 + 1 * (0 + 1 * (i 1).val) = (i 1).val; omega

theorem idx0_21 : ∀ t : Fin cfg0.N, win0_21.index t (0 : Fin 2) = 0 ∧ win0_21.index t (1 : Fin 2) = 0 := (by decide +kernel : ∀ t : Fin grid0.N, _)
/-- Load 21 is its array whole. -/
theorem y21_eq0 (c : Dev nD) (t : Fin cfg0.N) : (memLoads0 V c t).y21 = V c main_arg26 := by
  obtain ⟨e0, e1⟩ := idx0_21 t
  funext i
  show V c main_arg26 (((cfg0.win 21).blk t).view.emb (r0_6.emb i)) = V c main_arg26 i
  congr 1
  funext a; apply Fin.ext
  match a with
  | ⟨0, _⟩ => show win0_21.index t (0 : Fin 2) * 1 + 1 * (0 + 1 * (i 0).val) = (i 0).val; omega
  | ⟨1, _⟩ => show win0_21.index t (1 : Fin 2) * 256 + 1 * (0 + 1 * (i 1).val) = (i 1).val; omega

theorem idx0_22 : ∀ t : Fin cfg0.N, win0_22.index t (0 : Fin 2) = 0 ∧ win0_22.index t (1 : Fin 2) = 0 := (by decide +kernel : ∀ t : Fin grid0.N, _)
/-- Load 22 is its array whole. -/
theorem y22_eq0 (c : Dev nD) (t : Fin cfg0.N) : (memLoads0 V c t).y22 = V c main_arg27 := by
  obtain ⟨e0, e1⟩ := idx0_22 t
  funext i
  show V c main_arg27 (((cfg0.win 22).blk t).view.emb (r0_6.emb i)) = V c main_arg27 i
  congr 1
  funext a; apply Fin.ext
  match a with
  | ⟨0, _⟩ => show win0_22.index t (0 : Fin 2) * 1 + 1 * (0 + 1 * (i 0).val) = (i 0).val; omega
  | ⟨1, _⟩ => show win0_22.index t (1 : Fin 2) * 256 + 1 * (0 + 1 * (i 1).val) = (i 1).val; omega

/-! ## Launch 1 -/

/-- The record of the layer body's loads from its 23 staged input blocks. -/
def loadsOf1 (x0 : Vec F S1x64x256 .f32) (x1 : Vec F S64x64 .f32) (x2 : Vec F S64x128 .f32) (x3 : Vec F S64x128 .f32) (x4 : Vec F S64x128 .f32) (x5 : Vec F S256x128 .f32) (x6 : Vec F S1x128 .f32) (x7 : Vec F S256x256 .f32) (x8 : Vec F S1x256 .f32) (x9 : Vec F S256x256 .f32) (x10 : Vec F S1x256 .f32) (x11 : Vec F S256x256 .f32) (x12 : Vec F S1x256 .f32) (x13 : Vec F S256x256 .f32) (x14 : Vec F S1x256 .f32) (x15 : Vec F S1x256 .f32) (x16 : Vec F S1x256 .f32) (x17 : Vec F S256x256 .f32) (x18 : Vec F S1x256 .f32) (x19 : Vec F S256x256 .f32) (x20 : Vec F S1x256 .f32) (x21 : Vec F S1x256 .f32) (x22 : Vec F S1x256 .f32) : Dag.LoadsL F :=
  ⟨View.ld x0 r1_0, View.ld x1 r1_1, View.ld x2 r1_5, View.ld x3 r1_5, View.ld x4 r1_5, View.ld x5 r1_2, View.ld x6 r1_3, View.ld x7 r1_4, View.ld x8 r1_6, View.ld x9 r1_4, View.ld x10 r1_6, View.ld x11 r1_4, View.ld x12 r1_6, View.ld x13 r1_4, View.ld x14 r1_6, View.ld x15 r1_6, View.ld x16 r1_6, View.ld x17 r1_4, View.ld x18 r1_6, View.ld x19 r1_4, View.ld x20 r1_6, View.ld x21 r1_6, View.ld x22 r1_6⟩

set_option maxHeartbeats 8000000 in
/-- The output block is the one store of the graph's last node. -/
theorem out1_eq (x0 : Vec F S1x64x256 .f32) (x1 : Vec F S64x64 .f32) (x2 : Vec F S64x128 .f32) (x3 : Vec F S64x128 .f32) (x4 : Vec F S64x128 .f32) (x5 : Vec F S256x128 .f32) (x6 : Vec F S1x128 .f32) (x7 : Vec F S256x256 .f32) (x8 : Vec F S1x256 .f32) (x9 : Vec F S256x256 .f32) (x10 : Vec F S1x256 .f32) (x11 : Vec F S256x256 .f32) (x12 : Vec F S1x256 .f32) (x13 : Vec F S256x256 .f32) (x14 : Vec F S1x256 .f32) (x15 : Vec F S1x256 .f32) (x16 : Vec F S1x256 .f32) (x17 : Vec F S256x256 .f32) (x18 : Vec F S1x256 .f32) (x19 : Vec F S256x256 .f32) (x20 : Vec F S1x256 .f32) (x21 : Vec F S1x256 .f32) (x22 : Vec F S1x256 .f32) :
    out1_23 x0 x1 x2 x3 x4 x5 x6 x7 x8 x9 x10 x11 x12 x13 x14 x15 x16 x17 x18 x19 x20 x21 x22 = View.canon [⟨r1_0, Dag.b19 (loadsOf1 x0 x1 x2 x3 x4 x5 x6 x7 x8 x9 x10 x11 x12 x13 x14 x15 x16 x17 x18 x19 x20 x21 x22)⟩] := rfl

set_option maxHeartbeats 8000000 in
/-- The record of the body's loads at grid point `t`. -/
def memLoads1 (c : Dev nD) (t : Fin cfg1.N) : Dag.LoadsL F := loadsOf1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t)

set_option maxHeartbeats 8000000 in
/-- The output block at `t` is the graph's last node at the loads of `t`. -/
theorem blkOut1_eq (c : Dev nD) (t : Fin cfg1.N) : blkOut1 V c t = Dag.b19 (memLoads1 V c t) := by
  unfold blkOut1 memLoads1
  rw [out1_eq]
  exact View.canon_unit_zero hz3 _ _

theorem idxIn1 : ∀ t : Fin cfg1.N, win1_0.index t (0 : Fin 3) = t.val ∧ win1_0.index t (1 : Fin 3) = 0 ∧ win1_0.index t (2 : Fin 3) = 0 :=
  (by decide +kernel : ∀ t : Fin grid1.N, _)

/-- Load 0 is batch element `t` of the activations. -/
theorem y0_at1 (c : Dev nD) (t : Fin cfg1.N) (u : Fin 1) (s : Fin 64) (e : Fin 256) :
    (memLoads1 V c t).y0 (ix3 u s e) = V c main_v15 (ix3 (⟨t.val, by have h : t.val < 128 := t.isLt; exact h⟩ : Fin 128) s e) := by
  obtain ⟨e0, e1, e2⟩ := idxIn1 t
  show V c main_v15 (((cfg1.win 0).blk t).view.emb (r1_0.emb (ix3 u s e))) = _
  congr 1
  funext a; apply Fin.ext
  match a with
  | ⟨0, _⟩ => show win1_0.index t (0 : Fin 3) * 1 + 1 * (0 + 1 * u.val) = t.val; have := u.isLt; omega
  | ⟨1, _⟩ => show win1_0.index t (1 : Fin 3) * 64 + 1 * (0 + 1 * s.val) = s.val; omega
  | ⟨2, _⟩ => show win1_0.index t (2 : Fin 3) * 256 + 1 * (0 + 1 * e.val) = e.val; omega

theorem idx1_1 : ∀ t : Fin cfg1.N, win1_1.index t (0 : Fin 2) = 0 ∧ win1_1.index t (1 : Fin 2) = 0 := (by decide +kernel : ∀ t : Fin grid1.N, _)
/-- Load 1 is its array whole. -/
theorem y1_eq1 (c : Dev nD) (t : Fin cfg1.N) : (memLoads1 V c t).y1 = V c main_v14 := by
  obtain ⟨e0, e1⟩ := idx1_1 t
  funext i
  show V c main_v14 (((cfg1.win 1).blk t).view.emb (r1_1.emb i)) = V c main_v14 i
  congr 1
  funext a; apply Fin.ext
  match a with
  | ⟨0, _⟩ => show win1_1.index t (0 : Fin 2) * 64 + 1 * (0 + 1 * (i 0).val) = (i 0).val; omega
  | ⟨1, _⟩ => show win1_1.index t (1 : Fin 2) * 64 + 1 * (0 + 1 * (i 1).val) = (i 1).val; omega

theorem idx1_2 : ∀ t : Fin cfg1.N, win1_2.index t (0 : Fin 2) = 0 ∧ win1_2.index t (1 : Fin 2) = 0 := (by decide +kernel : ∀ t : Fin grid1.N, _)
/-- Load 2 is its array whole. -/
theorem y2_eq1 (c : Dev nD) (t : Fin cfg1.N) : (memLoads1 V c t).y2 = V c main_arg28 := by
  obtain ⟨e0, e1⟩ := idx1_2 t
  funext i
  show V c main_arg28 (((cfg1.win 2).blk t).view.emb (r1_5.emb i)) = V c main_arg28 i
  congr 1
  funext a; apply Fin.ext
  match a with
  | ⟨0, _⟩ => show win1_2.index t (0 : Fin 2) * 64 + 1 * (0 + 1 * (i 0).val) = (i 0).val; omega
  | ⟨1, _⟩ => show win1_2.index t (1 : Fin 2) * 128 + 1 * (0 + 1 * (i 1).val) = (i 1).val; omega

theorem idx1_3 : ∀ t : Fin cfg1.N, win1_3.index t (0 : Fin 2) = 0 ∧ win1_3.index t (1 : Fin 2) = 0 := (by decide +kernel : ∀ t : Fin grid1.N, _)
/-- Load 3 is its array whole. -/
theorem y3_eq1 (c : Dev nD) (t : Fin cfg1.N) : (memLoads1 V c t).y3 = V c main_arg29 := by
  obtain ⟨e0, e1⟩ := idx1_3 t
  funext i
  show V c main_arg29 (((cfg1.win 3).blk t).view.emb (r1_5.emb i)) = V c main_arg29 i
  congr 1
  funext a; apply Fin.ext
  match a with
  | ⟨0, _⟩ => show win1_3.index t (0 : Fin 2) * 64 + 1 * (0 + 1 * (i 0).val) = (i 0).val; omega
  | ⟨1, _⟩ => show win1_3.index t (1 : Fin 2) * 128 + 1 * (0 + 1 * (i 1).val) = (i 1).val; omega

theorem idx1_4 : ∀ t : Fin cfg1.N, win1_4.index t (0 : Fin 2) = 0 ∧ win1_4.index t (1 : Fin 2) = 0 := (by decide +kernel : ∀ t : Fin grid1.N, _)
/-- Load 4 is its array whole. -/
theorem y4_eq1 (c : Dev nD) (t : Fin cfg1.N) : (memLoads1 V c t).y4 = V c main_arg30 := by
  obtain ⟨e0, e1⟩ := idx1_4 t
  funext i
  show V c main_arg30 (((cfg1.win 4).blk t).view.emb (r1_5.emb i)) = V c main_arg30 i
  congr 1
  funext a; apply Fin.ext
  match a with
  | ⟨0, _⟩ => show win1_4.index t (0 : Fin 2) * 64 + 1 * (0 + 1 * (i 0).val) = (i 0).val; omega
  | ⟨1, _⟩ => show win1_4.index t (1 : Fin 2) * 128 + 1 * (0 + 1 * (i 1).val) = (i 1).val; omega

theorem idx1_5 : ∀ t : Fin cfg1.N, win1_5.index t (0 : Fin 2) = 0 ∧ win1_5.index t (1 : Fin 2) = 0 := (by decide +kernel : ∀ t : Fin grid1.N, _)
/-- Load 5 is its array whole. -/
theorem y5_eq1 (c : Dev nD) (t : Fin cfg1.N) : (memLoads1 V c t).y5 = V c main_arg31 := by
  obtain ⟨e0, e1⟩ := idx1_5 t
  funext i
  show V c main_arg31 (((cfg1.win 5).blk t).view.emb (r1_2.emb i)) = V c main_arg31 i
  congr 1
  funext a; apply Fin.ext
  match a with
  | ⟨0, _⟩ => show win1_5.index t (0 : Fin 2) * 256 + 1 * (0 + 1 * (i 0).val) = (i 0).val; omega
  | ⟨1, _⟩ => show win1_5.index t (1 : Fin 2) * 128 + 1 * (0 + 1 * (i 1).val) = (i 1).val; omega

theorem idx1_6 : ∀ t : Fin cfg1.N, win1_6.index t (0 : Fin 2) = 0 ∧ win1_6.index t (1 : Fin 2) = 0 := (by decide +kernel : ∀ t : Fin grid1.N, _)
/-- Load 6 is its array whole. -/
theorem y6_eq1 (c : Dev nD) (t : Fin cfg1.N) : (memLoads1 V c t).y6 = V c main_arg32 := by
  obtain ⟨e0, e1⟩ := idx1_6 t
  funext i
  show V c main_arg32 (((cfg1.win 6).blk t).view.emb (r1_3.emb i)) = V c main_arg32 i
  congr 1
  funext a; apply Fin.ext
  match a with
  | ⟨0, _⟩ => show win1_6.index t (0 : Fin 2) * 1 + 1 * (0 + 1 * (i 0).val) = (i 0).val; omega
  | ⟨1, _⟩ => show win1_6.index t (1 : Fin 2) * 128 + 1 * (0 + 1 * (i 1).val) = (i 1).val; omega

theorem idx1_7 : ∀ t : Fin cfg1.N, win1_7.index t (0 : Fin 2) = 0 ∧ win1_7.index t (1 : Fin 2) = 0 := (by decide +kernel : ∀ t : Fin grid1.N, _)
/-- Load 7 is its array whole. -/
theorem y7_eq1 (c : Dev nD) (t : Fin cfg1.N) : (memLoads1 V c t).y7 = V c main_arg33 := by
  obtain ⟨e0, e1⟩ := idx1_7 t
  funext i
  show V c main_arg33 (((cfg1.win 7).blk t).view.emb (r1_4.emb i)) = V c main_arg33 i
  congr 1
  funext a; apply Fin.ext
  match a with
  | ⟨0, _⟩ => show win1_7.index t (0 : Fin 2) * 256 + 1 * (0 + 1 * (i 0).val) = (i 0).val; omega
  | ⟨1, _⟩ => show win1_7.index t (1 : Fin 2) * 256 + 1 * (0 + 1 * (i 1).val) = (i 1).val; omega

theorem idx1_8 : ∀ t : Fin cfg1.N, win1_8.index t (0 : Fin 2) = 0 ∧ win1_8.index t (1 : Fin 2) = 0 := (by decide +kernel : ∀ t : Fin grid1.N, _)
/-- Load 8 is its array whole. -/
theorem y8_eq1 (c : Dev nD) (t : Fin cfg1.N) : (memLoads1 V c t).y8 = V c main_arg34 := by
  obtain ⟨e0, e1⟩ := idx1_8 t
  funext i
  show V c main_arg34 (((cfg1.win 8).blk t).view.emb (r1_6.emb i)) = V c main_arg34 i
  congr 1
  funext a; apply Fin.ext
  match a with
  | ⟨0, _⟩ => show win1_8.index t (0 : Fin 2) * 1 + 1 * (0 + 1 * (i 0).val) = (i 0).val; omega
  | ⟨1, _⟩ => show win1_8.index t (1 : Fin 2) * 256 + 1 * (0 + 1 * (i 1).val) = (i 1).val; omega

theorem idx1_9 : ∀ t : Fin cfg1.N, win1_9.index t (0 : Fin 2) = 0 ∧ win1_9.index t (1 : Fin 2) = 0 := (by decide +kernel : ∀ t : Fin grid1.N, _)
/-- Load 9 is its array whole. -/
theorem y9_eq1 (c : Dev nD) (t : Fin cfg1.N) : (memLoads1 V c t).y9 = V c main_arg35 := by
  obtain ⟨e0, e1⟩ := idx1_9 t
  funext i
  show V c main_arg35 (((cfg1.win 9).blk t).view.emb (r1_4.emb i)) = V c main_arg35 i
  congr 1
  funext a; apply Fin.ext
  match a with
  | ⟨0, _⟩ => show win1_9.index t (0 : Fin 2) * 256 + 1 * (0 + 1 * (i 0).val) = (i 0).val; omega
  | ⟨1, _⟩ => show win1_9.index t (1 : Fin 2) * 256 + 1 * (0 + 1 * (i 1).val) = (i 1).val; omega

theorem idx1_10 : ∀ t : Fin cfg1.N, win1_10.index t (0 : Fin 2) = 0 ∧ win1_10.index t (1 : Fin 2) = 0 := (by decide +kernel : ∀ t : Fin grid1.N, _)
/-- Load 10 is its array whole. -/
theorem y10_eq1 (c : Dev nD) (t : Fin cfg1.N) : (memLoads1 V c t).y10 = V c main_arg36 := by
  obtain ⟨e0, e1⟩ := idx1_10 t
  funext i
  show V c main_arg36 (((cfg1.win 10).blk t).view.emb (r1_6.emb i)) = V c main_arg36 i
  congr 1
  funext a; apply Fin.ext
  match a with
  | ⟨0, _⟩ => show win1_10.index t (0 : Fin 2) * 1 + 1 * (0 + 1 * (i 0).val) = (i 0).val; omega
  | ⟨1, _⟩ => show win1_10.index t (1 : Fin 2) * 256 + 1 * (0 + 1 * (i 1).val) = (i 1).val; omega

theorem idx1_11 : ∀ t : Fin cfg1.N, win1_11.index t (0 : Fin 2) = 0 ∧ win1_11.index t (1 : Fin 2) = 0 := (by decide +kernel : ∀ t : Fin grid1.N, _)
/-- Load 11 is its array whole. -/
theorem y11_eq1 (c : Dev nD) (t : Fin cfg1.N) : (memLoads1 V c t).y11 = V c main_arg37 := by
  obtain ⟨e0, e1⟩ := idx1_11 t
  funext i
  show V c main_arg37 (((cfg1.win 11).blk t).view.emb (r1_4.emb i)) = V c main_arg37 i
  congr 1
  funext a; apply Fin.ext
  match a with
  | ⟨0, _⟩ => show win1_11.index t (0 : Fin 2) * 256 + 1 * (0 + 1 * (i 0).val) = (i 0).val; omega
  | ⟨1, _⟩ => show win1_11.index t (1 : Fin 2) * 256 + 1 * (0 + 1 * (i 1).val) = (i 1).val; omega

theorem idx1_12 : ∀ t : Fin cfg1.N, win1_12.index t (0 : Fin 2) = 0 ∧ win1_12.index t (1 : Fin 2) = 0 := (by decide +kernel : ∀ t : Fin grid1.N, _)
/-- Load 12 is its array whole. -/
theorem y12_eq1 (c : Dev nD) (t : Fin cfg1.N) : (memLoads1 V c t).y12 = V c main_arg38 := by
  obtain ⟨e0, e1⟩ := idx1_12 t
  funext i
  show V c main_arg38 (((cfg1.win 12).blk t).view.emb (r1_6.emb i)) = V c main_arg38 i
  congr 1
  funext a; apply Fin.ext
  match a with
  | ⟨0, _⟩ => show win1_12.index t (0 : Fin 2) * 1 + 1 * (0 + 1 * (i 0).val) = (i 0).val; omega
  | ⟨1, _⟩ => show win1_12.index t (1 : Fin 2) * 256 + 1 * (0 + 1 * (i 1).val) = (i 1).val; omega

theorem idx1_13 : ∀ t : Fin cfg1.N, win1_13.index t (0 : Fin 2) = 0 ∧ win1_13.index t (1 : Fin 2) = 0 := (by decide +kernel : ∀ t : Fin grid1.N, _)
/-- Load 13 is its array whole. -/
theorem y13_eq1 (c : Dev nD) (t : Fin cfg1.N) : (memLoads1 V c t).y13 = V c main_arg39 := by
  obtain ⟨e0, e1⟩ := idx1_13 t
  funext i
  show V c main_arg39 (((cfg1.win 13).blk t).view.emb (r1_4.emb i)) = V c main_arg39 i
  congr 1
  funext a; apply Fin.ext
  match a with
  | ⟨0, _⟩ => show win1_13.index t (0 : Fin 2) * 256 + 1 * (0 + 1 * (i 0).val) = (i 0).val; omega
  | ⟨1, _⟩ => show win1_13.index t (1 : Fin 2) * 256 + 1 * (0 + 1 * (i 1).val) = (i 1).val; omega

theorem idx1_14 : ∀ t : Fin cfg1.N, win1_14.index t (0 : Fin 2) = 0 ∧ win1_14.index t (1 : Fin 2) = 0 := (by decide +kernel : ∀ t : Fin grid1.N, _)
/-- Load 14 is its array whole. -/
theorem y14_eq1 (c : Dev nD) (t : Fin cfg1.N) : (memLoads1 V c t).y14 = V c main_arg40 := by
  obtain ⟨e0, e1⟩ := idx1_14 t
  funext i
  show V c main_arg40 (((cfg1.win 14).blk t).view.emb (r1_6.emb i)) = V c main_arg40 i
  congr 1
  funext a; apply Fin.ext
  match a with
  | ⟨0, _⟩ => show win1_14.index t (0 : Fin 2) * 1 + 1 * (0 + 1 * (i 0).val) = (i 0).val; omega
  | ⟨1, _⟩ => show win1_14.index t (1 : Fin 2) * 256 + 1 * (0 + 1 * (i 1).val) = (i 1).val; omega

theorem idx1_15 : ∀ t : Fin cfg1.N, win1_15.index t (0 : Fin 2) = 0 ∧ win1_15.index t (1 : Fin 2) = 0 := (by decide +kernel : ∀ t : Fin grid1.N, _)
/-- Load 15 is its array whole. -/
theorem y15_eq1 (c : Dev nD) (t : Fin cfg1.N) : (memLoads1 V c t).y15 = V c main_arg41 := by
  obtain ⟨e0, e1⟩ := idx1_15 t
  funext i
  show V c main_arg41 (((cfg1.win 15).blk t).view.emb (r1_6.emb i)) = V c main_arg41 i
  congr 1
  funext a; apply Fin.ext
  match a with
  | ⟨0, _⟩ => show win1_15.index t (0 : Fin 2) * 1 + 1 * (0 + 1 * (i 0).val) = (i 0).val; omega
  | ⟨1, _⟩ => show win1_15.index t (1 : Fin 2) * 256 + 1 * (0 + 1 * (i 1).val) = (i 1).val; omega

theorem idx1_16 : ∀ t : Fin cfg1.N, win1_16.index t (0 : Fin 2) = 0 ∧ win1_16.index t (1 : Fin 2) = 0 := (by decide +kernel : ∀ t : Fin grid1.N, _)
/-- Load 16 is its array whole. -/
theorem y16_eq1 (c : Dev nD) (t : Fin cfg1.N) : (memLoads1 V c t).y16 = V c main_arg42 := by
  obtain ⟨e0, e1⟩ := idx1_16 t
  funext i
  show V c main_arg42 (((cfg1.win 16).blk t).view.emb (r1_6.emb i)) = V c main_arg42 i
  congr 1
  funext a; apply Fin.ext
  match a with
  | ⟨0, _⟩ => show win1_16.index t (0 : Fin 2) * 1 + 1 * (0 + 1 * (i 0).val) = (i 0).val; omega
  | ⟨1, _⟩ => show win1_16.index t (1 : Fin 2) * 256 + 1 * (0 + 1 * (i 1).val) = (i 1).val; omega

theorem idx1_17 : ∀ t : Fin cfg1.N, win1_17.index t (0 : Fin 2) = 0 ∧ win1_17.index t (1 : Fin 2) = 0 := (by decide +kernel : ∀ t : Fin grid1.N, _)
/-- Load 17 is its array whole. -/
theorem y17_eq1 (c : Dev nD) (t : Fin cfg1.N) : (memLoads1 V c t).y17 = V c main_arg43 := by
  obtain ⟨e0, e1⟩ := idx1_17 t
  funext i
  show V c main_arg43 (((cfg1.win 17).blk t).view.emb (r1_4.emb i)) = V c main_arg43 i
  congr 1
  funext a; apply Fin.ext
  match a with
  | ⟨0, _⟩ => show win1_17.index t (0 : Fin 2) * 256 + 1 * (0 + 1 * (i 0).val) = (i 0).val; omega
  | ⟨1, _⟩ => show win1_17.index t (1 : Fin 2) * 256 + 1 * (0 + 1 * (i 1).val) = (i 1).val; omega

theorem idx1_18 : ∀ t : Fin cfg1.N, win1_18.index t (0 : Fin 2) = 0 ∧ win1_18.index t (1 : Fin 2) = 0 := (by decide +kernel : ∀ t : Fin grid1.N, _)
/-- Load 18 is its array whole. -/
theorem y18_eq1 (c : Dev nD) (t : Fin cfg1.N) : (memLoads1 V c t).y18 = V c main_arg44 := by
  obtain ⟨e0, e1⟩ := idx1_18 t
  funext i
  show V c main_arg44 (((cfg1.win 18).blk t).view.emb (r1_6.emb i)) = V c main_arg44 i
  congr 1
  funext a; apply Fin.ext
  match a with
  | ⟨0, _⟩ => show win1_18.index t (0 : Fin 2) * 1 + 1 * (0 + 1 * (i 0).val) = (i 0).val; omega
  | ⟨1, _⟩ => show win1_18.index t (1 : Fin 2) * 256 + 1 * (0 + 1 * (i 1).val) = (i 1).val; omega

theorem idx1_19 : ∀ t : Fin cfg1.N, win1_19.index t (0 : Fin 2) = 0 ∧ win1_19.index t (1 : Fin 2) = 0 := (by decide +kernel : ∀ t : Fin grid1.N, _)
/-- Load 19 is its array whole. -/
theorem y19_eq1 (c : Dev nD) (t : Fin cfg1.N) : (memLoads1 V c t).y19 = V c main_arg45 := by
  obtain ⟨e0, e1⟩ := idx1_19 t
  funext i
  show V c main_arg45 (((cfg1.win 19).blk t).view.emb (r1_4.emb i)) = V c main_arg45 i
  congr 1
  funext a; apply Fin.ext
  match a with
  | ⟨0, _⟩ => show win1_19.index t (0 : Fin 2) * 256 + 1 * (0 + 1 * (i 0).val) = (i 0).val; omega
  | ⟨1, _⟩ => show win1_19.index t (1 : Fin 2) * 256 + 1 * (0 + 1 * (i 1).val) = (i 1).val; omega

theorem idx1_20 : ∀ t : Fin cfg1.N, win1_20.index t (0 : Fin 2) = 0 ∧ win1_20.index t (1 : Fin 2) = 0 := (by decide +kernel : ∀ t : Fin grid1.N, _)
/-- Load 20 is its array whole. -/
theorem y20_eq1 (c : Dev nD) (t : Fin cfg1.N) : (memLoads1 V c t).y20 = V c main_arg46 := by
  obtain ⟨e0, e1⟩ := idx1_20 t
  funext i
  show V c main_arg46 (((cfg1.win 20).blk t).view.emb (r1_6.emb i)) = V c main_arg46 i
  congr 1
  funext a; apply Fin.ext
  match a with
  | ⟨0, _⟩ => show win1_20.index t (0 : Fin 2) * 1 + 1 * (0 + 1 * (i 0).val) = (i 0).val; omega
  | ⟨1, _⟩ => show win1_20.index t (1 : Fin 2) * 256 + 1 * (0 + 1 * (i 1).val) = (i 1).val; omega

theorem idx1_21 : ∀ t : Fin cfg1.N, win1_21.index t (0 : Fin 2) = 0 ∧ win1_21.index t (1 : Fin 2) = 0 := (by decide +kernel : ∀ t : Fin grid1.N, _)
/-- Load 21 is its array whole. -/
theorem y21_eq1 (c : Dev nD) (t : Fin cfg1.N) : (memLoads1 V c t).y21 = V c main_arg47 := by
  obtain ⟨e0, e1⟩ := idx1_21 t
  funext i
  show V c main_arg47 (((cfg1.win 21).blk t).view.emb (r1_6.emb i)) = V c main_arg47 i
  congr 1
  funext a; apply Fin.ext
  match a with
  | ⟨0, _⟩ => show win1_21.index t (0 : Fin 2) * 1 + 1 * (0 + 1 * (i 0).val) = (i 0).val; omega
  | ⟨1, _⟩ => show win1_21.index t (1 : Fin 2) * 256 + 1 * (0 + 1 * (i 1).val) = (i 1).val; omega

theorem idx1_22 : ∀ t : Fin cfg1.N, win1_22.index t (0 : Fin 2) = 0 ∧ win1_22.index t (1 : Fin 2) = 0 := (by decide +kernel : ∀ t : Fin grid1.N, _)
/-- Load 22 is its array whole. -/
theorem y22_eq1 (c : Dev nD) (t : Fin cfg1.N) : (memLoads1 V c t).y22 = V c main_arg48 := by
  obtain ⟨e0, e1⟩ := idx1_22 t
  funext i
  show V c main_arg48 (((cfg1.win 22).blk t).view.emb (r1_6.emb i)) = V c main_arg48 i
  congr 1
  funext a; apply Fin.ext
  match a with
  | ⟨0, _⟩ => show win1_22.index t (0 : Fin 2) * 1 + 1 * (0 + 1 * (i 0).val) = (i 0).val; omega
  | ⟨1, _⟩ => show win1_22.index t (1 : Fin 2) * 256 + 1 * (0 + 1 * (i 1).val) = (i 1).val; omega

/-! ## The head launch -/

/-- The record of the head body's loads from its 5 staged input blocks. -/
def loadsOf2 (x0 : Vec F S8192x256 .f32) (x1 : Vec F S256x16 .f32) (x2 : Vec F S1x16 .f32) (x3 : Vec F S256x16 .f32) (x4 : Vec F S1x16 .f32) : Dag.LoadsH F :=
  ⟨View.ld x0 r2_0, View.ld x1 r2_1, View.ld x2 r2_2, View.ld x3 r2_1, View.ld x4 r2_2⟩

theorem out2_5_eq (x0 : Vec F S8192x256 .f32) (x1 : Vec F S256x16 .f32) (x2 : Vec F S1x16 .f32) (x3 : Vec F S256x16 .f32) (x4 : Vec F S1x16 .f32) : out2_5 x0 x1 x2 x3 x4 = View.canon [⟨r2_3, Dag.h0 (loadsOf2 x0 x1 x2 x3 x4)⟩] := rfl
theorem out2_6_eq (x0 : Vec F S8192x256 .f32) (x1 : Vec F S256x16 .f32) (x2 : Vec F S1x16 .f32) (x3 : Vec F S256x16 .f32) (x4 : Vec F S1x16 .f32) : out2_6 x0 x1 x2 x3 x4 = View.canon [⟨r2_3, Dag.g0 (loadsOf2 x0 x1 x2 x3 x4)⟩] := rfl

set_option maxHeartbeats 8000000 in
/-- The record of the head body's loads at its grid point. -/
def memLoads2 (c : Dev nD) (t : Fin cfg2.N) : Dag.LoadsH F := loadsOf2 (iblk2 V c 0 t) (iblk2 V c 1 t) (iblk2 V c 2 t) (iblk2 V c 3 t) (iblk2 V c 4 t)

set_option maxHeartbeats 8000000 in
theorem blkOut2_5_eq (c : Dev nD) (t : Fin cfg2.N) : blkOut2_5 V c t = Dag.h0 (memLoads2 V c t) := by
  unfold blkOut2_5 memLoads2
  rw [out2_5_eq]
  exact View.canon_unit_zero hz2 _ _

set_option maxHeartbeats 8000000 in
theorem blkOut2_6_eq (c : Dev nD) (t : Fin cfg2.N) : blkOut2_6 V c t = Dag.g0 (memLoads2 V c t) := by
  unfold blkOut2_6 memLoads2
  rw [out2_6_eq]
  exact View.canon_unit_zero hz2 _ _

theorem idx2w_0 : ∀ t : Fin cfg2.N, win2_0.index t (0 : Fin 2) = 0 ∧ win2_0.index t (1 : Fin 2) = 0 := (by decide +kernel : ∀ t : Fin grid2.N, _)
/-- Load 0 is its array whole. -/
theorem y0_eq2 (c : Dev nD) (t : Fin cfg2.N) : (memLoads2 V c t).y0 = V c main_v17 := by
  obtain ⟨e0, e1⟩ := idx2w_0 t
  funext i
  show V c main_v17 (((cfg2.win 0).blk t).view.emb (r2_0.emb i)) = V c main_v17 i
  congr 1
  funext a; apply Fin.ext
  match a with
  | ⟨0, _⟩ => show win2_0.index t (0 : Fin 2) * 8192 + 1 * (0 + 1 * (i 0).val) = (i 0).val; omega
  | ⟨1, _⟩ => show win2_0.index t (1 : Fin 2) * 256 + 1 * (0 + 1 * (i 1).val) = (i 1).val; omega

theorem idx2w_1 : ∀ t : Fin cfg2.N, win2_1.index t (0 : Fin 2) = 0 ∧ win2_1.index t (1 : Fin 2) = 0 := (by decide +kernel : ∀ t : Fin grid2.N, _)
/-- Load 1 is its array whole. -/
theorem y1_eq2 (c : Dev nD) (t : Fin cfg2.N) : (memLoads2 V c t).y1 = V c main_arg3 := by
  obtain ⟨e0, e1⟩ := idx2w_1 t
  funext i
  show V c main_arg3 (((cfg2.win 1).blk t).view.emb (r2_1.emb i)) = V c main_arg3 i
  congr 1
  funext a; apply Fin.ext
  match a with
  | ⟨0, _⟩ => show win2_1.index t (0 : Fin 2) * 256 + 1 * (0 + 1 * (i 0).val) = (i 0).val; omega
  | ⟨1, _⟩ => show win2_1.index t (1 : Fin 2) * 16 + 1 * (0 + 1 * (i 1).val) = (i 1).val; omega

theorem idx2w_2 : ∀ t : Fin cfg2.N, win2_2.index t (0 : Fin 2) = 0 ∧ win2_2.index t (1 : Fin 2) = 0 := (by decide +kernel : ∀ t : Fin grid2.N, _)
/-- Load 2 is its array whole. -/
theorem y2_eq2 (c : Dev nD) (t : Fin cfg2.N) : (memLoads2 V c t).y2 = V c main_arg4 := by
  obtain ⟨e0, e1⟩ := idx2w_2 t
  funext i
  show V c main_arg4 (((cfg2.win 2).blk t).view.emb (r2_2.emb i)) = V c main_arg4 i
  congr 1
  funext a; apply Fin.ext
  match a with
  | ⟨0, _⟩ => show win2_2.index t (0 : Fin 2) * 1 + 1 * (0 + 1 * (i 0).val) = (i 0).val; omega
  | ⟨1, _⟩ => show win2_2.index t (1 : Fin 2) * 16 + 1 * (0 + 1 * (i 1).val) = (i 1).val; omega

theorem idx2w_3 : ∀ t : Fin cfg2.N, win2_3.index t (0 : Fin 2) = 0 ∧ win2_3.index t (1 : Fin 2) = 0 := (by decide +kernel : ∀ t : Fin grid2.N, _)
/-- Load 3 is its array whole. -/
theorem y3_eq2 (c : Dev nD) (t : Fin cfg2.N) : (memLoads2 V c t).y3 = V c main_arg5 := by
  obtain ⟨e0, e1⟩ := idx2w_3 t
  funext i
  show V c main_arg5 (((cfg2.win 3).blk t).view.emb (r2_1.emb i)) = V c main_arg5 i
  congr 1
  funext a; apply Fin.ext
  match a with
  | ⟨0, _⟩ => show win2_3.index t (0 : Fin 2) * 256 + 1 * (0 + 1 * (i 0).val) = (i 0).val; omega
  | ⟨1, _⟩ => show win2_3.index t (1 : Fin 2) * 16 + 1 * (0 + 1 * (i 1).val) = (i 1).val; omega

theorem idx2w_4 : ∀ t : Fin cfg2.N, win2_4.index t (0 : Fin 2) = 0 ∧ win2_4.index t (1 : Fin 2) = 0 := (by decide +kernel : ∀ t : Fin grid2.N, _)
/-- Load 4 is its array whole. -/
theorem y4_eq2 (c : Dev nD) (t : Fin cfg2.N) : (memLoads2 V c t).y4 = V c main_arg6 := by
  obtain ⟨e0, e1⟩ := idx2w_4 t
  funext i
  show V c main_arg6 (((cfg2.win 4).blk t).view.emb (r2_2.emb i)) = V c main_arg6 i
  congr 1
  funext a; apply Fin.ext
  match a with
  | ⟨0, _⟩ => show win2_4.index t (0 : Fin 2) * 1 + 1 * (0 + 1 * (i 0).val) = (i 0).val; omega
  | ⟨1, _⟩ => show win2_4.index t (1 : Fin 2) * 16 + 1 * (0 + 1 * (i 1).val) = (i 1).val; omega

end Cert.ReferenceIdeal.Lds

end
-- ==== Proof.RefDots.lean ====
/-
  The matrix products of the reference's three kernels read at an entry. Each product accumulates into the zero splat, so at
  the extended reals entry (p, c) is the plain sum over the contracted coordinate k of the left operand at (p, k) times
  the right operand at (k, c) — or at (c, k) for the one product that contracts the second axis of both operands (the
  attention scores, queries against keys). One lemma per dimension-number record of the program.
-/
import proofs.«141667_g2000002524955183_pallasbulk_3_44_alg».proof.Proof.Gen.ReferenceIdeal.Skeleton
import proofs.«141667_g2000002524955183_pallasbulk_3_44_alg».proof.Proof.LibMatmulAt
import Idealize.ShloMosaic.Lib.ValueLayout
import Idealize.ShloMosaic.PureOps.Ideal.Laws

noncomputable section

namespace Cert.ReferenceIdeal.Read

open Idealize.ShloMosaic Idealize.ShloMosaic.ValueIdx Cert.ReferenceIdeal
open scoped BigOperators

set_option maxRecDepth 4096

theorem mm_64x256_256x128 (lhs : FVec Ideal S64x256 .f32) (rhs : FVec Ideal S256x128 .f32) (p : Fin 64) (c : Fin 128) :
    matmul dot_S64x256_S256x128_S64x128_1_0_0_1_n_n none lhs rhs (constant S64x128 .f32 0x00000000#32) (ix2 p c)
      = ∑ k : Fin 256, lhs (ix2 p k) * rhs (ix2 k c) := by
  refine Cert.LibMatmulAt.matmul_zero_at dot_S64x256_S256x128_S64x128_1_0_0_1_n_n none rfl rfl (ix2 p c)
    (fun k => ix2 p k) (fun k => ix2 k c) ?_ ?_ lhs rhs
  · intro q k hk
    funext a
    match a with
    | ⟨0, _⟩ => refine Fin.ext ?_; simp [DotDims.lhsIdx, dot_S64x256_S256x128_S64x128_1_0_0_1_n_n]; rfl
    | ⟨1, _⟩ => refine Fin.ext ?_; simp [DotDims.lhsIdx, dot_S64x256_S256x128_S64x128_1_0_0_1_n_n]; exact hk
  · intro q k hk
    funext a
    match a with
    | ⟨0, _⟩ => refine Fin.ext ?_; simp [DotDims.rhsIdx, dot_S64x256_S256x128_S64x128_1_0_0_1_n_n]; exact hk
    | ⟨1, _⟩ => refine Fin.ext ?_; simp [DotDims.rhsIdx, dot_S64x256_S256x128_S64x128_1_0_0_1_n_n]; rfl

theorem mm_64x128_128x256 (lhs : FVec Ideal S64x128 .f32) (rhs : FVec Ideal S128x256 .f32) (p : Fin 64) (c : Fin 256) :
    matmul dot_S64x128_S128x256_S64x256_1_0_0_1_n_n none lhs rhs (constant S64x256 .f32 0x00000000#32) (ix2 p c)
      = ∑ k : Fin 128, lhs (ix2 p k) * rhs (ix2 k c) := by
  refine Cert.LibMatmulAt.matmul_zero_at dot_S64x128_S128x256_S64x256_1_0_0_1_n_n none rfl rfl (ix2 p c)
    (fun k => ix2 p k) (fun k => ix2 k c) ?_ ?_ lhs rhs
  · intro q k hk
    funext a
    match a with
    | ⟨0, _⟩ => refine Fin.ext ?_; simp [DotDims.lhsIdx, dot_S64x128_S128x256_S64x256_1_0_0_1_n_n]; rfl
    | ⟨1, _⟩ => refine Fin.ext ?_; simp [DotDims.lhsIdx, dot_S64x128_S128x256_S64x256_1_0_0_1_n_n]; exact hk
  · intro q k hk
    funext a
    match a with
    | ⟨0, _⟩ => refine Fin.ext ?_; simp [DotDims.rhsIdx, dot_S64x128_S128x256_S64x256_1_0_0_1_n_n]; exact hk
    | ⟨1, _⟩ => refine Fin.ext ?_; simp [DotDims.rhsIdx, dot_S64x128_S128x256_S64x256_1_0_0_1_n_n]; rfl

theorem mm_64x32_64x32_t (lhs : FVec Ideal S64x32 .f32) (rhs : FVec Ideal S64x32 .f32) (p : Fin 64) (c : Fin 64) :
    matmul dot_S64x32_S64x32_S64x64_1_1_0_0_n_n none lhs rhs (constant S64x64 .f32 0x00000000#32) (ix2 p c)
      = ∑ k : Fin 32, lhs (ix2 p k) * rhs (ix2 c k) := by
  refine Cert.LibMatmulAt.matmul_zero_at dot_S64x32_S64x32_S64x64_1_1_0_0_n_n none rfl rfl (ix2 p c)
    (fun k => ix2 p k) (fun k => ix2 c k) ?_ ?_ lhs rhs
  · intro q k hk
    funext a
    match a with
    | ⟨0, _⟩ => refine Fin.ext ?_; simp [DotDims.lhsIdx, dot_S64x32_S64x32_S64x64_1_1_0_0_n_n]; rfl
    | ⟨1, _⟩ => refine Fin.ext ?_; simp [DotDims.lhsIdx, dot_S64x32_S64x32_S64x64_1_1_0_0_n_n]; exact hk
  · intro q k hk
    funext a
    match a with
    | ⟨0, _⟩ => refine Fin.ext ?_; simp [DotDims.rhsIdx, dot_S64x32_S64x32_S64x64_1_1_0_0_n_n]; rfl
    | ⟨1, _⟩ => refine Fin.ext ?_; simp [DotDims.rhsIdx, dot_S64x32_S64x32_S64x64_1_1_0_0_n_n]; exact hk

theorem mm_64x64_64x32 (lhs : FVec Ideal S64x64 .f32) (rhs : FVec Ideal S64x32 .f32) (p : Fin 64) (c : Fin 32) :
    matmul dot_S64x64_S64x32_S64x32_1_0_0_1_n_n none lhs rhs (constant S64x32 .f32 0x00000000#32) (ix2 p c)
      = ∑ k : Fin 64, lhs (ix2 p k) * rhs (ix2 k c) := by
  refine Cert.LibMatmulAt.matmul_zero_at dot_S64x64_S64x32_S64x32_1_0_0_1_n_n none rfl rfl (ix2 p c)
    (fun k => ix2 p k) (fun k => ix2 k c) ?_ ?_ lhs rhs
  · intro q k hk
    funext a
    match a with
    | ⟨0, _⟩ => refine Fin.ext ?_; simp [DotDims.lhsIdx, dot_S64x64_S64x32_S64x32_1_0_0_1_n_n]; rfl
    | ⟨1, _⟩ => refine Fin.ext ?_; simp [DotDims.lhsIdx, dot_S64x64_S64x32_S64x32_1_0_0_1_n_n]; exact hk
  · intro q k hk
    funext a
    match a with
    | ⟨0, _⟩ => refine Fin.ext ?_; simp [DotDims.rhsIdx, dot_S64x64_S64x32_S64x32_1_0_0_1_n_n]; exact hk
    | ⟨1, _⟩ => refine Fin.ext ?_; simp [DotDims.rhsIdx, dot_S64x64_S64x32_S64x32_1_0_0_1_n_n]; rfl

theorem mm_64x32_32x256 (lhs : FVec Ideal S64x32 .f32) (rhs : FVec Ideal S32x256 .f32) (p : Fin 64) (c : Fin 256) :
    matmul dot_S64x32_S32x256_S64x256_1_0_0_1_n_n none lhs rhs (constant S64x256 .f32 0x00000000#32) (ix2 p c)
      = ∑ k : Fin 32, lhs (ix2 p k) * rhs (ix2 k c) := by
  refine Cert.LibMatmulAt.matmul_zero_at dot_S64x32_S32x256_S64x256_1_0_0_1_n_n none rfl rfl (ix2 p c)
    (fun k => ix2 p k) (fun k => ix2 k c) ?_ ?_ lhs rhs
  · intro q k hk
    funext a
    match a with
    | ⟨0, _⟩ => refine Fin.ext ?_; simp [DotDims.lhsIdx, dot_S64x32_S32x256_S64x256_1_0_0_1_n_n]; rfl
    | ⟨1, _⟩ => refine Fin.ext ?_; simp [DotDims.lhsIdx, dot_S64x32_S32x256_S64x256_1_0_0_1_n_n]; exact hk
  · intro q k hk
    funext a
    match a with
    | ⟨0, _⟩ => refine Fin.ext ?_; simp [DotDims.rhsIdx, dot_S64x32_S32x256_S64x256_1_0_0_1_n_n]; exact hk
    | ⟨1, _⟩ => refine Fin.ext ?_; simp [DotDims.rhsIdx, dot_S64x32_S32x256_S64x256_1_0_0_1_n_n]; rfl

theorem mm_64x256_256x256 (lhs : FVec Ideal S64x256 .f32) (rhs : FVec Ideal S256x256 .f32) (p : Fin 64) (c : Fin 256) :
    matmul dot_S64x256_S256x256_S64x256_1_0_0_1_n_n none lhs rhs (constant S64x256 .f32 0x00000000#32) (ix2 p c)
      = ∑ k : Fin 256, lhs (ix2 p k) * rhs (ix2 k c) := by
  refine Cert.LibMatmulAt.matmul_zero_at dot_S64x256_S256x256_S64x256_1_0_0_1_n_n none rfl rfl (ix2 p c)
    (fun k => ix2 p k) (fun k => ix2 k c) ?_ ?_ lhs rhs
  · intro q k hk
    funext a
    match a with
    | ⟨0, _⟩ => refine Fin.ext ?_; simp [DotDims.lhsIdx, dot_S64x256_S256x256_S64x256_1_0_0_1_n_n]; rfl
    | ⟨1, _⟩ => refine Fin.ext ?_; simp [DotDims.lhsIdx, dot_S64x256_S256x256_S64x256_1_0_0_1_n_n]; exact hk
  · intro q k hk
    funext a
    match a with
    | ⟨0, _⟩ => refine Fin.ext ?_; simp [DotDims.rhsIdx, dot_S64x256_S256x256_S64x256_1_0_0_1_n_n]; exact hk
    | ⟨1, _⟩ => refine Fin.ext ?_; simp [DotDims.rhsIdx, dot_S64x256_S256x256_S64x256_1_0_0_1_n_n]; rfl

theorem mm_8192x256_256x16 (lhs : FVec Ideal S8192x256 .f32) (rhs : FVec Ideal S256x16 .f32) (p : Fin 8192) (c : Fin 16) :
    matmul dot_S8192x256_S256x16_S8192x16_1_0_0_1_n_n none lhs rhs (constant S8192x16 .f32 0x00000000#32) (ix2 p c)
      = ∑ k : Fin 256, lhs (ix2 p k) * rhs (ix2 k c) := by
  refine Cert.LibMatmulAt.matmul_zero_at dot_S8192x256_S256x16_S8192x16_1_0_0_1_n_n none rfl rfl (ix2 p c)
    (fun k => ix2 p k) (fun k => ix2 k c) ?_ ?_ lhs rhs
  · intro q k hk
    funext a
    match a with
    | ⟨0, _⟩ => refine Fin.ext ?_; simp [DotDims.lhsIdx, dot_S8192x256_S256x16_S8192x16_1_0_0_1_n_n]; rfl
    | ⟨1, _⟩ => refine Fin.ext ?_; simp [DotDims.lhsIdx, dot_S8192x256_S256x16_S8192x16_1_0_0_1_n_n]; exact hk
  · intro q k hk
    funext a
    match a with
    | ⟨0, _⟩ => refine Fin.ext ?_; simp [DotDims.rhsIdx, dot_S8192x256_S256x16_S8192x16_1_0_0_1_n_n]; exact hk
    | ⟨1, _⟩ => refine Fin.ext ?_; simp [DotDims.rhsIdx, dot_S8192x256_S256x16_S8192x16_1_0_0_1_n_n]; rfl

end Cert.ReferenceIdeal.Read

end
-- ==== Proof.RefLayout.lean ====
/-
  Row reductions and their keep-dims companions read at an entry, at the extended reals: the sum and the maximum of a
  matrix's rows, the cast of a column [n] to [n, 1], and the broadcast of a column [n, 1] across the columns of [n, m].
  These are the steps of every row softmax and of every layer normalisation in the reference.
-/
import Idealize.ShloMosaic.Lib.ValueLayout
import Idealize.ShloMosaic.PureOps.Ideal.Laws

noncomputable section

namespace Cert.ReferenceIdeal.Read

open Idealize.ShloMosaic Idealize.ShloMosaic.ValueIdx
open scoped BigOperators

/-- The sum of row `r` of an `[n, m]` matrix: the reduction over the second axis read at `r`. -/
theorem rowSum_apply {n m : Nat} (v : FVec Ideal ⟨2, ![n, m]⟩ .f32) (h : Shape.Reduces ⟨2, ![n, m]⟩ [1] ⟨1, ![n]⟩)
    (hφ : FKind.Formats .f32) (hacc : (0x00000000#32 : BitVec 32) = FKind.add.neutral .f32 hφ) (r : Fin n) :
    multiReduction .add [1] ⟨1, ![n]⟩ v 0x00000000#32 h hφ hacc (ix1 r) = ∑ k : Fin m, v (ix2 r k) := by
  refine (Ideal.multiReduction_add_single v _ h hφ hacc (ix1 r)).trans ?_
  refine Finset.sum_congr rfl fun k _ => congrArg v ?_
  funext a
  match a with
  | ⟨0, _⟩ => rfl
  | ⟨1, _⟩ => rfl

/-- The maximum of row `r` of an `[n, m]` matrix, folded from the accumulator's value (minus infinity). -/
theorem rowMax_apply {n m : Nat} (v : FVec Ideal ⟨2, ![n, m]⟩ .f32) (h : Shape.Reduces ⟨2, ![n, m]⟩ [1] ⟨1, ![n]⟩)
    (hφ : FKind.Formats .f32) (hacc : (0xFF800000#32 : BitVec 32) = FKind.maximumf.neutral .f32 hφ) (r : Fin n) :
    multiReduction .maximumf [1] ⟨1, ![n]⟩ v 0xFF800000#32 h hφ hacc (ix1 r)
      = (Finset.univ : Finset (Fin m)).fold max (Ideal.ofBits .f32 0xFF800000#32) (fun k => v (ix2 r k)) := by
  refine (Ideal.multiReduction_maximumf_single v _ h hφ hacc (ix1 r)).trans ?_
  refine congrArg (Finset.fold max (Ideal.ofBits .f32 0xFF800000#32) · Finset.univ) ?_
  funext k
  refine congrArg v ?_
  funext a
  match a with
  | ⟨0, _⟩ => rfl
  | ⟨1, _⟩ => rfl

/-- A vector `[n]` cast to a column `[n, 1]` reads, at `(r, u)`, the vector at `r`. -/
theorem shapeCast_a_a1_apply {α : Type} {n : Nat} (x : (⟨1, ![n]⟩ : Shape).Idx → α)
    (h : (⟨1, ![n]⟩ : Shape).ShapeCasts ⟨2, ![n, 1]⟩) (r : Fin n) (u : Fin 1) :
    shapeCast ⟨2, ![n, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[n, 1]` broadcast to `[n, m]` reads, at `(r, c)`, the column at `r`. -/
theorem broadcastTo_a1_ab_apply {α : Type} {n m : Nat} (v : (⟨2, ![n, 1]⟩ : Shape).Idx → α)
    (h : (⟨2, ![n, 1]⟩ : Shape).Broadcasts ⟨2, ![n, m]⟩) (r : Fin n) (c : Fin m) :
    broadcastTo ⟨2, ![n, m]⟩ v h (ix2 r c) = v (ix2 r (0 : Fin 1)) := by
  refine broadcastTo_apply v h (ix2 r c) (ix2 r (0 : Fin 1)) fun ax => ?_
  match ax with
  | ⟨0, _⟩ =>
    show r.val = if n = 1 then 0 else r.val
    split
    · have := r.isLt; omega
    · rfl
  | ⟨1, _⟩ => rfl

end Cert.ReferenceIdeal.Read

end
-- ==== Proof.RefPayA.lean ====
/-
  The first encoder layer's small payloads read at an entry: the block's leading unit axis dropped, the mask passed
  through, the slices of the value weights, of the output projection and of the last head's queries and keys, and the
  input projection `x · w0 + b0`.
-/
import proofs.«141667_g2000002524955183_pallasbulk_3_44_alg».proof.Proof.Gen.ReferenceIdeal.Skeleton
import proofs.«141667_g2000002524955183_pallasbulk_3_44_alg».proof.Proof.RefDots
import proofs.«141667_g2000002524955183_pallasbulk_3_44_alg».proof.Proof.RefLayout

noncomputable section

namespace Cert.ReferenceIdeal.Read

open Idealize.ShloMosaic Idealize.ShloMosaic.ValueIdx Cert.ReferenceIdeal
open scoped BigOperators

/-- The input block `[1, 64, 256]` viewed `[64, 256]`. -/
theorem pay2_apply (v0 : Vec Ideal S1x64x256 .f32) (s : Fin 64) (c : Fin 256) :
    Gen.k0_pay2 v0 (ix2 s c) = v0 (ix3 (0 : Fin 1) s c) := by
  unfold Gen.k0_pay2
  exact shapeCast_1ab_ab_apply v0 _ s c

/-- The mask, cast to its own shape. -/
theorem pay3_apply (v2 : Vec Ideal S64x64 .f32) (i j : Fin 64) :
    Gen.k0_pay3 v2 (ix2 i j) = v2 (ix2 i j) := by
  unfold Gen.k0_pay3
  rw [shapeCast_self]

/-- The input projection: `(x · w0)[s, c] + b0[c]`. -/
theorem pay4_apply (v0 : Vec Ideal S1x64x256 .f32) (v4 : Vec Ideal S256x128 .f32) (v6 : Vec Ideal S1x128 .f32)
    (s : Fin 64) (c : Fin 128) :
    Gen.k0_pay4 v0 v4 v6 (ix2 s c)
      = (∑ e : Fin 256, v0 (ix3 (0 : Fin 1) s e) * v4 (ix2 e c)) + v6 (ix2 (0 : Fin 1) c) := by
  unfold Gen.k0_pay4
  show matmul dot_S64x256_S256x128_S64x128_1_0_0_1_n_n none (Gen.k0_pay2 v0) v4 (constant S64x128 .f32 0x00000000#32) (ix2 s c)
      + broadcastTo S64x128 v6 Gen.broadcasts_S1x128_S64x128 (ix2 s c) = _
  rw [mm_64x256_256x128, broadcastTo_1b_ab_apply]
  simp only [pay2_apply]

/-- The first 128 rows of the value weights. -/
theorem pay7_apply (v29 : Vec Ideal S256x256 .f32) (k : Fin 128) (c : Fin 256) :
    Gen.k0_pay7 v29 (ix2 k c) = v29 (ix2 ⟨k.val, by omega⟩ c) := by
  unfold Gen.k0_pay7
  exact slice2_axis0_apply 0 v29 _ k c _ (by simp)

/-- Rows 96 … 127 of the output projection (the fourth head's). -/
theorem pay14_apply (v39 : Vec Ideal S256x256 .f32) (d : Fin 32) (c : Fin 256) :
    Gen.k0_pay14 v39 (ix2 d c) = v39 (ix2 ⟨96 + d.val, by omega⟩ c) := by
  unfold Gen.k0_pay14
  exact slice2_axis0_apply 96 v39 _ d c _ rfl

/-- The seventh head's queries, scaled. -/
theorem pay16_apply (v18 : FVec Ideal S64x256 .f32) (i : Fin 64) (d : Fin 32) :
    Gen.k0_pay16 v18 (ix2 i d) = v18 (ix2 i ⟨192 + d.val, by omega⟩) * Ideal.ofBits .f32 0x3E3504F3#32 := by
  unfold Gen.k0_pay16
  show extractStridedSlice S64x32 ![0, 192] v18 Gen.slices_S64x256_o0_192_S64x32 (ix2 i d) * _ = _
  rw [slice2_axis1_apply 192 v18 _ i d ⟨192 + d.val, by omega⟩ rfl]
  rfl

/-- The seventh head's keys. -/
theorem pay17_apply (v28 : FVec Ideal S64x256 .f32) (j : Fin 64) (d : Fin 32) :
    Gen.k0_pay17 v28 (ix2 j d) = v28 (ix2 j ⟨192 + d.val, by omega⟩) := by
  unfold Gen.k0_pay17
  exact slice2_axis1_apply 192 v28 _ j d _ rfl

/-! ### The second encoder layer

The second layer's kernel prints the same payloads over its own parameter set, so each reading above holds of it word
for word. -/

theorem k1_pay2_eq_k0 {F : FTy → Type} [FloatOps F] : Gen.k1_pay2 (F := F) = Gen.k0_pay2 (F := F) := rfl
theorem k1_pay3_eq_k0 {F : FTy → Type} [FloatOps F] : Gen.k1_pay3 (F := F) = Gen.k0_pay3 (F := F) := rfl
theorem k1_pay4_eq_k0 {F : FTy → Type} [FloatOps F] : Gen.k1_pay4 (F := F) = Gen.k0_pay4 (F := F) := rfl
theorem k1_pay7_eq_k0 {F : FTy → Type} [FloatOps F] : Gen.k1_pay7 (F := F) = Gen.k0_pay7 (F := F) := rfl
theorem k1_pay14_eq_k0 {F : FTy → Type} [FloatOps F] : Gen.k1_pay14 (F := F) = Gen.k0_pay14 (F := F) := rfl
theorem k1_pay16_eq_k0 {F : FTy → Type} [FloatOps F] : Gen.k1_pay16 (F := F) = Gen.k0_pay16 (F := F) := rfl
theorem k1_pay17_eq_k0 {F : FTy → Type} [FloatOps F] : Gen.k1_pay17 (F := F) = Gen.k0_pay17 (F := F) := rfl

theorem k1_pay2_apply (v0 : Vec Ideal S1x64x256 .f32) (s : Fin 64) (c : Fin 256) :
    Gen.k1_pay2 v0 (ix2 s c) = v0 (ix3 (0 : Fin 1) s c) :=
  pay2_apply v0 s c

theorem k1_pay3_apply (v2 : Vec Ideal S64x64 .f32) (i j : Fin 64) :
    Gen.k1_pay3 v2 (ix2 i j) = v2 (ix2 i j) :=
  pay3_apply v2 i j

theorem k1_pay4_apply (v0 : Vec Ideal S1x64x256 .f32) (v4 : Vec Ideal S256x128 .f32) (v6 : Vec Ideal S1x128 .f32)
    (s : Fin 64) (c : Fin 128) :
    Gen.k1_pay4 v0 v4 v6 (ix2 s c)
      = (∑ e : Fin 256, v0 (ix3 (0 : Fin 1) s e) * v4 (ix2 e c)) + v6 (ix2 (0 : Fin 1) c) :=
  pay4_apply v0 v4 v6 s c

theorem k1_pay7_apply (v29 : Vec Ideal S256x256 .f32) (k : Fin 128) (c : Fin 256) :
    Gen.k1_pay7 v29 (ix2 k c) = v29 (ix2 ⟨k.val, by omega⟩ c) :=
  pay7_apply v29 k c

theorem k1_pay14_apply (v39 : Vec Ideal S256x256 .f32) (d : Fin 32) (c : Fin 256) :
    Gen.k1_pay14 v39 (ix2 d c) = v39 (ix2 ⟨96 + d.val, by omega⟩ c) :=
  pay14_apply v39 d c

theorem k1_pay16_apply (v18 : FVec Ideal S64x256 .f32) (i : Fin 64) (d : Fin 32) :
    Gen.k1_pay16 v18 (ix2 i d) = v18 (ix2 i ⟨192 + d.val, by omega⟩) * Ideal.ofBits .f32 0x3E3504F3#32 :=
  pay16_apply v18 i d

theorem k1_pay17_apply (v28 : FVec Ideal S64x256 .f32) (j : Fin 64) (d : Fin 32) :
    Gen.k1_pay17 v28 (ix2 j d) = v28 (ix2 j ⟨192 + d.val, by omega⟩) :=
  pay17_apply v28 j d

end Cert.ReferenceIdeal.Read

end
-- ==== Proof.RefPayB.lean ====
/-
  The first encoder layer's projections read at an entry. The input projection `src1 = x · w0 + b0` feeds the query, key
  and value projections; each of those is the sum of two products — `src1` against the first 128 rows of the weight and the
  positional embedding against the last 128 — plus the bias row.
-/
import proofs.«141667_g2000002524955183_pallasbulk_3_44_alg».proof.Proof.Gen.ReferenceIdeal.Skeleton
import proofs.«141667_g2000002524955183_pallasbulk_3_44_alg».proof.Proof.RefDots
import proofs.«141667_g2000002524955183_pallasbulk_3_44_alg».proof.Proof.RefLayout

noncomputable section

namespace Cert.ReferenceIdeal.Read

open Idealize.ShloMosaic Idealize.ShloMosaic.ValueIdx Cert.ReferenceIdeal
open scoped BigOperators

/-- The input projection `src1[s, e] = (x · w0)[s, e] + b0[e]`, entry by entry. -/
def src1At (v0 : Vec Ideal S1x64x256 .f32) (v4 : Vec Ideal S256x128 .f32) (v6 : Vec Ideal S1x128 .f32)
    (s : Fin 64) (e : Fin 128) : EReal :=
  (∑ f : Fin 256, v0 (ix3 (0 : Fin 1) s f) * v4 (ix2 f e)) + v6 (ix2 (0 : Fin 1) e)

theorem pay4_eq_src1At (v0 : Vec Ideal S1x64x256 .f32) (v4 : Vec Ideal S256x128 .f32) (v6 : Vec Ideal S1x128 .f32)
    (s : Fin 64) (e : Fin 128) : Gen.k0_pay4 v0 v4 v6 (ix2 s e) = src1At v0 v4 v6 s e := by
  unfold Gen.k0_pay4 src1At
  show matmul dot_S64x256_S256x128_S64x128_1_0_0_1_n_n none (Gen.k0_pay2 v0) (v4 : FVec Ideal S256x128 .f32) (constant S64x128 .f32 0x00000000#32) (ix2 s e)
      + broadcastTo S64x128 v6 Gen.broadcasts_S1x128_S64x128 (ix2 s e) = _
  rw [mm_64x256_256x128, broadcastTo_1b_ab_apply]
  unfold Gen.k0_pay2
  simp only [shapeCast_1ab_ab_apply]

/-- A projection of the pair (`a`, `emb`) through a `[256, 256]` weight and a bias row:
    `(a · W[:128])[s, c] + (emb · W[128:])[s, c] + b[c]`. -/
def projAt (a : Fin 64 → Fin 128 → EReal) (w : Vec Ideal S256x256 .f32) (emb : Vec Ideal S64x128 .f32)
    (b : Vec Ideal S1x256 .f32) (s : Fin 64) (c : Fin 256) : EReal :=
  ((∑ e : Fin 128, a s e * w (ix2 ⟨e.val, by omega⟩ c))
    + (∑ e : Fin 128, emb (ix2 s e) * w (ix2 ⟨128 + e.val, by omega⟩ c))) + b (ix2 (0 : Fin 1) c)

/-- The printed projection over any vector `a` in place of `src1`. -/
theorem proj_apply (a : FVec Ideal S64x128 .f32) (w : FVec Ideal S256x256 .f32) (emb : FVec Ideal S64x128 .f32)
    (b : FVec Ideal S1x256 .f32) (s : Fin 64) (c : Fin 256) :
    addf (addf
        (matmul dot_S64x128_S128x256_S64x256_1_0_0_1_n_n none a
          (extractStridedSlice S128x256 ![0, 0] w Gen.slices_S256x256_o0_0_S128x256) (constant S64x256 .f32 0x00000000#32))
        (matmul dot_S64x128_S128x256_S64x256_1_0_0_1_n_n none emb
          (extractStridedSlice S128x256 ![128, 0] w Gen.slices_S256x256_o128_0_S128x256) (constant S64x256 .f32 0x00000000#32)))
      (broadcastTo S64x256 b Gen.broadcasts_S1x256_S64x256) (ix2 s c)
      = projAt (fun s e => a (ix2 s e)) w emb b s c := by
  unfold projAt
  rw [addf_apply, addf_apply, mm_64x128_128x256, mm_64x128_128x256, broadcastTo_1b_ab_apply]
  simp only [slice2_axis0_eq, Nat.zero_add]

/-- The queries: `src1 · wq[:128] + emb · wq[128:] + bq`. -/
theorem pay5_apply (v0 : Vec Ideal S1x64x256 .f32) (v4 : Vec Ideal S256x128 .f32) (v6 : Vec Ideal S1x128 .f32)
    (v9 : Vec Ideal S256x256 .f32) (v12 : Vec Ideal S64x128 .f32) (v16 : Vec Ideal S1x256 .f32) (s : Fin 64) (c : Fin 256) :
    Gen.k0_pay5 v0 v4 v6 v9 v12 v16 (ix2 s c) = projAt (src1At v0 v4 v6) v9 v12 v16 s c := by
  unfold Gen.k0_pay5
  refine (proj_apply (Gen.k0_pay4 v0 v4 v6) v9 v12 v16 s c).trans ?_
  simp only [pay4_eq_src1At]

/-- The keys: the same over the key weights. -/
theorem pay6_apply (v0 : Vec Ideal S1x64x256 .f32) (v4 : Vec Ideal S256x128 .f32) (v6 : Vec Ideal S1x128 .f32)
    (v19 : Vec Ideal S256x256 .f32) (v22 : Vec Ideal S64x128 .f32) (v26 : Vec Ideal S1x256 .f32) (s : Fin 64) (c : Fin 256) :
    Gen.k0_pay6 v0 v4 v6 v19 v22 v26 (ix2 s c) = projAt (src1At v0 v4 v6) v19 v22 v26 s c := by
  unfold Gen.k0_pay6
  refine (proj_apply (Gen.k0_pay4 v0 v4 v6) v19 v22 v26 s c).trans ?_
  simp only [pay4_eq_src1At]

/-- The values, from `src1` as a value already read (`v8`) and the first half of the weight already sliced (`v30`). -/
theorem pay8_apply (v8 : FVec Ideal S64x128 .f32) (v29 : Vec Ideal S256x256 .f32) (v30 : FVec Ideal S128x256 .f32)
    (v32 : Vec Ideal S64x128 .f32) (v36 : Vec Ideal S1x256 .f32) (s : Fin 64) (c : Fin 256) :
    Gen.k0_pay8 v8 v29 v30 v32 v36 (ix2 s c)
      = ((∑ e : Fin 128, v8 (ix2 s e) * v30 (ix2 e c))
          + (∑ e : Fin 128, v32 (ix2 s e) * v29 (ix2 ⟨128 + e.val, by omega⟩ c))) + v36 (ix2 (0 : Fin 1) c) := by
  unfold Gen.k0_pay8
  show (matmul dot_S64x128_S128x256_S64x256_1_0_0_1_n_n none v8 v30 (constant S64x256 .f32 0x00000000#32) (ix2 s c)
      + matmul dot_S64x128_S128x256_S64x256_1_0_0_1_n_n none (v32 : FVec Ideal S64x128 .f32)
          (extractStridedSlice S128x256 ![128, 0] (v29 : FVec Ideal S256x256 .f32) Gen.slices_S256x256_o128_0_S128x256) (constant S64x256 .f32 0x00000000#32) (ix2 s c))
      + broadcastTo S64x256 v36 Gen.broadcasts_S1x256_S64x256 (ix2 s c) = _
  rw [mm_64x128_128x256, mm_64x128_128x256, broadcastTo_1b_ab_apply]
  simp only [slice2_axis0_eq]

/-- The second head's values: columns 32 … 63 of the value projection. -/
theorem pay10_apply (v8 : FVec Ideal S64x128 .f32) (v29 : Vec Ideal S256x256 .f32) (v30 : FVec Ideal S128x256 .f32)
    (v32 : Vec Ideal S64x128 .f32) (v36 : Vec Ideal S1x256 .f32) (j : Fin 64) (d : Fin 32) :
    Gen.k0_pay10 v8 v29 v30 v32 v36 (ix2 j d)
      = ((∑ e : Fin 128, v8 (ix2 j e) * v30 (ix2 e ⟨32 + d.val, by omega⟩))
          + (∑ e : Fin 128, v32 (ix2 j e) * v29 (ix2 ⟨128 + e.val, by omega⟩ ⟨32 + d.val, by omega⟩)))
        + v36 (ix2 (0 : Fin 1) ⟨32 + d.val, by omega⟩) := by
  unfold Gen.k0_pay10
  refine (slice2_axis1_apply 32 (Gen.k0_pay8 v8 v29 v30 v32 v36) _ j d ⟨32 + d.val, by omega⟩ rfl).trans ?_
  exact pay8_apply v8 v29 v30 v32 v36 j _

/-! ### The second encoder layer

The second layer's kernel prints the same payloads over its own parameter set, so each reading above holds of it word
for word. -/

theorem k1_pay4_eq_k0 {F : FTy → Type} [FloatOps F] : Gen.k1_pay4 (F := F) = Gen.k0_pay4 (F := F) := rfl
theorem k1_pay5_eq_k0 {F : FTy → Type} [FloatOps F] : Gen.k1_pay5 (F := F) = Gen.k0_pay5 (F := F) := rfl
theorem k1_pay6_eq_k0 {F : FTy → Type} [FloatOps F] : Gen.k1_pay6 (F := F) = Gen.k0_pay6 (F := F) := rfl
theorem k1_pay8_eq_k0 {F : FTy → Type} [FloatOps F] : Gen.k1_pay8 (F := F) = Gen.k0_pay8 (F := F) := rfl
theorem k1_pay10_eq_k0 {F : FTy → Type} [FloatOps F] : Gen.k1_pay10 (F := F) = Gen.k0_pay10 (F := F) := rfl

theorem k1_pay4_eq_src1At (v0 : Vec Ideal S1x64x256 .f32) (v4 : Vec Ideal S256x128 .f32) (v6 : Vec Ideal S1x128 .f32)
    (s : Fin 64) (e : Fin 128) :
    Gen.k1_pay4 v0 v4 v6 (ix2 s e) = src1At v0 v4 v6 s e :=
  pay4_eq_src1At v0 v4 v6 s e

theorem k1_pay5_apply (v0 : Vec Ideal S1x64x256 .f32) (v4 : Vec Ideal S256x128 .f32) (v6 : Vec Ideal S1x128 .f32)
    (v9 : Vec Ideal S256x256 .f32) (v12 : Vec Ideal S64x128 .f32) (v16 : Vec Ideal S1x256 .f32) (s : Fin 64) (c : Fin 256) :
    Gen.k1_pay5 v0 v4 v6 v9 v12 v16 (ix2 s c) = projAt (src1At v0 v4 v6) v9 v12 v16 s c :=
  pay5_apply v0 v4 v6 v9 v12 v16 s c

theorem k1_pay6_apply (v0 : Vec Ideal S1x64x256 .f32) (v4 : Vec Ideal S256x128 .f32) (v6 : Vec Ideal S1x128 .f32)
    (v19 : Vec Ideal S256x256 .f32) (v22 : Vec Ideal S64x128 .f32) (v26 : Vec Ideal S1x256 .f32) (s : Fin 64) (c : Fin 256) :
    Gen.k1_pay6 v0 v4 v6 v19 v22 v26 (ix2 s c) = projAt (src1At v0 v4 v6) v19 v22 v26 s c :=
  pay6_apply v0 v4 v6 v19 v22 v26 s c

theorem k1_pay8_apply (v8 : FVec Ideal S64x128 .f32) (v29 : Vec Ideal S256x256 .f32) (v30 : FVec Ideal S128x256 .f32)
    (v32 : Vec Ideal S64x128 .f32) (v36 : Vec Ideal S1x256 .f32) (s : Fin 64) (c : Fin 256) :
    Gen.k1_pay8 v8 v29 v30 v32 v36 (ix2 s c)
      = ((∑ e : Fin 128, v8 (ix2 s e) * v30 (ix2 e c))
          + (∑ e : Fin 128, v32 (ix2 s e) * v29 (ix2 ⟨128 + e.val, by omega⟩ c))) + v36 (ix2 (0 : Fin 1) c) :=
  pay8_apply v8 v29 v30 v32 v36 s c

theorem k1_pay10_apply (v8 : FVec Ideal S64x128 .f32) (v29 : Vec Ideal S256x256 .f32) (v30 : FVec Ideal S128x256 .f32)
    (v32 : Vec Ideal S64x128 .f32) (v36 : Vec Ideal S1x256 .f32) (j : Fin 64) (d : Fin 32) :
    Gen.k1_pay10 v8 v29 v30 v32 v36 (ix2 j d)
      = ((∑ e : Fin 128, v8 (ix2 j e) * v30 (ix2 e ⟨32 + d.val, by omega⟩))
          + (∑ e : Fin 128, v32 (ix2 j e) * v29 (ix2 ⟨128 + e.val, by omega⟩ ⟨32 + d.val, by omega⟩)))
        + v36 (ix2 (0 : Fin 1) ⟨32 + d.val, by omega⟩) :=
  pay10_apply v8 v29 v30 v32 v36 j d

end Cert.ReferenceIdeal.Read

end
-- ==== Proof.RefAttn.lean ====
/-
  One attention head of the reference's encoder layer, read at an entry. The head at column offset `off` (a multiple
  of 32) takes columns `off … off + 31` of the queries, keys and values. Its scores are the scaled queries against the
  keys plus the mask; a row softmax (row maximum from minus infinity, exponential of the difference, row sum, quotient)
  gives the probabilities; the probabilities times the head's values, times rows `off … off + 31` of the output
  projection, is the head's contribution to the attention output. Each step is a printed sub-term, named here as a
  vector-level function, with its entry-level reading.
-/
import proofs.«141667_g2000002524955183_pallasbulk_3_44_alg».proof.Proof.Gen.ReferenceIdeal.Skeleton
import proofs.«141667_g2000002524955183_pallasbulk_3_44_alg».proof.Proof.RefDots
import proofs.«141667_g2000002524955183_pallasbulk_3_44_alg».proof.Proof.RefLayout

noncomputable section

namespace Cert.ReferenceIdeal.Read

open Idealize.ShloMosaic Idealize.ShloMosaic.ValueIdx Cert.ReferenceIdeal
open scoped BigOperators

/-! ### Entry-level readings -/

/-- The head's score of query row `i` against key row `j`. -/
def score (off : Nat) (hoff : off + 32 ≤ 256) (q k : FVec Ideal S64x256 .f32) (mask : FVec Ideal S64x64 .f32)
    (i j : Fin 64) : EReal :=
  (∑ d : Fin 32, (q (ix2 i ⟨off + d.val, by omega⟩) * Ideal.ofBits .f32 0x3E3504F3#32) * k (ix2 j ⟨off + d.val, by omega⟩))
    + mask (ix2 i j)

/-- A row's maximum, folded from minus infinity. -/
def rowMaxOf (f : Fin 64 → EReal) : EReal :=
  (Finset.univ : Finset (Fin 64)).fold max (Ideal.ofBits .f32 0xFF800000#32) f

/-- The exponentials of a score table, each row shifted by its maximum. -/
def expOf (sc : Fin 64 → Fin 64 → EReal) (i j : Fin 64) : EReal := Ideal.exp (sc i j - rowMaxOf (sc i))

/-- A table of exponentials divided by its row sums. -/
def probOf (e : Fin 64 → Fin 64 → EReal) (i j : Fin 64) : EReal := Ideal.div (e i j) (∑ j' : Fin 64, e i j')

/-- Columns `off … off + 31` of a `[64, 256]` table: the head's share of the queries, keys or values. -/
def colsOf (off : Nat) (hoff : off + 32 ≤ 256) (V : Fin 64 → Fin 256 → EReal) (j : Fin 64) (d : Fin 32) : EReal :=
  V j ⟨off + d.val, by omega⟩

/-- Probabilities `P` times a head's values `Vs` (a `[64, 32]` table), read at `(i, d)`. -/
def ctxOf (P : Fin 64 → Fin 64 → EReal) (Vs : Fin 64 → Fin 32 → EReal) (i : Fin 64) (d : Fin 32) : EReal :=
  ∑ j : Fin 64, P i j * Vs j d

/-- A head's context `O` (a `[64, 32]` table) through rows `off … off + 31` of the output projection. -/
def outOf (off : Nat) (hoff : off + 32 ≤ 256) (O : Fin 64 → Fin 32 → EReal) (wo : FVec Ideal S256x256 .f32)
    (i : Fin 64) (c : Fin 256) : EReal :=
  ∑ d : Fin 32, O i d * wo (ix2 ⟨off + d.val, by omega⟩ c)

/-! ### The printed sub-terms -/

/-- The printed scores of the head at column offset `off`. -/
def scoresV (off : Nat) (hs : S64x256.Slices ![0, off] S64x32) (q k : FVec Ideal S64x256 .f32)
    (mask : FVec Ideal S64x64 .f32) : FVec Ideal S64x64 .f32 :=
  addf (matmul dot_S64x32_S64x32_S64x64_1_1_0_0_n_n none
      (mulf (extractStridedSlice S64x32 ![0, off] q hs) (broadcast S64x32 (Scalar.ofBits (F := Ideal) .f32 0x3E3504F3#32)))
      (extractStridedSlice S64x32 ![0, off] k hs) (constant S64x64 .f32 0x00000000#32)) mask

/-- The same from queries already sliced and scaled and keys already sliced. -/
def scoresV' (qs ks : FVec Ideal S64x32 .f32) (mask : FVec Ideal S64x64 .f32) : FVec Ideal S64x64 .f32 :=
  addf (matmul dot_S64x32_S64x32_S64x64_1_1_0_0_n_n none qs ks (constant S64x64 .f32 0x00000000#32)) mask

/-- The printed shifted exponentials of a score matrix. -/
def expV (sc : FVec Ideal S64x64 .f32) : FVec Ideal S64x64 .f32 :=
  exp (subf sc (broadcastTo S64x64 (shapeCast S64x1
    (multiReduction .maximumf [1] S64 sc 0xFF800000#32 Gen.reduces_S64x64_S64 (.inl rfl) rfl)
    Gen.shapeCasts_S64_S64x1) Gen.broadcasts_S64x1_S64x64))

/-- The printed row normalisation of a matrix of exponentials. -/
def normV (e : FVec Ideal S64x64 .f32) : FVec Ideal S64x64 .f32 :=
  divf e (broadcastTo S64x64 (shapeCast S64x1
    (multiReduction .add [1] S64 e 0x00000000#32 Gen.reduces_S64x64_S64 (.inl rfl) rfl)
    Gen.shapeCasts_S64_S64x1) Gen.broadcasts_S64x1_S64x64)

/-- The printed context: probabilities times an already sliced `[64, 32]` block of values. -/
def ctxV (p : FVec Ideal S64x64 .f32) (vs : FVec Ideal S64x32 .f32) : FVec Ideal S64x32 .f32 :=
  matmul dot_S64x64_S64x32_S64x32_1_0_0_1_n_n none p vs (constant S64x32 .f32 0x00000000#32)

/-- The printed output projection of a head's context through an already sliced `[32, 256]` block of weights. -/
def outV (o : FVec Ideal S64x32 .f32) (ws : FVec Ideal S32x256 .f32) : FVec Ideal S64x256 .f32 :=
  matmul dot_S64x32_S32x256_S64x256_1_0_0_1_n_n none o ws (constant S64x256 .f32 0x00000000#32)

/-! ### Their readings -/

theorem scoresV'_apply (qs ks : FVec Ideal S64x32 .f32) (mask : FVec Ideal S64x64 .f32) (i j : Fin 64) :
    scoresV' qs ks mask (ix2 i j) = (∑ d : Fin 32, qs (ix2 i d) * ks (ix2 j d)) + mask (ix2 i j) := by
  unfold scoresV'
  rw [addf_apply, mm_64x32_64x32_t]

theorem scoresV_apply (off : Nat) (hoff : off + 32 ≤ 256) (hs : S64x256.Slices ![0, off] S64x32)
    (q k : FVec Ideal S64x256 .f32) (mask : FVec Ideal S64x64 .f32) (i j : Fin 64) :
    scoresV off hs q k mask (ix2 i j) = score off hoff q k mask i j := by
  unfold scoresV score
  rw [addf_apply, mm_64x32_64x32_t]
  simp only [mulf_apply, slice2_axis1_eq, broadcast_apply]
  rfl

theorem expV_apply (sc : FVec Ideal S64x64 .f32) (i j : Fin 64) :
    expV sc (ix2 i j) = expOf (fun i j => sc (ix2 i j)) i j := by
  unfold expV expOf rowMaxOf
  show Ideal.exp (sc (ix2 i j) - broadcastTo S64x64 _ Gen.broadcasts_S64x1_S64x64 (ix2 i j)) = _
  rw [broadcastTo_a1_ab_apply, shapeCast_a_a1_apply]
  exact congrArg (fun m => Ideal.exp (sc (ix2 i j) - m)) (rowMax_apply sc _ _ _ i)

theorem normV_apply (e : FVec Ideal S64x64 .f32) (i j : Fin 64) :
    normV e (ix2 i j) = probOf (fun i j => e (ix2 i j)) i j := by
  unfold normV probOf
  rw [divf_apply, broadcastTo_a1_ab_apply, shapeCast_a_a1_apply]
  exact congrArg (fun m => Ideal.div (e (ix2 i j)) m) (rowSum_apply e _ _ _ i)

theorem ctxV_apply (p : FVec Ideal S64x64 .f32) (vs : FVec Ideal S64x32 .f32) (i : Fin 64) (d : Fin 32) :
    ctxV p vs (ix2 i d) = ∑ j : Fin 64, p (ix2 i j) * vs (ix2 j d) := by
  unfold ctxV
  rw [mm_64x64_64x32]

theorem outV_apply (o : FVec Ideal S64x32 .f32) (ws : FVec Ideal S32x256 .f32) (i : Fin 64) (c : Fin 256) :
    outV o ws (ix2 i c) = ∑ d : Fin 32, o (ix2 i d) * ws (ix2 d c) := by
  unfold outV
  rw [mm_64x32_32x256]

/-- A whole head from unsliced operands: the printed chain slices, scores, softmax, context, projection. -/
theorem head_apply (off : Nat) (hoff : off + 32 ≤ 256) (hs : S64x256.Slices ![0, off] S64x32)
    (hw : S256x256.Slices ![off, 0] S32x256) (q k v : FVec Ideal S64x256 .f32) (mask : FVec Ideal S64x64 .f32)
    (wo : FVec Ideal S256x256 .f32) (i : Fin 64) (c : Fin 256) :
    outV (ctxV (normV (expV (scoresV off hs q k mask))) (extractStridedSlice S64x32 ![0, off] v hs))
        (extractStridedSlice S32x256 ![off, 0] wo hw) (ix2 i c)
      = outOf off hoff (ctxOf (probOf (expOf (score off hoff q k mask))) (colsOf off hoff fun j c => v (ix2 j c))) wo i c := by
  unfold outOf ctxOf colsOf
  rw [outV_apply]
  simp only [ctxV_apply, normV_apply, expV_apply, scoresV_apply off hoff, slice2_axis1_eq, slice2_axis0_eq]

/-- The tail of a head whose exponentials and sliced values were already read: normalisation, context, and the
    projection through rows `off … off + 31` of the output weights. -/
theorem headTail_apply (off : Nat) (hoff : off + 32 ≤ 256) (hw : S256x256.Slices ![off, 0] S32x256)
    (e : FVec Ideal S64x64 .f32) (vs : FVec Ideal S64x32 .f32) (wo : FVec Ideal S256x256 .f32) (i : Fin 64) (c : Fin 256) :
    outV (ctxV (normV e) vs) (extractStridedSlice S32x256 ![off, 0] wo hw) (ix2 i c)
      = outOf off hoff (ctxOf (probOf fun i j => e (ix2 i j)) fun j d => vs (ix2 j d)) wo i c := by
  unfold outOf ctxOf
  rw [outV_apply]
  simp only [ctxV_apply, normV_apply, slice2_axis0_eq]

/-- The context of a whole head from unsliced operands. -/
theorem ctxHead_apply (off : Nat) (hoff : off + 32 ≤ 256) (hs : S64x256.Slices ![0, off] S64x32)
    (q k v : FVec Ideal S64x256 .f32) (mask : FVec Ideal S64x64 .f32) (i : Fin 64) (d : Fin 32) :
    ctxV (normV (expV (scoresV off hs q k mask))) (extractStridedSlice S64x32 ![0, off] v hs) (ix2 i d)
      = ctxOf (probOf (expOf (score off hoff q k mask))) (colsOf off hoff fun j c => v (ix2 j c)) i d := by
  unfold ctxOf colsOf
  rw [ctxV_apply]
  simp only [normV_apply, expV_apply, scoresV_apply off hoff, slice2_axis1_eq]

/-- A whole head whose scaled queries and keys were already sliced. -/
theorem headPre_apply (off : Nat) (hoff : off + 32 ≤ 256) (hs : S64x256.Slices ![0, off] S64x32)
    (hw : S256x256.Slices ![off, 0] S32x256) (qs ks : FVec Ideal S64x32 .f32) (v : FVec Ideal S64x256 .f32)
    (mask : FVec Ideal S64x64 .f32) (wo : FVec Ideal S256x256 .f32) (i : Fin 64) (c : Fin 256) :
    outV (ctxV (normV (expV (scoresV' qs ks mask))) (extractStridedSlice S64x32 ![0, off] v hs))
        (extractStridedSlice S32x256 ![off, 0] wo hw) (ix2 i c)
      = outOf off hoff (ctxOf (probOf (expOf fun i j => (∑ d : Fin 32, qs (ix2 i d) * ks (ix2 j d)) + mask (ix2 i j)))
          (colsOf off hoff fun j c => v (ix2 j c))) wo i c := by
  unfold outOf ctxOf colsOf
  rw [outV_apply]
  simp only [ctxV_apply, normV_apply, expV_apply, scoresV'_apply, slice2_axis1_eq, slice2_axis0_eq]

/-- The contribution of the head at column offset `off` to the attention output, from the unsliced queries, keys,
    values and output weights. -/
def headAt (off : Nat) (hoff : off + 32 ≤ 256) (q k v : FVec Ideal S64x256 .f32) (mask : FVec Ideal S64x64 .f32)
    (wo : FVec Ideal S256x256 .f32) (i : Fin 64) (c : Fin 256) : EReal :=
  outOf off hoff (ctxOf (probOf (expOf (score off hoff q k mask))) (colsOf off hoff fun j c => v (ix2 j c))) wo i c

end Cert.ReferenceIdeal.Read

end
-- ==== Proof.RefPayC.lean ====
/-
  The first encoder layer's attention payloads read at an entry, head by head, over the entry-level readings of one
  head (scores, shifted exponentials, probabilities, context, output projection). The eight heads sit at column
  offsets 0, 32, …, 224; the payloads carry the running sum of the heads' contributions to the attention output.
-/
import proofs.«141667_g2000002524955183_pallasbulk_3_44_alg».proof.Proof.Gen.ReferenceIdeal.Skeleton
import proofs.«141667_g2000002524955183_pallasbulk_3_44_alg».proof.Proof.RefDots
import proofs.«141667_g2000002524955183_pallasbulk_3_44_alg».proof.Proof.RefLayout
import proofs.«141667_g2000002524955183_pallasbulk_3_44_alg».proof.Proof.RefPayB
import proofs.«141667_g2000002524955183_pallasbulk_3_44_alg».proof.Proof.RefAttn

noncomputable section

namespace Cert.ReferenceIdeal.Read

open Idealize.ShloMosaic Idealize.ShloMosaic.ValueIdx Cert.ReferenceIdeal
open scoped BigOperators

/-- The value projection entry by entry, from `src1` as a value already read and the weight's first half already sliced. -/
def valAt (v8 : FVec Ideal S64x128 .f32) (v29 : Vec Ideal S256x256 .f32) (v30 : FVec Ideal S128x256 .f32)
    (v32 : Vec Ideal S64x128 .f32) (v36 : Vec Ideal S1x256 .f32) (s : Fin 64) (c : Fin 256) : EReal :=
  ((∑ e : Fin 128, v8 (ix2 s e) * v30 (ix2 e c))
    + (∑ e : Fin 128, v32 (ix2 s e) * v29 (ix2 ⟨128 + e.val, by omega⟩ c))) + v36 (ix2 (0 : Fin 1) c)

theorem pay8_eq_valAt (v8 : FVec Ideal S64x128 .f32) (v29 : Vec Ideal S256x256 .f32) (v30 : FVec Ideal S128x256 .f32)
    (v32 : Vec Ideal S64x128 .f32) (v36 : Vec Ideal S1x256 .f32) (s : Fin 64) (c : Fin 256) :
    Gen.k0_pay8 v8 v29 v30 v32 v36 (ix2 s c) = valAt v8 v29 v30 v32 v36 s c :=
  pay8_apply v8 v29 v30 v32 v36 s c

/-- The first head's contribution (added to the zero splat, which is `0`), its values the value projection computed
    in place. -/
theorem pay9_apply (v3 : FVec Ideal S64x64 .f32) (v8 : FVec Ideal S64x128 .f32) (v18 v28 : FVec Ideal S64x256 .f32)
    (v29 : Vec Ideal S256x256 .f32) (v30 : FVec Ideal S128x256 .f32) (v32 : Vec Ideal S64x128 .f32)
    (v36 : Vec Ideal S1x256 .f32) (v39 : Vec Ideal S256x256 .f32) (i : Fin 64) (c : Fin 256) :
    Gen.k0_pay9 v3 v8 v18 v28 v29 v30 v32 v36 v39 (ix2 i c)
      = outOf 0 (by omega) (ctxOf (probOf (expOf (score 0 (by omega) v18 v28 v3)))
          (colsOf 0 (by omega) (valAt v8 v29 v30 v32 v36))) v39 i c := by
  unfold Gen.k0_pay9
  show Ideal.ofBits .f32 0x00000000#32
      + outV (ctxV (normV (expV (scoresV 0 Gen.slices_S64x256_o0_0_S64x32 v18 v28 v3)))
          (extractStridedSlice S64x32 ![0, 0] (Gen.k0_pay8 v8 v29 v30 v32 v36) Gen.slices_S64x256_o0_0_S64x32))
        (extractStridedSlice S32x256 ![0, 0] (v39 : FVec Ideal S256x256 .f32) Gen.slices_S256x256_o0_0_S32x256) (ix2 i c) = _
  rw [head_apply 0 (by omega), Ideal.ofBits_zero_f32, zero_add]
  simp only [pay8_eq_valAt]

/-- The second head's shifted exponentials. -/
theorem pay11_apply (v3 : FVec Ideal S64x64 .f32) (v18 v28 : FVec Ideal S64x256 .f32) (i j : Fin 64) :
    Gen.k0_pay11 v3 v18 v28 (ix2 i j) = expOf (score 32 (by omega) v18 v28 v3) i j := by
  unfold Gen.k0_pay11
  show expV (scoresV 32 Gen.slices_S64x256_o0_32_S64x32 v18 v28 v3) (ix2 i j) = _
  simp only [expV_apply, scoresV_apply 32 (by omega)]

/-- The running sum after the second and third heads: the second from its exponentials `v72` and values `v65`
    already read, the third whole. -/
theorem pay12_apply (v3 : FVec Ideal S64x64 .f32) (v18 v28 v38 : FVec Ideal S64x256 .f32) (v39 : Vec Ideal S256x256 .f32)
    (v60 : FVec Ideal S64x256 .f32) (v65 : FVec Ideal S64x32 .f32) (v72 : FVec Ideal S64x64 .f32) (i : Fin 64) (c : Fin 256) :
    Gen.k0_pay12 v3 v18 v28 v38 v39 v60 v65 v72 (ix2 i c)
      = (v60 (ix2 i c)
          + outOf 32 (by omega) (ctxOf (probOf fun i j => v72 (ix2 i j)) fun j d => v65 (ix2 j d)) v39 i c)
        + headAt 64 (by omega) v18 v28 v38 v3 v39 i c := by
  unfold Gen.k0_pay12 headAt
  show (v60 (ix2 i c)
        + outV (ctxV (normV v72) v65)
            (extractStridedSlice S32x256 ![32, 0] (v39 : FVec Ideal S256x256 .f32) Gen.slices_S256x256_o32_0_S32x256) (ix2 i c))
      + outV (ctxV (normV (expV (scoresV 64 Gen.slices_S64x256_o0_64_S64x32 v18 v28 v3)))
            (extractStridedSlice S64x32 ![0, 64] v38 Gen.slices_S64x256_o0_64_S64x32))
          (extractStridedSlice S32x256 ![64, 0] (v39 : FVec Ideal S256x256 .f32) Gen.slices_S256x256_o64_0_S32x256) (ix2 i c) = _
  rw [headTail_apply 32 (by omega), head_apply 64 (by omega)]

/-- The fourth head's context. -/
theorem pay13_apply (v3 : FVec Ideal S64x64 .f32) (v18 v28 v38 : FVec Ideal S64x256 .f32) (i : Fin 64) (d : Fin 32) :
    Gen.k0_pay13 v3 v18 v28 v38 (ix2 i d)
      = ctxOf (probOf (expOf (score 96 (by omega) v18 v28 v3))) (colsOf 96 (by omega) fun j c => v38 (ix2 j c)) i d := by
  unfold Gen.k0_pay13
  show ctxV (normV (expV (scoresV 96 Gen.slices_S64x256_o0_96_S64x32 v18 v28 v3)))
      (extractStridedSlice S64x32 ![0, 96] v38 Gen.slices_S64x256_o0_96_S64x32) (ix2 i d) = _
  rw [ctxHead_apply 96 (by omega)]

/-- The running sum after the fourth (from its context `v117` and weight rows `v118` already read), fifth and sixth
    heads. -/
theorem pay15_apply (v3 : FVec Ideal S64x64 .f32) (v18 v28 v38 : FVec Ideal S64x256 .f32) (v39 : Vec Ideal S256x256 .f32)
    (v100 : FVec Ideal S64x256 .f32) (v117 : FVec Ideal S64x32 .f32) (v118 : FVec Ideal S32x256 .f32)
    (i : Fin 64) (c : Fin 256) :
    Gen.k0_pay15 v3 v18 v28 v38 v39 v100 v117 v118 (ix2 i c)
      = ((v100 (ix2 i c) + ∑ d : Fin 32, v117 (ix2 i d) * v118 (ix2 d c))
          + headAt 128 (by omega) v18 v28 v38 v3 v39 i c)
        + headAt 160 (by omega) v18 v28 v38 v3 v39 i c := by
  unfold Gen.k0_pay15 headAt
  show ((v100 (ix2 i c) + outV v117 v118 (ix2 i c))
        + outV (ctxV (normV (expV (scoresV 128 Gen.slices_S64x256_o0_128_S64x32 v18 v28 v3)))
              (extractStridedSlice S64x32 ![0, 128] v38 Gen.slices_S64x256_o0_128_S64x32))
            (extractStridedSlice S32x256 ![128, 0] (v39 : FVec Ideal S256x256 .f32) Gen.slices_S256x256_o128_0_S32x256) (ix2 i c))
      + outV (ctxV (normV (expV (scoresV 160 Gen.slices_S64x256_o0_160_S64x32 v18 v28 v3)))
            (extractStridedSlice S64x32 ![0, 160] v38 Gen.slices_S64x256_o0_160_S64x32))
          (extractStridedSlice S32x256 ![160, 0] (v39 : FVec Ideal S256x256 .f32) Gen.slices_S256x256_o160_0_S32x256) (ix2 i c) = _
  rw [outV_apply, head_apply 128 (by omega), head_apply 160 (by omega)]

/-- The attention block's output: the running sum plus the seventh head (its scaled queries `v163` and keys `v164`
    already read) and the eighth, plus the output bias, plus the residual input `v1`. -/
theorem pay18_apply (v1 : FVec Ideal S64x256 .f32) (v3 : FVec Ideal S64x64 .f32) (v18 v28 v38 : FVec Ideal S64x256 .f32)
    (v39 : Vec Ideal S256x256 .f32) (v160 : FVec Ideal S64x256 .f32) (v163 v164 : FVec Ideal S64x32 .f32)
    (v201 : Vec Ideal S1x256 .f32) (i : Fin 64) (c : Fin 256) :
    Gen.k0_pay18 v1 v3 v18 v28 v38 v39 v160 v163 v164 v201 (ix2 i c)
      = v1 (ix2 i c)
        + (((v160 (ix2 i c)
              + outOf 192 (by omega)
                  (ctxOf (probOf (expOf fun i j => (∑ d : Fin 32, v163 (ix2 i d) * v164 (ix2 j d)) + v3 (ix2 i j)))
                    (colsOf 192 (by omega) fun j c => v38 (ix2 j c))) v39 i c)
            + headAt 224 (by omega) v18 v28 v38 v3 v39 i c)
          + v201 (ix2 (0 : Fin 1) c)) := by
  unfold Gen.k0_pay18 headAt
  show v1 (ix2 i c)
      + (((v160 (ix2 i c)
            + outV (ctxV (normV (expV (scoresV' v163 v164 v3)))
                  (extractStridedSlice S64x32 ![0, 192] v38 Gen.slices_S64x256_o0_192_S64x32))
                (extractStridedSlice S32x256 ![192, 0] (v39 : FVec Ideal S256x256 .f32) Gen.slices_S256x256_o192_0_S32x256) (ix2 i c))
          + outV (ctxV (normV (expV (scoresV 224 Gen.slices_S64x256_o0_224_S64x32 v18 v28 v3)))
                (extractStridedSlice S64x32 ![0, 224] v38 Gen.slices_S64x256_o0_224_S64x32))
              (extractStridedSlice S32x256 ![224, 0] (v39 : FVec Ideal S256x256 .f32) Gen.slices_S256x256_o224_0_S32x256) (ix2 i c))
        + broadcastTo S64x256 (v201 : FVec Ideal S1x256 .f32) Gen.broadcasts_S1x256_S64x256 (ix2 i c)) = _
  rw [headPre_apply 192 (by omega), head_apply 224 (by omega), broadcastTo_1b_ab_apply]

/-! ### The second encoder layer

The second layer's kernel prints the same payloads over its own parameter set, so each reading above holds of it word
for word. -/

theorem k1_pay9_eq_k0 {F : FTy → Type} [FloatOps F] : Gen.k1_pay9 (F := F) = Gen.k0_pay9 (F := F) := rfl
theorem k1_pay11_eq_k0 {F : FTy → Type} [FloatOps F] : Gen.k1_pay11 (F := F) = Gen.k0_pay11 (F := F) := rfl
theorem k1_pay12_eq_k0 {F : FTy → Type} [FloatOps F] : Gen.k1_pay12 (F := F) = Gen.k0_pay12 (F := F) := rfl
theorem k1_pay13_eq_k0 {F : FTy → Type} [FloatOps F] : Gen.k1_pay13 (F := F) = Gen.k0_pay13 (F := F) := rfl
theorem k1_pay15_eq_k0 {F : FTy → Type} [FloatOps F] : Gen.k1_pay15 (F := F) = Gen.k0_pay15 (F := F) := rfl
theorem k1_pay18_eq_k0 {F : FTy → Type} [FloatOps F] : Gen.k1_pay18 (F := F) = Gen.k0_pay18 (F := F) := rfl

theorem k1_pay8_eq_valAt (v8 : FVec Ideal S64x128 .f32) (v29 : Vec Ideal S256x256 .f32) (v30 : FVec Ideal S128x256 .f32)
    (v32 : Vec Ideal S64x128 .f32) (v36 : Vec Ideal S1x256 .f32) (s : Fin 64) (c : Fin 256) :
    Gen.k1_pay8 v8 v29 v30 v32 v36 (ix2 s c) = valAt v8 v29 v30 v32 v36 s c :=
  pay8_eq_valAt v8 v29 v30 v32 v36 s c

theorem k1_pay9_apply (v3 : FVec Ideal S64x64 .f32) (v8 : FVec Ideal S64x128 .f32) (v18 v28 : FVec Ideal S64x256 .f32)
    (v29 : Vec Ideal S256x256 .f32) (v30 : FVec Ideal S128x256 .f32) (v32 : Vec Ideal S64x128 .f32)
    (v36 : Vec Ideal S1x256 .f32) (v39 : Vec Ideal S256x256 .f32) (i : Fin 64) (c : Fin 256) :
    Gen.k1_pay9 v3 v8 v18 v28 v29 v30 v32 v36 v39 (ix2 i c)
      = outOf 0 (by omega) (ctxOf (probOf (expOf (score 0 (by omega) v18 v28 v3)))
          (colsOf 0 (by omega) (valAt v8 v29 v30 v32 v36))) v39 i c :=
  pay9_apply v3 v8 v18 v28 v29 v30 v32 v36 v39 i c

theorem k1_pay11_apply (v3 : FVec Ideal S64x64 .f32) (v18 v28 : FVec Ideal S64x256 .f32) (i j : Fin 64) :
    Gen.k1_pay11 v3 v18 v28 (ix2 i j) = expOf (score 32 (by omega) v18 v28 v3) i j :=
  pay11_apply v3 v18 v28 i j

theorem k1_pay12_apply (v3 : FVec Ideal S64x64 .f32) (v18 v28 v38 : FVec Ideal S64x256 .f32) (v39 : Vec Ideal S256x256 .f32)
    (v60 : FVec Ideal S64x256 .f32) (v65 : FVec Ideal S64x32 .f32) (v72 : FVec Ideal S64x64 .f32) (i : Fin 64) (c : Fin 256) :
    Gen.k1_pay12 v3 v18 v28 v38 v39 v60 v65 v72 (ix2 i c)
      = (v60 (ix2 i c)
          + outOf 32 (by omega) (ctxOf (probOf fun i j => v72 (ix2 i j)) fun j d => v65 (ix2 j d)) v39 i c)
        + headAt 64 (by omega) v18 v28 v38 v3 v39 i c :=
  pay12_apply v3 v18 v28 v38 v39 v60 v65 v72 i c

theorem k1_pay13_apply (v3 : FVec Ideal S64x64 .f32) (v18 v28 v38 : FVec Ideal S64x256 .f32) (i : Fin 64) (d : Fin 32) :
    Gen.k1_pay13 v3 v18 v28 v38 (ix2 i d)
      = ctxOf (probOf (expOf (score 96 (by omega) v18 v28 v3))) (colsOf 96 (by omega) fun j c => v38 (ix2 j c)) i d :=
  pay13_apply v3 v18 v28 v38 i d

theorem k1_pay15_apply (v3 : FVec Ideal S64x64 .f32) (v18 v28 v38 : FVec Ideal S64x256 .f32) (v39 : Vec Ideal S256x256 .f32)
    (v100 : FVec Ideal S64x256 .f32) (v117 : FVec Ideal S64x32 .f32) (v118 : FVec Ideal S32x256 .f32)
    (i : Fin 64) (c : Fin 256) :
    Gen.k1_pay15 v3 v18 v28 v38 v39 v100 v117 v118 (ix2 i c)
      = ((v100 (ix2 i c) + ∑ d : Fin 32, v117 (ix2 i d) * v118 (ix2 d c))
          + headAt 128 (by omega) v18 v28 v38 v3 v39 i c)
        + headAt 160 (by omega) v18 v28 v38 v3 v39 i c :=
  pay15_apply v3 v18 v28 v38 v39 v100 v117 v118 i c

theorem k1_pay18_apply (v1 : FVec Ideal S64x256 .f32) (v3 : FVec Ideal S64x64 .f32) (v18 v28 v38 : FVec Ideal S64x256 .f32)
    (v39 : Vec Ideal S256x256 .f32) (v160 : FVec Ideal S64x256 .f32) (v163 v164 : FVec Ideal S64x32 .f32)
    (v201 : Vec Ideal S1x256 .f32) (i : Fin 64) (c : Fin 256) :
    Gen.k1_pay18 v1 v3 v18 v28 v38 v39 v160 v163 v164 v201 (ix2 i c)
      = v1 (ix2 i c)
        + (((v160 (ix2 i c)
              + outOf 192 (by omega)
                  (ctxOf (probOf (expOf fun i j => (∑ d : Fin 32, v163 (ix2 i d) * v164 (ix2 j d)) + v3 (ix2 i j)))
                    (colsOf 192 (by omega) fun j c => v38 (ix2 j c))) v39 i c)
            + headAt 224 (by omega) v18 v28 v38 v3 v39 i c)
          + v201 (ix2 (0 : Fin 1) c)) :=
  pay18_apply v1 v3 v18 v28 v38 v39 v160 v163 v164 v201 i c

end Cert.ReferenceIdeal.Read

end
-- ==== Proof.RefNorm.lean ====
/-
  Layer normalisation over the 256 columns of a `[64, 256]` block, and the tanh-approximated GELU, read at an entry.
  The mean of a row is its sum divided by the constant 256; the variance is the mean of the squared deviations; the
  row is centred, scaled by the reciprocal square root of the variance plus the constant 1e-5, multiplied by the gain
  row and shifted by the bias row.
-/
import proofs.«141667_g2000002524955183_pallasbulk_3_44_alg».proof.Proof.Gen.ReferenceIdeal.Skeleton
import proofs.«141667_g2000002524955183_pallasbulk_3_44_alg».proof.Proof.RefDots
import proofs.«141667_g2000002524955183_pallasbulk_3_44_alg».proof.Proof.RefLayout

noncomputable section

namespace Cert.ReferenceIdeal.Read

open Idealize.ShloMosaic Idealize.ShloMosaic.ValueIdx Cert.ReferenceIdeal
open scoped BigOperators

theorem rsqrt_apply {s : Shape} {φ : FTy} (a : FVec Ideal s φ) (i : s.Idx) : rsqrt a i = Ideal.rsqrt (a i) := rfl
theorem tanh_apply {s : Shape} {φ : FTy} (a : FVec Ideal s φ) (i : s.Idx) : tanh a i = Ideal.tanh (a i) := rfl

/-! ### Entry-level readings -/

/-- The mean of row `r`: the row's sum over the constant 256. -/
def meanOf (x : Fin 64 → Fin 256 → EReal) (r : Fin 64) : EReal :=
  Ideal.div (∑ k : Fin 256, x r k) (Ideal.ofBits .f32 0x43800000#32)

/-- The variance of row `r`: the mean of the squared deviations from the row's mean. -/
def varOf (x : Fin 64 → Fin 256 → EReal) (r : Fin 64) : EReal :=
  Ideal.div (∑ k : Fin 256, (x r k - meanOf x r) * (x r k - meanOf x r)) (Ideal.ofBits .f32 0x43800000#32)

/-- The normalised row, with gain `g` and bias `b`. -/
def lnOf (x : Fin 64 → Fin 256 → EReal) (g b : Vec Ideal S1x256 .f32) (r : Fin 64) (c : Fin 256) : EReal :=
  ((x r c - meanOf x r) * Ideal.rsqrt (varOf x r + Ideal.ofBits .f32 0x3727C5AC#32)) * g (ix2 (0 : Fin 1) c)
    + b (ix2 (0 : Fin 1) c)

/-- The tanh-approximated GELU of one value. -/
def geluOf (h : EReal) : EReal :=
  (Ideal.ofBits .f32 0x3F000000#32 * h)
    * (Ideal.ofBits .f32 0x3F800000#32
        + Ideal.tanh (Ideal.ofBits .f32 0x3F4C422A#32 * (h + ((Ideal.ofBits .f32 0x3D372713#32 * h) * h) * h)))

/-! ### The printed sub-terms -/

/-- The printed row mean, kept as a column `[64, 1]`. -/
def meanV (x : FVec Ideal S64x256 .f32) : FVec Ideal S64x1 .f32 :=
  divf (shapeCast S64x1 (multiReduction .add [1] S64 x 0x00000000#32 Gen.reduces_S64x256_S64 (.inl rfl) rfl)
      Gen.shapeCasts_S64_S64x1)
    (broadcast S64x1 (Scalar.ofBits (F := Ideal) .f32 0x43800000#32))

/-- The printed layer normalisation. -/
def lnV (x : FVec Ideal S64x256 .f32) (g b : FVec Ideal S1x256 .f32) : FVec Ideal S64x256 .f32 :=
  addf (mulf (mulf (subf x (broadcastTo S64x256 (meanV x) Gen.broadcasts_S64x1_S64x256))
        (broadcastTo S64x256
          (rsqrt (addf (meanV (mulf (subf x (broadcastTo S64x256 (meanV x) Gen.broadcasts_S64x1_S64x256))
                (subf x (broadcastTo S64x256 (meanV x) Gen.broadcasts_S64x1_S64x256))))
            (broadcast S64x1 (Scalar.ofBits (F := Ideal) .f32 0x3727C5AC#32))))
          Gen.broadcasts_S64x1_S64x256))
      (broadcastTo S64x256 g Gen.broadcasts_S1x256_S64x256))
    (broadcastTo S64x256 b Gen.broadcasts_S1x256_S64x256)

/-- The printed GELU of a `[64, 256]` block. -/
def geluV (h : FVec Ideal S64x256 .f32) : FVec Ideal S64x256 .f32 :=
  mulf (mulf (broadcast S64x256 (Scalar.ofBits (F := Ideal) .f32 0x3F000000#32)) h)
    (addf (broadcast S64x256 (Scalar.ofBits (F := Ideal) .f32 0x3F800000#32))
      (tanh (mulf (broadcast S64x256 (Scalar.ofBits (F := Ideal) .f32 0x3F4C422A#32))
        (addf h (mulf (mulf (mulf (broadcast S64x256 (Scalar.ofBits (F := Ideal) .f32 0x3D372713#32)) h) h) h)))))

/-! ### Their readings -/

theorem meanV_apply (x : FVec Ideal S64x256 .f32) (r : Fin 64) (u : Fin 1) :
    meanV x (ix2 r u) = meanOf (fun r k => x (ix2 r k)) r := by
  unfold meanV meanOf
  rw [divf_apply, shapeCast_a_a1_apply]
  exact congrArg (fun m => Ideal.div m (Ideal.ofBits .f32 0x43800000#32)) (rowSum_apply x _ _ _ r)

theorem lnV_apply (x : FVec Ideal S64x256 .f32) (g b : FVec Ideal S1x256 .f32) (r : Fin 64) (c : Fin 256) :
    lnV x g b (ix2 r c) = lnOf (fun r c => x (ix2 r c)) g b r c := by
  unfold lnV lnOf
  simp only [addf_apply, mulf_apply, subf_apply, rsqrt_apply, broadcastTo_a1_ab_apply, broadcastTo_1b_ab_apply,
    meanV_apply, broadcast_apply]
  rfl

theorem geluV_apply (h : FVec Ideal S64x256 .f32) (i : S64x256.Idx) : geluV h i = geluOf (h i) := rfl

end Cert.ReferenceIdeal.Read

end
-- ==== Proof.RefPayD.lean ====
/-
  The first encoder layer's two layer normalisations and its feed-forward block read at an entry: the normalisation
  of the attention block's output, the GELU feed-forward network on it, and the normalisation of the residual sum that
  the kernel stores.
-/
import proofs.«141667_g2000002524955183_pallasbulk_3_44_alg».proof.Proof.Gen.ReferenceIdeal.Skeleton
import proofs.«141667_g2000002524955183_pallasbulk_3_44_alg».proof.Proof.RefDots
import proofs.«141667_g2000002524955183_pallasbulk_3_44_alg».proof.Proof.RefLayout
import proofs.«141667_g2000002524955183_pallasbulk_3_44_alg».proof.Proof.RefNorm

noncomputable section

namespace Cert.ReferenceIdeal.Read

open Idealize.ShloMosaic Idealize.ShloMosaic.ValueIdx Cert.ReferenceIdeal
open scoped BigOperators

/-- The first layer normalisation, of the attention block's output `v204`. -/
theorem pay19_apply (v204 : FVec Ideal S64x256 .f32) (v205 v206 : Vec Ideal S1x256 .f32) (r : Fin 64) (c : Fin 256) :
    Gen.k0_pay19 v204 v205 v206 (ix2 r c) = lnOf (fun r c => v204 (ix2 r c)) v205 v206 r c := by
  unfold Gen.k0_pay19
  exact lnV_apply v204 v205 v206 r c

/-- The feed-forward hidden layer before the activation: `(y · w1)[r, f] + b1[f]`. -/
def hiddenAt (y : Fin 64 → Fin 256 → EReal) (w1 : Vec Ideal S256x256 .f32) (b1 : Vec Ideal S1x256 .f32)
    (r : Fin 64) (f : Fin 256) : EReal :=
  (∑ e : Fin 256, y r e * w1 (ix2 e f)) + b1 (ix2 (0 : Fin 1) f)

/-- The feed-forward block without its output bias: `GELU (LN(v204) · w1 + b1) · w2`. -/
theorem pay20_apply (v204 : FVec Ideal S64x256 .f32) (v205 v206 : Vec Ideal S1x256 .f32) (v231 : Vec Ideal S256x256 .f32)
    (v233 : Vec Ideal S1x256 .f32) (v249 : Vec Ideal S256x256 .f32) (r : Fin 64) (c : Fin 256) :
    Gen.k0_pay20 v204 v205 v206 v231 v233 v249 (ix2 r c)
      = ∑ f : Fin 256, geluOf ((∑ e : Fin 256, lnOf (fun r c => v204 (ix2 r c)) v205 v206 r e * v231 (ix2 e f))
          + v233 (ix2 (0 : Fin 1) f)) * v249 (ix2 f c) := by
  unfold Gen.k0_pay20
  show matmul dot_S64x256_S256x256_S64x256_1_0_0_1_n_n none
      (geluV (addf (matmul dot_S64x256_S256x256_S64x256_1_0_0_1_n_n none (Gen.k0_pay19 v204 v205 v206)
          (v231 : FVec Ideal S256x256 .f32) (constant S64x256 .f32 0x00000000#32))
        (broadcastTo S64x256 (v233 : FVec Ideal S1x256 .f32) Gen.broadcasts_S1x256_S64x256)))
      (v249 : FVec Ideal S256x256 .f32) (constant S64x256 .f32 0x00000000#32) (ix2 r c) = _
  rw [mm_64x256_256x256]
  simp only [geluV_apply, addf_apply, mm_64x256_256x256, broadcastTo_1b_ab_apply, pay19_apply]

/-- What the layer stores: the normalisation of `LN1 + (ffn + b2)`, under a leading unit axis. -/
theorem pay1_apply (v230 v250 : FVec Ideal S64x256 .f32) (v251 v255 v256 : Vec Ideal S1x256 .f32)
    (u : Fin 1) (r : Fin 64) (c : Fin 256) :
    Gen.k0_pay1 v230 v250 v251 v255 v256 (ix3 u r c)
      = lnOf (fun r c => v230 (ix2 r c) + (v250 (ix2 r c) + v251 (ix2 (0 : Fin 1) c))) v255 v256 r c := by
  unfold Gen.k0_pay1
  show shapeCast S1x64x256
      (lnV (addf v230 (addf v250 (broadcastTo S64x256 (v251 : FVec Ideal S1x256 .f32) Gen.broadcasts_S1x256_S64x256))) v255 v256)
      Gen.shapeCasts_S64x256_S1x64x256 (ix3 u r c) = _
  rw [shapeCast_ab_1ab_apply, lnV_apply]
  simp only [addf_apply, broadcastTo_1b_ab_apply]

/-! ### The second encoder layer

The second layer's kernel prints the same payloads over its own parameter set, so each reading above holds of it word
for word. -/

theorem k1_pay19_eq_k0 {F : FTy → Type} [FloatOps F] : Gen.k1_pay19 (F := F) = Gen.k0_pay19 (F := F) := rfl
theorem k1_pay20_eq_k0 {F : FTy → Type} [FloatOps F] : Gen.k1_pay20 (F := F) = Gen.k0_pay20 (F := F) := rfl
theorem k1_pay1_eq_k0 {F : FTy → Type} [FloatOps F] : Gen.k1_pay1 (F := F) = Gen.k0_pay1 (F := F) := rfl

theorem k1_pay19_apply (v204 : FVec Ideal S64x256 .f32) (v205 v206 : Vec Ideal S1x256 .f32) (r : Fin 64) (c : Fin 256) :
    Gen.k1_pay19 v204 v205 v206 (ix2 r c) = lnOf (fun r c => v204 (ix2 r c)) v205 v206 r c :=
  pay19_apply v204 v205 v206 r c

theorem k1_pay20_apply (v204 : FVec Ideal S64x256 .f32) (v205 v206 : Vec Ideal S1x256 .f32) (v231 : Vec Ideal S256x256 .f32)
    (v233 : Vec Ideal S1x256 .f32) (v249 : Vec Ideal S256x256 .f32) (r : Fin 64) (c : Fin 256) :
    Gen.k1_pay20 v204 v205 v206 v231 v233 v249 (ix2 r c)
      = ∑ f : Fin 256, geluOf ((∑ e : Fin 256, lnOf (fun r c => v204 (ix2 r c)) v205 v206 r e * v231 (ix2 e f))
          + v233 (ix2 (0 : Fin 1) f)) * v249 (ix2 f c) :=
  pay20_apply v204 v205 v206 v231 v233 v249 r c

theorem k1_pay1_apply (v230 v250 : FVec Ideal S64x256 .f32) (v251 v255 v256 : Vec Ideal S1x256 .f32)
    (u : Fin 1) (r : Fin 64) (c : Fin 256) :
    Gen.k1_pay1 v230 v250 v251 v255 v256 (ix3 u r c)
      = lnOf (fun r c => v230 (ix2 r c) + (v250 (ix2 r c) + v251 (ix2 (0 : Fin 1) c))) v255 v256 r c :=
  pay1_apply v230 v250 v251 v255 v256 u r c

end Cert.ReferenceIdeal.Read

end
-- ==== Proof.RefPayK2.lean ====
/-
  The z-heads kernel's payloads read at an entry: each of the two heads is a `[8192, 256] × [256, 16]` product plus a
  bias row; the first adds the constant `1e-8`, the second takes `log (1 + exp ·)` and adds the same constant.
-/
import proofs.«141667_g2000002524955183_pallasbulk_3_44_alg».proof.Proof.Gen.ReferenceIdeal.Skeleton
import proofs.«141667_g2000002524955183_pallasbulk_3_44_alg».proof.Proof.RefDots
import proofs.«141667_g2000002524955183_pallasbulk_3_44_alg».proof.Proof.RefLayout

noncomputable section

namespace Cert.ReferenceIdeal.Read

open Idealize.ShloMosaic Idealize.ShloMosaic.ValueIdx Cert.ReferenceIdeal
open scoped BigOperators

/-- The flattened activations, cast to their own shape. -/
theorem k2_pay1_apply (v0 : Vec Ideal S8192x256 .f32) (r : Fin 8192) (c : Fin 256) :
    Gen.k2_pay1 v0 (ix2 r c) = v0 (ix2 r c) := by
  unfold Gen.k2_pay1
  rw [shapeCast_self]

/-- The first head: `(z · wa)[r, h] + ba[h] + 1e-8`. -/
theorem k2_pay2_apply (v0 : Vec Ideal S8192x256 .f32) (v2 : Vec Ideal S256x16 .f32) (v4 : Vec Ideal S1x16 .f32)
    (r : Fin 8192) (h : Fin 16) :
    Gen.k2_pay2 v0 v2 v4 (ix2 r h)
      = ((∑ e : Fin 256, v0 (ix2 r e) * v2 (ix2 e h)) + v4 (ix2 (0 : Fin 1) h)) + Ideal.ofBits .f32 0x322BCC77#32 := by
  unfold Gen.k2_pay2
  show (matmul dot_S8192x256_S256x16_S8192x16_1_0_0_1_n_n none (Gen.k2_pay1 v0) (v2 : FVec Ideal S256x16 .f32)
        (constant S8192x16 .f32 0x00000000#32) (ix2 r h)
      + broadcastTo S8192x16 (v4 : FVec Ideal S1x16 .f32) Gen.broadcasts_S1x16_S8192x16 (ix2 r h))
      + Ideal.ofBits .f32 0x322BCC77#32 = _
  rw [mm_8192x256_256x16, broadcastTo_1b_ab_apply]
  simp only [k2_pay1_apply]

/-- The second head: `log (1 + exp ((z · wb)[r, h] + bb[h])) + 1e-8`. -/
theorem k2_pay3_apply (v0 : Vec Ideal S8192x256 .f32) (v10 : Vec Ideal S256x16 .f32) (v12 : Vec Ideal S1x16 .f32)
    (r : Fin 8192) (h : Fin 16) :
    Gen.k2_pay3 v0 v10 v12 (ix2 r h)
      = Ideal.log (Ideal.ofBits .f32 0x3F800000#32
          + Ideal.exp ((∑ e : Fin 256, v0 (ix2 r e) * v10 (ix2 e h)) + v12 (ix2 (0 : Fin 1) h)))
        + Ideal.ofBits .f32 0x322BCC77#32 := by
  unfold Gen.k2_pay3
  show Ideal.log (Ideal.ofBits .f32 0x3F800000#32
        + Ideal.exp (matmul dot_S8192x256_S256x16_S8192x16_1_0_0_1_n_n none (Gen.k2_pay1 v0) (v10 : FVec Ideal S256x16 .f32)
              (constant S8192x16 .f32 0x00000000#32) (ix2 r h)
            + broadcastTo S8192x16 (v12 : FVec Ideal S1x16 .f32) Gen.broadcasts_S1x16_S8192x16 (ix2 r h)))
      + Ideal.ofBits .f32 0x322BCC77#32 = _
  rw [mm_8192x256_256x16, broadcastTo_1b_ab_apply]
  simp only [k2_pay1_apply]

end Cert.ReferenceIdeal.Read

end
-- ==== Proof.RefSpineA.lean ====
/-
  The reference's encoder layer, value by value, against the textbook order of the layer.

  The launch body of one encoder layer works on one batch element: a [64, 256] table of activations (64 positions, 256
  channels, the channels in 8 heads of 32). Its intermediate values are read here, in the order in which the body computes
  them, as the steps of the layer: the first affine map, the three projections, per head the masked scores, the softmax
  and the head's share of the output projection (the body adds the eight shares one after the other, starting from
  nothing), the residual, the normalisation, the feed-forward map, the second residual and normalisation.
-/
import proofs.«141667_g2000002524955183_pallasbulk_3_44_alg».proof.Proof.RefDag
import proofs.«141667_g2000002524955183_pallasbulk_3_44_alg».proof.Proof.RefPayA
import proofs.«141667_g2000002524955183_pallasbulk_3_44_alg».proof.Proof.RefPayB
import proofs.«141667_g2000002524955183_pallasbulk_3_44_alg».proof.Proof.RefPayC
import proofs.«141667_g2000002524955183_pallasbulk_3_44_alg».proof.Proof.RefPayD
import proofs.«141667_g2000002524955183_pallasbulk_3_44_alg».proof.Proof.RefAttn
import proofs.«141667_g2000002524955183_pallasbulk_3_44_alg».proof.Proof.RefNorm
import proofs.«141667_g2000002524955183_pallasbulk_3_44_alg».proof.Proof.RefPayK2
import proofs.«141667_g2000002524955183_pallasbulk_3_44_alg».proof.Proof.AttnSpecHeads
import proofs.«141667_g2000002524955183_pallasbulk_3_44_alg».proof.Proof.AttnSpecRef
import proofs.«141667_g2000002524955183_pallasbulk_3_44_alg».proof.Proof.LibFloatWords
import proofs.«141667_g2000002524955183_pallasbulk_3_44_alg».proof.Proof.LibHeadSplit

noncomputable section

namespace Cert.ReferenceIdeal.Spine

open Idealize.ShloMosaic Idealize.ShloMosaic.ValueIdx Cert.ReferenceIdeal Cert.ReferenceIdeal.Gen
open Cert.ReferenceIdeal.Dag Cert.ReferenceIdeal.Read
open Cert.Spec Cert.Lib.LibFloatWords Cert.Lib.LibHeadSplit
open scoped BigOperators

/-- The constants of a layer, as the words the programs hold. -/
abbrev C : Consts := theConsts

/-- The tables a layer's body loads, as the layer's parameters: a table is read at its two coordinates, a bias row at its
    one row, a projection weight's top rows at `j` and bottom rows at `128 + j`. -/
def P (Y : LoadsL Ideal) : LayerParams (Fin 64) (Fin 128) 8 32 where
  qe s j := Y.y2 (ix2 s j)
  ke s j := Y.y3 (ix2 s j)
  ve s j := Y.y4 (ix2 s j)
  w0 e j := Y.y5 (ix2 (e : Fin 256) j)
  b0 j := Y.y6 (ix2 (0 : Fin 1) j)
  wqT j c := Y.y7 (ix2 (⟨j.val, by omega⟩ : Fin 256) (c : Fin 256))
  wqB j c := Y.y7 (ix2 (⟨128 + j.val, by omega⟩ : Fin 256) (c : Fin 256))
  bq c := Y.y8 (ix2 (0 : Fin 1) (c : Fin 256))
  wkT j c := Y.y9 (ix2 (⟨j.val, by omega⟩ : Fin 256) (c : Fin 256))
  wkB j c := Y.y9 (ix2 (⟨128 + j.val, by omega⟩ : Fin 256) (c : Fin 256))
  bk c := Y.y10 (ix2 (0 : Fin 1) (c : Fin 256))
  wvT j c := Y.y11 (ix2 (⟨j.val, by omega⟩ : Fin 256) (c : Fin 256))
  wvB j c := Y.y11 (ix2 (⟨128 + j.val, by omega⟩ : Fin 256) (c : Fin 256))
  bv c := Y.y12 (ix2 (0 : Fin 1) (c : Fin 256))
  wo j c := Y.y13 (ix2 (j : Fin 256) (c : Fin 256))
  bo c := Y.y14 (ix2 (0 : Fin 1) (c : Fin 256))
  g1 c := Y.y15 (ix2 (0 : Fin 1) (c : Fin 256))
  be1 c := Y.y16 (ix2 (0 : Fin 1) (c : Fin 256))
  w1 k c := Y.y17 (ix2 (k : Fin 256) (c : Fin 256))
  b1 c := Y.y18 (ix2 (0 : Fin 1) (c : Fin 256))
  w2 k c := Y.y19 (ix2 (k : Fin 256) (c : Fin 256))
  b2 c := Y.y20 (ix2 (0 : Fin 1) (c : Fin 256))
  g2 c := Y.y21 (ix2 (0 : Fin 1) (c : Fin 256))
  be2 c := Y.y22 (ix2 (0 : Fin 1) (c : Fin 256))

/-- The batch element's activations as a table: position `s`, channel `c` (the 256 channels are 8 heads of 32). -/
def xOf (Y : LoadsL Ideal) (s : Fin 64) (c : Fin (8 * 32)) : EReal := Y.y0 (ix3 (0 : Fin 1) s (c : Fin 256))

/-- The additive mask as a table. -/
def maskOf (Y : LoadsL Ideal) (s t : Fin 64) : EReal := Y.y1 (ix2 s t)

/-! ## The input, the mask and the projections -/

theorem a0_at (Y : LoadsL Ideal) (s : Fin 64) (c : Fin 256) : a0 Y (ix2 s c) = xOf Y s c :=
  pay2_apply Y.y0 s c

theorem a1_at (Y : LoadsL Ideal) (s t : Fin 64) : a1 Y (ix2 s t) = maskOf Y s t :=
  pay3_apply Y.y1 s t

theorem a4_at (Y : LoadsL Ideal) (s : Fin 64) (j : Fin 128) : a4 Y (ix2 s j) = Ref.src1 (P Y) (xOf Y) s j :=
  pay4_eq_src1At Y.y0 Y.y5 Y.y6 s j

theorem a2_at (Y : LoadsL Ideal) (s : Fin 64) (c : Fin 256) : a2 Y (ix2 s c) = Ref.q (P Y) (xOf Y) s c :=
  pay5_apply Y.y0 Y.y5 Y.y6 Y.y7 Y.y2 Y.y8 s c

theorem a3_at (Y : LoadsL Ideal) (s : Fin 64) (c : Fin 256) : a3 Y (ix2 s c) = Ref.k (P Y) (xOf Y) s c :=
  pay6_apply Y.y0 Y.y5 Y.y6 Y.y9 Y.y3 Y.y10 s c

theorem a5_at (Y : LoadsL Ideal) (j : Fin 128) (c : Fin 256) : a5 Y (ix2 j c) = (P Y).wvT j c :=
  pay7_apply Y.y11 j c

/-- The value projection, as the body's term of it. -/
theorem valAt_eq (Y : LoadsL Ideal) (s : Fin 64) (c : Fin 256) :
    valAt (a4 Y) Y.y11 (a5 Y) Y.y4 Y.y12 s c = Ref.v (P Y) (xOf Y) s c := by
  unfold valAt
  simp only [a4_at, a5_at]
  rfl

theorem a6_at (Y : LoadsL Ideal) (s : Fin 64) (c : Fin 256) : a6 Y (ix2 s c) = Ref.v (P Y) (xOf Y) s c :=
  (pay8_eq_valAt (a4 Y) Y.y11 (a5 Y) Y.y4 Y.y12 s c).trans (valAt_eq Y s c)

/-! ## One head -/

/-- The masked scores of the head at column offset `32 * h`. -/
theorem score_eq (Y : LoadsL Ideal) (h : Fin 8) (off : ℕ) (hoff : off + 32 ≤ 256) (hh : off = h.val * 32)
    (s t : Fin 64) :
    score off hoff (a2 Y) (a3 Y) (a1 Y) s t = Ref.scores C (P Y) (maskOf Y) (xOf Y) h s t := by
  subst hh
  unfold score Ref.scores Ref.qs
  rw [a1_at]
  refine congrArg (fun z => z + maskOf Y s t) (Finset.sum_congr rfl fun d _ => ?_)
  rw [a2_at, a3_at]
  rfl

/-- A head's share of the output projection, from its scores and its values however the body names them: the softmax
    of the scores (row maximum from the bottom element, shifted exponentials, row sums, quotients), the weighted values,
    and rows `32 * h …` of the output weights. -/
theorem head_of (Y : LoadsL Ideal) (h : Fin 8) (off : ℕ) (hoff : off + 32 ≤ 256) (hh : off = h.val * 32)
    (sc : Fin 64 → Fin 64 → EReal) (hsc : ∀ s t, sc s t = Ref.scores C (P Y) (maskOf Y) (xOf Y) h s t)
    (Vs : Fin 64 → Fin 32 → EReal) (hV : ∀ j d, Vs j d = Ref.v (P Y) (xOf Y) j (flat h d))
    (i : Fin 64) (c : Fin 256) :
    outOf off hoff (ctxOf (probOf (expOf sc)) Vs) Y.y13 i c = Ref.headProj C (P Y) (maskOf Y) (xOf Y) h i c := by
  subst hh
  obtain rfl : sc = Ref.scores C (P Y) (maskOf Y) (xOf Y) h := funext fun s => funext fun t => hsc s t
  obtain rfl : Vs = fun j d => Ref.v (P Y) (xOf Y) j (flat h d) := funext fun j => funext fun d => hV j d
  unfold outOf ctxOf probOf expOf rowMaxOf Ref.headProj Ref.headOut Ref.prob Ref.denom Ref.expo Ref.rowMax
  rw [ofBits_negInf]
  rfl

/-- The head at column offset `32 * h` from the unsliced queries, keys and values. -/
theorem headAt_eq (Y : LoadsL Ideal) (h : Fin 8) (off : ℕ) (hoff : off + 32 ≤ 256) (hh : off = h.val * 32)
    (i : Fin 64) (c : Fin 256) :
    headAt off hoff (a2 Y) (a3 Y) (a6 Y) (a1 Y) Y.y13 i c = Ref.headProj C (P Y) (maskOf Y) (xOf Y) h i c := by
  unfold headAt
  refine head_of Y h off hoff hh _ (score_eq Y h off hoff hh) _ (fun j d => ?_) i c
  subst hh
  exact a6_at Y j ⟨h.val * 32 + d.val, by have := d.isLt; omega⟩

/-! ## The eight heads, added one after the other -/

theorem a7_at (Y : LoadsL Ideal) (i : Fin 64) (c : Fin 256) :
    a7 Y (ix2 i c) = Ref.headProj C (P Y) (maskOf Y) (xOf Y) 0 i c := by
  refine (pay9_apply (a1 Y) (a4 Y) (a2 Y) (a3 Y) Y.y11 (a5 Y) Y.y4 Y.y12 Y.y13 i c).trans ?_
  refine head_of Y 0 0 (by omega) rfl _ (score_eq Y 0 0 (by omega) rfl) _ (fun j d => ?_) i c
  unfold colsOf
  rw [valAt_eq]
  rfl

theorem a10_at (Y : LoadsL Ideal) (i : Fin 64) (c : Fin 256) :
    a10 Y (ix2 i c)
      = (Ref.headProj C (P Y) (maskOf Y) (xOf Y) 0 i c + Ref.headProj C (P Y) (maskOf Y) (xOf Y) 1 i c)
        + Ref.headProj C (P Y) (maskOf Y) (xOf Y) 2 i c := by
  refine (pay12_apply (a1 Y) (a2 Y) (a3 Y) (a6 Y) Y.y13 (a7 Y) (a8 Y) (a9 Y) i c).trans ?_
  rw [a7_at, headAt_eq Y 2 64 (by omega) rfl]
  refine congrArg (fun z => (Ref.headProj C (P Y) (maskOf Y) (xOf Y) 0 i c + z)
    + Ref.headProj C (P Y) (maskOf Y) (xOf Y) 2 i c) ?_
  have he : (fun i j => a9 Y (ix2 i j)) = expOf (score 32 (by omega) (a2 Y) (a3 Y) (a1 Y)) :=
    funext fun i => funext fun j => pay11_apply (a1 Y) (a2 Y) (a3 Y) i j
  rw [he]
  refine head_of Y 1 32 (by omega) rfl _ (score_eq Y 1 32 (by omega) rfl) _ (fun j d => ?_) i c
  refine (pay10_apply (a4 Y) Y.y11 (a5 Y) Y.y4 Y.y12 j d).trans ?_
  exact valAt_eq Y j ⟨32 + d.val, by omega⟩

theorem a13_at (Y : LoadsL Ideal) (i : Fin 64) (c : Fin 256) :
    a13 Y (ix2 i c)
      = (((((Ref.headProj C (P Y) (maskOf Y) (xOf Y) 0 i c + Ref.headProj C (P Y) (maskOf Y) (xOf Y) 1 i c)
            + Ref.headProj C (P Y) (maskOf Y) (xOf Y) 2 i c)
          + Ref.headProj C (P Y) (maskOf Y) (xOf Y) 3 i c)
        + Ref.headProj C (P Y) (maskOf Y) (xOf Y) 4 i c)
        + Ref.headProj C (P Y) (maskOf Y) (xOf Y) 5 i c) := by
  refine (pay15_apply (a1 Y) (a2 Y) (a3 Y) (a6 Y) Y.y13 (a10 Y) (a11 Y) (a12 Y) i c).trans ?_
  rw [a10_at, headAt_eq Y 4 128 (by omega) rfl, headAt_eq Y 5 160 (by omega) rfl]
  have h3 : (∑ d : Fin 32, a11 Y (ix2 i d) * a12 Y (ix2 d c)) = Ref.headProj C (P Y) (maskOf Y) (xOf Y) 3 i c := by
    have hc : ∀ d : Fin 32, a11 Y (ix2 i d) * a12 Y (ix2 d c)
        = ctxOf (probOf (expOf (score 96 (by omega) (a2 Y) (a3 Y) (a1 Y))))
            (colsOf 96 (by omega) fun j c => a6 Y (ix2 j c)) i d * Y.y13 (ix2 ⟨96 + d.val, by omega⟩ c) := fun d => by
      rw [show a11 Y (ix2 i d) = _ from pay13_apply (a1 Y) (a2 Y) (a3 Y) (a6 Y) i d,
        show a12 Y (ix2 d c) = _ from pay14_apply Y.y13 d c]
    rw [Finset.sum_congr rfl fun d _ => hc d]
    exact headAt_eq Y 3 96 (by omega) rfl i c
  rw [h3]

theorem a16_at (Y : LoadsL Ideal) (i : Fin 64) (c : Fin 256) :
    a16 Y (ix2 i c) = Ref.y1 C (P Y) (maskOf Y) (xOf Y) i c := by
  refine (pay18_apply (a0 Y) (a1 Y) (a2 Y) (a3 Y) (a6 Y) Y.y13 (a13 Y) (a14 Y) (a15 Y) Y.y14 i c).trans ?_
  rw [a0_at, a13_at, headAt_eq Y 7 224 (by omega) rfl]
  have h6 : outOf 192 (by omega)
      (ctxOf (probOf (expOf fun i j => (∑ d : Fin 32, a14 Y (ix2 i d) * a15 Y (ix2 j d)) + a1 Y (ix2 i j)))
        (colsOf 192 (by omega) fun j c => a6 Y (ix2 j c))) Y.y13 i c
      = Ref.headProj C (P Y) (maskOf Y) (xOf Y) 6 i c := by
    refine head_of Y 6 192 (by omega) rfl _ (fun s t => ?_) _ (fun j d => ?_) i c
    · refine Eq.trans ?_ (score_eq Y 6 192 (by omega) rfl s t)
      unfold score
      refine congrArg (fun z => z + a1 Y (ix2 s t)) (Finset.sum_congr rfl fun d _ => ?_)
      rw [show a14 Y (ix2 s d) = _ from pay16_apply (a2 Y) s d, show a15 Y (ix2 t d) = _ from pay17_apply (a3 Y) t d]
    · exact a6_at Y j ⟨192 + d.val, by have := d.isLt; omega⟩
  rw [h6]
  unfold Ref.y1 Ref.attn
  rw [Fin.sum_univ_eight]
  rfl

/-! ## The normalisations and the feed-forward map -/

/-- The attention block's output, as a table. -/
theorem a16_fun (Y : LoadsL Ideal) : (fun r c => a16 Y (ix2 r c)) = Ref.y1 C (P Y) (maskOf Y) (xOf Y) :=
  funext fun r => funext fun c => a16_at Y r c

theorem a17_at (Y : LoadsL Ideal) (s : Fin 64) (c : Fin 256) :
    a17 Y (ix2 s c) = Ref.x1 C (P Y) (maskOf Y) (xOf Y) s c := by
  refine (pay19_apply (a16 Y) Y.y15 Y.y16 s c).trans ?_
  rw [a16_fun]
  rfl

/-- The feed-forward map on the first normalised table, without its last bias. -/
theorem a18_at (Y : LoadsL Ideal) (s : Fin 64) (c : Fin 256) :
    a18 Y (ix2 s c)
      = ∑ k : Fin (8 * 32), Ref.ffnAct C (P Y) (Ref.x1 C (P Y) (maskOf Y) (xOf Y)) s k * (P Y).w2 k c := by
  refine (pay20_apply (a16 Y) Y.y15 Y.y16 Y.y17 Y.y18 Y.y19 s c).trans ?_
  rw [a16_fun]
  rfl

/-- The stored block: the whole layer. -/
theorem a19_at (Y : LoadsL Ideal) (u : Fin 1) (s : Fin 64) (c : Fin 256) :
    a19 Y (ix3 u s c) = Ref.layer C (P Y) (maskOf Y) (xOf Y) s c := by
  refine (pay1_apply (a17 Y) (a18 Y) Y.y20 Y.y21 Y.y22 u s c).trans ?_
  have hz : (fun r c => a17 Y (ix2 r c) + (a18 Y (ix2 r c) + Y.y20 (ix2 (0 : Fin 1) c)))
      = Ref.y2 C (P Y) (Ref.x1 C (P Y) (maskOf Y) (xOf Y)) :=
    funext fun r => funext fun c => by rw [a17_at, a18_at]; rfl
  rw [hz]
  rfl

/-! ## The two layer launches and the head launch -/

/-- THE FIRST LAYER LAUNCH stores, at position `s` and channel `c` of its batch element, the layer of the loaded
    activations under the loaded parameters and mask. (A channel `c : Fin 256` is read as the channel of the 8 heads
    of 32; the two types are the same.) -/
theorem layerA_entry (Y : LoadsL Ideal) (s : Fin 64) (c : Fin 256) :
    a19 Y (ix3 (0 : Fin 1) s c) = Ref.layer C (P Y) (maskOf Y) (xOf Y) s (c : Fin (8 * 32)) :=
  a19_at Y 0 s c

/-- The second layer launch's body is the first's, word for word. -/
theorem b19_eq_a19 (Y : LoadsL Ideal) : b19 Y = a19 Y := rfl

/-- THE SECOND LAYER LAUNCH, the same over its own loads. -/
theorem layerB_entry (Y : LoadsL Ideal) (s : Fin 64) (c : Fin 256) :
    b19 Y (ix3 (0 : Fin 1) s c) = Ref.layer C (P Y) (maskOf Y) (xOf Y) s (c : Fin (8 * 32)) := by
  rw [b19_eq_a19]
  exact a19_at Y 0 s c

/-- The flattened activations the head launch loads, as a table. -/
def zOf (Y : LoadsH Ideal) (r : Fin 8192) (k : Fin 256) : EReal := Y.y0 (ix2 r k)

/-- THE LOCATION HEAD at row `r`, column `z`. -/
theorem headLoc_entry (Y : LoadsH Ideal) (r : Fin 8192) (z : Fin 16) :
    h0 Y (ix2 r z)
      = Heads.refLoc (Ideal.ofBits .f32 0x322BCC77#32) (fun (k : Fin 256) (z : Fin 16) => Y.y1 (ix2 k z))
          (fun z : Fin 16 => Y.y2 (ix2 (0 : Fin 1) z)) (zOf Y) r z :=
  k2_pay2_apply Y.y0 Y.y1 Y.y2 r z

/-- THE SCALE HEAD at row `r`, column `z`. -/
theorem headScl_entry (Y : LoadsH Ideal) (r : Fin 8192) (z : Fin 16) :
    g0 Y (ix2 r z)
      = Heads.refScl (Ideal.ofBits .f32 0x3F800000#32) (Ideal.ofBits .f32 0x322BCC77#32)
          (fun (k : Fin 256) (z : Fin 16) => Y.y3 (ix2 k z)) (fun z : Fin 16 => Y.y4 (ix2 (0 : Fin 1) z)) (zOf Y) r z :=
  k2_pay3_apply Y.y0 Y.y3 Y.y4 r z

end Cert.ReferenceIdeal.Spine

end
-- ==== Proof.NetRef.lean ====
/-
  The reference's three launches against the two values of the network, under hypotheses on what each launch loads.

  A layer launch that loads the tables of a layer, the mask and a table of activations stores the layer of that table; the
  head launch, loading the heads' tables and, at a row, the encoder's result, stores the two heads' values there. The
  hypotheses say which argument array each loaded value is; they are discharged where the launches are run.
-/
import proofs.«141667_g2000002524955183_pallasbulk_3_44_alg».proof.Proof.NetDefs
import proofs.«141667_g2000002524955183_pallasbulk_3_44_alg».proof.Proof.RefSpineA

noncomputable section

namespace Cert.Net

open Idealize.ShloMosaic Idealize.ShloMosaic.ValueIdx
open Cert.ReferenceIdeal Cert.ReferenceIdeal.Dag
open Cert.Spec Cert.Lib.LibFloatWords
open scoped BigOperators

/-- The 21 tables of a layer among the values a layer launch loads. -/
def fnsOf (Y : LoadsL Ideal) : LayerFns :=
  ⟨Y.y2, Y.y3, Y.y4, Y.y5, Y.y6, Y.y7, Y.y8, Y.y9, Y.y10, Y.y11, Y.y12, Y.y13, Y.y14, Y.y15, Y.y16, Y.y17, Y.y18, Y.y19,
    Y.y20, Y.y21, Y.y22⟩

/-- The loaded tables as parameters, through the tables of a layer. -/
theorem P_eq (Y : LoadsL Ideal) : Cert.ReferenceIdeal.Spine.P Y = paramsOf (fnsOf Y) := rfl

/-- A layer launch whose loaded tables are the tables `T`, whose mask is the causal mask and whose activations are the
    table `x` stores the layer of `x`. -/
theorem ref_layer_of (Y : LoadsL Ideal) (T : LayerFns) (x : Fin 64 → Fin (8 * 32) → EReal) (hT : fnsOf Y = T)
    (hx : ∀ (s : Fin 64) (e : Fin 256), Y.y0 (ix3 (0 : Fin 1) s e) = x s e)
    (hm : ∀ i j : Fin 64, Y.y1 (ix2 i j) = mask i j) (s : Fin 64) (c : Fin 256) :
    a19 Y (ix3 (0 : Fin 1) s c) = Ref.layer C (paramsOf T) mask x s c := by
  have hX : Cert.ReferenceIdeal.Spine.xOf Y = x := funext fun s => funext fun e => hx s e
  have hM : Cert.ReferenceIdeal.Spine.maskOf Y = mask := funext fun i => funext fun j => hm i j
  have h := Cert.ReferenceIdeal.Spine.layerA_entry Y s c
  rw [P_eq, hT, hX, hM] at h
  exact h

/-- THE FIRST LAYER LAUNCH on batch row `b`. -/
theorem ref_layerA (A : ArgTabs) (b : Fin 128) (Y : LoadsL Ideal)
    (hx : ∀ (s : Fin 64) (e : Fin 256), Y.y0 (ix3 (0 : Fin 1) s e) = XA A b s e)
    (hm : ∀ i j : Fin 64, Y.y1 (ix2 i j) = mask i j)
    (h2 : Y.y2 = A.a7) (h3 : Y.y3 = A.a8) (h4 : Y.y4 = A.a9) (h5 : Y.y5 = A.a10) (h6 : Y.y6 = A.a11) (h7 : Y.y7 = A.a12) (h8 : Y.y8 = A.a13) (h9 : Y.y9 = A.a14) (h10 : Y.y10 = A.a15) (h11 : Y.y11 = A.a16) (h12 : Y.y12 = A.a17) (h13 : Y.y13 = A.a18) (h14 : Y.y14 = A.a19) (h15 : Y.y15 = A.a20) (h16 : Y.y16 = A.a21) (h17 : Y.y17 = A.a22) (h18 : Y.y18 = A.a23) (h19 : Y.y19 = A.a24) (h20 : Y.y20 = A.a25) (h21 : Y.y21 = A.a26) (h22 : Y.y22 = A.a27)
    (s : Fin 64) (c : Fin 256) :
    a19 Y (ix3 (0 : Fin 1) s c) = Ref.layer C (PA0 A) mask (XA A b) s c := by
  refine ref_layer_of Y (L0 A) (XA A b) ?_ hx hm s c
  unfold fnsOf L0
  rw [h2, h3, h4, h5, h6, h7, h8, h9, h10, h11, h12, h13, h14, h15, h16, h17, h18, h19, h20, h21, h22]

/-- THE SECOND LAYER LAUNCH on batch row `b`, loading the first layer's result. -/
theorem ref_layerB (A : ArgTabs) (b : Fin 128) (Y : LoadsL Ideal)
    (hx : ∀ (s : Fin 64) (e : Fin 256), Y.y0 (ix3 (0 : Fin 1) s e) = Ref.layer C (PA0 A) mask (XA A b) s e)
    (hm : ∀ i j : Fin 64, Y.y1 (ix2 i j) = mask i j)
    (h2 : Y.y2 = A.a28) (h3 : Y.y3 = A.a29) (h4 : Y.y4 = A.a30) (h5 : Y.y5 = A.a31) (h6 : Y.y6 = A.a32) (h7 : Y.y7 = A.a33) (h8 : Y.y8 = A.a34) (h9 : Y.y9 = A.a35) (h10 : Y.y10 = A.a36) (h11 : Y.y11 = A.a37) (h12 : Y.y12 = A.a38) (h13 : Y.y13 = A.a39) (h14 : Y.y14 = A.a40) (h15 : Y.y15 = A.a41) (h16 : Y.y16 = A.a42) (h17 : Y.y17 = A.a43) (h18 : Y.y18 = A.a44) (h19 : Y.y19 = A.a45) (h20 : Y.y20 = A.a46) (h21 : Y.y21 = A.a47) (h22 : Y.y22 = A.a48)
    (s : Fin 64) (c : Fin 256) :
    b19 Y (ix3 (0 : Fin 1) s c) = encOf A b s c := by
  rw [Cert.ReferenceIdeal.Spine.b19_eq_a19]
  refine ref_layer_of Y (L1 A) (Ref.layer C (PA0 A) mask (XA A b)) ?_ hx hm s c
  unfold fnsOf L1
  rw [h2, h3, h4, h5, h6, h7, h8, h9, h10, h11, h12, h13, h14, h15, h16, h17, h18, h19, h20, h21, h22]

/-- THE LOCATION HEAD at row `64 * b + s` of the head launch, loading the encoder's result there. -/
theorem ref_loc (A : ArgTabs) (b : Fin 128) (s : Fin 64) (Y : LoadsH Ideal)
    (hx : ∀ k : Fin 256, Y.y0 (ix2 (⟨64 * b.val + s.val, by omega⟩ : Fin 8192) k) = encOf A b s k)
    (h1 : Y.y1 = A.a3) (h2 : Y.y2 = A.a4) (z : Fin 16) :
    h0 Y (ix2 (⟨64 * b.val + s.val, by omega⟩ : Fin 8192) z) = locOf A b s z := by
  refine (Cert.ReferenceIdeal.Spine.headLoc_entry Y _ z).trans ?_
  show ((∑ k : Fin 256, Y.y0 (ix2 (⟨64 * b.val + s.val, by omega⟩ : Fin 8192) k) * Y.y1 (ix2 k z))
      + Y.y2 (ix2 (0 : Fin 1) z)) + epsZ
    = ((∑ k : Fin (8 * 32), encOf A b s k * A.a3 (ix2 (k : Fin 256) z)) + A.a4 (ix2 (0 : Fin 1) z)) + epsZ
  rw [h1, h2]
  exact congrArg (fun t => (t + A.a4 (ix2 (0 : Fin 1) z)) + epsZ)
    (Finset.sum_congr rfl fun k _ => congrArg (fun t => t * A.a3 (ix2 k z)) (hx k))

/-- THE SCALE HEAD at row `64 * b + s` of the head launch. -/
theorem ref_scl (A : ArgTabs) (b : Fin 128) (s : Fin 64) (Y : LoadsH Ideal)
    (hx : ∀ k : Fin 256, Y.y0 (ix2 (⟨64 * b.val + s.val, by omega⟩ : Fin 8192) k) = encOf A b s k)
    (h3 : Y.y3 = A.a5) (h4 : Y.y4 = A.a6) (z : Fin 16) :
    g0 Y (ix2 (⟨64 * b.val + s.val, by omega⟩ : Fin 8192) z) = sclOf A b s z := by
  refine (Cert.ReferenceIdeal.Spine.headScl_entry Y _ z).trans ?_
  show Ideal.log (oneW + Ideal.exp ((∑ k : Fin 256, Y.y0 (ix2 (⟨64 * b.val + s.val, by omega⟩ : Fin 8192) k) * Y.y3 (ix2 k z))
      + Y.y4 (ix2 (0 : Fin 1) z))) + epsZ
    = Ideal.log (oneW + Ideal.exp ((∑ k : Fin (8 * 32), encOf A b s k * A.a5 (ix2 (k : Fin 256) z))
      + A.a6 (ix2 (0 : Fin 1) z))) + epsZ
  rw [h3, h4]
  exact congrArg (fun t => Ideal.log (oneW + Ideal.exp (t + A.a6 (ix2 (0 : Fin 1) z))) + epsZ)
    (Finset.sum_congr rfl fun k _ => congrArg (fun t => t * A.a5 (ix2 k z)) (hx k))

end Cert.Net

end
-- ==== Proof.RefFinal.lean ====
/-
  The reference's two results are the two values of the network at every entry.

  Each result array [128, 8, 1024] reads, at (b, t, j), row 64·b + j div 16 and column j mod 16 of a head's [8192, 16]
  output. The head launch computes that row from the heads' tables and the same row of the flattened activations, which
  is position j div 16 of batch element b in the second layer's output; the second layer's launch computes that batch
  element's table from the second layer's tables, the mask and the first layer's output; the first layer's launch
  computes its batch element's table from the first layer's tables, the mask and the input table the host prologue
  builds. No launch and no host operation writes an argument array, so every table a launch loads is the argument it
  names; hence the two results are the location and scale values of the network on the argument arrays.
-/
import proofs.«141667_g2000002524955183_pallasbulk_3_44_alg».proof.Proof.RefHost
import proofs.«141667_g2000002524955183_pallasbulk_3_44_alg».proof.Proof.RefHostArgs
import proofs.«141667_g2000002524955183_pallasbulk_3_44_alg».proof.Proof.RefLoads
import proofs.«141667_g2000002524955183_pallasbulk_3_44_alg».proof.Proof.NetRef
import proofs.«141667_g2000002524955183_pallasbulk_3_44_alg».proof.Proof.NetArgs
import proofs.«141667_g2000002524955183_pallasbulk_3_44_alg».proof.Proof.NetRes

set_option maxRecDepth 16384

noncomputable section

namespace Cert.ReferenceIdeal.Final

open Idealize.ShloMosaic Idealize.ShloMosaic.TcCoe Idealize.SL.Sem Idealize.ShloMosaic.ValueIdx
open Cert.ReferenceIdeal Cert.ReferenceIdeal.Gen Cert.ReferenceIdeal.Arr Cert.ReferenceIdeal.Lds
open Cert.ReferenceIdeal.Host Cert.ReferenceIdeal.Dag

/-! ## The launches' output arrays at coordinates, for any contents at entry -/

section Blocks
variable (V : (c : Dev nD) → (b : Ref sig .tc) → Buf (Elt Ideal) ((c : Thread nD τ).loc b))

/-- Entry (b, s, e) of the first layer's output array is entry (s, e) of the body's result at batch element b. -/
theorem G0_at (c : Dev nD) (b : Fin 128) (s : Fin 64) (e : Fin 256) :
    G0 V c (ix3 b s e) = a19 (memLoads0 V c (pt0 (ix3 b s e))) (ix3 (0 : Fin 1) s e) := by
  show blkOut0 V c (pt0 (ix3 b s e)) (locRow (ix3 b s e)) = _
  rw [blkOut0_eq]
  rfl

/-- The same for the second layer. -/
theorem G1_at (c : Dev nD) (b : Fin 128) (s : Fin 64) (e : Fin 256) :
    G1 V c (ix3 b s e) = b19 (memLoads1 V c (pt1 (ix3 b s e))) (ix3 (0 : Fin 1) s e) := by
  show blkOut1 V c (pt1 (ix3 b s e)) (locRow (ix3 b s e)) = _
  rw [blkOut1_eq]
  rfl

/-- Entry (r, z) of the location head's output array. -/
theorem G2_5_at (c : Dev nD) (r : Fin 8192) (z : Fin 16) :
    G2_5 V c (ix2 r z) = h0 (memLoads2 V c pt2) (ix2 r z) := by
  show blkOut2_5 V c pt2 (locWhole (ix2 r z)) = _
  rw [blkOut2_5_eq]
  rfl

/-- Entry (r, z) of the scale head's output array. -/
theorem G2_6_at (c : Dev nD) (r : Fin 8192) (z : Fin 16) :
    G2_6 V c (ix2 r z) = g0 (memLoads2 V c pt2) (ix2 r z) := by
  show blkOut2_6 V c pt2 (locWhole (ix2 r z)) = _
  rw [blkOut2_6_eq]
  rfl

end Blocks

variable (m : (ℓ : Loc nD τ sig) → Buf (Elt Ideal) ℓ) (ρ : Dev nD → PrngReg)

/-! ## What each launch leaves in its output array -/

theorem V4_v15 (c : Dev nD) : (V4 m ρ c main_v15 : Vec Ideal S128x64x256 .f32) = G0 (V3 m ρ) c := (W4_arr m ρ c 23).trans (final0 (V3 m ρ) c)
theorem V5_v16 (c : Dev nD) : (V5 m ρ c main_v16 : Vec Ideal S128x64x256 .f32) = G1 (V4 m ρ) c := (W5_arr m ρ c 23).trans (final1 (V4 m ρ) c)
theorem V7_v18_0 (c : Dev nD) : (V7 m ρ c main_v18_0 : Vec Ideal S8192x16 .f32) = G2_5 (V6 m ρ) c := (W7_arr m ρ c 5).trans (final2_5 (V6 m ρ) c)
theorem V7_v18_1 (c : Dev nD) : (V7 m ρ c main_v18_1 : Vec Ideal S8192x16 .f32) = G2_6 (V6 m ρ) c := (W7_arr m ρ c 6).trans (final2_6 (V6 m ρ) c)

/-! ## Every table a launch loads is the argument array it names -/

theorem p0_2 (c : Dev nD) (t : Fin cfg0.N) : (memLoads0 (V3 m ρ) c t).y2 = (Cert.Net.argsR m c).a7 :=
  (y2_eq0 (V3 m ρ) c t).trans (V3_main_arg7 m ρ c)
theorem p0_3 (c : Dev nD) (t : Fin cfg0.N) : (memLoads0 (V3 m ρ) c t).y3 = (Cert.Net.argsR m c).a8 :=
  (y3_eq0 (V3 m ρ) c t).trans (V3_main_arg8 m ρ c)
theorem p0_4 (c : Dev nD) (t : Fin cfg0.N) : (memLoads0 (V3 m ρ) c t).y4 = (Cert.Net.argsR m c).a9 :=
  (y4_eq0 (V3 m ρ) c t).trans (V3_main_arg9 m ρ c)
theorem p0_5 (c : Dev nD) (t : Fin cfg0.N) : (memLoads0 (V3 m ρ) c t).y5 = (Cert.Net.argsR m c).a10 :=
  (y5_eq0 (V3 m ρ) c t).trans (V3_main_arg10 m ρ c)
theorem p0_6 (c : Dev nD) (t : Fin cfg0.N) : (memLoads0 (V3 m ρ) c t).y6 = (Cert.Net.argsR m c).a11 :=
  (y6_eq0 (V3 m ρ) c t).trans (V3_main_arg11 m ρ c)
theorem p0_7 (c : Dev nD) (t : Fin cfg0.N) : (memLoads0 (V3 m ρ) c t).y7 = (Cert.Net.argsR m c).a12 :=
  (y7_eq0 (V3 m ρ) c t).trans (V3_main_arg12 m ρ c)
theorem p0_8 (c : Dev nD) (t : Fin cfg0.N) : (memLoads0 (V3 m ρ) c t).y8 = (Cert.Net.argsR m c).a13 :=
  (y8_eq0 (V3 m ρ) c t).trans (V3_main_arg13 m ρ c)
theorem p0_9 (c : Dev nD) (t : Fin cfg0.N) : (memLoads0 (V3 m ρ) c t).y9 = (Cert.Net.argsR m c).a14 :=
  (y9_eq0 (V3 m ρ) c t).trans (V3_main_arg14 m ρ c)
theorem p0_10 (c : Dev nD) (t : Fin cfg0.N) : (memLoads0 (V3 m ρ) c t).y10 = (Cert.Net.argsR m c).a15 :=
  (y10_eq0 (V3 m ρ) c t).trans (V3_main_arg15 m ρ c)
theorem p0_11 (c : Dev nD) (t : Fin cfg0.N) : (memLoads0 (V3 m ρ) c t).y11 = (Cert.Net.argsR m c).a16 :=
  (y11_eq0 (V3 m ρ) c t).trans (V3_main_arg16 m ρ c)
theorem p0_12 (c : Dev nD) (t : Fin cfg0.N) : (memLoads0 (V3 m ρ) c t).y12 = (Cert.Net.argsR m c).a17 :=
  (y12_eq0 (V3 m ρ) c t).trans (V3_main_arg17 m ρ c)
theorem p0_13 (c : Dev nD) (t : Fin cfg0.N) : (memLoads0 (V3 m ρ) c t).y13 = (Cert.Net.argsR m c).a18 :=
  (y13_eq0 (V3 m ρ) c t).trans (V3_main_arg18 m ρ c)
theorem p0_14 (c : Dev nD) (t : Fin cfg0.N) : (memLoads0 (V3 m ρ) c t).y14 = (Cert.Net.argsR m c).a19 :=
  (y14_eq0 (V3 m ρ) c t).trans (V3_main_arg19 m ρ c)
theorem p0_15 (c : Dev nD) (t : Fin cfg0.N) : (memLoads0 (V3 m ρ) c t).y15 = (Cert.Net.argsR m c).a20 :=
  (y15_eq0 (V3 m ρ) c t).trans (V3_main_arg20 m ρ c)
theorem p0_16 (c : Dev nD) (t : Fin cfg0.N) : (memLoads0 (V3 m ρ) c t).y16 = (Cert.Net.argsR m c).a21 :=
  (y16_eq0 (V3 m ρ) c t).trans (V3_main_arg21 m ρ c)
theorem p0_17 (c : Dev nD) (t : Fin cfg0.N) : (memLoads0 (V3 m ρ) c t).y17 = (Cert.Net.argsR m c).a22 :=
  (y17_eq0 (V3 m ρ) c t).trans (V3_main_arg22 m ρ c)
theorem p0_18 (c : Dev nD) (t : Fin cfg0.N) : (memLoads0 (V3 m ρ) c t).y18 = (Cert.Net.argsR m c).a23 :=
  (y18_eq0 (V3 m ρ) c t).trans (V3_main_arg23 m ρ c)
theorem p0_19 (c : Dev nD) (t : Fin cfg0.N) : (memLoads0 (V3 m ρ) c t).y19 = (Cert.Net.argsR m c).a24 :=
  (y19_eq0 (V3 m ρ) c t).trans (V3_main_arg24 m ρ c)
theorem p0_20 (c : Dev nD) (t : Fin cfg0.N) : (memLoads0 (V3 m ρ) c t).y20 = (Cert.Net.argsR m c).a25 :=
  (y20_eq0 (V3 m ρ) c t).trans (V3_main_arg25 m ρ c)
theorem p0_21 (c : Dev nD) (t : Fin cfg0.N) : (memLoads0 (V3 m ρ) c t).y21 = (Cert.Net.argsR m c).a26 :=
  (y21_eq0 (V3 m ρ) c t).trans (V3_main_arg26 m ρ c)
theorem p0_22 (c : Dev nD) (t : Fin cfg0.N) : (memLoads0 (V3 m ρ) c t).y22 = (Cert.Net.argsR m c).a27 :=
  (y22_eq0 (V3 m ρ) c t).trans (V3_main_arg27 m ρ c)

theorem p1_2 (c : Dev nD) (t : Fin cfg1.N) : (memLoads1 (V4 m ρ) c t).y2 = (Cert.Net.argsR m c).a28 :=
  (y2_eq1 (V4 m ρ) c t).trans (V4_main_arg28 m ρ c)
theorem p1_3 (c : Dev nD) (t : Fin cfg1.N) : (memLoads1 (V4 m ρ) c t).y3 = (Cert.Net.argsR m c).a29 :=
  (y3_eq1 (V4 m ρ) c t).trans (V4_main_arg29 m ρ c)
theorem p1_4 (c : Dev nD) (t : Fin cfg1.N) : (memLoads1 (V4 m ρ) c t).y4 = (Cert.Net.argsR m c).a30 :=
  (y4_eq1 (V4 m ρ) c t).trans (V4_main_arg30 m ρ c)
theorem p1_5 (c : Dev nD) (t : Fin cfg1.N) : (memLoads1 (V4 m ρ) c t).y5 = (Cert.Net.argsR m c).a31 :=
  (y5_eq1 (V4 m ρ) c t).trans (V4_main_arg31 m ρ c)
theorem p1_6 (c : Dev nD) (t : Fin cfg1.N) : (memLoads1 (V4 m ρ) c t).y6 = (Cert.Net.argsR m c).a32 :=
  (y6_eq1 (V4 m ρ) c t).trans (V4_main_arg32 m ρ c)
theorem p1_7 (c : Dev nD) (t : Fin cfg1.N) : (memLoads1 (V4 m ρ) c t).y7 = (Cert.Net.argsR m c).a33 :=
  (y7_eq1 (V4 m ρ) c t).trans (V4_main_arg33 m ρ c)
theorem p1_8 (c : Dev nD) (t : Fin cfg1.N) : (memLoads1 (V4 m ρ) c t).y8 = (Cert.Net.argsR m c).a34 :=
  (y8_eq1 (V4 m ρ) c t).trans (V4_main_arg34 m ρ c)
theorem p1_9 (c : Dev nD) (t : Fin cfg1.N) : (memLoads1 (V4 m ρ) c t).y9 = (Cert.Net.argsR m c).a35 :=
  (y9_eq1 (V4 m ρ) c t).trans (V4_main_arg35 m ρ c)
theorem p1_10 (c : Dev nD) (t : Fin cfg1.N) : (memLoads1 (V4 m ρ) c t).y10 = (Cert.Net.argsR m c).a36 :=
  (y10_eq1 (V4 m ρ) c t).trans (V4_main_arg36 m ρ c)
theorem p1_11 (c : Dev nD) (t : Fin cfg1.N) : (memLoads1 (V4 m ρ) c t).y11 = (Cert.Net.argsR m c).a37 :=
  (y11_eq1 (V4 m ρ) c t).trans (V4_main_arg37 m ρ c)
theorem p1_12 (c : Dev nD) (t : Fin cfg1.N) : (memLoads1 (V4 m ρ) c t).y12 = (Cert.Net.argsR m c).a38 :=
  (y12_eq1 (V4 m ρ) c t).trans (V4_main_arg38 m ρ c)
theorem p1_13 (c : Dev nD) (t : Fin cfg1.N) : (memLoads1 (V4 m ρ) c t).y13 = (Cert.Net.argsR m c).a39 :=
  (y13_eq1 (V4 m ρ) c t).trans (V4_main_arg39 m ρ c)
theorem p1_14 (c : Dev nD) (t : Fin cfg1.N) : (memLoads1 (V4 m ρ) c t).y14 = (Cert.Net.argsR m c).a40 :=
  (y14_eq1 (V4 m ρ) c t).trans (V4_main_arg40 m ρ c)
theorem p1_15 (c : Dev nD) (t : Fin cfg1.N) : (memLoads1 (V4 m ρ) c t).y15 = (Cert.Net.argsR m c).a41 :=
  (y15_eq1 (V4 m ρ) c t).trans (V4_main_arg41 m ρ c)
theorem p1_16 (c : Dev nD) (t : Fin cfg1.N) : (memLoads1 (V4 m ρ) c t).y16 = (Cert.Net.argsR m c).a42 :=
  (y16_eq1 (V4 m ρ) c t).trans (V4_main_arg42 m ρ c)
theorem p1_17 (c : Dev nD) (t : Fin cfg1.N) : (memLoads1 (V4 m ρ) c t).y17 = (Cert.Net.argsR m c).a43 :=
  (y17_eq1 (V4 m ρ) c t).trans (V4_main_arg43 m ρ c)
theorem p1_18 (c : Dev nD) (t : Fin cfg1.N) : (memLoads1 (V4 m ρ) c t).y18 = (Cert.Net.argsR m c).a44 :=
  (y18_eq1 (V4 m ρ) c t).trans (V4_main_arg44 m ρ c)
theorem p1_19 (c : Dev nD) (t : Fin cfg1.N) : (memLoads1 (V4 m ρ) c t).y19 = (Cert.Net.argsR m c).a45 :=
  (y19_eq1 (V4 m ρ) c t).trans (V4_main_arg45 m ρ c)
theorem p1_20 (c : Dev nD) (t : Fin cfg1.N) : (memLoads1 (V4 m ρ) c t).y20 = (Cert.Net.argsR m c).a46 :=
  (y20_eq1 (V4 m ρ) c t).trans (V4_main_arg46 m ρ c)
theorem p1_21 (c : Dev nD) (t : Fin cfg1.N) : (memLoads1 (V4 m ρ) c t).y21 = (Cert.Net.argsR m c).a47 :=
  (y21_eq1 (V4 m ρ) c t).trans (V4_main_arg47 m ρ c)
theorem p1_22 (c : Dev nD) (t : Fin cfg1.N) : (memLoads1 (V4 m ρ) c t).y22 = (Cert.Net.argsR m c).a48 :=
  (y22_eq1 (V4 m ρ) c t).trans (V4_main_arg48 m ρ c)

theorem p2_1 (c : Dev nD) (t : Fin cfg2.N) : (memLoads2 (V6 m ρ) c t).y1 = (Cert.Net.argsR m c).a3 :=
  (y1_eq2 (V6 m ρ) c t).trans (V6_main_arg3 m ρ c)
theorem p2_2 (c : Dev nD) (t : Fin cfg2.N) : (memLoads2 (V6 m ρ) c t).y2 = (Cert.Net.argsR m c).a4 :=
  (y2_eq2 (V6 m ρ) c t).trans (V6_main_arg4 m ρ c)
theorem p2_3 (c : Dev nD) (t : Fin cfg2.N) : (memLoads2 (V6 m ρ) c t).y3 = (Cert.Net.argsR m c).a5 :=
  (y3_eq2 (V6 m ρ) c t).trans (V6_main_arg5 m ρ c)
theorem p2_4 (c : Dev nD) (t : Fin cfg2.N) : (memLoads2 (V6 m ρ) c t).y4 = (Cert.Net.argsR m c).a6 :=
  (y4_eq2 (V6 m ρ) c t).trans (V6_main_arg6 m ρ c)

/-! ## The mask and the input table -/

theorem mask0 (c : Dev nD) (t : Fin cfg0.N) (i j : Fin 64) :
    (memLoads0 (V3 m ρ) c t).y1 (ix2 i j) = Cert.Net.mask i j :=
  (congrFun (y1_eq0 (V3 m ρ) c t) _).trans (V3_mask m ρ c i j)

theorem mask1 (c : Dev nD) (t : Fin cfg1.N) (i j : Fin 64) :
    (memLoads1 (V4 m ρ) c t).y1 (ix2 i j) = Cert.Net.mask i j :=
  (congrFun (y1_eq1 (V4 m ρ) c t) _).trans ((congrFun (V4_mask m ρ c) _).trans (V3_mask m ρ c i j))

theorem input0 (c : Dev nD) (b : Fin 128) (s : Fin 64) (e : Fin 256) :
    (memLoads0 (V3 m ρ) c (pt0 (ix3 b s e))).y0 (ix3 (0 : Fin 1) s e) = Cert.Net.XA (Cert.Net.argsR m c) b s e :=
  (y0_at0 (V3 m ρ) c (pt0 (ix3 b s e)) (0 : Fin 1) s e).trans (V3_input m ρ c b s e)

/-! ## The three launches -/

/-- The first layer's output array is the first layer of the input table. -/
theorem layerA_at (c : Dev nD) (b : Fin 128) (s : Fin 64) (e : Fin 256) :
    (V4 m ρ c main_v15 : Vec Ideal S128x64x256 .f32) (ix3 b s e)
      = Cert.Spec.Ref.layer Cert.Net.C (Cert.Net.PA0 (Cert.Net.argsR m c)) Cert.Net.mask (Cert.Net.XA (Cert.Net.argsR m c) b) s e := by
  refine (congrFun (V4_v15 m ρ c) _).trans ((G0_at (V3 m ρ) c b s e).trans ?_)
  exact Cert.Net.ref_layerA (Cert.Net.argsR m c) b (memLoads0 (V3 m ρ) c (pt0 (ix3 b s e)))
    (fun s' e' => input0 m ρ c b s' e') (fun i j => mask0 m ρ c _ i j)
    (p0_2 m ρ c _) (p0_3 m ρ c _) (p0_4 m ρ c _) (p0_5 m ρ c _) (p0_6 m ρ c _) (p0_7 m ρ c _) (p0_8 m ρ c _) (p0_9 m ρ c _) (p0_10 m ρ c _) (p0_11 m ρ c _) (p0_12 m ρ c _) (p0_13 m ρ c _) (p0_14 m ρ c _) (p0_15 m ρ c _) (p0_16 m ρ c _) (p0_17 m ρ c _) (p0_18 m ρ c _) (p0_19 m ρ c _) (p0_20 m ρ c _) (p0_21 m ρ c _) (p0_22 m ρ c _) s e

/-- The second layer's output array is the encoder's result. -/
theorem enc_at (c : Dev nD) (b : Fin 128) (s : Fin 64) (e : Fin 256) :
    (V5 m ρ c main_v16 : Vec Ideal S128x64x256 .f32) (ix3 b s e) = Cert.Net.encOf (Cert.Net.argsR m c) b s e := by
  refine (congrFun (V5_v16 m ρ c) _).trans ((G1_at (V4 m ρ) c b s e).trans ?_)
  exact Cert.Net.ref_layerB (Cert.Net.argsR m c) b (memLoads1 (V4 m ρ) c (pt1 (ix3 b s e)))
    (fun s' e' => (y0_at1 (V4 m ρ) c (pt1 (ix3 b s e)) (0 : Fin 1) s' e').trans (layerA_at m ρ c b s' e'))
    (fun i j => mask1 m ρ c _ i j)
    (p1_2 m ρ c _) (p1_3 m ρ c _) (p1_4 m ρ c _) (p1_5 m ρ c _) (p1_6 m ρ c _) (p1_7 m ρ c _) (p1_8 m ρ c _) (p1_9 m ρ c _) (p1_10 m ρ c _) (p1_11 m ρ c _) (p1_12 m ρ c _) (p1_13 m ρ c _) (p1_14 m ρ c _) (p1_15 m ρ c _) (p1_16 m ρ c _) (p1_17 m ρ c _) (p1_18 m ρ c _) (p1_19 m ρ c _) (p1_20 m ρ c _) (p1_21 m ρ c _) (p1_22 m ρ c _) s e

/-- The flattened activations the head launch loads, at row 64·b + s. -/
theorem headIn_at (c : Dev nD) (b : Fin 128) (s : Fin 64) (k : Fin 256) :
    (memLoads2 (V6 m ρ) c pt2).y0 (ix2 (⟨64 * b.val + s.val, by omega⟩ : Fin 8192) k) = Cert.Net.encOf (Cert.Net.argsR m c) b s k :=
  (congrFun (y0_eq2 (V6 m ρ) c pt2) _).trans ((V6_flat m ρ c b s k).trans (enc_at m ρ c b s k))

/-- The location head's output array at row 64·b + s. -/
theorem locRow_at (c : Dev nD) (b : Fin 128) (s : Fin 64) (z : Fin 16) :
    (V7 m ρ c main_v18_0 : Vec Ideal S8192x16 .f32) (ix2 (⟨64 * b.val + s.val, by omega⟩ : Fin 8192) z) = Cert.Net.locOf (Cert.Net.argsR m c) b s z := by
  refine (congrFun (V7_v18_0 m ρ c) _).trans ((G2_5_at (V6 m ρ) c _ z).trans ?_)
  exact Cert.Net.ref_loc (Cert.Net.argsR m c) b s (memLoads2 (V6 m ρ) c pt2) (fun k => headIn_at m ρ c b s k)
    (p2_1 m ρ c _) (p2_2 m ρ c _) z

/-- The scale head's output array at row 64·b + s. -/
theorem sclRow_at (c : Dev nD) (b : Fin 128) (s : Fin 64) (z : Fin 16) :
    (V7 m ρ c main_v18_1 : Vec Ideal S8192x16 .f32) (ix2 (⟨64 * b.val + s.val, by omega⟩ : Fin 8192) z) = Cert.Net.sclOf (Cert.Net.argsR m c) b s z := by
  refine (congrFun (V7_v18_1 m ρ c) _).trans ((G2_6_at (V6 m ρ) c _ z).trans ?_)
  exact Cert.Net.ref_scl (Cert.Net.argsR m c) b s (memLoads2 (V6 m ρ) c pt2) (fun k => headIn_at m ρ c b s k)
    (p2_3 m ρ c _) (p2_4 m ρ c _) z

/-! ## The two results -/

/-- THE LOCATION RESULT of the reference is the network's location value at every entry. -/
theorem ref_res_loc (c : Dev nD) :
    W8 m ρ c (Proc.devRef .tc main_v20) = Cert.Net.resLoc (Cert.Net.argsR m c) := by
  refine funext (f := (W8 m ρ c (Proc.devRef .tc main_v20) : Vec Ideal S128x8x1024 .f32)) fun idx => ?_
  obtain ⟨b, t, j, rfl⟩ : ∃ (b : Fin 128) (t : Fin 8) (j : Fin 1024), idx = ix3 b t j :=
    ⟨idx 0, idx 1, idx 2, eq_ix3 idx⟩
  refine (W8_v20 m ρ c b t j).trans ?_
  exact (locRow_at m ρ c b (⟨j.val / 16, by omega⟩ : Fin 64) (⟨j.val % 16, by omega⟩ : Fin 16)).trans
    (Cert.Net.resLoc_ix3 (Cert.Net.argsR m c) b t j).symm

/-- THE SCALE RESULT of the reference is the network's scale value at every entry. -/
theorem ref_res_scl (c : Dev nD) :
    W8 m ρ c (Proc.devRef .tc main_v22) = Cert.Net.resScl (Cert.Net.argsR m c) := by
  refine funext (f := (W8 m ρ c (Proc.devRef .tc main_v22) : Vec Ideal S128x8x1024 .f32)) fun idx => ?_
  obtain ⟨b, t, j, rfl⟩ : ∃ (b : Fin 128) (t : Fin 8) (j : Fin 1024), idx = ix3 b t j :=
    ⟨idx 0, idx 1, idx 2, eq_ix3 idx⟩
  refine (W8_v22 m ρ c b t j).trans ?_
  exact (sclRow_at m ρ c b (⟨j.val / 16, by omega⟩ : Fin 64) (⟨j.val % 16, by omega⟩ : Fin 16)).trans
    (Cert.Net.resScl_ix3 (Cert.Net.argsR m c) b t j).symm

end Cert.ReferenceIdeal.Final

end
-- ==== Proof.Algebraic.lean ====
/-
  The two idealized programs end with equal results.

  From memories that agree on the 49 argument arrays, and with those arrays finite, both programs end with the first
  result at `Net.resLoc` and the second at `Net.resScl` of the argument arrays: the kernel by its run (the two output arrays,
  block by block, are the body's stored values; those are the network in the kernel's arrangement, which on finite entries is
  the network in the reference's arrangement), the reference by its run through its three launches (each launch's output
  array, block by block, is a layer of the network or its heads, in the reference's own arrangement).
-/
import proofs.«141667_g2000002524955183_pallasbulk_3_44_alg».proof.Defs
import proofs.«141667_g2000002524955183_pallasbulk_3_44_alg».proof.Proof.Gen.KernelIdeal
import proofs.«141667_g2000002524955183_pallasbulk_3_44_alg».proof.Proof.Gen.ReferenceIdeal
import proofs.«141667_g2000002524955183_pallasbulk_3_44_alg».proof.Proof.Gen.Pre_finite_inputs
import proofs.«141667_g2000002524955183_pallasbulk_3_44_alg».proof.Proof.KerResult
import proofs.«141667_g2000002524955183_pallasbulk_3_44_alg».proof.Proof.KerFinal
import proofs.«141667_g2000002524955183_pallasbulk_3_44_alg».proof.Proof.RefRunAll
import proofs.«141667_g2000002524955183_pallasbulk_3_44_alg».proof.Proof.RefFinal
import proofs.«141667_g2000002524955183_pallasbulk_3_44_alg».proof.Proof.NetArgs

set_option maxRecDepth 16384

noncomputable section

namespace Cert.Proof.Algebraic

open Idealize.ShloMosaic Idealize.ShloMosaic.TcCoe Idealize.SL.Sem

set_option maxHeartbeats 8000000 in
theorem algebraic : Cert.algebraic_KernelIdeal_ReferenceIdeal := by
  intro m g m' g' hpre hagree
  refine ⟨fun c => Cert.Net.resLoc (Cert.Net.argsK m c), fun c => Cert.Net.resScl (Cert.Net.argsK m c), ?_, ?_⟩
  · refine (θ_run Cert.KernelIdeal.defs _ _).mono (fun r h c => ?_) (Cert.KernelIdeal.Res.run_results m g)
    obtain ⟨h2, h4, hargs⟩ := h c
    exact ⟨h2.trans (Cert.KernelIdeal.Final.res_loc m c (Cert.Net.argsK_real m hpre c)),
      h4.trans (Cert.KernelIdeal.Final.res_scl m c (Cert.Net.argsK_real m hpre c)), hargs⟩
  · refine (θ_run Cert.ReferenceIdeal.defs _ _).mono (fun r h c => ?_) (Cert.ReferenceIdeal.RunAll.run_all m' g')
    have hA : Cert.Net.argsR m' c = Cert.Net.argsK m c := Cert.Net.args_agree m m' hagree c
    exact ⟨(h c _ (Cert.ReferenceIdeal.Gen.mem_uc Cert.ReferenceIdeal.main_v20 (by decide))).trans
        ((Cert.ReferenceIdeal.Final.ref_res_loc m' g' c).trans (congrArg Cert.Net.resLoc hA)),
      (h c _ (Cert.ReferenceIdeal.Gen.mem_uc Cert.ReferenceIdeal.main_v22 (by decide))).trans
        ((Cert.ReferenceIdeal.Final.ref_res_scl m' g' c).trans (congrArg Cert.Net.resScl hA)),
      (h c _ (Cert.ReferenceIdeal.Gen.mem_uc Cert.ReferenceIdeal.main_arg0 (by decide))).trans (Cert.ReferenceIdeal.Gen.W8_main_arg0 m' g' c),
      (h c _ (Cert.ReferenceIdeal.Gen.mem_uc Cert.ReferenceIdeal.main_arg1 (by decide))).trans (Cert.ReferenceIdeal.Gen.W8_main_arg1 m' g' c),
      (h c _ (Cert.ReferenceIdeal.Gen.mem_uc Cert.ReferenceIdeal.main_arg2 (by decide))).trans (Cert.ReferenceIdeal.Gen.W8_main_arg2 m' g' c),
      (h c _ (Cert.ReferenceIdeal.Gen.mem_uc Cert.ReferenceIdeal.main_arg3 (by decide))).trans (Cert.ReferenceIdeal.Gen.W8_main_arg3 m' g' c),
      (h c _ (Cert.ReferenceIdeal.Gen.mem_uc Cert.ReferenceIdeal.main_arg4 (by decide))).trans (Cert.ReferenceIdeal.Gen.W8_main_arg4 m' g' c),
      (h c _ (Cert.ReferenceIdeal.Gen.mem_uc Cert.ReferenceIdeal.main_arg5 (by decide))).trans (Cert.ReferenceIdeal.Gen.W8_main_arg5 m' g' c),
      (h c _ (Cert.ReferenceIdeal.Gen.mem_uc Cert.ReferenceIdeal.main_arg6 (by decide))).trans (Cert.ReferenceIdeal.Gen.W8_main_arg6 m' g' c),
      (h c _ (Cert.ReferenceIdeal.Gen.mem_uc Cert.ReferenceIdeal.main_arg7 (by decide))).trans (Cert.ReferenceIdeal.Gen.W8_main_arg7 m' g' c),
      (h c _ (Cert.ReferenceIdeal.Gen.mem_uc Cert.ReferenceIdeal.main_arg8 (by decide))).trans (Cert.ReferenceIdeal.Gen.W8_main_arg8 m' g' c),
      (h c _ (Cert.ReferenceIdeal.Gen.mem_uc Cert.ReferenceIdeal.main_arg9 (by decide))).trans (Cert.ReferenceIdeal.Gen.W8_main_arg9 m' g' c),
      (h c _ (Cert.ReferenceIdeal.Gen.mem_uc Cert.ReferenceIdeal.main_arg10 (by decide))).trans (Cert.ReferenceIdeal.Gen.W8_main_arg10 m' g' c),
      (h c _ (Cert.ReferenceIdeal.Gen.mem_uc Cert.ReferenceIdeal.main_arg11 (by decide))).trans (Cert.ReferenceIdeal.Gen.W8_main_arg11 m' g' c),
      (h c _ (Cert.ReferenceIdeal.Gen.mem_uc Cert.ReferenceIdeal.main_arg12 (by decide))).trans (Cert.ReferenceIdeal.Gen.W8_main_arg12 m' g' c),
      (h c _ (Cert.ReferenceIdeal.Gen.mem_uc Cert.ReferenceIdeal.main_arg13 (by decide))).trans (Cert.ReferenceIdeal.Gen.W8_main_arg13 m' g' c),
      (h c _ (Cert.ReferenceIdeal.Gen.mem_uc Cert.ReferenceIdeal.main_arg14 (by decide))).trans (Cert.ReferenceIdeal.Gen.W8_main_arg14 m' g' c),
      (h c _ (Cert.ReferenceIdeal.Gen.mem_uc Cert.ReferenceIdeal.main_arg15 (by decide))).trans (Cert.ReferenceIdeal.Gen.W8_main_arg15 m' g' c),
      (h c _ (Cert.ReferenceIdeal.Gen.mem_uc Cert.ReferenceIdeal.main_arg16 (by decide))).trans (Cert.ReferenceIdeal.Gen.W8_main_arg16 m' g' c),
      (h c _ (Cert.ReferenceIdeal.Gen.mem_uc Cert.ReferenceIdeal.main_arg17 (by decide))).trans (Cert.ReferenceIdeal.Gen.W8_main_arg17 m' g' c),
      (h c _ (Cert.ReferenceIdeal.Gen.mem_uc Cert.ReferenceIdeal.main_arg18 (by decide))).trans (Cert.ReferenceIdeal.Gen.W8_main_arg18 m' g' c),
      (h c _ (Cert.ReferenceIdeal.Gen.mem_uc Cert.ReferenceIdeal.main_arg19 (by decide))).trans (Cert.ReferenceIdeal.Gen.W8_main_arg19 m' g' c),
      (h c _ (Cert.ReferenceIdeal.Gen.mem_uc Cert.ReferenceIdeal.main_arg20 (by decide))).trans (Cert.ReferenceIdeal.Gen.W8_main_arg20 m' g' c),
      (h c _ (Cert.ReferenceIdeal.Gen.mem_uc Cert.ReferenceIdeal.main_arg21 (by decide))).trans (Cert.ReferenceIdeal.Gen.W8_main_arg21 m' g' c),
      (h c _ (Cert.ReferenceIdeal.Gen.mem_uc Cert.ReferenceIdeal.main_arg22 (by decide))).trans (Cert.ReferenceIdeal.Gen.W8_main_arg22 m' g' c),
      (h c _ (Cert.ReferenceIdeal.Gen.mem_uc Cert.ReferenceIdeal.main_arg23 (by decide))).trans (Cert.ReferenceIdeal.Gen.W8_main_arg23 m' g' c),
      (h c _ (Cert.ReferenceIdeal.Gen.mem_uc Cert.ReferenceIdeal.main_arg24 (by decide))).trans (Cert.ReferenceIdeal.Gen.W8_main_arg24 m' g' c),
      (h c _ (Cert.ReferenceIdeal.Gen.mem_uc Cert.ReferenceIdeal.main_arg25 (by decide))).trans (Cert.ReferenceIdeal.Gen.W8_main_arg25 m' g' c),
      (h c _ (Cert.ReferenceIdeal.Gen.mem_uc Cert.ReferenceIdeal.main_arg26 (by decide))).trans (Cert.ReferenceIdeal.Gen.W8_main_arg26 m' g' c),
      (h c _ (Cert.ReferenceIdeal.Gen.mem_uc Cert.ReferenceIdeal.main_arg27 (by decide))).trans (Cert.ReferenceIdeal.Gen.W8_main_arg27 m' g' c),
      (h c _ (Cert.ReferenceIdeal.Gen.mem_uc Cert.ReferenceIdeal.main_arg28 (by decide))).trans (Cert.ReferenceIdeal.Gen.W8_main_arg28 m' g' c),
      (h c _ (Cert.ReferenceIdeal.Gen.mem_uc Cert.ReferenceIdeal.main_arg29 (by decide))).trans (Cert.ReferenceIdeal.Gen.W8_main_arg29 m' g' c),
      (h c _ (Cert.ReferenceIdeal.Gen.mem_uc Cert.ReferenceIdeal.main_arg30 (by decide))).trans (Cert.ReferenceIdeal.Gen.W8_main_arg30 m' g' c),
      (h c _ (Cert.ReferenceIdeal.Gen.mem_uc Cert.ReferenceIdeal.main_arg31 (by decide))).trans (Cert.ReferenceIdeal.Gen.W8_main_arg31 m' g' c),
      (h c _ (Cert.ReferenceIdeal.Gen.mem_uc Cert.ReferenceIdeal.main_arg32 (by decide))).trans (Cert.ReferenceIdeal.Gen.W8_main_arg32 m' g' c),
      (h c _ (Cert.ReferenceIdeal.Gen.mem_uc Cert.ReferenceIdeal.main_arg33 (by decide))).trans (Cert.ReferenceIdeal.Gen.W8_main_arg33 m' g' c),
      (h c _ (Cert.ReferenceIdeal.Gen.mem_uc Cert.ReferenceIdeal.main_arg34 (by decide))).trans (Cert.ReferenceIdeal.Gen.W8_main_arg34 m' g' c),
      (h c _ (Cert.ReferenceIdeal.Gen.mem_uc Cert.ReferenceIdeal.main_arg35 (by decide))).trans (Cert.ReferenceIdeal.Gen.W8_main_arg35 m' g' c),
      (h c _ (Cert.ReferenceIdeal.Gen.mem_uc Cert.ReferenceIdeal.main_arg36 (by decide))).trans (Cert.ReferenceIdeal.Gen.W8_main_arg36 m' g' c),
      (h c _ (Cert.ReferenceIdeal.Gen.mem_uc Cert.ReferenceIdeal.main_arg37 (by decide))).trans (Cert.ReferenceIdeal.Gen.W8_main_arg37 m' g' c),
      (h c _ (Cert.ReferenceIdeal.Gen.mem_uc Cert.ReferenceIdeal.main_arg38 (by decide))).trans (Cert.ReferenceIdeal.Gen.W8_main_arg38 m' g' c),
      (h c _ (Cert.ReferenceIdeal.Gen.mem_uc Cert.ReferenceIdeal.main_arg39 (by decide))).trans (Cert.ReferenceIdeal.Gen.W8_main_arg39 m' g' c),
      (h c _ (Cert.ReferenceIdeal.Gen.mem_uc Cert.ReferenceIdeal.main_arg40 (by decide))).trans (Cert.ReferenceIdeal.Gen.W8_main_arg40 m' g' c),
      (h c _ (Cert.ReferenceIdeal.Gen.mem_uc Cert.ReferenceIdeal.main_arg41 (by decide))).trans (Cert.ReferenceIdeal.Gen.W8_main_arg41 m' g' c),
      (h c _ (Cert.ReferenceIdeal.Gen.mem_uc Cert.ReferenceIdeal.main_arg42 (by decide))).trans (Cert.ReferenceIdeal.Gen.W8_main_arg42 m' g' c),
      (h c _ (Cert.ReferenceIdeal.Gen.mem_uc Cert.ReferenceIdeal.main_arg43 (by decide))).trans (Cert.ReferenceIdeal.Gen.W8_main_arg43 m' g' c),
      (h c _ (Cert.ReferenceIdeal.Gen.mem_uc Cert.ReferenceIdeal.main_arg44 (by decide))).trans (Cert.ReferenceIdeal.Gen.W8_main_arg44 m' g' c),
      (h c _ (Cert.ReferenceIdeal.Gen.mem_uc Cert.ReferenceIdeal.main_arg45 (by decide))).trans (Cert.ReferenceIdeal.Gen.W8_main_arg45 m' g' c),
      (h c _ (Cert.ReferenceIdeal.Gen.mem_uc Cert.ReferenceIdeal.main_arg46 (by decide))).trans (Cert.ReferenceIdeal.Gen.W8_main_arg46 m' g' c),
      (h c _ (Cert.ReferenceIdeal.Gen.mem_uc Cert.ReferenceIdeal.main_arg47 (by decide))).trans (Cert.ReferenceIdeal.Gen.W8_main_arg47 m' g' c),
      (h c _ (Cert.ReferenceIdeal.Gen.mem_uc Cert.ReferenceIdeal.main_arg48 (by decide))).trans (Cert.ReferenceIdeal.Gen.W8_main_arg48 m' g' c)⟩

end Cert.Proof.Algebraic

end
-- ==== Proof.lean ====
/-
  The proof of the certificate's claim: the three frames, the (empty) idealization ledger, and the equality of the two
  idealized programs' results.

  The kernel computes a two-layer post-norm transformer encoder over 64 memory slots and a pair of linear heads in one
  launch over blocks of 32 batch rows; the reference computes the same network in three launches (a layer per launch, one
  batch element per grid point, then the heads). On the extended reals the two differ only by rearrangements that are
  valid for finite entries: the kernel multiplies its input by the product of the first projection with each attention
  projection where the reference applies them one after the other; it leaves out the subtraction of the row maximum inside
  the softmax and divides by the row sum after the product with the values, the sums collected through one-hot columns;
  it projects the concatenated heads at once where the reference adds up per-head projections; and it takes row means by a
  product with the constant 1/256 where the reference divides by 256. Finiteness of the inputs (the precondition) is what
  each of these steps uses.
-/
import proofs.«141667_g2000002524955183_pallasbulk_3_44_alg».proof.Defs
import proofs.«141667_g2000002524955183_pallasbulk_3_44_alg».proof.Proof.Gen.Kernel
import proofs.«141667_g2000002524955183_pallasbulk_3_44_alg».proof.Proof.Gen.KernelIdeal
import proofs.«141667_g2000002524955183_pallasbulk_3_44_alg».proof.Proof.Gen.ReferenceIdeal
import proofs.«141667_g2000002524955183_pallasbulk_3_44_alg».proof.Proof.Gen.ReferenceIdeal.Frame
import proofs.«141667_g2000002524955183_pallasbulk_3_44_alg».proof.Proof.Gen.Pre_finite_inputs
import proofs.«141667_g2000002524955183_pallasbulk_3_44_alg».proof.Proof.KernelFrameP
import proofs.«141667_g2000002524955183_pallasbulk_3_44_alg».proof.Proof.KernelIdealFrameP
import proofs.«141667_g2000002524955183_pallasbulk_3_44_alg».proof.Proof.Algebraic
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.GenP.frame m ρ,
  fun m ρ _ => Cert.KernelIdeal.GenP.frame m ρ,
  fun m ρ _ => Cert.ReferenceIdeal.Gen.frame m ρ,
  trivial,
  Cert.Proof.Algebraic.algebraic⟩

end Cert.Proof

end
